-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v215)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v215) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v303) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x50000x4 : Shape := ⟨3, ![4, 50000, 4]⟩
abbrev S400000 : Shape := ⟨1, ![400000]⟩
abbrev S4x4x64 : Shape := ⟨3, ![4, 4, 64]⟩
abbrev S64 : Shape := ⟨1, ![64]⟩
abbrev S4x64x64 : Shape := ⟨3, ![4, 64, 64]⟩
abbrev S4x64x2 : Shape := ⟨3, ![4, 64, 2]⟩
abbrev S2 : Shape := ⟨1, ![2]⟩
abbrev S50000 : Shape := ⟨1, ![50000]⟩
abbrev S50000x2 : Shape := ⟨2, ![50000, 2]⟩
abbrev S_ : Shape := ⟨0, ![]⟩

class Facts : Prop where
  bcast_S_S4x50000x4 : S_.BroadcastsInDim S4x50000x4 (![] : Fin 0 → Fin S4x50000x4.rank)
  reducesTo_S4x50000x4_S_d0_1_2 : S4x50000x4.ReducesTo [0, 1, 2] S_
  h_S_ : 0 < S_.numel
  bcast_S_S400000 : S_.BroadcastsInDim S400000 (![] : Fin 0 → Fin S400000.rank)
  reducesTo_S400000_S_d0 : S400000.ReducesTo [0] S_
  bcast_S_S4x4x64 : S_.BroadcastsInDim S4x4x64 (![] : Fin 0 → Fin S4x4x64.rank)
  reducesTo_S4x4x64_S_d0_1_2 : S4x4x64.ReducesTo [0, 1, 2] S_
  bcast_S_S64 : S_.BroadcastsInDim S64 (![] : Fin 0 → Fin S64.rank)
  reducesTo_S64_S_d0 : S64.ReducesTo [0] S_
  bcast_S_S4x64x64 : S_.BroadcastsInDim S4x64x64 (![] : Fin 0 → Fin S4x64x64.rank)
  reducesTo_S4x64x64_S_d0_1_2 : S4x64x64.ReducesTo [0, 1, 2] S_
  bcast_S_S4x64x2 : S_.BroadcastsInDim S4x64x2 (![] : Fin 0 → Fin S4x64x2.rank)
  reducesTo_S4x64x2_S_d0_1_2 : S4x64x2.ReducesTo [0, 1, 2] S_
  bcast_S_S2 : S_.BroadcastsInDim S2 (![] : Fin 0 → Fin S2.rank)
  reducesTo_S2_S_d0 : S2.ReducesTo [0] S_
  bcast_S_S50000 : S_.BroadcastsInDim S50000 (![] : Fin 0 → Fin S50000.rank)
  reducesTo_S50000_S_d0 : S50000.ReducesTo [0] S_
  bcast_S_S50000x2 : S_.BroadcastsInDim S50000x2 (![] : Fin 0 → Fin S50000x2.rank)
  reducesTo_S50000x2_S_d0_1 : S50000x2.ReducesTo [0, 1] S_

variable [Facts]

def fn_part5 {F : FTy → Type} [FloatOps F] (main_arg20 : FVec F S50000 .f32) (main_v83 : IVec S_ 1) (main_v84 : FVec F S50000 .f32) (main_cst_32 : FVec F S_ .f32) : IVec S_ 1 :=
  let main_v85 : FVec F S50000 .f32 := broadcastInDim S50000 ![] bcast_S_S50000 main_cst_32
  let main_v86 : IVec S50000 1 := cmpf .olt main_v84 main_v85
  let main_c_33 : IVec S_ 1 := constantI S_ 1 1#1
  let main_v87 : IVec S_ 1 := (fun x v => Host.reduce IntOp.andi x v reducesTo_S50000_S_d0 h_S_) main_v86 main_c_33
  let main_v88 : IVec S_ 1 := andi main_v83 main_v87
  let main_v89 : FVec F S50000 .f32 := Host.absf main_arg20
  let main_cst_34 : FVec F S_ .f32 := constant S_ .f32 0x7F800000#32
  let main_v90 : FVec F S50000 .f32 := broadcastInDim S50000 ![] bcast_S_S50000 main_cst_34
  let main_v91 : IVec S50000 1 := cmpf .olt main_v89 main_v90
  let main_c_35 : IVec S_ 1 := constantI S_ 1 1#1
  let main_v92 : IVec S_ 1 := (fun x v => Host.reduce IntOp.andi x v reducesTo_S50000_S_d0 h_S_) main_v91 main_c_35
  let main_v93 : IVec S_ 1 := andi main_v88 main_v92
  main_v93

def fn_part4 {F : FTy → Type} [FloatOps F] (main_arg16 : FVec F S50000x2 .f32) (main_arg17 : FVec F S50000 .f32) (main_arg18 : FVec F S50000 .f32) (main_arg19 : FVec F S50000 .f32) (main_arg20 : FVec F S50000 .f32) (main_v63 : IVec S_ 1) (main_v67 : IVec S_ 1) : IVec S_ 1 :=
  let main_v68 : IVec S_ 1 := andi main_v63 main_v67
  let main_v69 : FVec F S50000x2 .f32 := Host.absf main_arg16
  let main_cst_26 : FVec F S_ .f32 := constant S_ .f32 0x7F800000#32
  let main_v70 : FVec F S50000x2 .f32 := broadcastInDim S50000x2 ![] bcast_S_S50000x2 main_cst_26
  let main_v71 : IVec S50000x2 1 := cmpf .olt main_v69 main_v70
  let main_c_27 : IVec S_ 1 := constantI S_ 1 1#1
  let main_v72 : IVec S_ 1 := (fun x v => Host.reduce IntOp.andi x v reducesTo_S50000x2_S_d0_1 h_S_) main_v71 main_c_27
  let main_v73 : IVec S_ 1 := andi main_v68 main_v72
  let main_v74 : FVec F S50000 .f32 := Host.absf main_arg17
  let main_cst_28 : FVec F S_ .f32 := constant S_ .f32 0x7F800000#32
  let main_v75 : FVec F S50000 .f32 := broadcastInDim S50000 ![] bcast_S_S50000 main_cst_28
  let main_v76 : IVec S50000 1 := cmpf .olt main_v74 main_v75
  let main_c_29 : IVec S_ 1 := constantI S_ 1 1#1
  let main_v77 : IVec S_ 1 := (fun x v => Host.reduce IntOp.andi x v reducesTo_S50000_S_d0 h_S_) main_v76 main_c_29
  let main_v78 : IVec S_ 1 := andi main_v73 main_v77
  let main_v79 : FVec F S50000 .f32 := Host.absf main_arg18
  let main_cst_30 : FVec F S_ .f32 := constant S_ .f32 0x7F800000#32
  let main_v80 : FVec F S50000 .f32 := broadcastInDim S50000 ![] bcast_S_S50000 main_cst_30
  let main_v81 : IVec S50000 1 := cmpf .olt main_v79 main_v80
  let main_c_31 : IVec S_ 1 := constantI S_ 1 1#1
  let main_v82 : IVec S_ 1 := (fun x v => Host.reduce IntOp.andi x v reducesTo_S50000_S_d0 h_S_) main_v81 main_c_31
  let main_v83 : IVec S_ 1 := andi main_v78 main_v82
  let main_v84 : FVec F S50000 .f32 := Host.absf main_arg19
  let main_cst_32 : FVec F S_ .f32 := constant S_ .f32 0x7F800000#32
  fn_part5 (F := F) main_arg20 main_v83 main_v84 main_cst_32

def fn_part3 {F : FTy → Type} [FloatOps F] (main_arg13 : FVec F S50000 .f32) (main_arg14 : FVec F S50000x2 .f32) (main_arg15 : FVec F S50000x2 .f32) (main_arg16 : FVec F S50000x2 .f32) (main_arg17 : FVec F S50000 .f32) (main_arg18 : FVec F S50000 .f32) (main_arg19 : FVec F S50000 .f32) (main_arg20 : FVec F S50000 .f32) (main_v48 : IVec S_ 1) (main_v49 : FVec F S50000 .f32) (main_v50 : FVec F S50000 .f32) : IVec S_ 1 :=
  let main_v51 : IVec S50000 1 := cmpf .olt main_v49 main_v50
  let main_c_19 : IVec S_ 1 := constantI S_ 1 1#1
  let main_v52 : IVec S_ 1 := (fun x v => Host.reduce IntOp.andi x v reducesTo_S50000_S_d0 h_S_) main_v51 main_c_19
  let main_v53 : IVec S_ 1 := andi main_v48 main_v52
  let main_v54 : FVec F S50000 .f32 := Host.absf main_arg13
  let main_cst_20 : FVec F S_ .f32 := constant S_ .f32 0x7F800000#32
  let main_v55 : FVec F S50000 .f32 := broadcastInDim S50000 ![] bcast_S_S50000 main_cst_20
  let main_v56 : IVec S50000 1 := cmpf .olt main_v54 main_v55
  let main_c_21 : IVec S_ 1 := constantI S_ 1 1#1
  let main_v57 : IVec S_ 1 := (fun x v => Host.reduce IntOp.andi x v reducesTo_S50000_S_d0 h_S_) main_v56 main_c_21
  let main_v58 : IVec S_ 1 := andi main_v53 main_v57
  let main_v59 : FVec F S50000x2 .f32 := Host.absf main_arg14
  let main_cst_22 : FVec F S_ .f32 := constant S_ .f32 0x7F800000#32
  let main_v60 : FVec F S50000x2 .f32 := broadcastInDim S50000x2 ![] bcast_S_S50000x2 main_cst_22
  let main_v61 : IVec S50000x2 1 := cmpf .olt main_v59 main_v60
  let main_c_23 : IVec S_ 1 := constantI S_ 1 1#1
  let main_v62 : IVec S_ 1 := (fun x v => Host.reduce IntOp.andi x v reducesTo_S50000x2_S_d0_1 h_S_) main_v61 main_c_23
  let main_v63 : IVec S_ 1 := andi main_v58 main_v62
  let main_v64 : FVec F S50000x2 .f32 := Host.absf main_arg15
  let main_cst_24 : FVec F S_ .f32 := constant S_ .f32 0x7F800000#32
  let main_v65 : FVec F S50000x2 .f32 := broadcastInDim S50000x2 ![] bcast_S_S50000x2 main_cst_24
  let main_v66 : IVec S50000x2 1 := cmpf .olt main_v64 main_v65
  let main_c_25 : IVec S_ 1 := constantI S_ 1 1#1
  let main_v67 : IVec S_ 1 := (fun x v => Host.reduce IntOp.andi x v reducesTo_S50000x2_S_d0_1 h_S_) main_v66 main_c_25
  fn_part4 (F := F) main_arg16 main_arg17 main_arg18 main_arg19 main_arg20 main_v63 main_v67

def fn_part2 {F : FTy → Type} [FloatOps F] (main_arg9 : FVec F S2 .f32) (main_arg10 : FVec F S50000 .f32) (main_arg11 : FVec F S50000 .f32) (main_arg12 : FVec F S50000 .f32) (main_arg13 : FVec F S50000 .f32) (main_arg14 : FVec F S50000x2 .f32) (main_arg15 : FVec F S50000x2 .f32) (main_arg16 : FVec F S50000x2 .f32) (main_arg17 : FVec F S50000 .f32) (main_arg18 : FVec F S50000 .f32) (main_arg19 : FVec F S50000 .f32) (main_arg20 : FVec F S50000 .f32) (main_v33 : IVec S_ 1) : IVec S_ 1 :=
  let main_v34 : FVec F S2 .f32 := Host.absf main_arg9
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  let main_v39 : FVec F S50000 .f32 := Host.absf main_arg10
  let main_cst_14 : FVec F S_ .f32 := constant S_ .f32 0x7F800000#32
  let main_v40 : FVec F S50000 .f32 := broadcastInDim S50000 ![] bcast_S_S50000 main_cst_14
  let main_v41 : IVec S50000 1 := cmpf .olt main_v39 main_v40
  let main_c_15 : IVec S_ 1 := constantI S_ 1 1#1
  let main_v42 : IVec S_ 1 := (fun x v => Host.reduce IntOp.andi x v reducesTo_S50000_S_d0 h_S_) main_v41 main_c_15
  let main_v43 : IVec S_ 1 := andi main_v38 main_v42
  let main_v44 : FVec F S50000 .f32 := Host.absf main_arg11
  let main_cst_16 : FVec F S_ .f32 := constant S_ .f32 0x7F800000#32
  let main_v45 : FVec F S50000 .f32 := broadcastInDim S50000 ![] bcast_S_S50000 main_cst_16
  let main_v46 : IVec S50000 1 := cmpf .olt main_v44 main_v45
  let main_c_17 : IVec S_ 1 := constantI S_ 1 1#1
  let main_v47 : IVec S_ 1 := (fun x v => Host.reduce IntOp.andi x v reducesTo_S50000_S_d0 h_S_) main_v46 main_c_17
  let main_v48 : IVec S_ 1 := andi main_v43 main_v47
  let main_v49 : FVec F S50000 .f32 := Host.absf main_arg12
  let main_cst_18 : FVec F S_ .f32 := constant S_ .f32 0x7F800000#32
  let main_v50 : FVec F S50000 .f32 := broadcastInDim S50000 ![] bcast_S_S50000 main_cst_18
  fn_part3 (F := F) main_arg13 main_arg14 main_arg15 main_arg16 main_arg17 main_arg18 main_arg19 main_arg20 main_v48 main_v49 main_v50

def fn_part1 {F : FTy → Type} [FloatOps F] (main_arg6 : FVec F S4x64x64 .f32) (main_arg7 : FVec F S64 .f32) (main_arg8 : FVec F S4x64x2 .f32) (main_arg9 : FVec F S2 .f32) (main_arg10 : FVec F S50000 .f32) (main_arg11 : FVec F S50000 .f32) (main_arg12 : FVec F S50000 .f32) (main_arg13 : FVec F S50000 .f32) (main_arg14 : FVec F S50000x2 .f32) (main_arg15 : FVec F S50000x2 .f32) (main_arg16 : FVec F S50000x2 .f32) (main_arg17 : FVec F S50000 .f32) (main_arg18 : FVec F S50000 .f32) (main_arg19 : FVec F S50000 .f32) (main_arg20 : FVec F S50000 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S4x64x64 .f32 := Host.absf main_arg6
  let main_cst_6 : FVec F S_ .f32 := constant S_ .f32 0x7F800000#32
  let main_v20 : FVec F S4x64x64 .f32 := broadcastInDim S4x64x64 ![] bcast_S_S4x64x64 main_cst_6
  let main_v21 : IVec S4x64x64 1 := cmpf .olt main_v19 main_v20
  let main_c_7 : IVec S_ 1 := constantI S_ 1 1#1
  let main_v22 : IVec S_ 1 := (fun x v => Host.reduce IntOp.andi x v reducesTo_S4x64x64_S_d0_1_2 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S4x64x2 .f32 := Host.absf main_arg8
  let main_cst_10 : FVec F S_ .f32 := constant S_ .f32 0x7F800000#32
  let main_v30 : FVec F S4x64x2 .f32 := broadcastInDim S4x64x2 ![] bcast_S_S4x64x2 main_cst_10
  let main_v31 : IVec S4x64x2 1 := cmpf .olt main_v29 main_v30
  let main_c_11 : IVec S_ 1 := constantI S_ 1 1#1
  let main_v32 : IVec S_ 1 := (fun x v => Host.reduce IntOp.andi x v reducesTo_S4x64x2_S_d0_1_2 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_v33

def fn {F : FTy → Type} [FloatOps F] (main_arg0 : FVec F S4x50000x4 .f32) (main_arg1 : IVec S400000 32) (main_arg2 : IVec S400000 32) (main_arg3 : FVec F S400000 .f32) (main_arg4 : FVec F S4x4x64 .f32) (main_arg5 : FVec F S64 .f32) (main_arg6 : FVec F S4x64x64 .f32) (main_arg7 : FVec F S64 .f32) (main_arg8 : FVec F S4x64x2 .f32) (main_arg9 : FVec F S2 .f32) (main_arg10 : FVec F S50000 .f32) (main_arg11 : FVec F S50000 .f32) (main_arg12 : FVec F S50000 .f32) (main_arg13 : FVec F S50000 .f32) (main_arg14 : FVec F S50000x2 .f32) (main_arg15 : FVec F S50000x2 .f32) (main_arg16 : FVec F S50000x2 .f32) (main_arg17 : FVec F S50000 .f32) (main_arg18 : FVec F S50000 .f32) (main_arg19 : FVec F S50000 .f32) (main_arg20 : FVec F S50000 .f32) : IVec S_ 1 :=
  let main_v0 : FVec F S4x50000x4 .f32 := Host.absf main_arg0
  let main_cst : FVec F S_ .f32 := constant S_ .f32 0x7F800000#32
  let main_v1 : FVec F S4x50000x4 .f32 := broadcastInDim S4x50000x4 ![] bcast_S_S4x50000x4 main_cst
  let main_v2 : IVec S4x50000x4 1 := cmpf .olt main_v0 main_v1
  let main_c : IVec S_ 1 := constantI S_ 1 1#1
  let main_v3 : IVec S_ 1 := (fun x v => Host.reduce IntOp.andi x v reducesTo_S4x50000x4_S_d0_1_2 h_S_) main_v2 main_c
  let main_v4 : FVec F S400000 .f32 := Host.absf main_arg3
  let main_cst_0 : FVec F S_ .f32 := constant S_ .f32 0x7F800000#32
  let main_v5 : FVec F S400000 .f32 := broadcastInDim S400000 ![] bcast_S_S400000 main_cst_0
  let main_v6 : IVec S400000 1 := cmpf .olt main_v4 main_v5
  let main_c_1 : IVec S_ 1 := constantI S_ 1 1#1
  let main_v7 : IVec S_ 1 := (fun x v => Host.reduce IntOp.andi x v reducesTo_S400000_S_d0 h_S_) main_v6 main_c_1
  let main_v8 : IVec S_ 1 := andi main_v3 main_v7
  let main_v9 : FVec F S4x4x64 .f32 := Host.absf main_arg4
  let main_cst_2 : FVec F S_ .f32 := constant S_ .f32 0x7F800000#32
  let main_v10 : FVec F S4x4x64 .f32 := broadcastInDim S4x4x64 ![] bcast_S_S4x4x64 main_cst_2
  let main_v11 : IVec S4x4x64 1 := cmpf .olt main_v9 main_v10
  let main_c_3 : IVec S_ 1 := constantI S_ 1 1#1
  let main_v12 : IVec S_ 1 := (fun x v => Host.reduce IntOp.andi x v reducesTo_S4x4x64_S_d0_1_2 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_v13 main_v16
-- ==== Kernel.lean ====
abbrev S4x50000x4 : Shape := ⟨3, ![4, 50000, 4]⟩
abbrev S400000 : Shape := ⟨1, ![400000]⟩
abbrev S4x4x64 : Shape := ⟨3, ![4, 4, 64]⟩
abbrev S64 : Shape := ⟨1, ![64]⟩
abbrev S4x64x64 : Shape := ⟨3, ![4, 64, 64]⟩
abbrev S4x64x2 : Shape := ⟨3, ![4, 64, 2]⟩
abbrev S2 : Shape := ⟨1, ![2]⟩
abbrev S50000 : Shape := ⟨1, ![50000]⟩
abbrev S50000x2 : Shape := ⟨2, ![50000, 2]⟩
abbrev S_ : Shape := ⟨0, ![]⟩
abbrev S400000x1 : Shape := ⟨2, ![400000, 1]⟩
abbrev S16x64 : Shape := ⟨2, ![16, 64]⟩
abbrev S4x400000x4 : Shape := ⟨3, ![4, 400000, 4]⟩
abbrev S1x400000x1 : Shape := ⟨3, ![1, 400000, 1]⟩
abbrev S4x50000x16 : Shape := ⟨3, ![4, 50000, 16]⟩
abbrev S1x64 : Shape := ⟨2, ![1, 64]⟩
abbrev S50000x1 : Shape := ⟨2, ![50000, 1]⟩
abbrev S4x50000x64 : Shape := ⟨3, ![4, 50000, 64]⟩
abbrev S4x2000x16 : Shape := ⟨3, ![4, 2000, 16]⟩
abbrev S2000x1 : Shape := ⟨2, ![2000, 1]⟩
abbrev S4x2000x64 : Shape := ⟨3, ![4, 2000, 64]⟩
abbrev S8000x16 : Shape := ⟨2, ![8000, 16]⟩
abbrev S8000x64 : Shape := ⟨2, ![8000, 64]⟩
abbrev S1x1x64 : Shape := ⟨3, ![1, 1, 64]⟩
abbrev S4x2000 : Shape := ⟨2, ![4, 2000]⟩
abbrev S4x2000x1 : Shape := ⟨3, ![4, 2000, 1]⟩
abbrev S1x2000x1 : Shape := ⟨3, ![1, 2000, 1]⟩
abbrev S256x64 : Shape := ⟨2, ![256, 64]⟩
abbrev S4x400000x64 : Shape := ⟨3, ![4, 400000, 64]⟩
abbrev S4x50000x256 : Shape := ⟨3, ![4, 50000, 256]⟩
abbrev S4x2000x256 : Shape := ⟨3, ![4, 2000, 256]⟩
abbrev S8000x256 : Shape := ⟨2, ![8000, 256]⟩
abbrev S256x2 : Shape := ⟨2, ![256, 2]⟩
abbrev S1x2 : Shape := ⟨2, ![1, 2]⟩
abbrev S4x50000x2 : Shape := ⟨3, ![4, 50000, 2]⟩
abbrev S2000x2 : Shape := ⟨2, ![2000, 2]⟩
abbrev S4x2000x2 : Shape := ⟨3, ![4, 2000, 2]⟩
abbrev S8000x2 : Shape := ⟨2, ![8000, 2]⟩
abbrev S1x1x2 : Shape := ⟨3, ![1, 1, 2]⟩
abbrev S1x2000x2 : Shape := ⟨3, ![1, 2000, 2]⟩

abbrev nBuf : Space → Nat
  | .hbm => 300
  | .vmem => 36
  | .smem => 0
  | _ => 0

abbrev hbmTy0_0 (i : Nat) : BufTy := match i % 128 with
  | 0 => ⟨S4x50000x4, .f32⟩
  | 1 => ⟨S400000, .i32⟩
  | 2 => ⟨S400000, .i32⟩
  | 3 => ⟨S400000, .f32⟩
  | 4 => ⟨S4x4x64, .f32⟩
  | 5 => ⟨S64, .f32⟩
  | 6 => ⟨S4x64x64, .f32⟩
  | 7 => ⟨S64, .f32⟩
  | 8 => ⟨S4x64x2, .f32⟩
  | 9 => ⟨S2, .f32⟩
  | 10 => ⟨S50000, .f32⟩
  | 11 => ⟨S50000, .f32⟩
  | 12 => ⟨S50000, .f32⟩
  | 13 => ⟨S50000, .f32⟩
  | 14 => ⟨S50000x2, .f32⟩
  | 15 => ⟨S50000x2, .f32⟩
  | 16 => ⟨S50000x2, .f32⟩
  | 17 => ⟨S50000, .f32⟩
  | 18 => ⟨S50000, .f32⟩
  | 19 => ⟨S50000, .f32⟩
  | 20 => ⟨S50000, .f32⟩
  | 21 => ⟨S_, .f32⟩
  | 22 => ⟨S50000, .f32⟩
  | 23 => ⟨S_, .i32⟩
  | 24 => ⟨S400000, .i32⟩
  | 25 => ⟨S400000, .i1⟩
  | 26 => ⟨S_, .i32⟩
  | 27 => ⟨S400000, .i32⟩
  | 28 => ⟨S400000, .i32⟩
  | 29 => ⟨S400000, .i32⟩
  | 30 => ⟨S400000x1, .i32⟩
  | 31 => ⟨S50000, .f32⟩
  | 32 => ⟨S_, .f32⟩
  | 33 => ⟨S50000, .f32⟩
  | 34 => ⟨S50000, .i1⟩
  | 35 => ⟨S_, .f32⟩
  | 36 => ⟨S50000, .f32⟩
  | 37 => ⟨S50000, .f32⟩
  | 38 => ⟨S50000, .f32⟩
  | 39 => ⟨S_, .f32⟩
  | 40 => ⟨S_, .f32⟩
  | 41 => ⟨S50000, .f32⟩
  | 42 => ⟨S50000, .f32⟩
  | 43 => ⟨S_, .i32⟩
  | 44 => ⟨S400000, .i32⟩
  | 45 => ⟨S400000, .i1⟩
  | 46 => ⟨S_, .i32⟩
  | 47 => ⟨S400000, .i32⟩
  | 48 => ⟨S400000, .i32⟩
  | 49 => ⟨S400000, .i32⟩
  | 50 => ⟨S400000x1, .i32⟩
  | 51 => ⟨S400000, .f32⟩
  | 52 => ⟨S400000, .f32⟩
  | 53 => ⟨S_, .i32⟩
  | 54 => ⟨S400000, .i32⟩
  | 55 => ⟨S400000, .i1⟩
  | 56 => ⟨S_, .i32⟩
  | 57 => ⟨S400000, .i32⟩
  | 58 => ⟨S400000, .i32⟩
  | 59 => ⟨S400000, .i32⟩
  | 60 => ⟨S400000x1, .i32⟩
  | 61 => ⟨S400000, .f32⟩
  | 62 => ⟨S400000, .f32⟩
  | 63 => ⟨S16x64, .f32⟩
  | 64 => ⟨S_, .i32⟩
  | 65 => ⟨S400000, .i32⟩
  | 66 => ⟨S400000, .i1⟩
  | 67 => ⟨S_, .i32⟩
  | 68 => ⟨S400000, .i32⟩
  | 69 => ⟨S400000, .i32⟩
  | 70 => ⟨S400000, .i32⟩
  | 71 => ⟨S400000x1, .i32⟩
  | 72 => ⟨S4x400000x4, .f32⟩
  | 73 => ⟨S1x400000x1, .f32⟩
  | 74 => ⟨S4x400000x4, .f32⟩
  | 75 => ⟨S4x400000x4, .f32⟩
  | 76 => ⟨S_, .f32⟩
  | 77 => ⟨S4x50000x4, .f32⟩
  | 78 => ⟨S_, .i32⟩
  | 79 => ⟨S400000, .i32⟩
  | 80 => ⟨S400000, .i1⟩
  | 81 => ⟨S_, .i32⟩
  | 82 => ⟨S400000, .i32⟩
  | 83 => ⟨S400000, .i32⟩
  | 84 => ⟨S400000, .i32⟩
  | 85 => ⟨S400000x1, .i32⟩
  | 86 => ⟨S4x50000x4, .f32⟩
  | 87 => ⟨S_, .i32⟩
  | 88 => ⟨S400000, .i32⟩
  | 89 => ⟨S400000, .i1⟩
  | 90 => ⟨S_, .i32⟩
  | 91 => ⟨S400000, .i32⟩
  | 92 => ⟨S400000, .i32⟩
  | 93 => ⟨S400000, .i32⟩
  | 94 => ⟨S400000x1, .i32⟩
  | 95 => ⟨S4x400000x4, .f32⟩
  | 96 => ⟨S1x400000x1, .f32⟩
  | 97 => ⟨S4x400000x4, .f32⟩
  | 98 => ⟨S4x400000x4, .f32⟩
  | 99 => ⟨S_, .f32⟩
  | 100 => ⟨S4x50000x4, .f32⟩
  | 101 => ⟨S_, .i32⟩
  | 102 => ⟨S400000, .i32⟩
  | 103 => ⟨S400000, .i1⟩
  | 104 => ⟨S_, .i32⟩
  | 105 => ⟨S400000, .i32⟩
  | 106 => ⟨S400000, .i32⟩
  | 107 => ⟨S400000, .i32⟩
  | 108 => ⟨S400000x1, .i32⟩
  | 109 => ⟨S4x50000x4, .f32⟩
  | 110 => ⟨S_, .i32⟩
  | 111 => ⟨S400000, .i32⟩
  | 112 => ⟨S400000, .i1⟩
  | 113 => ⟨S_, .i32⟩
  | 114 => ⟨S400000, .i32⟩
  | 115 => ⟨S400000, .i32⟩
  | 116 => ⟨S400000, .i32⟩
  | 117 => ⟨S400000x1, .i32⟩
  | 118 => ⟨S4x400000x4, .f32⟩
  | 119 => ⟨S1x400000x1, .f32⟩
  | 120 => ⟨S4x400000x4, .f32⟩
  | 121 => ⟨S4x400000x4, .f32⟩
  | 122 => ⟨S_, .f32⟩
  | 123 => ⟨S4x50000x4, .f32⟩
  | 124 => ⟨S_, .i32⟩
  | 125 => ⟨S400000, .i32⟩
  | 126 => ⟨S400000, .i1⟩
  | 127 => ⟨S_, .i32⟩
  | _ => ⟨S4x50000x4, .f32⟩

abbrev hbmTy0_1 (i : Nat) : BufTy := match i % 128 with
  | 0 => ⟨S400000, .i32⟩
  | 1 => ⟨S400000, .i32⟩
  | 2 => ⟨S400000, .i32⟩
  | 3 => ⟨S400000x1, .i32⟩
  | 4 => ⟨S4x50000x4, .f32⟩
  | 5 => ⟨S4x50000x16, .f32⟩
  | 6 => ⟨S1x64, .f32⟩
  | 7 => ⟨S50000x1, .f32⟩
  | 8 => ⟨S50000x1, .f32⟩
  | 9 => ⟨S4x50000x64, .f32⟩
  | 10 => ⟨S256x64, .f32⟩
  | 11 => ⟨S_, .i32⟩
  | 12 => ⟨S400000, .i32⟩
  | 13 => ⟨S400000, .i1⟩
  | 14 => ⟨S_, .i32⟩
  | 15 => ⟨S400000, .i32⟩
  | 16 => ⟨S400000, .i32⟩
  | 17 => ⟨S400000, .i32⟩
  | 18 => ⟨S400000x1, .i32⟩
  | 19 => ⟨S4x400000x64, .f32⟩
  | 20 => ⟨S1x400000x1, .f32⟩
  | 21 => ⟨S4x400000x64, .f32⟩
  | 22 => ⟨S4x400000x64, .f32⟩
  | 23 => ⟨S_, .f32⟩
  | 24 => ⟨S4x50000x64, .f32⟩
  | 25 => ⟨S_, .i32⟩
  | 26 => ⟨S400000, .i32⟩
  | 27 => ⟨S400000, .i1⟩
  | 28 => ⟨S_, .i32⟩
  | 29 => ⟨S400000, .i32⟩
  | 30 => ⟨S400000, .i32⟩
  | 31 => ⟨S400000, .i32⟩
  | 32 => ⟨S400000x1, .i32⟩
  | 33 => ⟨S4x50000x64, .f32⟩
  | 34 => ⟨S_, .i32⟩
  | 35 => ⟨S400000, .i32⟩
  | 36 => ⟨S400000, .i1⟩
  | 37 => ⟨S_, .i32⟩
  | 38 => ⟨S400000, .i32⟩
  | 39 => ⟨S400000, .i32⟩
  | 40 => ⟨S400000, .i32⟩
  | 41 => ⟨S400000x1, .i32⟩
  | 42 => ⟨S4x400000x64, .f32⟩
  | 43 => ⟨S1x400000x1, .f32⟩
  | 44 => ⟨S4x400000x64, .f32⟩
  | 45 => ⟨S4x400000x64, .f32⟩
  | 46 => ⟨S_, .f32⟩
  | 47 => ⟨S4x50000x64, .f32⟩
  | 48 => ⟨S_, .i32⟩
  | 49 => ⟨S400000, .i32⟩
  | 50 => ⟨S400000, .i1⟩
  | 51 => ⟨S_, .i32⟩
  | 52 => ⟨S400000, .i32⟩
  | 53 => ⟨S400000, .i32⟩
  | 54 => ⟨S400000, .i32⟩
  | 55 => ⟨S400000x1, .i32⟩
  | 56 => ⟨S4x50000x64, .f32⟩
  | 57 => ⟨S_, .i32⟩
  | 58 => ⟨S400000, .i32⟩
  | 59 => ⟨S400000, .i1⟩
  | 60 => ⟨S_, .i32⟩
  | 61 => ⟨S400000, .i32⟩
  | 62 => ⟨S400000, .i32⟩
  | 63 => ⟨S400000, .i32⟩
  | 64 => ⟨S400000x1, .i32⟩
  | 65 => ⟨S4x400000x64, .f32⟩
  | 66 => ⟨S1x400000x1, .f32⟩
  | 67 => ⟨S4x400000x64, .f32⟩
  | 68 => ⟨S4x400000x64, .f32⟩
  | 69 => ⟨S_, .f32⟩
  | 70 => ⟨S4x50000x64, .f32⟩
  | 71 => ⟨S_, .i32⟩
  | 72 => ⟨S400000, .i32⟩
  | 73 => ⟨S400000, .i1⟩
  | 74 => ⟨S_, .i32⟩
  | 75 => ⟨S400000, .i32⟩
  | 76 => ⟨S400000, .i32⟩
  | 77 => ⟨S400000, .i32⟩
  | 78 => ⟨S400000x1, .i32⟩
  | 79 => ⟨S4x50000x64, .f32⟩
  | 80 => ⟨S4x50000x256, .f32⟩
  | 81 => ⟨S1x64, .f32⟩
  | 82 => ⟨S50000x1, .f32⟩
  | 83 => ⟨S50000x1, .f32⟩
  | 84 => ⟨S4x50000x64, .f32⟩
  | 85 => ⟨S256x2, .f32⟩
  | 86 => ⟨S_, .i32⟩
  | 87 => ⟨S400000, .i32⟩
  | 88 => ⟨S400000, .i1⟩
  | 89 => ⟨S_, .i32⟩
  | 90 => ⟨S400000, .i32⟩
  | 91 => ⟨S400000, .i32⟩
  | 92 => ⟨S400000, .i32⟩
  | 93 => ⟨S400000x1, .i32⟩
  | 94 => ⟨S4x400000x64, .f32⟩
  | 95 => ⟨S1x400000x1, .f32⟩
  | 96 => ⟨S4x400000x64, .f32⟩
  | 97 => ⟨S4x400000x64, .f32⟩
  | 98 => ⟨S_, .f32⟩
  | 99 => ⟨S4x50000x64, .f32⟩
  | 100 => ⟨S_, .i32⟩
  | 101 => ⟨S400000, .i32⟩
  | 102 => ⟨S400000, .i1⟩
  | 103 => ⟨S_, .i32⟩
  | 104 => ⟨S400000, .i32⟩
  | 105 => ⟨S400000, .i32⟩
  | 106 => ⟨S400000, .i32⟩
  | 107 => ⟨S400000x1, .i32⟩
  | 108 => ⟨S4x50000x64, .f32⟩
  | 109 => ⟨S_, .i32⟩
  | 110 => ⟨S400000, .i32⟩
  | 111 => ⟨S400000, .i1⟩
  | 112 => ⟨S_, .i32⟩
  | 113 => ⟨S400000, .i32⟩
  | 114 => ⟨S400000, .i32⟩
  | 115 => ⟨S400000, .i32⟩
  | 116 => ⟨S400000x1, .i32⟩
  | 117 => ⟨S4x400000x64, .f32⟩
  | 118 => ⟨S1x400000x1, .f32⟩
  | 119 => ⟨S4x400000x64, .f32⟩
  | 120 => ⟨S4x400000x64, .f32⟩
  | 121 => ⟨S_, .f32⟩
  | 122 => ⟨S4x50000x64, .f32⟩
  | 123 => ⟨S_, .i32⟩
  | 124 => ⟨S400000, .i32⟩
  | 125 => ⟨S400000, .i1⟩
  | 126 => ⟨S_, .i32⟩
  | 127 => ⟨S400000, .i32⟩
  | _ => ⟨S4x50000x4, .f32⟩

abbrev hbmTy0_2 (i : Nat) : BufTy := match i % 128 with
  | 0 => ⟨S400000, .i32⟩
  | 1 => ⟨S400000, .i32⟩
  | 2 => ⟨S400000x1, .i32⟩
  | 3 => ⟨S4x50000x64, .f32⟩
  | 4 => ⟨S_, .i32⟩
  | 5 => ⟨S400000, .i32⟩
  | 6 => ⟨S400000, .i1⟩
  | 7 => ⟨S_, .i32⟩
  | 8 => ⟨S400000, .i32⟩
  | 9 => ⟨S400000, .i32⟩
  | 10 => ⟨S400000, .i32⟩
  | 11 => ⟨S400000x1, .i32⟩
  | 12 => ⟨S4x400000x64, .f32⟩
  | 13 => ⟨S1x400000x1, .f32⟩
  | 14 => ⟨S4x400000x64, .f32⟩
  | 15 => ⟨S4x400000x64, .f32⟩
  | 16 => ⟨S_, .f32⟩
  | 17 => ⟨S4x50000x64, .f32⟩
  | 18 => ⟨S_, .i32⟩
  | 19 => ⟨S400000, .i32⟩
  | 20 => ⟨S400000, .i1⟩
  | 21 => ⟨S_, .i32⟩
  | 22 => ⟨S400000, .i32⟩
  | 23 => ⟨S400000, .i32⟩
  | 24 => ⟨S400000, .i32⟩
  | 25 => ⟨S400000x1, .i32⟩
  | 26 => ⟨S4x50000x64, .f32⟩
  | 27 => ⟨S4x50000x256, .f32⟩
  | 28 => ⟨S50000x2, .f32⟩
  | 29 => ⟨S_, .f32⟩
  | 30 => ⟨S50000x2, .f32⟩
  | 31 => ⟨S50000x2, .i1⟩
  | 32 => ⟨S_, .f32⟩
  | 33 => ⟨S_, .f32⟩
  | 34 => ⟨S50000x2, .f32⟩
  | 35 => ⟨S50000x2, .f32⟩
  | 36 => ⟨S50000x1, .f32⟩
  | 37 => ⟨S50000x1, .f32⟩
  | 38 => ⟨S50000x2, .f32⟩
  | 39 => ⟨S50000x1, .f32⟩
  | 40 => ⟨S50000x1, .f32⟩
  | 41 => ⟨S50000x2, .f32⟩
  | 42 => ⟨S1x2, .f32⟩
  | 43 => ⟨S4x50000x2, .f32⟩
  | _ => ⟨S4x50000x4, .f32⟩

abbrev hbmTy (i : Nat) : BufTy := match i / 128 with
  | 0 => hbmTy0_0 i
  | 1 => hbmTy0_1 i
  | 2 => hbmTy0_2 i
  | _ => ⟨S4x50000x4, .f32⟩

abbrev bufTy : (tb : Table) → Fin (tcTables nBuf tb) → BufTy
  | .hbm, ⟨i, _⟩ => hbmTy i
  | .local _ .vmem, ⟨0, _⟩ => ⟨S4x2000x16, .f32⟩
  | .local _ .vmem, ⟨1, _⟩ => ⟨S4x2000x16, .f32⟩
  | .local _ .vmem, ⟨2, _⟩ => ⟨S16x64, .f32⟩
  | .local _ .vmem, ⟨3, _⟩ => ⟨S1x64, .f32⟩
  | .local _ .vmem, ⟨4, _⟩ => ⟨S2000x1, .f32⟩
  | .local _ .vmem, ⟨5, _⟩ => ⟨S2000x1, .f32⟩
  | .local _ .vmem, ⟨6, _⟩ => ⟨S2000x1, .f32⟩
  | .local _ .vmem, ⟨7, _⟩ => ⟨S2000x1, .f32⟩
  | .local _ .vmem, ⟨8, _⟩ => ⟨S4x2000x64, .f32⟩
  | .local _ .vmem, ⟨9, _⟩ => ⟨S4x2000x64, .f32⟩
  | .local _ .vmem, ⟨10, _⟩ => ⟨S4x2000x256, .f32⟩
  | .local _ .vmem, ⟨11, _⟩ => ⟨S4x2000x256, .f32⟩
  | .local _ .vmem, ⟨12, _⟩ => ⟨S256x64, .f32⟩
  | .local _ .vmem, ⟨13, _⟩ => ⟨S1x64, .f32⟩
  | .local _ .vmem, ⟨14, _⟩ => ⟨S2000x1, .f32⟩
  | .local _ .vmem, ⟨15, _⟩ => ⟨S2000x1, .f32⟩
  | .local _ .vmem, ⟨16, _⟩ => ⟨S2000x1, .f32⟩
  | .local _ .vmem, ⟨17, _⟩ => ⟨S2000x1, .f32⟩
  | .local _ .vmem, ⟨18, _⟩ => ⟨S4x2000x64, .f32⟩
  | .local _ .vmem, ⟨19, _⟩ => ⟨S4x2000x64, .f32⟩
  | .local _ .vmem, ⟨20, _⟩ => ⟨S4x2000x256, .f32⟩
  | .local _ .vmem, ⟨21, _⟩ => ⟨S4x2000x256, .f32⟩
  | .local _ .vmem, ⟨22, _⟩ => ⟨S256x2, .f32⟩
  | .local _ .vmem, ⟨23, _⟩ => ⟨S1x2, .f32⟩
  | .local _ .vmem, ⟨24, _⟩ => ⟨S2000x2, .f32⟩
  | .local _ .vmem, ⟨25, _⟩ => ⟨S2000x2, .f32⟩
  | .local _ .vmem, ⟨26, _⟩ => ⟨S2000x2, .f32⟩
  | .local _ .vmem, ⟨27, _⟩ => ⟨S2000x2, .f32⟩
  | .local _ .vmem, ⟨28, _⟩ => ⟨S2000x2, .f32⟩
  | .local _ .vmem, ⟨29, _⟩ => ⟨S2000x2, .f32⟩
  | .local _ .vmem, ⟨30, _⟩ => ⟨S2000x2, .f32⟩
  | .local _ .vmem, ⟨31, _⟩ => ⟨S2000x2, .f32⟩
  | .local _ .vmem, ⟨32, _⟩ => ⟨S2000x2, .f32⟩
  | .local _ .vmem, ⟨33, _⟩ => ⟨S2000x2, .f32⟩
  | .local _ .vmem, ⟨34, _⟩ => ⟨S4x2000x2, .f32⟩
  | .local _ .vmem, ⟨35, _⟩ => ⟨S4x2000x2, .f32⟩
  | _, _ => ⟨S4x50000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_c : Ref sig .tc := ⟨.hbm, 23, rfl⟩
abbrev main_v1 : Ref sig .tc := ⟨.hbm, 24, rfl⟩
abbrev main_v2 : Ref sig .tc := ⟨.hbm, 25, rfl⟩
abbrev main_c_0 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst_1 : Ref sig .tc := ⟨.hbm, 32, rfl⟩
abbrev main_v8 : Ref sig .tc := ⟨.hbm, 33, rfl⟩
abbrev main_v9 : Ref sig .tc := ⟨.hbm, 34, rfl⟩
abbrev main_cst_2 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_v13 : Ref sig .tc := ⟨.hbm, 42, rfl⟩
abbrev main_c_4 : Ref sig .tc := ⟨.hbm, 43, rfl⟩
abbrev main_v14 : Ref sig .tc := ⟨.hbm, 44, rfl⟩
abbrev main_v15 : Ref sig .tc := ⟨.hbm, 45, rfl⟩
abbrev main_c_5 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_c_6 : Ref sig .tc := ⟨.hbm, 53, rfl⟩
abbrev main_v22 : Ref sig .tc := ⟨.hbm, 54, rfl⟩
abbrev main_v23 : Ref sig .tc := ⟨.hbm, 55, rfl⟩
abbrev main_c_7 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_c_8 : Ref sig .tc := ⟨.hbm, 64, rfl⟩
abbrev main_v31 : Ref sig .tc := ⟨.hbm, 65, rfl⟩
abbrev main_v32 : Ref sig .tc := ⟨.hbm, 66, rfl⟩
abbrev main_c_9 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_cst_10 : Ref sig .tc := ⟨.hbm, 76, rfl⟩
abbrev main_v41 : Ref sig .tc := ⟨.hbm, 77, rfl⟩
abbrev main_c_11 : Ref sig .tc := ⟨.hbm, 78, rfl⟩
abbrev main_v42 : Ref sig .tc := ⟨.hbm, 79, rfl⟩
abbrev main_v43 : Ref sig .tc := ⟨.hbm, 80, rfl⟩
abbrev main_c_12 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_c_13 : Ref sig .tc := ⟨.hbm, 87, rfl⟩
abbrev main_v49 : Ref sig .tc := ⟨.hbm, 88, rfl⟩
abbrev main_v50 : Ref sig .tc := ⟨.hbm, 89, rfl⟩
abbrev main_c_14 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_cst_15 : Ref sig .tc := ⟨.hbm, 99, rfl⟩
abbrev main_v59 : Ref sig .tc := ⟨.hbm, 100, rfl⟩
abbrev main_c_16 : Ref sig .tc := ⟨.hbm, 101, rfl⟩
abbrev main_v60 : Ref sig .tc := ⟨.hbm, 102, rfl⟩
abbrev main_v61 : Ref sig .tc := ⟨.hbm, 103, rfl⟩
abbrev main_c_17 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_c_18 : Ref sig .tc := ⟨.hbm, 110, rfl⟩
abbrev main_v67 : Ref sig .tc := ⟨.hbm, 111, rfl⟩
abbrev main_v68 : Ref sig .tc := ⟨.hbm, 112, rfl⟩
abbrev main_c_19 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_20 : Ref sig .tc := ⟨.hbm, 122, rfl⟩
abbrev main_v77 : Ref sig .tc := ⟨.hbm, 123, rfl⟩
abbrev main_c_21 : Ref sig .tc := ⟨.hbm, 124, rfl⟩
abbrev main_v78 : Ref sig .tc := ⟨.hbm, 125, rfl⟩
abbrev main_v79 : Ref sig .tc := ⟨.hbm, 126, rfl⟩
abbrev main_c_22 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_c_23 : Ref sig .tc := ⟨.hbm, 139, rfl⟩
abbrev main_v91 : Ref sig .tc := ⟨.hbm, 140, rfl⟩
abbrev main_v92 : Ref sig .tc := ⟨.hbm, 141, rfl⟩
abbrev main_c_24 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_cst_25 : Ref sig .tc := ⟨.hbm, 151, rfl⟩
abbrev main_v101 : Ref sig .tc := ⟨.hbm, 152, rfl⟩
abbrev main_c_26 : Ref sig .tc := ⟨.hbm, 153, rfl⟩
abbrev main_v102 : Ref sig .tc := ⟨.hbm, 154, rfl⟩
abbrev main_v103 : Ref sig .tc := ⟨.hbm, 155, rfl⟩
abbrev main_c_27 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_c_28 : Ref sig .tc := ⟨.hbm, 162, rfl⟩
abbrev main_v109 : Ref sig .tc := ⟨.hbm, 163, rfl⟩
abbrev main_v110 : Ref sig .tc := ⟨.hbm, 164, rfl⟩
abbrev main_c_29 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_cst_30 : Ref sig .tc := ⟨.hbm, 174, rfl⟩
abbrev main_v119 : Ref sig .tc := ⟨.hbm, 175, rfl⟩
abbrev main_c_31 : Ref sig .tc := ⟨.hbm, 176, rfl⟩
abbrev main_v120 : Ref sig .tc := ⟨.hbm, 177, rfl⟩
abbrev main_v121 : Ref sig .tc := ⟨.hbm, 178, rfl⟩
abbrev main_c_32 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_c_33 : Ref sig .tc := ⟨.hbm, 185, rfl⟩
abbrev main_v127 : Ref sig .tc := ⟨.hbm, 186, rfl⟩
abbrev main_v128 : Ref sig .tc := ⟨.hbm, 187, rfl⟩
abbrev main_c_34 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_cst_35 : Ref sig .tc := ⟨.hbm, 197, rfl⟩
abbrev main_v137 : Ref sig .tc := ⟨.hbm, 198, rfl⟩
abbrev main_c_36 : Ref sig .tc := ⟨.hbm, 199, rfl⟩
abbrev main_v138 : Ref sig .tc := ⟨.hbm, 200, rfl⟩
abbrev main_v139 : Ref sig .tc := ⟨.hbm, 201, rfl⟩
abbrev main_c_37 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_c_38 : Ref sig .tc := ⟨.hbm, 214, rfl⟩
abbrev main_v151 : Ref sig .tc := ⟨.hbm, 215, rfl⟩
abbrev main_v152 : Ref sig .tc := ⟨.hbm, 216, rfl⟩
abbrev main_c_39 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_cst_40 : Ref sig .tc := ⟨.hbm, 226, rfl⟩
abbrev main_v161 : Ref sig .tc := ⟨.hbm, 227, rfl⟩
abbrev main_c_41 : Ref sig .tc := ⟨.hbm, 228, rfl⟩
abbrev main_v162 : Ref sig .tc := ⟨.hbm, 229, rfl⟩
abbrev main_v163 : Ref sig .tc := ⟨.hbm, 230, rfl⟩
abbrev main_c_42 : Ref sig .tc := ⟨.hbm, 231, rfl⟩
abbrev main_v164 : Ref sig .tc := ⟨.hbm, 232, rfl⟩
abbrev main_v165 : Ref sig .tc := ⟨.hbm, 233, rfl⟩
abbrev main_v166 : Ref sig .tc := ⟨.hbm, 234, rfl⟩
abbrev main_v167 : Ref sig .tc := ⟨.hbm, 235, rfl⟩
abbrev main_v168 : Ref sig .tc := ⟨.hbm, 236, rfl⟩
abbrev main_c_43 : Ref sig .tc := ⟨.hbm, 237, rfl⟩
abbrev main_v169 : Ref sig .tc := ⟨.hbm, 238, rfl⟩
abbrev main_v170 : Ref sig .tc := ⟨.hbm, 239, rfl⟩
abbrev main_c_44 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩
abbrev main_v174 : Ref sig .tc := ⟨.hbm, 244, rfl⟩
abbrev main_v175 : Ref sig .tc := ⟨.hbm, 245, rfl⟩
abbrev main_v176 : Ref sig .tc := ⟨.hbm, 246, rfl⟩
abbrev main_v177 : Ref sig .tc := ⟨.hbm, 247, rfl⟩
abbrev main_v178 : Ref sig .tc := ⟨.hbm, 248, rfl⟩
abbrev main_cst_45 : Ref sig .tc := ⟨.hbm, 249, rfl⟩
abbrev main_v179 : Ref sig .tc := ⟨.hbm, 250, rfl⟩
abbrev main_c_46 : Ref sig .tc := ⟨.hbm, 251, rfl⟩
abbrev main_v180 : Ref sig .tc := ⟨.hbm, 252, rfl⟩
abbrev main_v181 : Ref sig .tc := ⟨.hbm, 253, rfl⟩
abbrev main_c_47 : Ref sig .tc := ⟨.hbm, 254, rfl⟩
abbrev main_v182 : Ref sig .tc := ⟨.hbm, 255, rfl⟩
abbrev main_v183 : Ref sig .tc := ⟨.hbm, 256, rfl⟩
abbrev main_v184 : Ref sig .tc := ⟨.hbm, 257, rfl⟩
abbrev main_v185 : Ref sig .tc := ⟨.hbm, 258, rfl⟩
abbrev main_v186 : Ref sig .tc := ⟨.hbm, 259, rfl⟩
abbrev main_c_48 : Ref sig .tc := ⟨.hbm, 260, rfl⟩
abbrev main_v187 : Ref sig .tc := ⟨.hbm, 261, rfl⟩
abbrev main_v188 : Ref sig .tc := ⟨.hbm, 262, rfl⟩
abbrev main_c_49 : Ref sig .tc := ⟨.hbm, 263, rfl⟩
abbrev main_v189 : Ref sig .tc := ⟨.hbm, 264, rfl⟩
abbrev main_v190 : Ref sig .tc := ⟨.hbm, 265, rfl⟩
abbrev main_v191 : Ref sig .tc := ⟨.hbm, 266, rfl⟩
abbrev main_v192 : Ref sig .tc := ⟨.hbm, 267, rfl⟩
abbrev main_v193 : Ref sig .tc := ⟨.hbm, 268, rfl⟩
abbrev main_v194 : Ref sig .tc := ⟨.hbm, 269, rfl⟩
abbrev main_v195 : Ref sig .tc := ⟨.hbm, 270, rfl⟩
abbrev main_v196 : Ref sig .tc := ⟨.hbm, 271, rfl⟩
abbrev main_cst_50 : Ref sig .tc := ⟨.hbm, 272, rfl⟩
abbrev main_v197 : Ref sig .tc := ⟨.hbm, 273, rfl⟩
abbrev main_c_51 : Ref sig .tc := ⟨.hbm, 274, rfl⟩
abbrev main_v198 : Ref sig .tc := ⟨.hbm, 275, rfl⟩
abbrev main_v199 : Ref sig .tc := ⟨.hbm, 276, rfl⟩
abbrev main_c_52 : Ref sig .tc := ⟨.hbm, 277, rfl⟩
abbrev main_v200 : Ref sig .tc := ⟨.hbm, 278, rfl⟩
abbrev main_v201 : Ref sig .tc := ⟨.hbm, 279, rfl⟩
abbrev main_v202 : Ref sig .tc := ⟨.hbm, 280, rfl⟩
abbrev main_v203 : Ref sig .tc := ⟨.hbm, 281, rfl⟩
abbrev main_v204 : Ref sig .tc := ⟨.hbm, 282, rfl⟩
abbrev main_v205 : Ref sig .tc := ⟨.hbm, 283, rfl⟩
abbrev main_call1_v0 : Ref sig .tc := ⟨.hbm, 284, rfl⟩
abbrev main_call1_cst : Ref sig .tc := ⟨.hbm, 285, rfl⟩
abbrev main_call1_v1 : Ref sig .tc := ⟨.hbm, 286, rfl⟩
abbrev main_v206 : Ref sig .tc := ⟨.hbm, 287, rfl⟩
abbrev main_cst_53 : Ref sig .tc := ⟨.hbm, 288, rfl⟩
abbrev main_call2_v0 : Ref sig .tc := ⟨.hbm, 289, rfl⟩
abbrev main_call2_v1 : Ref sig .tc := ⟨.hbm, 290, rfl⟩
abbrev main_v207 : Ref sig .tc := ⟨.hbm, 291, rfl⟩
abbrev main_v208 : Ref sig .tc := ⟨.hbm, 292, rfl⟩
abbrev main_v209 : Ref sig .tc := ⟨.hbm, 293, rfl⟩
abbrev main_v210 : Ref sig .tc := ⟨.hbm, 294, rfl⟩
abbrev main_v211 : Ref sig .tc := ⟨.hbm, 295, rfl⟩
abbrev main_v212 : Ref sig .tc := ⟨.hbm, 296, rfl⟩
abbrev main_v213 : Ref sig .tc := ⟨.hbm, 297, rfl⟩
abbrev main_v214 : Ref sig .tc := ⟨.hbm, 298, rfl⟩
abbrev main_v215 : Ref sig .tc := ⟨.hbm, 299, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg7_1 : Ref sig .tc := ⟨.vmem, 33, rfl⟩
abbrev cc2_stg8_0 : Ref sig .tc := ⟨.vmem, 34, rfl⟩
abbrev cc2_stg8_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem5_1 : DmaSem sig := 29
abbrev cc2_sem6_0 : DmaSem sig := 30
abbrev cc2_sem6_1 : DmaSem sig := 31
abbrev cc2_sem7_0 : DmaSem sig := 32
abbrev cc2_sem7_1 : DmaSem sig := 33
abbrev cc2_sem8_0 : DmaSem sig := 34
abbrev cc2_sem8_1 : DmaSem sig := 35

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x2000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S4x2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4x2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage2_0 : Fin 2 → Memref sig .tc .vmem S4x2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x2 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x2 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x2 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2000x2 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S2000x2 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S4x2000x2 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  bcast_S_S50000 : S_.BroadcastsInDim S50000 (![] : Fin 0 → Fin S50000.rank)
  bcast_S_S400000 : S_.BroadcastsInDim S400000 (![] : Fin 0 → Fin S400000.rank)
  bcast_S400000_S400000x1_0 : S400000.BroadcastsInDim S400000x1 (![0] : Fin 1 → Fin S400000x1.rank)
  shapeCasts_S4x4x64_S16x64 : S4x4x64.ShapeCasts S16x64
  bcast_S400000_S1x400000x1_1 : S400000.BroadcastsInDim S1x400000x1 (![1] : Fin 1 → Fin S1x400000x1.rank)
  bcast_S1x400000x1_S4x400000x4_0_1_2 : S1x400000x1.BroadcastsInDim S4x400000x4 (![0, 1, 2] : Fin 3 → Fin S4x400000x4.rank)
  bcast_S_S4x50000x4 : S_.BroadcastsInDim S4x50000x4 (![] : Fin 0 → Fin S4x50000x4.rank)
  concatenates_S4x50000x4_S4x50000x4_S4x50000x4_S4x50000x4_S4x50000x16_d2 : Shape.Concatenates [S4x50000x4, S4x50000x4, S4x50000x4, S4x50000x4] S4x50000x16 2
  shapeCasts_S64_S1x64 : S64.ShapeCasts S1x64
  shapeCasts_S50000_S50000x1 : S50000.ShapeCasts S50000x1
  inb_S4x2000x16_S4x2000x16_0_0_0 : ∀ a, (![0, 0, 0] : Fin 3 → Nat) a + S4x2000x16.size a ≤ S4x2000x16.size a
  h_S4x2000x16 : 0 < S4x2000x16.numel
  shapeCasts_S4x2000x16_S4x2000x16 : S4x2000x16.ShapeCasts S4x2000x16
  bitsLt_bf16_f32 : FTy.bits .bf16 < FTy.bits .f32
  shapeCasts_S4x2000x16_S8000x16 : S4x2000x16.ShapeCasts S8000x16
  inb_S16x64_S16x64_0_0 : ∀ a, (![0, 0] : Fin 2 → Nat) a + S16x64.size a ≤ S16x64.size a
  h_S16x64 : 0 < S16x64.numel
  shapeCasts_S16x64_S16x64 : S16x64.ShapeCasts S16x64
  shapeCasts_S8000x64_S4x2000x64 : S8000x64.ShapeCasts S4x2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S1x64_S1x1x64 : S1x64.ShapeCasts S1x1x64
  broadcasts_S1x1x64_S4x2000x64 : S1x1x64.Broadcasts S4x2000x64
  reduces_S4x2000x64_S4x2000 : S4x2000x64.Reduces [2] S4x2000
  shapeCasts_S4x2000_S4x2000x1 : S4x2000.ShapeCasts S4x2000x1
  reduces_S4x2000x1_S2000x1 : S4x2000x1.Reduces [0] S2000x1
  shapeCasts_S2000x1_S1x2000x1 : S2000x1.ShapeCasts S1x2000x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S1x2000x1_S4x2000x64 : S1x2000x1.Broadcasts S4x2000x64
  inb_S4x2000x64_S4x2000x64_0_0_0 : ∀ a, (![0, 0, 0] : Fin 3 → Nat) a + S4x2000x64.size a ≤ S4x2000x64.size a
  h_S4x2000x64 : 0 < S4x2000x64.numel
  shapeCasts_S4x64x64_S256x64 : S4x64x64.ShapeCasts S256x64
  bcast_S1x400000x1_S4x400000x64_0_1_2 : S1x400000x1.BroadcastsInDim S4x400000x64 (![0, 1, 2] : Fin 3 → Fin S4x400000x64.rank)
  bcast_S_S4x50000x64 : S_.BroadcastsInDim S4x50000x64 (![] : Fin 0 → Fin S4x50000x64.rank)
  concatenates_S4x50000x64_S4x50000x64_S4x50000x64_S4x50000x64_S4x50000x256_d2 : Shape.Concatenates [S4x50000x64, S4x50000x64, S4x50000x64, S4x50000x64] S4x50000x256 2
  inb_S4x2000x256_S4x2000x256_0_0_0 : ∀ a, (![0, 0, 0] : Fin 3 → Nat) a + S4x2000x256.size a ≤ S4x2000x256.size a
  h_S4x2000x256 : 0 < S4x2000x256.numel
  shapeCasts_S4x2000x256_S4x2000x256 : S4x2000x256.ShapeCasts S4x2000x256
  shapeCasts_S4x2000x256_S8000x256 : S4x2000x256.ShapeCasts S8000x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  shapeCasts_S4x64x2_S256x2 : S4x64x2.ShapeCasts S256x2
  bcast_S_S50000x2 : S_.BroadcastsInDim S50000x2 (![] : Fin 0 → Fin S50000x2.rank)
  bcast_S50000_S50000x1_0 : S50000.BroadcastsInDim S50000x1 (![0] : Fin 1 → Fin S50000x1.rank)
  concatenates_S50000x1_S50000x1_S50000x2_d1 : Shape.Concatenates [S50000x1, S50000x1] S50000x2 1
  shapeCasts_S2_S1x2 : S2.ShapeCasts S1x2
  inb_S256x2_S256x2_0_0 : ∀ a, (![0, 0] : Fin 2 → Nat) a + S256x2.size a ≤ S256x2.size a
  h_S256x2 : 0 < S256x2.numel
  shapeCasts_S256x2_S256x2 : S256x2.ShapeCasts S256x2
  shapeCasts_S8000x2_S4x2000x2 : S8000x2.ShapeCasts S4x2000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  shapeCasts_S1x2_S1x1x2 : S1x2.ShapeCasts S1x1x2
  broadcasts_S1x1x2_S4x2000x2 : S1x1x2.Broadcasts S4x2000x2
  inb_S2000x2_S2000x2_0_0 : ∀ a, (![0, 0] : Fin 2 → Nat) a + S2000x2.size a ≤ S2000x2.size a
  h_S2000x2 : 0 < S2000x2.numel
  shapeCasts_S2000x2_S1x2000x2 : S2000x2.ShapeCasts S1x2000x2
  shapeCasts_S2000x2_S2000x2 : S2000x2.ShapeCasts S2000x2
  broadcasts_S1x2000x2_S4x2000x2 : S1x2000x2.Broadcasts S4x2000x2
  inb_S4x2000x2_S4x2000x2_0_0_0 : ∀ a, (![0, 0, 0] : Fin 3 → Nat) a + S4x2000x2.size a ≤ S4x2000x2.size a
  h_S4x2000x2 : 0 < S4x2000x2.numel
  scatter_S50000_S400000x1_S400000_n_0_0_1_wf : ScatterDims.WF S50000 S400000x1 S400000 [] [0] [0] 1
  gather_S50000_S400000x1_S400000_n_0_n_n_0_1_1_wf : GatherDims.WF S50000 S400000x1 S400000 [] [0] [] [0] [] 1 ![1]
  gather_S4x50000x4_S400000x1_S4x400000x4_02_1_n_n_1_1_414_wf : GatherDims.WF S4x50000x4 S400000x1 S4x400000x4 [0, 2] [1] [] [1] [] 1 ![4, 1, 4]
  scatter_S4x50000x4_S400000x1_S4x400000x4_02_1_1_1_wf : ScatterDims.WF S4x50000x4 S400000x1 S4x400000x4 [0, 2] [1] [1] 1
  dot_S8000x16_S16x64_S8000x64_1_0_0_1_n_n_wf : DotDims.WF S8000x16 S16x64 S8000x64 [1] [0] [0] [1] [] []
  gather_S4x50000x64_S400000x1_S4x400000x64_02_1_n_n_1_1_4164_wf : GatherDims.WF S4x50000x64 S400000x1 S4x400000x64 [0, 2] [1] [] [1] [] 1 ![4, 1, 64]
  scatter_S4x50000x64_S400000x1_S4x400000x64_02_1_1_1_wf : ScatterDims.WF S4x50000x64 S400000x1 S4x400000x64 [0, 2] [1] [1] 1
  dot_S8000x256_S256x64_S8000x64_1_0_0_1_n_n_wf : DotDims.WF S8000x256 S256x64 S8000x64 [1] [0] [0] [1] [] []
  dot_S8000x256_S256x2_S8000x2_1_0_0_1_n_n_wf : DotDims.WF S8000x256 S256x2 S8000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x2000x16.size a ≤ S4x50000x16.size a
  hwx0_0 : ∀ i : grid0.Coords, EltTy.bits .f32 = 32 ∨ (Rect.block (s := S4x50000x16) S4x2000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .f32 = 32 ∨ (Rect.block (s := S16x64) S16x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S50000x1.size a
  hwx0_3 : ∀ i : grid0.Coords, EltTy.bits .f32 = 32 ∨ (Rect.block (s := S50000x1) S2000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x1.size a ≤ S50000x1.size a
  hwx0_4 : ∀ i : grid0.Coords, EltTy.bits .f32 = 32 ∨ (Rect.block (s := S50000x1) S2000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x2000x64.size a ≤ S4x50000x64.size a
  hwx0_5 : ∀ i : grid0.Coords, EltTy.bits .f32 = 32 ∨ (Rect.block (s := S4x50000x64) S4x2000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x2000x256.size a ≤ S4x50000x256.size a
  hwx1_0 : ∀ i : grid1.Coords, EltTy.bits .f32 = 32 ∨ (Rect.block (s := S4x50000x256) S4x2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x64.size a ≤ S256x64.size a
  hwx1_1 : ∀ i : grid1.Coords, EltTy.bits .f32 = 32 ∨ (Rect.block (s := S256x64) S256x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S50000x1.size a
  hwx1_3 : ∀ i : grid1.Coords, EltTy.bits .f32 = 32 ∨ (Rect.block (s := S50000x1) S2000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x1.size a ≤ S50000x1.size a
  hwx1_4 : ∀ i : grid1.Coords, EltTy.bits .f32 = 32 ∨ (Rect.block (s := S50000x1) S2000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4x2000x64.size a ≤ S4x50000x64.size a
  hwx1_5 : ∀ i : grid1.Coords, EltTy.bits .f32 = 32 ∨ (Rect.block (s := S4x50000x64) S4x2000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4x2000x256.size a ≤ S4x50000x256.size a
  hwx2_0 : ∀ i : grid2.Coords, EltTy.bits .f32 = 32 ∨ (Rect.block (s := S4x50000x256) S4x2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x2.size a ≤ S256x2.size a
  hwx2_1 : ∀ i : grid2.Coords, EltTy.bits .f32 = 32 ∨ (Rect.block (s := S256x2) S256x2.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2.size a ≤ S1x2.size a
  hwx2_2 : ∀ i : grid2.Coords, EltTy.bits .f32 = 32 ∨ (Rect.block (s := S1x2) S1x2.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x2.size a ≤ S50000x2.size a
  hwx2_3 : ∀ i : grid2.Coords, EltTy.bits .f32 = 32 ∨ (Rect.block (s := S50000x2) S2000x2.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x2.size a ≤ S50000x2.size a
  hwx2_4 : ∀ i : grid2.Coords, EltTy.bits .f32 = 32 ∨ (Rect.block (s := S50000x2) S2000x2.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x2.size a ≤ S50000x2.size a
  hwx2_5 : ∀ i : grid2.Coords, EltTy.bits .f32 = 32 ∨ (Rect.block (s := S50000x2) S2000x2.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x2.size a ≤ S50000x2.size a
  hwx2_6 : ∀ i : grid2.Coords, EltTy.bits .f32 = 32 ∨ (Rect.block (s := S50000x2) S2000x2.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x2.size a ≤ S50000x2.size a
  hwx2_7 : ∀ i : grid2.Coords, EltTy.bits .f32 = 32 ∨ (Rect.block (s := S50000x2) S2000x2.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S4x2000x2.size a ≤ S4x50000x2.size a
  hwx2_8 : ∀ i : grid2.Coords, EltTy.bits .f32 = 32 ∨ (Rect.block (s := S4x50000x2) S4x2000x2.size (cc2_transform_8 i) (hinb2_8 i)).WholeWords (EltTy.packing .f32)

variable [Facts₀]

def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def gather_S50000_S400000x1_S400000_n_0_n_n_0_1_1 : GatherDims S50000 S400000x1 S400000 where
  offsetDims := []
  collapsedSliceDims := [0]
  operandBatchingDims := []
  startIndicesBatchingDims := []
  startIndexMap := [0]
  indexVectorDim := 1
  sliceSizes := ![1]
  wf := gather_S50000_S400000x1_S400000_n_0_n_n_0_1_1_wf
def gather_S4x50000x4_S400000x1_S4x400000x4_02_1_n_n_1_1_414 : GatherDims S4x50000x4 S400000x1 S4x400000x4 where
  offsetDims := [0, 2]
  collapsedSliceDims := [1]
  operandBatchingDims := []
  startIndicesBatchingDims := []
  startIndexMap := [1]
  indexVectorDim := 1
  sliceSizes := ![4, 1, 4]
  wf := gather_S4x50000x4_S400000x1_S4x400000x4_02_1_n_n_1_1_414_wf
def scatter_S4x50000x4_S400000x1_S4x400000x4_02_1_1_1 : ScatterDims S4x50000x4 S400000x1 S4x400000x4 where
  updateWindowDims := [0, 2]
  insertedWindowDims := [1]
  scatterDimsToOperandDims := [1]
  indexVectorDim := 1
  wf := scatter_S4x50000x4_S400000x1_S4x400000x4_02_1_1_1_wf
def dot_S8000x16_S16x64_S8000x64_1_0_0_1_n_n : DotDims S8000x16 S16x64 S8000x64 where
  lhsContracting := [1]
  rhsContracting := [0]
  lhsNonContracting := [0]
  rhsNonContracting := [1]
  lhsBatch := []
  rhsBatch := []
  wf := dot_S8000x16_S16x64_S8000x64_1_0_0_1_n_n_wf
def gather_S4x50000x64_S400000x1_S4x400000x64_02_1_n_n_1_1_4164 : GatherDims S4x50000x64 S400000x1 S4x400000x64 where
  offsetDims := [0, 2]
  collapsedSliceDims := [1]
  operandBatchingDims := []
  startIndicesBatchingDims := []
  startIndexMap := [1]
  indexVectorDim := 1
  sliceSizes := ![4, 1, 64]
  wf := gather_S4x50000x64_S400000x1_S4x400000x64_02_1_n_n_1_1_4164_wf
def scatter_S4x50000x64_S400000x1_S4x400000x64_02_1_1_1 : ScatterDims S4x50000x64 S400000x1 S4x400000x64 where
  updateWindowDims := [0, 2]
  insertedWindowDims := [1]
  scatterDimsToOperandDims := [1]
  indexVectorDim := 1
  wf := scatter_S4x50000x64_S400000x1_S4x400000x64_02_1_1_1_wf
def dot_S8000x256_S256x64_S8000x64_1_0_0_1_n_n : DotDims S8000x256 S256x64 S8000x64 where
  lhsContracting := [1]
  rhsContracting := [0]
  lhsNonContracting := [0]
  rhsNonContracting := [1]
  lhsBatch := []
  rhsBatch := []
  wf := dot_S8000x256_S256x64_S8000x64_1_0_0_1_n_n_wf
def dot_S8000x256_S256x2_S8000x2_1_0_0_1_n_n : DotDims S8000x256 S256x2 S8000x2 where
  lhsContracting := [1]
  rhsContracting := [0]
  lhsNonContracting := [0]
  rhsNonContracting := [1]
  lhsBatch := []
  rhsBatch := []
  wf := dot_S8000x256_S256x2_S8000x2_1_0_0_1_n_n_wf

abbrev win0_0 : Pipeline.Window sig grid0 :=
  Pipeline.Window.ofSpec (Memref.whole main_v85) S4x2000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v86) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v87) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v88) S2000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v89) S4x2000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v145) S4x2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v90) S256x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v146) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v147) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v148) S2000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v149) S4x2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v205) S4x2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v150) S256x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v214) S1x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg15) S2000x2.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v207) S2000x2.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_arg14) S2000x2.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v210) S2000x2.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v213) S2000x2.size cc2_transform_7 reads2_7 false false 2 stage2_7 sem2_7
    hrank2 hreads2_7 hinb2_7 nbuf2_7 (Memref.isWhole_whole _) hwx2_7 hstage2_7

abbrev win2_8 : Pipeline.Window sig grid2 :=
  Pipeline.Window.ofSpec (Memref.whole main_v215) S4x2000x2.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S4x50000x4 : Shape := ⟨3, ![4, 50000, 4]⟩
abbrev S400000 : Shape := ⟨1, ![400000]⟩
abbrev S4x4x64 : Shape := ⟨3, ![4, 4, 64]⟩
abbrev S64 : Shape := ⟨1, ![64]⟩
abbrev S4x64x64 : Shape := ⟨3, ![4, 64, 64]⟩
abbrev S4x64x2 : Shape := ⟨3, ![4, 64, 2]⟩
abbrev S2 : Shape := ⟨1, ![2]⟩
abbrev S50000 : Shape := ⟨1, ![50000]⟩
abbrev S50000x2 : Shape := ⟨2, ![50000, 2]⟩
abbrev S_ : Shape := ⟨0, ![]⟩
abbrev S400000x1 : Shape := ⟨2, ![400000, 1]⟩
abbrev S1x4x64 : Shape := ⟨3, ![1, 4, 64]⟩
abbrev S4x64 : Shape := ⟨2, ![4, 64]⟩
abbrev S4x50000x64 : Shape := ⟨3, ![4, 50000, 64]⟩
abbrev S4x400000x4 : Shape := ⟨3, ![4, 400000, 4]⟩
abbrev S1x400000x1 : Shape := ⟨3, ![1, 400000, 1]⟩
abbrev S1x1x64 : Shape := ⟨3, ![1, 1, 64]⟩
abbrev S1x50000x1 : Shape := ⟨3, ![1, 50000, 1]⟩
abbrev S1x64x64 : Shape := ⟨3, ![1, 64, 64]⟩
abbrev S64x64 : Shape := ⟨2, ![64, 64]⟩
abbrev S4x400000x64 : Shape := ⟨3, ![4, 400000, 64]⟩
abbrev S1x64x2 : Shape := ⟨3, ![1, 64, 2]⟩
abbrev S64x2 : Shape := ⟨2, ![64, 2]⟩
abbrev S4x50000x2 : Shape := ⟨3, ![4, 50000, 2]⟩
abbrev S1x1x2 : Shape := ⟨3, ![1, 1, 2]⟩
abbrev S1x50000x2 : Shape := ⟨3, ![1, 50000, 2]⟩
abbrev S4x50000x1 : Shape := ⟨3, ![4, 50000, 1]⟩
abbrev S4x50000 : Shape := ⟨2, ![4, 50000]⟩
abbrev S1x50000 : Shape := ⟨2, ![1, 50000]⟩

abbrev nBuf : Space → Nat
  | .hbm => 464
  | .vmem => 0
  | .smem => 0
  | _ => 0

abbrev hbmTy0_0 (i : Nat) : BufTy := match i % 128 with
  | 0 => ⟨S4x50000x4, .f32⟩
  | 1 => ⟨S400000, .i32⟩
  | 2 => ⟨S400000, .i32⟩
  | 3 => ⟨S400000, .f32⟩
  | 4 => ⟨S4x4x64, .f32⟩
  | 5 => ⟨S64, .f32⟩
  | 6 => ⟨S4x64x64, .f32⟩
  | 7 => ⟨S64, .f32⟩
  | 8 => ⟨S4x64x2, .f32⟩
  | 9 => ⟨S2, .f32⟩
  | 10 => ⟨S50000, .f32⟩
  | 11 => ⟨S50000, .f32⟩
  | 12 => ⟨S50000, .f32⟩
  | 13 => ⟨S50000, .f32⟩
  | 14 => ⟨S50000x2, .f32⟩
  | 15 => ⟨S50000x2, .f32⟩
  | 16 => ⟨S50000x2, .f32⟩
  | 17 => ⟨S50000, .f32⟩
  | 18 => ⟨S50000, .f32⟩
  | 19 => ⟨S50000, .f32⟩
  | 20 => ⟨S50000, .f32⟩
  | 21 => ⟨S_, .f32⟩
  | 22 => ⟨S50000, .f32⟩
  | 23 => ⟨S_, .i32⟩
  | 24 => ⟨S400000, .i32⟩
  | 25 => ⟨S400000, .i1⟩
  | 26 => ⟨S_, .i32⟩
  | 27 => ⟨S400000, .i32⟩
  | 28 => ⟨S400000, .i32⟩
  | 29 => ⟨S400000, .i32⟩
  | 30 => ⟨S400000x1, .i32⟩
  | 31 => ⟨S50000, .f32⟩
  | 32 => ⟨S_, .f32⟩
  | 33 => ⟨S50000, .f32⟩
  | 34 => ⟨S50000, .i1⟩
  | 35 => ⟨S_, .f32⟩
  | 36 => ⟨S50000, .f32⟩
  | 37 => ⟨S50000, .f32⟩
  | 38 => ⟨S50000, .f32⟩
  | 39 => ⟨S_, .f32⟩
  | 40 => ⟨S_, .f32⟩
  | 41 => ⟨S50000, .f32⟩
  | 42 => ⟨S50000, .f32⟩
  | 43 => ⟨S_, .i32⟩
  | 44 => ⟨S400000, .i32⟩
  | 45 => ⟨S400000, .i1⟩
  | 46 => ⟨S_, .i32⟩
  | 47 => ⟨S400000, .i32⟩
  | 48 => ⟨S400000, .i32⟩
  | 49 => ⟨S400000, .i32⟩
  | 50 => ⟨S400000x1, .i32⟩
  | 51 => ⟨S400000, .f32⟩
  | 52 => ⟨S400000, .f32⟩
  | 53 => ⟨S_, .i32⟩
  | 54 => ⟨S400000, .i32⟩
  | 55 => ⟨S400000, .i1⟩
  | 56 => ⟨S_, .i32⟩
  | 57 => ⟨S400000, .i32⟩
  | 58 => ⟨S400000, .i32⟩
  | 59 => ⟨S400000, .i32⟩
  | 60 => ⟨S400000x1, .i32⟩
  | 61 => ⟨S400000, .f32⟩
  | 62 => ⟨S400000, .f32⟩
  | 63 => ⟨S1x4x64, .f32⟩
  | 64 => ⟨S4x64, .f32⟩
  | 65 => ⟨S4x50000x64, .f32⟩
  | 66 => ⟨S_, .i32⟩
  | 67 => ⟨S400000, .i32⟩
  | 68 => ⟨S400000, .i1⟩
  | 69 => ⟨S_, .i32⟩
  | 70 => ⟨S400000, .i32⟩
  | 71 => ⟨S400000, .i32⟩
  | 72 => ⟨S400000, .i32⟩
  | 73 => ⟨S400000x1, .i32⟩
  | 74 => ⟨S4x400000x4, .f32⟩
  | 75 => ⟨S1x400000x1, .f32⟩
  | 76 => ⟨S4x400000x4, .f32⟩
  | 77 => ⟨S4x400000x4, .f32⟩
  | 78 => ⟨S_, .f32⟩
  | 79 => ⟨S4x50000x4, .f32⟩
  | 80 => ⟨S_, .i32⟩
  | 81 => ⟨S400000, .i32⟩
  | 82 => ⟨S400000, .i1⟩
  | 83 => ⟨S_, .i32⟩
  | 84 => ⟨S400000, .i32⟩
  | 85 => ⟨S400000, .i32⟩
  | 86 => ⟨S400000, .i32⟩
  | 87 => ⟨S400000x1, .i32⟩
  | 88 => ⟨S4x50000x4, .f32⟩
  | 89 => ⟨S1x4x64, .f32⟩
  | 90 => ⟨S4x64, .f32⟩
  | 91 => ⟨S4x50000x64, .f32⟩
  | 92 => ⟨S4x50000x64, .f32⟩
  | 93 => ⟨S_, .i32⟩
  | 94 => ⟨S400000, .i32⟩
  | 95 => ⟨S400000, .i1⟩
  | 96 => ⟨S_, .i32⟩
  | 97 => ⟨S400000, .i32⟩
  | 98 => ⟨S400000, .i32⟩
  | 99 => ⟨S400000, .i32⟩
  | 100 => ⟨S400000x1, .i32⟩
  | 101 => ⟨S4x400000x4, .f32⟩
  | 102 => ⟨S1x400000x1, .f32⟩
  | 103 => ⟨S4x400000x4, .f32⟩
  | 104 => ⟨S4x400000x4, .f32⟩
  | 105 => ⟨S_, .f32⟩
  | 106 => ⟨S4x50000x4, .f32⟩
  | 107 => ⟨S_, .i32⟩
  | 108 => ⟨S400000, .i32⟩
  | 109 => ⟨S400000, .i1⟩
  | 110 => ⟨S_, .i32⟩
  | 111 => ⟨S400000, .i32⟩
  | 112 => ⟨S400000, .i32⟩
  | 113 => ⟨S400000, .i32⟩
  | 114 => ⟨S400000x1, .i32⟩
  | 115 => ⟨S4x50000x4, .f32⟩
  | 116 => ⟨S1x4x64, .f32⟩
  | 117 => ⟨S4x64, .f32⟩
  | 118 => ⟨S4x50000x64, .f32⟩
  | 119 => ⟨S4x50000x64, .f32⟩
  | 120 => ⟨S_, .i32⟩
  | 121 => ⟨S400000, .i32⟩
  | 122 => ⟨S400000, .i1⟩
  | 123 => ⟨S_, .i32⟩
  | 124 => ⟨S400000, .i32⟩
  | 125 => ⟨S400000, .i32⟩
  | 126 => ⟨S400000, .i32⟩
  | 127 => ⟨S400000x1, .i32⟩
  | _ => ⟨S4x50000x4, .f32⟩

abbrev hbmTy0_1 (i : Nat) : BufTy := match i % 128 with
  | 0 => ⟨S4x400000x4, .f32⟩
  | 1 => ⟨S1x400000x1, .f32⟩
  | 2 => ⟨S4x400000x4, .f32⟩
  | 3 => ⟨S4x400000x4, .f32⟩
  | 4 => ⟨S_, .f32⟩
  | 5 => ⟨S4x50000x4, .f32⟩
  | 6 => ⟨S_, .i32⟩
  | 7 => ⟨S400000, .i32⟩
  | 8 => ⟨S400000, .i1⟩
  | 9 => ⟨S_, .i32⟩
  | 10 => ⟨S400000, .i32⟩
  | 11 => ⟨S400000, .i32⟩
  | 12 => ⟨S400000, .i32⟩
  | 13 => ⟨S400000x1, .i32⟩
  | 14 => ⟨S4x50000x4, .f32⟩
  | 15 => ⟨S1x4x64, .f32⟩
  | 16 => ⟨S4x64, .f32⟩
  | 17 => ⟨S4x50000x64, .f32⟩
  | 18 => ⟨S4x50000x64, .f32⟩
  | 19 => ⟨S1x1x64, .f32⟩
  | 20 => ⟨S4x50000x64, .f32⟩
  | 21 => ⟨S4x50000x64, .f32⟩
  | 22 => ⟨S_, .f32⟩
  | 23 => ⟨S50000, .f32⟩
  | 24 => ⟨S1x50000x1, .f32⟩
  | 25 => ⟨S_, .f32⟩
  | 26 => ⟨S1x50000x1, .f32⟩
  | 27 => ⟨S1x50000x1, .f32⟩
  | 28 => ⟨S_, .i32⟩
  | 29 => ⟨S_, .f32⟩
  | 30 => ⟨S50000, .f32⟩
  | 31 => ⟨S1x50000x1, .f32⟩
  | 32 => ⟨S_, .f32⟩
  | 33 => ⟨S1x50000x1, .f32⟩
  | 34 => ⟨S1x50000x1, .f32⟩
  | 35 => ⟨S4x50000x64, .f32⟩
  | 36 => ⟨S4x50000x64, .f32⟩
  | 37 => ⟨S4x50000x64, .f32⟩
  | 38 => ⟨S_, .f32⟩
  | 39 => ⟨S_, .f32⟩
  | 40 => ⟨S_, .f32⟩
  | 41 => ⟨S_, .f32⟩
  | 42 => ⟨S50000, .f32⟩
  | 43 => ⟨S1x50000x1, .f32⟩
  | 44 => ⟨S1x50000x1, .f32⟩
  | 45 => ⟨S1x50000x1, .f32⟩
  | 46 => ⟨S_, .f32⟩
  | 47 => ⟨S_, .i1⟩
  | 48 => ⟨S_, .f32⟩
  | 49 => ⟨S_, .f32⟩
  | 50 => ⟨S1x50000x1, .f32⟩
  | 51 => ⟨S1x50000x1, .f32⟩
  | 52 => ⟨S1x50000x1, .f32⟩
  | 53 => ⟨S4x50000x64, .f32⟩
  | 54 => ⟨S4x50000x64, .f32⟩
  | 55 => ⟨S4x50000x64, .f32⟩
  | 56 => ⟨S4x50000x64, .f32⟩
  | 57 => ⟨S_, .f32⟩
  | 58 => ⟨S1x50000x1, .f32⟩
  | 59 => ⟨S1x50000x1, .f32⟩
  | 60 => ⟨S1x50000x1, .f32⟩
  | 61 => ⟨S4x50000x64, .f32⟩
  | 62 => ⟨S4x50000x64, .f32⟩
  | 63 => ⟨S1x50000x1, .f32⟩
  | 64 => ⟨S4x50000x64, .f32⟩
  | 65 => ⟨S4x50000x64, .f32⟩
  | 66 => ⟨S_, .f32⟩
  | 67 => ⟨S_, .f32⟩
  | 68 => ⟨S4x50000x64, .f32⟩
  | 69 => ⟨S4x50000x64, .i1⟩
  | 70 => ⟨S_, .f32⟩
  | 71 => ⟨S4x50000x64, .f32⟩
  | 72 => ⟨S4x50000x64, .f32⟩
  | 73 => ⟨S4x50000x64, .f32⟩
  | 74 => ⟨S1x64x64, .f32⟩
  | 75 => ⟨S64x64, .f32⟩
  | 76 => ⟨S4x50000x64, .f32⟩
  | 77 => ⟨S_, .i32⟩
  | 78 => ⟨S400000, .i32⟩
  | 79 => ⟨S400000, .i1⟩
  | 80 => ⟨S_, .i32⟩
  | 81 => ⟨S400000, .i32⟩
  | 82 => ⟨S400000, .i32⟩
  | 83 => ⟨S400000, .i32⟩
  | 84 => ⟨S400000x1, .i32⟩
  | 85 => ⟨S4x400000x64, .f32⟩
  | 86 => ⟨S1x400000x1, .f32⟩
  | 87 => ⟨S4x400000x64, .f32⟩
  | 88 => ⟨S4x400000x64, .f32⟩
  | 89 => ⟨S_, .f32⟩
  | 90 => ⟨S4x50000x64, .f32⟩
  | 91 => ⟨S_, .i32⟩
  | 92 => ⟨S400000, .i32⟩
  | 93 => ⟨S400000, .i1⟩
  | 94 => ⟨S_, .i32⟩
  | 95 => ⟨S400000, .i32⟩
  | 96 => ⟨S400000, .i32⟩
  | 97 => ⟨S400000, .i32⟩
  | 98 => ⟨S400000x1, .i32⟩
  | 99 => ⟨S4x50000x64, .f32⟩
  | 100 => ⟨S1x64x64, .f32⟩
  | 101 => ⟨S64x64, .f32⟩
  | 102 => ⟨S4x50000x64, .f32⟩
  | 103 => ⟨S4x50000x64, .f32⟩
  | 104 => ⟨S_, .i32⟩
  | 105 => ⟨S400000, .i32⟩
  | 106 => ⟨S400000, .i1⟩
  | 107 => ⟨S_, .i32⟩
  | 108 => ⟨S400000, .i32⟩
  | 109 => ⟨S400000, .i32⟩
  | 110 => ⟨S400000, .i32⟩
  | 111 => ⟨S400000x1, .i32⟩
  | 112 => ⟨S4x400000x64, .f32⟩
  | 113 => ⟨S1x400000x1, .f32⟩
  | 114 => ⟨S4x400000x64, .f32⟩
  | 115 => ⟨S4x400000x64, .f32⟩
  | 116 => ⟨S_, .f32⟩
  | 117 => ⟨S4x50000x64, .f32⟩
  | 118 => ⟨S_, .i32⟩
  | 119 => ⟨S400000, .i32⟩
  | 120 => ⟨S400000, .i1⟩
  | 121 => ⟨S_, .i32⟩
  | 122 => ⟨S400000, .i32⟩
  | 123 => ⟨S400000, .i32⟩
  | 124 => ⟨S400000, .i32⟩
  | 125 => ⟨S400000x1, .i32⟩
  | 126 => ⟨S4x50000x64, .f32⟩
  | 127 => ⟨S1x64x64, .f32⟩
  | _ => ⟨S4x50000x4, .f32⟩

abbrev hbmTy0_2 (i : Nat) : BufTy := match i % 128 with
  | 0 => ⟨S64x64, .f32⟩
  | 1 => ⟨S4x50000x64, .f32⟩
  | 2 => ⟨S4x50000x64, .f32⟩
  | 3 => ⟨S_, .i32⟩
  | 4 => ⟨S400000, .i32⟩
  | 5 => ⟨S400000, .i1⟩
  | 6 => ⟨S_, .i32⟩
  | 7 => ⟨S400000, .i32⟩
  | 8 => ⟨S400000, .i32⟩
  | 9 => ⟨S400000, .i32⟩
  | 10 => ⟨S400000x1, .i32⟩
  | 11 => ⟨S4x400000x64, .f32⟩
  | 12 => ⟨S1x400000x1, .f32⟩
  | 13 => ⟨S4x400000x64, .f32⟩
  | 14 => ⟨S4x400000x64, .f32⟩
  | 15 => ⟨S_, .f32⟩
  | 16 => ⟨S4x50000x64, .f32⟩
  | 17 => ⟨S_, .i32⟩
  | 18 => ⟨S400000, .i32⟩
  | 19 => ⟨S400000, .i1⟩
  | 20 => ⟨S_, .i32⟩
  | 21 => ⟨S400000, .i32⟩
  | 22 => ⟨S400000, .i32⟩
  | 23 => ⟨S400000, .i32⟩
  | 24 => ⟨S400000x1, .i32⟩
  | 25 => ⟨S4x50000x64, .f32⟩
  | 26 => ⟨S1x64x64, .f32⟩
  | 27 => ⟨S64x64, .f32⟩
  | 28 => ⟨S4x50000x64, .f32⟩
  | 29 => ⟨S4x50000x64, .f32⟩
  | 30 => ⟨S1x1x64, .f32⟩
  | 31 => ⟨S4x50000x64, .f32⟩
  | 32 => ⟨S4x50000x64, .f32⟩
  | 33 => ⟨S_, .f32⟩
  | 34 => ⟨S50000, .f32⟩
  | 35 => ⟨S1x50000x1, .f32⟩
  | 36 => ⟨S_, .f32⟩
  | 37 => ⟨S1x50000x1, .f32⟩
  | 38 => ⟨S1x50000x1, .f32⟩
  | 39 => ⟨S_, .i32⟩
  | 40 => ⟨S_, .f32⟩
  | 41 => ⟨S50000, .f32⟩
  | 42 => ⟨S1x50000x1, .f32⟩
  | 43 => ⟨S_, .f32⟩
  | 44 => ⟨S1x50000x1, .f32⟩
  | 45 => ⟨S1x50000x1, .f32⟩
  | 46 => ⟨S4x50000x64, .f32⟩
  | 47 => ⟨S4x50000x64, .f32⟩
  | 48 => ⟨S4x50000x64, .f32⟩
  | 49 => ⟨S_, .f32⟩
  | 50 => ⟨S_, .f32⟩
  | 51 => ⟨S_, .f32⟩
  | 52 => ⟨S_, .f32⟩
  | 53 => ⟨S50000, .f32⟩
  | 54 => ⟨S1x50000x1, .f32⟩
  | 55 => ⟨S1x50000x1, .f32⟩
  | 56 => ⟨S1x50000x1, .f32⟩
  | 57 => ⟨S_, .f32⟩
  | 58 => ⟨S_, .i1⟩
  | 59 => ⟨S_, .f32⟩
  | 60 => ⟨S_, .f32⟩
  | 61 => ⟨S1x50000x1, .f32⟩
  | 62 => ⟨S1x50000x1, .f32⟩
  | 63 => ⟨S1x50000x1, .f32⟩
  | 64 => ⟨S4x50000x64, .f32⟩
  | 65 => ⟨S4x50000x64, .f32⟩
  | 66 => ⟨S4x50000x64, .f32⟩
  | 67 => ⟨S4x50000x64, .f32⟩
  | 68 => ⟨S_, .f32⟩
  | 69 => ⟨S1x50000x1, .f32⟩
  | 70 => ⟨S1x50000x1, .f32⟩
  | 71 => ⟨S1x50000x1, .f32⟩
  | 72 => ⟨S4x50000x64, .f32⟩
  | 73 => ⟨S4x50000x64, .f32⟩
  | 74 => ⟨S1x50000x1, .f32⟩
  | 75 => ⟨S4x50000x64, .f32⟩
  | 76 => ⟨S4x50000x64, .f32⟩
  | 77 => ⟨S_, .f32⟩
  | 78 => ⟨S_, .f32⟩
  | 79 => ⟨S4x50000x64, .f32⟩
  | 80 => ⟨S4x50000x64, .i1⟩
  | 81 => ⟨S_, .f32⟩
  | 82 => ⟨S4x50000x64, .f32⟩
  | 83 => ⟨S4x50000x64, .f32⟩
  | 84 => ⟨S4x50000x64, .f32⟩
  | 85 => ⟨S1x64x2, .f32⟩
  | 86 => ⟨S64x2, .f32⟩
  | 87 => ⟨S4x50000x2, .f32⟩
  | 88 => ⟨S_, .i32⟩
  | 89 => ⟨S400000, .i32⟩
  | 90 => ⟨S400000, .i1⟩
  | 91 => ⟨S_, .i32⟩
  | 92 => ⟨S400000, .i32⟩
  | 93 => ⟨S400000, .i32⟩
  | 94 => ⟨S400000, .i32⟩
  | 95 => ⟨S400000x1, .i32⟩
  | 96 => ⟨S4x400000x64, .f32⟩
  | 97 => ⟨S1x400000x1, .f32⟩
  | 98 => ⟨S4x400000x64, .f32⟩
  | 99 => ⟨S4x400000x64, .f32⟩
  | 100 => ⟨S_, .f32⟩
  | 101 => ⟨S4x50000x64, .f32⟩
  | 102 => ⟨S_, .i32⟩
  | 103 => ⟨S400000, .i32⟩
  | 104 => ⟨S400000, .i1⟩
  | 105 => ⟨S_, .i32⟩
  | 106 => ⟨S400000, .i32⟩
  | 107 => ⟨S400000, .i32⟩
  | 108 => ⟨S400000, .i32⟩
  | 109 => ⟨S400000x1, .i32⟩
  | 110 => ⟨S4x50000x64, .f32⟩
  | 111 => ⟨S1x64x2, .f32⟩
  | 112 => ⟨S64x2, .f32⟩
  | 113 => ⟨S4x50000x2, .f32⟩
  | 114 => ⟨S4x50000x2, .f32⟩
  | 115 => ⟨S_, .i32⟩
  | 116 => ⟨S400000, .i32⟩
  | 117 => ⟨S400000, .i1⟩
  | 118 => ⟨S_, .i32⟩
  | 119 => ⟨S400000, .i32⟩
  | 120 => ⟨S400000, .i32⟩
  | 121 => ⟨S400000, .i32⟩
  | 122 => ⟨S400000x1, .i32⟩
  | 123 => ⟨S4x400000x64, .f32⟩
  | 124 => ⟨S1x400000x1, .f32⟩
  | 125 => ⟨S4x400000x64, .f32⟩
  | 126 => ⟨S4x400000x64, .f32⟩
  | 127 => ⟨S_, .f32⟩
  | _ => ⟨S4x50000x4, .f32⟩

abbrev hbmTy0_3 (i : Nat) : BufTy := match i % 128 with
  | 0 => ⟨S4x50000x64, .f32⟩
  | 1 => ⟨S_, .i32⟩
  | 2 => ⟨S400000, .i32⟩
  | 3 => ⟨S400000, .i1⟩
  | 4 => ⟨S_, .i32⟩
  | 5 => ⟨S400000, .i32⟩
  | 6 => ⟨S400000, .i32⟩
  | 7 => ⟨S400000, .i32⟩
  | 8 => ⟨S400000x1, .i32⟩
  | 9 => ⟨S4x50000x64, .f32⟩
  | 10 => ⟨S1x64x2, .f32⟩
  | 11 => ⟨S64x2, .f32⟩
  | 12 => ⟨S4x50000x2, .f32⟩
  | 13 => ⟨S4x50000x2, .f32⟩
  | 14 => ⟨S_, .i32⟩
  | 15 => ⟨S400000, .i32⟩
  | 16 => ⟨S400000, .i1⟩
  | 17 => ⟨S_, .i32⟩
  | 18 => ⟨S400000, .i32⟩
  | 19 => ⟨S400000, .i32⟩
  | 20 => ⟨S400000, .i32⟩
  | 21 => ⟨S400000x1, .i32⟩
  | 22 => ⟨S4x400000x64, .f32⟩
  | 23 => ⟨S1x400000x1, .f32⟩
  | 24 => ⟨S4x400000x64, .f32⟩
  | 25 => ⟨S4x400000x64, .f32⟩
  | 26 => ⟨S_, .f32⟩
  | 27 => ⟨S4x50000x64, .f32⟩
  | 28 => ⟨S_, .i32⟩
  | 29 => ⟨S400000, .i32⟩
  | 30 => ⟨S400000, .i1⟩
  | 31 => ⟨S_, .i32⟩
  | 32 => ⟨S400000, .i32⟩
  | 33 => ⟨S400000, .i32⟩
  | 34 => ⟨S400000, .i32⟩
  | 35 => ⟨S400000x1, .i32⟩
  | 36 => ⟨S4x50000x64, .f32⟩
  | 37 => ⟨S1x64x2, .f32⟩
  | 38 => ⟨S64x2, .f32⟩
  | 39 => ⟨S4x50000x2, .f32⟩
  | 40 => ⟨S4x50000x2, .f32⟩
  | 41 => ⟨S1x1x2, .f32⟩
  | 42 => ⟨S4x50000x2, .f32⟩
  | 43 => ⟨S4x50000x2, .f32⟩
  | 44 => ⟨S50000x2, .f32⟩
  | 45 => ⟨S_, .f32⟩
  | 46 => ⟨S50000x2, .f32⟩
  | 47 => ⟨S50000x2, .i1⟩
  | 48 => ⟨S_, .f32⟩
  | 49 => ⟨S_, .f32⟩
  | 50 => ⟨S50000x2, .f32⟩
  | 51 => ⟨S50000x2, .f32⟩
  | 52 => ⟨S1x50000x2, .f32⟩
  | 53 => ⟨S4x50000x2, .f32⟩
  | 54 => ⟨S4x50000x2, .f32⟩
  | 55 => ⟨S1x50000x2, .f32⟩
  | 56 => ⟨S4x50000x2, .f32⟩
  | 57 => ⟨S4x50000x2, .f32⟩
  | 58 => ⟨S1x50000x2, .f32⟩
  | 59 => ⟨S4x50000x2, .f32⟩
  | 60 => ⟨S4x50000x2, .f32⟩
  | 61 => ⟨S4x50000x1, .f32⟩
  | 62 => ⟨S4x50000, .f32⟩
  | 63 => ⟨S1x50000, .f32⟩
  | 64 => ⟨S4x50000, .f32⟩
  | 65 => ⟨S4x50000, .f32⟩
  | 66 => ⟨S1x50000, .f32⟩
  | 67 => ⟨S4x50000, .f32⟩
  | 68 => ⟨S4x50000, .f32⟩
  | 69 => ⟨S4x50000x1, .f32⟩
  | 70 => ⟨S4x50000, .f32⟩
  | 71 => ⟨S1x50000, .f32⟩
  | 72 => ⟨S4x50000, .f32⟩
  | 73 => ⟨S4x50000, .f32⟩
  | 74 => ⟨S1x50000, .f32⟩
  | 75 => ⟨S4x50000, .f32⟩
  | 76 => ⟨S4x50000, .f32⟩
  | 77 => ⟨S4x50000x1, .f32⟩
  | 78 => ⟨S4x50000x1, .f32⟩
  | 79 => ⟨S4x50000x2, .f32⟩
  | _ => ⟨S4x50000x4, .f32⟩

abbrev hbmTy (i : Nat) : BufTy := match i / 128 with
  | 0 => hbmTy0_0 i
  | 1 => hbmTy0_1 i
  | 2 => hbmTy0_2 i
  | 3 => hbmTy0_3 i
  | _ => ⟨S4x50000x4, .f32⟩

abbrev bufTy : (tb : Table) → Fin (tcTables nBuf tb) → BufTy
  | .hbm, ⟨i, _⟩ => hbmTy i
  | _, _ => ⟨S4x50000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_c : Ref sig .tc := ⟨.hbm, 23, rfl⟩
abbrev main_v1 : Ref sig .tc := ⟨.hbm, 24, rfl⟩
abbrev main_v2 : Ref sig .tc := ⟨.hbm, 25, rfl⟩
abbrev main_c_0 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst_1 : Ref sig .tc := ⟨.hbm, 32, rfl⟩
abbrev main_v8 : Ref sig .tc := ⟨.hbm, 33, rfl⟩
abbrev main_v9 : Ref sig .tc := ⟨.hbm, 34, rfl⟩
abbrev main_cst_2 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_v13 : Ref sig .tc := ⟨.hbm, 42, rfl⟩
abbrev main_c_4 : Ref sig .tc := ⟨.hbm, 43, rfl⟩
abbrev main_v14 : Ref sig .tc := ⟨.hbm, 44, rfl⟩
abbrev main_v15 : Ref sig .tc := ⟨.hbm, 45, rfl⟩
abbrev main_c_5 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_c_6 : Ref sig .tc := ⟨.hbm, 53, rfl⟩
abbrev main_v22 : Ref sig .tc := ⟨.hbm, 54, rfl⟩
abbrev main_v23 : Ref sig .tc := ⟨.hbm, 55, rfl⟩
abbrev main_c_7 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_c_8 : Ref sig .tc := ⟨.hbm, 66, rfl⟩
abbrev main_v33 : Ref sig .tc := ⟨.hbm, 67, rfl⟩
abbrev main_v34 : Ref sig .tc := ⟨.hbm, 68, rfl⟩
abbrev main_c_9 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_cst_10 : Ref sig .tc := ⟨.hbm, 78, rfl⟩
abbrev main_v43 : Ref sig .tc := ⟨.hbm, 79, rfl⟩
abbrev main_c_11 : Ref sig .tc := ⟨.hbm, 80, rfl⟩
abbrev main_v44 : Ref sig .tc := ⟨.hbm, 81, rfl⟩
abbrev main_v45 : Ref sig .tc := ⟨.hbm, 82, rfl⟩
abbrev main_c_12 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_c_13 : Ref sig .tc := ⟨.hbm, 93, rfl⟩
abbrev main_v55 : Ref sig .tc := ⟨.hbm, 94, rfl⟩
abbrev main_v56 : Ref sig .tc := ⟨.hbm, 95, rfl⟩
abbrev main_c_14 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_cst_15 : Ref sig .tc := ⟨.hbm, 105, rfl⟩
abbrev main_v65 : Ref sig .tc := ⟨.hbm, 106, rfl⟩
abbrev main_c_16 : Ref sig .tc := ⟨.hbm, 107, rfl⟩
abbrev main_v66 : Ref sig .tc := ⟨.hbm, 108, rfl⟩
abbrev main_v67 : Ref sig .tc := ⟨.hbm, 109, rfl⟩
abbrev main_c_17 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_c_18 : Ref sig .tc := ⟨.hbm, 120, rfl⟩
abbrev main_v77 : Ref sig .tc := ⟨.hbm, 121, rfl⟩
abbrev main_v78 : Ref sig .tc := ⟨.hbm, 122, rfl⟩
abbrev main_c_19 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_cst_20 : Ref sig .tc := ⟨.hbm, 132, rfl⟩
abbrev main_v87 : Ref sig .tc := ⟨.hbm, 133, rfl⟩
abbrev main_c_21 : Ref sig .tc := ⟨.hbm, 134, rfl⟩
abbrev main_v88 : Ref sig .tc := ⟨.hbm, 135, rfl⟩
abbrev main_v89 : Ref sig .tc := ⟨.hbm, 136, rfl⟩
abbrev main_c_22 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_cst_23 : Ref sig .tc := ⟨.hbm, 150, rfl⟩
abbrev main_v102 : Ref sig .tc := ⟨.hbm, 151, rfl⟩
abbrev main_v103 : Ref sig .tc := ⟨.hbm, 152, rfl⟩
abbrev main_cst_24 : Ref sig .tc := ⟨.hbm, 153, rfl⟩
abbrev main_v104 : Ref sig .tc := ⟨.hbm, 154, rfl⟩
abbrev main_v105 : Ref sig .tc := ⟨.hbm, 155, rfl⟩
abbrev main_c_25 : Ref sig .tc := ⟨.hbm, 156, rfl⟩
abbrev main_call1_cst : Ref sig .tc := ⟨.hbm, 157, rfl⟩
abbrev main_call1_v0 : Ref sig .tc := ⟨.hbm, 158, rfl⟩
abbrev main_call1_v1 : Ref sig .tc := ⟨.hbm, 159, rfl⟩
abbrev main_call1_cst_0 : Ref sig .tc := ⟨.hbm, 160, rfl⟩
abbrev main_call1_v2 : Ref sig .tc := ⟨.hbm, 161, rfl⟩
abbrev main_call1_v3 : Ref sig .tc := ⟨.hbm, 162, rfl⟩
abbrev main_call1_v4 : Ref sig .tc := ⟨.hbm, 163, rfl⟩
abbrev main_call1_v5 : Ref sig .tc := ⟨.hbm, 164, rfl⟩
abbrev main_call1_v6 : Ref sig .tc := ⟨.hbm, 165, rfl⟩
abbrev main_call1_v7 : Ref sig .tc := ⟨.hbm, 166, rfl⟩
abbrev main_call1_cst_1 : Ref sig .tc := ⟨.hbm, 167, rfl⟩
abbrev main_call1_v8 : Ref sig .tc := ⟨.hbm, 168, rfl⟩
abbrev main_call1_cst_2 : Ref sig .tc := ⟨.hbm, 169, rfl⟩
abbrev main_call1_v9 : Ref sig .tc := ⟨.hbm, 170, rfl⟩
abbrev main_call1_v10 : Ref sig .tc := ⟨.hbm, 171, rfl⟩
abbrev main_call1_v11 : Ref sig .tc := ⟨.hbm, 172, rfl⟩
abbrev main_call1_v12 : Ref sig .tc := ⟨.hbm, 173, rfl⟩
abbrev main_call1_cst_3 : Ref sig .tc := ⟨.hbm, 174, rfl⟩
abbrev main_call1_v13 : Ref sig .tc := ⟨.hbm, 175, rfl⟩
abbrev main_call1_cst_4 : Ref sig .tc := ⟨.hbm, 176, rfl⟩
abbrev main_call1_call0_v0 : Ref sig .tc := ⟨.hbm, 177, rfl⟩
abbrev main_call1_call0_v1 : Ref sig .tc := ⟨.hbm, 178, rfl⟩
abbrev main_v106 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_v110 : Ref sig .tc := ⟨.hbm, 183, rfl⟩
abbrev main_v111 : Ref sig .tc := ⟨.hbm, 184, rfl⟩
abbrev main_cst_26 : Ref sig .tc := ⟨.hbm, 185, rfl⟩
abbrev main_v112 : Ref sig .tc := ⟨.hbm, 186, rfl⟩
abbrev main_v113 : Ref sig .tc := ⟨.hbm, 187, rfl⟩
abbrev main_v114 : Ref sig .tc := ⟨.hbm, 188, rfl⟩
abbrev main_v115 : Ref sig .tc := ⟨.hbm, 189, rfl⟩
abbrev main_v116 : Ref sig .tc := ⟨.hbm, 190, rfl⟩
abbrev main_v117 : Ref sig .tc := ⟨.hbm, 191, rfl⟩
abbrev main_v118 : Ref sig .tc := ⟨.hbm, 192, rfl⟩
abbrev main_v119 : Ref sig .tc := ⟨.hbm, 193, rfl⟩
abbrev main_cst_27 : Ref sig .tc := ⟨.hbm, 194, rfl⟩
abbrev main_call2_cst : Ref sig .tc := ⟨.hbm, 195, rfl⟩
abbrev main_call2_v0 : Ref sig .tc := ⟨.hbm, 196, rfl⟩
abbrev main_call2_v1 : Ref sig .tc := ⟨.hbm, 197, rfl⟩
abbrev main_call2_v2 : Ref sig .tc := ⟨.hbm, 198, rfl⟩
abbrev main_call2_v3 : Ref sig .tc := ⟨.hbm, 199, rfl⟩
abbrev main_call2_v4 : Ref sig .tc := ⟨.hbm, 200, rfl⟩
abbrev main_v120 : Ref sig .tc := ⟨.hbm, 201, rfl⟩
abbrev main_v121 : Ref sig .tc := ⟨.hbm, 202, rfl⟩
abbrev main_v122 : Ref sig .tc := ⟨.hbm, 203, rfl⟩
abbrev main_v123 : Ref sig .tc := ⟨.hbm, 204, rfl⟩
abbrev main_c_28 : Ref sig .tc := ⟨.hbm, 205, rfl⟩
abbrev main_v124 : Ref sig .tc := ⟨.hbm, 206, rfl⟩
abbrev main_v125 : Ref sig .tc := ⟨.hbm, 207, rfl⟩
abbrev main_c_29 : Ref sig .tc := ⟨.hbm, 208, rfl⟩
abbrev main_v126 : Ref sig .tc := ⟨.hbm, 209, rfl⟩
abbrev main_v127 : Ref sig .tc := ⟨.hbm, 210, rfl⟩
abbrev main_v128 : Ref sig .tc := ⟨.hbm, 211, rfl⟩
abbrev main_v129 : Ref sig .tc := ⟨.hbm, 212, rfl⟩
abbrev main_v130 : Ref sig .tc := ⟨.hbm, 213, rfl⟩
abbrev main_v131 : Ref sig .tc := ⟨.hbm, 214, rfl⟩
abbrev main_v132 : Ref sig .tc := ⟨.hbm, 215, rfl⟩
abbrev main_v133 : Ref sig .tc := ⟨.hbm, 216, rfl⟩
abbrev main_cst_30 : Ref sig .tc := ⟨.hbm, 217, rfl⟩
abbrev main_v134 : Ref sig .tc := ⟨.hbm, 218, rfl⟩
abbrev main_c_31 : Ref sig .tc := ⟨.hbm, 219, rfl⟩
abbrev main_v135 : Ref sig .tc := ⟨.hbm, 220, rfl⟩
abbrev main_v136 : Ref sig .tc := ⟨.hbm, 221, rfl⟩
abbrev main_c_32 : Ref sig .tc := ⟨.hbm, 222, rfl⟩
abbrev main_v137 : Ref sig .tc := ⟨.hbm, 223, rfl⟩
abbrev main_v138 : Ref sig .tc := ⟨.hbm, 224, rfl⟩
abbrev main_v139 : Ref sig .tc := ⟨.hbm, 225, rfl⟩
abbrev main_v140 : Ref sig .tc := ⟨.hbm, 226, rfl⟩
abbrev main_v141 : Ref sig .tc := ⟨.hbm, 227, rfl⟩
abbrev main_v142 : Ref sig .tc := ⟨.hbm, 228, rfl⟩
abbrev main_v143 : Ref sig .tc := ⟨.hbm, 229, rfl⟩
abbrev main_v144 : Ref sig .tc := ⟨.hbm, 230, rfl⟩
abbrev main_v145 : Ref sig .tc := ⟨.hbm, 231, rfl⟩
abbrev main_c_33 : Ref sig .tc := ⟨.hbm, 232, rfl⟩
abbrev main_v146 : Ref sig .tc := ⟨.hbm, 233, rfl⟩
abbrev main_v147 : Ref sig .tc := ⟨.hbm, 234, rfl⟩
abbrev main_c_34 : Ref sig .tc := ⟨.hbm, 235, rfl⟩
abbrev main_v148 : Ref sig .tc := ⟨.hbm, 236, rfl⟩
abbrev main_v149 : Ref sig .tc := ⟨.hbm, 237, rfl⟩
abbrev main_v150 : Ref sig .tc := ⟨.hbm, 238, rfl⟩
abbrev main_v151 : Ref sig .tc := ⟨.hbm, 239, rfl⟩
abbrev main_v152 : Ref sig .tc := ⟨.hbm, 240, rfl⟩
abbrev main_v153 : Ref sig .tc := ⟨.hbm, 241, rfl⟩
abbrev main_v154 : Ref sig .tc := ⟨.hbm, 242, rfl⟩
abbrev main_v155 : Ref sig .tc := ⟨.hbm, 243, rfl⟩
abbrev main_cst_35 : Ref sig .tc := ⟨.hbm, 244, rfl⟩
abbrev main_v156 : Ref sig .tc := ⟨.hbm, 245, rfl⟩
abbrev main_c_36 : Ref sig .tc := ⟨.hbm, 246, rfl⟩
abbrev main_v157 : Ref sig .tc := ⟨.hbm, 247, rfl⟩
abbrev main_v158 : Ref sig .tc := ⟨.hbm, 248, rfl⟩
abbrev main_c_37 : Ref sig .tc := ⟨.hbm, 249, rfl⟩
abbrev main_v159 : Ref sig .tc := ⟨.hbm, 250, rfl⟩
abbrev main_v160 : Ref sig .tc := ⟨.hbm, 251, rfl⟩
abbrev main_v161 : Ref sig .tc := ⟨.hbm, 252, rfl⟩
abbrev main_v162 : Ref sig .tc := ⟨.hbm, 253, rfl⟩
abbrev main_v163 : Ref sig .tc := ⟨.hbm, 254, rfl⟩
abbrev main_v164 : Ref sig .tc := ⟨.hbm, 255, rfl⟩
abbrev main_v165 : Ref sig .tc := ⟨.hbm, 256, rfl⟩
abbrev main_v166 : Ref sig .tc := ⟨.hbm, 257, rfl⟩
abbrev main_v167 : Ref sig .tc := ⟨.hbm, 258, rfl⟩
abbrev main_c_38 : Ref sig .tc := ⟨.hbm, 259, rfl⟩
abbrev main_v168 : Ref sig .tc := ⟨.hbm, 260, rfl⟩
abbrev main_v169 : Ref sig .tc := ⟨.hbm, 261, rfl⟩
abbrev main_c_39 : Ref sig .tc := ⟨.hbm, 262, rfl⟩
abbrev main_v170 : Ref sig .tc := ⟨.hbm, 263, rfl⟩
abbrev main_v171 : Ref sig .tc := ⟨.hbm, 264, rfl⟩
abbrev main_v172 : Ref sig .tc := ⟨.hbm, 265, rfl⟩
abbrev main_v173 : Ref sig .tc := ⟨.hbm, 266, rfl⟩
abbrev main_v174 : Ref sig .tc := ⟨.hbm, 267, rfl⟩
abbrev main_v175 : Ref sig .tc := ⟨.hbm, 268, rfl⟩
abbrev main_v176 : Ref sig .tc := ⟨.hbm, 269, rfl⟩
abbrev main_v177 : Ref sig .tc := ⟨.hbm, 270, rfl⟩
abbrev main_cst_40 : Ref sig .tc := ⟨.hbm, 271, rfl⟩
abbrev main_v178 : Ref sig .tc := ⟨.hbm, 272, rfl⟩
abbrev main_c_41 : Ref sig .tc := ⟨.hbm, 273, rfl⟩
abbrev main_v179 : Ref sig .tc := ⟨.hbm, 274, rfl⟩
abbrev main_v180 : Ref sig .tc := ⟨.hbm, 275, rfl⟩
abbrev main_c_42 : Ref sig .tc := ⟨.hbm, 276, rfl⟩
abbrev main_v181 : Ref sig .tc := ⟨.hbm, 277, rfl⟩
abbrev main_v182 : Ref sig .tc := ⟨.hbm, 278, rfl⟩
abbrev main_v183 : Ref sig .tc := ⟨.hbm, 279, rfl⟩
abbrev main_v184 : Ref sig .tc := ⟨.hbm, 280, rfl⟩
abbrev main_v185 : Ref sig .tc := ⟨.hbm, 281, rfl⟩
abbrev main_v186 : Ref sig .tc := ⟨.hbm, 282, rfl⟩
abbrev main_v187 : Ref sig .tc := ⟨.hbm, 283, rfl⟩
abbrev main_v188 : Ref sig .tc := ⟨.hbm, 284, rfl⟩
abbrev main_v189 : Ref sig .tc := ⟨.hbm, 285, rfl⟩
abbrev main_v190 : Ref sig .tc := ⟨.hbm, 286, rfl⟩
abbrev main_v191 : Ref sig .tc := ⟨.hbm, 287, rfl⟩
abbrev main_v192 : Ref sig .tc := ⟨.hbm, 288, rfl⟩
abbrev main_cst_43 : Ref sig .tc := ⟨.hbm, 289, rfl⟩
abbrev main_v193 : Ref sig .tc := ⟨.hbm, 290, rfl⟩
abbrev main_v194 : Ref sig .tc := ⟨.hbm, 291, rfl⟩
abbrev main_cst_44 : Ref sig .tc := ⟨.hbm, 292, rfl⟩
abbrev main_v195 : Ref sig .tc := ⟨.hbm, 293, rfl⟩
abbrev main_v196 : Ref sig .tc := ⟨.hbm, 294, rfl⟩
abbrev main_c_45 : Ref sig .tc := ⟨.hbm, 295, rfl⟩
abbrev main_call3_cst : Ref sig .tc := ⟨.hbm, 296, rfl⟩
abbrev main_call3_v0 : Ref sig .tc := ⟨.hbm, 297, rfl⟩
abbrev main_call3_v1 : Ref sig .tc := ⟨.hbm, 298, rfl⟩
abbrev main_call3_cst_0 : Ref sig .tc := ⟨.hbm, 299, rfl⟩
abbrev main_call3_v2 : Ref sig .tc := ⟨.hbm, 300, rfl⟩
abbrev main_call3_v3 : Ref sig .tc := ⟨.hbm, 301, rfl⟩
abbrev main_call3_v4 : Ref sig .tc := ⟨.hbm, 302, rfl⟩
abbrev main_call3_v5 : Ref sig .tc := ⟨.hbm, 303, rfl⟩
abbrev main_call3_v6 : Ref sig .tc := ⟨.hbm, 304, rfl⟩
abbrev main_call3_v7 : Ref sig .tc := ⟨.hbm, 305, rfl⟩
abbrev main_call3_cst_1 : Ref sig .tc := ⟨.hbm, 306, rfl⟩
abbrev main_call3_v8 : Ref sig .tc := ⟨.hbm, 307, rfl⟩
abbrev main_call3_cst_2 : Ref sig .tc := ⟨.hbm, 308, rfl⟩
abbrev main_call3_v9 : Ref sig .tc := ⟨.hbm, 309, rfl⟩
abbrev main_call3_v10 : Ref sig .tc := ⟨.hbm, 310, rfl⟩
abbrev main_call3_v11 : Ref sig .tc := ⟨.hbm, 311, rfl⟩
abbrev main_call3_v12 : Ref sig .tc := ⟨.hbm, 312, rfl⟩
abbrev main_call3_cst_3 : Ref sig .tc := ⟨.hbm, 313, rfl⟩
abbrev main_call3_v13 : Ref sig .tc := ⟨.hbm, 314, rfl⟩
abbrev main_call3_cst_4 : Ref sig .tc := ⟨.hbm, 315, rfl⟩
abbrev main_call3_call0_v0 : Ref sig .tc := ⟨.hbm, 316, rfl⟩
abbrev main_call3_call0_v1 : Ref sig .tc := ⟨.hbm, 317, rfl⟩
abbrev main_v197 : Ref sig .tc := ⟨.hbm, 318, rfl⟩
abbrev main_v198 : Ref sig .tc := ⟨.hbm, 319, rfl⟩
abbrev main_v199 : Ref sig .tc := ⟨.hbm, 320, rfl⟩
abbrev main_v200 : Ref sig .tc := ⟨.hbm, 321, rfl⟩
abbrev main_v201 : Ref sig .tc := ⟨.hbm, 322, rfl⟩
abbrev main_v202 : Ref sig .tc := ⟨.hbm, 323, rfl⟩
abbrev main_cst_46 : Ref sig .tc := ⟨.hbm, 324, rfl⟩
abbrev main_v203 : Ref sig .tc := ⟨.hbm, 325, rfl⟩
abbrev main_v204 : Ref sig .tc := ⟨.hbm, 326, rfl⟩
abbrev main_v205 : Ref sig .tc := ⟨.hbm, 327, rfl⟩
abbrev main_v206 : Ref sig .tc := ⟨.hbm, 328, rfl⟩
abbrev main_v207 : Ref sig .tc := ⟨.hbm, 329, rfl⟩
abbrev main_v208 : Ref sig .tc := ⟨.hbm, 330, rfl⟩
abbrev main_v209 : Ref sig .tc := ⟨.hbm, 331, rfl⟩
abbrev main_v210 : Ref sig .tc := ⟨.hbm, 332, rfl⟩
abbrev main_cst_47 : Ref sig .tc := ⟨.hbm, 333, rfl⟩
abbrev main_call4_cst : Ref sig .tc := ⟨.hbm, 334, rfl⟩
abbrev main_call4_v0 : Ref sig .tc := ⟨.hbm, 335, rfl⟩
abbrev main_call4_v1 : Ref sig .tc := ⟨.hbm, 336, rfl⟩
abbrev main_call4_v2 : Ref sig .tc := ⟨.hbm, 337, rfl⟩
abbrev main_call4_v3 : Ref sig .tc := ⟨.hbm, 338, rfl⟩
abbrev main_call4_v4 : Ref sig .tc := ⟨.hbm, 339, rfl⟩
abbrev main_v211 : Ref sig .tc := ⟨.hbm, 340, rfl⟩
abbrev main_v212 : Ref sig .tc := ⟨.hbm, 341, rfl⟩
abbrev main_v213 : Ref sig .tc := ⟨.hbm, 342, rfl⟩
abbrev main_v214 : Ref sig .tc := ⟨.hbm, 343, rfl⟩
abbrev main_c_48 : Ref sig .tc := ⟨.hbm, 344, rfl⟩
abbrev main_v215 : Ref sig .tc := ⟨.hbm, 345, rfl⟩
abbrev main_v216 : Ref sig .tc := ⟨.hbm, 346, rfl⟩
abbrev main_c_49 : Ref sig .tc := ⟨.hbm, 347, rfl⟩
abbrev main_v217 : Ref sig .tc := ⟨.hbm, 348, rfl⟩
abbrev main_v218 : Ref sig .tc := ⟨.hbm, 349, rfl⟩
abbrev main_v219 : Ref sig .tc := ⟨.hbm, 350, rfl⟩
abbrev main_v220 : Ref sig .tc := ⟨.hbm, 351, rfl⟩
abbrev main_v221 : Ref sig .tc := ⟨.hbm, 352, rfl⟩
abbrev main_v222 : Ref sig .tc := ⟨.hbm, 353, rfl⟩
abbrev main_v223 : Ref sig .tc := ⟨.hbm, 354, rfl⟩
abbrev main_v224 : Ref sig .tc := ⟨.hbm, 355, rfl⟩
abbrev main_cst_50 : Ref sig .tc := ⟨.hbm, 356, rfl⟩
abbrev main_v225 : Ref sig .tc := ⟨.hbm, 357, rfl⟩
abbrev main_c_51 : Ref sig .tc := ⟨.hbm, 358, rfl⟩
abbrev main_v226 : Ref sig .tc := ⟨.hbm, 359, rfl⟩
abbrev main_v227 : Ref sig .tc := ⟨.hbm, 360, rfl⟩
abbrev main_c_52 : Ref sig .tc := ⟨.hbm, 361, rfl⟩
abbrev main_v228 : Ref sig .tc := ⟨.hbm, 362, rfl⟩
abbrev main_v229 : Ref sig .tc := ⟨.hbm, 363, rfl⟩
abbrev main_v230 : Ref sig .tc := ⟨.hbm, 364, rfl⟩
abbrev main_v231 : Ref sig .tc := ⟨.hbm, 365, rfl⟩
abbrev main_v232 : Ref sig .tc := ⟨.hbm, 366, rfl⟩
abbrev main_v233 : Ref sig .tc := ⟨.hbm, 367, rfl⟩
abbrev main_v234 : Ref sig .tc := ⟨.hbm, 368, rfl⟩
abbrev main_v235 : Ref sig .tc := ⟨.hbm, 369, rfl⟩
abbrev main_v236 : Ref sig .tc := ⟨.hbm, 370, rfl⟩
abbrev main_c_53 : Ref sig .tc := ⟨.hbm, 371, rfl⟩
abbrev main_v237 : Ref sig .tc := ⟨.hbm, 372, rfl⟩
abbrev main_v238 : Ref sig .tc := ⟨.hbm, 373, rfl⟩
abbrev main_c_54 : Ref sig .tc := ⟨.hbm, 374, rfl⟩
abbrev main_v239 : Ref sig .tc := ⟨.hbm, 375, rfl⟩
abbrev main_v240 : Ref sig .tc := ⟨.hbm, 376, rfl⟩
abbrev main_v241 : Ref sig .tc := ⟨.hbm, 377, rfl⟩
abbrev main_v242 : Ref sig .tc := ⟨.hbm, 378, rfl⟩
abbrev main_v243 : Ref sig .tc := ⟨.hbm, 379, rfl⟩
abbrev main_v244 : Ref sig .tc := ⟨.hbm, 380, rfl⟩
abbrev main_v245 : Ref sig .tc := ⟨.hbm, 381, rfl⟩
abbrev main_v246 : Ref sig .tc := ⟨.hbm, 382, rfl⟩
abbrev main_cst_55 : Ref sig .tc := ⟨.hbm, 383, rfl⟩
abbrev main_v247 : Ref sig .tc := ⟨.hbm, 384, rfl⟩
abbrev main_c_56 : Ref sig .tc := ⟨.hbm, 385, rfl⟩
abbrev main_v248 : Ref sig .tc := ⟨.hbm, 386, rfl⟩
abbrev main_v249 : Ref sig .tc := ⟨.hbm, 387, rfl⟩
abbrev main_c_57 : Ref sig .tc := ⟨.hbm, 388, rfl⟩
abbrev main_v250 : Ref sig .tc := ⟨.hbm, 389, rfl⟩
abbrev main_v251 : Ref sig .tc := ⟨.hbm, 390, rfl⟩
abbrev main_v252 : Ref sig .tc := ⟨.hbm, 391, rfl⟩
abbrev main_v253 : Ref sig .tc := ⟨.hbm, 392, rfl⟩
abbrev main_v254 : Ref sig .tc := ⟨.hbm, 393, rfl⟩
abbrev main_v255 : Ref sig .tc := ⟨.hbm, 394, rfl⟩
abbrev main_v256 : Ref sig .tc := ⟨.hbm, 395, rfl⟩
abbrev main_v257 : Ref sig .tc := ⟨.hbm, 396, rfl⟩
abbrev main_v258 : Ref sig .tc := ⟨.hbm, 397, rfl⟩
abbrev main_c_58 : Ref sig .tc := ⟨.hbm, 398, rfl⟩
abbrev main_v259 : Ref sig .tc := ⟨.hbm, 399, rfl⟩
abbrev main_v260 : Ref sig .tc := ⟨.hbm, 400, rfl⟩
abbrev main_c_59 : Ref sig .tc := ⟨.hbm, 401, rfl⟩
abbrev main_v261 : Ref sig .tc := ⟨.hbm, 402, rfl⟩
abbrev main_v262 : Ref sig .tc := ⟨.hbm, 403, rfl⟩
abbrev main_v263 : Ref sig .tc := ⟨.hbm, 404, rfl⟩
abbrev main_v264 : Ref sig .tc := ⟨.hbm, 405, rfl⟩
abbrev main_v265 : Ref sig .tc := ⟨.hbm, 406, rfl⟩
abbrev main_v266 : Ref sig .tc := ⟨.hbm, 407, rfl⟩
abbrev main_v267 : Ref sig .tc := ⟨.hbm, 408, rfl⟩
abbrev main_v268 : Ref sig .tc := ⟨.hbm, 409, rfl⟩
abbrev main_cst_60 : Ref sig .tc := ⟨.hbm, 410, rfl⟩
abbrev main_v269 : Ref sig .tc := ⟨.hbm, 411, rfl⟩
abbrev main_c_61 : Ref sig .tc := ⟨.hbm, 412, rfl⟩
abbrev main_v270 : Ref sig .tc := ⟨.hbm, 413, rfl⟩
abbrev main_v271 : Ref sig .tc := ⟨.hbm, 414, rfl⟩
abbrev main_c_62 : Ref sig .tc := ⟨.hbm, 415, rfl⟩
abbrev main_v272 : Ref sig .tc := ⟨.hbm, 416, rfl⟩
abbrev main_v273 : Ref sig .tc := ⟨.hbm, 417, rfl⟩
abbrev main_v274 : Ref sig .tc := ⟨.hbm, 418, rfl⟩
abbrev main_v275 : Ref sig .tc := ⟨.hbm, 419, rfl⟩
abbrev main_v276 : Ref sig .tc := ⟨.hbm, 420, rfl⟩
abbrev main_v277 : Ref sig .tc := ⟨.hbm, 421, rfl⟩
abbrev main_v278 : Ref sig .tc := ⟨.hbm, 422, rfl⟩
abbrev main_v279 : Ref sig .tc := ⟨.hbm, 423, rfl⟩
abbrev main_v280 : Ref sig .tc := ⟨.hbm, 424, rfl⟩
abbrev main_v281 : Ref sig .tc := ⟨.hbm, 425, rfl⟩
abbrev main_v282 : Ref sig .tc := ⟨.hbm, 426, rfl⟩
abbrev main_v283 : Ref sig .tc := ⟨.hbm, 427, rfl⟩
abbrev main_call5_v0 : Ref sig .tc := ⟨.hbm, 428, rfl⟩
abbrev main_call5_cst : Ref sig .tc := ⟨.hbm, 429, rfl⟩
abbrev main_call5_v1 : Ref sig .tc := ⟨.hbm, 430, rfl⟩
abbrev main_v284 : Ref sig .tc := ⟨.hbm, 431, rfl⟩
abbrev main_cst_63 : Ref sig .tc := ⟨.hbm, 432, rfl⟩
abbrev main_call6_v0 : Ref sig .tc := ⟨.hbm, 433, rfl⟩
abbrev main_call6_v1 : Ref sig .tc := ⟨.hbm, 434, rfl⟩
abbrev main_v285 : Ref sig .tc := ⟨.hbm, 435, rfl⟩
abbrev main_v286 : Ref sig .tc := ⟨.hbm, 436, rfl⟩
abbrev main_v287 : Ref sig .tc := ⟨.hbm, 437, rfl⟩
abbrev main_v288 : Ref sig .tc := ⟨.hbm, 438, rfl⟩
abbrev main_v289 : Ref sig .tc := ⟨.hbm, 439, rfl⟩
abbrev main_v290 : Ref sig .tc := ⟨.hbm, 440, rfl⟩
abbrev main_v291 : Ref sig .tc := ⟨.hbm, 441, rfl⟩
abbrev main_v292 : Ref sig .tc := ⟨.hbm, 442, rfl⟩
abbrev main_v293 : Ref sig .tc := ⟨.hbm, 443, rfl⟩
abbrev main_v294 : Ref sig .tc := ⟨.hbm, 444, rfl⟩
abbrev main_v295 : Ref sig .tc := ⟨.hbm, 445, rfl⟩
abbrev main_v296 : Ref sig .tc := ⟨.hbm, 446, rfl⟩
abbrev main_call7_v0 : Ref sig .tc := ⟨.hbm, 447, rfl⟩
abbrev main_call7_v1 : Ref sig .tc := ⟨.hbm, 448, rfl⟩
abbrev main_call7_v2 : Ref sig .tc := ⟨.hbm, 449, rfl⟩
abbrev main_call7_v3 : Ref sig .tc := ⟨.hbm, 450, rfl⟩
abbrev main_call7_v4 : Ref sig .tc := ⟨.hbm, 451, rfl⟩
abbrev main_v297 : Ref sig .tc := ⟨.hbm, 452, rfl⟩
abbrev main_v298 : Ref sig .tc := ⟨.hbm, 453, rfl⟩
abbrev main_v299 : Ref sig .tc := ⟨.hbm, 454, rfl⟩
abbrev main_call8_v0 : Ref sig .tc := ⟨.hbm, 455, rfl⟩
abbrev main_call8_v1 : Ref sig .tc := ⟨.hbm, 456, rfl⟩
abbrev main_call8_v2 : Ref sig .tc := ⟨.hbm, 457, rfl⟩
abbrev main_call8_v3 : Ref sig .tc := ⟨.hbm, 458, rfl⟩
abbrev main_call8_v4 : Ref sig .tc := ⟨.hbm, 459, rfl⟩
abbrev main_v300 : Ref sig .tc := ⟨.hbm, 460, rfl⟩
abbrev main_v301 : Ref sig .tc := ⟨.hbm, 461, rfl⟩
abbrev main_v302 : Ref sig .tc := ⟨.hbm, 462, rfl⟩
abbrev main_v303 : Ref sig .tc := ⟨.hbm, 463, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S_S400000 : S_.BroadcastsInDim S400000 (![] : Fin 0 → Fin S400000.rank)
  bcast_S400000_S400000x1_0 : S400000.BroadcastsInDim S400000x1 (![0] : Fin 1 → Fin S400000x1.rank)
  slices_S4x4x64_S1x4x64_0_0_0 : S4x4x64.Slices ![0, 0, 0] S1x4x64
  shapeCasts_S1x4x64_S4x64 : S1x4x64.ShapeCasts S4x64
  bcast_S400000_S1x400000x1_1 : S400000.BroadcastsInDim S1x400000x1 (![1] : Fin 1 → Fin S1x400000x1.rank)
  bcast_S1x400000x1_S4x400000x4_0_1_2 : S1x400000x1.BroadcastsInDim S4x400000x4 (![0, 1, 2] : Fin 3 → Fin S4x400000x4.rank)
  bcast_S_S4x50000x4 : S_.BroadcastsInDim S4x50000x4 (![] : Fin 0 → Fin S4x50000x4.rank)
  slices_S4x4x64_S1x4x64_1_0_0 : S4x4x64.Slices ![1, 0, 0] S1x4x64
  slices_S4x4x64_S1x4x64_2_0_0 : S4x4x64.Slices ![2, 0, 0] S1x4x64
  slices_S4x4x64_S1x4x64_3_0_0 : S4x4x64.Slices ![3, 0, 0] S1x4x64
  bcast_S64_S1x1x64_2 : S64.BroadcastsInDim S1x1x64 (![2] : Fin 1 → Fin S1x1x64.rank)
  bcast_S1x1x64_S4x50000x64_0_1_2 : S1x1x64.BroadcastsInDim S4x50000x64 (![0, 1, 2] : Fin 3 → Fin S4x50000x64.rank)
  reducesTo_S4x50000x64_S50000_d0_2 : S4x50000x64.ReducesTo [0, 2] S50000
  h_S_ : 0 < S_.numel
  bcast_S50000_S1x50000x1_1 : S50000.BroadcastsInDim S1x50000x1 (![1] : Fin 1 → Fin S1x50000x1.rank)
  bcast_S_S1x50000x1 : S_.BroadcastsInDim S1x50000x1 (![] : Fin 0 → Fin S1x50000x1.rank)
  bcast_S1x50000x1_S4x50000x64_0_1_2 : S1x50000x1.BroadcastsInDim S4x50000x64 (![0, 1, 2] : Fin 3 → Fin S4x50000x64.rank)
  bcast_S_S4x50000x64 : S_.BroadcastsInDim S4x50000x64 (![] : Fin 0 → Fin S4x50000x64.rank)
  slices_S4x64x64_S1x64x64_0_0_0 : S4x64x64.Slices ![0, 0, 0] S1x64x64
  shapeCasts_S1x64x64_S64x64 : S1x64x64.ShapeCasts S64x64
  bcast_S1x400000x1_S4x400000x64_0_1_2 : S1x400000x1.BroadcastsInDim S4x400000x64 (![0, 1, 2] : Fin 3 → Fin S4x400000x64.rank)
  slices_S4x64x64_S1x64x64_1_0_0 : S4x64x64.Slices ![1, 0, 0] S1x64x64
  slices_S4x64x64_S1x64x64_2_0_0 : S4x64x64.Slices ![2, 0, 0] S1x64x64
  slices_S4x64x64_S1x64x64_3_0_0 : S4x64x64.Slices ![3, 0, 0] S1x64x64
  slices_S4x64x2_S1x64x2_0_0_0 : S4x64x2.Slices ![0, 0, 0] S1x64x2
  shapeCasts_S1x64x2_S64x2 : S1x64x2.ShapeCasts S64x2
  slices_S4x64x2_S1x64x2_1_0_0 : S4x64x2.Slices ![1, 0, 0] S1x64x2
  slices_S4x64x2_S1x64x2_2_0_0 : S4x64x2.Slices ![2, 0, 0] S1x64x2
  slices_S4x64x2_S1x64x2_3_0_0 : S4x64x2.Slices ![3, 0, 0] S1x64x2
  bcast_S2_S1x1x2_2 : S2.BroadcastsInDim S1x1x2 (![2] : Fin 1 → Fin S1x1x2.rank)
  bcast_S1x1x2_S4x50000x2_0_1_2 : S1x1x2.BroadcastsInDim S4x50000x2 (![0, 1, 2] : Fin 3 → Fin S4x50000x2.rank)
  bcast_S_S50000x2 : S_.BroadcastsInDim S50000x2 (![] : Fin 0 → Fin S50000x2.rank)
  bcast_S50000x2_S1x50000x2_1_2 : S50000x2.BroadcastsInDim S1x50000x2 (![1, 2] : Fin 2 → Fin S1x50000x2.rank)
  bcast_S1x50000x2_S4x50000x2_0_1_2 : S1x50000x2.BroadcastsInDim S4x50000x2 (![0, 1, 2] : Fin 3 → Fin S4x50000x2.rank)
  slices_S4x50000x2_S4x50000x1_0_0_0 : S4x50000x2.Slices ![0, 0, 0] S4x50000x1
  shapeCasts_S4x50000x1_S4x50000 : S4x50000x1.ShapeCasts S4x50000
  bcast_S50000_S1x50000_1 : S50000.BroadcastsInDim S1x50000 (![1] : Fin 1 → Fin S1x50000.rank)
  bcast_S1x50000_S4x50000_0_1 : S1x50000.BroadcastsInDim S4x50000 (![0, 1] : Fin 2 → Fin S4x50000.rank)
  slices_S4x50000x2_S4x50000x1_0_0_1 : S4x50000x2.Slices ![0, 0, 1] S4x50000x1
  bcast_S4x50000_S4x50000x1_0_1 : S4x50000.BroadcastsInDim S4x50000x1 (![0, 1] : Fin 2 → Fin S4x50000x1.rank)
  concatenates_S4x50000x1_S4x50000x1_S4x50000x2_d2 : Shape.Concatenates [S4x50000x1, S4x50000x1] S4x50000x2 2
  scatter_S50000_S400000x1_S400000_n_0_0_1_wf : ScatterDims.WF S50000 S400000x1 S400000 [] [0] [0] 1
  gather_S50000_S400000x1_S400000_n_0_n_n_0_1_1_wf : GatherDims.WF S50000 S400000x1 S400000 [] [0] [] [0] [] 1 ![1]
  dot_S4x50000x4_S4x64_S4x50000x64_2_0_01_1_n_n_wf : DotDims.WF S4x50000x4 S4x64 S4x50000x64 [2] [0] [0, 1] [1] [] []
  gather_S4x50000x4_S400000x1_S4x400000x4_02_1_n_n_1_1_414_wf : GatherDims.WF S4x50000x4 S400000x1 S4x400000x4 [0, 2] [1] [] [1] [] 1 ![4, 1, 4]
  scatter_S4x50000x4_S400000x1_S4x400000x4_02_1_1_1_wf : ScatterDims.WF S4x50000x4 S400000x1 S4x400000x4 [0, 2] [1] [1] 1
  dot_S4x50000x64_S64x64_S4x50000x64_2_0_01_1_n_n_wf : DotDims.WF S4x50000x64 S64x64 S4x50000x64 [2] [0] [0, 1] [1] [] []
  gather_S4x50000x64_S400000x1_S4x400000x64_02_1_n_n_1_1_4164_wf : GatherDims.WF S4x50000x64 S400000x1 S4x400000x64 [0, 2] [1] [] [1] [] 1 ![4, 1, 64]
  scatter_S4x50000x64_S400000x1_S4x400000x64_02_1_1_1_wf : ScatterDims.WF S4x50000x64 S400000x1 S4x400000x64 [0, 2] [1] [1] 1
  dot_S4x50000x64_S64x2_S4x50000x2_2_0_01_1_n_n_wf : DotDims.WF S4x50000x64 S64x2 S4x50000x2 [2] [0] [0, 1] [1] [] []

variable [Facts₀]

def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def gather_S50000_S400000x1_S400000_n_0_n_n_0_1_1 : GatherDims S50000 S400000x1 S400000 where
  offsetDims := []
  collapsedSliceDims := [0]
  operandBatchingDims := []
  startIndicesBatchingDims := []
  startIndexMap := [0]
  indexVectorDim := 1
  sliceSizes := ![1]
  wf := gather_S50000_S400000x1_S400000_n_0_n_n_0_1_1_wf
def dot_S4x50000x4_S4x64_S4x50000x64_2_0_01_1_n_n : DotDims S4x50000x4 S4x64 S4x50000x64 where
  lhsContracting := [2]
  rhsContracting := [0]
  lhsNonContracting := [0, 1]
  rhsNonContracting := [1]
  lhsBatch := []
  rhsBatch := []
  wf := dot_S4x50000x4_S4x64_S4x50000x64_2_0_01_1_n_n_wf
def gather_S4x50000x4_S400000x1_S4x400000x4_02_1_n_n_1_1_414 : GatherDims S4x50000x4 S400000x1 S4x400000x4 where
  offsetDims := [0, 2]
  collapsedSliceDims := [1]
  operandBatchingDims := []
  startIndicesBatchingDims := []
  startIndexMap := [1]
  indexVectorDim := 1
  sliceSizes := ![4, 1, 4]
  wf := gather_S4x50000x4_S400000x1_S4x400000x4_02_1_n_n_1_1_414_wf
def scatter_S4x50000x4_S400000x1_S4x400000x4_02_1_1_1 : ScatterDims S4x50000x4 S400000x1 S4x400000x4 where
  updateWindowDims := [0, 2]
  insertedWindowDims := [1]
  scatterDimsToOperandDims := [1]
  indexVectorDim := 1
  wf := scatter_S4x50000x4_S400000x1_S4x400000x4_02_1_1_1_wf
def dot_S4x50000x64_S64x64_S4x50000x64_2_0_01_1_n_n : DotDims S4x50000x64 S64x64 S4x50000x64 where
  lhsContracting := [2]
  rhsContracting := [0]
  lhsNonContracting := [0, 1]
  rhsNonContracting := [1]
  lhsBatch := []
  rhsBatch := []
  wf := dot_S4x50000x64_S64x64_S4x50000x64_2_0_01_1_n_n_wf
def gather_S4x50000x64_S400000x1_S4x400000x64_02_1_n_n_1_1_4164 : GatherDims S4x50000x64 S400000x1 S4x400000x64 where
  offsetDims := [0, 2]
  collapsedSliceDims := [1]
  operandBatchingDims := []
  startIndicesBatchingDims := []
  startIndexMap := [1]
  indexVectorDim := 1
  sliceSizes := ![4, 1, 64]
  wf := gather_S4x50000x64_S400000x1_S4x400000x64_02_1_n_n_1_1_4164_wf
def scatter_S4x50000x64_S400000x1_S4x400000x64_02_1_1_1 : ScatterDims S4x50000x64 S400000x1 S4x400000x64 where
  updateWindowDims := [0, 2]
  insertedWindowDims := [1]
  scatterDimsToOperandDims := [1]
  indexVectorDim := 1
  wf := scatter_S4x50000x64_S400000x1_S4x400000x64_02_1_1_1_wf
def dot_S4x50000x64_S64x2_S4x50000x2_2_0_01_1_n_n : DotDims S4x50000x64 S64x2 S4x50000x2 where
  lhsContracting := [2]
  rhsContracting := [0]
  lhsNonContracting := [0, 1]
  rhsNonContracting := [1]
  lhsBatch := []
  rhsBatch := []
  wf := dot_S4x50000x64_S64x2_S4x50000x2_2_0_01_1_n_n_wf

class Facts : Prop extends Facts₀ where

variable [Facts]
-- ==== Proof.KBits.R0.lean ====
/-
  Region 0 of the program's @main (the Pallas call of `cc0__bn_act_kernel`), at any contents `V` of the TensorCore's buffers when
  the region is entered. A grid point `t` handles the 2000 nodes `2000·t … 2000·t + 1999`: every input window's staging
  buffer holds that window's block of its array (whole arrays for the weights and the bias, which are fetched once), the
  body loads them whole, and its one store writes the whole output block. So after the body the output's staging buffer is
  one function of the input blocks — the body's arithmetic, named by the skeleton's payloads — and the inputs' are as found.
  The body also loads the output buffer once before storing into it; the loaded value is not used, so whatever the buffer
  held does not matter.
-/
import proofs.«159603_j71347996721325_2_alg».proof.Proof.Gen.Kernel.Launch
import proofs.«159603_j71347996721325_2_alg».proof.Proof.Gen.Kernel.Skeleton
import proofs.«159603_j71347996721325_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the window was fetched there or not
    (when it is not, its block index has not moved since the point before). -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether the window was fetched there or not
    (when it is not, its block index has not moved since the point before). -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether the window was fetched there or not
    (when it is not, its block index has not moved since the point before). -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, whether the window was fetched there or not
    (when it is not, its block index has not moved since the point before). -/
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, whether the window was fetched there or not
    (when it is not, its block index has not moved since the point before). -/
theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take a whole buffer -/

abbrev rin0_0 : Rect S4x2000x16 := Rect.unit (s := S4x2000x16) ![0, 0, 0] S4x2000x16.size inb_S4x2000x16_S4x2000x16_0_0_0
abbrev rin0_1 : Rect S16x64 := Rect.unit (s := S16x64) ![0, 0] S16x64.size inb_S16x64_S16x64_0_0
abbrev rin0_2 : Rect S1x64 := Rect.unit (s := S1x64) ![0, 0] S1x64.size inb_S1x64_S1x64_0_0
abbrev rin0_3 : Rect S2000x1 := Rect.unit (s := S2000x1) ![0, 0] S2000x1.size inb_S2000x1_S2000x1_0_0
abbrev rin0_4 : Rect S2000x1 := Rect.unit (s := S2000x1) ![0, 0] S2000x1.size inb_S2000x1_S2000x1_0_0
abbrev rout0 : Rect S4x2000x64 := Rect.unit (s := S4x2000x64) ![0, 0, 0] S4x2000x64.size inb_S4x2000x64_S4x2000x64_0_0_0

/-- The output window's staging buffer after the body, as a function of the input blocks: its one store, of the
    body's arithmetic on the loaded blocks. -/
def out0 (x0 : Vec F S4x2000x16 .f32) (x1 : Vec F S16x64 .f32) (x2 : Vec F S1x64 .f32) (x3 : Vec F S2000x1 .f32) (x4 : Vec F S2000x1 .f32) : Vec F S4x2000x64 .f32 :=
  View.canon [⟨rout0, k0_pay1 (k0_pay2 (View.ld x0 rin0_0) (View.ld x1 rin0_1) (View.ld x2 rin0_2)) (k0_pay3 (View.ld x0 rin0_0) (View.ld x1 rin0_1) (View.ld x2 rin0_2)) (k0_pay4 (View.ld x0 rin0_0) (View.ld x1 rin0_1) (View.ld x2 rin0_2)) (k0_pay5 (View.ld x3 rin0_3)) (k0_pay6 (View.ld x4 rin0_4))⟩]

/-- The one store covers the whole buffer. -/
theorem cover0 (p0 : Vec F S4x2000x64 .f32) (y : S4x2000x64.Idx) :
    ∃ pc ∈ ([⟨rout0, p0⟩] : List (View.Piece (Elt F) S4x2000x64 .f32)), y ∈ pc.1.set :=
  View.cover_of_tiled [⟨rout0, p0⟩] S4x2000x64.size (by rfl) y

set_option maxHeartbeats 1000000 in
/-- The body on whole staging memrefs — the inputs' at contents `xW`, the output's at anything — runs to a state with the
    inputs' as they were and the output's at `out0` of the inputs'. -/
theorem sound_kernel0 (c : Dev nD) (E : Set ℕ) (i : grid0.Coords) (arg1 : Memref sig .tc .vmem S4x2000x16 .f32) (harg1 : arg1.IsWhole) (arg2 : Memref sig .tc .vmem S16x64 .f32) (harg2 : arg2.IsWhole) (arg3 : Memref sig .tc .vmem S1x64 .f32) (harg3 : arg3.IsWhole) (arg4 : Memref sig .tc .vmem S2000x1 .f32) (harg4 : arg4.IsWhole) (arg5 : Memref sig .tc .vmem S2000x1 .f32) (harg5 : arg5.IsWhole) (arg6 : Memref sig .tc .vmem S4x2000x64 .f32) (harg6 : arg6.IsWhole)
    (x0 : Vec F S4x2000x16 .f32) (x1 : Vec F S16x64 .f32) (x2 : Vec F S1x64 .f32) (x3 : Vec F S2000x1 .f32) (x4 : Vec F S2000x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0 x0 x1 x2 x3 x4)) -∗ K ⟨⟩))
      ⊢ wp frame (wpE (defs₀ (F := F)) Variants.none c none) E (cc0__bn_act_kernel i arg1 harg1 arg2 harg2 arg3 harg3 arg4 harg4 arg5 harg5 arg6 harg6) K := by
  simp only [cc0__bn_act_kernel_eq_skeleton]; unfold cc0__bn_act_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover0 _)

/-- The region's proof data on core `c`: the arrays as the region finds them; after the body at point `t` each input's
    buffer still at its block and the output's at `out0` of the input blocks; the scoped rest and the generator register
    pass through untouched; nothing is owed to another core. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body's obligation to the pipeline, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBits.R1.lean ====
/-
  Region 1 of the program's @main (the Pallas call of `cc1__bn_act_kernel`), at any contents `V` of the TensorCore's buffers when
  the region is entered. A grid point `t` handles the 2000 nodes `2000·t … 2000·t + 1999`: every input window's staging
  buffer holds that window's block of its array (whole arrays for the weights and the bias, which are fetched once), the
  body loads them whole, and its one store writes the whole output block. So after the body the output's staging buffer is
  one function of the input blocks — the body's arithmetic, named by the skeleton's payloads — and the inputs' are as found.
  The body also loads the output buffer once before storing into it; the loaded value is not used, so whatever the buffer
  held does not matter.
-/
import proofs.«159603_j71347996721325_2_alg».proof.Proof.Gen.Kernel.Launch
import proofs.«159603_j71347996721325_2_alg».proof.Proof.Gen.Kernel.Skeleton
import proofs.«159603_j71347996721325_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the window was fetched there or not
    (when it is not, its block index has not moved since the point before). -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether the window was fetched there or not
    (when it is not, its block index has not moved since the point before). -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether the window was fetched there or not
    (when it is not, its block index has not moved since the point before). -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, whether the window was fetched there or not
    (when it is not, its block index has not moved since the point before). -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, whether the window was fetched there or not
    (when it is not, its block index has not moved since the point before). -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take a whole buffer -/

abbrev rin1_0 : Rect S4x2000x256 := Rect.unit (s := S4x2000x256) ![0, 0, 0] S4x2000x256.size inb_S4x2000x256_S4x2000x256_0_0_0
abbrev rin1_1 : Rect S256x64 := Rect.unit (s := S256x64) ![0, 0] S256x64.size inb_S256x64_S256x64_0_0
abbrev rin1_2 : Rect S1x64 := Rect.unit (s := S1x64) ![0, 0] S1x64.size inb_S1x64_S1x64_0_0
abbrev rin1_3 : Rect S2000x1 := Rect.unit (s := S2000x1) ![0, 0] S2000x1.size inb_S2000x1_S2000x1_0_0
abbrev rin1_4 : Rect S2000x1 := Rect.unit (s := S2000x1) ![0, 0] S2000x1.size inb_S2000x1_S2000x1_0_0
abbrev rout1 : Rect S4x2000x64 := Rect.unit (s := S4x2000x64) ![0, 0, 0] S4x2000x64.size inb_S4x2000x64_S4x2000x64_0_0_0

/-- The output window's staging buffer after the body, as a function of the input blocks: its one store, of the
    body's arithmetic on the loaded blocks. -/
def out1 (x0 : Vec F S4x2000x256 .f32) (x1 : Vec F S256x64 .f32) (x2 : Vec F S1x64 .f32) (x3 : Vec F S2000x1 .f32) (x4 : Vec F S2000x1 .f32) : Vec F S4x2000x64 .f32 :=
  View.canon [⟨rout1, k1_pay1 (k1_pay2 (View.ld x0 rin1_0) (View.ld x1 rin1_1) (View.ld x2 rin1_2)) (k1_pay3 (View.ld x0 rin1_0) (View.ld x1 rin1_1) (View.ld x2 rin1_2)) (k1_pay4 (View.ld x0 rin1_0) (View.ld x1 rin1_1) (View.ld x2 rin1_2)) (k1_pay5 (View.ld x3 rin1_3)) (k1_pay6 (View.ld x4 rin1_4))⟩]

/-- The one store covers the whole buffer. -/
theorem cover1 (p0 : Vec F S4x2000x64 .f32) (y : S4x2000x64.Idx) :
    ∃ pc ∈ ([⟨rout1, p0⟩] : List (View.Piece (Elt F) S4x2000x64 .f32)), y ∈ pc.1.set :=
  View.cover_of_tiled [⟨rout1, p0⟩] S4x2000x64.size (by rfl) y

set_option maxHeartbeats 1000000 in
/-- The body on whole staging memrefs — the inputs' at contents `xW`, the output's at anything — runs to a state with the
    inputs' as they were and the output's at `out1` of the inputs'. -/
theorem sound_kernel1 (c : Dev nD) (E : Set ℕ) (i : grid1.Coords) (arg1 : Memref sig .tc .vmem S4x2000x256 .f32) (harg1 : arg1.IsWhole) (arg2 : Memref sig .tc .vmem S256x64 .f32) (harg2 : arg2.IsWhole) (arg3 : Memref sig .tc .vmem S1x64 .f32) (harg3 : arg3.IsWhole) (arg4 : Memref sig .tc .vmem S2000x1 .f32) (harg4 : arg4.IsWhole) (arg5 : Memref sig .tc .vmem S2000x1 .f32) (harg5 : arg5.IsWhole) (arg6 : Memref sig .tc .vmem S4x2000x64 .f32) (harg6 : arg6.IsWhole)
    (x0 : Vec F S4x2000x256 .f32) (x1 : Vec F S256x64 .f32) (x2 : Vec F S1x64 .f32) (x3 : Vec F S2000x1 .f32) (x4 : Vec F S2000x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1 x0 x1 x2 x3 x4)) -∗ K ⟨⟩))
      ⊢ wp frame (wpE (defs₀ (F := F)) Variants.none c none) E (cc1__bn_act_kernel i arg1 harg1 arg2 harg2 arg3 harg3 arg4 harg4 arg5 harg5 arg6 harg6) K := by
  simp only [cc1__bn_act_kernel_eq_skeleton]; unfold cc1__bn_act_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover1 _)

/-- The region's proof data on core `c`: the arrays as the region finds them; after the body at point `t` each input's
    buffer still at its block and the output's at `out1` of the input blocks; the scoped rest and the generator register
    pass through untouched; nothing is owed to another core. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body's obligation to the pipeline, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KBits.R2.lean ====
/-
  Region 2 of the program's @main (the Pallas call of `cc2__out_kernel`), at any contents `V` of the TensorCore's buffers when
  the region is entered. A grid point `t` handles the 2000 nodes `2000·t … 2000·t + 1999`: every input window's staging
  buffer holds that window's block of its array (whole arrays for the weights and the bias, which are fetched once), the
  body loads them whole, and its one store writes the whole output block. So after the body the output's staging buffer is
  one function of the input blocks — the body's arithmetic, named by the skeleton's payloads — and the inputs' are as found.
  The body also loads the output buffer once; the loaded value is not used, so whatever the buffer held does not matter.
-/
import proofs.«159603_j71347996721325_2_alg».proof.Proof.Gen.Kernel.Launch
import proofs.«159603_j71347996721325_2_alg».proof.Proof.Gen.Kernel.Skeleton
import proofs.«159603_j71347996721325_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the four hop arrays side by side) holds its block at every point, fetched there or not. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the stacked weights; fetched once, its block index never moves). -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the bias; fetched once). -/
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3 (the per-node output mean). -/
theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4 (the per-node output scale, infinities replaced by zero on the host). -/
theorem before2_4_of {c : Dev nD} (dat : Dat τ (Elt F) Unit ℕ (Pipeline.UD sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5 (the mask). -/
theorem before2_5_of {c : Dev nD} (dat : Dat τ (Elt F) Unit ℕ (Pipeline.UD sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6 (the lower clamp bounds, the two channels stacked). -/
theorem before2_6_of {c : Dev nD} (dat : Dat τ (Elt F) Unit ℕ (Pipeline.UD sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7 (the upper clamp bounds, the two channels stacked). -/
theorem before2_7_of {c : Dev nD} (dat : Dat τ (Elt F) Unit ℕ (Pipeline.UD sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the store take a whole buffer -/

abbrev rin2_0 : Rect S4x2000x256 := Rect.unit (s := S4x2000x256) ![0, 0, 0] S4x2000x256.size inb_S4x2000x256_S4x2000x256_0_0_0
abbrev rin2_1 : Rect S256x2 := Rect.unit (s := S256x2) ![0, 0] S256x2.size inb_S256x2_S256x2_0_0
abbrev rin2_2 : Rect S1x2 := Rect.unit (s := S1x2) ![0, 0] S1x2.size inb_S1x2_S1x2_0_0
abbrev rin2_n : Rect S2000x2 := Rect.unit (s := S2000x2) ![0, 0] S2000x2.size inb_S2000x2_S2000x2_0_0
abbrev rout2 : Rect S4x2000x2 := Rect.unit (s := S4x2000x2) ![0, 0, 0] S4x2000x2.size inb_S4x2000x2_S4x2000x2_0_0_0

/-- The output window's staging buffer after the body, as a function of the eight input blocks: its one store, of the
    body's arithmetic (the matrix product with the stacked weights, the bias, the rescaling, the mask and the clamp). -/
def out2 (x0 : Vec F S4x2000x256 .f32) (x1 : Vec F S256x2 .f32) (x2 : Vec F S1x2 .f32) (x3 x4 x5 x6 x7 : Vec F S2000x2 .f32) : Vec F S4x2000x2 .f32 :=
  View.canon [⟨rout2, k2_pay1 (View.ld x0 rin2_0) (View.ld x1 rin2_1) (View.ld x2 rin2_2) (View.ld x3 rin2_n) (View.ld x4 rin2_n) (View.ld x5 rin2_n) (View.ld x6 rin2_n) (View.ld x7 rin2_n)⟩]

/-- The one store covers the whole buffer. -/
theorem cover2 (p0 : Vec F S4x2000x2 .f32) (y : S4x2000x2.Idx) :
    ∃ pc ∈ ([⟨rout2, p0⟩] : List (View.Piece (Elt F) S4x2000x2 .f32)), y ∈ pc.1.set :=
  View.cover_of_tiled [⟨rout2, p0⟩] S4x2000x2.size (by rfl) y

set_option maxHeartbeats 1000000 in
/-- The body on whole staging memrefs — the inputs' at contents `xW`, the output's at anything — runs to a state with the
    inputs' as they were and the output's at `out2` of the inputs'. -/
theorem sound_kernel2 (c : Dev nD) (E : Set ℕ) (i : grid2.Coords) (arg1 : Memref sig .tc .vmem S4x2000x256 .f32) (harg1 : arg1.IsWhole) (arg2 : Memref sig .tc .vmem S256x2 .f32) (harg2 : arg2.IsWhole) (arg3 : Memref sig .tc .vmem S1x2 .f32) (harg3 : arg3.IsWhole) (arg4 : Memref sig .tc .vmem S2000x2 .f32) (harg4 : arg4.IsWhole) (arg5 : Memref sig .tc .vmem S2000x2 .f32) (harg5 : arg5.IsWhole) (arg6 : Memref sig .tc .vmem S2000x2 .f32) (harg6 : arg6.IsWhole) (arg7 : Memref sig .tc .vmem S2000x2 .f32) (harg7 : arg7.IsWhole) (arg8 : Memref sig .tc .vmem S2000x2 .f32) (harg8 : arg8.IsWhole) (arg9 : Memref sig .tc .vmem S4x2000x2 .f32) (harg9 : arg9.IsWhole)
    (x0 : Vec F S4x2000x256 .f32) (x1 : Vec F S256x2 .f32) (x2 : Vec F S1x2 .f32) (x3 x4 x5 x6 x7 : Vec F S2000x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out2 x0 x1 x2 x3 x4 x5 x6 x7)) -∗ K ⟨⟩))
      ⊢ wp frame (wpE (defs₀ (F := F)) Variants.none c none) E (cc2__out_kernel i arg1 harg1 arg2 harg2 arg3 harg3 arg4 harg4 arg5 harg5 arg6 harg6 arg7 harg7 arg8 harg8 arg9 harg9) K := by
  simp only [cc2__out_kernel_eq_skeleton]; unfold cc2__out_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover2 _)

/-- The region's proof data on core `c`: the arrays as the region finds them; after the body at point `t` each input's
    buffer still at its block and the output's at `out2` of the input blocks; the scoped rest and the generator register
    pass through untouched; nothing is owed to another core. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = out2 (iblk2 V c 0 t) (iblk2 V c 1 t) (iblk2 V c 2 t) (iblk2 V c 3 t) (iblk2 V c 4 t) (iblk2 V c 5 t) (iblk2 V c 6 t) (iblk2 V c 7 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the inputs' memrefs hold their blocks, so the body's triple applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ (grid2.coords t) _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body's obligation to the pipeline, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KBits.Run.lean ====
/-
  The run of the program's @main from the launch to the return: nine stretches of host operations and the three Pallas
  regions, in order. The contents of the TensorCore's buffers at each boundary are a fold from the launch memory: a host
  stretch applies its operations in order; a region leaves each of its arrays at what its write-backs leave (an input
  array as entered, the output array block by block at what the body stored) and every other buffer as entered. Every
  weakly fair execution terminates, nothing faults, and at the end every unscoped buffer holds the last boundary's
  contents; in particular no argument array has changed (no host operation and no region writes one), and the result
  array is region 2's output.
-/
import proofs.«159603_j71347996721325_2_alg».proof.Proof.KBits.R0
import proofs.«159603_j71347996721325_2_alg».proof.Proof.KBits.R1
import proofs.«159603_j71347996721325_2_alg».proof.Proof.KBits.R2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each boundary -/

/-- Core `c`'s buffers at launch. -/
abbrev Wa0 : Dev nD → Valuation τ sig (Elt F) := fun c b => (s₀ m ρ).mem ((c : Dev nD), b)
/-- After the first stretch (the degree of every node and its inverse square root's ingredients). -/
abbrev Wa1 : Dev nD → Valuation τ sig (Elt F) := fun c => StableHlo.after hostOps0 (Wa0 m ρ c)
/-- After the select that zeroes the inverse square root where the degree is not positive. -/
abbrev Wa2 : Dev nD → Valuation τ sig (Elt F) := fun c => StableHlo.after hostOps0_1 (Wa1 m ρ c)
/-- After the edge weights and the first layer's three hops and their concatenation: region 0's entry. -/
abbrev Wa3 : Dev nD → Valuation τ sig (Elt F) := fun c => StableHlo.after hostOps0_2 (Wa2 m ρ c)
abbrev Va3 : (c : Dev nD) → (b : Ref sig .tc) → Buf (Elt F) ((c : Thread nD τ).loc b) := fun c b => Wa3 m ρ c b
/-- At region 0's exit. -/
def Wb0 (c : Dev nD) : Valuation τ sig (Elt F) :=
  Pipeline.withArrays spec0 c (Wa3 m ρ c) fun w => (dat0 (Va3 m ρ) c).arrAt w cfg0.N
theorem Wb0_arr (c : Dev nD) (w : Fin cfg0.W) :
    Wb0 m ρ c (Proc.devRef .tc (Pipeline.arrRef spec0 w)) = (dat0 (Va3 m ρ) c).arrAt w cfg0.N := by
  unfold Wb0; exact Pipeline.withArrays_arr spec0 launch0.win.arr_inj c _ _ w
theorem Wb0_of_ne (c : Dev nD) (b : Ref sig .tc) (hb : ∀ w, Pipeline.arrRef spec0 w ≠ b) :
    Wb0 m ρ c (Proc.devRef .tc b) = Wa3 m ρ c (Proc.devRef .tc b) := by
  unfold Wb0; exact Pipeline.withArrays_of_ne spec0 c _ _ b hb
abbrev Vb0 : (c : Dev nD) → (b : Ref sig .tc) → Buf (Elt F) ((c : Thread nD τ).loc b) := fun c b => Wb0 m ρ c b
theorem hF0 (c : Dev nD) (w : Fin cfg0.W) : (dat0 (Va3 m ρ) c).arrAt w cfg0.N = Vb0 m ρ c (Pipeline.arrRef spec0 w) :=
  (Wb0_arr m ρ c w).symm
theorem hrest0 (c : Dev nD) : ∀ b, b ∉ Finset.univ.image (Pipeline.arrRef spec0) → Vb0 m ρ c b = Va3 m ρ c b :=
  fun b hb => Wb0_of_ne m ρ c b fun w e => hb (Finset.mem_image.mpr ⟨w, Finset.mem_univ _, e⟩)

/-- After the second layer's three hops and their concatenation: region 1's entry. -/
abbrev Wb1 : Dev nD → Valuation τ sig (Elt F) := fun c => StableHlo.after hostOps1 (Wb0 m ρ c)
abbrev Vb1 : (c : Dev nD) → (b : Ref sig .tc) → Buf (Elt F) ((c : Thread nD τ).loc b) := fun c b => Wb1 m ρ c b
/-- At region 1's exit. -/
def Wc0 (c : Dev nD) : Valuation τ sig (Elt F) :=
  Pipeline.withArrays spec1 c (Wb1 m ρ c) fun w => (dat1 (Vb1 m ρ) c).arrAt w cfg1.N
theorem Wc0_arr (c : Dev nD) (w : Fin cfg1.W) :
    Wc0 m ρ c (Proc.devRef .tc (Pipeline.arrRef spec1 w)) = (dat1 (Vb1 m ρ) c).arrAt w cfg1.N := by
  unfold Wc0; exact Pipeline.withArrays_arr spec1 launch1.win.arr_inj c _ _ w
theorem Wc0_of_ne (c : Dev nD) (b : Ref sig .tc) (hb : ∀ w, Pipeline.arrRef spec1 w ≠ b) :
    Wc0 m ρ c (Proc.devRef .tc b) = Wb1 m ρ c (Proc.devRef .tc b) := by
  unfold Wc0; exact Pipeline.withArrays_of_ne spec1 c _ _ b hb
abbrev Vc0 : (c : Dev nD) → (b : Ref sig .tc) → Buf (Elt F) ((c : Thread nD τ).loc b) := fun c b => Wc0 m ρ c b
theorem hF1 (c : Dev nD) (w : Fin cfg1.W) : (dat1 (Vb1 m ρ) c).arrAt w cfg1.N = Vc0 m ρ c (Pipeline.arrRef spec1 w) :=
  (Wc0_arr m ρ c w).symm
theorem hrest1 (c : Dev nD) : ∀ b, b ∉ Finset.univ.image (Pipeline.arrRef spec1) → Vc0 m ρ c b = Vb1 m ρ c b :=
  fun b hb => Wc0_of_ne m ρ c b fun w e => hb (Finset.mem_image.mpr ⟨w, Finset.mem_univ _, e⟩)

/-- The five stretches between regions 1 and 2 (the third layer's hops; the output scale with its infinities zeroed; the
    stacked clamp bounds): region 2's entry is the last. -/
abbrev Wc1 : Dev nD → Valuation τ sig (Elt F) := fun c => StableHlo.after hostOps2 (Wc0 m ρ c)
abbrev Wc2 : Dev nD → Valuation τ sig (Elt F) := fun c => StableHlo.after hostOps2_1 (Wc1 m ρ c)
abbrev Wc3 : Dev nD → Valuation τ sig (Elt F) := fun c => StableHlo.after hostOps2_2 (Wc2 m ρ c)
abbrev Wc4 : Dev nD → Valuation τ sig (Elt F) := fun c => StableHlo.after hostOps2_3 (Wc3 m ρ c)
abbrev Wc5 : Dev nD → Valuation τ sig (Elt F) := fun c => StableHlo.after hostOps2_4 (Wc4 m ρ c)
abbrev Vc5 : (c : Dev nD) → (b : Ref sig .tc) → Buf (Elt F) ((c : Thread nD τ).loc b) := fun c b => Wc5 m ρ c b
/-- At region 2's exit: the end of @main. -/
def Wd (c : Dev nD) : Valuation τ sig (Elt F) :=
  Pipeline.withArrays spec2 c (Wc5 m ρ c) fun w => (dat2 (Vc5 m ρ) c).arrAt w cfg2.N
theorem Wd_arr (c : Dev nD) (w : Fin cfg2.W) :
    Wd m ρ c (Proc.devRef .tc (Pipeline.arrRef spec2 w)) = (dat2 (Vc5 m ρ) c).arrAt w cfg2.N := by
  unfold Wd; exact Pipeline.withArrays_arr spec2 launch2.win.arr_inj c _ _ w
theorem Wd_of_ne (c : Dev nD) (b : Ref sig .tc) (hb : ∀ w, Pipeline.arrRef spec2 w ≠ b) :
    Wd m ρ c (Proc.devRef .tc b) = Wc5 m ρ c (Proc.devRef .tc b) := by
  unfold Wd; exact Pipeline.withArrays_of_ne spec2 c _ _ b hb
abbrev Vd : (c : Dev nD) → (b : Ref sig .tc) → Buf (Elt F) ((c : Thread nD τ).loc b) := fun c b => Wd m ρ c b
theorem hF2 (c : Dev nD) (w : Fin cfg2.W) : (dat2 (Vc5 m ρ) c).arrAt w cfg2.N = Vd m ρ c (Pipeline.arrRef spec2 w) :=
  (Wd_arr m ρ c w).symm
theorem hrest2 (c : Dev nD) : ∀ b, b ∉ Finset.univ.image (Pipeline.arrRef spec2) → Vd m ρ c b = Vc5 m ρ c b :=
  fun b hb => Wd_of_ne m ρ c b fun w e => hb (Finset.mem_image.mpr ⟨w, Finset.mem_univ _, e⟩)

/-! ## The proof data family and the thread state -/

abbrev adm : (p : Fin 3) → (pcfgs (F := F) p).Adm := fun p => (cfgs p).toPCfg_adm
/-- Every region's proof data, each at its region's entry contents. -/
def pdats : (p : Fin 3) → (c : Dev nD) → Dat τ (Elt F) Unit ℕ (Pipeline.UD sig nD τ) ℕ (Pipeline.pin (pcfgs (F := F)) adm p) c
  | ⟨0, _⟩ => fun c => dat0 (Va3 m ρ) c
  | ⟨1, _⟩ => fun c => dat1 (Vb1 m ρ) c
  | ⟨2, _⟩ => fun c => dat2 (Vc5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment, from the contents `W`: it ends with the unscoped buffers at the stretch's fold of `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tₙ (c : Dev nD) : sProp 𝕄 := iprop(StableHlo.held (c : Thread nD τ) (Pipeline.ucRefs τ sig) (Wd m ρ c) ∗ ∃ r, prngReg c r)

/-- No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps2_1_fresh : (hostOps2_1 : List (HloOp τ sig (Elt F))).Forall fun op => op.fresh = ∅ := by
  simp only [List.Forall]; repeat' constructor
theorem hostOps2_2_fresh : (hostOps2_2 : List (HloOp τ sig (Elt F))).Forall fun op => op.fresh = ∅ := by
  simp only [List.Forall]; repeat' constructor
theorem hostOps2_3_fresh : (hostOps2_3 : List (HloOp τ sig (Elt F))).Forall fun op => op.fresh = ∅ := by
  simp only [List.Forall]; repeat' constructor
theorem hostOps2_4_fresh : (hostOps2_4 : List (HloOp τ sig (Elt F))).Forall fun op => op.fresh = ∅ := by
  simp only [List.Forall]; repeat' constructor

/-! ## The regions as segments -/

set_option backward.isDefEq.respectTransparency.types false in
/-- Region 0 over the thread state "every unscoped buffer at the boundary's contents, the generator register at some
    state, nothing owed": its arrays are split out of the unscoped buffers at entry and put back at exit with what the
    write-backs leave; the register goes into the region's invariant and comes back. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va3 m ρ) c).loose
  hwaits := Pipeline.hwaits_of_owed_zero _ _ _ _ L lv 0 fun _ _ => rfl
  pre c := iprop(StableHlo.held (c : Thread nD τ) (Pipeline.ucRefs τ sig) (Wa3 m ρ c) ∗ R c)
  post c := iprop(StableHlo.held (c : Thread nD τ) (Pipeline.ucRefs τ sig) (Wb0 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (Va3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Va3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (Va3 m ρ c) (Vb0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1, in the same way, between the contents after the second layer's hops and its own exit. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vb1 m ρ) c).loose
  hwaits := Pipeline.hwaits_of_owed_zero _ _ _ _ L lv 1 fun _ _ => rfl
  pre c := iprop(StableHlo.held (c : Thread nD τ) (Pipeline.ucRefs τ sig) (Wb1 m ρ c) ∗ R c)
  post c := iprop(StableHlo.held (c : Thread nD τ) (Pipeline.ucRefs τ sig) (Wc0 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (Vb1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vb1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (Vb1 m ρ c) (Vc0 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2, the last segment: it ends at the final contents, the register beside them, nothing owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vc5 m ρ) c).loose
  hwaits := Pipeline.hwaits_of_owed_zero _ _ _ _ L lv 2 fun _ _ => rfl
  pre c := iprop(StableHlo.held (c : Thread nD τ) (Pipeline.ucRefs τ sig) (Wc5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec2 c (Vc5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vc5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (Vc5 m ρ c) (Vd m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's twelve segments in order. -/
abbrev segs : List (Pipeline.Seg (pcfgs (F := F)) adm (pdats m ρ) () defs₀ 𝒱₀ L lv) :=
  [ .host (hseg hostOps0 hostOps0_sub hostOps0_fresh (Wa0 m ρ)),
    .host (hseg hostOps0_1 hostOps0_1_sub hostOps0_1_fresh (Wa1 m ρ)),
    .host (hseg hostOps0_2 hostOps0_2_sub hostOps0_2_fresh (Wa2 m ρ)),
    .region (reg0 m ρ),
    .host (hseg hostOps1 hostOps1_sub hostOps1_fresh (Wb0 m ρ)),
    .region (reg1 m ρ),
    .host (hseg hostOps2 hostOps2_sub hostOps2_fresh (Wc0 m ρ)),
    .host (hseg hostOps2_1 hostOps2_1_sub hostOps2_1_fresh (Wc1 m ρ)),
    .host (hseg hostOps2_2 hostOps2_2_sub hostOps2_2_fresh (Wc2 m ρ)),
    .host (hseg hostOps2_3 hostOps2_3_sub hostOps2_3_fresh (Wc3 m ρ)),
    .host (hseg hostOps2_4 hostOps2_4_sub hostOps2_4_fresh (Wc4 m ρ)),
    .region (reg2 m ρ) ]
/-- @main is the run of the segments. -/
theorem main_run (c : Dev nD) : main (F := F) c = Pipeline.Seg.run (segs m ρ) := (main_chain c).trans (by chain_rfl)

set_option backward.isDefEq.respectTransparency.types false in
/-- From any memory with zero counters, every weakly fair execution of @main terminates, nothing faulting, and in every
    final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wd m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wa0 m ρ c)
        from Pipeline.unscopedBufs_held c (Wa0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wd m ρ c b)
    (hfin := fun c s' => by
      iintro ⟨⟨Hh, -⟩, HSI⟩
      unfold StableHlo.held
      imodintro
      iapply (pointsTo_read_all (Pipeline.ucRefs τ sig) (fun b => (((c : Thread nD τ)).1, b)) (Wd m ρ c) s')
      isplitl [Hh] <;> iassumption)
    (hQ := fun s h c => h c)

end Cert.Kernel.Hand

end
-- ==== Proof.RefLib.lean ====
/- Facts about a straight line of host operations, for reading a long reference run piece by piece:
   which buffers a line writes, as a literal list of references; that a line leaves every other buffer alone;
   and how these facts pass to the concatenation of two lines. -/
import Idealize.ShloMosaic.Lib.StableHlo.Run

noncomputable section

namespace Cert.RefLib

open Idealize.ShloMosaic Idealize.ShloMosaic.StableHlo Idealize.SL.Sem

variable {τ : Topo} {sig : RefSig} {Val : EltTy → Type}

/-- An operation whose written set is the single buffer `y`, with `y` in the list `W`, writes inside `W`. -/
theorem writes_sub_of_mem {op : HloOp τ sig Val} {y : Ref sig .tc} {W : List (Ref sig .tc)}
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

/-- Every operation of the line `L` writes only buffers of the list `W`. -/
def WritesIn (L : List (HloOp τ sig Val)) (W : List (Ref sig .tc)) : Prop :=
  ∀ op ∈ L, op.writes ⊆ (W.map (Proc.devRef (τ := τ) .tc)).toFinset

theorem WritesIn.of_forall {L : List (HloOp τ sig Val)} {W : List (Ref sig .tc)}
    (h : L.Forall fun op => op.writes ⊆ (W.map (Proc.devRef (τ := τ) .tc)).toFinset) : WritesIn L W :=
  List.forall_iff_forall_mem.mp h

/-- Two lines in a row write inside the two lists in a row. -/
theorem WritesIn.append {L L' : List (HloOp τ sig Val)} {W W' : List (Ref sig .tc)}
    (h : WritesIn L W) (h' : WritesIn L' W') : WritesIn (L ++ L') (W ++ W') := by
  intro op hop b hb
  rw [List.map_append, List.toFinset_append, Finset.mem_union]
  rcases List.mem_append.mp hop with ho | ho
  · exact Or.inl (h op ho hb)
  · exact Or.inr (h' op ho hb)

/-- A buffer outside the list keeps its contents through the line. -/
theorem WritesIn.keep {L : List (HloOp τ sig Val)} {W : List (Ref sig .tc)} (h : WritesIn L W)
    (V : Valuation τ sig Val) {r : Ref sig .tc} (hr : r ∉ W) :
    after L V (Proc.devRef .tc r) = V (Proc.devRef .tc r) :=
  after_of_writes_sub L V (List.forall_iff_forall_mem.mpr h) hr

/-- A property of every element of two lists holds of every element of the two in a row. -/
theorem forall_append {α : Type*} {p : α → Prop} {l₁ l₂ : List α} (h₁ : ∀ x ∈ l₁, p x) (h₂ : ∀ x ∈ l₂, p x) :
    ∀ x ∈ l₁ ++ l₂, p x :=
  fun x hx => (List.mem_append.mp hx).elim (h₁ x) (h₂ x)

end Cert.RefLib

end
-- ==== Proof.KBits.Args.lean ====
/-
  No host operation and no region writes an argument array: a host operation writes only its own result buffer, a
  region writes only its output array, and the two argument arrays a region reads (the mask and the output mean, through
  input windows of region 2) come back as entered. So at the end of @main each argument array holds its launch contents:
  the frame.
-/
import proofs.«159603_j71347996721325_2_alg».proof.Proof.KBits.Run
import proofs.«159603_j71347996721325_2_alg».proof.Proof.RefLib

set_option maxRecDepth 16384

noncomputable section

namespace Cert.Kernel.Hand

open Cert.Kernel Cert.Kernel.Gen
open Idealize.ShloMosaic Idealize.ShloMosaic.TcCoe Idealize.ShloMosaic.StableHlo
open Idealize.SL Idealize.SL.Sem
open Idealize.ShloMosaic.Pipeline (Dat)

variable {F : FTy → Type} [FloatOps F]

/-- The contents `W'` agree with `W` on the twenty-one argument arrays. -/
def ArgsKept (W W' : Valuation τ sig (Elt F)) : Prop :=
  W' (Proc.devRef .tc main_arg0) = W (Proc.devRef .tc main_arg0)
    ∧ W' (Proc.devRef .tc main_arg1) = W (Proc.devRef .tc main_arg1)
    ∧ W' (Proc.devRef .tc main_arg2) = W (Proc.devRef .tc main_arg2)
    ∧ W' (Proc.devRef .tc main_arg3) = W (Proc.devRef .tc main_arg3)
    ∧ W' (Proc.devRef .tc main_arg4) = W (Proc.devRef .tc main_arg4)
    ∧ W' (Proc.devRef .tc main_arg5) = W (Proc.devRef .tc main_arg5)
    ∧ W' (Proc.devRef .tc main_arg6) = W (Proc.devRef .tc main_arg6)
    ∧ W' (Proc.devRef .tc main_arg7) = W (Proc.devRef .tc main_arg7)
    ∧ W' (Proc.devRef .tc main_arg8) = W (Proc.devRef .tc main_arg8)
    ∧ W' (Proc.devRef .tc main_arg9) = W (Proc.devRef .tc main_arg9)
    ∧ W' (Proc.devRef .tc main_arg10) = W (Proc.devRef .tc main_arg10)
    ∧ W' (Proc.devRef .tc main_arg11) = W (Proc.devRef .tc main_arg11)
    ∧ W' (Proc.devRef .tc main_arg12) = W (Proc.devRef .tc main_arg12)
    ∧ W' (Proc.devRef .tc main_arg13) = W (Proc.devRef .tc main_arg13)
    ∧ W' (Proc.devRef .tc main_arg14) = W (Proc.devRef .tc main_arg14)
    ∧ W' (Proc.devRef .tc main_arg15) = W (Proc.devRef .tc main_arg15)
    ∧ W' (Proc.devRef .tc main_arg16) = W (Proc.devRef .tc main_arg16)
    ∧ W' (Proc.devRef .tc main_arg17) = W (Proc.devRef .tc main_arg17)
    ∧ W' (Proc.devRef .tc main_arg18) = W (Proc.devRef .tc main_arg18)
    ∧ W' (Proc.devRef .tc main_arg19) = W (Proc.devRef .tc main_arg19)
    ∧ W' (Proc.devRef .tc main_arg20) = W (Proc.devRef .tc main_arg20)

theorem ArgsKept.trans {W W' W'' : Valuation τ sig (Elt F)} (h : ArgsKept W W') (h' : ArgsKept W' W'') : ArgsKept W W'' := by
  unfold ArgsKept at *
  obtain ⟨a0, a1, a2, a3, a4, a5, a6, a7, a8, a9, a10, a11, a12, a13, a14, a15, a16, a17, a18, a19, a20⟩ := h
  obtain ⟨b0, b1, b2, b3, b4, b5, b6, b7, b8, b9, b10, b11, b12, b13, b14, b15, b16, b17, b18, b19, b20⟩ := h'
  exact ⟨b0.trans a0, b1.trans a1, b2.trans a2, b3.trans a3, b4.trans a4, b5.trans a5, b6.trans a6, b7.trans a7, b8.trans a8, b9.trans a9, b10.trans a10, b11.trans a11, b12.trans a12, b13.trans a13, b14.trans a14, b15.trans a15, b16.trans a16, b17.trans a17, b18.trans a18, b19.trans a19, b20.trans a20⟩

/-! ## The host stretches -/

theorem keep_hostOps0 (W : Valuation τ sig (Elt F)) : ArgsKept W (StableHlo.after hostOps0 W) := by
  unfold ArgsKept; refine ⟨?_, ?_, ?_, ?_, ?_, ?_, ?_, ?_, ?_, ?_, ?_, ?_, ?_, ?_, ?_, ?_, ?_, ?_, ?_, ?_, ?_⟩ <;> after_results_simp
theorem keep_hostOps0_1 (W : Valuation τ sig (Elt F)) : ArgsKept W (StableHlo.after hostOps0_1 W) := by
  unfold ArgsKept; refine ⟨?_, ?_, ?_, ?_, ?_, ?_, ?_, ?_, ?_, ?_, ?_, ?_, ?_, ?_, ?_, ?_, ?_, ?_, ?_, ?_, ?_⟩ <;> after_results_simp
/-- The buffers the 94 operations of `hostOps0_2` write, in order: each operation writes its own result buffer. -/
abbrev hostOps0_2_W : List (Ref sig .tc) := [main_c_4, main_v14, main_v15, main_c_5, main_v16, main_v17, main_v18, main_v19, main_v20, main_v21, main_c_6, main_v22, main_v23, main_c_7, main_v24, main_v25, main_v26, main_v27, main_v28, main_v29, main_v30, main_c_8, main_v31, main_v32, main_c_9, main_v33, main_v34, main_v35, main_v36, main_v37, main_v38, main_v39, main_v40, main_cst_10, main_v41, main_c_11, main_v42, main_v43, main_c_12, main_v44, main_v45, main_v46, main_v47, main_v48, main_c_13, main_v49, main_v50, main_c_14, main_v51, main_v52, main_v53, main_v54, main_v55, main_v56, main_v57, main_v58, main_cst_15, main_v59, main_c_16, main_v60, main_v61, main_c_17, main_v62, main_v63, main_v64, main_v65, main_v66, main_c_18, main_v67, main_v68, main_c_19, main_v69, main_v70, main_v71, main_v72, main_v73, main_v74, main_v75, main_v76, main_cst_20, main_v77, main_c_21, main_v78, main_v79, main_c_22, main_v80, main_v81, main_v82, main_v83, main_v84, main_v85, main_v86, main_v87, main_v88]
theorem hostOps0_2_writesF : (hostOps0_2 : List (HloOp τ sig (Elt F))).Forall fun op => op.writes ⊆ (hostOps0_2_W.map (Proc.devRef (τ := τ) .tc)).toFinset :=
  ⟨Cert.RefLib.writes_sub_of_mem (y := main_c_4) rfl (by decide),
    Cert.RefLib.writes_sub_of_mem (y := main_v14) rfl (by decide),
    Cert.RefLib.writes_sub_of_mem (y := main_v15) rfl (by decide),
    Cert.RefLib.writes_sub_of_mem (y := main_c_5) rfl (by decide),
    Cert.RefLib.writes_sub_of_mem (y := main_v16) rfl (by decide),
    Cert.RefLib.writes_sub_of_mem (y := main_v17) rfl (by decide),
    Cert.RefLib.writes_sub_of_mem (y := main_v18) rfl (by decide),
    Cert.RefLib.writes_sub_of_mem (y := main_v19) rfl (by decide),
    Cert.RefLib.writes_sub_of_mem (y := main_v20) rfl (by decide),
    Cert.RefLib.writes_sub_of_mem (y := main_v21) rfl (by decide),
    Cert.RefLib.writes_sub_of_mem (y := main_c_6) rfl (by decide),
    Cert.RefLib.writes_sub_of_mem (y := main_v22) rfl (by decide),
    Cert.RefLib.writes_sub_of_mem (y := main_v23) rfl (by decide),
    Cert.RefLib.writes_sub_of_mem (y := main_c_7) rfl (by decide),
    Cert.RefLib.writes_sub_of_mem (y := main_v24) rfl (by decide),
    Cert.RefLib.writes_sub_of_mem (y := main_v25) rfl (by decide),
    Cert.RefLib.writes_sub_of_mem (y := main_v26) rfl (by decide),
    Cert.RefLib.writes_sub_of_mem (y := main_v27) rfl (by decide),
    Cert.RefLib.writes_sub_of_mem (y := main_v28) rfl (by decide),
    Cert.RefLib.writes_sub_of_mem (y := main_v29) rfl (by decide),
    Cert.RefLib.writes_sub_of_mem (y := main_v30) rfl (by decide),
    Cert.RefLib.writes_sub_of_mem (y := main_c_8) rfl (by decide),
    Cert.RefLib.writes_sub_of_mem (y := main_v31) rfl (by decide),
    Cert.RefLib.writes_sub_of_mem (y := main_v32) rfl (by decide),
    Cert.RefLib.writes_sub_of_mem (y := main_c_9) rfl (by decide),
    Cert.RefLib.writes_sub_of_mem (y := main_v33) rfl (by decide),
    Cert.RefLib.writes_sub_of_mem (y := main_v34) rfl (by decide),
    Cert.RefLib.writes_sub_of_mem (y := main_v35) rfl (by decide),
    Cert.RefLib.writes_sub_of_mem (y := main_v36) rfl (by decide),
    Cert.RefLib.writes_sub_of_mem (y := main_v37) rfl (by decide),
    Cert.RefLib.writes_sub_of_mem (y := main_v38) rfl (by decide),
    Cert.RefLib.writes_sub_of_mem (y := main_v39) rfl (by decide),
    Cert.RefLib.writes_sub_of_mem (y := main_v40) rfl (by decide),
    Cert.RefLib.writes_sub_of_mem (y := main_cst_10) rfl (by decide),
    Cert.RefLib.writes_sub_of_mem (y := main_v41) rfl (by decide),
    Cert.RefLib.writes_sub_of_mem (y := main_c_11) rfl (by decide),
    Cert.RefLib.writes_sub_of_mem (y := main_v42) rfl (by decide),
    Cert.RefLib.writes_sub_of_mem (y := main_v43) rfl (by decide),
    Cert.RefLib.writes_sub_of_mem (y := main_c_12) rfl (by decide),
    Cert.RefLib.writes_sub_of_mem (y := main_v44) rfl (by decide),
    Cert.RefLib.writes_sub_of_mem (y := main_v45) rfl (by decide),
    Cert.RefLib.writes_sub_of_mem (y := main_v46) rfl (by decide),
    Cert.RefLib.writes_sub_of_mem (y := main_v47) rfl (by decide),
    Cert.RefLib.writes_sub_of_mem (y := main_v48) rfl (by decide),
    Cert.RefLib.writes_sub_of_mem (y := main_c_13) rfl (by decide),
    Cert.RefLib.writes_sub_of_mem (y := main_v49) rfl (by decide),
    Cert.RefLib.writes_sub_of_mem (y := main_v50) rfl (by decide),
    Cert.RefLib.writes_sub_of_mem (y := main_c_14) rfl (by decide),
    Cert.RefLib.writes_sub_of_mem (y := main_v51) rfl (by decide),
    Cert.RefLib.writes_sub_of_mem (y := main_v52) rfl (by decide),
    Cert.RefLib.writes_sub_of_mem (y := main_v53) rfl (by decide),
    Cert.RefLib.writes_sub_of_mem (y := main_v54) rfl (by decide),
    Cert.RefLib.writes_sub_of_mem (y := main_v55) rfl (by decide),
    Cert.RefLib.writes_sub_of_mem (y := main_v56) rfl (by decide),
    Cert.RefLib.writes_sub_of_mem (y := main_v57) rfl (by decide),
    Cert.RefLib.writes_sub_of_mem (y := main_v58) rfl (by decide),
    Cert.RefLib.writes_sub_of_mem (y := main_cst_15) rfl (by decide),
    Cert.RefLib.writes_sub_of_mem (y := main_v59) rfl (by decide),
    Cert.RefLib.writes_sub_of_mem (y := main_c_16) rfl (by decide),
    Cert.RefLib.writes_sub_of_mem (y := main_v60) rfl (by decide),
    Cert.RefLib.writes_sub_of_mem (y := main_v61) rfl (by decide),
    Cert.RefLib.writes_sub_of_mem (y := main_c_17) rfl (by decide),
    Cert.RefLib.writes_sub_of_mem (y := main_v62) rfl (by decide),
    Cert.RefLib.writes_sub_of_mem (y := main_v63) rfl (by decide),
    Cert.RefLib.writes_sub_of_mem (y := main_v64) rfl (by decide),
    Cert.RefLib.writes_sub_of_mem (y := main_v65) rfl (by decide),
    Cert.RefLib.writes_sub_of_mem (y := main_v66) rfl (by decide),
    Cert.RefLib.writes_sub_of_mem (y := main_c_18) rfl (by decide),
    Cert.RefLib.writes_sub_of_mem (y := main_v67) rfl (by decide),
    Cert.RefLib.writes_sub_of_mem (y := main_v68) rfl (by decide),
    Cert.RefLib.writes_sub_of_mem (y := main_c_19) rfl (by decide),
    Cert.RefLib.writes_sub_of_mem (y := main_v69) rfl (by decide),
    Cert.RefLib.writes_sub_of_mem (y := main_v70) rfl (by decide),
    Cert.RefLib.writes_sub_of_mem (y := main_v71) rfl (by decide),
    Cert.RefLib.writes_sub_of_mem (y := main_v72) rfl (by decide),
    Cert.RefLib.writes_sub_of_mem (y := main_v73) rfl (by decide),
    Cert.RefLib.writes_sub_of_mem (y := main_v74) rfl (by decide),
    Cert.RefLib.writes_sub_of_mem (y := main_v75) rfl (by decide),
    Cert.RefLib.writes_sub_of_mem (y := main_v76) rfl (by decide),
    Cert.RefLib.writes_sub_of_mem (y := main_cst_20) rfl (by decide),
    Cert.RefLib.writes_sub_of_mem (y := main_v77) rfl (by decide),
    Cert.RefLib.writes_sub_of_mem (y := main_c_21) rfl (by decide),
    Cert.RefLib.writes_sub_of_mem (y := main_v78) rfl (by decide),
    Cert.RefLib.writes_sub_of_mem (y := main_v79) rfl (by decide),
    Cert.RefLib.writes_sub_of_mem (y := main_c_22) rfl (by decide),
    Cert.RefLib.writes_sub_of_mem (y := main_v80) rfl (by decide),
    Cert.RefLib.writes_sub_of_mem (y := main_v81) rfl (by decide),
    Cert.RefLib.writes_sub_of_mem (y := main_v82) rfl (by decide),
    Cert.RefLib.writes_sub_of_mem (y := main_v83) rfl (by decide),
    Cert.RefLib.writes_sub_of_mem (y := main_v84) rfl (by decide),
    Cert.RefLib.writes_sub_of_mem (y := main_v85) rfl (by decide),
    Cert.RefLib.writes_sub_of_mem (y := main_v86) rfl (by decide),
    Cert.RefLib.writes_sub_of_mem (y := main_v87) rfl (by decide),
    Cert.RefLib.writes_sub_of_mem (y := main_v88) rfl (by decide)⟩
theorem hostOps0_2_writes : Cert.RefLib.WritesIn (hostOps0_2 : List (HloOp τ sig (Elt F))) hostOps0_2_W := Cert.RefLib.WritesIn.of_forall hostOps0_2_writesF
/-- None of them is an argument array. -/
theorem keep_hostOps0_2 (W : Valuation τ sig (Elt F)) : ArgsKept W (StableHlo.after hostOps0_2 W) :=
  ⟨hostOps0_2_writes.keep W (r := main_arg0) (by decide),
    hostOps0_2_writes.keep W (r := main_arg1) (by decide),
    hostOps0_2_writes.keep W (r := main_arg2) (by decide),
    hostOps0_2_writes.keep W (r := main_arg3) (by decide),
    hostOps0_2_writes.keep W (r := main_arg4) (by decide),
    hostOps0_2_writes.keep W (r := main_arg5) (by decide),
    hostOps0_2_writes.keep W (r := main_arg6) (by decide),
    hostOps0_2_writes.keep W (r := main_arg7) (by decide),
    hostOps0_2_writes.keep W (r := main_arg8) (by decide),
    hostOps0_2_writes.keep W (r := main_arg9) (by decide),
    hostOps0_2_writes.keep W (r := main_arg10) (by decide),
    hostOps0_2_writes.keep W (r := main_arg11) (by decide),
    hostOps0_2_writes.keep W (r := main_arg12) (by decide),
    hostOps0_2_writes.keep W (r := main_arg13) (by decide),
    hostOps0_2_writes.keep W (r := main_arg14) (by decide),
    hostOps0_2_writes.keep W (r := main_arg15) (by decide),
    hostOps0_2_writes.keep W (r := main_arg16) (by decide),
    hostOps0_2_writes.keep W (r := main_arg17) (by decide),
    hostOps0_2_writes.keep W (r := main_arg18) (by decide),
    hostOps0_2_writes.keep W (r := main_arg19) (by decide),
    hostOps0_2_writes.keep W (r := main_arg20) (by decide)⟩
/-- The buffers the 74 operations of `hostOps1` write, in order: each operation writes its own result buffer. -/
abbrev hostOps1_W : List (Ref sig .tc) := [main_v90, main_c_23, main_v91, main_v92, main_c_24, main_v93, main_v94, main_v95, main_v96, main_v97, main_v98, main_v99, main_v100, main_cst_25, main_v101, main_c_26, main_v102, main_v103, main_c_27, main_v104, main_v105, main_v106, main_v107, main_v108, main_c_28, main_v109, main_v110, main_c_29, main_v111, main_v112, main_v113, main_v114, main_v115, main_v116, main_v117, main_v118, main_cst_30, main_v119, main_c_31, main_v120, main_v121, main_c_32, main_v122, main_v123, main_v124, main_v125, main_v126, main_c_33, main_v127, main_v128, main_c_34, main_v129, main_v130, main_v131, main_v132, main_v133, main_v134, main_v135, main_v136, main_cst_35, main_v137, main_c_36, main_v138, main_v139, main_c_37, main_v140, main_v141, main_v142, main_v143, main_v144, main_v145, main_v146, main_v147, main_v148]
theorem hostOps1_writesF : (hostOps1 : List (HloOp τ sig (Elt F))).Forall fun op => op.writes ⊆ (hostOps1_W.map (Proc.devRef (τ := τ) .tc)).toFinset :=
  ⟨Cert.RefLib.writes_sub_of_mem (y := main_v90) rfl (by decide),
    Cert.RefLib.writes_sub_of_mem (y := main_c_23) rfl (by decide),
    Cert.RefLib.writes_sub_of_mem (y := main_v91) rfl (by decide),
    Cert.RefLib.writes_sub_of_mem (y := main_v92) rfl (by decide),
    Cert.RefLib.writes_sub_of_mem (y := main_c_24) rfl (by decide),
    Cert.RefLib.writes_sub_of_mem (y := main_v93) rfl (by decide),
    Cert.RefLib.writes_sub_of_mem (y := main_v94) rfl (by decide),
    Cert.RefLib.writes_sub_of_mem (y := main_v95) rfl (by decide),
    Cert.RefLib.writes_sub_of_mem (y := main_v96) rfl (by decide),
    Cert.RefLib.writes_sub_of_mem (y := main_v97) rfl (by decide),
    Cert.RefLib.writes_sub_of_mem (y := main_v98) rfl (by decide),
    Cert.RefLib.writes_sub_of_mem (y := main_v99) rfl (by decide),
    Cert.RefLib.writes_sub_of_mem (y := main_v100) rfl (by decide),
    Cert.RefLib.writes_sub_of_mem (y := main_cst_25) rfl (by decide),
    Cert.RefLib.writes_sub_of_mem (y := main_v101) rfl (by decide),
    Cert.RefLib.writes_sub_of_mem (y := main_c_26) rfl (by decide),
    Cert.RefLib.writes_sub_of_mem (y := main_v102) rfl (by decide),
    Cert.RefLib.writes_sub_of_mem (y := main_v103) rfl (by decide),
    Cert.RefLib.writes_sub_of_mem (y := main_c_27) rfl (by decide),
    Cert.RefLib.writes_sub_of_mem (y := main_v104) rfl (by decide),
    Cert.RefLib.writes_sub_of_mem (y := main_v105) rfl (by decide),
    Cert.RefLib.writes_sub_of_mem (y := main_v106) rfl (by decide),
    Cert.RefLib.writes_sub_of_mem (y := main_v107) rfl (by decide),
    Cert.RefLib.writes_sub_of_mem (y := main_v108) rfl (by decide),
    Cert.RefLib.writes_sub_of_mem (y := main_c_28) rfl (by decide),
    Cert.RefLib.writes_sub_of_mem (y := main_v109) rfl (by decide),
    Cert.RefLib.writes_sub_of_mem (y := main_v110) rfl (by decide),
    Cert.RefLib.writes_sub_of_mem (y := main_c_29) rfl (by decide),
    Cert.RefLib.writes_sub_of_mem (y := main_v111) rfl (by decide),
    Cert.RefLib.writes_sub_of_mem (y := main_v112) rfl (by decide),
    Cert.RefLib.writes_sub_of_mem (y := main_v113) rfl (by decide),
    Cert.RefLib.writes_sub_of_mem (y := main_v114) rfl (by decide),
    Cert.RefLib.writes_sub_of_mem (y := main_v115) rfl (by decide),
    Cert.RefLib.writes_sub_of_mem (y := main_v116) rfl (by decide),
    Cert.RefLib.writes_sub_of_mem (y := main_v117) rfl (by decide),
    Cert.RefLib.writes_sub_of_mem (y := main_v118) rfl (by decide),
    Cert.RefLib.writes_sub_of_mem (y := main_cst_30) rfl (by decide),
    Cert.RefLib.writes_sub_of_mem (y := main_v119) rfl (by decide),
    Cert.RefLib.writes_sub_of_mem (y := main_c_31) rfl (by decide),
    Cert.RefLib.writes_sub_of_mem (y := main_v120) rfl (by decide),
    Cert.RefLib.writes_sub_of_mem (y := main_v121) rfl (by decide),
    Cert.RefLib.writes_sub_of_mem (y := main_c_32) rfl (by decide),
    Cert.RefLib.writes_sub_of_mem (y := main_v122) rfl (by decide),
    Cert.RefLib.writes_sub_of_mem (y := main_v123) rfl (by decide),
    Cert.RefLib.writes_sub_of_mem (y := main_v124) rfl (by decide),
    Cert.RefLib.writes_sub_of_mem (y := main_v125) rfl (by decide),
    Cert.RefLib.writes_sub_of_mem (y := main_v126) rfl (by decide),
    Cert.RefLib.writes_sub_of_mem (y := main_c_33) rfl (by decide),
    Cert.RefLib.writes_sub_of_mem (y := main_v127) rfl (by decide),
    Cert.RefLib.writes_sub_of_mem (y := main_v128) rfl (by decide),
    Cert.RefLib.writes_sub_of_mem (y := main_c_34) rfl (by decide),
    Cert.RefLib.writes_sub_of_mem (y := main_v129) rfl (by decide),
    Cert.RefLib.writes_sub_of_mem (y := main_v130) rfl (by decide),
    Cert.RefLib.writes_sub_of_mem (y := main_v131) rfl (by decide),
    Cert.RefLib.writes_sub_of_mem (y := main_v132) rfl (by decide),
    Cert.RefLib.writes_sub_of_mem (y := main_v133) rfl (by decide),
    Cert.RefLib.writes_sub_of_mem (y := main_v134) rfl (by decide),
    Cert.RefLib.writes_sub_of_mem (y := main_v135) rfl (by decide),
    Cert.RefLib.writes_sub_of_mem (y := main_v136) rfl (by decide),
    Cert.RefLib.writes_sub_of_mem (y := main_cst_35) rfl (by decide),
    Cert.RefLib.writes_sub_of_mem (y := main_v137) rfl (by decide),
    Cert.RefLib.writes_sub_of_mem (y := main_c_36) rfl (by decide),
    Cert.RefLib.writes_sub_of_mem (y := main_v138) rfl (by decide),
    Cert.RefLib.writes_sub_of_mem (y := main_v139) rfl (by decide),
    Cert.RefLib.writes_sub_of_mem (y := main_c_37) rfl (by decide),
    Cert.RefLib.writes_sub_of_mem (y := main_v140) rfl (by decide),
    Cert.RefLib.writes_sub_of_mem (y := main_v141) rfl (by decide),
    Cert.RefLib.writes_sub_of_mem (y := main_v142) rfl (by decide),
    Cert.RefLib.writes_sub_of_mem (y := main_v143) rfl (by decide),
    Cert.RefLib.writes_sub_of_mem (y := main_v144) rfl (by decide),
    Cert.RefLib.writes_sub_of_mem (y := main_v145) rfl (by decide),
    Cert.RefLib.writes_sub_of_mem (y := main_v146) rfl (by decide),
    Cert.RefLib.writes_sub_of_mem (y := main_v147) rfl (by decide),
    Cert.RefLib.writes_sub_of_mem (y := main_v148) rfl (by decide)⟩
theorem hostOps1_writes : Cert.RefLib.WritesIn (hostOps1 : List (HloOp τ sig (Elt F))) hostOps1_W := Cert.RefLib.WritesIn.of_forall hostOps1_writesF
/-- None of them is an argument array. -/
theorem keep_hostOps1 (W : Valuation τ sig (Elt F)) : ArgsKept W (StableHlo.after hostOps1 W) :=
  ⟨hostOps1_writes.keep W (r := main_arg0) (by decide),
    hostOps1_writes.keep W (r := main_arg1) (by decide),
    hostOps1_writes.keep W (r := main_arg2) (by decide),
    hostOps1_writes.keep W (r := main_arg3) (by decide),
    hostOps1_writes.keep W (r := main_arg4) (by decide),
    hostOps1_writes.keep W (r := main_arg5) (by decide),
    hostOps1_writes.keep W (r := main_arg6) (by decide),
    hostOps1_writes.keep W (r := main_arg7) (by decide),
    hostOps1_writes.keep W (r := main_arg8) (by decide),
    hostOps1_writes.keep W (r := main_arg9) (by decide),
    hostOps1_writes.keep W (r := main_arg10) (by decide),
    hostOps1_writes.keep W (r := main_arg11) (by decide),
    hostOps1_writes.keep W (r := main_arg12) (by decide),
    hostOps1_writes.keep W (r := main_arg13) (by decide),
    hostOps1_writes.keep W (r := main_arg14) (by decide),
    hostOps1_writes.keep W (r := main_arg15) (by decide),
    hostOps1_writes.keep W (r := main_arg16) (by decide),
    hostOps1_writes.keep W (r := main_arg17) (by decide),
    hostOps1_writes.keep W (r := main_arg18) (by decide),
    hostOps1_writes.keep W (r := main_arg19) (by decide),
    hostOps1_writes.keep W (r := main_arg20) (by decide)⟩
/-- The buffers the 71 operations of `hostOps2` write, in order: each operation writes its own result buffer. -/
abbrev hostOps2_W : List (Ref sig .tc) := [main_v150, main_c_38, main_v151, main_v152, main_c_39, main_v153, main_v154, main_v155, main_v156, main_v157, main_v158, main_v159, main_v160, main_cst_40, main_v161, main_c_41, main_v162, main_v163, main_c_42, main_v164, main_v165, main_v166, main_v167, main_v168, main_c_43, main_v169, main_v170, main_c_44, main_v171, main_v172, main_v173, main_v174, main_v175, main_v176, main_v177, main_v178, main_cst_45, main_v179, main_c_46, main_v180, main_v181, main_c_47, main_v182, main_v183, main_v184, main_v185, main_v186, main_c_48, main_v187, main_v188, main_c_49, main_v189, main_v190, main_v191, main_v192, main_v193, main_v194, main_v195, main_v196, main_cst_50, main_v197, main_c_51, main_v198, main_v199, main_c_52, main_v200, main_v201, main_v202, main_v203, main_v204, main_v205]
theorem hostOps2_writesF : (hostOps2 : List (HloOp τ sig (Elt F))).Forall fun op => op.writes ⊆ (hostOps2_W.map (Proc.devRef (τ := τ) .tc)).toFinset :=
  ⟨Cert.RefLib.writes_sub_of_mem (y := main_v150) rfl (by decide),
    Cert.RefLib.writes_sub_of_mem (y := main_c_38) rfl (by decide),
    Cert.RefLib.writes_sub_of_mem (y := main_v151) rfl (by decide),
    Cert.RefLib.writes_sub_of_mem (y := main_v152) rfl (by decide),
    Cert.RefLib.writes_sub_of_mem (y := main_c_39) rfl (by decide),
    Cert.RefLib.writes_sub_of_mem (y := main_v153) rfl (by decide),
    Cert.RefLib.writes_sub_of_mem (y := main_v154) rfl (by decide),
    Cert.RefLib.writes_sub_of_mem (y := main_v155) rfl (by decide),
    Cert.RefLib.writes_sub_of_mem (y := main_v156) rfl (by decide),
    Cert.RefLib.writes_sub_of_mem (y := main_v157) rfl (by decide),
    Cert.RefLib.writes_sub_of_mem (y := main_v158) rfl (by decide),
    Cert.RefLib.writes_sub_of_mem (y := main_v159) rfl (by decide),
    Cert.RefLib.writes_sub_of_mem (y := main_v160) rfl (by decide),
    Cert.RefLib.writes_sub_of_mem (y := main_cst_40) rfl (by decide),
    Cert.RefLib.writes_sub_of_mem (y := main_v161) rfl (by decide),
    Cert.RefLib.writes_sub_of_mem (y := main_c_41) rfl (by decide),
    Cert.RefLib.writes_sub_of_mem (y := main_v162) rfl (by decide),
    Cert.RefLib.writes_sub_of_mem (y := main_v163) rfl (by decide),
    Cert.RefLib.writes_sub_of_mem (y := main_c_42) rfl (by decide),
    Cert.RefLib.writes_sub_of_mem (y := main_v164) rfl (by decide),
    Cert.RefLib.writes_sub_of_mem (y := main_v165) rfl (by decide),
    Cert.RefLib.writes_sub_of_mem (y := main_v166) rfl (by decide),
    Cert.RefLib.writes_sub_of_mem (y := main_v167) rfl (by decide),
    Cert.RefLib.writes_sub_of_mem (y := main_v168) rfl (by decide),
    Cert.RefLib.writes_sub_of_mem (y := main_c_43) rfl (by decide),
    Cert.RefLib.writes_sub_of_mem (y := main_v169) rfl (by decide),
    Cert.RefLib.writes_sub_of_mem (y := main_v170) rfl (by decide),
    Cert.RefLib.writes_sub_of_mem (y := main_c_44) rfl (by decide),
    Cert.RefLib.writes_sub_of_mem (y := main_v171) rfl (by decide),
    Cert.RefLib.writes_sub_of_mem (y := main_v172) rfl (by decide),
    Cert.RefLib.writes_sub_of_mem (y := main_v173) rfl (by decide),
    Cert.RefLib.writes_sub_of_mem (y := main_v174) rfl (by decide),
    Cert.RefLib.writes_sub_of_mem (y := main_v175) rfl (by decide),
    Cert.RefLib.writes_sub_of_mem (y := main_v176) rfl (by decide),
    Cert.RefLib.writes_sub_of_mem (y := main_v177) rfl (by decide),
    Cert.RefLib.writes_sub_of_mem (y := main_v178) rfl (by decide),
    Cert.RefLib.writes_sub_of_mem (y := main_cst_45) rfl (by decide),
    Cert.RefLib.writes_sub_of_mem (y := main_v179) rfl (by decide),
    Cert.RefLib.writes_sub_of_mem (y := main_c_46) rfl (by decide),
    Cert.RefLib.writes_sub_of_mem (y := main_v180) rfl (by decide),
    Cert.RefLib.writes_sub_of_mem (y := main_v181) rfl (by decide),
    Cert.RefLib.writes_sub_of_mem (y := main_c_47) rfl (by decide),
    Cert.RefLib.writes_sub_of_mem (y := main_v182) rfl (by decide),
    Cert.RefLib.writes_sub_of_mem (y := main_v183) rfl (by decide),
    Cert.RefLib.writes_sub_of_mem (y := main_v184) rfl (by decide),
    Cert.RefLib.writes_sub_of_mem (y := main_v185) rfl (by decide),
    Cert.RefLib.writes_sub_of_mem (y := main_v186) rfl (by decide),
    Cert.RefLib.writes_sub_of_mem (y := main_c_48) rfl (by decide),
    Cert.RefLib.writes_sub_of_mem (y := main_v187) rfl (by decide),
    Cert.RefLib.writes_sub_of_mem (y := main_v188) rfl (by decide),
    Cert.RefLib.writes_sub_of_mem (y := main_c_49) rfl (by decide),
    Cert.RefLib.writes_sub_of_mem (y := main_v189) rfl (by decide),
    Cert.RefLib.writes_sub_of_mem (y := main_v190) rfl (by decide),
    Cert.RefLib.writes_sub_of_mem (y := main_v191) rfl (by decide),
    Cert.RefLib.writes_sub_of_mem (y := main_v192) rfl (by decide),
    Cert.RefLib.writes_sub_of_mem (y := main_v193) rfl (by decide),
    Cert.RefLib.writes_sub_of_mem (y := main_v194) rfl (by decide),
    Cert.RefLib.writes_sub_of_mem (y := main_v195) rfl (by decide),
    Cert.RefLib.writes_sub_of_mem (y := main_v196) rfl (by decide),
    Cert.RefLib.writes_sub_of_mem (y := main_cst_50) rfl (by decide),
    Cert.RefLib.writes_sub_of_mem (y := main_v197) rfl (by decide),
    Cert.RefLib.writes_sub_of_mem (y := main_c_51) rfl (by decide),
    Cert.RefLib.writes_sub_of_mem (y := main_v198) rfl (by decide),
    Cert.RefLib.writes_sub_of_mem (y := main_v199) rfl (by decide),
    Cert.RefLib.writes_sub_of_mem (y := main_c_52) rfl (by decide),
    Cert.RefLib.writes_sub_of_mem (y := main_v200) rfl (by decide),
    Cert.RefLib.writes_sub_of_mem (y := main_v201) rfl (by decide),
    Cert.RefLib.writes_sub_of_mem (y := main_v202) rfl (by decide),
    Cert.RefLib.writes_sub_of_mem (y := main_v203) rfl (by decide),
    Cert.RefLib.writes_sub_of_mem (y := main_v204) rfl (by decide),
    Cert.RefLib.writes_sub_of_mem (y := main_v205) rfl (by decide)⟩
theorem hostOps2_writes : Cert.RefLib.WritesIn (hostOps2 : List (HloOp τ sig (Elt F))) hostOps2_W := Cert.RefLib.WritesIn.of_forall hostOps2_writesF
/-- None of them is an argument array. -/
theorem keep_hostOps2 (W : Valuation τ sig (Elt F)) : ArgsKept W (StableHlo.after hostOps2 W) :=
  ⟨hostOps2_writes.keep W (r := main_arg0) (by decide),
    hostOps2_writes.keep W (r := main_arg1) (by decide),
    hostOps2_writes.keep W (r := main_arg2) (by decide),
    hostOps2_writes.keep W (r := main_arg3) (by decide),
    hostOps2_writes.keep W (r := main_arg4) (by decide),
    hostOps2_writes.keep W (r := main_arg5) (by decide),
    hostOps2_writes.keep W (r := main_arg6) (by decide),
    hostOps2_writes.keep W (r := main_arg7) (by decide),
    hostOps2_writes.keep W (r := main_arg8) (by decide),
    hostOps2_writes.keep W (r := main_arg9) (by decide),
    hostOps2_writes.keep W (r := main_arg10) (by decide),
    hostOps2_writes.keep W (r := main_arg11) (by decide),
    hostOps2_writes.keep W (r := main_arg12) (by decide),
    hostOps2_writes.keep W (r := main_arg13) (by decide),
    hostOps2_writes.keep W (r := main_arg14) (by decide),
    hostOps2_writes.keep W (r := main_arg15) (by decide),
    hostOps2_writes.keep W (r := main_arg16) (by decide),
    hostOps2_writes.keep W (r := main_arg17) (by decide),
    hostOps2_writes.keep W (r := main_arg18) (by decide),
    hostOps2_writes.keep W (r := main_arg19) (by decide),
    hostOps2_writes.keep W (r := main_arg20) (by decide)⟩
theorem keep_hostOps2_1 (W : Valuation τ sig (Elt F)) : ArgsKept W (StableHlo.after hostOps2_1 W) := by
  unfold ArgsKept; refine ⟨?_, ?_, ?_, ?_, ?_, ?_, ?_, ?_, ?_, ?_, ?_, ?_, ?_, ?_, ?_, ?_, ?_, ?_, ?_, ?_, ?_⟩ <;> after_results_simp
theorem keep_hostOps2_2 (W : Valuation τ sig (Elt F)) : ArgsKept W (StableHlo.after hostOps2_2 W) := by
  unfold ArgsKept; refine ⟨?_, ?_, ?_, ?_, ?_, ?_, ?_, ?_, ?_, ?_, ?_, ?_, ?_, ?_, ?_, ?_, ?_, ?_, ?_, ?_, ?_⟩ <;> after_results_simp
theorem keep_hostOps2_3 (W : Valuation τ sig (Elt F)) : ArgsKept W (StableHlo.after hostOps2_3 W) := by
  unfold ArgsKept; refine ⟨?_, ?_, ?_, ?_, ?_, ?_, ?_, ?_, ?_, ?_, ?_, ?_, ?_, ?_, ?_, ?_, ?_, ?_, ?_, ?_, ?_⟩ <;> after_results_simp
theorem keep_hostOps2_4 (W : Valuation τ sig (Elt F)) : ArgsKept W (StableHlo.after hostOps2_4 W) := by
  unfold ArgsKept; refine ⟨?_, ?_, ?_, ?_, ?_, ?_, ?_, ?_, ?_, ?_, ?_, ?_, ?_, ?_, ?_, ?_, ?_, ?_, ?_, ?_, ?_⟩ <;> after_results_simp

/-! ## The regions -/

variable (m : (ℓ : Loc nD τ sig) → Buf (Elt F) ℓ) (ρ : Dev nD → PrngReg)

/-- Region 0 reads and writes no argument array. -/
theorem keep_reg0 (c : Dev nD) : ArgsKept (Wa3 m ρ c) (Wb0 m ρ c) := by
  unfold ArgsKept; refine ⟨?_, ?_, ?_, ?_, ?_, ?_, ?_, ?_, ?_, ?_, ?_, ?_, ?_, ?_, ?_, ?_, ?_, ?_, ?_, ?_, ?_⟩ <;> exact Wb0_of_ne m ρ c _ (by decide)
/-- Region 1 reads and writes no argument array. -/
theorem keep_reg1 (c : Dev nD) : ArgsKept (Wb1 m ρ c) (Wc0 m ρ c) := by
  unfold ArgsKept; refine ⟨?_, ?_, ?_, ?_, ?_, ?_, ?_, ?_, ?_, ?_, ?_, ?_, ?_, ?_, ?_, ?_, ?_, ?_, ?_, ?_, ?_⟩ <;> exact Wc0_of_ne m ρ c _ (by decide)
/-- Region 2 reads the mask (argument 14, window 5) and the output mean (argument 15, window 3) through input windows,
    which leave their arrays as entered; it touches no other argument array. -/
theorem keep_reg2 (c : Dev nD) : ArgsKept (Wc5 m ρ c) (Wd m ρ c) := by
  unfold ArgsKept
  refine ⟨Wd_of_ne m ρ c _ (by decide), Wd_of_ne m ρ c _ (by decide), Wd_of_ne m ρ c _ (by decide), Wd_of_ne m ρ c _ (by decide), Wd_of_ne m ρ c _ (by decide), Wd_of_ne m ρ c _ (by decide), Wd_of_ne m ρ c _ (by decide), Wd_of_ne m ρ c _ (by decide), Wd_of_ne m ρ c _ (by decide), Wd_of_ne m ρ c _ (by decide), Wd_of_ne m ρ c _ (by decide), Wd_of_ne m ρ c _ (by decide), Wd_of_ne m ρ c _ (by decide), Wd_of_ne m ρ c _ (by decide), ?_, ?_, Wd_of_ne m ρ c _ (by decide), Wd_of_ne m ρ c _ (by decide), Wd_of_ne m ρ c _ (by decide), Wd_of_ne m ρ c _ (by decide), Wd_of_ne m ρ c _ (by decide)⟩
  · exact (Wd_arr m ρ c 5).trans (((dat2 (Vc5 m ρ) c).arrAt_in 5 rfl _).trans (A_eq2 (Vc5 m ρ) c 5))
  · exact (Wd_arr m ρ c 3).trans (((dat2 (Vc5 m ρ) c).arrAt_in 3 rfl _).trans (A_eq2 (Vc5 m ρ) c 3))

/-- From the launch to the end of @main. -/
theorem keep_all (c : Dev nD) : ArgsKept (Wa0 m ρ c) (Wd m ρ c) :=
  (((((((((((keep_hostOps0 (Wa0 m ρ c)).trans (keep_hostOps0_1 (Wa1 m ρ c))).trans (keep_hostOps0_2 (Wa2 m ρ c))).trans (keep_reg0 m ρ c)).trans
    (keep_hostOps1 (Wb0 m ρ c))).trans (keep_reg1 m ρ c)).trans (keep_hostOps2 (Wc0 m ρ c))).trans (keep_hostOps2_1 (Wc1 m ρ c))).trans
    (keep_hostOps2_2 (Wc2 m ρ c))).trans (keep_hostOps2_3 (Wc3 m ρ c))).trans (keep_hostOps2_4 (Wc4 m ρ c))).trans (keep_reg2 m ρ c)

/-- The frame: every weakly fair execution of @main terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => by
    have hk := keep_all m ρ c
    unfold ArgsKept at hk
    obtain ⟨a0, a1, a2, a3, a4, a5, a6, a7, a8, a9, a10, a11, a12, a13, a14, a15, a16, a17, a18, a19, a20⟩ := hk
    exact ⟨(h c _ (mem_uc main_arg0 (by decide))).trans a0,
      (h c _ (mem_uc main_arg1 (by decide))).trans a1,
      (h c _ (mem_uc main_arg2 (by decide))).trans a2,
      (h c _ (mem_uc main_arg3 (by decide))).trans a3,
      (h c _ (mem_uc main_arg4 (by decide))).trans a4,
      (h c _ (mem_uc main_arg5 (by decide))).trans a5,
      (h c _ (mem_uc main_arg6 (by decide))).trans a6,
      (h c _ (mem_uc main_arg7 (by decide))).trans a7,
      (h c _ (mem_uc main_arg8 (by decide))).trans a8,
      (h c _ (mem_uc main_arg9 (by decide))).trans a9,
      (h c _ (mem_uc main_arg10 (by decide))).trans a10,
      (h c _ (mem_uc main_arg11 (by decide))).trans a11,
      (h c _ (mem_uc main_arg12 (by decide))).trans a12,
      (h c _ (mem_uc main_arg13 (by decide))).trans a13,
      (h c _ (mem_uc main_arg14 (by decide))).trans a14,
      (h c _ (mem_uc main_arg15 (by decide))).trans a15,
      (h c _ (mem_uc main_arg16 (by decide))).trans a16,
      (h c _ (mem_uc main_arg17 (by decide))).trans a17,
      (h c _ (mem_uc main_arg18 (by decide))).trans a18,
      (h c _ (mem_uc main_arg19 (by decide))).trans a19,
      (h c _ (mem_uc main_arg20 (by decide))).trans a20⟩) (run_all m ρ)

end Cert.Kernel.Hand

end
-- ==== Proof.KIdeal.R0.lean ====
/-
  Region 0 of the program's @main (the Pallas call of `cc0__bn_act_kernel`), at any contents `V` of the TensorCore's buffers when
  the region is entered. A grid point `t` handles the 2000 nodes `2000·t … 2000·t + 1999`: every input window's staging
  buffer holds that window's block of its array (whole arrays for the weights and the bias, which are fetched once), the
  body loads them whole, and its one store writes the whole output block. So after the body the output's staging buffer is
  one function of the input blocks — the body's arithmetic, named by the skeleton's payloads — and the inputs' are as found.
  The body also loads the output buffer once before storing into it; the loaded value is not used, so whatever the buffer
  held does not matter.
-/
import proofs.«159603_j71347996721325_2_alg».proof.Proof.Gen.KernelIdeal.Launch
import proofs.«159603_j71347996721325_2_alg».proof.Proof.Gen.KernelIdeal.Skeleton
import proofs.«159603_j71347996721325_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the window was fetched there or not
    (when it is not, its block index has not moved since the point before). -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether the window was fetched there or not
    (when it is not, its block index has not moved since the point before). -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether the window was fetched there or not
    (when it is not, its block index has not moved since the point before). -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, whether the window was fetched there or not
    (when it is not, its block index has not moved since the point before). -/
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, whether the window was fetched there or not
    (when it is not, its block index has not moved since the point before). -/
theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take a whole buffer -/

abbrev rin0_0 : Rect S4x2000x16 := Rect.unit (s := S4x2000x16) ![0, 0, 0] S4x2000x16.size inb_S4x2000x16_S4x2000x16_0_0_0
abbrev rin0_1 : Rect S16x64 := Rect.unit (s := S16x64) ![0, 0] S16x64.size inb_S16x64_S16x64_0_0
abbrev rin0_2 : Rect S1x64 := Rect.unit (s := S1x64) ![0, 0] S1x64.size inb_S1x64_S1x64_0_0
abbrev rin0_3 : Rect S2000x1 := Rect.unit (s := S2000x1) ![0, 0] S2000x1.size inb_S2000x1_S2000x1_0_0
abbrev rin0_4 : Rect S2000x1 := Rect.unit (s := S2000x1) ![0, 0] S2000x1.size inb_S2000x1_S2000x1_0_0
abbrev rout0 : Rect S4x2000x64 := Rect.unit (s := S4x2000x64) ![0, 0, 0] S4x2000x64.size inb_S4x2000x64_S4x2000x64_0_0_0

/-- The output window's staging buffer after the body, as a function of the input blocks: its one store, of the
    body's arithmetic on the loaded blocks. -/
def out0 (x0 : Vec F S4x2000x16 .f32) (x1 : Vec F S16x64 .f32) (x2 : Vec F S1x64 .f32) (x3 : Vec F S2000x1 .f32) (x4 : Vec F S2000x1 .f32) : Vec F S4x2000x64 .f32 :=
  View.canon [⟨rout0, k0_pay1 (k0_pay2 (View.ld x0 rin0_0) (View.ld x1 rin0_1) (View.ld x2 rin0_2)) (k0_pay3 (View.ld x0 rin0_0) (View.ld x1 rin0_1) (View.ld x2 rin0_2)) (k0_pay4 (View.ld x0 rin0_0) (View.ld x1 rin0_1) (View.ld x2 rin0_2)) (k0_pay5 (View.ld x3 rin0_3)) (k0_pay6 (View.ld x4 rin0_4))⟩]

/-- The one store covers the whole buffer. -/
theorem cover0 (p0 : Vec F S4x2000x64 .f32) (y : S4x2000x64.Idx) :
    ∃ pc ∈ ([⟨rout0, p0⟩] : List (View.Piece (Elt F) S4x2000x64 .f32)), y ∈ pc.1.set :=
  View.cover_of_tiled [⟨rout0, p0⟩] S4x2000x64.size (by rfl) y

set_option maxHeartbeats 1000000 in
/-- The body on whole staging memrefs — the inputs' at contents `xW`, the output's at anything — runs to a state with the
    inputs' as they were and the output's at `out0` of the inputs'. -/
theorem sound_kernel0 (c : Dev nD) (E : Set ℕ) (i : grid0.Coords) (arg1 : Memref sig .tc .vmem S4x2000x16 .f32) (harg1 : arg1.IsWhole) (arg2 : Memref sig .tc .vmem S16x64 .f32) (harg2 : arg2.IsWhole) (arg3 : Memref sig .tc .vmem S1x64 .f32) (harg3 : arg3.IsWhole) (arg4 : Memref sig .tc .vmem S2000x1 .f32) (harg4 : arg4.IsWhole) (arg5 : Memref sig .tc .vmem S2000x1 .f32) (harg5 : arg5.IsWhole) (arg6 : Memref sig .tc .vmem S4x2000x64 .f32) (harg6 : arg6.IsWhole)
    (x0 : Vec F S4x2000x16 .f32) (x1 : Vec F S16x64 .f32) (x2 : Vec F S1x64 .f32) (x3 : Vec F S2000x1 .f32) (x4 : Vec F S2000x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0 x0 x1 x2 x3 x4)) -∗ K ⟨⟩))
      ⊢ wp frame (wpE (defs₀ (F := F)) Variants.none c none) E (cc0__bn_act_kernel i arg1 harg1 arg2 harg2 arg3 harg3 arg4 harg4 arg5 harg5 arg6 harg6) K := by
  simp only [cc0__bn_act_kernel_eq_skeleton]; unfold cc0__bn_act_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover0 _)

/-- The region's proof data on core `c`: the arrays as the region finds them; after the body at point `t` each input's
    buffer still at its block and the output's at `out0` of the input blocks; the scoped rest and the generator register
    pass through untouched; nothing is owed to another core. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body's obligation to the pipeline, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIdeal.R1.lean ====
/-
  Region 1 of the program's @main (the Pallas call of `cc1__bn_act_kernel`), at any contents `V` of the TensorCore's buffers when
  the region is entered. A grid point `t` handles the 2000 nodes `2000·t … 2000·t + 1999`: every input window's staging
  buffer holds that window's block of its array (whole arrays for the weights and the bias, which are fetched once), the
  body loads them whole, and its one store writes the whole output block. So after the body the output's staging buffer is
  one function of the input blocks — the body's arithmetic, named by the skeleton's payloads — and the inputs' are as found.
  The body also loads the output buffer once before storing into it; the loaded value is not used, so whatever the buffer
  held does not matter.
-/
import proofs.«159603_j71347996721325_2_alg».proof.Proof.Gen.KernelIdeal.Launch
import proofs.«159603_j71347996721325_2_alg».proof.Proof.Gen.KernelIdeal.Skeleton
import proofs.«159603_j71347996721325_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the window was fetched there or not
    (when it is not, its block index has not moved since the point before). -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether the window was fetched there or not
    (when it is not, its block index has not moved since the point before). -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether the window was fetched there or not
    (when it is not, its block index has not moved since the point before). -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, whether the window was fetched there or not
    (when it is not, its block index has not moved since the point before). -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, whether the window was fetched there or not
    (when it is not, its block index has not moved since the point before). -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take a whole buffer -/

abbrev rin1_0 : Rect S4x2000x256 := Rect.unit (s := S4x2000x256) ![0, 0, 0] S4x2000x256.size inb_S4x2000x256_S4x2000x256_0_0_0
abbrev rin1_1 : Rect S256x64 := Rect.unit (s := S256x64) ![0, 0] S256x64.size inb_S256x64_S256x64_0_0
abbrev rin1_2 : Rect S1x64 := Rect.unit (s := S1x64) ![0, 0] S1x64.size inb_S1x64_S1x64_0_0
abbrev rin1_3 : Rect S2000x1 := Rect.unit (s := S2000x1) ![0, 0] S2000x1.size inb_S2000x1_S2000x1_0_0
abbrev rin1_4 : Rect S2000x1 := Rect.unit (s := S2000x1) ![0, 0] S2000x1.size inb_S2000x1_S2000x1_0_0
abbrev rout1 : Rect S4x2000x64 := Rect.unit (s := S4x2000x64) ![0, 0, 0] S4x2000x64.size inb_S4x2000x64_S4x2000x64_0_0_0

/-- The output window's staging buffer after the body, as a function of the input blocks: its one store, of the
    body's arithmetic on the loaded blocks. -/
def out1 (x0 : Vec F S4x2000x256 .f32) (x1 : Vec F S256x64 .f32) (x2 : Vec F S1x64 .f32) (x3 : Vec F S2000x1 .f32) (x4 : Vec F S2000x1 .f32) : Vec F S4x2000x64 .f32 :=
  View.canon [⟨rout1, k1_pay1 (k1_pay2 (View.ld x0 rin1_0) (View.ld x1 rin1_1) (View.ld x2 rin1_2)) (k1_pay3 (View.ld x0 rin1_0) (View.ld x1 rin1_1) (View.ld x2 rin1_2)) (k1_pay4 (View.ld x0 rin1_0) (View.ld x1 rin1_1) (View.ld x2 rin1_2)) (k1_pay5 (View.ld x3 rin1_3)) (k1_pay6 (View.ld x4 rin1_4))⟩]

/-- The one store covers the whole buffer. -/
theorem cover1 (p0 : Vec F S4x2000x64 .f32) (y : S4x2000x64.Idx) :
    ∃ pc ∈ ([⟨rout1, p0⟩] : List (View.Piece (Elt F) S4x2000x64 .f32)), y ∈ pc.1.set :=
  View.cover_of_tiled [⟨rout1, p0⟩] S4x2000x64.size (by rfl) y

set_option maxHeartbeats 1000000 in
/-- The body on whole staging memrefs — the inputs' at contents `xW`, the output's at anything — runs to a state with the
    inputs' as they were and the output's at `out1` of the inputs'. -/
theorem sound_kernel1 (c : Dev nD) (E : Set ℕ) (i : grid1.Coords) (arg1 : Memref sig .tc .vmem S4x2000x256 .f32) (harg1 : arg1.IsWhole) (arg2 : Memref sig .tc .vmem S256x64 .f32) (harg2 : arg2.IsWhole) (arg3 : Memref sig .tc .vmem S1x64 .f32) (harg3 : arg3.IsWhole) (arg4 : Memref sig .tc .vmem S2000x1 .f32) (harg4 : arg4.IsWhole) (arg5 : Memref sig .tc .vmem S2000x1 .f32) (harg5 : arg5.IsWhole) (arg6 : Memref sig .tc .vmem S4x2000x64 .f32) (harg6 : arg6.IsWhole)
    (x0 : Vec F S4x2000x256 .f32) (x1 : Vec F S256x64 .f32) (x2 : Vec F S1x64 .f32) (x3 : Vec F S2000x1 .f32) (x4 : Vec F S2000x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1 x0 x1 x2 x3 x4)) -∗ K ⟨⟩))
      ⊢ wp frame (wpE (defs₀ (F := F)) Variants.none c none) E (cc1__bn_act_kernel i arg1 harg1 arg2 harg2 arg3 harg3 arg4 harg4 arg5 harg5 arg6 harg6) K := by
  simp only [cc1__bn_act_kernel_eq_skeleton]; unfold cc1__bn_act_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover1 _)

/-- The region's proof data on core `c`: the arrays as the region finds them; after the body at point `t` each input's
    buffer still at its block and the output's at `out1` of the input blocks; the scoped rest and the generator register
    pass through untouched; nothing is owed to another core. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body's obligation to the pipeline, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIdeal.R2.lean ====
/-
  Region 2 of the program's @main (the Pallas call of `cc2__out_kernel`), at any contents `V` of the TensorCore's buffers when
  the region is entered. A grid point `t` handles the 2000 nodes `2000·t … 2000·t + 1999`: every input window's staging
  buffer holds that window's block of its array (whole arrays for the weights and the bias, which are fetched once), the
  body loads them whole, and its one store writes the whole output block. So after the body the output's staging buffer is
  one function of the input blocks — the body's arithmetic, named by the skeleton's payloads — and the inputs' are as found.
  The body also loads the output buffer once; the loaded value is not used, so whatever the buffer held does not matter.
-/
import proofs.«159603_j71347996721325_2_alg».proof.Proof.Gen.KernelIdeal.Launch
import proofs.«159603_j71347996721325_2_alg».proof.Proof.Gen.KernelIdeal.Skeleton
import proofs.«159603_j71347996721325_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the four hop arrays side by side) holds its block at every point, fetched there or not. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the stacked weights; fetched once, its block index never moves). -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the bias; fetched once). -/
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3 (the per-node output mean). -/
theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4 (the per-node output scale, infinities replaced by zero on the host). -/
theorem before2_4_of {c : Dev nD} (dat : Dat τ (Elt F) Unit ℕ (Pipeline.UD sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5 (the mask). -/
theorem before2_5_of {c : Dev nD} (dat : Dat τ (Elt F) Unit ℕ (Pipeline.UD sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6 (the lower clamp bounds, the two channels stacked). -/
theorem before2_6_of {c : Dev nD} (dat : Dat τ (Elt F) Unit ℕ (Pipeline.UD sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7 (the upper clamp bounds, the two channels stacked). -/
theorem before2_7_of {c : Dev nD} (dat : Dat τ (Elt F) Unit ℕ (Pipeline.UD sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the store take a whole buffer -/

abbrev rin2_0 : Rect S4x2000x256 := Rect.unit (s := S4x2000x256) ![0, 0, 0] S4x2000x256.size inb_S4x2000x256_S4x2000x256_0_0_0
abbrev rin2_1 : Rect S256x2 := Rect.unit (s := S256x2) ![0, 0] S256x2.size inb_S256x2_S256x2_0_0
abbrev rin2_2 : Rect S1x2 := Rect.unit (s := S1x2) ![0, 0] S1x2.size inb_S1x2_S1x2_0_0
abbrev rin2_n : Rect S2000x2 := Rect.unit (s := S2000x2) ![0, 0] S2000x2.size inb_S2000x2_S2000x2_0_0
abbrev rout2 : Rect S4x2000x2 := Rect.unit (s := S4x2000x2) ![0, 0, 0] S4x2000x2.size inb_S4x2000x2_S4x2000x2_0_0_0

/-- The output window's staging buffer after the body, as a function of the eight input blocks: its one store, of the
    body's arithmetic (the matrix product with the stacked weights, the bias, the rescaling, the mask and the clamp). -/
def out2 (x0 : Vec F S4x2000x256 .f32) (x1 : Vec F S256x2 .f32) (x2 : Vec F S1x2 .f32) (x3 x4 x5 x6 x7 : Vec F S2000x2 .f32) : Vec F S4x2000x2 .f32 :=
  View.canon [⟨rout2, k2_pay1 (View.ld x0 rin2_0) (View.ld x1 rin2_1) (View.ld x2 rin2_2) (View.ld x3 rin2_n) (View.ld x4 rin2_n) (View.ld x5 rin2_n) (View.ld x6 rin2_n) (View.ld x7 rin2_n)⟩]

/-- The one store covers the whole buffer. -/
theorem cover2 (p0 : Vec F S4x2000x2 .f32) (y : S4x2000x2.Idx) :
    ∃ pc ∈ ([⟨rout2, p0⟩] : List (View.Piece (Elt F) S4x2000x2 .f32)), y ∈ pc.1.set :=
  View.cover_of_tiled [⟨rout2, p0⟩] S4x2000x2.size (by rfl) y

set_option maxHeartbeats 1000000 in
/-- The body on whole staging memrefs — the inputs' at contents `xW`, the output's at anything — runs to a state with the
    inputs' as they were and the output's at `out2` of the inputs'. -/
theorem sound_kernel2 (c : Dev nD) (E : Set ℕ) (i : grid2.Coords) (arg1 : Memref sig .tc .vmem S4x2000x256 .f32) (harg1 : arg1.IsWhole) (arg2 : Memref sig .tc .vmem S256x2 .f32) (harg2 : arg2.IsWhole) (arg3 : Memref sig .tc .vmem S1x2 .f32) (harg3 : arg3.IsWhole) (arg4 : Memref sig .tc .vmem S2000x2 .f32) (harg4 : arg4.IsWhole) (arg5 : Memref sig .tc .vmem S2000x2 .f32) (harg5 : arg5.IsWhole) (arg6 : Memref sig .tc .vmem S2000x2 .f32) (harg6 : arg6.IsWhole) (arg7 : Memref sig .tc .vmem S2000x2 .f32) (harg7 : arg7.IsWhole) (arg8 : Memref sig .tc .vmem S2000x2 .f32) (harg8 : arg8.IsWhole) (arg9 : Memref sig .tc .vmem S4x2000x2 .f32) (harg9 : arg9.IsWhole)
    (x0 : Vec F S4x2000x256 .f32) (x1 : Vec F S256x2 .f32) (x2 : Vec F S1x2 .f32) (x3 x4 x5 x6 x7 : Vec F S2000x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out2 x0 x1 x2 x3 x4 x5 x6 x7)) -∗ K ⟨⟩))
      ⊢ wp frame (wpE (defs₀ (F := F)) Variants.none c none) E (cc2__out_kernel i arg1 harg1 arg2 harg2 arg3 harg3 arg4 harg4 arg5 harg5 arg6 harg6 arg7 harg7 arg8 harg8 arg9 harg9) K := by
  simp only [cc2__out_kernel_eq_skeleton]; unfold cc2__out_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover2 _)

/-- The region's proof data on core `c`: the arrays as the region finds them; after the body at point `t` each input's
    buffer still at its block and the output's at `out2` of the input blocks; the scoped rest and the generator register
    pass through untouched; nothing is owed to another core. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = out2 (iblk2 V c 0 t) (iblk2 V c 1 t) (iblk2 V c 2 t) (iblk2 V c 3 t) (iblk2 V c 4 t) (iblk2 V c 5 t) (iblk2 V c 6 t) (iblk2 V c 7 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the inputs' memrefs hold their blocks, so the body's triple applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ (grid2.coords t) _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body's obligation to the pipeline, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIdeal.Run.lean ====
/-
  The run of the program's @main from the launch to the return: nine stretches of host operations and the three Pallas
  regions, in order. The contents of the TensorCore's buffers at each boundary are a fold from the launch memory: a host
  stretch applies its operations in order; a region leaves each of its arrays at what its write-backs leave (an input
  array as entered, the output array block by block at what the body stored) and every other buffer as entered. Every
  weakly fair execution terminates, nothing faults, and at the end every unscoped buffer holds the last boundary's
  contents; in particular no argument array has changed (no host operation and no region writes one), and the result
  array is region 2's output.
-/
import proofs.«159603_j71347996721325_2_alg».proof.Proof.KIdeal.R0
import proofs.«159603_j71347996721325_2_alg».proof.Proof.KIdeal.R1
import proofs.«159603_j71347996721325_2_alg».proof.Proof.KIdeal.R2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each boundary -/

/-- Core `c`'s buffers at launch. -/
abbrev Wa0 : Dev nD → Valuation τ sig (Elt F) := fun c b => (s₀ m ρ).mem ((c : Dev nD), b)
/-- After the first stretch (the degree of every node and its inverse square root's ingredients). -/
abbrev Wa1 : Dev nD → Valuation τ sig (Elt F) := fun c => StableHlo.after hostOps0 (Wa0 m ρ c)
/-- After the select that zeroes the inverse square root where the degree is not positive. -/
abbrev Wa2 : Dev nD → Valuation τ sig (Elt F) := fun c => StableHlo.after hostOps0_1 (Wa1 m ρ c)
/-- After the edge weights and the first layer's three hops and their concatenation: region 0's entry. -/
abbrev Wa3 : Dev nD → Valuation τ sig (Elt F) := fun c => StableHlo.after hostOps0_2 (Wa2 m ρ c)
abbrev Va3 : (c : Dev nD) → (b : Ref sig .tc) → Buf (Elt F) ((c : Thread nD τ).loc b) := fun c b => Wa3 m ρ c b
/-- At region 0's exit. -/
def Wb0 (c : Dev nD) : Valuation τ sig (Elt F) :=
  Pipeline.withArrays spec0 c (Wa3 m ρ c) fun w => (dat0 (Va3 m ρ) c).arrAt w cfg0.N
theorem Wb0_arr (c : Dev nD) (w : Fin cfg0.W) :
    Wb0 m ρ c (Proc.devRef .tc (Pipeline.arrRef spec0 w)) = (dat0 (Va3 m ρ) c).arrAt w cfg0.N := by
  unfold Wb0; exact Pipeline.withArrays_arr spec0 launch0.win.arr_inj c _ _ w
theorem Wb0_of_ne (c : Dev nD) (b : Ref sig .tc) (hb : ∀ w, Pipeline.arrRef spec0 w ≠ b) :
    Wb0 m ρ c (Proc.devRef .tc b) = Wa3 m ρ c (Proc.devRef .tc b) := by
  unfold Wb0; exact Pipeline.withArrays_of_ne spec0 c _ _ b hb
abbrev Vb0 : (c : Dev nD) → (b : Ref sig .tc) → Buf (Elt F) ((c : Thread nD τ).loc b) := fun c b => Wb0 m ρ c b
theorem hF0 (c : Dev nD) (w : Fin cfg0.W) : (dat0 (Va3 m ρ) c).arrAt w cfg0.N = Vb0 m ρ c (Pipeline.arrRef spec0 w) :=
  (Wb0_arr m ρ c w).symm
theorem hrest0 (c : Dev nD) : ∀ b, b ∉ Finset.univ.image (Pipeline.arrRef spec0) → Vb0 m ρ c b = Va3 m ρ c b :=
  fun b hb => Wb0_of_ne m ρ c b fun w e => hb (Finset.mem_image.mpr ⟨w, Finset.mem_univ _, e⟩)

/-- After the second layer's three hops and their concatenation: region 1's entry. -/
abbrev Wb1 : Dev nD → Valuation τ sig (Elt F) := fun c => StableHlo.after hostOps1 (Wb0 m ρ c)
abbrev Vb1 : (c : Dev nD) → (b : Ref sig .tc) → Buf (Elt F) ((c : Thread nD τ).loc b) := fun c b => Wb1 m ρ c b
/-- At region 1's exit. -/
def Wc0 (c : Dev nD) : Valuation τ sig (Elt F) :=
  Pipeline.withArrays spec1 c (Wb1 m ρ c) fun w => (dat1 (Vb1 m ρ) c).arrAt w cfg1.N
theorem Wc0_arr (c : Dev nD) (w : Fin cfg1.W) :
    Wc0 m ρ c (Proc.devRef .tc (Pipeline.arrRef spec1 w)) = (dat1 (Vb1 m ρ) c).arrAt w cfg1.N := by
  unfold Wc0; exact Pipeline.withArrays_arr spec1 launch1.win.arr_inj c _ _ w
theorem Wc0_of_ne (c : Dev nD) (b : Ref sig .tc) (hb : ∀ w, Pipeline.arrRef spec1 w ≠ b) :
    Wc0 m ρ c (Proc.devRef .tc b) = Wb1 m ρ c (Proc.devRef .tc b) := by
  unfold Wc0; exact Pipeline.withArrays_of_ne spec1 c _ _ b hb
abbrev Vc0 : (c : Dev nD) → (b : Ref sig .tc) → Buf (Elt F) ((c : Thread nD τ).loc b) := fun c b => Wc0 m ρ c b
theorem hF1 (c : Dev nD) (w : Fin cfg1.W) : (dat1 (Vb1 m ρ) c).arrAt w cfg1.N = Vc0 m ρ c (Pipeline.arrRef spec1 w) :=
  (Wc0_arr m ρ c w).symm
theorem hrest1 (c : Dev nD) : ∀ b, b ∉ Finset.univ.image (Pipeline.arrRef spec1) → Vc0 m ρ c b = Vb1 m ρ c b :=
  fun b hb => Wc0_of_ne m ρ c b fun w e => hb (Finset.mem_image.mpr ⟨w, Finset.mem_univ _, e⟩)

/-- The five stretches between regions 1 and 2 (the third layer's hops; the output scale with its infinities zeroed; the
    stacked clamp bounds): region 2's entry is the last. -/
abbrev Wc1 : Dev nD → Valuation τ sig (Elt F) := fun c => StableHlo.after hostOps2 (Wc0 m ρ c)
abbrev Wc2 : Dev nD → Valuation τ sig (Elt F) := fun c => StableHlo.after hostOps2_1 (Wc1 m ρ c)
abbrev Wc3 : Dev nD → Valuation τ sig (Elt F) := fun c => StableHlo.after hostOps2_2 (Wc2 m ρ c)
abbrev Wc4 : Dev nD → Valuation τ sig (Elt F) := fun c => StableHlo.after hostOps2_3 (Wc3 m ρ c)
abbrev Wc5 : Dev nD → Valuation τ sig (Elt F) := fun c => StableHlo.after hostOps2_4 (Wc4 m ρ c)
abbrev Vc5 : (c : Dev nD) → (b : Ref sig .tc) → Buf (Elt F) ((c : Thread nD τ).loc b) := fun c b => Wc5 m ρ c b
/-- At region 2's exit: the end of @main. -/
def Wd (c : Dev nD) : Valuation τ sig (Elt F) :=
  Pipeline.withArrays spec2 c (Wc5 m ρ c) fun w => (dat2 (Vc5 m ρ) c).arrAt w cfg2.N
theorem Wd_arr (c : Dev nD) (w : Fin cfg2.W) :
    Wd m ρ c (Proc.devRef .tc (Pipeline.arrRef spec2 w)) = (dat2 (Vc5 m ρ) c).arrAt w cfg2.N := by
  unfold Wd; exact Pipeline.withArrays_arr spec2 launch2.win.arr_inj c _ _ w
theorem Wd_of_ne (c : Dev nD) (b : Ref sig .tc) (hb : ∀ w, Pipeline.arrRef spec2 w ≠ b) :
    Wd m ρ c (Proc.devRef .tc b) = Wc5 m ρ c (Proc.devRef .tc b) := by
  unfold Wd; exact Pipeline.withArrays_of_ne spec2 c _ _ b hb
abbrev Vd : (c : Dev nD) → (b : Ref sig .tc) → Buf (Elt F) ((c : Thread nD τ).loc b) := fun c b => Wd m ρ c b
theorem hF2 (c : Dev nD) (w : Fin cfg2.W) : (dat2 (Vc5 m ρ) c).arrAt w cfg2.N = Vd m ρ c (Pipeline.arrRef spec2 w) :=
  (Wd_arr m ρ c w).symm
theorem hrest2 (c : Dev nD) : ∀ b, b ∉ Finset.univ.image (Pipeline.arrRef spec2) → Vd m ρ c b = Vc5 m ρ c b :=
  fun b hb => Wd_of_ne m ρ c b fun w e => hb (Finset.mem_image.mpr ⟨w, Finset.mem_univ _, e⟩)

/-! ## The proof data family and the thread state -/

abbrev adm : (p : Fin 3) → (pcfgs (F := F) p).Adm := fun p => (cfgs p).toPCfg_adm
/-- Every region's proof data, each at its region's entry contents. -/
def pdats : (p : Fin 3) → (c : Dev nD) → Dat τ (Elt F) Unit ℕ (Pipeline.UD sig nD τ) ℕ (Pipeline.pin (pcfgs (F := F)) adm p) c
  | ⟨0, _⟩ => fun c => dat0 (Va3 m ρ) c
  | ⟨1, _⟩ => fun c => dat1 (Vb1 m ρ) c
  | ⟨2, _⟩ => fun c => dat2 (Vc5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment, from the contents `W`: it ends with the unscoped buffers at the stretch's fold of `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tₙ (c : Dev nD) : sProp 𝕄 := iprop(StableHlo.held (c : Thread nD τ) (Pipeline.ucRefs τ sig) (Wd m ρ c) ∗ ∃ r, prngReg c r)

/-- No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps2_1_fresh : (hostOps2_1 : List (HloOp τ sig (Elt F))).Forall fun op => op.fresh = ∅ := by
  simp only [List.Forall]; repeat' constructor
theorem hostOps2_2_fresh : (hostOps2_2 : List (HloOp τ sig (Elt F))).Forall fun op => op.fresh = ∅ := by
  simp only [List.Forall]; repeat' constructor
theorem hostOps2_3_fresh : (hostOps2_3 : List (HloOp τ sig (Elt F))).Forall fun op => op.fresh = ∅ := by
  simp only [List.Forall]; repeat' constructor
theorem hostOps2_4_fresh : (hostOps2_4 : List (HloOp τ sig (Elt F))).Forall fun op => op.fresh = ∅ := by
  simp only [List.Forall]; repeat' constructor

/-! ## The regions as segments -/

set_option backward.isDefEq.respectTransparency.types false in
/-- Region 0 over the thread state "every unscoped buffer at the boundary's contents, the generator register at some
    state, nothing owed": its arrays are split out of the unscoped buffers at entry and put back at exit with what the
    write-backs leave; the register goes into the region's invariant and comes back. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va3 m ρ) c).loose
  hwaits := Pipeline.hwaits_of_owed_zero _ _ _ _ L lv 0 fun _ _ => rfl
  pre c := iprop(StableHlo.held (c : Thread nD τ) (Pipeline.ucRefs τ sig) (Wa3 m ρ c) ∗ R c)
  post c := iprop(StableHlo.held (c : Thread nD τ) (Pipeline.ucRefs τ sig) (Wb0 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (Va3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Va3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (Va3 m ρ c) (Vb0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1, in the same way, between the contents after the second layer's hops and its own exit. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vb1 m ρ) c).loose
  hwaits := Pipeline.hwaits_of_owed_zero _ _ _ _ L lv 1 fun _ _ => rfl
  pre c := iprop(StableHlo.held (c : Thread nD τ) (Pipeline.ucRefs τ sig) (Wb1 m ρ c) ∗ R c)
  post c := iprop(StableHlo.held (c : Thread nD τ) (Pipeline.ucRefs τ sig) (Wc0 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (Vb1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vb1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (Vb1 m ρ c) (Vc0 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2, the last segment: it ends at the final contents, the register beside them, nothing owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vc5 m ρ) c).loose
  hwaits := Pipeline.hwaits_of_owed_zero _ _ _ _ L lv 2 fun _ _ => rfl
  pre c := iprop(StableHlo.held (c : Thread nD τ) (Pipeline.ucRefs τ sig) (Wc5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec2 c (Vc5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vc5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (Vc5 m ρ c) (Vd m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's twelve segments in order. -/
abbrev segs : List (Pipeline.Seg (pcfgs (F := F)) adm (pdats m ρ) () defs₀ 𝒱₀ L lv) :=
  [ .host (hseg hostOps0 hostOps0_sub hostOps0_fresh (Wa0 m ρ)),
    .host (hseg hostOps0_1 hostOps0_1_sub hostOps0_1_fresh (Wa1 m ρ)),
    .host (hseg hostOps0_2 hostOps0_2_sub hostOps0_2_fresh (Wa2 m ρ)),
    .region (reg0 m ρ),
    .host (hseg hostOps1 hostOps1_sub hostOps1_fresh (Wb0 m ρ)),
    .region (reg1 m ρ),
    .host (hseg hostOps2 hostOps2_sub hostOps2_fresh (Wc0 m ρ)),
    .host (hseg hostOps2_1 hostOps2_1_sub hostOps2_1_fresh (Wc1 m ρ)),
    .host (hseg hostOps2_2 hostOps2_2_sub hostOps2_2_fresh (Wc2 m ρ)),
    .host (hseg hostOps2_3 hostOps2_3_sub hostOps2_3_fresh (Wc3 m ρ)),
    .host (hseg hostOps2_4 hostOps2_4_sub hostOps2_4_fresh (Wc4 m ρ)),
    .region (reg2 m ρ) ]
/-- @main is the run of the segments. -/
theorem main_run (c : Dev nD) : main (F := F) c = Pipeline.Seg.run (segs m ρ) := (main_chain c).trans (by chain_rfl)

set_option backward.isDefEq.respectTransparency.types false in
/-- From any memory with zero counters, every weakly fair execution of @main terminates, nothing faulting, and in every
    final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wd m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wa0 m ρ c)
        from Pipeline.unscopedBufs_held c (Wa0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wd m ρ c b)
    (hfin := fun c s' => by
      iintro ⟨⟨Hh, -⟩, HSI⟩
      unfold StableHlo.held
      imodintro
      iapply (pointsTo_read_all (Pipeline.ucRefs τ sig) (fun b => (((c : Thread nD τ)).1, b)) (Wd m ρ c) s')
      isplitl [Hh] <;> iassumption)
    (hQ := fun s h c => h c)

end Cert.KernelIdeal.Hand

end
-- ==== Proof.KIdeal.Args.lean ====
/-
  No host operation and no region writes an argument array: a host operation writes only its own result buffer, a
  region writes only its output array, and the two argument arrays a region reads (the mask and the output mean, through
  input windows of region 2) come back as entered. So at the end of @main each argument array holds its launch contents:
  the frame.
-/
import proofs.«159603_j71347996721325_2_alg».proof.Proof.KIdeal.Run
import proofs.«159603_j71347996721325_2_alg».proof.Proof.RefLib

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem
open Idealize.ShloMosaic.Pipeline (Dat)

variable {F : FTy → Type} [FloatOps F]

/-- The contents `W'` agree with `W` on the twenty-one argument arrays. -/
def ArgsKept (W W' : Valuation τ sig (Elt F)) : Prop :=
  W' (Proc.devRef .tc main_arg0) = W (Proc.devRef .tc main_arg0)
    ∧ W' (Proc.devRef .tc main_arg1) = W (Proc.devRef .tc main_arg1)
    ∧ W' (Proc.devRef .tc main_arg2) = W (Proc.devRef .tc main_arg2)
    ∧ W' (Proc.devRef .tc main_arg3) = W (Proc.devRef .tc main_arg3)
    ∧ W' (Proc.devRef .tc main_arg4) = W (Proc.devRef .tc main_arg4)
    ∧ W' (Proc.devRef .tc main_arg5) = W (Proc.devRef .tc main_arg5)
    ∧ W' (Proc.devRef .tc main_arg6) = W (Proc.devRef .tc main_arg6)
    ∧ W' (Proc.devRef .tc main_arg7) = W (Proc.devRef .tc main_arg7)
    ∧ W' (Proc.devRef .tc main_arg8) = W (Proc.devRef .tc main_arg8)
    ∧ W' (Proc.devRef .tc main_arg9) = W (Proc.devRef .tc main_arg9)
    ∧ W' (Proc.devRef .tc main_arg10) = W (Proc.devRef .tc main_arg10)
    ∧ W' (Proc.devRef .tc main_arg11) = W (Proc.devRef .tc main_arg11)
    ∧ W' (Proc.devRef .tc main_arg12) = W (Proc.devRef .tc main_arg12)
    ∧ W' (Proc.devRef .tc main_arg13) = W (Proc.devRef .tc main_arg13)
    ∧ W' (Proc.devRef .tc main_arg14) = W (Proc.devRef .tc main_arg14)
    ∧ W' (Proc.devRef .tc main_arg15) = W (Proc.devRef .tc main_arg15)
    ∧ W' (Proc.devRef .tc main_arg16) = W (Proc.devRef .tc main_arg16)
    ∧ W' (Proc.devRef .tc main_arg17) = W (Proc.devRef .tc main_arg17)
    ∧ W' (Proc.devRef .tc main_arg18) = W (Proc.devRef .tc main_arg18)
    ∧ W' (Proc.devRef .tc main_arg19) = W (Proc.devRef .tc main_arg19)
    ∧ W' (Proc.devRef .tc main_arg20) = W (Proc.devRef .tc main_arg20)

theorem ArgsKept.trans {W W' W'' : Valuation τ sig (Elt F)} (h : ArgsKept W W') (h' : ArgsKept W' W'') : ArgsKept W W'' := by
  unfold ArgsKept at *
  obtain ⟨a0, a1, a2, a3, a4, a5, a6, a7, a8, a9, a10, a11, a12, a13, a14, a15, a16, a17, a18, a19, a20⟩ := h
  obtain ⟨b0, b1, b2, b3, b4, b5, b6, b7, b8, b9, b10, b11, b12, b13, b14, b15, b16, b17, b18, b19, b20⟩ := h'
  exact ⟨b0.trans a0, b1.trans a1, b2.trans a2, b3.trans a3, b4.trans a4, b5.trans a5, b6.trans a6, b7.trans a7, b8.trans a8, b9.trans a9, b10.trans a10, b11.trans a11, b12.trans a12, b13.trans a13, b14.trans a14, b15.trans a15, b16.trans a16, b17.trans a17, b18.trans a18, b19.trans a19, b20.trans a20⟩

/-! ## The host stretches -/

theorem keep_hostOps0 (W : Valuation τ sig (Elt F)) : ArgsKept W (StableHlo.after hostOps0 W) := by
  unfold ArgsKept; refine ⟨?_, ?_, ?_, ?_, ?_, ?_, ?_, ?_, ?_, ?_, ?_, ?_, ?_, ?_, ?_, ?_, ?_, ?_, ?_, ?_, ?_⟩ <;> after_results_simp
theorem keep_hostOps0_1 (W : Valuation τ sig (Elt F)) : ArgsKept W (StableHlo.after hostOps0_1 W) := by
  unfold ArgsKept; refine ⟨?_, ?_, ?_, ?_, ?_, ?_, ?_, ?_, ?_, ?_, ?_, ?_, ?_, ?_, ?_, ?_, ?_, ?_, ?_, ?_, ?_⟩ <;> after_results_simp
/-- The buffers the 94 operations of `hostOps0_2` write, in order: each operation writes its own result buffer. -/
abbrev hostOps0_2_W : List (Ref sig .tc) := [main_c_4, main_v14, main_v15, main_c_5, main_v16, main_v17, main_v18, main_v19, main_v20, main_v21, main_c_6, main_v22, main_v23, main_c_7, main_v24, main_v25, main_v26, main_v27, main_v28, main_v29, main_v30, main_c_8, main_v31, main_v32, main_c_9, main_v33, main_v34, main_v35, main_v36, main_v37, main_v38, main_v39, main_v40, main_cst_10, main_v41, main_c_11, main_v42, main_v43, main_c_12, main_v44, main_v45, main_v46, main_v47, main_v48, main_c_13, main_v49, main_v50, main_c_14, main_v51, main_v52, main_v53, main_v54, main_v55, main_v56, main_v57, main_v58, main_cst_15, main_v59, main_c_16, main_v60, main_v61, main_c_17, main_v62, main_v63, main_v64, main_v65, main_v66, main_c_18, main_v67, main_v68, main_c_19, main_v69, main_v70, main_v71, main_v72, main_v73, main_v74, main_v75, main_v76, main_cst_20, main_v77, main_c_21, main_v78, main_v79, main_c_22, main_v80, main_v81, main_v82, main_v83, main_v84, main_v85, main_v86, main_v87, main_v88]
theorem hostOps0_2_writesF : (hostOps0_2 : List (HloOp τ sig (Elt F))).Forall fun op => op.writes ⊆ (hostOps0_2_W.map (Proc.devRef (τ := τ) .tc)).toFinset :=
  ⟨Cert.RefLib.writes_sub_of_mem (y := main_c_4) rfl (by decide),
    Cert.RefLib.writes_sub_of_mem (y := main_v14) rfl (by decide),
    Cert.RefLib.writes_sub_of_mem (y := main_v15) rfl (by decide),
    Cert.RefLib.writes_sub_of_mem (y := main_c_5) rfl (by decide),
    Cert.RefLib.writes_sub_of_mem (y := main_v16) rfl (by decide),
    Cert.RefLib.writes_sub_of_mem (y := main_v17) rfl (by decide),
    Cert.RefLib.writes_sub_of_mem (y := main_v18) rfl (by decide),
    Cert.RefLib.writes_sub_of_mem (y := main_v19) rfl (by decide),
    Cert.RefLib.writes_sub_of_mem (y := main_v20) rfl (by decide),
    Cert.RefLib.writes_sub_of_mem (y := main_v21) rfl (by decide),
    Cert.RefLib.writes_sub_of_mem (y := main_c_6) rfl (by decide),
    Cert.RefLib.writes_sub_of_mem (y := main_v22) rfl (by decide),
    Cert.RefLib.writes_sub_of_mem (y := main_v23) rfl (by decide),
    Cert.RefLib.writes_sub_of_mem (y := main_c_7) rfl (by decide),
    Cert.RefLib.writes_sub_of_mem (y := main_v24) rfl (by decide),
    Cert.RefLib.writes_sub_of_mem (y := main_v25) rfl (by decide),
    Cert.RefLib.writes_sub_of_mem (y := main_v26) rfl (by decide),
    Cert.RefLib.writes_sub_of_mem (y := main_v27) rfl (by decide),
    Cert.RefLib.writes_sub_of_mem (y := main_v28) rfl (by decide),
    Cert.RefLib.writes_sub_of_mem (y := main_v29) rfl (by decide),
    Cert.RefLib.writes_sub_of_mem (y := main_v30) rfl (by decide),
    Cert.RefLib.writes_sub_of_mem (y := main_c_8) rfl (by decide),
    Cert.RefLib.writes_sub_of_mem (y := main_v31) rfl (by decide),
    Cert.RefLib.writes_sub_of_mem (y := main_v32) rfl (by decide),
    Cert.RefLib.writes_sub_of_mem (y := main_c_9) rfl (by decide),
    Cert.RefLib.writes_sub_of_mem (y := main_v33) rfl (by decide),
    Cert.RefLib.writes_sub_of_mem (y := main_v34) rfl (by decide),
    Cert.RefLib.writes_sub_of_mem (y := main_v35) rfl (by decide),
    Cert.RefLib.writes_sub_of_mem (y := main_v36) rfl (by decide),
    Cert.RefLib.writes_sub_of_mem (y := main_v37) rfl (by decide),
    Cert.RefLib.writes_sub_of_mem (y := main_v38) rfl (by decide),
    Cert.RefLib.writes_sub_of_mem (y := main_v39) rfl (by decide),
    Cert.RefLib.writes_sub_of_mem (y := main_v40) rfl (by decide),
    Cert.RefLib.writes_sub_of_mem (y := main_cst_10) rfl (by decide),
    Cert.RefLib.writes_sub_of_mem (y := main_v41) rfl (by decide),
    Cert.RefLib.writes_sub_of_mem (y := main_c_11) rfl (by decide),
    Cert.RefLib.writes_sub_of_mem (y := main_v42) rfl (by decide),
    Cert.RefLib.writes_sub_of_mem (y := main_v43) rfl (by decide),
    Cert.RefLib.writes_sub_of_mem (y := main_c_12) rfl (by decide),
    Cert.RefLib.writes_sub_of_mem (y := main_v44) rfl (by decide),
    Cert.RefLib.writes_sub_of_mem (y := main_v45) rfl (by decide),
    Cert.RefLib.writes_sub_of_mem (y := main_v46) rfl (by decide),
    Cert.RefLib.writes_sub_of_mem (y := main_v47) rfl (by decide),
    Cert.RefLib.writes_sub_of_mem (y := main_v48) rfl (by decide),
    Cert.RefLib.writes_sub_of_mem (y := main_c_13) rfl (by decide),
    Cert.RefLib.writes_sub_of_mem (y := main_v49) rfl (by decide),
    Cert.RefLib.writes_sub_of_mem (y := main_v50) rfl (by decide),
    Cert.RefLib.writes_sub_of_mem (y := main_c_14) rfl (by decide),
    Cert.RefLib.writes_sub_of_mem (y := main_v51) rfl (by decide),
    Cert.RefLib.writes_sub_of_mem (y := main_v52) rfl (by decide),
    Cert.RefLib.writes_sub_of_mem (y := main_v53) rfl (by decide),
    Cert.RefLib.writes_sub_of_mem (y := main_v54) rfl (by decide),
    Cert.RefLib.writes_sub_of_mem (y := main_v55) rfl (by decide),
    Cert.RefLib.writes_sub_of_mem (y := main_v56) rfl (by decide),
    Cert.RefLib.writes_sub_of_mem (y := main_v57) rfl (by decide),
    Cert.RefLib.writes_sub_of_mem (y := main_v58) rfl (by decide),
    Cert.RefLib.writes_sub_of_mem (y := main_cst_15) rfl (by decide),
    Cert.RefLib.writes_sub_of_mem (y := main_v59) rfl (by decide),
    Cert.RefLib.writes_sub_of_mem (y := main_c_16) rfl (by decide),
    Cert.RefLib.writes_sub_of_mem (y := main_v60) rfl (by decide),
    Cert.RefLib.writes_sub_of_mem (y := main_v61) rfl (by decide),
    Cert.RefLib.writes_sub_of_mem (y := main_c_17) rfl (by decide),
    Cert.RefLib.writes_sub_of_mem (y := main_v62) rfl (by decide),
    Cert.RefLib.writes_sub_of_mem (y := main_v63) rfl (by decide),
    Cert.RefLib.writes_sub_of_mem (y := main_v64) rfl (by decide),
    Cert.RefLib.writes_sub_of_mem (y := main_v65) rfl (by decide),
    Cert.RefLib.writes_sub_of_mem (y := main_v66) rfl (by decide),
    Cert.RefLib.writes_sub_of_mem (y := main_c_18) rfl (by decide),
    Cert.RefLib.writes_sub_of_mem (y := main_v67) rfl (by decide),
    Cert.RefLib.writes_sub_of_mem (y := main_v68) rfl (by decide),
    Cert.RefLib.writes_sub_of_mem (y := main_c_19) rfl (by decide),
    Cert.RefLib.writes_sub_of_mem (y := main_v69) rfl (by decide),
    Cert.RefLib.writes_sub_of_mem (y := main_v70) rfl (by decide),
    Cert.RefLib.writes_sub_of_mem (y := main_v71) rfl (by decide),
    Cert.RefLib.writes_sub_of_mem (y := main_v72) rfl (by decide),
    Cert.RefLib.writes_sub_of_mem (y := main_v73) rfl (by decide),
    Cert.RefLib.writes_sub_of_mem (y := main_v74) rfl (by decide),
    Cert.RefLib.writes_sub_of_mem (y := main_v75) rfl (by decide),
    Cert.RefLib.writes_sub_of_mem (y := main_v76) rfl (by decide),
    Cert.RefLib.writes_sub_of_mem (y := main_cst_20) rfl (by decide),
    Cert.RefLib.writes_sub_of_mem (y := main_v77) rfl (by decide),
    Cert.RefLib.writes_sub_of_mem (y := main_c_21) rfl (by decide),
    Cert.RefLib.writes_sub_of_mem (y := main_v78) rfl (by decide),
    Cert.RefLib.writes_sub_of_mem (y := main_v79) rfl (by decide),
    Cert.RefLib.writes_sub_of_mem (y := main_c_22) rfl (by decide),
    Cert.RefLib.writes_sub_of_mem (y := main_v80) rfl (by decide),
    Cert.RefLib.writes_sub_of_mem (y := main_v81) rfl (by decide),
    Cert.RefLib.writes_sub_of_mem (y := main_v82) rfl (by decide),
    Cert.RefLib.writes_sub_of_mem (y := main_v83) rfl (by decide),
    Cert.RefLib.writes_sub_of_mem (y := main_v84) rfl (by decide),
    Cert.RefLib.writes_sub_of_mem (y := main_v85) rfl (by decide),
    Cert.RefLib.writes_sub_of_mem (y := main_v86) rfl (by decide),
    Cert.RefLib.writes_sub_of_mem (y := main_v87) rfl (by decide),
    Cert.RefLib.writes_sub_of_mem (y := main_v88) rfl (by decide)⟩
theorem hostOps0_2_writes : Cert.RefLib.WritesIn (hostOps0_2 : List (HloOp τ sig (Elt F))) hostOps0_2_W := Cert.RefLib.WritesIn.of_forall hostOps0_2_writesF
/-- None of them is an argument array. -/
theorem keep_hostOps0_2 (W : Valuation τ sig (Elt F)) : ArgsKept W (StableHlo.after hostOps0_2 W) :=
  ⟨hostOps0_2_writes.keep W (r := main_arg0) (by decide),
    hostOps0_2_writes.keep W (r := main_arg1) (by decide),
    hostOps0_2_writes.keep W (r := main_arg2) (by decide),
    hostOps0_2_writes.keep W (r := main_arg3) (by decide),
    hostOps0_2_writes.keep W (r := main_arg4) (by decide),
    hostOps0_2_writes.keep W (r := main_arg5) (by decide),
    hostOps0_2_writes.keep W (r := main_arg6) (by decide),
    hostOps0_2_writes.keep W (r := main_arg7) (by decide),
    hostOps0_2_writes.keep W (r := main_arg8) (by decide),
    hostOps0_2_writes.keep W (r := main_arg9) (by decide),
    hostOps0_2_writes.keep W (r := main_arg10) (by decide),
    hostOps0_2_writes.keep W (r := main_arg11) (by decide),
    hostOps0_2_writes.keep W (r := main_arg12) (by decide),
    hostOps0_2_writes.keep W (r := main_arg13) (by decide),
    hostOps0_2_writes.keep W (r := main_arg14) (by decide),
    hostOps0_2_writes.keep W (r := main_arg15) (by decide),
    hostOps0_2_writes.keep W (r := main_arg16) (by decide),
    hostOps0_2_writes.keep W (r := main_arg17) (by decide),
    hostOps0_2_writes.keep W (r := main_arg18) (by decide),
    hostOps0_2_writes.keep W (r := main_arg19) (by decide),
    hostOps0_2_writes.keep W (r := main_arg20) (by decide)⟩
/-- The buffers the 74 operations of `hostOps1` write, in order: each operation writes its own result buffer. -/
abbrev hostOps1_W : List (Ref sig .tc) := [main_v90, main_c_23, main_v91, main_v92, main_c_24, main_v93, main_v94, main_v95, main_v96, main_v97, main_v98, main_v99, main_v100, main_cst_25, main_v101, main_c_26, main_v102, main_v103, main_c_27, main_v104, main_v105, main_v106, main_v107, main_v108, main_c_28, main_v109, main_v110, main_c_29, main_v111, main_v112, main_v113, main_v114, main_v115, main_v116, main_v117, main_v118, main_cst_30, main_v119, main_c_31, main_v120, main_v121, main_c_32, main_v122, main_v123, main_v124, main_v125, main_v126, main_c_33, main_v127, main_v128, main_c_34, main_v129, main_v130, main_v131, main_v132, main_v133, main_v134, main_v135, main_v136, main_cst_35, main_v137, main_c_36, main_v138, main_v139, main_c_37, main_v140, main_v141, main_v142, main_v143, main_v144, main_v145, main_v146, main_v147, main_v148]
theorem hostOps1_writesF : (hostOps1 : List (HloOp τ sig (Elt F))).Forall fun op => op.writes ⊆ (hostOps1_W.map (Proc.devRef (τ := τ) .tc)).toFinset :=
  ⟨Cert.RefLib.writes_sub_of_mem (y := main_v90) rfl (by decide),
    Cert.RefLib.writes_sub_of_mem (y := main_c_23) rfl (by decide),
    Cert.RefLib.writes_sub_of_mem (y := main_v91) rfl (by decide),
    Cert.RefLib.writes_sub_of_mem (y := main_v92) rfl (by decide),
    Cert.RefLib.writes_sub_of_mem (y := main_c_24) rfl (by decide),
    Cert.RefLib.writes_sub_of_mem (y := main_v93) rfl (by decide),
    Cert.RefLib.writes_sub_of_mem (y := main_v94) rfl (by decide),
    Cert.RefLib.writes_sub_of_mem (y := main_v95) rfl (by decide),
    Cert.RefLib.writes_sub_of_mem (y := main_v96) rfl (by decide),
    Cert.RefLib.writes_sub_of_mem (y := main_v97) rfl (by decide),
    Cert.RefLib.writes_sub_of_mem (y := main_v98) rfl (by decide),
    Cert.RefLib.writes_sub_of_mem (y := main_v99) rfl (by decide),
    Cert.RefLib.writes_sub_of_mem (y := main_v100) rfl (by decide),
    Cert.RefLib.writes_sub_of_mem (y := main_cst_25) rfl (by decide),
    Cert.RefLib.writes_sub_of_mem (y := main_v101) rfl (by decide),
    Cert.RefLib.writes_sub_of_mem (y := main_c_26) rfl (by decide),
    Cert.RefLib.writes_sub_of_mem (y := main_v102) rfl (by decide),
    Cert.RefLib.writes_sub_of_mem (y := main_v103) rfl (by decide),
    Cert.RefLib.writes_sub_of_mem (y := main_c_27) rfl (by decide),
    Cert.RefLib.writes_sub_of_mem (y := main_v104) rfl (by decide),
    Cert.RefLib.writes_sub_of_mem (y := main_v105) rfl (by decide),
    Cert.RefLib.writes_sub_of_mem (y := main_v106) rfl (by decide),
    Cert.RefLib.writes_sub_of_mem (y := main_v107) rfl (by decide),
    Cert.RefLib.writes_sub_of_mem (y := main_v108) rfl (by decide),
    Cert.RefLib.writes_sub_of_mem (y := main_c_28) rfl (by decide),
    Cert.RefLib.writes_sub_of_mem (y := main_v109) rfl (by decide),
    Cert.RefLib.writes_sub_of_mem (y := main_v110) rfl (by decide),
    Cert.RefLib.writes_sub_of_mem (y := main_c_29) rfl (by decide),
    Cert.RefLib.writes_sub_of_mem (y := main_v111) rfl (by decide),
    Cert.RefLib.writes_sub_of_mem (y := main_v112) rfl (by decide),
    Cert.RefLib.writes_sub_of_mem (y := main_v113) rfl (by decide),
    Cert.RefLib.writes_sub_of_mem (y := main_v114) rfl (by decide),
    Cert.RefLib.writes_sub_of_mem (y := main_v115) rfl (by decide),
    Cert.RefLib.writes_sub_of_mem (y := main_v116) rfl (by decide),
    Cert.RefLib.writes_sub_of_mem (y := main_v117) rfl (by decide),
    Cert.RefLib.writes_sub_of_mem (y := main_v118) rfl (by decide),
    Cert.RefLib.writes_sub_of_mem (y := main_cst_30) rfl (by decide),
    Cert.RefLib.writes_sub_of_mem (y := main_v119) rfl (by decide),
    Cert.RefLib.writes_sub_of_mem (y := main_c_31) rfl (by decide),
    Cert.RefLib.writes_sub_of_mem (y := main_v120) rfl (by decide),
    Cert.RefLib.writes_sub_of_mem (y := main_v121) rfl (by decide),
    Cert.RefLib.writes_sub_of_mem (y := main_c_32) rfl (by decide),
    Cert.RefLib.writes_sub_of_mem (y := main_v122) rfl (by decide),
    Cert.RefLib.writes_sub_of_mem (y := main_v123) rfl (by decide),
    Cert.RefLib.writes_sub_of_mem (y := main_v124) rfl (by decide),
    Cert.RefLib.writes_sub_of_mem (y := main_v125) rfl (by decide),
    Cert.RefLib.writes_sub_of_mem (y := main_v126) rfl (by decide),
    Cert.RefLib.writes_sub_of_mem (y := main_c_33) rfl (by decide),
    Cert.RefLib.writes_sub_of_mem (y := main_v127) rfl (by decide),
    Cert.RefLib.writes_sub_of_mem (y := main_v128) rfl (by decide),
    Cert.RefLib.writes_sub_of_mem (y := main_c_34) rfl (by decide),
    Cert.RefLib.writes_sub_of_mem (y := main_v129) rfl (by decide),
    Cert.RefLib.writes_sub_of_mem (y := main_v130) rfl (by decide),
    Cert.RefLib.writes_sub_of_mem (y := main_v131) rfl (by decide),
    Cert.RefLib.writes_sub_of_mem (y := main_v132) rfl (by decide),
    Cert.RefLib.writes_sub_of_mem (y := main_v133) rfl (by decide),
    Cert.RefLib.writes_sub_of_mem (y := main_v134) rfl (by decide),
    Cert.RefLib.writes_sub_of_mem (y := main_v135) rfl (by decide),
    Cert.RefLib.writes_sub_of_mem (y := main_v136) rfl (by decide),
    Cert.RefLib.writes_sub_of_mem (y := main_cst_35) rfl (by decide),
    Cert.RefLib.writes_sub_of_mem (y := main_v137) rfl (by decide),
    Cert.RefLib.writes_sub_of_mem (y := main_c_36) rfl (by decide),
    Cert.RefLib.writes_sub_of_mem (y := main_v138) rfl (by decide),
    Cert.RefLib.writes_sub_of_mem (y := main_v139) rfl (by decide),
    Cert.RefLib.writes_sub_of_mem (y := main_c_37) rfl (by decide),
    Cert.RefLib.writes_sub_of_mem (y := main_v140) rfl (by decide),
    Cert.RefLib.writes_sub_of_mem (y := main_v141) rfl (by decide),
    Cert.RefLib.writes_sub_of_mem (y := main_v142) rfl (by decide),
    Cert.RefLib.writes_sub_of_mem (y := main_v143) rfl (by decide),
    Cert.RefLib.writes_sub_of_mem (y := main_v144) rfl (by decide),
    Cert.RefLib.writes_sub_of_mem (y := main_v145) rfl (by decide),
    Cert.RefLib.writes_sub_of_mem (y := main_v146) rfl (by decide),
    Cert.RefLib.writes_sub_of_mem (y := main_v147) rfl (by decide),
    Cert.RefLib.writes_sub_of_mem (y := main_v148) rfl (by decide)⟩
theorem hostOps1_writes : Cert.RefLib.WritesIn (hostOps1 : List (HloOp τ sig (Elt F))) hostOps1_W := Cert.RefLib.WritesIn.of_forall hostOps1_writesF
/-- None of them is an argument array. -/
theorem keep_hostOps1 (W : Valuation τ sig (Elt F)) : ArgsKept W (StableHlo.after hostOps1 W) :=
  ⟨hostOps1_writes.keep W (r := main_arg0) (by decide),
    hostOps1_writes.keep W (r := main_arg1) (by decide),
    hostOps1_writes.keep W (r := main_arg2) (by decide),
    hostOps1_writes.keep W (r := main_arg3) (by decide),
    hostOps1_writes.keep W (r := main_arg4) (by decide),
    hostOps1_writes.keep W (r := main_arg5) (by decide),
    hostOps1_writes.keep W (r := main_arg6) (by decide),
    hostOps1_writes.keep W (r := main_arg7) (by decide),
    hostOps1_writes.keep W (r := main_arg8) (by decide),
    hostOps1_writes.keep W (r := main_arg9) (by decide),
    hostOps1_writes.keep W (r := main_arg10) (by decide),
    hostOps1_writes.keep W (r := main_arg11) (by decide),
    hostOps1_writes.keep W (r := main_arg12) (by decide),
    hostOps1_writes.keep W (r := main_arg13) (by decide),
    hostOps1_writes.keep W (r := main_arg14) (by decide),
    hostOps1_writes.keep W (r := main_arg15) (by decide),
    hostOps1_writes.keep W (r := main_arg16) (by decide),
    hostOps1_writes.keep W (r := main_arg17) (by decide),
    hostOps1_writes.keep W (r := main_arg18) (by decide),
    hostOps1_writes.keep W (r := main_arg19) (by decide),
    hostOps1_writes.keep W (r := main_arg20) (by decide)⟩
/-- The buffers the 71 operations of `hostOps2` write, in order: each operation writes its own result buffer. -/
abbrev hostOps2_W : List (Ref sig .tc) := [main_v150, main_c_38, main_v151, main_v152, main_c_39, main_v153, main_v154, main_v155, main_v156, main_v157, main_v158, main_v159, main_v160, main_cst_40, main_v161, main_c_41, main_v162, main_v163, main_c_42, main_v164, main_v165, main_v166, main_v167, main_v168, main_c_43, main_v169, main_v170, main_c_44, main_v171, main_v172, main_v173, main_v174, main_v175, main_v176, main_v177, main_v178, main_cst_45, main_v179, main_c_46, main_v180, main_v181, main_c_47, main_v182, main_v183, main_v184, main_v185, main_v186, main_c_48, main_v187, main_v188, main_c_49, main_v189, main_v190, main_v191, main_v192, main_v193, main_v194, main_v195, main_v196, main_cst_50, main_v197, main_c_51, main_v198, main_v199, main_c_52, main_v200, main_v201, main_v202, main_v203, main_v204, main_v205]
theorem hostOps2_writesF : (hostOps2 : List (HloOp τ sig (Elt F))).Forall fun op => op.writes ⊆ (hostOps2_W.map (Proc.devRef (τ := τ) .tc)).toFinset :=
  ⟨Cert.RefLib.writes_sub_of_mem (y := main_v150) rfl (by decide),
    Cert.RefLib.writes_sub_of_mem (y := main_c_38) rfl (by decide),
    Cert.RefLib.writes_sub_of_mem (y := main_v151) rfl (by decide),
    Cert.RefLib.writes_sub_of_mem (y := main_v152) rfl (by decide),
    Cert.RefLib.writes_sub_of_mem (y := main_c_39) rfl (by decide),
    Cert.RefLib.writes_sub_of_mem (y := main_v153) rfl (by decide),
    Cert.RefLib.writes_sub_of_mem (y := main_v154) rfl (by decide),
    Cert.RefLib.writes_sub_of_mem (y := main_v155) rfl (by decide),
    Cert.RefLib.writes_sub_of_mem (y := main_v156) rfl (by decide),
    Cert.RefLib.writes_sub_of_mem (y := main_v157) rfl (by decide),
    Cert.RefLib.writes_sub_of_mem (y := main_v158) rfl (by decide),
    Cert.RefLib.writes_sub_of_mem (y := main_v159) rfl (by decide),
    Cert.RefLib.writes_sub_of_mem (y := main_v160) rfl (by decide),
    Cert.RefLib.writes_sub_of_mem (y := main_cst_40) rfl (by decide),
    Cert.RefLib.writes_sub_of_mem (y := main_v161) rfl (by decide),
    Cert.RefLib.writes_sub_of_mem (y := main_c_41) rfl (by decide),
    Cert.RefLib.writes_sub_of_mem (y := main_v162) rfl (by decide),
    Cert.RefLib.writes_sub_of_mem (y := main_v163) rfl (by decide),
    Cert.RefLib.writes_sub_of_mem (y := main_c_42) rfl (by decide),
    Cert.RefLib.writes_sub_of_mem (y := main_v164) rfl (by decide),
    Cert.RefLib.writes_sub_of_mem (y := main_v165) rfl (by decide),
    Cert.RefLib.writes_sub_of_mem (y := main_v166) rfl (by decide),
    Cert.RefLib.writes_sub_of_mem (y := main_v167) rfl (by decide),
    Cert.RefLib.writes_sub_of_mem (y := main_v168) rfl (by decide),
    Cert.RefLib.writes_sub_of_mem (y := main_c_43) rfl (by decide),
    Cert.RefLib.writes_sub_of_mem (y := main_v169) rfl (by decide),
    Cert.RefLib.writes_sub_of_mem (y := main_v170) rfl (by decide),
    Cert.RefLib.writes_sub_of_mem (y := main_c_44) rfl (by decide),
    Cert.RefLib.writes_sub_of_mem (y := main_v171) rfl (by decide),
    Cert.RefLib.writes_sub_of_mem (y := main_v172) rfl (by decide),
    Cert.RefLib.writes_sub_of_mem (y := main_v173) rfl (by decide),
    Cert.RefLib.writes_sub_of_mem (y := main_v174) rfl (by decide),
    Cert.RefLib.writes_sub_of_mem (y := main_v175) rfl (by decide),
    Cert.RefLib.writes_sub_of_mem (y := main_v176) rfl (by decide),
    Cert.RefLib.writes_sub_of_mem (y := main_v177) rfl (by decide),
    Cert.RefLib.writes_sub_of_mem (y := main_v178) rfl (by decide),
    Cert.RefLib.writes_sub_of_mem (y := main_cst_45) rfl (by decide),
    Cert.RefLib.writes_sub_of_mem (y := main_v179) rfl (by decide),
    Cert.RefLib.writes_sub_of_mem (y := main_c_46) rfl (by decide),
    Cert.RefLib.writes_sub_of_mem (y := main_v180) rfl (by decide),
    Cert.RefLib.writes_sub_of_mem (y := main_v181) rfl (by decide),
    Cert.RefLib.writes_sub_of_mem (y := main_c_47) rfl (by decide),
    Cert.RefLib.writes_sub_of_mem (y := main_v182) rfl (by decide),
    Cert.RefLib.writes_sub_of_mem (y := main_v183) rfl (by decide),
    Cert.RefLib.writes_sub_of_mem (y := main_v184) rfl (by decide),
    Cert.RefLib.writes_sub_of_mem (y := main_v185) rfl (by decide),
    Cert.RefLib.writes_sub_of_mem (y := main_v186) rfl (by decide),
    Cert.RefLib.writes_sub_of_mem (y := main_c_48) rfl (by decide),
    Cert.RefLib.writes_sub_of_mem (y := main_v187) rfl (by decide),
    Cert.RefLib.writes_sub_of_mem (y := main_v188) rfl (by decide),
    Cert.RefLib.writes_sub_of_mem (y := main_c_49) rfl (by decide),
    Cert.RefLib.writes_sub_of_mem (y := main_v189) rfl (by decide),
    Cert.RefLib.writes_sub_of_mem (y := main_v190) rfl (by decide),
    Cert.RefLib.writes_sub_of_mem (y := main_v191) rfl (by decide),
    Cert.RefLib.writes_sub_of_mem (y := main_v192) rfl (by decide),
    Cert.RefLib.writes_sub_of_mem (y := main_v193) rfl (by decide),
    Cert.RefLib.writes_sub_of_mem (y := main_v194) rfl (by decide),
    Cert.RefLib.writes_sub_of_mem (y := main_v195) rfl (by decide),
    Cert.RefLib.writes_sub_of_mem (y := main_v196) rfl (by decide),
    Cert.RefLib.writes_sub_of_mem (y := main_cst_50) rfl (by decide),
    Cert.RefLib.writes_sub_of_mem (y := main_v197) rfl (by decide),
    Cert.RefLib.writes_sub_of_mem (y := main_c_51) rfl (by decide),
    Cert.RefLib.writes_sub_of_mem (y := main_v198) rfl (by decide),
    Cert.RefLib.writes_sub_of_mem (y := main_v199) rfl (by decide),
    Cert.RefLib.writes_sub_of_mem (y := main_c_52) rfl (by decide),
    Cert.RefLib.writes_sub_of_mem (y := main_v200) rfl (by decide),
    Cert.RefLib.writes_sub_of_mem (y := main_v201) rfl (by decide),
    Cert.RefLib.writes_sub_of_mem (y := main_v202) rfl (by decide),
    Cert.RefLib.writes_sub_of_mem (y := main_v203) rfl (by decide),
    Cert.RefLib.writes_sub_of_mem (y := main_v204) rfl (by decide),
    Cert.RefLib.writes_sub_of_mem (y := main_v205) rfl (by decide)⟩
theorem hostOps2_writes : Cert.RefLib.WritesIn (hostOps2 : List (HloOp τ sig (Elt F))) hostOps2_W := Cert.RefLib.WritesIn.of_forall hostOps2_writesF
/-- None of them is an argument array. -/
theorem keep_hostOps2 (W : Valuation τ sig (Elt F)) : ArgsKept W (StableHlo.after hostOps2 W) :=
  ⟨hostOps2_writes.keep W (r := main_arg0) (by decide),
    hostOps2_writes.keep W (r := main_arg1) (by decide),
    hostOps2_writes.keep W (r := main_arg2) (by decide),
    hostOps2_writes.keep W (r := main_arg3) (by decide),
    hostOps2_writes.keep W (r := main_arg4) (by decide),
    hostOps2_writes.keep W (r := main_arg5) (by decide),
    hostOps2_writes.keep W (r := main_arg6) (by decide),
    hostOps2_writes.keep W (r := main_arg7) (by decide),
    hostOps2_writes.keep W (r := main_arg8) (by decide),
    hostOps2_writes.keep W (r := main_arg9) (by decide),
    hostOps2_writes.keep W (r := main_arg10) (by decide),
    hostOps2_writes.keep W (r := main_arg11) (by decide),
    hostOps2_writes.keep W (r := main_arg12) (by decide),
    hostOps2_writes.keep W (r := main_arg13) (by decide),
    hostOps2_writes.keep W (r := main_arg14) (by decide),
    hostOps2_writes.keep W (r := main_arg15) (by decide),
    hostOps2_writes.keep W (r := main_arg16) (by decide),
    hostOps2_writes.keep W (r := main_arg17) (by decide),
    hostOps2_writes.keep W (r := main_arg18) (by decide),
    hostOps2_writes.keep W (r := main_arg19) (by decide),
    hostOps2_writes.keep W (r := main_arg20) (by decide)⟩
theorem keep_hostOps2_1 (W : Valuation τ sig (Elt F)) : ArgsKept W (StableHlo.after hostOps2_1 W) := by
  unfold ArgsKept; refine ⟨?_, ?_, ?_, ?_, ?_, ?_, ?_, ?_, ?_, ?_, ?_, ?_, ?_, ?_, ?_, ?_, ?_, ?_, ?_, ?_, ?_⟩ <;> after_results_simp
theorem keep_hostOps2_2 (W : Valuation τ sig (Elt F)) : ArgsKept W (StableHlo.after hostOps2_2 W) := by
  unfold ArgsKept; refine ⟨?_, ?_, ?_, ?_, ?_, ?_, ?_, ?_, ?_, ?_, ?_, ?_, ?_, ?_, ?_, ?_, ?_, ?_, ?_, ?_, ?_⟩ <;> after_results_simp
theorem keep_hostOps2_3 (W : Valuation τ sig (Elt F)) : ArgsKept W (StableHlo.after hostOps2_3 W) := by
  unfold ArgsKept; refine ⟨?_, ?_, ?_, ?_, ?_, ?_, ?_, ?_, ?_, ?_, ?_, ?_, ?_, ?_, ?_, ?_, ?_, ?_, ?_, ?_, ?_⟩ <;> after_results_simp
theorem keep_hostOps2_4 (W : Valuation τ sig (Elt F)) : ArgsKept W (StableHlo.after hostOps2_4 W) := by
  unfold ArgsKept; refine ⟨?_, ?_, ?_, ?_, ?_, ?_, ?_, ?_, ?_, ?_, ?_, ?_, ?_, ?_, ?_, ?_, ?_, ?_, ?_, ?_, ?_⟩ <;> after_results_simp

/-! ## The regions -/

variable (m : (ℓ : Loc nD τ sig) → Buf (Elt F) ℓ) (ρ : Dev nD → PrngReg)

/-- Region 0 reads and writes no argument array. -/
theorem keep_reg0 (c : Dev nD) : ArgsKept (Wa3 m ρ c) (Wb0 m ρ c) := by
  unfold ArgsKept; refine ⟨?_, ?_, ?_, ?_, ?_, ?_, ?_, ?_, ?_, ?_, ?_, ?_, ?_, ?_, ?_, ?_, ?_, ?_, ?_, ?_, ?_⟩ <;> exact Wb0_of_ne m ρ c _ (by decide)
/-- Region 1 reads and writes no argument array. -/
theorem keep_reg1 (c : Dev nD) : ArgsKept (Wb1 m ρ c) (Wc0 m ρ c) := by
  unfold ArgsKept; refine ⟨?_, ?_, ?_, ?_, ?_, ?_, ?_, ?_, ?_, ?_, ?_, ?_, ?_, ?_, ?_, ?_, ?_, ?_, ?_, ?_, ?_⟩ <;> exact Wc0_of_ne m ρ c _ (by decide)
/-- Region 2 reads the mask (argument 14, window 5) and the output mean (argument 15, window 3) through input windows,
    which leave their arrays as entered; it touches no other argument array. -/
theorem keep_reg2 (c : Dev nD) : ArgsKept (Wc5 m ρ c) (Wd m ρ c) := by
  unfold ArgsKept
  refine ⟨Wd_of_ne m ρ c _ (by decide), Wd_of_ne m ρ c _ (by decide), Wd_of_ne m ρ c _ (by decide), Wd_of_ne m ρ c _ (by decide), Wd_of_ne m ρ c _ (by decide), Wd_of_ne m ρ c _ (by decide), Wd_of_ne m ρ c _ (by decide), Wd_of_ne m ρ c _ (by decide), Wd_of_ne m ρ c _ (by decide), Wd_of_ne m ρ c _ (by decide), Wd_of_ne m ρ c _ (by decide), Wd_of_ne m ρ c _ (by decide), Wd_of_ne m ρ c _ (by decide), Wd_of_ne m ρ c _ (by decide), ?_, ?_, Wd_of_ne m ρ c _ (by decide), Wd_of_ne m ρ c _ (by decide), Wd_of_ne m ρ c _ (by decide), Wd_of_ne m ρ c _ (by decide), Wd_of_ne m ρ c _ (by decide)⟩
  · exact (Wd_arr m ρ c 5).trans (((dat2 (Vc5 m ρ) c).arrAt_in 5 rfl _).trans (A_eq2 (Vc5 m ρ) c 5))
  · exact (Wd_arr m ρ c 3).trans (((dat2 (Vc5 m ρ) c).arrAt_in 3 rfl _).trans (A_eq2 (Vc5 m ρ) c 3))

/-- From the launch to the end of @main. -/
theorem keep_all (c : Dev nD) : ArgsKept (Wa0 m ρ c) (Wd m ρ c) :=
  (((((((((((keep_hostOps0 (Wa0 m ρ c)).trans (keep_hostOps0_1 (Wa1 m ρ c))).trans (keep_hostOps0_2 (Wa2 m ρ c))).trans (keep_reg0 m ρ c)).trans
    (keep_hostOps1 (Wb0 m ρ c))).trans (keep_reg1 m ρ c)).trans (keep_hostOps2 (Wc0 m ρ c))).trans (keep_hostOps2_1 (Wc1 m ρ c))).trans
    (keep_hostOps2_2 (Wc2 m ρ c))).trans (keep_hostOps2_3 (Wc3 m ρ c))).trans (keep_hostOps2_4 (Wc4 m ρ c))).trans (keep_reg2 m ρ c)

/-- The frame: every weakly fair execution of @main terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => by
    have hk := keep_all m ρ c
    unfold ArgsKept at hk
    obtain ⟨a0, a1, a2, a3, a4, a5, a6, a7, a8, a9, a10, a11, a12, a13, a14, a15, a16, a17, a18, a19, a20⟩ := hk
    exact ⟨(h c _ (mem_uc main_arg0 (by decide))).trans a0,
      (h c _ (mem_uc main_arg1 (by decide))).trans a1,
      (h c _ (mem_uc main_arg2 (by decide))).trans a2,
      (h c _ (mem_uc main_arg3 (by decide))).trans a3,
      (h c _ (mem_uc main_arg4 (by decide))).trans a4,
      (h c _ (mem_uc main_arg5 (by decide))).trans a5,
      (h c _ (mem_uc main_arg6 (by decide))).trans a6,
      (h c _ (mem_uc main_arg7 (by decide))).trans a7,
      (h c _ (mem_uc main_arg8 (by decide))).trans a8,
      (h c _ (mem_uc main_arg9 (by decide))).trans a9,
      (h c _ (mem_uc main_arg10 (by decide))).trans a10,
      (h c _ (mem_uc main_arg11 (by decide))).trans a11,
      (h c _ (mem_uc main_arg12 (by decide))).trans a12,
      (h c _ (mem_uc main_arg13 (by decide))).trans a13,
      (h c _ (mem_uc main_arg14 (by decide))).trans a14,
      (h c _ (mem_uc main_arg15 (by decide))).trans a15,
      (h c _ (mem_uc main_arg16 (by decide))).trans a16,
      (h c _ (mem_uc main_arg17 (by decide))).trans a17,
      (h c _ (mem_uc main_arg18 (by decide))).trans a18,
      (h c _ (mem_uc main_arg19 (by decide))).trans a19,
      (h c _ (mem_uc main_arg20 (by decide))).trans a20⟩) (run_all m ρ)

end Cert.KernelIdeal.Hand

end
-- ==== Proof.RefRunW0.lean ====
/- Window 0 of the reference program's @main (`main_part0`) as literal lists of its host operations, the operations of
   each called function standing at the call over that call's buffers; each list with the facts the run of a straight
   line asks of it (its buffers are TensorCore references, no operation leaves a buffer undetermined) and the list of
   buffers it writes; and the window is the straight line of these lists in order. -/
import proofs.«159603_j71347996721325_2_alg».proof.Proof.Gen.ReferenceIdeal
import Idealize.ShloMosaic.Lib.StableHlo.Run
import proofs.«159603_j71347996721325_2_alg».proof.Proof.RefLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 11 of @main's 443, called functions' operations inline: the part of the stretch that ends in `main_v7` lying in window 0. -/
abbrev p0 : List (HloOp τ sig (Elt F)) :=
  [ nullary main_cst (constant S_ .f32 0x00000000#32),
    unary main_cst main_v0 (broadcastInDim S50000 ![] bcast_S_S50000 : (⟨S_, .f32⟩ : BufTy).Contents (Elt F) → (⟨S50000, .f32⟩ : BufTy).Contents (Elt F)),
    nullary main_c (constantI S_ 32 0#32),
    unary main_c main_v1 (broadcastInDim S400000 ![] bcast_S_S400000 : (⟨S_, .i32⟩ : BufTy).Contents (Elt F) → (⟨S400000, .i32⟩ : BufTy).Contents (Elt F)),
    binary main_arg2 main_v1 main_v2 (cmpi .slt : (⟨S400000, .i32⟩ : BufTy).Contents (Elt F) → (⟨S400000, .i32⟩ : BufTy).Contents (Elt F) → (⟨S400000, .i1⟩ : BufTy).Contents (Elt F)),
    nullary main_c_0 (constantI S_ 32 50000#32),
    unary main_c_0 main_v3 (broadcastInDim S400000 ![] bcast_S_S400000 : (⟨S_, .i32⟩ : BufTy).Contents (Elt F) → (⟨S400000, .i32⟩ : BufTy).Contents (Elt F)),
    binary main_arg2 main_v3 main_v4 (addi : (⟨S400000, .i32⟩ : BufTy).Contents (Elt F) → (⟨S400000, .i32⟩ : BufTy).Contents (Elt F) → (⟨S400000, .i32⟩ : BufTy).Contents (Elt F)),
    ternary main_v2 main_v4 main_arg2 main_v5 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v5 main_v6 (broadcastInDim S400000x1 ![0] bcast_S400000_S400000x1_0 : (⟨S400000, .i32⟩ : BufTy).Contents (Elt F) → (⟨S400000x1, .i32⟩ : BufTy).Contents (Elt F)),
    ternary main_v0 main_v6 main_arg3 main_v7 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)) ]

theorem p0_subF : (p0 : List (HloOp τ sig (Elt F))).Forall fun op => op.bufs ⊆ tcRefs τ sig :=
  ⟨nullary_bufs_sub ..,
    unary_bufs_sub ..,
    nullary_bufs_sub ..,
    unary_bufs_sub ..,
    binary_bufs_sub ..,
    nullary_bufs_sub ..,
    unary_bufs_sub ..,
    binary_bufs_sub ..,
    ternary_bufs_sub ..,
    unary_bufs_sub ..,
    ternary_bufs_sub ..⟩
theorem p0_sub : ∀ op ∈ (p0 : List (HloOp τ sig (Elt F))), op.bufs ⊆ tcRefs τ sig := List.forall_iff_forall_mem.mp p0_subF
theorem p0_fresh : ∀ op ∈ (p0 : List (HloOp τ sig (Elt F))), op.fresh = ∅ := by
  intro op h; (repeat (cases h with | head => rfl | tail _ h => ?_)); exact nomatch h
/-- The buffers the operations of `p0` write, in order. -/
abbrev p0_W : List (Ref sig .tc) := [main_cst, main_v0, main_c, main_v1, main_v2, main_c_0, main_v3, main_v4, main_v5, main_v6, main_v7]
theorem p0_writesF : (p0 : List (HloOp τ sig (Elt F))).Forall fun op => op.writes ⊆ (p0_W.map (Proc.devRef (τ := τ) .tc)).toFinset :=
  ⟨Cert.RefLib.writes_sub_of_mem (y := main_cst) rfl (by decide),
    Cert.RefLib.writes_sub_of_mem (y := main_v0) rfl (by decide),
    Cert.RefLib.writes_sub_of_mem (y := main_c) rfl (by decide),
    Cert.RefLib.writes_sub_of_mem (y := main_v1) rfl (by decide),
    Cert.RefLib.writes_sub_of_mem (y := main_v2) rfl (by decide),
    Cert.RefLib.writes_sub_of_mem (y := main_c_0) rfl (by decide),
    Cert.RefLib.writes_sub_of_mem (y := main_v3) rfl (by decide),
    Cert.RefLib.writes_sub_of_mem (y := main_v4) rfl (by decide),
    Cert.RefLib.writes_sub_of_mem (y := main_v5) rfl (by decide),
    Cert.RefLib.writes_sub_of_mem (y := main_v6) rfl (by decide),
    Cert.RefLib.writes_sub_of_mem (y := main_v7) rfl (by decide)⟩
theorem p0_writes : Cert.RefLib.WritesIn (p0 : List (HloOp τ sig (Elt F))) p0_W := Cert.RefLib.WritesIn.of_forall p0_writesF

/-- Operations 12 … 22 of @main's 443, called functions' operations inline: the part of the stretch that ends in `main_v13` lying in window 0. -/
abbrev p1 : List (HloOp τ sig (Elt F)) :=
  [ nullary main_cst_1 (constant S_ .f32 0x00000000#32),
    unary main_cst_1 main_v8 (broadcastInDim S50000 ![] bcast_S_S50000 : (⟨S_, .f32⟩ : BufTy).Contents (Elt F) → (⟨S50000, .f32⟩ : BufTy).Contents (Elt F)),
    binary main_v7 main_v8 main_v9 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x0DA24260#32),
    unary main_cst_2 main_v10 (broadcastInDim S50000 ![] bcast_S_S50000 : (⟨S_, .f32⟩ : BufTy).Contents (Elt F) → (⟨S50000, .f32⟩ : BufTy).Contents (Elt F)),
    binary main_v7 main_v10 main_v11 (maximumf : (⟨S50000, .f32⟩ : BufTy).Contents (Elt F) → (⟨S50000, .f32⟩ : BufTy).Contents (Elt F) → (⟨S50000, .f32⟩ : BufTy).Contents (Elt F)),
    unary main_v11 main_v12 (Host.rsqrt : (⟨S50000, .f32⟩ : BufTy).Contents (Elt F) → (⟨S50000, .f32⟩ : BufTy).Contents (Elt F)),
    nullary main_cst_3 (constant S_ .f32 0x00000000#32),
    TRef.unary (.of main_cst_3 : TRef sig ⟨S_, .f32⟩) main_call0.v0 id,
    TRef.unary main_call0.v0 main_call0.v1 (broadcastInDim S50000 ![] bcast_S_S50000),
    TRef.ternary (.of main_v9 : TRef sig ⟨S50000, .i1⟩) (.of main_v12 : TRef sig ⟨S50000, .f32⟩) main_call0.v1 main_call0.v2 select ]

theorem p1_subF : (p1 : List (HloOp τ sig (Elt F))).Forall fun op => op.bufs ⊆ tcRefs τ sig :=
  ⟨nullary_bufs_sub ..,
    unary_bufs_sub ..,
    binary_bufs_sub ..,
    nullary_bufs_sub ..,
    unary_bufs_sub ..,
    binary_bufs_sub ..,
    unary_bufs_sub ..,
    nullary_bufs_sub ..,
    unary_bufs_sub ..,
    unary_bufs_sub ..,
    ternary_bufs_sub ..⟩
theorem p1_sub : ∀ op ∈ (p1 : List (HloOp τ sig (Elt F))), op.bufs ⊆ tcRefs τ sig := List.forall_iff_forall_mem.mp p1_subF
theorem p1_fresh : ∀ op ∈ (p1 : List (HloOp τ sig (Elt F))), op.fresh = ∅ := by
  intro op h; (repeat (cases h with | head => rfl | tail _ h => ?_)); exact nomatch h
/-- The buffers the operations of `p1` write, in order. -/
abbrev p1_W : List (Ref sig .tc) := [main_cst_1, main_v8, main_v9, main_cst_2, main_v10, main_v11, main_v12, main_cst_3, main_call0_v0, main_call0_v1, main_v13]
theorem p1_writesF : (p1 : List (HloOp τ sig (Elt F))).Forall fun op => op.writes ⊆ (p1_W.map (Proc.devRef (τ := τ) .tc)).toFinset :=
  ⟨Cert.RefLib.writes_sub_of_mem (y := main_cst_1) rfl (by decide),
    Cert.RefLib.writes_sub_of_mem (y := main_v8) rfl (by decide),
    Cert.RefLib.writes_sub_of_mem (y := main_v9) rfl (by decide),
    Cert.RefLib.writes_sub_of_mem (y := main_cst_2) rfl (by decide),
    Cert.RefLib.writes_sub_of_mem (y := main_v10) rfl (by decide),
    Cert.RefLib.writes_sub_of_mem (y := main_v11) rfl (by decide),
    Cert.RefLib.writes_sub_of_mem (y := main_v12) rfl (by decide),
    Cert.RefLib.writes_sub_of_mem (y := main_cst_3) rfl (by decide),
    Cert.RefLib.writes_sub_of_mem (y := main_call0_v0) rfl (by decide),
    Cert.RefLib.writes_sub_of_mem (y := main_call0_v1) rfl (by decide),
    Cert.RefLib.writes_sub_of_mem (y := main_v13) rfl (by decide)⟩
theorem p1_writes : Cert.RefLib.WritesIn (p1 : List (HloOp τ sig (Elt F))) p1_W := Cert.RefLib.WritesIn.of_forall p1_writesF

/-- Operations 23 … 42 of @main's 443, called functions' operations inline: the part of the stretch that ends in `main_v29` lying in window 0. -/
abbrev p2 : List (HloOp τ sig (Elt F)) :=
  [ nullary main_c_4 (constantI S_ 32 0#32),
    unary main_c_4 main_v14 (broadcastInDim S400000 ![] bcast_S_S400000 : (⟨S_, .i32⟩ : BufTy).Contents (Elt F) → (⟨S400000, .i32⟩ : BufTy).Contents (Elt F)),
    binary main_arg1 main_v14 main_v15 (cmpi .slt : (⟨S400000, .i32⟩ : BufTy).Contents (Elt F) → (⟨S400000, .i32⟩ : BufTy).Contents (Elt F) → (⟨S400000, .i1⟩ : BufTy).Contents (Elt F)),
    nullary main_c_5 (constantI S_ 32 50000#32),
    unary main_c_5 main_v16 (broadcastInDim S400000 ![] bcast_S_S400000 : (⟨S_, .i32⟩ : BufTy).Contents (Elt F) → (⟨S400000, .i32⟩ : BufTy).Contents (Elt F)),
    binary main_arg1 main_v16 main_v17 (addi : (⟨S400000, .i32⟩ : BufTy).Contents (Elt F) → (⟨S400000, .i32⟩ : BufTy).Contents (Elt F) → (⟨S400000, .i32⟩ : BufTy).Contents (Elt F)),
    ternary main_v15 main_v17 main_arg1 main_v18 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v18 main_v19 (broadcastInDim S400000x1 ![0] bcast_S400000_S400000x1_0 : (⟨S400000, .i32⟩ : BufTy).Contents (Elt F) → (⟨S400000x1, .i32⟩ : BufTy).Contents (Elt F)),
    binary main_v13 main_v19 main_v20 ((fun x i => Host.gather gather_S50000_S400000x1_S400000_n_0_n_n_0_1_1 x i) : (⟨S50000, .f32⟩ : BufTy).Contents (Elt F) → (⟨S400000x1, .i32⟩ : BufTy).Contents (Elt F) → (⟨S400000, .f32⟩ : BufTy).Contents (Elt F)),
    binary main_v20 main_arg3 main_v21 (mulf : (⟨S400000, .f32⟩ : BufTy).Contents (Elt F) → (⟨S400000, .f32⟩ : BufTy).Contents (Elt F) → (⟨S400000, .f32⟩ : BufTy).Contents (Elt F)),
    nullary main_c_6 (constantI S_ 32 0#32),
    unary main_c_6 main_v22 (broadcastInDim S400000 ![] bcast_S_S400000 : (⟨S_, .i32⟩ : BufTy).Contents (Elt F) → (⟨S400000, .i32⟩ : BufTy).Contents (Elt F)),
    binary main_arg2 main_v22 main_v23 (cmpi .slt : (⟨S400000, .i32⟩ : BufTy).Contents (Elt F) → (⟨S400000, .i32⟩ : BufTy).Contents (Elt F) → (⟨S400000, .i1⟩ : BufTy).Contents (Elt F)),
    nullary main_c_7 (constantI S_ 32 50000#32),
    unary main_c_7 main_v24 (broadcastInDim S400000 ![] bcast_S_S400000 : (⟨S_, .i32⟩ : BufTy).Contents (Elt F) → (⟨S400000, .i32⟩ : BufTy).Contents (Elt F)),
    binary main_arg2 main_v24 main_v25 (addi : (⟨S400000, .i32⟩ : BufTy).Contents (Elt F) → (⟨S400000, .i32⟩ : BufTy).Contents (Elt F) → (⟨S400000, .i32⟩ : BufTy).Contents (Elt F)),
    ternary main_v23 main_v25 main_arg2 main_v26 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v26 main_v27 (broadcastInDim S400000x1 ![0] bcast_S400000_S400000x1_0 : (⟨S400000, .i32⟩ : BufTy).Contents (Elt F) → (⟨S400000x1, .i32⟩ : BufTy).Contents (Elt F)),
    binary main_v13 main_v27 main_v28 ((fun x i => Host.gather gather_S50000_S400000x1_S400000_n_0_n_n_0_1_1 x i) : (⟨S50000, .f32⟩ : BufTy).Contents (Elt F) → (⟨S400000x1, .i32⟩ : BufTy).Contents (Elt F) → (⟨S400000, .f32⟩ : BufTy).Contents (Elt F)),
    binary main_v21 main_v28 main_v29 (mulf : (⟨S400000, .f32⟩ : BufTy).Contents (Elt F) → (⟨S400000, .f32⟩ : BufTy).Contents (Elt F) → (⟨S400000, .f32⟩ : BufTy).Contents (Elt F)) ]

theorem p2_subF : (p2 : List (HloOp τ sig (Elt F))).Forall fun op => op.bufs ⊆ tcRefs τ sig :=
  ⟨nullary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    binary_bufs_sub ..,
    nullary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    binary_bufs_sub ..⟩
theorem p2_sub : ∀ op ∈ (p2 : List (HloOp τ sig (Elt F))), op.bufs ⊆ tcRefs τ sig := List.forall_iff_forall_mem.mp p2_subF
theorem p2_fresh : ∀ op ∈ (p2 : List (HloOp τ sig (Elt F))), op.fresh = ∅ := by
  intro op h; (repeat (cases h with | head => rfl | tail _ h => ?_)); exact nomatch h
/-- The buffers the operations of `p2` write, in order. -/
abbrev p2_W : List (Ref sig .tc) := [main_c_4, main_v14, main_v15, main_c_5, main_v16, main_v17, main_v18, main_v19, main_v20, main_v21, main_c_6, main_v22, main_v23, main_c_7, main_v24, main_v25, main_v26, main_v27, main_v28, main_v29]
theorem p2_writesF : (p2 : List (HloOp τ sig (Elt F))).Forall fun op => op.writes ⊆ (p2_W.map (Proc.devRef (τ := τ) .tc)).toFinset :=
  ⟨Cert.RefLib.writes_sub_of_mem (y := main_c_4) rfl (by decide),
    Cert.RefLib.writes_sub_of_mem (y := main_v14) rfl (by decide),
    Cert.RefLib.writes_sub_of_mem (y := main_v15) rfl (by decide),
    Cert.RefLib.writes_sub_of_mem (y := main_c_5) rfl (by decide),
    Cert.RefLib.writes_sub_of_mem (y := main_v16) rfl (by decide),
    Cert.RefLib.writes_sub_of_mem (y := main_v17) rfl (by decide),
    Cert.RefLib.writes_sub_of_mem (y := main_v18) rfl (by decide),
    Cert.RefLib.writes_sub_of_mem (y := main_v19) rfl (by decide),
    Cert.RefLib.writes_sub_of_mem (y := main_v20) rfl (by decide),
    Cert.RefLib.writes_sub_of_mem (y := main_v21) rfl (by decide),
    Cert.RefLib.writes_sub_of_mem (y := main_c_6) rfl (by decide),
    Cert.RefLib.writes_sub_of_mem (y := main_v22) rfl (by decide),
    Cert.RefLib.writes_sub_of_mem (y := main_v23) rfl (by decide),
    Cert.RefLib.writes_sub_of_mem (y := main_c_7) rfl (by decide),
    Cert.RefLib.writes_sub_of_mem (y := main_v24) rfl (by decide),
    Cert.RefLib.writes_sub_of_mem (y := main_v25) rfl (by decide),
    Cert.RefLib.writes_sub_of_mem (y := main_v26) rfl (by decide),
    Cert.RefLib.writes_sub_of_mem (y := main_v27) rfl (by decide),
    Cert.RefLib.writes_sub_of_mem (y := main_v28) rfl (by decide),
    Cert.RefLib.writes_sub_of_mem (y := main_v29) rfl (by decide)⟩
theorem p2_writes : Cert.RefLib.WritesIn (p2 : List (HloOp τ sig (Elt F))) p2_W := Cert.RefLib.WritesIn.of_forall p2_writesF

/-- Operations 43 … 45 of @main's 443, called functions' operations inline: the part of the stretch that ends in `main_v32` lying in window 0. -/
abbrev p3 : List (HloOp τ sig (Elt F)) :=
  [ unary main_arg4 main_v30 ((extractStridedSlice S1x4x64 ![0, 0, 0] · slices_S4x4x64_S1x4x64_0_0_0) : (⟨S4x4x64, .f32⟩ : BufTy).Contents (Elt F) → (⟨S1x4x64, .f32⟩ : BufTy).Contents (Elt F)),
    reshape main_v30 main_v31 rfl shapeCasts_S1x4x64_S4x64,
    binary main_arg0 main_v31 main_v32 ((fun l r => Host.dotGeneral dot_S4x50000x4_S4x64_S4x50000x64_2_0_01_1_n_n none l r) : (⟨S4x50000x4, .f32⟩ : BufTy).Contents (Elt F) → (⟨S4x64, .f32⟩ : BufTy).Contents (Elt F) → (⟨S4x50000x64, .f32⟩ : BufTy).Contents (Elt F)) ]

theorem p3_subF : (p3 : List (HloOp τ sig (Elt F))).Forall fun op => op.bufs ⊆ tcRefs τ sig :=
  ⟨unary_bufs_sub ..,
    reshape_bufs_sub ..,
    binary_bufs_sub ..⟩
theorem p3_sub : ∀ op ∈ (p3 : List (HloOp τ sig (Elt F))), op.bufs ⊆ tcRefs τ sig := List.forall_iff_forall_mem.mp p3_subF
theorem p3_fresh : ∀ op ∈ (p3 : List (HloOp τ sig (Elt F))), op.fresh = ∅ := by
  intro op h; (repeat (cases h with | head => rfl | tail _ h => ?_)); exact nomatch h
/-- The buffers the operations of `p3` write, in order. -/
abbrev p3_W : List (Ref sig .tc) := [main_v30, main_v31, main_v32]
theorem p3_writesF : (p3 : List (HloOp τ sig (Elt F))).Forall fun op => op.writes ⊆ (p3_W.map (Proc.devRef (τ := τ) .tc)).toFinset :=
  ⟨Cert.RefLib.writes_sub_of_mem (y := main_v30) rfl (by decide),
    Cert.RefLib.writes_sub_of_mem (y := main_v31) rfl (by decide),
    Cert.RefLib.writes_sub_of_mem (y := main_v32) rfl (by decide)⟩
theorem p3_writes : Cert.RefLib.WritesIn (p3 : List (HloOp τ sig (Elt F))) p3_W := Cert.RefLib.WritesIn.of_forall p3_writesF

/-- Operations 46 … 62 of @main's 443, called functions' operations inline: the part of the stretch that ends in `main_v50` lying in window 0. -/
abbrev p4 : List (HloOp τ sig (Elt F)) :=
  [ nullary main_c_8 (constantI S_ 32 0#32),
    unary main_c_8 main_v33 (broadcastInDim S400000 ![] bcast_S_S400000 : (⟨S_, .i32⟩ : BufTy).Contents (Elt F) → (⟨S400000, .i32⟩ : BufTy).Contents (Elt F)),
    binary main_arg1 main_v33 main_v34 (cmpi .slt : (⟨S400000, .i32⟩ : BufTy).Contents (Elt F) → (⟨S400000, .i32⟩ : BufTy).Contents (Elt F) → (⟨S400000, .i1⟩ : BufTy).Contents (Elt F)),
    nullary main_c_9 (constantI S_ 32 50000#32),
    unary main_c_9 main_v35 (broadcastInDim S400000 ![] bcast_S_S400000 : (⟨S_, .i32⟩ : BufTy).Contents (Elt F) → (⟨S400000, .i32⟩ : BufTy).Contents (Elt F)),
    binary main_arg1 main_v35 main_v36 (addi : (⟨S400000, .i32⟩ : BufTy).Contents (Elt F) → (⟨S400000, .i32⟩ : BufTy).Contents (Elt F) → (⟨S400000, .i32⟩ : BufTy).Contents (Elt F)),
    ternary main_v34 main_v36 main_arg1 main_v37 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v37 main_v38 (broadcastInDim S400000x1 ![0] bcast_S400000_S400000x1_0 : (⟨S400000, .i32⟩ : BufTy).Contents (Elt F) → (⟨S400000x1, .i32⟩ : BufTy).Contents (Elt F)),
    binary main_arg0 main_v38 main_v39 ((fun x i => Host.gather gather_S4x50000x4_S400000x1_S4x400000x4_02_1_n_n_1_1_414 x i) : (⟨S4x50000x4, .f32⟩ : BufTy).Contents (Elt F) → (⟨S400000x1, .i32⟩ : BufTy).Contents (Elt F) → (⟨S4x400000x4, .f32⟩ : BufTy).Contents (Elt F)),
    unary main_v29 main_v40 (broadcastInDim S1x400000x1 ![1] bcast_S400000_S1x400000x1_1 : (⟨S400000, .f32⟩ : BufTy).Contents (Elt F) → (⟨S1x400000x1, .f32⟩ : BufTy).Contents (Elt F)),
    unary main_v40 main_v41 (broadcastInDim S4x400000x4 ![0, 1, 2] bcast_S1x400000x1_S4x400000x4_0_1_2 : (⟨S1x400000x1, .f32⟩ : BufTy).Contents (Elt F) → (⟨S4x400000x4, .f32⟩ : BufTy).Contents (Elt F)),
    binary main_v39 main_v41 main_v42 (mulf : (⟨S4x400000x4, .f32⟩ : BufTy).Contents (Elt F) → (⟨S4x400000x4, .f32⟩ : BufTy).Contents (Elt F) → (⟨S4x400000x4, .f32⟩ : BufTy).Contents (Elt F)),
    nullary main_cst_10 (constant S_ .f32 0x00000000#32),
    unary main_cst_10 main_v43 (broadcastInDim S4x50000x4 ![] bcast_S_S4x50000x4 : (⟨S_, .f32⟩ : BufTy).Contents (Elt F) → (⟨S4x50000x4, .f32⟩ : BufTy).Contents (Elt F)),
    nullary main_c_11 (constantI S_ 32 0#32),
    unary main_c_11 main_v44 (broadcastInDim S400000 ![] bcast_S_S400000 : (⟨S_, .i32⟩ : BufTy).Contents (Elt F) → (⟨S400000, .i32⟩ : BufTy).Contents (Elt F)),
    binary main_arg2 main_v44 main_v45 (cmpi .slt : (⟨S400000, .i32⟩ : BufTy).Contents (Elt F) → (⟨S400000, .i32⟩ : BufTy).Contents (Elt F) → (⟨S400000, .i1⟩ : BufTy).Contents (Elt F)) ]

theorem p4_subF : (p4 : List (HloOp τ sig (Elt F))).Forall fun op => op.bufs ⊆ tcRefs τ sig :=
  ⟨nullary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    unary_bufs_sub ..,
    unary_bufs_sub ..,
    binary_bufs_sub ..,
    nullary_bufs_sub ..,
    unary_bufs_sub ..,
    nullary_bufs_sub ..,
    unary_bufs_sub ..,
    binary_bufs_sub ..⟩
theorem p4_sub : ∀ op ∈ (p4 : List (HloOp τ sig (Elt F))), op.bufs ⊆ tcRefs τ sig := List.forall_iff_forall_mem.mp p4_subF
theorem p4_fresh : ∀ op ∈ (p4 : List (HloOp τ sig (Elt F))), op.fresh = ∅ := by
  intro op h; (repeat (cases h with | head => rfl | tail _ h => ?_)); exact nomatch h
/-- The buffers the operations of `p4` write, in order. -/
abbrev p4_W : List (Ref sig .tc) := [main_c_8, main_v33, main_v34, main_c_9, main_v35, main_v36, main_v37, main_v38, main_v39, main_v40, main_v41, main_v42, main_cst_10, main_v43, main_c_11, main_v44, main_v45]
theorem p4_writesF : (p4 : List (HloOp τ sig (Elt F))).Forall fun op => op.writes ⊆ (p4_W.map (Proc.devRef (τ := τ) .tc)).toFinset :=
  ⟨Cert.RefLib.writes_sub_of_mem (y := main_c_8) rfl (by decide),
    Cert.RefLib.writes_sub_of_mem (y := main_v33) rfl (by decide),
    Cert.RefLib.writes_sub_of_mem (y := main_v34) rfl (by decide),
    Cert.RefLib.writes_sub_of_mem (y := main_c_9) rfl (by decide),
    Cert.RefLib.writes_sub_of_mem (y := main_v35) rfl (by decide),
    Cert.RefLib.writes_sub_of_mem (y := main_v36) rfl (by decide),
    Cert.RefLib.writes_sub_of_mem (y := main_v37) rfl (by decide),
    Cert.RefLib.writes_sub_of_mem (y := main_v38) rfl (by decide),
    Cert.RefLib.writes_sub_of_mem (y := main_v39) rfl (by decide),
    Cert.RefLib.writes_sub_of_mem (y := main_v40) rfl (by decide),
    Cert.RefLib.writes_sub_of_mem (y := main_v41) rfl (by decide),
    Cert.RefLib.writes_sub_of_mem (y := main_v42) rfl (by decide),
    Cert.RefLib.writes_sub_of_mem (y := main_cst_10) rfl (by decide),
    Cert.RefLib.writes_sub_of_mem (y := main_v43) rfl (by decide),
    Cert.RefLib.writes_sub_of_mem (y := main_c_11) rfl (by decide),
    Cert.RefLib.writes_sub_of_mem (y := main_v44) rfl (by decide),
    Cert.RefLib.writes_sub_of_mem (y := main_v45) rfl (by decide)⟩
theorem p4_writes : Cert.RefLib.WritesIn (p4 : List (HloOp τ sig (Elt F))) p4_W := Cert.RefLib.WritesIn.of_forall p4_writesF

/-- Window 0's operations, in order. -/
def w0 : List (HloOp τ sig (Elt F)) := p0 ++ p1 ++ p2 ++ p3 ++ p4

set_option maxRecDepth 16384 in
set_option maxHeartbeats 4000000 in
/-- The window is that straight line: each call unfolds to its function's operations over the call's buffers. -/
theorem main_part0_eq (c : Dev nD) : main_part0 (F := F) c = seq w0 := rfl

theorem w0_sub : ∀ op ∈ (w0 : List (HloOp τ sig (Elt F))), op.bufs ⊆ tcRefs τ sig :=
  Cert.RefLib.forall_append (Cert.RefLib.forall_append (Cert.RefLib.forall_append (Cert.RefLib.forall_append (p0_sub) p1_sub) p2_sub) p3_sub) p4_sub
theorem w0_fresh : ∀ op ∈ (w0 : List (HloOp τ sig (Elt F))), op.fresh = ∅ :=
  Cert.RefLib.forall_append (Cert.RefLib.forall_append (Cert.RefLib.forall_append (Cert.RefLib.forall_append (p0_fresh) p1_fresh) p2_fresh) p3_fresh) p4_fresh
/-- The buffers window 0 writes, in order. -/
def w0_W : List (Ref sig .tc) := p0_W ++ p1_W ++ p2_W ++ p3_W ++ p4_W
theorem w0_writes : Cert.RefLib.WritesIn (w0 : List (HloOp τ sig (Elt F))) w0_W :=
  Cert.RefLib.WritesIn.append (Cert.RefLib.WritesIn.append (Cert.RefLib.WritesIn.append (Cert.RefLib.WritesIn.append (p0_writes) p1_writes) p2_writes) p3_writes) p4_writes

end Cert.ReferenceIdeal.RefRun

end
-- ==== Proof.RefRunW1.lean ====
/- Window 1 of the reference program's @main (`main_part1`) as literal lists of its host operations, the operations of
   each called function standing at the call over that call's buffers; each list with the facts the run of a straight
   line asks of it (its buffers are TensorCore references, no operation leaves a buffer undetermined) and the list of
   buffers it writes; and the window is the straight line of these lists in order. -/
import proofs.«159603_j71347996721325_2_alg».proof.Proof.Gen.ReferenceIdeal
import Idealize.ShloMosaic.Lib.StableHlo.Run
import proofs.«159603_j71347996721325_2_alg».proof.Proof.RefLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 63 … 68 of @main's 443, called functions' operations inline: the part of the stretch that ends in `main_v50` lying in window 1. -/
abbrev p5 : List (HloOp τ sig (Elt F)) :=
  [ nullary main_c_12 (constantI S_ 32 50000#32),
    unary main_c_12 main_v46 (broadcastInDim S400000 ![] bcast_S_S400000 : (⟨S_, .i32⟩ : BufTy).Contents (Elt F) → (⟨S400000, .i32⟩ : BufTy).Contents (Elt F)),
    binary main_arg2 main_v46 main_v47 (addi : (⟨S400000, .i32⟩ : BufTy).Contents (Elt F) → (⟨S400000, .i32⟩ : BufTy).Contents (Elt F) → (⟨S400000, .i32⟩ : BufTy).Contents (Elt F)),
    ternary main_v45 main_v47 main_arg2 main_v48 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v48 main_v49 (broadcastInDim S400000x1 ![0] bcast_S400000_S400000x1_0 : (⟨S400000, .i32⟩ : BufTy).Contents (Elt F) → (⟨S400000x1, .i32⟩ : BufTy).Contents (Elt F)),
    ternary main_v43 main_v49 main_v42 main_v50 ((fun x i u => Host.scatterAdd scatter_S4x50000x4_S400000x1_S4x400000x4_02_1_1_1 x i u) : (⟨S4x50000x4, .f32⟩ : BufTy).Contents (Elt F) → (⟨S400000x1, .i32⟩ : BufTy).Contents (Elt F) → (⟨S4x400000x4, .f32⟩ : BufTy).Contents (Elt F) → (⟨S4x50000x4, .f32⟩ : BufTy).Contents (Elt F)) ]

theorem p5_subF : (p5 : List (HloOp τ sig (Elt F))).Forall fun op => op.bufs ⊆ tcRefs τ sig :=
  ⟨nullary_bufs_sub ..,
    unary_bufs_sub ..,
    binary_bufs_sub ..,
    ternary_bufs_sub ..,
    unary_bufs_sub ..,
    ternary_bufs_sub ..⟩
theorem p5_sub : ∀ op ∈ (p5 : List (HloOp τ sig (Elt F))), op.bufs ⊆ tcRefs τ sig := List.forall_iff_forall_mem.mp p5_subF
theorem p5_fresh : ∀ op ∈ (p5 : List (HloOp τ sig (Elt F))), op.fresh = ∅ := by
  intro op h; (repeat (cases h with | head => rfl | tail _ h => ?_)); exact nomatch h
/-- The buffers the operations of `p5` write, in order. -/
abbrev p5_W : List (Ref sig .tc) := [main_c_12, main_v46, main_v47, main_v48, main_v49, main_v50]
theorem p5_writesF : (p5 : List (HloOp τ sig (Elt F))).Forall fun op => op.writes ⊆ (p5_W.map (Proc.devRef (τ := τ) .tc)).toFinset :=
  ⟨Cert.RefLib.writes_sub_of_mem (y := main_c_12) rfl (by decide),
    Cert.RefLib.writes_sub_of_mem (y := main_v46) rfl (by decide),
    Cert.RefLib.writes_sub_of_mem (y := main_v47) rfl (by decide),
    Cert.RefLib.writes_sub_of_mem (y := main_v48) rfl (by decide),
    Cert.RefLib.writes_sub_of_mem (y := main_v49) rfl (by decide),
    Cert.RefLib.writes_sub_of_mem (y := main_v50) rfl (by decide)⟩
theorem p5_writes : Cert.RefLib.WritesIn (p5 : List (HloOp τ sig (Elt F))) p5_W := Cert.RefLib.WritesIn.of_forall p5_writesF

/-- Operations 69 … 72 of @main's 443, called functions' operations inline: the part of the stretch that ends in `main_v54` lying in window 1. -/
abbrev p6 : List (HloOp τ sig (Elt F)) :=
  [ unary main_arg4 main_v51 ((extractStridedSlice S1x4x64 ![1, 0, 0] · slices_S4x4x64_S1x4x64_1_0_0) : (⟨S4x4x64, .f32⟩ : BufTy).Contents (Elt F) → (⟨S1x4x64, .f32⟩ : BufTy).Contents (Elt F)),
    reshape main_v51 main_v52 rfl shapeCasts_S1x4x64_S4x64,
    binary main_v50 main_v52 main_v53 ((fun l r => Host.dotGeneral dot_S4x50000x4_S4x64_S4x50000x64_2_0_01_1_n_n none l r) : (⟨S4x50000x4, .f32⟩ : BufTy).Contents (Elt F) → (⟨S4x64, .f32⟩ : BufTy).Contents (Elt F) → (⟨S4x50000x64, .f32⟩ : BufTy).Contents (Elt F)),
    binary main_v32 main_v53 main_v54 (addf : (⟨S4x50000x64, .f32⟩ : BufTy).Contents (Elt F) → (⟨S4x50000x64, .f32⟩ : BufTy).Contents (Elt F) → (⟨S4x50000x64, .f32⟩ : BufTy).Contents (Elt F)) ]

theorem p6_subF : (p6 : List (HloOp τ sig (Elt F))).Forall fun op => op.bufs ⊆ tcRefs τ sig :=
  ⟨unary_bufs_sub ..,
    reshape_bufs_sub ..,
    binary_bufs_sub ..,
    binary_bufs_sub ..⟩
theorem p6_sub : ∀ op ∈ (p6 : List (HloOp τ sig (Elt F))), op.bufs ⊆ tcRefs τ sig := List.forall_iff_forall_mem.mp p6_subF
theorem p6_fresh : ∀ op ∈ (p6 : List (HloOp τ sig (Elt F))), op.fresh = ∅ := by
  intro op h; (repeat (cases h with | head => rfl | tail _ h => ?_)); exact nomatch h
/-- The buffers the operations of `p6` write, in order. -/
abbrev p6_W : List (Ref sig .tc) := [main_v51, main_v52, main_v53, main_v54]
theorem p6_writesF : (p6 : List (HloOp τ sig (Elt F))).Forall fun op => op.writes ⊆ (p6_W.map (Proc.devRef (τ := τ) .tc)).toFinset :=
  ⟨Cert.RefLib.writes_sub_of_mem (y := main_v51) rfl (by decide),
    Cert.RefLib.writes_sub_of_mem (y := main_v52) rfl (by decide),
    Cert.RefLib.writes_sub_of_mem (y := main_v53) rfl (by decide),
    Cert.RefLib.writes_sub_of_mem (y := main_v54) rfl (by decide)⟩
theorem p6_writes : Cert.RefLib.WritesIn (p6 : List (HloOp τ sig (Elt F))) p6_W := Cert.RefLib.WritesIn.of_forall p6_writesF

/-- Operations 73 … 95 of @main's 443, called functions' operations inline: the part of the stretch that ends in `main_v72` lying in window 1. -/
abbrev p7 : List (HloOp τ sig (Elt F)) :=
  [ nullary main_c_13 (constantI S_ 32 0#32),
    unary main_c_13 main_v55 (broadcastInDim S400000 ![] bcast_S_S400000 : (⟨S_, .i32⟩ : BufTy).Contents (Elt F) → (⟨S400000, .i32⟩ : BufTy).Contents (Elt F)),
    binary main_arg1 main_v55 main_v56 (cmpi .slt : (⟨S400000, .i32⟩ : BufTy).Contents (Elt F) → (⟨S400000, .i32⟩ : BufTy).Contents (Elt F) → (⟨S400000, .i1⟩ : BufTy).Contents (Elt F)),
    nullary main_c_14 (constantI S_ 32 50000#32),
    unary main_c_14 main_v57 (broadcastInDim S400000 ![] bcast_S_S400000 : (⟨S_, .i32⟩ : BufTy).Contents (Elt F) → (⟨S400000, .i32⟩ : BufTy).Contents (Elt F)),
    binary main_arg1 main_v57 main_v58 (addi : (⟨S400000, .i32⟩ : BufTy).Contents (Elt F) → (⟨S400000, .i32⟩ : BufTy).Contents (Elt F) → (⟨S400000, .i32⟩ : BufTy).Contents (Elt F)),
    ternary main_v56 main_v58 main_arg1 main_v59 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v59 main_v60 (broadcastInDim S400000x1 ![0] bcast_S400000_S400000x1_0 : (⟨S400000, .i32⟩ : BufTy).Contents (Elt F) → (⟨S400000x1, .i32⟩ : BufTy).Contents (Elt F)),
    binary main_v50 main_v60 main_v61 ((fun x i => Host.gather gather_S4x50000x4_S400000x1_S4x400000x4_02_1_n_n_1_1_414 x i) : (⟨S4x50000x4, .f32⟩ : BufTy).Contents (Elt F) → (⟨S400000x1, .i32⟩ : BufTy).Contents (Elt F) → (⟨S4x400000x4, .f32⟩ : BufTy).Contents (Elt F)),
    unary main_v29 main_v62 (broadcastInDim S1x400000x1 ![1] bcast_S400000_S1x400000x1_1 : (⟨S400000, .f32⟩ : BufTy).Contents (Elt F) → (⟨S1x400000x1, .f32⟩ : BufTy).Contents (Elt F)),
    unary main_v62 main_v63 (broadcastInDim S4x400000x4 ![0, 1, 2] bcast_S1x400000x1_S4x400000x4_0_1_2 : (⟨S1x400000x1, .f32⟩ : BufTy).Contents (Elt F) → (⟨S4x400000x4, .f32⟩ : BufTy).Contents (Elt F)),
    binary main_v61 main_v63 main_v64 (mulf : (⟨S4x400000x4, .f32⟩ : BufTy).Contents (Elt F) → (⟨S4x400000x4, .f32⟩ : BufTy).Contents (Elt F) → (⟨S4x400000x4, .f32⟩ : BufTy).Contents (Elt F)),
    nullary main_cst_15 (constant S_ .f32 0x00000000#32),
    unary main_cst_15 main_v65 (broadcastInDim S4x50000x4 ![] bcast_S_S4x50000x4 : (⟨S_, .f32⟩ : BufTy).Contents (Elt F) → (⟨S4x50000x4, .f32⟩ : BufTy).Contents (Elt F)),
    nullary main_c_16 (constantI S_ 32 0#32),
    unary main_c_16 main_v66 (broadcastInDim S400000 ![] bcast_S_S400000 : (⟨S_, .i32⟩ : BufTy).Contents (Elt F) → (⟨S400000, .i32⟩ : BufTy).Contents (Elt F)),
    binary main_arg2 main_v66 main_v67 (cmpi .slt : (⟨S400000, .i32⟩ : BufTy).Contents (Elt F) → (⟨S400000, .i32⟩ : BufTy).Contents (Elt F) → (⟨S400000, .i1⟩ : BufTy).Contents (Elt F)),
    nullary main_c_17 (constantI S_ 32 50000#32),
    unary main_c_17 main_v68 (broadcastInDim S400000 ![] bcast_S_S400000 : (⟨S_, .i32⟩ : BufTy).Contents (Elt F) → (⟨S400000, .i32⟩ : BufTy).Contents (Elt F)),
    binary main_arg2 main_v68 main_v69 (addi : (⟨S400000, .i32⟩ : BufTy).Contents (Elt F) → (⟨S400000, .i32⟩ : BufTy).Contents (Elt F) → (⟨S400000, .i32⟩ : BufTy).Contents (Elt F)),
    ternary main_v67 main_v69 main_arg2 main_v70 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v70 main_v71 (broadcastInDim S400000x1 ![0] bcast_S400000_S400000x1_0 : (⟨S400000, .i32⟩ : BufTy).Contents (Elt F) → (⟨S400000x1, .i32⟩ : BufTy).Contents (Elt F)),
    ternary main_v65 main_v71 main_v64 main_v72 ((fun x i u => Host.scatterAdd scatter_S4x50000x4_S400000x1_S4x400000x4_02_1_1_1 x i u) : (⟨S4x50000x4, .f32⟩ : BufTy).Contents (Elt F) → (⟨S400000x1, .i32⟩ : BufTy).Contents (Elt F) → (⟨S4x400000x4, .f32⟩ : BufTy).Contents (Elt F) → (⟨S4x50000x4, .f32⟩ : BufTy).Contents (Elt F)) ]

theorem p7_subF : (p7 : List (HloOp τ sig (Elt F))).Forall fun op => op.bufs ⊆ tcRefs τ sig :=
  ⟨nullary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    unary_bufs_sub ..,
    unary_bufs_sub ..,
    binary_bufs_sub ..,
    nullary_bufs_sub ..,
    unary_bufs_sub ..,
    nullary_bufs_sub ..,
    unary_bufs_sub ..,
    binary_bufs_sub ..,
    nullary_bufs_sub ..,
    unary_bufs_sub ..,
    binary_bufs_sub ..,
    ternary_bufs_sub ..,
    unary_bufs_sub ..,
    ternary_bufs_sub ..⟩
theorem p7_sub : ∀ op ∈ (p7 : List (HloOp τ sig (Elt F))), op.bufs ⊆ tcRefs τ sig := List.forall_iff_forall_mem.mp p7_subF
theorem p7_fresh : ∀ op ∈ (p7 : List (HloOp τ sig (Elt F))), op.fresh = ∅ := by
  intro op h; (repeat (cases h with | head => rfl | tail _ h => ?_)); exact nomatch h
/-- The buffers the operations of `p7` write, in order. -/
abbrev p7_W : List (Ref sig .tc) := [main_c_13, main_v55, main_v56, main_c_14, main_v57, main_v58, main_v59, main_v60, main_v61, main_v62, main_v63, main_v64, main_cst_15, main_v65, main_c_16, main_v66, main_v67, main_c_17, main_v68, main_v69, main_v70, main_v71, main_v72]
theorem p7_writesF : (p7 : List (HloOp τ sig (Elt F))).Forall fun op => op.writes ⊆ (p7_W.map (Proc.devRef (τ := τ) .tc)).toFinset :=
  ⟨Cert.RefLib.writes_sub_of_mem (y := main_c_13) rfl (by decide),
    Cert.RefLib.writes_sub_of_mem (y := main_v55) rfl (by decide),
    Cert.RefLib.writes_sub_of_mem (y := main_v56) rfl (by decide),
    Cert.RefLib.writes_sub_of_mem (y := main_c_14) rfl (by decide),
    Cert.RefLib.writes_sub_of_mem (y := main_v57) rfl (by decide),
    Cert.RefLib.writes_sub_of_mem (y := main_v58) rfl (by decide),
    Cert.RefLib.writes_sub_of_mem (y := main_v59) rfl (by decide),
    Cert.RefLib.writes_sub_of_mem (y := main_v60) rfl (by decide),
    Cert.RefLib.writes_sub_of_mem (y := main_v61) rfl (by decide),
    Cert.RefLib.writes_sub_of_mem (y := main_v62) rfl (by decide),
    Cert.RefLib.writes_sub_of_mem (y := main_v63) rfl (by decide),
    Cert.RefLib.writes_sub_of_mem (y := main_v64) rfl (by decide),
    Cert.RefLib.writes_sub_of_mem (y := main_cst_15) rfl (by decide),
    Cert.RefLib.writes_sub_of_mem (y := main_v65) rfl (by decide),
    Cert.RefLib.writes_sub_of_mem (y := main_c_16) rfl (by decide),
    Cert.RefLib.writes_sub_of_mem (y := main_v66) rfl (by decide),
    Cert.RefLib.writes_sub_of_mem (y := main_v67) rfl (by decide),
    Cert.RefLib.writes_sub_of_mem (y := main_c_17) rfl (by decide),
    Cert.RefLib.writes_sub_of_mem (y := main_v68) rfl (by decide),
    Cert.RefLib.writes_sub_of_mem (y := main_v69) rfl (by decide),
    Cert.RefLib.writes_sub_of_mem (y := main_v70) rfl (by decide),
    Cert.RefLib.writes_sub_of_mem (y := main_v71) rfl (by decide),
    Cert.RefLib.writes_sub_of_mem (y := main_v72) rfl (by decide)⟩
theorem p7_writes : Cert.RefLib.WritesIn (p7 : List (HloOp τ sig (Elt F))) p7_W := Cert.RefLib.WritesIn.of_forall p7_writesF

/-- Operations 96 … 99 of @main's 443, called functions' operations inline: the part of the stretch that ends in `main_v76` lying in window 1. -/
abbrev p8 : List (HloOp τ sig (Elt F)) :=
  [ unary main_arg4 main_v73 ((extractStridedSlice S1x4x64 ![2, 0, 0] · slices_S4x4x64_S1x4x64_2_0_0) : (⟨S4x4x64, .f32⟩ : BufTy).Contents (Elt F) → (⟨S1x4x64, .f32⟩ : BufTy).Contents (Elt F)),
    reshape main_v73 main_v74 rfl shapeCasts_S1x4x64_S4x64,
    binary main_v72 main_v74 main_v75 ((fun l r => Host.dotGeneral dot_S4x50000x4_S4x64_S4x50000x64_2_0_01_1_n_n none l r) : (⟨S4x50000x4, .f32⟩ : BufTy).Contents (Elt F) → (⟨S4x64, .f32⟩ : BufTy).Contents (Elt F) → (⟨S4x50000x64, .f32⟩ : BufTy).Contents (Elt F)),
    binary main_v54 main_v75 main_v76 (addf : (⟨S4x50000x64, .f32⟩ : BufTy).Contents (Elt F) → (⟨S4x50000x64, .f32⟩ : BufTy).Contents (Elt F) → (⟨S4x50000x64, .f32⟩ : BufTy).Contents (Elt F)) ]

theorem p8_subF : (p8 : List (HloOp τ sig (Elt F))).Forall fun op => op.bufs ⊆ tcRefs τ sig :=
  ⟨unary_bufs_sub ..,
    reshape_bufs_sub ..,
    binary_bufs_sub ..,
    binary_bufs_sub ..⟩
theorem p8_sub : ∀ op ∈ (p8 : List (HloOp τ sig (Elt F))), op.bufs ⊆ tcRefs τ sig := List.forall_iff_forall_mem.mp p8_subF
theorem p8_fresh : ∀ op ∈ (p8 : List (HloOp τ sig (Elt F))), op.fresh = ∅ := by
  intro op h; (repeat (cases h with | head => rfl | tail _ h => ?_)); exact nomatch h
/-- The buffers the operations of `p8` write, in order. -/
abbrev p8_W : List (Ref sig .tc) := [main_v73, main_v74, main_v75, main_v76]
theorem p8_writesF : (p8 : List (HloOp τ sig (Elt F))).Forall fun op => op.writes ⊆ (p8_W.map (Proc.devRef (τ := τ) .tc)).toFinset :=
  ⟨Cert.RefLib.writes_sub_of_mem (y := main_v73) rfl (by decide),
    Cert.RefLib.writes_sub_of_mem (y := main_v74) rfl (by decide),
    Cert.RefLib.writes_sub_of_mem (y := main_v75) rfl (by decide),
    Cert.RefLib.writes_sub_of_mem (y := main_v76) rfl (by decide)⟩
theorem p8_writes : Cert.RefLib.WritesIn (p8 : List (HloOp τ sig (Elt F))) p8_W := Cert.RefLib.WritesIn.of_forall p8_writesF

/-- Operations 100 … 122 of @main's 443, called functions' operations inline: the part of the stretch that ends in `main_v94` lying in window 1. -/
abbrev p9 : List (HloOp τ sig (Elt F)) :=
  [ nullary main_c_18 (constantI S_ 32 0#32),
    unary main_c_18 main_v77 (broadcastInDim S400000 ![] bcast_S_S400000 : (⟨S_, .i32⟩ : BufTy).Contents (Elt F) → (⟨S400000, .i32⟩ : BufTy).Contents (Elt F)),
    binary main_arg1 main_v77 main_v78 (cmpi .slt : (⟨S400000, .i32⟩ : BufTy).Contents (Elt F) → (⟨S400000, .i32⟩ : BufTy).Contents (Elt F) → (⟨S400000, .i1⟩ : BufTy).Contents (Elt F)),
    nullary main_c_19 (constantI S_ 32 50000#32),
    unary main_c_19 main_v79 (broadcastInDim S400000 ![] bcast_S_S400000 : (⟨S_, .i32⟩ : BufTy).Contents (Elt F) → (⟨S400000, .i32⟩ : BufTy).Contents (Elt F)),
    binary main_arg1 main_v79 main_v80 (addi : (⟨S400000, .i32⟩ : BufTy).Contents (Elt F) → (⟨S400000, .i32⟩ : BufTy).Contents (Elt F) → (⟨S400000, .i32⟩ : BufTy).Contents (Elt F)),
    ternary main_v78 main_v80 main_arg1 main_v81 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v81 main_v82 (broadcastInDim S400000x1 ![0] bcast_S400000_S400000x1_0 : (⟨S400000, .i32⟩ : BufTy).Contents (Elt F) → (⟨S400000x1, .i32⟩ : BufTy).Contents (Elt F)),
    binary main_v72 main_v82 main_v83 ((fun x i => Host.gather gather_S4x50000x4_S400000x1_S4x400000x4_02_1_n_n_1_1_414 x i) : (⟨S4x50000x4, .f32⟩ : BufTy).Contents (Elt F) → (⟨S400000x1, .i32⟩ : BufTy).Contents (Elt F) → (⟨S4x400000x4, .f32⟩ : BufTy).Contents (Elt F)),
    unary main_v29 main_v84 (broadcastInDim S1x400000x1 ![1] bcast_S400000_S1x400000x1_1 : (⟨S400000, .f32⟩ : BufTy).Contents (Elt F) → (⟨S1x400000x1, .f32⟩ : BufTy).Contents (Elt F)),
    unary main_v84 main_v85 (broadcastInDim S4x400000x4 ![0, 1, 2] bcast_S1x400000x1_S4x400000x4_0_1_2 : (⟨S1x400000x1, .f32⟩ : BufTy).Contents (Elt F) → (⟨S4x400000x4, .f32⟩ : BufTy).Contents (Elt F)),
    binary main_v83 main_v85 main_v86 (mulf : (⟨S4x400000x4, .f32⟩ : BufTy).Contents (Elt F) → (⟨S4x400000x4, .f32⟩ : BufTy).Contents (Elt F) → (⟨S4x400000x4, .f32⟩ : BufTy).Contents (Elt F)),
    nullary main_cst_20 (constant S_ .f32 0x00000000#32),
    unary main_cst_20 main_v87 (broadcastInDim S4x50000x4 ![] bcast_S_S4x50000x4 : (⟨S_, .f32⟩ : BufTy).Contents (Elt F) → (⟨S4x50000x4, .f32⟩ : BufTy).Contents (Elt F)),
    nullary main_c_21 (constantI S_ 32 0#32),
    unary main_c_21 main_v88 (broadcastInDim S400000 ![] bcast_S_S400000 : (⟨S_, .i32⟩ : BufTy).Contents (Elt F) → (⟨S400000, .i32⟩ : BufTy).Contents (Elt F)),
    binary main_arg2 main_v88 main_v89 (cmpi .slt : (⟨S400000, .i32⟩ : BufTy).Contents (Elt F) → (⟨S400000, .i32⟩ : BufTy).Contents (Elt F) → (⟨S400000, .i1⟩ : BufTy).Contents (Elt F)),
    nullary main_c_22 (constantI S_ 32 50000#32),
    unary main_c_22 main_v90 (broadcastInDim S400000 ![] bcast_S_S400000 : (⟨S_, .i32⟩ : BufTy).Contents (Elt F) → (⟨S400000, .i32⟩ : BufTy).Contents (Elt F)),
    binary main_arg2 main_v90 main_v91 (addi : (⟨S400000, .i32⟩ : BufTy).Contents (Elt F) → (⟨S400000, .i32⟩ : BufTy).Contents (Elt F) → (⟨S400000, .i32⟩ : BufTy).Contents (Elt F)),
    ternary main_v89 main_v91 main_arg2 main_v92 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v92 main_v93 (broadcastInDim S400000x1 ![0] bcast_S400000_S400000x1_0 : (⟨S400000, .i32⟩ : BufTy).Contents (Elt F) → (⟨S400000x1, .i32⟩ : BufTy).Contents (Elt F)),
    ternary main_v87 main_v93 main_v86 main_v94 ((fun x i u => Host.scatterAdd scatter_S4x50000x4_S400000x1_S4x400000x4_02_1_1_1 x i u) : (⟨S4x50000x4, .f32⟩ : BufTy).Contents (Elt F) → (⟨S400000x1, .i32⟩ : BufTy).Contents (Elt F) → (⟨S4x400000x4, .f32⟩ : BufTy).Contents (Elt F) → (⟨S4x50000x4, .f32⟩ : BufTy).Contents (Elt F)) ]

theorem p9_subF : (p9 : List (HloOp τ sig (Elt F))).Forall fun op => op.bufs ⊆ tcRefs τ sig :=
  ⟨nullary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    unary_bufs_sub ..,
    unary_bufs_sub ..,
    binary_bufs_sub ..,
    nullary_bufs_sub ..,
    unary_bufs_sub ..,
    nullary_bufs_sub ..,
    unary_bufs_sub ..,
    binary_bufs_sub ..,
    nullary_bufs_sub ..,
    unary_bufs_sub ..,
    binary_bufs_sub ..,
    ternary_bufs_sub ..,
    unary_bufs_sub ..,
    ternary_bufs_sub ..⟩
theorem p9_sub : ∀ op ∈ (p9 : List (HloOp τ sig (Elt F))), op.bufs ⊆ tcRefs τ sig := List.forall_iff_forall_mem.mp p9_subF
theorem p9_fresh : ∀ op ∈ (p9 : List (HloOp τ sig (Elt F))), op.fresh = ∅ := by
  intro op h; (repeat (cases h with | head => rfl | tail _ h => ?_)); exact nomatch h
/-- The buffers the operations of `p9` write, in order. -/
abbrev p9_W : List (Ref sig .tc) := [main_c_18, main_v77, main_v78, main_c_19, main_v79, main_v80, main_v81, main_v82, main_v83, main_v84, main_v85, main_v86, main_cst_20, main_v87, main_c_21, main_v88, main_v89, main_c_22, main_v90, main_v91, main_v92, main_v93, main_v94]
theorem p9_writesF : (p9 : List (HloOp τ sig (Elt F))).Forall fun op => op.writes ⊆ (p9_W.map (Proc.devRef (τ := τ) .tc)).toFinset :=
  ⟨Cert.RefLib.writes_sub_of_mem (y := main_c_18) rfl (by decide),
    Cert.RefLib.writes_sub_of_mem (y := main_v77) rfl (by decide),
    Cert.RefLib.writes_sub_of_mem (y := main_v78) rfl (by decide),
    Cert.RefLib.writes_sub_of_mem (y := main_c_19) rfl (by decide),
    Cert.RefLib.writes_sub_of_mem (y := main_v79) rfl (by decide),
    Cert.RefLib.writes_sub_of_mem (y := main_v80) rfl (by decide),
    Cert.RefLib.writes_sub_of_mem (y := main_v81) rfl (by decide),
    Cert.RefLib.writes_sub_of_mem (y := main_v82) rfl (by decide),
    Cert.RefLib.writes_sub_of_mem (y := main_v83) rfl (by decide),
    Cert.RefLib.writes_sub_of_mem (y := main_v84) rfl (by decide),
    Cert.RefLib.writes_sub_of_mem (y := main_v85) rfl (by decide),
    Cert.RefLib.writes_sub_of_mem (y := main_v86) rfl (by decide),
    Cert.RefLib.writes_sub_of_mem (y := main_cst_20) rfl (by decide),
    Cert.RefLib.writes_sub_of_mem (y := main_v87) rfl (by decide),
    Cert.RefLib.writes_sub_of_mem (y := main_c_21) rfl (by decide),
    Cert.RefLib.writes_sub_of_mem (y := main_v88) rfl (by decide),
    Cert.RefLib.writes_sub_of_mem (y := main_v89) rfl (by decide),
    Cert.RefLib.writes_sub_of_mem (y := main_c_22) rfl (by decide),
    Cert.RefLib.writes_sub_of_mem (y := main_v90) rfl (by decide),
    Cert.RefLib.writes_sub_of_mem (y := main_v91) rfl (by decide),
    Cert.RefLib.writes_sub_of_mem (y := main_v92) rfl (by decide),
    Cert.RefLib.writes_sub_of_mem (y := main_v93) rfl (by decide),
    Cert.RefLib.writes_sub_of_mem (y := main_v94) rfl (by decide)⟩
theorem p9_writes : Cert.RefLib.WritesIn (p9 : List (HloOp τ sig (Elt F))) p9_W := Cert.RefLib.WritesIn.of_forall p9_writesF

/-- Window 1's operations, in order. -/
def w1 : List (HloOp τ sig (Elt F)) := p5 ++ p6 ++ p7 ++ p8 ++ p9

set_option maxRecDepth 16384 in
set_option maxHeartbeats 4000000 in
/-- The window is that straight line: each call unfolds to its function's operations over the call's buffers. -/
theorem main_part1_eq (c : Dev nD) : main_part1 (F := F) c = seq w1 := rfl

theorem w1_sub : ∀ op ∈ (w1 : List (HloOp τ sig (Elt F))), op.bufs ⊆ tcRefs τ sig :=
  Cert.RefLib.forall_append (Cert.RefLib.forall_append (Cert.RefLib.forall_append (Cert.RefLib.forall_append (p5_sub) p6_sub) p7_sub) p8_sub) p9_sub
theorem w1_fresh : ∀ op ∈ (w1 : List (HloOp τ sig (Elt F))), op.fresh = ∅ :=
  Cert.RefLib.forall_append (Cert.RefLib.forall_append (Cert.RefLib.forall_append (Cert.RefLib.forall_append (p5_fresh) p6_fresh) p7_fresh) p8_fresh) p9_fresh
/-- The buffers window 1 writes, in order. -/
def w1_W : List (Ref sig .tc) := p5_W ++ p6_W ++ p7_W ++ p8_W ++ p9_W
theorem w1_writes : Cert.RefLib.WritesIn (w1 : List (HloOp τ sig (Elt F))) w1_W :=
  Cert.RefLib.WritesIn.append (Cert.RefLib.WritesIn.append (Cert.RefLib.WritesIn.append (Cert.RefLib.WritesIn.append (p5_writes) p6_writes) p7_writes) p8_writes) p9_writes

end Cert.ReferenceIdeal.RefRun

end
-- ==== Proof.RefRunW2.lean ====
/- Window 2 of the reference program's @main (`main_part2`) as literal lists of its host operations, the operations of
   each called function standing at the call over that call's buffers; each list with the facts the run of a straight
   line asks of it (its buffers are TensorCore references, no operation leaves a buffer undetermined) and the list of
   buffers it writes; and the window is the straight line of these lists in order. -/
import proofs.«159603_j71347996721325_2_alg».proof.Proof.Gen.ReferenceIdeal
import Idealize.ShloMosaic.Lib.StableHlo.Run
import proofs.«159603_j71347996721325_2_alg».proof.Proof.RefLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 123 … 129 of @main's 443, called functions' operations inline: the part of the stretch that ends in `main_v101` lying in window 2. -/
abbrev p10 : List (HloOp τ sig (Elt F)) :=
  [ unary main_arg4 main_v95 ((extractStridedSlice S1x4x64 ![3, 0, 0] · slices_S4x4x64_S1x4x64_3_0_0) : (⟨S4x4x64, .f32⟩ : BufTy).Contents (Elt F) → (⟨S1x4x64, .f32⟩ : BufTy).Contents (Elt F)),
    reshape main_v95 main_v96 rfl shapeCasts_S1x4x64_S4x64,
    binary main_v94 main_v96 main_v97 ((fun l r => Host.dotGeneral dot_S4x50000x4_S4x64_S4x50000x64_2_0_01_1_n_n none l r) : (⟨S4x50000x4, .f32⟩ : BufTy).Contents (Elt F) → (⟨S4x64, .f32⟩ : BufTy).Contents (Elt F) → (⟨S4x50000x64, .f32⟩ : BufTy).Contents (Elt F)),
    binary main_v76 main_v97 main_v98 (addf : (⟨S4x50000x64, .f32⟩ : BufTy).Contents (Elt F) → (⟨S4x50000x64, .f32⟩ : BufTy).Contents (Elt F) → (⟨S4x50000x64, .f32⟩ : BufTy).Contents (Elt F)),
    unary main_arg5 main_v99 (broadcastInDim S1x1x64 ![2] bcast_S64_S1x1x64_2 : (⟨S64, .f32⟩ : BufTy).Contents (Elt F) → (⟨S1x1x64, .f32⟩ : BufTy).Contents (Elt F)),
    unary main_v99 main_v100 (broadcastInDim S4x50000x64 ![0, 1, 2] bcast_S1x1x64_S4x50000x64_0_1_2 : (⟨S1x1x64, .f32⟩ : BufTy).Contents (Elt F) → (⟨S4x50000x64, .f32⟩ : BufTy).Contents (Elt F)),
    binary main_v98 main_v100 main_v101 (addf : (⟨S4x50000x64, .f32⟩ : BufTy).Contents (Elt F) → (⟨S4x50000x64, .f32⟩ : BufTy).Contents (Elt F) → (⟨S4x50000x64, .f32⟩ : BufTy).Contents (Elt F)) ]

theorem p10_subF : (p10 : List (HloOp τ sig (Elt F))).Forall fun op => op.bufs ⊆ tcRefs τ sig :=
  ⟨unary_bufs_sub ..,
    reshape_bufs_sub ..,
    binary_bufs_sub ..,
    binary_bufs_sub ..,
    unary_bufs_sub ..,
    unary_bufs_sub ..,
    binary_bufs_sub ..⟩
theorem p10_sub : ∀ op ∈ (p10 : List (HloOp τ sig (Elt F))), op.bufs ⊆ tcRefs τ sig := List.forall_iff_forall_mem.mp p10_subF
theorem p10_fresh : ∀ op ∈ (p10 : List (HloOp τ sig (Elt F))), op.fresh = ∅ := by
  intro op h; (repeat (cases h with | head => rfl | tail _ h => ?_)); exact nomatch h
/-- The buffers the operations of `p10` write, in order. -/
abbrev p10_W : List (Ref sig .tc) := [main_v95, main_v96, main_v97, main_v98, main_v99, main_v100, main_v101]
theorem p10_writesF : (p10 : List (HloOp τ sig (Elt F))).Forall fun op => op.writes ⊆ (p10_W.map (Proc.devRef (τ := τ) .tc)).toFinset :=
  ⟨Cert.RefLib.writes_sub_of_mem (y := main_v95) rfl (by decide),
    Cert.RefLib.writes_sub_of_mem (y := main_v96) rfl (by decide),
    Cert.RefLib.writes_sub_of_mem (y := main_v97) rfl (by decide),
    Cert.RefLib.writes_sub_of_mem (y := main_v98) rfl (by decide),
    Cert.RefLib.writes_sub_of_mem (y := main_v99) rfl (by decide),
    Cert.RefLib.writes_sub_of_mem (y := main_v100) rfl (by decide),
    Cert.RefLib.writes_sub_of_mem (y := main_v101) rfl (by decide)⟩
theorem p10_writes : Cert.RefLib.WritesIn (p10 : List (HloOp τ sig (Elt F))) p10_W := Cert.RefLib.WritesIn.of_forall p10_writesF

/-- Operations 130 … 135 of @main's 443, called functions' operations inline: the part of the stretch that ends in `main_v105` lying in window 2. -/
abbrev p11 : List (HloOp τ sig (Elt F)) :=
  [ nullary main_cst_23 (constant S_ .f32 0x00000000#32),
    binary main_v101 main_cst_23 main_v102 ((fun x v => Host.reduceAdd x v reducesTo_S4x50000x64_S50000_d0_2 h_S_) : (⟨S4x50000x64, .f32⟩ : BufTy).Contents (Elt F) → (⟨S_, .f32⟩ : BufTy).Contents (Elt F) → (⟨S50000, .f32⟩ : BufTy).Contents (Elt F)),
    unary main_v102 main_v103 (broadcastInDim S1x50000x1 ![1] bcast_S50000_S1x50000x1_1 : (⟨S50000, .f32⟩ : BufTy).Contents (Elt F) → (⟨S1x50000x1, .f32⟩ : BufTy).Contents (Elt F)),
    nullary main_cst_24 (constant S_ .f32 0x43800000#32),
    unary main_cst_24 main_v104 (broadcastInDim S1x50000x1 ![] bcast_S_S1x50000x1 : (⟨S_, .f32⟩ : BufTy).Contents (Elt F) → (⟨S1x50000x1, .f32⟩ : BufTy).Contents (Elt F)),
    binary main_v103 main_v104 main_v105 (Host.divf : (⟨S1x50000x1, .f32⟩ : BufTy).Contents (Elt F) → (⟨S1x50000x1, .f32⟩ : BufTy).Contents (Elt F) → (⟨S1x50000x1, .f32⟩ : BufTy).Contents (Elt F)) ]

theorem p11_subF : (p11 : List (HloOp τ sig (Elt F))).Forall fun op => op.bufs ⊆ tcRefs τ sig :=
  ⟨nullary_bufs_sub ..,
    binary_bufs_sub ..,
    unary_bufs_sub ..,
    nullary_bufs_sub ..,
    unary_bufs_sub ..,
    binary_bufs_sub ..⟩
theorem p11_sub : ∀ op ∈ (p11 : List (HloOp τ sig (Elt F))), op.bufs ⊆ tcRefs τ sig := List.forall_iff_forall_mem.mp p11_subF
theorem p11_fresh : ∀ op ∈ (p11 : List (HloOp τ sig (Elt F))), op.fresh = ∅ := by
  intro op h; (repeat (cases h with | head => rfl | tail _ h => ?_)); exact nomatch h
/-- The buffers the operations of `p11` write, in order. -/
abbrev p11_W : List (Ref sig .tc) := [main_cst_23, main_v102, main_v103, main_cst_24, main_v104, main_v105]
theorem p11_writesF : (p11 : List (HloOp τ sig (Elt F))).Forall fun op => op.writes ⊆ (p11_W.map (Proc.devRef (τ := τ) .tc)).toFinset :=
  ⟨Cert.RefLib.writes_sub_of_mem (y := main_cst_23) rfl (by decide),
    Cert.RefLib.writes_sub_of_mem (y := main_v102) rfl (by decide),
    Cert.RefLib.writes_sub_of_mem (y := main_v103) rfl (by decide),
    Cert.RefLib.writes_sub_of_mem (y := main_cst_24) rfl (by decide),
    Cert.RefLib.writes_sub_of_mem (y := main_v104) rfl (by decide),
    Cert.RefLib.writes_sub_of_mem (y := main_v105) rfl (by decide)⟩
theorem p11_writes : Cert.RefLib.WritesIn (p11 : List (HloOp τ sig (Elt F))) p11_W := Cert.RefLib.WritesIn.of_forall p11_writesF

/-- Operations 136 … 159 of @main's 443, called functions' operations inline: the part of the stretch that ends in `main_v106` lying in window 2. -/
abbrev p12 : List (HloOp τ sig (Elt F)) :=
  [ nullary main_c_25 (constantI S_ 32 0#32),
    TRef.nullary main_call1.cst (constant S_ .f32 0x00000000#32),
    TRef.binary (.of main_v101 : TRef sig ⟨S4x50000x64, .f32⟩) main_call1.cst main_call1.v0 (fun x v => Host.reduceAdd x v reducesTo_S4x50000x64_S50000_d0_2 h_S_),
    TRef.unary main_call1.v0 main_call1.v1 (broadcastInDim S1x50000x1 ![1] bcast_S50000_S1x50000x1_1),
    TRef.nullary main_call1.cst_0 (constant S_ .f32 0x43800000#32),
    TRef.unary main_call1.cst_0 main_call1.v2 (broadcastInDim S1x50000x1 ![] bcast_S_S1x50000x1),
    TRef.binary main_call1.v1 main_call1.v2 main_call1.v3 Host.divf,
    TRef.unary main_call1.v3 main_call1.v4 (broadcastInDim S4x50000x64 ![0, 1, 2] bcast_S1x50000x1_S4x50000x64_0_1_2),
    TRef.binary (.of main_v101 : TRef sig ⟨S4x50000x64, .f32⟩) main_call1.v4 main_call1.v5 subf,
    TRef.binary main_call1.v5 main_call1.v5 main_call1.v6 mulf,
    TRef.unary (.of main_c_25 : TRef sig ⟨S_, .i32⟩) main_call1.v7 (sitofp .f32),
    TRef.nullary main_call1.cst_1 (constant S_ .f32 0x43800000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S4x50000x64_S50000_d0_2 h_S_),
    TRef.unary main_call1.v9 main_call1.v10 (broadcastInDim S1x50000x1 ![1] bcast_S50000_S1x50000x1_1),
    TRef.unary main_call1.v8 main_call1.v11 (broadcastInDim S1x50000x1 ![] bcast_S_S1x50000x1),
    TRef.binary main_call1.v10 main_call1.v11 main_call1.v12 Host.divf,
    TRef.nullary main_call1.cst_3 (constant S_ .f32 0x00000000#32),
    TRef.binary main_call1.v8 main_call1.cst_3 main_call1.v13 (cmpf .ogt),
    TRef.nullary main_call1.cst_4 (constant S_ .f32 0x7FC00000#32),
    TRef.unary main_call1.cst_4 main_call1.call0.v0 id,
    TRef.unary main_call1.call0.v0 main_call1.call0.v1 (broadcastInDim S1x50000x1 ![] bcast_S_S1x50000x1),
    TRef.ternary main_call1.v13 main_call1.v12 main_call1.call0.v1 main_call1.call0.v2 (fun p a b => select (broadcastInDim S1x50000x1 ![] bcast_S_S1x50000x1 p) a b) ]

theorem p12_subF : (p12 : List (HloOp τ sig (Elt F))).Forall fun op => op.bufs ⊆ tcRefs τ sig :=
  ⟨nullary_bufs_sub ..,
    nullary_bufs_sub ..,
    binary_bufs_sub ..,
    unary_bufs_sub ..,
    nullary_bufs_sub ..,
    unary_bufs_sub ..,
    binary_bufs_sub ..,
    unary_bufs_sub ..,
    binary_bufs_sub ..,
    binary_bufs_sub ..,
    unary_bufs_sub ..,
    nullary_bufs_sub ..,
    binary_bufs_sub ..,
    nullary_bufs_sub ..,
    binary_bufs_sub ..,
    unary_bufs_sub ..,
    unary_bufs_sub ..,
    binary_bufs_sub ..,
    nullary_bufs_sub ..,
    binary_bufs_sub ..,
    nullary_bufs_sub ..,
    unary_bufs_sub ..,
    unary_bufs_sub ..,
    ternary_bufs_sub ..⟩
theorem p12_sub : ∀ op ∈ (p12 : List (HloOp τ sig (Elt F))), op.bufs ⊆ tcRefs τ sig := List.forall_iff_forall_mem.mp p12_subF
theorem p12_fresh : ∀ op ∈ (p12 : List (HloOp τ sig (Elt F))), op.fresh = ∅ := by
  intro op h; (repeat (cases h with | head => rfl | tail _ h => ?_)); exact nomatch h
/-- The buffers the operations of `p12` write, in order. -/
abbrev p12_W : List (Ref sig .tc) := [main_c_25, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_v12, main_call1_cst_3, main_call1_v13, main_call1_cst_4, main_call1_call0_v0, main_call1_call0_v1, main_v106]
theorem p12_writesF : (p12 : List (HloOp τ sig (Elt F))).Forall fun op => op.writes ⊆ (p12_W.map (Proc.devRef (τ := τ) .tc)).toFinset :=
  ⟨Cert.RefLib.writes_sub_of_mem (y := main_c_25) rfl (by decide),
    Cert.RefLib.writes_sub_of_mem (y := main_call1_cst) rfl (by decide),
    Cert.RefLib.writes_sub_of_mem (y := main_call1_v0) rfl (by decide),
    Cert.RefLib.writes_sub_of_mem (y := main_call1_v1) rfl (by decide),
    Cert.RefLib.writes_sub_of_mem (y := main_call1_cst_0) rfl (by decide),
    Cert.RefLib.writes_sub_of_mem (y := main_call1_v2) rfl (by decide),
    Cert.RefLib.writes_sub_of_mem (y := main_call1_v3) rfl (by decide),
    Cert.RefLib.writes_sub_of_mem (y := main_call1_v4) rfl (by decide),
    Cert.RefLib.writes_sub_of_mem (y := main_call1_v5) rfl (by decide),
    Cert.RefLib.writes_sub_of_mem (y := main_call1_v6) rfl (by decide),
    Cert.RefLib.writes_sub_of_mem (y := main_call1_v7) rfl (by decide),
    Cert.RefLib.writes_sub_of_mem (y := main_call1_cst_1) rfl (by decide),
    Cert.RefLib.writes_sub_of_mem (y := main_call1_v8) rfl (by decide),
    Cert.RefLib.writes_sub_of_mem (y := main_call1_cst_2) rfl (by decide),
    Cert.RefLib.writes_sub_of_mem (y := main_call1_v9) rfl (by decide),
    Cert.RefLib.writes_sub_of_mem (y := main_call1_v10) rfl (by decide),
    Cert.RefLib.writes_sub_of_mem (y := main_call1_v11) rfl (by decide),
    Cert.RefLib.writes_sub_of_mem (y := main_call1_v12) rfl (by decide),
    Cert.RefLib.writes_sub_of_mem (y := main_call1_cst_3) rfl (by decide),
    Cert.RefLib.writes_sub_of_mem (y := main_call1_v13) rfl (by decide),
    Cert.RefLib.writes_sub_of_mem (y := main_call1_cst_4) rfl (by decide),
    Cert.RefLib.writes_sub_of_mem (y := main_call1_call0_v0) rfl (by decide),
    Cert.RefLib.writes_sub_of_mem (y := main_call1_call0_v1) rfl (by decide),
    Cert.RefLib.writes_sub_of_mem (y := main_v106) rfl (by decide)⟩
theorem p12_writes : Cert.RefLib.WritesIn (p12 : List (HloOp τ sig (Elt F))) p12_W := Cert.RefLib.WritesIn.of_forall p12_writesF

/-- Operations 160 … 173 of @main's 443, called functions' operations inline: the part of the stretch that ends in `main_v119` lying in window 2. -/
abbrev p13 : List (HloOp τ sig (Elt F)) :=
  [ unary main_arg10 main_v107 (broadcastInDim S1x50000x1 ![1] bcast_S50000_S1x50000x1_1 : (⟨S50000, .f32⟩ : BufTy).Contents (Elt F) → (⟨S1x50000x1, .f32⟩ : BufTy).Contents (Elt F)),
    unary main_v105 main_v108 (broadcastInDim S4x50000x64 ![0, 1, 2] bcast_S1x50000x1_S4x50000x64_0_1_2 : (⟨S1x50000x1, .f32⟩ : BufTy).Contents (Elt F) → (⟨S4x50000x64, .f32⟩ : BufTy).Contents (Elt F)),
    binary main_v101 main_v108 main_v109 (subf : (⟨S4x50000x64, .f32⟩ : BufTy).Contents (Elt F) → (⟨S4x50000x64, .f32⟩ : BufTy).Contents (Elt F) → (⟨S4x50000x64, .f32⟩ : BufTy).Contents (Elt F)),
    unary main_v107 main_v110 (broadcastInDim S4x50000x64 ![0, 1, 2] bcast_S1x50000x1_S4x50000x64_0_1_2 : (⟨S1x50000x1, .f32⟩ : BufTy).Contents (Elt F) → (⟨S4x50000x64, .f32⟩ : BufTy).Contents (Elt F)),
    binary main_v110 main_v109 main_v111 (mulf : (⟨S4x50000x64, .f32⟩ : BufTy).Contents (Elt F) → (⟨S4x50000x64, .f32⟩ : BufTy).Contents (Elt F) → (⟨S4x50000x64, .f32⟩ : BufTy).Contents (Elt F)),
    nullary main_cst_26 (constant S_ .f32 0x3727C5AC#32),
    unary main_cst_26 main_v112 (broadcastInDim S1x50000x1 ![] bcast_S_S1x50000x1 : (⟨S_, .f32⟩ : BufTy).Contents (Elt F) → (⟨S1x50000x1, .f32⟩ : BufTy).Contents (Elt F)),
    binary main_v106 main_v112 main_v113 (addf : (⟨S1x50000x1, .f32⟩ : BufTy).Contents (Elt F) → (⟨S1x50000x1, .f32⟩ : BufTy).Contents (Elt F) → (⟨S1x50000x1, .f32⟩ : BufTy).Contents (Elt F)),
    unary main_v113 main_v114 (Host.rsqrt : (⟨S1x50000x1, .f32⟩ : BufTy).Contents (Elt F) → (⟨S1x50000x1, .f32⟩ : BufTy).Contents (Elt F)),
    unary main_v114 main_v115 (broadcastInDim S4x50000x64 ![0, 1, 2] bcast_S1x50000x1_S4x50000x64_0_1_2 : (⟨S1x50000x1, .f32⟩ : BufTy).Contents (Elt F) → (⟨S4x50000x64, .f32⟩ : BufTy).Contents (Elt F)),
    binary main_v111 main_v115 main_v116 (mulf : (⟨S4x50000x64, .f32⟩ : BufTy).Contents (Elt F) → (⟨S4x50000x64, .f32⟩ : BufTy).Contents (Elt F) → (⟨S4x50000x64, .f32⟩ : BufTy).Contents (Elt F)),
    unary main_arg11 main_v117 (broadcastInDim S1x50000x1 ![1] bcast_S50000_S1x50000x1_1 : (⟨S50000, .f32⟩ : BufTy).Contents (Elt F) → (⟨S1x50000x1, .f32⟩ : BufTy).Contents (Elt F)),
    unary main_v117 main_v118 (broadcastInDim S4x50000x64 ![0, 1, 2] bcast_S1x50000x1_S4x50000x64_0_1_2 : (⟨S1x50000x1, .f32⟩ : BufTy).Contents (Elt F) → (⟨S4x50000x64, .f32⟩ : BufTy).Contents (Elt F)),
    binary main_v116 main_v118 main_v119 (addf : (⟨S4x50000x64, .f32⟩ : BufTy).Contents (Elt F) → (⟨S4x50000x64, .f32⟩ : BufTy).Contents (Elt F) → (⟨S4x50000x64, .f32⟩ : BufTy).Contents (Elt F)) ]

theorem p13_subF : (p13 : List (HloOp τ sig (Elt F))).Forall fun op => op.bufs ⊆ tcRefs τ sig :=
  ⟨unary_bufs_sub ..,
    unary_bufs_sub ..,
    binary_bufs_sub ..,
    unary_bufs_sub ..,
    binary_bufs_sub ..,
    nullary_bufs_sub ..,
    unary_bufs_sub ..,
    binary_bufs_sub ..,
    unary_bufs_sub ..,
    unary_bufs_sub ..,
    binary_bufs_sub ..,
    unary_bufs_sub ..,
    unary_bufs_sub ..,
    binary_bufs_sub ..⟩
theorem p13_sub : ∀ op ∈ (p13 : List (HloOp τ sig (Elt F))), op.bufs ⊆ tcRefs τ sig := List.forall_iff_forall_mem.mp p13_subF
theorem p13_fresh : ∀ op ∈ (p13 : List (HloOp τ sig (Elt F))), op.fresh = ∅ := by
  intro op h; (repeat (cases h with | head => rfl | tail _ h => ?_)); exact nomatch h
/-- The buffers the operations of `p13` write, in order. -/
abbrev p13_W : List (Ref sig .tc) := [main_v107, main_v108, main_v109, main_v110, main_v111, main_cst_26, main_v112, main_v113, main_v114, main_v115, main_v116, main_v117, main_v118, main_v119]
theorem p13_writesF : (p13 : List (HloOp τ sig (Elt F))).Forall fun op => op.writes ⊆ (p13_W.map (Proc.devRef (τ := τ) .tc)).toFinset :=
  ⟨Cert.RefLib.writes_sub_of_mem (y := main_v107) rfl (by decide),
    Cert.RefLib.writes_sub_of_mem (y := main_v108) rfl (by decide),
    Cert.RefLib.writes_sub_of_mem (y := main_v109) rfl (by decide),
    Cert.RefLib.writes_sub_of_mem (y := main_v110) rfl (by decide),
    Cert.RefLib.writes_sub_of_mem (y := main_v111) rfl (by decide),
    Cert.RefLib.writes_sub_of_mem (y := main_cst_26) rfl (by decide),
    Cert.RefLib.writes_sub_of_mem (y := main_v112) rfl (by decide),
    Cert.RefLib.writes_sub_of_mem (y := main_v113) rfl (by decide),
    Cert.RefLib.writes_sub_of_mem (y := main_v114) rfl (by decide),
    Cert.RefLib.writes_sub_of_mem (y := main_v115) rfl (by decide),
    Cert.RefLib.writes_sub_of_mem (y := main_v116) rfl (by decide),
    Cert.RefLib.writes_sub_of_mem (y := main_v117) rfl (by decide),
    Cert.RefLib.writes_sub_of_mem (y := main_v118) rfl (by decide),
    Cert.RefLib.writes_sub_of_mem (y := main_v119) rfl (by decide)⟩
theorem p13_writes : Cert.RefLib.WritesIn (p13 : List (HloOp τ sig (Elt F))) p13_W := Cert.RefLib.WritesIn.of_forall p13_writesF

/-- Operations 174 … 181 of @main's 443, called functions' operations inline: the part of the stretch that ends in `main_v120` lying in window 2. -/
abbrev p14 : List (HloOp τ sig (Elt F)) :=
  [ nullary main_cst_27 (constant S_ .f32 0x3C23D70A#32),
    TRef.nullary main_call2.cst (constant S_ .f32 0x00000000#32),
    TRef.unary main_call2.cst main_call2.v0 (broadcastInDim S4x50000x64 ![] bcast_S_S4x50000x64),
    TRef.binary (.of main_v119 : TRef sig ⟨S4x50000x64, .f32⟩) main_call2.v0 main_call2.v1 (cmpf .oge),
    TRef.unary (.of main_cst_27 : TRef sig ⟨S_, .f32⟩) main_call2.v2 id,
    TRef.unary main_call2.v2 main_call2.v3 (broadcastInDim S4x50000x64 ![] bcast_S_S4x50000x64),
    TRef.binary main_call2.v3 (.of main_v119 : TRef sig ⟨S4x50000x64, .f32⟩) main_call2.v4 mulf,
    TRef.ternary main_call2.v1 (.of main_v119 : TRef sig ⟨S4x50000x64, .f32⟩) main_call2.v4 main_call2.call0.v0 select ]

theorem p14_subF : (p14 : List (HloOp τ sig (Elt F))).Forall fun op => op.bufs ⊆ tcRefs τ sig :=
  ⟨nullary_bufs_sub ..,
    nullary_bufs_sub ..,
    unary_bufs_sub ..,
    binary_bufs_sub ..,
    unary_bufs_sub ..,
    unary_bufs_sub ..,
    binary_bufs_sub ..,
    ternary_bufs_sub ..⟩
theorem p14_sub : ∀ op ∈ (p14 : List (HloOp τ sig (Elt F))), op.bufs ⊆ tcRefs τ sig := List.forall_iff_forall_mem.mp p14_subF
theorem p14_fresh : ∀ op ∈ (p14 : List (HloOp τ sig (Elt F))), op.fresh = ∅ := by
  intro op h; (repeat (cases h with | head => rfl | tail _ h => ?_)); exact nomatch h
/-- The buffers the operations of `p14` write, in order. -/
abbrev p14_W : List (Ref sig .tc) := [main_cst_27, main_call2_cst, main_call2_v0, main_call2_v1, main_call2_v2, main_call2_v3, main_call2_v4, main_v120]
theorem p14_writesF : (p14 : List (HloOp τ sig (Elt F))).Forall fun op => op.writes ⊆ (p14_W.map (Proc.devRef (τ := τ) .tc)).toFinset :=
  ⟨Cert.RefLib.writes_sub_of_mem (y := main_cst_27) rfl (by decide),
    Cert.RefLib.writes_sub_of_mem (y := main_call2_cst) rfl (by decide),
    Cert.RefLib.writes_sub_of_mem (y := main_call2_v0) rfl (by decide),
    Cert.RefLib.writes_sub_of_mem (y := main_call2_v1) rfl (by decide),
    Cert.RefLib.writes_sub_of_mem (y := main_call2_v2) rfl (by decide),
    Cert.RefLib.writes_sub_of_mem (y := main_call2_v3) rfl (by decide),
    Cert.RefLib.writes_sub_of_mem (y := main_call2_v4) rfl (by decide),
    Cert.RefLib.writes_sub_of_mem (y := main_v120) rfl (by decide)⟩
theorem p14_writes : Cert.RefLib.WritesIn (p14 : List (HloOp τ sig (Elt F))) p14_W := Cert.RefLib.WritesIn.of_forall p14_writesF

/-- Operations 182 … 184 of @main's 443, called functions' operations inline: the part of the stretch that ends in `main_v123` lying in window 2. -/
abbrev p15 : List (HloOp τ sig (Elt F)) :=
  [ unary main_arg6 main_v121 ((extractStridedSlice S1x64x64 ![0, 0, 0] · slices_S4x64x64_S1x64x64_0_0_0) : (⟨S4x64x64, .f32⟩ : BufTy).Contents (Elt F) → (⟨S1x64x64, .f32⟩ : BufTy).Contents (Elt F)),
    reshape main_v121 main_v122 rfl shapeCasts_S1x64x64_S64x64,
    binary main_v120 main_v122 main_v123 ((fun l r => Host.dotGeneral dot_S4x50000x64_S64x64_S4x50000x64_2_0_01_1_n_n none l r) : (⟨S4x50000x64, .f32⟩ : BufTy).Contents (Elt F) → (⟨S64x64, .f32⟩ : BufTy).Contents (Elt F) → (⟨S4x50000x64, .f32⟩ : BufTy).Contents (Elt F)) ]

theorem p15_subF : (p15 : List (HloOp τ sig (Elt F))).Forall fun op => op.bufs ⊆ tcRefs τ sig :=
  ⟨unary_bufs_sub ..,
    reshape_bufs_sub ..,
    binary_bufs_sub ..⟩
theorem p15_sub : ∀ op ∈ (p15 : List (HloOp τ sig (Elt F))), op.bufs ⊆ tcRefs τ sig := List.forall_iff_forall_mem.mp p15_subF
theorem p15_fresh : ∀ op ∈ (p15 : List (HloOp τ sig (Elt F))), op.fresh = ∅ := by
  intro op h; (repeat (cases h with | head => rfl | tail _ h => ?_)); exact nomatch h
/-- The buffers the operations of `p15` write, in order. -/
abbrev p15_W : List (Ref sig .tc) := [main_v121, main_v122, main_v123]
theorem p15_writesF : (p15 : List (HloOp τ sig (Elt F))).Forall fun op => op.writes ⊆ (p15_W.map (Proc.devRef (τ := τ) .tc)).toFinset :=
  ⟨Cert.RefLib.writes_sub_of_mem (y := main_v121) rfl (by decide),
    Cert.RefLib.writes_sub_of_mem (y := main_v122) rfl (by decide),
    Cert.RefLib.writes_sub_of_mem (y := main_v123) rfl (by decide)⟩
theorem p15_writes : Cert.RefLib.WritesIn (p15 : List (HloOp τ sig (Elt F))) p15_W := Cert.RefLib.WritesIn.of_forall p15_writesF

/-- Operations 185 … 207 of @main's 443, called functions' operations inline: the part of the stretch that ends in `main_v141` lying in window 2. -/
abbrev p16 : List (HloOp τ sig (Elt F)) :=
  [ nullary main_c_28 (constantI S_ 32 0#32),
    unary main_c_28 main_v124 (broadcastInDim S400000 ![] bcast_S_S400000 : (⟨S_, .i32⟩ : BufTy).Contents (Elt F) → (⟨S400000, .i32⟩ : BufTy).Contents (Elt F)),
    binary main_arg1 main_v124 main_v125 (cmpi .slt : (⟨S400000, .i32⟩ : BufTy).Contents (Elt F) → (⟨S400000, .i32⟩ : BufTy).Contents (Elt F) → (⟨S400000, .i1⟩ : BufTy).Contents (Elt F)),
    nullary main_c_29 (constantI S_ 32 50000#32),
    unary main_c_29 main_v126 (broadcastInDim S400000 ![] bcast_S_S400000 : (⟨S_, .i32⟩ : BufTy).Contents (Elt F) → (⟨S400000, .i32⟩ : BufTy).Contents (Elt F)),
    binary main_arg1 main_v126 main_v127 (addi : (⟨S400000, .i32⟩ : BufTy).Contents (Elt F) → (⟨S400000, .i32⟩ : BufTy).Contents (Elt F) → (⟨S400000, .i32⟩ : BufTy).Contents (Elt F)),
    ternary main_v125 main_v127 main_arg1 main_v128 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v128 main_v129 (broadcastInDim S400000x1 ![0] bcast_S400000_S400000x1_0 : (⟨S400000, .i32⟩ : BufTy).Contents (Elt F) → (⟨S400000x1, .i32⟩ : BufTy).Contents (Elt F)),
    binary main_v120 main_v129 main_v130 ((fun x i => Host.gather gather_S4x50000x64_S400000x1_S4x400000x64_02_1_n_n_1_1_4164 x i) : (⟨S4x50000x64, .f32⟩ : BufTy).Contents (Elt F) → (⟨S400000x1, .i32⟩ : BufTy).Contents (Elt F) → (⟨S4x400000x64, .f32⟩ : BufTy).Contents (Elt F)),
    unary main_v29 main_v131 (broadcastInDim S1x400000x1 ![1] bcast_S400000_S1x400000x1_1 : (⟨S400000, .f32⟩ : BufTy).Contents (Elt F) → (⟨S1x400000x1, .f32⟩ : BufTy).Contents (Elt F)),
    unary main_v131 main_v132 (broadcastInDim S4x400000x64 ![0, 1, 2] bcast_S1x400000x1_S4x400000x64_0_1_2 : (⟨S1x400000x1, .f32⟩ : BufTy).Contents (Elt F) → (⟨S4x400000x64, .f32⟩ : BufTy).Contents (Elt F)),
    binary main_v130 main_v132 main_v133 (mulf : (⟨S4x400000x64, .f32⟩ : BufTy).Contents (Elt F) → (⟨S4x400000x64, .f32⟩ : BufTy).Contents (Elt F) → (⟨S4x400000x64, .f32⟩ : BufTy).Contents (Elt F)),
    nullary main_cst_30 (constant S_ .f32 0x00000000#32),
    unary main_cst_30 main_v134 (broadcastInDim S4x50000x64 ![] bcast_S_S4x50000x64 : (⟨S_, .f32⟩ : BufTy).Contents (Elt F) → (⟨S4x50000x64, .f32⟩ : BufTy).Contents (Elt F)),
    nullary main_c_31 (constantI S_ 32 0#32),
    unary main_c_31 main_v135 (broadcastInDim S400000 ![] bcast_S_S400000 : (⟨S_, .i32⟩ : BufTy).Contents (Elt F) → (⟨S400000, .i32⟩ : BufTy).Contents (Elt F)),
    binary main_arg2 main_v135 main_v136 (cmpi .slt : (⟨S400000, .i32⟩ : BufTy).Contents (Elt F) → (⟨S400000, .i32⟩ : BufTy).Contents (Elt F) → (⟨S400000, .i1⟩ : BufTy).Contents (Elt F)),
    nullary main_c_32 (constantI S_ 32 50000#32),
    unary main_c_32 main_v137 (broadcastInDim S400000 ![] bcast_S_S400000 : (⟨S_, .i32⟩ : BufTy).Contents (Elt F) → (⟨S400000, .i32⟩ : BufTy).Contents (Elt F)),
    binary main_arg2 main_v137 main_v138 (addi : (⟨S400000, .i32⟩ : BufTy).Contents (Elt F) → (⟨S400000, .i32⟩ : BufTy).Contents (Elt F) → (⟨S400000, .i32⟩ : BufTy).Contents (Elt F)),
    ternary main_v136 main_v138 main_arg2 main_v139 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v139 main_v140 (broadcastInDim S400000x1 ![0] bcast_S400000_S400000x1_0 : (⟨S400000, .i32⟩ : BufTy).Contents (Elt F) → (⟨S400000x1, .i32⟩ : BufTy).Contents (Elt F)),
    ternary main_v134 main_v140 main_v133 main_v141 ((fun x i u => Host.scatterAdd scatter_S4x50000x64_S400000x1_S4x400000x64_02_1_1_1 x i u) : (⟨S4x50000x64, .f32⟩ : BufTy).Contents (Elt F) → (⟨S400000x1, .i32⟩ : BufTy).Contents (Elt F) → (⟨S4x400000x64, .f32⟩ : BufTy).Contents (Elt F) → (⟨S4x50000x64, .f32⟩ : BufTy).Contents (Elt F)) ]

theorem p16_subF : (p16 : List (HloOp τ sig (Elt F))).Forall fun op => op.bufs ⊆ tcRefs τ sig :=
  ⟨nullary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    unary_bufs_sub ..,
    unary_bufs_sub ..,
    binary_bufs_sub ..,
    nullary_bufs_sub ..,
    unary_bufs_sub ..,
    nullary_bufs_sub ..,
    unary_bufs_sub ..,
    binary_bufs_sub ..,
    nullary_bufs_sub ..,
    unary_bufs_sub ..,
    binary_bufs_sub ..,
    ternary_bufs_sub ..,
    unary_bufs_sub ..,
    ternary_bufs_sub ..⟩
theorem p16_sub : ∀ op ∈ (p16 : List (HloOp τ sig (Elt F))), op.bufs ⊆ tcRefs τ sig := List.forall_iff_forall_mem.mp p16_subF
theorem p16_fresh : ∀ op ∈ (p16 : List (HloOp τ sig (Elt F))), op.fresh = ∅ := by
  intro op h; (repeat (cases h with | head => rfl | tail _ h => ?_)); exact nomatch h
/-- The buffers the operations of `p16` write, in order. -/
abbrev p16_W : List (Ref sig .tc) := [main_c_28, main_v124, main_v125, main_c_29, main_v126, main_v127, main_v128, main_v129, main_v130, main_v131, main_v132, main_v133, main_cst_30, main_v134, main_c_31, main_v135, main_v136, main_c_32, main_v137, main_v138, main_v139, main_v140, main_v141]
theorem p16_writesF : (p16 : List (HloOp τ sig (Elt F))).Forall fun op => op.writes ⊆ (p16_W.map (Proc.devRef (τ := τ) .tc)).toFinset :=
  ⟨Cert.RefLib.writes_sub_of_mem (y := main_c_28) rfl (by decide),
    Cert.RefLib.writes_sub_of_mem (y := main_v124) rfl (by decide),
    Cert.RefLib.writes_sub_of_mem (y := main_v125) rfl (by decide),
    Cert.RefLib.writes_sub_of_mem (y := main_c_29) rfl (by decide),
    Cert.RefLib.writes_sub_of_mem (y := main_v126) rfl (by decide),
    Cert.RefLib.writes_sub_of_mem (y := main_v127) rfl (by decide),
    Cert.RefLib.writes_sub_of_mem (y := main_v128) rfl (by decide),
    Cert.RefLib.writes_sub_of_mem (y := main_v129) rfl (by decide),
    Cert.RefLib.writes_sub_of_mem (y := main_v130) rfl (by decide),
    Cert.RefLib.writes_sub_of_mem (y := main_v131) rfl (by decide),
    Cert.RefLib.writes_sub_of_mem (y := main_v132) rfl (by decide),
    Cert.RefLib.writes_sub_of_mem (y := main_v133) rfl (by decide),
    Cert.RefLib.writes_sub_of_mem (y := main_cst_30) rfl (by decide),
    Cert.RefLib.writes_sub_of_mem (y := main_v134) rfl (by decide),
    Cert.RefLib.writes_sub_of_mem (y := main_c_31) rfl (by decide),
    Cert.RefLib.writes_sub_of_mem (y := main_v135) rfl (by decide),
    Cert.RefLib.writes_sub_of_mem (y := main_v136) rfl (by decide),
    Cert.RefLib.writes_sub_of_mem (y := main_c_32) rfl (by decide),
    Cert.RefLib.writes_sub_of_mem (y := main_v137) rfl (by decide),
    Cert.RefLib.writes_sub_of_mem (y := main_v138) rfl (by decide),
    Cert.RefLib.writes_sub_of_mem (y := main_v139) rfl (by decide),
    Cert.RefLib.writes_sub_of_mem (y := main_v140) rfl (by decide),
    Cert.RefLib.writes_sub_of_mem (y := main_v141) rfl (by decide)⟩
theorem p16_writes : Cert.RefLib.WritesIn (p16 : List (HloOp τ sig (Elt F))) p16_W := Cert.RefLib.WritesIn.of_forall p16_writesF

/-- Operations 208 … 210 of @main's 443, called functions' operations inline: the part of the stretch that ends in `main_v145` lying in window 2. -/
abbrev p17 : List (HloOp τ sig (Elt F)) :=
  [ unary main_arg6 main_v142 ((extractStridedSlice S1x64x64 ![1, 0, 0] · slices_S4x64x64_S1x64x64_1_0_0) : (⟨S4x64x64, .f32⟩ : BufTy).Contents (Elt F) → (⟨S1x64x64, .f32⟩ : BufTy).Contents (Elt F)),
    reshape main_v142 main_v143 rfl shapeCasts_S1x64x64_S64x64,
    binary main_v141 main_v143 main_v144 ((fun l r => Host.dotGeneral dot_S4x50000x64_S64x64_S4x50000x64_2_0_01_1_n_n none l r) : (⟨S4x50000x64, .f32⟩ : BufTy).Contents (Elt F) → (⟨S64x64, .f32⟩ : BufTy).Contents (Elt F) → (⟨S4x50000x64, .f32⟩ : BufTy).Contents (Elt F)) ]

theorem p17_subF : (p17 : List (HloOp τ sig (Elt F))).Forall fun op => op.bufs ⊆ tcRefs τ sig :=
  ⟨unary_bufs_sub ..,
    reshape_bufs_sub ..,
    binary_bufs_sub ..⟩
theorem p17_sub : ∀ op ∈ (p17 : List (HloOp τ sig (Elt F))), op.bufs ⊆ tcRefs τ sig := List.forall_iff_forall_mem.mp p17_subF
theorem p17_fresh : ∀ op ∈ (p17 : List (HloOp τ sig (Elt F))), op.fresh = ∅ := by
  intro op h; (repeat (cases h with | head => rfl | tail _ h => ?_)); exact nomatch h
/-- The buffers the operations of `p17` write, in order. -/
abbrev p17_W : List (Ref sig .tc) := [main_v142, main_v143, main_v144]
theorem p17_writesF : (p17 : List (HloOp τ sig (Elt F))).Forall fun op => op.writes ⊆ (p17_W.map (Proc.devRef (τ := τ) .tc)).toFinset :=
  ⟨Cert.RefLib.writes_sub_of_mem (y := main_v142) rfl (by decide),
    Cert.RefLib.writes_sub_of_mem (y := main_v143) rfl (by decide),
    Cert.RefLib.writes_sub_of_mem (y := main_v144) rfl (by decide)⟩
theorem p17_writes : Cert.RefLib.WritesIn (p17 : List (HloOp τ sig (Elt F))) p17_W := Cert.RefLib.WritesIn.of_forall p17_writesF

/-- Window 2's operations, in order. -/
def w2 : List (HloOp τ sig (Elt F)) := p10 ++ p11 ++ p12 ++ p13 ++ p14 ++ p15 ++ p16 ++ p17

set_option maxRecDepth 16384 in
set_option maxHeartbeats 4000000 in
/-- The window is that straight line: each call unfolds to its function's operations over the call's buffers. -/
theorem main_part2_eq (c : Dev nD) : main_part2 (F := F) c = seq w2 := rfl

theorem w2_sub : ∀ op ∈ (w2 : List (HloOp τ sig (Elt F))), op.bufs ⊆ tcRefs τ sig :=
  Cert.RefLib.forall_append (Cert.RefLib.forall_append (Cert.RefLib.forall_append (Cert.RefLib.forall_append (Cert.RefLib.forall_append (Cert.RefLib.forall_append (Cert.RefLib.forall_append (p10_sub) p11_sub) p12_sub) p13_sub) p14_sub) p15_sub) p16_sub) p17_sub
theorem w2_fresh : ∀ op ∈ (w2 : List (HloOp τ sig (Elt F))), op.fresh = ∅ :=
  Cert.RefLib.forall_append (Cert.RefLib.forall_append (Cert.RefLib.forall_append (Cert.RefLib.forall_append (Cert.RefLib.forall_append (Cert.RefLib.forall_append (Cert.RefLib.forall_append (p10_fresh) p11_fresh) p12_fresh) p13_fresh) p14_fresh) p15_fresh) p16_fresh) p17_fresh
/-- The buffers window 2 writes, in order. -/
def w2_W : List (Ref sig .tc) := p10_W ++ p11_W ++ p12_W ++ p13_W ++ p14_W ++ p15_W ++ p16_W ++ p17_W
theorem w2_writes : Cert.RefLib.WritesIn (w2 : List (HloOp τ sig (Elt F))) w2_W :=
  Cert.RefLib.WritesIn.append (Cert.RefLib.WritesIn.append (Cert.RefLib.WritesIn.append (Cert.RefLib.WritesIn.append (Cert.RefLib.WritesIn.append (Cert.RefLib.WritesIn.append (Cert.RefLib.WritesIn.append (p10_writes) p11_writes) p12_writes) p13_writes) p14_writes) p15_writes) p16_writes) p17_writes

end Cert.ReferenceIdeal.RefRun

end
-- ==== Proof.RefRunW3.lean ====
/- Window 3 of the reference program's @main (`main_part3`) as literal lists of its host operations, the operations of
   each called function standing at the call over that call's buffers; each list with the facts the run of a straight
   line asks of it (its buffers are TensorCore references, no operation leaves a buffer undetermined) and the list of
   buffers it writes; and the window is the straight line of these lists in order. -/
import proofs.«159603_j71347996721325_2_alg».proof.Proof.Gen.ReferenceIdeal
import Idealize.ShloMosaic.Lib.StableHlo.Run
import proofs.«159603_j71347996721325_2_alg».proof.Proof.RefLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 211 … 211 of @main's 443, called functions' operations inline: the part of the stretch that ends in `main_v145` lying in window 3. -/
abbrev p18 : List (HloOp τ sig (Elt F)) :=
  [ binary main_v123 main_v144 main_v145 (addf : (⟨S4x50000x64, .f32⟩ : BufTy).Contents (Elt F) → (⟨S4x50000x64, .f32⟩ : BufTy).Contents (Elt F) → (⟨S4x50000x64, .f32⟩ : BufTy).Contents (Elt F)) ]

theorem p18_subF : (p18 : List (HloOp τ sig (Elt F))).Forall fun op => op.bufs ⊆ tcRefs τ sig :=
  (binary_bufs_sub ..)
theorem p18_sub : ∀ op ∈ (p18 : List (HloOp τ sig (Elt F))), op.bufs ⊆ tcRefs τ sig := List.forall_iff_forall_mem.mp p18_subF
theorem p18_fresh : ∀ op ∈ (p18 : List (HloOp τ sig (Elt F))), op.fresh = ∅ := by
  intro op h; (repeat (cases h with | head => rfl | tail _ h => ?_)); exact nomatch h
/-- The buffers the operations of `p18` write, in order. -/
abbrev p18_W : List (Ref sig .tc) := [main_v145]
theorem p18_writesF : (p18 : List (HloOp τ sig (Elt F))).Forall fun op => op.writes ⊆ (p18_W.map (Proc.devRef (τ := τ) .tc)).toFinset :=
  (Cert.RefLib.writes_sub_of_mem (y := main_v145) rfl (by decide))
theorem p18_writes : Cert.RefLib.WritesIn (p18 : List (HloOp τ sig (Elt F))) p18_W := Cert.RefLib.WritesIn.of_forall p18_writesF

/-- Operations 212 … 234 of @main's 443, called functions' operations inline: the part of the stretch that ends in `main_v163` lying in window 3. -/
abbrev p19 : List (HloOp τ sig (Elt F)) :=
  [ nullary main_c_33 (constantI S_ 32 0#32),
    unary main_c_33 main_v146 (broadcastInDim S400000 ![] bcast_S_S400000 : (⟨S_, .i32⟩ : BufTy).Contents (Elt F) → (⟨S400000, .i32⟩ : BufTy).Contents (Elt F)),
    binary main_arg1 main_v146 main_v147 (cmpi .slt : (⟨S400000, .i32⟩ : BufTy).Contents (Elt F) → (⟨S400000, .i32⟩ : BufTy).Contents (Elt F) → (⟨S400000, .i1⟩ : BufTy).Contents (Elt F)),
    nullary main_c_34 (constantI S_ 32 50000#32),
    unary main_c_34 main_v148 (broadcastInDim S400000 ![] bcast_S_S400000 : (⟨S_, .i32⟩ : BufTy).Contents (Elt F) → (⟨S400000, .i32⟩ : BufTy).Contents (Elt F)),
    binary main_arg1 main_v148 main_v149 (addi : (⟨S400000, .i32⟩ : BufTy).Contents (Elt F) → (⟨S400000, .i32⟩ : BufTy).Contents (Elt F) → (⟨S400000, .i32⟩ : BufTy).Contents (Elt F)),
    ternary main_v147 main_v149 main_arg1 main_v150 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v150 main_v151 (broadcastInDim S400000x1 ![0] bcast_S400000_S400000x1_0 : (⟨S400000, .i32⟩ : BufTy).Contents (Elt F) → (⟨S400000x1, .i32⟩ : BufTy).Contents (Elt F)),
    binary main_v141 main_v151 main_v152 ((fun x i => Host.gather gather_S4x50000x64_S400000x1_S4x400000x64_02_1_n_n_1_1_4164 x i) : (⟨S4x50000x64, .f32⟩ : BufTy).Contents (Elt F) → (⟨S400000x1, .i32⟩ : BufTy).Contents (Elt F) → (⟨S4x400000x64, .f32⟩ : BufTy).Contents (Elt F)),
    unary main_v29 main_v153 (broadcastInDim S1x400000x1 ![1] bcast_S400000_S1x400000x1_1 : (⟨S400000, .f32⟩ : BufTy).Contents (Elt F) → (⟨S1x400000x1, .f32⟩ : BufTy).Contents (Elt F)),
    unary main_v153 main_v154 (broadcastInDim S4x400000x64 ![0, 1, 2] bcast_S1x400000x1_S4x400000x64_0_1_2 : (⟨S1x400000x1, .f32⟩ : BufTy).Contents (Elt F) → (⟨S4x400000x64, .f32⟩ : BufTy).Contents (Elt F)),
    binary main_v152 main_v154 main_v155 (mulf : (⟨S4x400000x64, .f32⟩ : BufTy).Contents (Elt F) → (⟨S4x400000x64, .f32⟩ : BufTy).Contents (Elt F) → (⟨S4x400000x64, .f32⟩ : BufTy).Contents (Elt F)),
    nullary main_cst_35 (constant S_ .f32 0x00000000#32),
    unary main_cst_35 main_v156 (broadcastInDim S4x50000x64 ![] bcast_S_S4x50000x64 : (⟨S_, .f32⟩ : BufTy).Contents (Elt F) → (⟨S4x50000x64, .f32⟩ : BufTy).Contents (Elt F)),
    nullary main_c_36 (constantI S_ 32 0#32),
    unary main_c_36 main_v157 (broadcastInDim S400000 ![] bcast_S_S400000 : (⟨S_, .i32⟩ : BufTy).Contents (Elt F) → (⟨S400000, .i32⟩ : BufTy).Contents (Elt F)),
    binary main_arg2 main_v157 main_v158 (cmpi .slt : (⟨S400000, .i32⟩ : BufTy).Contents (Elt F) → (⟨S400000, .i32⟩ : BufTy).Contents (Elt F) → (⟨S400000, .i1⟩ : BufTy).Contents (Elt F)),
    nullary main_c_37 (constantI S_ 32 50000#32),
    unary main_c_37 main_v159 (broadcastInDim S400000 ![] bcast_S_S400000 : (⟨S_, .i32⟩ : BufTy).Contents (Elt F) → (⟨S400000, .i32⟩ : BufTy).Contents (Elt F)),
    binary main_arg2 main_v159 main_v160 (addi : (⟨S400000, .i32⟩ : BufTy).Contents (Elt F) → (⟨S400000, .i32⟩ : BufTy).Contents (Elt F) → (⟨S400000, .i32⟩ : BufTy).Contents (Elt F)),
    ternary main_v158 main_v160 main_arg2 main_v161 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v161 main_v162 (broadcastInDim S400000x1 ![0] bcast_S400000_S400000x1_0 : (⟨S400000, .i32⟩ : BufTy).Contents (Elt F) → (⟨S400000x1, .i32⟩ : BufTy).Contents (Elt F)),
    ternary main_v156 main_v162 main_v155 main_v163 ((fun x i u => Host.scatterAdd scatter_S4x50000x64_S400000x1_S4x400000x64_02_1_1_1 x i u) : (⟨S4x50000x64, .f32⟩ : BufTy).Contents (Elt F) → (⟨S400000x1, .i32⟩ : BufTy).Contents (Elt F) → (⟨S4x400000x64, .f32⟩ : BufTy).Contents (Elt F) → (⟨S4x50000x64, .f32⟩ : BufTy).Contents (Elt F)) ]

theorem p19_subF : (p19 : List (HloOp τ sig (Elt F))).Forall fun op => op.bufs ⊆ tcRefs τ sig :=
  ⟨nullary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    unary_bufs_sub ..,
    unary_bufs_sub ..,
    binary_bufs_sub ..,
    nullary_bufs_sub ..,
    unary_bufs_sub ..,
    nullary_bufs_sub ..,
    unary_bufs_sub ..,
    binary_bufs_sub ..,
    nullary_bufs_sub ..,
    unary_bufs_sub ..,
    binary_bufs_sub ..,
    ternary_bufs_sub ..,
    unary_bufs_sub ..,
    ternary_bufs_sub ..⟩
theorem p19_sub : ∀ op ∈ (p19 : List (HloOp τ sig (Elt F))), op.bufs ⊆ tcRefs τ sig := List.forall_iff_forall_mem.mp p19_subF
theorem p19_fresh : ∀ op ∈ (p19 : List (HloOp τ sig (Elt F))), op.fresh = ∅ := by
  intro op h; (repeat (cases h with | head => rfl | tail _ h => ?_)); exact nomatch h
/-- The buffers the operations of `p19` write, in order. -/
abbrev p19_W : List (Ref sig .tc) := [main_c_33, main_v146, main_v147, main_c_34, main_v148, main_v149, main_v150, main_v151, main_v152, main_v153, main_v154, main_v155, main_cst_35, main_v156, main_c_36, main_v157, main_v158, main_c_37, main_v159, main_v160, main_v161, main_v162, main_v163]
theorem p19_writesF : (p19 : List (HloOp τ sig (Elt F))).Forall fun op => op.writes ⊆ (p19_W.map (Proc.devRef (τ := τ) .tc)).toFinset :=
  ⟨Cert.RefLib.writes_sub_of_mem (y := main_c_33) rfl (by decide),
    Cert.RefLib.writes_sub_of_mem (y := main_v146) rfl (by decide),
    Cert.RefLib.writes_sub_of_mem (y := main_v147) rfl (by decide),
    Cert.RefLib.writes_sub_of_mem (y := main_c_34) rfl (by decide),
    Cert.RefLib.writes_sub_of_mem (y := main_v148) rfl (by decide),
    Cert.RefLib.writes_sub_of_mem (y := main_v149) rfl (by decide),
    Cert.RefLib.writes_sub_of_mem (y := main_v150) rfl (by decide),
    Cert.RefLib.writes_sub_of_mem (y := main_v151) rfl (by decide),
    Cert.RefLib.writes_sub_of_mem (y := main_v152) rfl (by decide),
    Cert.RefLib.writes_sub_of_mem (y := main_v153) rfl (by decide),
    Cert.RefLib.writes_sub_of_mem (y := main_v154) rfl (by decide),
    Cert.RefLib.writes_sub_of_mem (y := main_v155) rfl (by decide),
    Cert.RefLib.writes_sub_of_mem (y := main_cst_35) rfl (by decide),
    Cert.RefLib.writes_sub_of_mem (y := main_v156) rfl (by decide),
    Cert.RefLib.writes_sub_of_mem (y := main_c_36) rfl (by decide),
    Cert.RefLib.writes_sub_of_mem (y := main_v157) rfl (by decide),
    Cert.RefLib.writes_sub_of_mem (y := main_v158) rfl (by decide),
    Cert.RefLib.writes_sub_of_mem (y := main_c_37) rfl (by decide),
    Cert.RefLib.writes_sub_of_mem (y := main_v159) rfl (by decide),
    Cert.RefLib.writes_sub_of_mem (y := main_v160) rfl (by decide),
    Cert.RefLib.writes_sub_of_mem (y := main_v161) rfl (by decide),
    Cert.RefLib.writes_sub_of_mem (y := main_v162) rfl (by decide),
    Cert.RefLib.writes_sub_of_mem (y := main_v163) rfl (by decide)⟩
theorem p19_writes : Cert.RefLib.WritesIn (p19 : List (HloOp τ sig (Elt F))) p19_W := Cert.RefLib.WritesIn.of_forall p19_writesF

/-- Operations 235 … 238 of @main's 443, called functions' operations inline: the part of the stretch that ends in `main_v167` lying in window 3. -/
abbrev p20 : List (HloOp τ sig (Elt F)) :=
  [ unary main_arg6 main_v164 ((extractStridedSlice S1x64x64 ![2, 0, 0] · slices_S4x64x64_S1x64x64_2_0_0) : (⟨S4x64x64, .f32⟩ : BufTy).Contents (Elt F) → (⟨S1x64x64, .f32⟩ : BufTy).Contents (Elt F)),
    reshape main_v164 main_v165 rfl shapeCasts_S1x64x64_S64x64,
    binary main_v163 main_v165 main_v166 ((fun l r => Host.dotGeneral dot_S4x50000x64_S64x64_S4x50000x64_2_0_01_1_n_n none l r) : (⟨S4x50000x64, .f32⟩ : BufTy).Contents (Elt F) → (⟨S64x64, .f32⟩ : BufTy).Contents (Elt F) → (⟨S4x50000x64, .f32⟩ : BufTy).Contents (Elt F)),
    binary main_v145 main_v166 main_v167 (addf : (⟨S4x50000x64, .f32⟩ : BufTy).Contents (Elt F) → (⟨S4x50000x64, .f32⟩ : BufTy).Contents (Elt F) → (⟨S4x50000x64, .f32⟩ : BufTy).Contents (Elt F)) ]

theorem p20_subF : (p20 : List (HloOp τ sig (Elt F))).Forall fun op => op.bufs ⊆ tcRefs τ sig :=
  ⟨unary_bufs_sub ..,
    reshape_bufs_sub ..,
    binary_bufs_sub ..,
    binary_bufs_sub ..⟩
theorem p20_sub : ∀ op ∈ (p20 : List (HloOp τ sig (Elt F))), op.bufs ⊆ tcRefs τ sig := List.forall_iff_forall_mem.mp p20_subF
theorem p20_fresh : ∀ op ∈ (p20 : List (HloOp τ sig (Elt F))), op.fresh = ∅ := by
  intro op h; (repeat (cases h with | head => rfl | tail _ h => ?_)); exact nomatch h
/-- The buffers the operations of `p20` write, in order. -/
abbrev p20_W : List (Ref sig .tc) := [main_v164, main_v165, main_v166, main_v167]
theorem p20_writesF : (p20 : List (HloOp τ sig (Elt F))).Forall fun op => op.writes ⊆ (p20_W.map (Proc.devRef (τ := τ) .tc)).toFinset :=
  ⟨Cert.RefLib.writes_sub_of_mem (y := main_v164) rfl (by decide),
    Cert.RefLib.writes_sub_of_mem (y := main_v165) rfl (by decide),
    Cert.RefLib.writes_sub_of_mem (y := main_v166) rfl (by decide),
    Cert.RefLib.writes_sub_of_mem (y := main_v167) rfl (by decide)⟩
theorem p20_writes : Cert.RefLib.WritesIn (p20 : List (HloOp τ sig (Elt F))) p20_W := Cert.RefLib.WritesIn.of_forall p20_writesF

/-- Operations 239 … 261 of @main's 443, called functions' operations inline: the part of the stretch that ends in `main_v185` lying in window 3. -/
abbrev p21 : List (HloOp τ sig (Elt F)) :=
  [ nullary main_c_38 (constantI S_ 32 0#32),
    unary main_c_38 main_v168 (broadcastInDim S400000 ![] bcast_S_S400000 : (⟨S_, .i32⟩ : BufTy).Contents (Elt F) → (⟨S400000, .i32⟩ : BufTy).Contents (Elt F)),
    binary main_arg1 main_v168 main_v169 (cmpi .slt : (⟨S400000, .i32⟩ : BufTy).Contents (Elt F) → (⟨S400000, .i32⟩ : BufTy).Contents (Elt F) → (⟨S400000, .i1⟩ : BufTy).Contents (Elt F)),
    nullary main_c_39 (constantI S_ 32 50000#32),
    unary main_c_39 main_v170 (broadcastInDim S400000 ![] bcast_S_S400000 : (⟨S_, .i32⟩ : BufTy).Contents (Elt F) → (⟨S400000, .i32⟩ : BufTy).Contents (Elt F)),
    binary main_arg1 main_v170 main_v171 (addi : (⟨S400000, .i32⟩ : BufTy).Contents (Elt F) → (⟨S400000, .i32⟩ : BufTy).Contents (Elt F) → (⟨S400000, .i32⟩ : BufTy).Contents (Elt F)),
    ternary main_v169 main_v171 main_arg1 main_v172 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v172 main_v173 (broadcastInDim S400000x1 ![0] bcast_S400000_S400000x1_0 : (⟨S400000, .i32⟩ : BufTy).Contents (Elt F) → (⟨S400000x1, .i32⟩ : BufTy).Contents (Elt F)),
    binary main_v163 main_v173 main_v174 ((fun x i => Host.gather gather_S4x50000x64_S400000x1_S4x400000x64_02_1_n_n_1_1_4164 x i) : (⟨S4x50000x64, .f32⟩ : BufTy).Contents (Elt F) → (⟨S400000x1, .i32⟩ : BufTy).Contents (Elt F) → (⟨S4x400000x64, .f32⟩ : BufTy).Contents (Elt F)),
    unary main_v29 main_v175 (broadcastInDim S1x400000x1 ![1] bcast_S400000_S1x400000x1_1 : (⟨S400000, .f32⟩ : BufTy).Contents (Elt F) → (⟨S1x400000x1, .f32⟩ : BufTy).Contents (Elt F)),
    unary main_v175 main_v176 (broadcastInDim S4x400000x64 ![0, 1, 2] bcast_S1x400000x1_S4x400000x64_0_1_2 : (⟨S1x400000x1, .f32⟩ : BufTy).Contents (Elt F) → (⟨S4x400000x64, .f32⟩ : BufTy).Contents (Elt F)),
    binary main_v174 main_v176 main_v177 (mulf : (⟨S4x400000x64, .f32⟩ : BufTy).Contents (Elt F) → (⟨S4x400000x64, .f32⟩ : BufTy).Contents (Elt F) → (⟨S4x400000x64, .f32⟩ : BufTy).Contents (Elt F)),
    nullary main_cst_40 (constant S_ .f32 0x00000000#32),
    unary main_cst_40 main_v178 (broadcastInDim S4x50000x64 ![] bcast_S_S4x50000x64 : (⟨S_, .f32⟩ : BufTy).Contents (Elt F) → (⟨S4x50000x64, .f32⟩ : BufTy).Contents (Elt F)),
    nullary main_c_41 (constantI S_ 32 0#32),
    unary main_c_41 main_v179 (broadcastInDim S400000 ![] bcast_S_S400000 : (⟨S_, .i32⟩ : BufTy).Contents (Elt F) → (⟨S400000, .i32⟩ : BufTy).Contents (Elt F)),
    binary main_arg2 main_v179 main_v180 (cmpi .slt : (⟨S400000, .i32⟩ : BufTy).Contents (Elt F) → (⟨S400000, .i32⟩ : BufTy).Contents (Elt F) → (⟨S400000, .i1⟩ : BufTy).Contents (Elt F)),
    nullary main_c_42 (constantI S_ 32 50000#32),
    unary main_c_42 main_v181 (broadcastInDim S400000 ![] bcast_S_S400000 : (⟨S_, .i32⟩ : BufTy).Contents (Elt F) → (⟨S400000, .i32⟩ : BufTy).Contents (Elt F)),
    binary main_arg2 main_v181 main_v182 (addi : (⟨S400000, .i32⟩ : BufTy).Contents (Elt F) → (⟨S400000, .i32⟩ : BufTy).Contents (Elt F) → (⟨S400000, .i32⟩ : BufTy).Contents (Elt F)),
    ternary main_v180 main_v182 main_arg2 main_v183 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v183 main_v184 (broadcastInDim S400000x1 ![0] bcast_S400000_S400000x1_0 : (⟨S400000, .i32⟩ : BufTy).Contents (Elt F) → (⟨S400000x1, .i32⟩ : BufTy).Contents (Elt F)),
    ternary main_v178 main_v184 main_v177 main_v185 ((fun x i u => Host.scatterAdd scatter_S4x50000x64_S400000x1_S4x400000x64_02_1_1_1 x i u) : (⟨S4x50000x64, .f32⟩ : BufTy).Contents (Elt F) → (⟨S400000x1, .i32⟩ : BufTy).Contents (Elt F) → (⟨S4x400000x64, .f32⟩ : BufTy).Contents (Elt F) → (⟨S4x50000x64, .f32⟩ : BufTy).Contents (Elt F)) ]

theorem p21_subF : (p21 : List (HloOp τ sig (Elt F))).Forall fun op => op.bufs ⊆ tcRefs τ sig :=
  ⟨nullary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    unary_bufs_sub ..,
    unary_bufs_sub ..,
    binary_bufs_sub ..,
    nullary_bufs_sub ..,
    unary_bufs_sub ..,
    nullary_bufs_sub ..,
    unary_bufs_sub ..,
    binary_bufs_sub ..,
    nullary_bufs_sub ..,
    unary_bufs_sub ..,
    binary_bufs_sub ..,
    ternary_bufs_sub ..,
    unary_bufs_sub ..,
    ternary_bufs_sub ..⟩
theorem p21_sub : ∀ op ∈ (p21 : List (HloOp τ sig (Elt F))), op.bufs ⊆ tcRefs τ sig := List.forall_iff_forall_mem.mp p21_subF
theorem p21_fresh : ∀ op ∈ (p21 : List (HloOp τ sig (Elt F))), op.fresh = ∅ := by
  intro op h; (repeat (cases h with | head => rfl | tail _ h => ?_)); exact nomatch h
/-- The buffers the operations of `p21` write, in order. -/
abbrev p21_W : List (Ref sig .tc) := [main_c_38, main_v168, main_v169, main_c_39, main_v170, main_v171, main_v172, main_v173, main_v174, main_v175, main_v176, main_v177, main_cst_40, main_v178, main_c_41, main_v179, main_v180, main_c_42, main_v181, main_v182, main_v183, main_v184, main_v185]
theorem p21_writesF : (p21 : List (HloOp τ sig (Elt F))).Forall fun op => op.writes ⊆ (p21_W.map (Proc.devRef (τ := τ) .tc)).toFinset :=
  ⟨Cert.RefLib.writes_sub_of_mem (y := main_c_38) rfl (by decide),
    Cert.RefLib.writes_sub_of_mem (y := main_v168) rfl (by decide),
    Cert.RefLib.writes_sub_of_mem (y := main_v169) rfl (by decide),
    Cert.RefLib.writes_sub_of_mem (y := main_c_39) rfl (by decide),
    Cert.RefLib.writes_sub_of_mem (y := main_v170) rfl (by decide),
    Cert.RefLib.writes_sub_of_mem (y := main_v171) rfl (by decide),
    Cert.RefLib.writes_sub_of_mem (y := main_v172) rfl (by decide),
    Cert.RefLib.writes_sub_of_mem (y := main_v173) rfl (by decide),
    Cert.RefLib.writes_sub_of_mem (y := main_v174) rfl (by decide),
    Cert.RefLib.writes_sub_of_mem (y := main_v175) rfl (by decide),
    Cert.RefLib.writes_sub_of_mem (y := main_v176) rfl (by decide),
    Cert.RefLib.writes_sub_of_mem (y := main_v177) rfl (by decide),
    Cert.RefLib.writes_sub_of_mem (y := main_cst_40) rfl (by decide),
    Cert.RefLib.writes_sub_of_mem (y := main_v178) rfl (by decide),
    Cert.RefLib.writes_sub_of_mem (y := main_c_41) rfl (by decide),
    Cert.RefLib.writes_sub_of_mem (y := main_v179) rfl (by decide),
    Cert.RefLib.writes_sub_of_mem (y := main_v180) rfl (by decide),
    Cert.RefLib.writes_sub_of_mem (y := main_c_42) rfl (by decide),
    Cert.RefLib.writes_sub_of_mem (y := main_v181) rfl (by decide),
    Cert.RefLib.writes_sub_of_mem (y := main_v182) rfl (by decide),
    Cert.RefLib.writes_sub_of_mem (y := main_v183) rfl (by decide),
    Cert.RefLib.writes_sub_of_mem (y := main_v184) rfl (by decide),
    Cert.RefLib.writes_sub_of_mem (y := main_v185) rfl (by decide)⟩
theorem p21_writes : Cert.RefLib.WritesIn (p21 : List (HloOp τ sig (Elt F))) p21_W := Cert.RefLib.WritesIn.of_forall p21_writesF

/-- Operations 262 … 268 of @main's 443, called functions' operations inline: the part of the stretch that ends in `main_v192` lying in window 3. -/
abbrev p22 : List (HloOp τ sig (Elt F)) :=
  [ unary main_arg6 main_v186 ((extractStridedSlice S1x64x64 ![3, 0, 0] · slices_S4x64x64_S1x64x64_3_0_0) : (⟨S4x64x64, .f32⟩ : BufTy).Contents (Elt F) → (⟨S1x64x64, .f32⟩ : BufTy).Contents (Elt F)),
    reshape main_v186 main_v187 rfl shapeCasts_S1x64x64_S64x64,
    binary main_v185 main_v187 main_v188 ((fun l r => Host.dotGeneral dot_S4x50000x64_S64x64_S4x50000x64_2_0_01_1_n_n none l r) : (⟨S4x50000x64, .f32⟩ : BufTy).Contents (Elt F) → (⟨S64x64, .f32⟩ : BufTy).Contents (Elt F) → (⟨S4x50000x64, .f32⟩ : BufTy).Contents (Elt F)),
    binary main_v167 main_v188 main_v189 (addf : (⟨S4x50000x64, .f32⟩ : BufTy).Contents (Elt F) → (⟨S4x50000x64, .f32⟩ : BufTy).Contents (Elt F) → (⟨S4x50000x64, .f32⟩ : BufTy).Contents (Elt F)),
    unary main_arg7 main_v190 (broadcastInDim S1x1x64 ![2] bcast_S64_S1x1x64_2 : (⟨S64, .f32⟩ : BufTy).Contents (Elt F) → (⟨S1x1x64, .f32⟩ : BufTy).Contents (Elt F)),
    unary main_v190 main_v191 (broadcastInDim S4x50000x64 ![0, 1, 2] bcast_S1x1x64_S4x50000x64_0_1_2 : (⟨S1x1x64, .f32⟩ : BufTy).Contents (Elt F) → (⟨S4x50000x64, .f32⟩ : BufTy).Contents (Elt F)),
    binary main_v189 main_v191 main_v192 (addf : (⟨S4x50000x64, .f32⟩ : BufTy).Contents (Elt F) → (⟨S4x50000x64, .f32⟩ : BufTy).Contents (Elt F) → (⟨S4x50000x64, .f32⟩ : BufTy).Contents (Elt F)) ]

theorem p22_subF : (p22 : List (HloOp τ sig (Elt F))).Forall fun op => op.bufs ⊆ tcRefs τ sig :=
  ⟨unary_bufs_sub ..,
    reshape_bufs_sub ..,
    binary_bufs_sub ..,
    binary_bufs_sub ..,
    unary_bufs_sub ..,
    unary_bufs_sub ..,
    binary_bufs_sub ..⟩
theorem p22_sub : ∀ op ∈ (p22 : List (HloOp τ sig (Elt F))), op.bufs ⊆ tcRefs τ sig := List.forall_iff_forall_mem.mp p22_subF
theorem p22_fresh : ∀ op ∈ (p22 : List (HloOp τ sig (Elt F))), op.fresh = ∅ := by
  intro op h; (repeat (cases h with | head => rfl | tail _ h => ?_)); exact nomatch h
/-- The buffers the operations of `p22` write, in order. -/
abbrev p22_W : List (Ref sig .tc) := [main_v186, main_v187, main_v188, main_v189, main_v190, main_v191, main_v192]
theorem p22_writesF : (p22 : List (HloOp τ sig (Elt F))).Forall fun op => op.writes ⊆ (p22_W.map (Proc.devRef (τ := τ) .tc)).toFinset :=
  ⟨Cert.RefLib.writes_sub_of_mem (y := main_v186) rfl (by decide),
    Cert.RefLib.writes_sub_of_mem (y := main_v187) rfl (by decide),
    Cert.RefLib.writes_sub_of_mem (y := main_v188) rfl (by decide),
    Cert.RefLib.writes_sub_of_mem (y := main_v189) rfl (by decide),
    Cert.RefLib.writes_sub_of_mem (y := main_v190) rfl (by decide),
    Cert.RefLib.writes_sub_of_mem (y := main_v191) rfl (by decide),
    Cert.RefLib.writes_sub_of_mem (y := main_v192) rfl (by decide)⟩
theorem p22_writes : Cert.RefLib.WritesIn (p22 : List (HloOp τ sig (Elt F))) p22_W := Cert.RefLib.WritesIn.of_forall p22_writesF

/-- Operations 269 … 270 of @main's 443, called functions' operations inline: the part of the stretch that ends in `main_v196` lying in window 3. -/
abbrev p23 : List (HloOp τ sig (Elt F)) :=
  [ nullary main_cst_43 (constant S_ .f32 0x00000000#32),
    binary main_v192 main_cst_43 main_v193 ((fun x v => Host.reduceAdd x v reducesTo_S4x50000x64_S50000_d0_2 h_S_) : (⟨S4x50000x64, .f32⟩ : BufTy).Contents (Elt F) → (⟨S_, .f32⟩ : BufTy).Contents (Elt F) → (⟨S50000, .f32⟩ : BufTy).Contents (Elt F)) ]

theorem p23_subF : (p23 : List (HloOp τ sig (Elt F))).Forall fun op => op.bufs ⊆ tcRefs τ sig :=
  ⟨nullary_bufs_sub ..,
    binary_bufs_sub ..⟩
theorem p23_sub : ∀ op ∈ (p23 : List (HloOp τ sig (Elt F))), op.bufs ⊆ tcRefs τ sig := List.forall_iff_forall_mem.mp p23_subF
theorem p23_fresh : ∀ op ∈ (p23 : List (HloOp τ sig (Elt F))), op.fresh = ∅ := by
  intro op h; (repeat (cases h with | head => rfl | tail _ h => ?_)); exact nomatch h
/-- The buffers the operations of `p23` write, in order. -/
abbrev p23_W : List (Ref sig .tc) := [main_cst_43, main_v193]
theorem p23_writesF : (p23 : List (HloOp τ sig (Elt F))).Forall fun op => op.writes ⊆ (p23_W.map (Proc.devRef (τ := τ) .tc)).toFinset :=
  ⟨Cert.RefLib.writes_sub_of_mem (y := main_cst_43) rfl (by decide),
    Cert.RefLib.writes_sub_of_mem (y := main_v193) rfl (by decide)⟩
theorem p23_writes : Cert.RefLib.WritesIn (p23 : List (HloOp τ sig (Elt F))) p23_W := Cert.RefLib.WritesIn.of_forall p23_writesF

/-- Window 3's operations, in order. -/
def w3 : List (HloOp τ sig (Elt F)) := p18 ++ p19 ++ p20 ++ p21 ++ p22 ++ p23

set_option maxRecDepth 16384 in
set_option maxHeartbeats 4000000 in
/-- The window is that straight line: each call unfolds to its function's operations over the call's buffers. -/
theorem main_part3_eq (c : Dev nD) : main_part3 (F := F) c = seq w3 := rfl

theorem w3_sub : ∀ op ∈ (w3 : List (HloOp τ sig (Elt F))), op.bufs ⊆ tcRefs τ sig :=
  Cert.RefLib.forall_append (Cert.RefLib.forall_append (Cert.RefLib.forall_append (Cert.RefLib.forall_append (Cert.RefLib.forall_append (p18_sub) p19_sub) p20_sub) p21_sub) p22_sub) p23_sub
theorem w3_fresh : ∀ op ∈ (w3 : List (HloOp τ sig (Elt F))), op.fresh = ∅ :=
  Cert.RefLib.forall_append (Cert.RefLib.forall_append (Cert.RefLib.forall_append (Cert.RefLib.forall_append (Cert.RefLib.forall_append (p18_fresh) p19_fresh) p20_fresh) p21_fresh) p22_fresh) p23_fresh
/-- The buffers window 3 writes, in order. -/
def w3_W : List (Ref sig .tc) := p18_W ++ p19_W ++ p20_W ++ p21_W ++ p22_W ++ p23_W
theorem w3_writes : Cert.RefLib.WritesIn (w3 : List (HloOp τ sig (Elt F))) w3_W :=
  Cert.RefLib.WritesIn.append (Cert.RefLib.WritesIn.append (Cert.RefLib.WritesIn.append (Cert.RefLib.WritesIn.append (Cert.RefLib.WritesIn.append (p18_writes) p19_writes) p20_writes) p21_writes) p22_writes) p23_writes

end Cert.ReferenceIdeal.RefRun

end
-- ==== Proof.RefRunW4.lean ====
/- Window 4 of the reference program's @main (`main_part4`) as literal lists of its host operations, the operations of
   each called function standing at the call over that call's buffers; each list with the facts the run of a straight
   line asks of it (its buffers are TensorCore references, no operation leaves a buffer undetermined) and the list of
   buffers it writes; and the window is the straight line of these lists in order. -/
import proofs.«159603_j71347996721325_2_alg».proof.Proof.Gen.ReferenceIdeal
import Idealize.ShloMosaic.Lib.StableHlo.Run
import proofs.«159603_j71347996721325_2_alg».proof.Proof.RefLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 271 … 274 of @main's 443, called functions' operations inline: the part of the stretch that ends in `main_v196` lying in window 4. -/
abbrev p24 : List (HloOp τ sig (Elt F)) :=
  [ unary main_v193 main_v194 (broadcastInDim S1x50000x1 ![1] bcast_S50000_S1x50000x1_1 : (⟨S50000, .f32⟩ : BufTy).Contents (Elt F) → (⟨S1x50000x1, .f32⟩ : BufTy).Contents (Elt F)),
    nullary main_cst_44 (constant S_ .f32 0x43800000#32),
    unary main_cst_44 main_v195 (broadcastInDim S1x50000x1 ![] bcast_S_S1x50000x1 : (⟨S_, .f32⟩ : BufTy).Contents (Elt F) → (⟨S1x50000x1, .f32⟩ : BufTy).Contents (Elt F)),
    binary main_v194 main_v195 main_v196 (Host.divf : (⟨S1x50000x1, .f32⟩ : BufTy).Contents (Elt F) → (⟨S1x50000x1, .f32⟩ : BufTy).Contents (Elt F) → (⟨S1x50000x1, .f32⟩ : BufTy).Contents (Elt F)) ]

theorem p24_subF : (p24 : List (HloOp τ sig (Elt F))).Forall fun op => op.bufs ⊆ tcRefs τ sig :=
  ⟨unary_bufs_sub ..,
    nullary_bufs_sub ..,
    unary_bufs_sub ..,
    binary_bufs_sub ..⟩
theorem p24_sub : ∀ op ∈ (p24 : List (HloOp τ sig (Elt F))), op.bufs ⊆ tcRefs τ sig := List.forall_iff_forall_mem.mp p24_subF
theorem p24_fresh : ∀ op ∈ (p24 : List (HloOp τ sig (Elt F))), op.fresh = ∅ := by
  intro op h; (repeat (cases h with | head => rfl | tail _ h => ?_)); exact nomatch h
/-- The buffers the operations of `p24` write, in order. -/
abbrev p24_W : List (Ref sig .tc) := [main_v194, main_cst_44, main_v195, main_v196]
theorem p24_writesF : (p24 : List (HloOp τ sig (Elt F))).Forall fun op => op.writes ⊆ (p24_W.map (Proc.devRef (τ := τ) .tc)).toFinset :=
  ⟨Cert.RefLib.writes_sub_of_mem (y := main_v194) rfl (by decide),
    Cert.RefLib.writes_sub_of_mem (y := main_cst_44) rfl (by decide),
    Cert.RefLib.writes_sub_of_mem (y := main_v195) rfl (by decide),
    Cert.RefLib.writes_sub_of_mem (y := main_v196) rfl (by decide)⟩
theorem p24_writes : Cert.RefLib.WritesIn (p24 : List (HloOp τ sig (Elt F))) p24_W := Cert.RefLib.WritesIn.of_forall p24_writesF

/-- Operations 275 … 298 of @main's 443, called functions' operations inline: the part of the stretch that ends in `main_v197` lying in window 4. -/
abbrev p25 : List (HloOp τ sig (Elt F)) :=
  [ nullary main_c_45 (constantI S_ 32 0#32),
    TRef.nullary main_call3.cst (constant S_ .f32 0x00000000#32),
    TRef.binary (.of main_v192 : TRef sig ⟨S4x50000x64, .f32⟩) main_call3.cst main_call3.v0 (fun x v => Host.reduceAdd x v reducesTo_S4x50000x64_S50000_d0_2 h_S_),
    TRef.unary main_call3.v0 main_call3.v1 (broadcastInDim S1x50000x1 ![1] bcast_S50000_S1x50000x1_1),
    TRef.nullary main_call3.cst_0 (constant S_ .f32 0x43800000#32),
    TRef.unary main_call3.cst_0 main_call3.v2 (broadcastInDim S1x50000x1 ![] bcast_S_S1x50000x1),
    TRef.binary main_call3.v1 main_call3.v2 main_call3.v3 Host.divf,
    TRef.unary main_call3.v3 main_call3.v4 (broadcastInDim S4x50000x64 ![0, 1, 2] bcast_S1x50000x1_S4x50000x64_0_1_2),
    TRef.binary (.of main_v192 : TRef sig ⟨S4x50000x64, .f32⟩) main_call3.v4 main_call3.v5 subf,
    TRef.binary main_call3.v5 main_call3.v5 main_call3.v6 mulf,
    TRef.unary (.of main_c_45 : TRef sig ⟨S_, .i32⟩) main_call3.v7 (sitofp .f32),
    TRef.nullary main_call3.cst_1 (constant S_ .f32 0x43800000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S4x50000x64_S50000_d0_2 h_S_),
    TRef.unary main_call3.v9 main_call3.v10 (broadcastInDim S1x50000x1 ![1] bcast_S50000_S1x50000x1_1),
    TRef.unary main_call3.v8 main_call3.v11 (broadcastInDim S1x50000x1 ![] bcast_S_S1x50000x1),
    TRef.binary main_call3.v10 main_call3.v11 main_call3.v12 Host.divf,
    TRef.nullary main_call3.cst_3 (constant S_ .f32 0x00000000#32),
    TRef.binary main_call3.v8 main_call3.cst_3 main_call3.v13 (cmpf .ogt),
    TRef.nullary main_call3.cst_4 (constant S_ .f32 0x7FC00000#32),
    TRef.unary main_call3.cst_4 main_call3.call0.v0 id,
    TRef.unary main_call3.call0.v0 main_call3.call0.v1 (broadcastInDim S1x50000x1 ![] bcast_S_S1x50000x1),
    TRef.ternary main_call3.v13 main_call3.v12 main_call3.call0.v1 main_call3.call0.v2 (fun p a b => select (broadcastInDim S1x50000x1 ![] bcast_S_S1x50000x1 p) a b) ]

theorem p25_subF : (p25 : List (HloOp τ sig (Elt F))).Forall fun op => op.bufs ⊆ tcRefs τ sig :=
  ⟨nullary_bufs_sub ..,
    nullary_bufs_sub ..,
    binary_bufs_sub ..,
    unary_bufs_sub ..,
    nullary_bufs_sub ..,
    unary_bufs_sub ..,
    binary_bufs_sub ..,
    unary_bufs_sub ..,
    binary_bufs_sub ..,
    binary_bufs_sub ..,
    unary_bufs_sub ..,
    nullary_bufs_sub ..,
    binary_bufs_sub ..,
    nullary_bufs_sub ..,
    binary_bufs_sub ..,
    unary_bufs_sub ..,
    unary_bufs_sub ..,
    binary_bufs_sub ..,
    nullary_bufs_sub ..,
    binary_bufs_sub ..,
    nullary_bufs_sub ..,
    unary_bufs_sub ..,
    unary_bufs_sub ..,
    ternary_bufs_sub ..⟩
theorem p25_sub : ∀ op ∈ (p25 : List (HloOp τ sig (Elt F))), op.bufs ⊆ tcRefs τ sig := List.forall_iff_forall_mem.mp p25_subF
theorem p25_fresh : ∀ op ∈ (p25 : List (HloOp τ sig (Elt F))), op.fresh = ∅ := by
  intro op h; (repeat (cases h with | head => rfl | tail _ h => ?_)); exact nomatch h
/-- The buffers the operations of `p25` write, in order. -/
abbrev p25_W : List (Ref sig .tc) := [main_c_45, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_v12, main_call3_cst_3, main_call3_v13, main_call3_cst_4, main_call3_call0_v0, main_call3_call0_v1, main_v197]
theorem p25_writesF : (p25 : List (HloOp τ sig (Elt F))).Forall fun op => op.writes ⊆ (p25_W.map (Proc.devRef (τ := τ) .tc)).toFinset :=
  ⟨Cert.RefLib.writes_sub_of_mem (y := main_c_45) rfl (by decide),
    Cert.RefLib.writes_sub_of_mem (y := main_call3_cst) rfl (by decide),
    Cert.RefLib.writes_sub_of_mem (y := main_call3_v0) rfl (by decide),
    Cert.RefLib.writes_sub_of_mem (y := main_call3_v1) rfl (by decide),
    Cert.RefLib.writes_sub_of_mem (y := main_call3_cst_0) rfl (by decide),
    Cert.RefLib.writes_sub_of_mem (y := main_call3_v2) rfl (by decide),
    Cert.RefLib.writes_sub_of_mem (y := main_call3_v3) rfl (by decide),
    Cert.RefLib.writes_sub_of_mem (y := main_call3_v4) rfl (by decide),
    Cert.RefLib.writes_sub_of_mem (y := main_call3_v5) rfl (by decide),
    Cert.RefLib.writes_sub_of_mem (y := main_call3_v6) rfl (by decide),
    Cert.RefLib.writes_sub_of_mem (y := main_call3_v7) rfl (by decide),
    Cert.RefLib.writes_sub_of_mem (y := main_call3_cst_1) rfl (by decide),
    Cert.RefLib.writes_sub_of_mem (y := main_call3_v8) rfl (by decide),
    Cert.RefLib.writes_sub_of_mem (y := main_call3_cst_2) rfl (by decide),
    Cert.RefLib.writes_sub_of_mem (y := main_call3_v9) rfl (by decide),
    Cert.RefLib.writes_sub_of_mem (y := main_call3_v10) rfl (by decide),
    Cert.RefLib.writes_sub_of_mem (y := main_call3_v11) rfl (by decide),
    Cert.RefLib.writes_sub_of_mem (y := main_call3_v12) rfl (by decide),
    Cert.RefLib.writes_sub_of_mem (y := main_call3_cst_3) rfl (by decide),
    Cert.RefLib.writes_sub_of_mem (y := main_call3_v13) rfl (by decide),
    Cert.RefLib.writes_sub_of_mem (y := main_call3_cst_4) rfl (by decide),
    Cert.RefLib.writes_sub_of_mem (y := main_call3_call0_v0) rfl (by decide),
    Cert.RefLib.writes_sub_of_mem (y := main_call3_call0_v1) rfl (by decide),
    Cert.RefLib.writes_sub_of_mem (y := main_v197) rfl (by decide)⟩
theorem p25_writes : Cert.RefLib.WritesIn (p25 : List (HloOp τ sig (Elt F))) p25_W := Cert.RefLib.WritesIn.of_forall p25_writesF

/-- Operations 299 … 312 of @main's 443, called functions' operations inline: the part of the stretch that ends in `main_v210` lying in window 4. -/
abbrev p26 : List (HloOp τ sig (Elt F)) :=
  [ unary main_arg12 main_v198 (broadcastInDim S1x50000x1 ![1] bcast_S50000_S1x50000x1_1 : (⟨S50000, .f32⟩ : BufTy).Contents (Elt F) → (⟨S1x50000x1, .f32⟩ : BufTy).Contents (Elt F)),
    unary main_v196 main_v199 (broadcastInDim S4x50000x64 ![0, 1, 2] bcast_S1x50000x1_S4x50000x64_0_1_2 : (⟨S1x50000x1, .f32⟩ : BufTy).Contents (Elt F) → (⟨S4x50000x64, .f32⟩ : BufTy).Contents (Elt F)),
    binary main_v192 main_v199 main_v200 (subf : (⟨S4x50000x64, .f32⟩ : BufTy).Contents (Elt F) → (⟨S4x50000x64, .f32⟩ : BufTy).Contents (Elt F) → (⟨S4x50000x64, .f32⟩ : BufTy).Contents (Elt F)),
    unary main_v198 main_v201 (broadcastInDim S4x50000x64 ![0, 1, 2] bcast_S1x50000x1_S4x50000x64_0_1_2 : (⟨S1x50000x1, .f32⟩ : BufTy).Contents (Elt F) → (⟨S4x50000x64, .f32⟩ : BufTy).Contents (Elt F)),
    binary main_v201 main_v200 main_v202 (mulf : (⟨S4x50000x64, .f32⟩ : BufTy).Contents (Elt F) → (⟨S4x50000x64, .f32⟩ : BufTy).Contents (Elt F) → (⟨S4x50000x64, .f32⟩ : BufTy).Contents (Elt F)),
    nullary main_cst_46 (constant S_ .f32 0x3727C5AC#32),
    unary main_cst_46 main_v203 (broadcastInDim S1x50000x1 ![] bcast_S_S1x50000x1 : (⟨S_, .f32⟩ : BufTy).Contents (Elt F) → (⟨S1x50000x1, .f32⟩ : BufTy).Contents (Elt F)),
    binary main_v197 main_v203 main_v204 (addf : (⟨S1x50000x1, .f32⟩ : BufTy).Contents (Elt F) → (⟨S1x50000x1, .f32⟩ : BufTy).Contents (Elt F) → (⟨S1x50000x1, .f32⟩ : BufTy).Contents (Elt F)),
    unary main_v204 main_v205 (Host.rsqrt : (⟨S1x50000x1, .f32⟩ : BufTy).Contents (Elt F) → (⟨S1x50000x1, .f32⟩ : BufTy).Contents (Elt F)),
    unary main_v205 main_v206 (broadcastInDim S4x50000x64 ![0, 1, 2] bcast_S1x50000x1_S4x50000x64_0_1_2 : (⟨S1x50000x1, .f32⟩ : BufTy).Contents (Elt F) → (⟨S4x50000x64, .f32⟩ : BufTy).Contents (Elt F)),
    binary main_v202 main_v206 main_v207 (mulf : (⟨S4x50000x64, .f32⟩ : BufTy).Contents (Elt F) → (⟨S4x50000x64, .f32⟩ : BufTy).Contents (Elt F) → (⟨S4x50000x64, .f32⟩ : BufTy).Contents (Elt F)),
    unary main_arg13 main_v208 (broadcastInDim S1x50000x1 ![1] bcast_S50000_S1x50000x1_1 : (⟨S50000, .f32⟩ : BufTy).Contents (Elt F) → (⟨S1x50000x1, .f32⟩ : BufTy).Contents (Elt F)),
    unary main_v208 main_v209 (broadcastInDim S4x50000x64 ![0, 1, 2] bcast_S1x50000x1_S4x50000x64_0_1_2 : (⟨S1x50000x1, .f32⟩ : BufTy).Contents (Elt F) → (⟨S4x50000x64, .f32⟩ : BufTy).Contents (Elt F)),
    binary main_v207 main_v209 main_v210 (addf : (⟨S4x50000x64, .f32⟩ : BufTy).Contents (Elt F) → (⟨S4x50000x64, .f32⟩ : BufTy).Contents (Elt F) → (⟨S4x50000x64, .f32⟩ : BufTy).Contents (Elt F)) ]

theorem p26_subF : (p26 : List (HloOp τ sig (Elt F))).Forall fun op => op.bufs ⊆ tcRefs τ sig :=
  ⟨unary_bufs_sub ..,
    unary_bufs_sub ..,
    binary_bufs_sub ..,
    unary_bufs_sub ..,
    binary_bufs_sub ..,
    nullary_bufs_sub ..,
    unary_bufs_sub ..,
    binary_bufs_sub ..,
    unary_bufs_sub ..,
    unary_bufs_sub ..,
    binary_bufs_sub ..,
    unary_bufs_sub ..,
    unary_bufs_sub ..,
    binary_bufs_sub ..⟩
theorem p26_sub : ∀ op ∈ (p26 : List (HloOp τ sig (Elt F))), op.bufs ⊆ tcRefs τ sig := List.forall_iff_forall_mem.mp p26_subF
theorem p26_fresh : ∀ op ∈ (p26 : List (HloOp τ sig (Elt F))), op.fresh = ∅ := by
  intro op h; (repeat (cases h with | head => rfl | tail _ h => ?_)); exact nomatch h
/-- The buffers the operations of `p26` write, in order. -/
abbrev p26_W : List (Ref sig .tc) := [main_v198, main_v199, main_v200, main_v201, main_v202, main_cst_46, main_v203, main_v204, main_v205, main_v206, main_v207, main_v208, main_v209, main_v210]
theorem p26_writesF : (p26 : List (HloOp τ sig (Elt F))).Forall fun op => op.writes ⊆ (p26_W.map (Proc.devRef (τ := τ) .tc)).toFinset :=
  ⟨Cert.RefLib.writes_sub_of_mem (y := main_v198) rfl (by decide),
    Cert.RefLib.writes_sub_of_mem (y := main_v199) rfl (by decide),
    Cert.RefLib.writes_sub_of_mem (y := main_v200) rfl (by decide),
    Cert.RefLib.writes_sub_of_mem (y := main_v201) rfl (by decide),
    Cert.RefLib.writes_sub_of_mem (y := main_v202) rfl (by decide),
    Cert.RefLib.writes_sub_of_mem (y := main_cst_46) rfl (by decide),
    Cert.RefLib.writes_sub_of_mem (y := main_v203) rfl (by decide),
    Cert.RefLib.writes_sub_of_mem (y := main_v204) rfl (by decide),
    Cert.RefLib.writes_sub_of_mem (y := main_v205) rfl (by decide),
    Cert.RefLib.writes_sub_of_mem (y := main_v206) rfl (by decide),
    Cert.RefLib.writes_sub_of_mem (y := main_v207) rfl (by decide),
    Cert.RefLib.writes_sub_of_mem (y := main_v208) rfl (by decide),
    Cert.RefLib.writes_sub_of_mem (y := main_v209) rfl (by decide),
    Cert.RefLib.writes_sub_of_mem (y := main_v210) rfl (by decide)⟩
theorem p26_writes : Cert.RefLib.WritesIn (p26 : List (HloOp τ sig (Elt F))) p26_W := Cert.RefLib.WritesIn.of_forall p26_writesF

/-- Operations 313 … 320 of @main's 443, called functions' operations inline: the part of the stretch that ends in `main_v211` lying in window 4. -/
abbrev p27 : List (HloOp τ sig (Elt F)) :=
  [ nullary main_cst_47 (constant S_ .f32 0x3C23D70A#32),
    TRef.nullary main_call4.cst (constant S_ .f32 0x00000000#32),
    TRef.unary main_call4.cst main_call4.v0 (broadcastInDim S4x50000x64 ![] bcast_S_S4x50000x64),
    TRef.binary (.of main_v210 : TRef sig ⟨S4x50000x64, .f32⟩) main_call4.v0 main_call4.v1 (cmpf .oge),
    TRef.unary (.of main_cst_47 : TRef sig ⟨S_, .f32⟩) main_call4.v2 id,
    TRef.unary main_call4.v2 main_call4.v3 (broadcastInDim S4x50000x64 ![] bcast_S_S4x50000x64),
    TRef.binary main_call4.v3 (.of main_v210 : TRef sig ⟨S4x50000x64, .f32⟩) main_call4.v4 mulf,
    TRef.ternary main_call4.v1 (.of main_v210 : TRef sig ⟨S4x50000x64, .f32⟩) main_call4.v4 main_call4.call0.v0 select ]

theorem p27_subF : (p27 : List (HloOp τ sig (Elt F))).Forall fun op => op.bufs ⊆ tcRefs τ sig :=
  ⟨nullary_bufs_sub ..,
    nullary_bufs_sub ..,
    unary_bufs_sub ..,
    binary_bufs_sub ..,
    unary_bufs_sub ..,
    unary_bufs_sub ..,
    binary_bufs_sub ..,
    ternary_bufs_sub ..⟩
theorem p27_sub : ∀ op ∈ (p27 : List (HloOp τ sig (Elt F))), op.bufs ⊆ tcRefs τ sig := List.forall_iff_forall_mem.mp p27_subF
theorem p27_fresh : ∀ op ∈ (p27 : List (HloOp τ sig (Elt F))), op.fresh = ∅ := by
  intro op h; (repeat (cases h with | head => rfl | tail _ h => ?_)); exact nomatch h
/-- The buffers the operations of `p27` write, in order. -/
abbrev p27_W : List (Ref sig .tc) := [main_cst_47, main_call4_cst, main_call4_v0, main_call4_v1, main_call4_v2, main_call4_v3, main_call4_v4, main_v211]
theorem p27_writesF : (p27 : List (HloOp τ sig (Elt F))).Forall fun op => op.writes ⊆ (p27_W.map (Proc.devRef (τ := τ) .tc)).toFinset :=
  ⟨Cert.RefLib.writes_sub_of_mem (y := main_cst_47) rfl (by decide),
    Cert.RefLib.writes_sub_of_mem (y := main_call4_cst) rfl (by decide),
    Cert.RefLib.writes_sub_of_mem (y := main_call4_v0) rfl (by decide),
    Cert.RefLib.writes_sub_of_mem (y := main_call4_v1) rfl (by decide),
    Cert.RefLib.writes_sub_of_mem (y := main_call4_v2) rfl (by decide),
    Cert.RefLib.writes_sub_of_mem (y := main_call4_v3) rfl (by decide),
    Cert.RefLib.writes_sub_of_mem (y := main_call4_v4) rfl (by decide),
    Cert.RefLib.writes_sub_of_mem (y := main_v211) rfl (by decide)⟩
theorem p27_writes : Cert.RefLib.WritesIn (p27 : List (HloOp τ sig (Elt F))) p27_W := Cert.RefLib.WritesIn.of_forall p27_writesF

/-- Operations 321 … 323 of @main's 443, called functions' operations inline: the part of the stretch that ends in `main_v214` lying in window 4. -/
abbrev p28 : List (HloOp τ sig (Elt F)) :=
  [ unary main_arg8 main_v212 ((extractStridedSlice S1x64x2 ![0, 0, 0] · slices_S4x64x2_S1x64x2_0_0_0) : (⟨S4x64x2, .f32⟩ : BufTy).Contents (Elt F) → (⟨S1x64x2, .f32⟩ : BufTy).Contents (Elt F)),
    reshape main_v212 main_v213 rfl shapeCasts_S1x64x2_S64x2,
    binary main_v211 main_v213 main_v214 ((fun l r => Host.dotGeneral dot_S4x50000x64_S64x2_S4x50000x2_2_0_01_1_n_n none l r) : (⟨S4x50000x64, .f32⟩ : BufTy).Contents (Elt F) → (⟨S64x2, .f32⟩ : BufTy).Contents (Elt F) → (⟨S4x50000x2, .f32⟩ : BufTy).Contents (Elt F)) ]

theorem p28_subF : (p28 : List (HloOp τ sig (Elt F))).Forall fun op => op.bufs ⊆ tcRefs τ sig :=
  ⟨unary_bufs_sub ..,
    reshape_bufs_sub ..,
    binary_bufs_sub ..⟩
theorem p28_sub : ∀ op ∈ (p28 : List (HloOp τ sig (Elt F))), op.bufs ⊆ tcRefs τ sig := List.forall_iff_forall_mem.mp p28_subF
theorem p28_fresh : ∀ op ∈ (p28 : List (HloOp τ sig (Elt F))), op.fresh = ∅ := by
  intro op h; (repeat (cases h with | head => rfl | tail _ h => ?_)); exact nomatch h
/-- The buffers the operations of `p28` write, in order. -/
abbrev p28_W : List (Ref sig .tc) := [main_v212, main_v213, main_v214]
theorem p28_writesF : (p28 : List (HloOp τ sig (Elt F))).Forall fun op => op.writes ⊆ (p28_W.map (Proc.devRef (τ := τ) .tc)).toFinset :=
  ⟨Cert.RefLib.writes_sub_of_mem (y := main_v212) rfl (by decide),
    Cert.RefLib.writes_sub_of_mem (y := main_v213) rfl (by decide),
    Cert.RefLib.writes_sub_of_mem (y := main_v214) rfl (by decide)⟩
theorem p28_writes : Cert.RefLib.WritesIn (p28 : List (HloOp τ sig (Elt F))) p28_W := Cert.RefLib.WritesIn.of_forall p28_writesF

/-- Operations 324 … 346 of @main's 443, called functions' operations inline: the part of the stretch that ends in `main_v232` lying in window 4. -/
abbrev p29 : List (HloOp τ sig (Elt F)) :=
  [ nullary main_c_48 (constantI S_ 32 0#32),
    unary main_c_48 main_v215 (broadcastInDim S400000 ![] bcast_S_S400000 : (⟨S_, .i32⟩ : BufTy).Contents (Elt F) → (⟨S400000, .i32⟩ : BufTy).Contents (Elt F)),
    binary main_arg1 main_v215 main_v216 (cmpi .slt : (⟨S400000, .i32⟩ : BufTy).Contents (Elt F) → (⟨S400000, .i32⟩ : BufTy).Contents (Elt F) → (⟨S400000, .i1⟩ : BufTy).Contents (Elt F)),
    nullary main_c_49 (constantI S_ 32 50000#32),
    unary main_c_49 main_v217 (broadcastInDim S400000 ![] bcast_S_S400000 : (⟨S_, .i32⟩ : BufTy).Contents (Elt F) → (⟨S400000, .i32⟩ : BufTy).Contents (Elt F)),
    binary main_arg1 main_v217 main_v218 (addi : (⟨S400000, .i32⟩ : BufTy).Contents (Elt F) → (⟨S400000, .i32⟩ : BufTy).Contents (Elt F) → (⟨S400000, .i32⟩ : BufTy).Contents (Elt F)),
    ternary main_v216 main_v218 main_arg1 main_v219 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v219 main_v220 (broadcastInDim S400000x1 ![0] bcast_S400000_S400000x1_0 : (⟨S400000, .i32⟩ : BufTy).Contents (Elt F) → (⟨S400000x1, .i32⟩ : BufTy).Contents (Elt F)),
    binary main_v211 main_v220 main_v221 ((fun x i => Host.gather gather_S4x50000x64_S400000x1_S4x400000x64_02_1_n_n_1_1_4164 x i) : (⟨S4x50000x64, .f32⟩ : BufTy).Contents (Elt F) → (⟨S400000x1, .i32⟩ : BufTy).Contents (Elt F) → (⟨S4x400000x64, .f32⟩ : BufTy).Contents (Elt F)),
    unary main_v29 main_v222 (broadcastInDim S1x400000x1 ![1] bcast_S400000_S1x400000x1_1 : (⟨S400000, .f32⟩ : BufTy).Contents (Elt F) → (⟨S1x400000x1, .f32⟩ : BufTy).Contents (Elt F)),
    unary main_v222 main_v223 (broadcastInDim S4x400000x64 ![0, 1, 2] bcast_S1x400000x1_S4x400000x64_0_1_2 : (⟨S1x400000x1, .f32⟩ : BufTy).Contents (Elt F) → (⟨S4x400000x64, .f32⟩ : BufTy).Contents (Elt F)),
    binary main_v221 main_v223 main_v224 (mulf : (⟨S4x400000x64, .f32⟩ : BufTy).Contents (Elt F) → (⟨S4x400000x64, .f32⟩ : BufTy).Contents (Elt F) → (⟨S4x400000x64, .f32⟩ : BufTy).Contents (Elt F)),
    nullary main_cst_50 (constant S_ .f32 0x00000000#32),
    unary main_cst_50 main_v225 (broadcastInDim S4x50000x64 ![] bcast_S_S4x50000x64 : (⟨S_, .f32⟩ : BufTy).Contents (Elt F) → (⟨S4x50000x64, .f32⟩ : BufTy).Contents (Elt F)),
    nullary main_c_51 (constantI S_ 32 0#32),
    unary main_c_51 main_v226 (broadcastInDim S400000 ![] bcast_S_S400000 : (⟨S_, .i32⟩ : BufTy).Contents (Elt F) → (⟨S400000, .i32⟩ : BufTy).Contents (Elt F)),
    binary main_arg2 main_v226 main_v227 (cmpi .slt : (⟨S400000, .i32⟩ : BufTy).Contents (Elt F) → (⟨S400000, .i32⟩ : BufTy).Contents (Elt F) → (⟨S400000, .i1⟩ : BufTy).Contents (Elt F)),
    nullary main_c_52 (constantI S_ 32 50000#32),
    unary main_c_52 main_v228 (broadcastInDim S400000 ![] bcast_S_S400000 : (⟨S_, .i32⟩ : BufTy).Contents (Elt F) → (⟨S400000, .i32⟩ : BufTy).Contents (Elt F)),
    binary main_arg2 main_v228 main_v229 (addi : (⟨S400000, .i32⟩ : BufTy).Contents (Elt F) → (⟨S400000, .i32⟩ : BufTy).Contents (Elt F) → (⟨S400000, .i32⟩ : BufTy).Contents (Elt F)),
    ternary main_v227 main_v229 main_arg2 main_v230 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v230 main_v231 (broadcastInDim S400000x1 ![0] bcast_S400000_S400000x1_0 : (⟨S400000, .i32⟩ : BufTy).Contents (Elt F) → (⟨S400000x1, .i32⟩ : BufTy).Contents (Elt F)),
    ternary main_v225 main_v231 main_v224 main_v232 ((fun x i u => Host.scatterAdd scatter_S4x50000x64_S400000x1_S4x400000x64_02_1_1_1 x i u) : (⟨S4x50000x64, .f32⟩ : BufTy).Contents (Elt F) → (⟨S400000x1, .i32⟩ : BufTy).Contents (Elt F) → (⟨S4x400000x64, .f32⟩ : BufTy).Contents (Elt F) → (⟨S4x50000x64, .f32⟩ : BufTy).Contents (Elt F)) ]

theorem p29_subF : (p29 : List (HloOp τ sig (Elt F))).Forall fun op => op.bufs ⊆ tcRefs τ sig :=
  ⟨nullary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    unary_bufs_sub ..,
    unary_bufs_sub ..,
    binary_bufs_sub ..,
    nullary_bufs_sub ..,
    unary_bufs_sub ..,
    nullary_bufs_sub ..,
    unary_bufs_sub ..,
    binary_bufs_sub ..,
    nullary_bufs_sub ..,
    unary_bufs_sub ..,
    binary_bufs_sub ..,
    ternary_bufs_sub ..,
    unary_bufs_sub ..,
    ternary_bufs_sub ..⟩
theorem p29_sub : ∀ op ∈ (p29 : List (HloOp τ sig (Elt F))), op.bufs ⊆ tcRefs τ sig := List.forall_iff_forall_mem.mp p29_subF
theorem p29_fresh : ∀ op ∈ (p29 : List (HloOp τ sig (Elt F))), op.fresh = ∅ := by
  intro op h; (repeat (cases h with | head => rfl | tail _ h => ?_)); exact nomatch h
/-- The buffers the operations of `p29` write, in order. -/
abbrev p29_W : List (Ref sig .tc) := [main_c_48, main_v215, main_v216, main_c_49, main_v217, main_v218, main_v219, main_v220, main_v221, main_v222, main_v223, main_v224, main_cst_50, main_v225, main_c_51, main_v226, main_v227, main_c_52, main_v228, main_v229, main_v230, main_v231, main_v232]
theorem p29_writesF : (p29 : List (HloOp τ sig (Elt F))).Forall fun op => op.writes ⊆ (p29_W.map (Proc.devRef (τ := τ) .tc)).toFinset :=
  ⟨Cert.RefLib.writes_sub_of_mem (y := main_c_48) rfl (by decide),
    Cert.RefLib.writes_sub_of_mem (y := main_v215) rfl (by decide),
    Cert.RefLib.writes_sub_of_mem (y := main_v216) rfl (by decide),
    Cert.RefLib.writes_sub_of_mem (y := main_c_49) rfl (by decide),
    Cert.RefLib.writes_sub_of_mem (y := main_v217) rfl (by decide),
    Cert.RefLib.writes_sub_of_mem (y := main_v218) rfl (by decide),
    Cert.RefLib.writes_sub_of_mem (y := main_v219) rfl (by decide),
    Cert.RefLib.writes_sub_of_mem (y := main_v220) rfl (by decide),
    Cert.RefLib.writes_sub_of_mem (y := main_v221) rfl (by decide),
    Cert.RefLib.writes_sub_of_mem (y := main_v222) rfl (by decide),
    Cert.RefLib.writes_sub_of_mem (y := main_v223) rfl (by decide),
    Cert.RefLib.writes_sub_of_mem (y := main_v224) rfl (by decide),
    Cert.RefLib.writes_sub_of_mem (y := main_cst_50) rfl (by decide),
    Cert.RefLib.writes_sub_of_mem (y := main_v225) rfl (by decide),
    Cert.RefLib.writes_sub_of_mem (y := main_c_51) rfl (by decide),
    Cert.RefLib.writes_sub_of_mem (y := main_v226) rfl (by decide),
    Cert.RefLib.writes_sub_of_mem (y := main_v227) rfl (by decide),
    Cert.RefLib.writes_sub_of_mem (y := main_c_52) rfl (by decide),
    Cert.RefLib.writes_sub_of_mem (y := main_v228) rfl (by decide),
    Cert.RefLib.writes_sub_of_mem (y := main_v229) rfl (by decide),
    Cert.RefLib.writes_sub_of_mem (y := main_v230) rfl (by decide),
    Cert.RefLib.writes_sub_of_mem (y := main_v231) rfl (by decide),
    Cert.RefLib.writes_sub_of_mem (y := main_v232) rfl (by decide)⟩
theorem p29_writes : Cert.RefLib.WritesIn (p29 : List (HloOp τ sig (Elt F))) p29_W := Cert.RefLib.WritesIn.of_forall p29_writesF

/-- Operations 347 … 350 of @main's 443, called functions' operations inline: the part of the stretch that ends in `main_v236` lying in window 4. -/
abbrev p30 : List (HloOp τ sig (Elt F)) :=
  [ unary main_arg8 main_v233 ((extractStridedSlice S1x64x2 ![1, 0, 0] · slices_S4x64x2_S1x64x2_1_0_0) : (⟨S4x64x2, .f32⟩ : BufTy).Contents (Elt F) → (⟨S1x64x2, .f32⟩ : BufTy).Contents (Elt F)),
    reshape main_v233 main_v234 rfl shapeCasts_S1x64x2_S64x2,
    binary main_v232 main_v234 main_v235 ((fun l r => Host.dotGeneral dot_S4x50000x64_S64x2_S4x50000x2_2_0_01_1_n_n none l r) : (⟨S4x50000x64, .f32⟩ : BufTy).Contents (Elt F) → (⟨S64x2, .f32⟩ : BufTy).Contents (Elt F) → (⟨S4x50000x2, .f32⟩ : BufTy).Contents (Elt F)),
    binary main_v214 main_v235 main_v236 (addf : (⟨S4x50000x2, .f32⟩ : BufTy).Contents (Elt F) → (⟨S4x50000x2, .f32⟩ : BufTy).Contents (Elt F) → (⟨S4x50000x2, .f32⟩ : BufTy).Contents (Elt F)) ]

theorem p30_subF : (p30 : List (HloOp τ sig (Elt F))).Forall fun op => op.bufs ⊆ tcRefs τ sig :=
  ⟨unary_bufs_sub ..,
    reshape_bufs_sub ..,
    binary_bufs_sub ..,
    binary_bufs_sub ..⟩
theorem p30_sub : ∀ op ∈ (p30 : List (HloOp τ sig (Elt F))), op.bufs ⊆ tcRefs τ sig := List.forall_iff_forall_mem.mp p30_subF
theorem p30_fresh : ∀ op ∈ (p30 : List (HloOp τ sig (Elt F))), op.fresh = ∅ := by
  intro op h; (repeat (cases h with | head => rfl | tail _ h => ?_)); exact nomatch h
/-- The buffers the operations of `p30` write, in order. -/
abbrev p30_W : List (Ref sig .tc) := [main_v233, main_v234, main_v235, main_v236]
theorem p30_writesF : (p30 : List (HloOp τ sig (Elt F))).Forall fun op => op.writes ⊆ (p30_W.map (Proc.devRef (τ := τ) .tc)).toFinset :=
  ⟨Cert.RefLib.writes_sub_of_mem (y := main_v233) rfl (by decide),
    Cert.RefLib.writes_sub_of_mem (y := main_v234) rfl (by decide),
    Cert.RefLib.writes_sub_of_mem (y := main_v235) rfl (by decide),
    Cert.RefLib.writes_sub_of_mem (y := main_v236) rfl (by decide)⟩
theorem p30_writes : Cert.RefLib.WritesIn (p30 : List (HloOp τ sig (Elt F))) p30_W := Cert.RefLib.WritesIn.of_forall p30_writesF

/-- Operations 351 … 358 of @main's 443, called functions' operations inline: the part of the stretch that ends in `main_v254` lying in window 4. -/
abbrev p31 : List (HloOp τ sig (Elt F)) :=
  [ nullary main_c_53 (constantI S_ 32 0#32),
    unary main_c_53 main_v237 (broadcastInDim S400000 ![] bcast_S_S400000 : (⟨S_, .i32⟩ : BufTy).Contents (Elt F) → (⟨S400000, .i32⟩ : BufTy).Contents (Elt F)),
    binary main_arg1 main_v237 main_v238 (cmpi .slt : (⟨S400000, .i32⟩ : BufTy).Contents (Elt F) → (⟨S400000, .i32⟩ : BufTy).Contents (Elt F) → (⟨S400000, .i1⟩ : BufTy).Contents (Elt F)),
    nullary main_c_54 (constantI S_ 32 50000#32),
    unary main_c_54 main_v239 (broadcastInDim S400000 ![] bcast_S_S400000 : (⟨S_, .i32⟩ : BufTy).Contents (Elt F) → (⟨S400000, .i32⟩ : BufTy).Contents (Elt F)),
    binary main_arg1 main_v239 main_v240 (addi : (⟨S400000, .i32⟩ : BufTy).Contents (Elt F) → (⟨S400000, .i32⟩ : BufTy).Contents (Elt F) → (⟨S400000, .i32⟩ : BufTy).Contents (Elt F)),
    ternary main_v238 main_v240 main_arg1 main_v241 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v241 main_v242 (broadcastInDim S400000x1 ![0] bcast_S400000_S400000x1_0 : (⟨S400000, .i32⟩ : BufTy).Contents (Elt F) → (⟨S400000x1, .i32⟩ : BufTy).Contents (Elt F)) ]

theorem p31_subF : (p31 : List (HloOp τ sig (Elt F))).Forall fun op => op.bufs ⊆ tcRefs τ sig :=
  ⟨nullary_bufs_sub ..,
    unary_bufs_sub ..,
    binary_bufs_sub ..,
    nullary_bufs_sub ..,
    unary_bufs_sub ..,
    binary_bufs_sub ..,
    ternary_bufs_sub ..,
    unary_bufs_sub ..⟩
theorem p31_sub : ∀ op ∈ (p31 : List (HloOp τ sig (Elt F))), op.bufs ⊆ tcRefs τ sig := List.forall_iff_forall_mem.mp p31_subF
theorem p31_fresh : ∀ op ∈ (p31 : List (HloOp τ sig (Elt F))), op.fresh = ∅ := by
  intro op h; (repeat (cases h with | head => rfl | tail _ h => ?_)); exact nomatch h
/-- The buffers the operations of `p31` write, in order. -/
abbrev p31_W : List (Ref sig .tc) := [main_c_53, main_v237, main_v238, main_c_54, main_v239, main_v240, main_v241, main_v242]
theorem p31_writesF : (p31 : List (HloOp τ sig (Elt F))).Forall fun op => op.writes ⊆ (p31_W.map (Proc.devRef (τ := τ) .tc)).toFinset :=
  ⟨Cert.RefLib.writes_sub_of_mem (y := main_c_53) rfl (by decide),
    Cert.RefLib.writes_sub_of_mem (y := main_v237) rfl (by decide),
    Cert.RefLib.writes_sub_of_mem (y := main_v238) rfl (by decide),
    Cert.RefLib.writes_sub_of_mem (y := main_c_54) rfl (by decide),
    Cert.RefLib.writes_sub_of_mem (y := main_v239) rfl (by decide),
    Cert.RefLib.writes_sub_of_mem (y := main_v240) rfl (by decide),
    Cert.RefLib.writes_sub_of_mem (y := main_v241) rfl (by decide),
    Cert.RefLib.writes_sub_of_mem (y := main_v242) rfl (by decide)⟩
theorem p31_writes : Cert.RefLib.WritesIn (p31 : List (HloOp τ sig (Elt F))) p31_W := Cert.RefLib.WritesIn.of_forall p31_writesF

/-- Window 4's operations, in order. -/
def w4 : List (HloOp τ sig (Elt F)) := p24 ++ p25 ++ p26 ++ p27 ++ p28 ++ p29 ++ p30 ++ p31

set_option maxRecDepth 16384 in
set_option maxHeartbeats 4000000 in
/-- The window is that straight line: each call unfolds to its function's operations over the call's buffers. -/
theorem main_part4_eq (c : Dev nD) : main_part4 (F := F) c = seq w4 := rfl

theorem w4_sub : ∀ op ∈ (w4 : List (HloOp τ sig (Elt F))), op.bufs ⊆ tcRefs τ sig :=
  Cert.RefLib.forall_append (Cert.RefLib.forall_append (Cert.RefLib.forall_append (Cert.RefLib.forall_append (Cert.RefLib.forall_append (Cert.RefLib.forall_append (Cert.RefLib.forall_append (p24_sub) p25_sub) p26_sub) p27_sub) p28_sub) p29_sub) p30_sub) p31_sub
theorem w4_fresh : ∀ op ∈ (w4 : List (HloOp τ sig (Elt F))), op.fresh = ∅ :=
  Cert.RefLib.forall_append (Cert.RefLib.forall_append (Cert.RefLib.forall_append (Cert.RefLib.forall_append (Cert.RefLib.forall_append (Cert.RefLib.forall_append (Cert.RefLib.forall_append (p24_fresh) p25_fresh) p26_fresh) p27_fresh) p28_fresh) p29_fresh) p30_fresh) p31_fresh
/-- The buffers window 4 writes, in order. -/
def w4_W : List (Ref sig .tc) := p24_W ++ p25_W ++ p26_W ++ p27_W ++ p28_W ++ p29_W ++ p30_W ++ p31_W
theorem w4_writes : Cert.RefLib.WritesIn (w4 : List (HloOp τ sig (Elt F))) w4_W :=
  Cert.RefLib.WritesIn.append (Cert.RefLib.WritesIn.append (Cert.RefLib.WritesIn.append (Cert.RefLib.WritesIn.append (Cert.RefLib.WritesIn.append (Cert.RefLib.WritesIn.append (Cert.RefLib.WritesIn.append (p24_writes) p25_writes) p26_writes) p27_writes) p28_writes) p29_writes) p30_writes) p31_writes

end Cert.ReferenceIdeal.RefRun

end
-- ==== Proof.RefRunW5.lean ====
/- Window 5 of the reference program's @main (`main_part5`) as literal lists of its host operations, the operations of
   each called function standing at the call over that call's buffers; each list with the facts the run of a straight
   line asks of it (its buffers are TensorCore references, no operation leaves a buffer undetermined) and the list of
   buffers it writes; and the window is the straight line of these lists in order. -/
import proofs.«159603_j71347996721325_2_alg».proof.Proof.Gen.ReferenceIdeal
import Idealize.ShloMosaic.Lib.StableHlo.Run
import proofs.«159603_j71347996721325_2_alg».proof.Proof.RefLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 359 … 373 of @main's 443, called functions' operations inline: the part of the stretch that ends in `main_v254` lying in window 5. -/
abbrev p32 : List (HloOp τ sig (Elt F)) :=
  [ binary main_v232 main_v242 main_v243 ((fun x i => Host.gather gather_S4x50000x64_S400000x1_S4x400000x64_02_1_n_n_1_1_4164 x i) : (⟨S4x50000x64, .f32⟩ : BufTy).Contents (Elt F) → (⟨S400000x1, .i32⟩ : BufTy).Contents (Elt F) → (⟨S4x400000x64, .f32⟩ : BufTy).Contents (Elt F)),
    unary main_v29 main_v244 (broadcastInDim S1x400000x1 ![1] bcast_S400000_S1x400000x1_1 : (⟨S400000, .f32⟩ : BufTy).Contents (Elt F) → (⟨S1x400000x1, .f32⟩ : BufTy).Contents (Elt F)),
    unary main_v244 main_v245 (broadcastInDim S4x400000x64 ![0, 1, 2] bcast_S1x400000x1_S4x400000x64_0_1_2 : (⟨S1x400000x1, .f32⟩ : BufTy).Contents (Elt F) → (⟨S4x400000x64, .f32⟩ : BufTy).Contents (Elt F)),
    binary main_v243 main_v245 main_v246 (mulf : (⟨S4x400000x64, .f32⟩ : BufTy).Contents (Elt F) → (⟨S4x400000x64, .f32⟩ : BufTy).Contents (Elt F) → (⟨S4x400000x64, .f32⟩ : BufTy).Contents (Elt F)),
    nullary main_cst_55 (constant S_ .f32 0x00000000#32),
    unary main_cst_55 main_v247 (broadcastInDim S4x50000x64 ![] bcast_S_S4x50000x64 : (⟨S_, .f32⟩ : BufTy).Contents (Elt F) → (⟨S4x50000x64, .f32⟩ : BufTy).Contents (Elt F)),
    nullary main_c_56 (constantI S_ 32 0#32),
    unary main_c_56 main_v248 (broadcastInDim S400000 ![] bcast_S_S400000 : (⟨S_, .i32⟩ : BufTy).Contents (Elt F) → (⟨S400000, .i32⟩ : BufTy).Contents (Elt F)),
    binary main_arg2 main_v248 main_v249 (cmpi .slt : (⟨S400000, .i32⟩ : BufTy).Contents (Elt F) → (⟨S400000, .i32⟩ : BufTy).Contents (Elt F) → (⟨S400000, .i1⟩ : BufTy).Contents (Elt F)),
    nullary main_c_57 (constantI S_ 32 50000#32),
    unary main_c_57 main_v250 (broadcastInDim S400000 ![] bcast_S_S400000 : (⟨S_, .i32⟩ : BufTy).Contents (Elt F) → (⟨S400000, .i32⟩ : BufTy).Contents (Elt F)),
    binary main_arg2 main_v250 main_v251 (addi : (⟨S400000, .i32⟩ : BufTy).Contents (Elt F) → (⟨S400000, .i32⟩ : BufTy).Contents (Elt F) → (⟨S400000, .i32⟩ : BufTy).Contents (Elt F)),
    ternary main_v249 main_v251 main_arg2 main_v252 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v252 main_v253 (broadcastInDim S400000x1 ![0] bcast_S400000_S400000x1_0 : (⟨S400000, .i32⟩ : BufTy).Contents (Elt F) → (⟨S400000x1, .i32⟩ : BufTy).Contents (Elt F)),
    ternary main_v247 main_v253 main_v246 main_v254 ((fun x i u => Host.scatterAdd scatter_S4x50000x64_S400000x1_S4x400000x64_02_1_1_1 x i u) : (⟨S4x50000x64, .f32⟩ : BufTy).Contents (Elt F) → (⟨S400000x1, .i32⟩ : BufTy).Contents (Elt F) → (⟨S4x400000x64, .f32⟩ : BufTy).Contents (Elt F) → (⟨S4x50000x64, .f32⟩ : BufTy).Contents (Elt F)) ]

theorem p32_subF : (p32 : List (HloOp τ sig (Elt F))).Forall fun op => op.bufs ⊆ tcRefs τ sig :=
  ⟨binary_bufs_sub ..,
    unary_bufs_sub ..,
    unary_bufs_sub ..,
    binary_bufs_sub ..,
    nullary_bufs_sub ..,
    unary_bufs_sub ..,
    nullary_bufs_sub ..,
    unary_bufs_sub ..,
    binary_bufs_sub ..,
    nullary_bufs_sub ..,
    unary_bufs_sub ..,
    binary_bufs_sub ..,
    ternary_bufs_sub ..,
    unary_bufs_sub ..,
    ternary_bufs_sub ..⟩
theorem p32_sub : ∀ op ∈ (p32 : List (HloOp τ sig (Elt F))), op.bufs ⊆ tcRefs τ sig := List.forall_iff_forall_mem.mp p32_subF
theorem p32_fresh : ∀ op ∈ (p32 : List (HloOp τ sig (Elt F))), op.fresh = ∅ := by
  intro op h; (repeat (cases h with | head => rfl | tail _ h => ?_)); exact nomatch h
/-- The buffers the operations of `p32` write, in order. -/
abbrev p32_W : List (Ref sig .tc) := [main_v243, main_v244, main_v245, main_v246, main_cst_55, main_v247, main_c_56, main_v248, main_v249, main_c_57, main_v250, main_v251, main_v252, main_v253, main_v254]
theorem p32_writesF : (p32 : List (HloOp τ sig (Elt F))).Forall fun op => op.writes ⊆ (p32_W.map (Proc.devRef (τ := τ) .tc)).toFinset :=
  ⟨Cert.RefLib.writes_sub_of_mem (y := main_v243) rfl (by decide),
    Cert.RefLib.writes_sub_of_mem (y := main_v244) rfl (by decide),
    Cert.RefLib.writes_sub_of_mem (y := main_v245) rfl (by decide),
    Cert.RefLib.writes_sub_of_mem (y := main_v246) rfl (by decide),
    Cert.RefLib.writes_sub_of_mem (y := main_cst_55) rfl (by decide),
    Cert.RefLib.writes_sub_of_mem (y := main_v247) rfl (by decide),
    Cert.RefLib.writes_sub_of_mem (y := main_c_56) rfl (by decide),
    Cert.RefLib.writes_sub_of_mem (y := main_v248) rfl (by decide),
    Cert.RefLib.writes_sub_of_mem (y := main_v249) rfl (by decide),
    Cert.RefLib.writes_sub_of_mem (y := main_c_57) rfl (by decide),
    Cert.RefLib.writes_sub_of_mem (y := main_v250) rfl (by decide),
    Cert.RefLib.writes_sub_of_mem (y := main_v251) rfl (by decide),
    Cert.RefLib.writes_sub_of_mem (y := main_v252) rfl (by decide),
    Cert.RefLib.writes_sub_of_mem (y := main_v253) rfl (by decide),
    Cert.RefLib.writes_sub_of_mem (y := main_v254) rfl (by decide)⟩
theorem p32_writes : Cert.RefLib.WritesIn (p32 : List (HloOp τ sig (Elt F))) p32_W := Cert.RefLib.WritesIn.of_forall p32_writesF

/-- Operations 374 … 377 of @main's 443, called functions' operations inline: the part of the stretch that ends in `main_v258` lying in window 5. -/
abbrev p33 : List (HloOp τ sig (Elt F)) :=
  [ unary main_arg8 main_v255 ((extractStridedSlice S1x64x2 ![2, 0, 0] · slices_S4x64x2_S1x64x2_2_0_0) : (⟨S4x64x2, .f32⟩ : BufTy).Contents (Elt F) → (⟨S1x64x2, .f32⟩ : BufTy).Contents (Elt F)),
    reshape main_v255 main_v256 rfl shapeCasts_S1x64x2_S64x2,
    binary main_v254 main_v256 main_v257 ((fun l r => Host.dotGeneral dot_S4x50000x64_S64x2_S4x50000x2_2_0_01_1_n_n none l r) : (⟨S4x50000x64, .f32⟩ : BufTy).Contents (Elt F) → (⟨S64x2, .f32⟩ : BufTy).Contents (Elt F) → (⟨S4x50000x2, .f32⟩ : BufTy).Contents (Elt F)),
    binary main_v236 main_v257 main_v258 (addf : (⟨S4x50000x2, .f32⟩ : BufTy).Contents (Elt F) → (⟨S4x50000x2, .f32⟩ : BufTy).Contents (Elt F) → (⟨S4x50000x2, .f32⟩ : BufTy).Contents (Elt F)) ]

theorem p33_subF : (p33 : List (HloOp τ sig (Elt F))).Forall fun op => op.bufs ⊆ tcRefs τ sig :=
  ⟨unary_bufs_sub ..,
    reshape_bufs_sub ..,
    binary_bufs_sub ..,
    binary_bufs_sub ..⟩
theorem p33_sub : ∀ op ∈ (p33 : List (HloOp τ sig (Elt F))), op.bufs ⊆ tcRefs τ sig := List.forall_iff_forall_mem.mp p33_subF
theorem p33_fresh : ∀ op ∈ (p33 : List (HloOp τ sig (Elt F))), op.fresh = ∅ := by
  intro op h; (repeat (cases h with | head => rfl | tail _ h => ?_)); exact nomatch h
/-- The buffers the operations of `p33` write, in order. -/
abbrev p33_W : List (Ref sig .tc) := [main_v255, main_v256, main_v257, main_v258]
theorem p33_writesF : (p33 : List (HloOp τ sig (Elt F))).Forall fun op => op.writes ⊆ (p33_W.map (Proc.devRef (τ := τ) .tc)).toFinset :=
  ⟨Cert.RefLib.writes_sub_of_mem (y := main_v255) rfl (by decide),
    Cert.RefLib.writes_sub_of_mem (y := main_v256) rfl (by decide),
    Cert.RefLib.writes_sub_of_mem (y := main_v257) rfl (by decide),
    Cert.RefLib.writes_sub_of_mem (y := main_v258) rfl (by decide)⟩
theorem p33_writes : Cert.RefLib.WritesIn (p33 : List (HloOp τ sig (Elt F))) p33_W := Cert.RefLib.WritesIn.of_forall p33_writesF

/-- Operations 378 … 400 of @main's 443, called functions' operations inline: the part of the stretch that ends in `main_v276` lying in window 5. -/
abbrev p34 : List (HloOp τ sig (Elt F)) :=
  [ nullary main_c_58 (constantI S_ 32 0#32),
    unary main_c_58 main_v259 (broadcastInDim S400000 ![] bcast_S_S400000 : (⟨S_, .i32⟩ : BufTy).Contents (Elt F) → (⟨S400000, .i32⟩ : BufTy).Contents (Elt F)),
    binary main_arg1 main_v259 main_v260 (cmpi .slt : (⟨S400000, .i32⟩ : BufTy).Contents (Elt F) → (⟨S400000, .i32⟩ : BufTy).Contents (Elt F) → (⟨S400000, .i1⟩ : BufTy).Contents (Elt F)),
    nullary main_c_59 (constantI S_ 32 50000#32),
    unary main_c_59 main_v261 (broadcastInDim S400000 ![] bcast_S_S400000 : (⟨S_, .i32⟩ : BufTy).Contents (Elt F) → (⟨S400000, .i32⟩ : BufTy).Contents (Elt F)),
    binary main_arg1 main_v261 main_v262 (addi : (⟨S400000, .i32⟩ : BufTy).Contents (Elt F) → (⟨S400000, .i32⟩ : BufTy).Contents (Elt F) → (⟨S400000, .i32⟩ : BufTy).Contents (Elt F)),
    ternary main_v260 main_v262 main_arg1 main_v263 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v263 main_v264 (broadcastInDim S400000x1 ![0] bcast_S400000_S400000x1_0 : (⟨S400000, .i32⟩ : BufTy).Contents (Elt F) → (⟨S400000x1, .i32⟩ : BufTy).Contents (Elt F)),
    binary main_v254 main_v264 main_v265 ((fun x i => Host.gather gather_S4x50000x64_S400000x1_S4x400000x64_02_1_n_n_1_1_4164 x i) : (⟨S4x50000x64, .f32⟩ : BufTy).Contents (Elt F) → (⟨S400000x1, .i32⟩ : BufTy).Contents (Elt F) → (⟨S4x400000x64, .f32⟩ : BufTy).Contents (Elt F)),
    unary main_v29 main_v266 (broadcastInDim S1x400000x1 ![1] bcast_S400000_S1x400000x1_1 : (⟨S400000, .f32⟩ : BufTy).Contents (Elt F) → (⟨S1x400000x1, .f32⟩ : BufTy).Contents (Elt F)),
    unary main_v266 main_v267 (broadcastInDim S4x400000x64 ![0, 1, 2] bcast_S1x400000x1_S4x400000x64_0_1_2 : (⟨S1x400000x1, .f32⟩ : BufTy).Contents (Elt F) → (⟨S4x400000x64, .f32⟩ : BufTy).Contents (Elt F)),
    binary main_v265 main_v267 main_v268 (mulf : (⟨S4x400000x64, .f32⟩ : BufTy).Contents (Elt F) → (⟨S4x400000x64, .f32⟩ : BufTy).Contents (Elt F) → (⟨S4x400000x64, .f32⟩ : BufTy).Contents (Elt F)),
    nullary main_cst_60 (constant S_ .f32 0x00000000#32),
    unary main_cst_60 main_v269 (broadcastInDim S4x50000x64 ![] bcast_S_S4x50000x64 : (⟨S_, .f32⟩ : BufTy).Contents (Elt F) → (⟨S4x50000x64, .f32⟩ : BufTy).Contents (Elt F)),
    nullary main_c_61 (constantI S_ 32 0#32),
    unary main_c_61 main_v270 (broadcastInDim S400000 ![] bcast_S_S400000 : (⟨S_, .i32⟩ : BufTy).Contents (Elt F) → (⟨S400000, .i32⟩ : BufTy).Contents (Elt F)),
    binary main_arg2 main_v270 main_v271 (cmpi .slt : (⟨S400000, .i32⟩ : BufTy).Contents (Elt F) → (⟨S400000, .i32⟩ : BufTy).Contents (Elt F) → (⟨S400000, .i1⟩ : BufTy).Contents (Elt F)),
    nullary main_c_62 (constantI S_ 32 50000#32),
    unary main_c_62 main_v272 (broadcastInDim S400000 ![] bcast_S_S400000 : (⟨S_, .i32⟩ : BufTy).Contents (Elt F) → (⟨S400000, .i32⟩ : BufTy).Contents (Elt F)),
    binary main_arg2 main_v272 main_v273 (addi : (⟨S400000, .i32⟩ : BufTy).Contents (Elt F) → (⟨S400000, .i32⟩ : BufTy).Contents (Elt F) → (⟨S400000, .i32⟩ : BufTy).Contents (Elt F)),
    ternary main_v271 main_v273 main_arg2 main_v274 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v274 main_v275 (broadcastInDim S400000x1 ![0] bcast_S400000_S400000x1_0 : (⟨S400000, .i32⟩ : BufTy).Contents (Elt F) → (⟨S400000x1, .i32⟩ : BufTy).Contents (Elt F)),
    ternary main_v269 main_v275 main_v268 main_v276 ((fun x i u => Host.scatterAdd scatter_S4x50000x64_S400000x1_S4x400000x64_02_1_1_1 x i u) : (⟨S4x50000x64, .f32⟩ : BufTy).Contents (Elt F) → (⟨S400000x1, .i32⟩ : BufTy).Contents (Elt F) → (⟨S4x400000x64, .f32⟩ : BufTy).Contents (Elt F) → (⟨S4x50000x64, .f32⟩ : BufTy).Contents (Elt F)) ]

theorem p34_subF : (p34 : List (HloOp τ sig (Elt F))).Forall fun op => op.bufs ⊆ tcRefs τ sig :=
  ⟨nullary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    unary_bufs_sub ..,
    unary_bufs_sub ..,
    binary_bufs_sub ..,
    nullary_bufs_sub ..,
    unary_bufs_sub ..,
    nullary_bufs_sub ..,
    unary_bufs_sub ..,
    binary_bufs_sub ..,
    nullary_bufs_sub ..,
    unary_bufs_sub ..,
    binary_bufs_sub ..,
    ternary_bufs_sub ..,
    unary_bufs_sub ..,
    ternary_bufs_sub ..⟩
theorem p34_sub : ∀ op ∈ (p34 : List (HloOp τ sig (Elt F))), op.bufs ⊆ tcRefs τ sig := List.forall_iff_forall_mem.mp p34_subF
theorem p34_fresh : ∀ op ∈ (p34 : List (HloOp τ sig (Elt F))), op.fresh = ∅ := by
  intro op h; (repeat (cases h with | head => rfl | tail _ h => ?_)); exact nomatch h
/-- The buffers the operations of `p34` write, in order. -/
abbrev p34_W : List (Ref sig .tc) := [main_c_58, main_v259, main_v260, main_c_59, main_v261, main_v262, main_v263, main_v264, main_v265, main_v266, main_v267, main_v268, main_cst_60, main_v269, main_c_61, main_v270, main_v271, main_c_62, main_v272, main_v273, main_v274, main_v275, main_v276]
theorem p34_writesF : (p34 : List (HloOp τ sig (Elt F))).Forall fun op => op.writes ⊆ (p34_W.map (Proc.devRef (τ := τ) .tc)).toFinset :=
  ⟨Cert.RefLib.writes_sub_of_mem (y := main_c_58) rfl (by decide),
    Cert.RefLib.writes_sub_of_mem (y := main_v259) rfl (by decide),
    Cert.RefLib.writes_sub_of_mem (y := main_v260) rfl (by decide),
    Cert.RefLib.writes_sub_of_mem (y := main_c_59) rfl (by decide),
    Cert.RefLib.writes_sub_of_mem (y := main_v261) rfl (by decide),
    Cert.RefLib.writes_sub_of_mem (y := main_v262) rfl (by decide),
    Cert.RefLib.writes_sub_of_mem (y := main_v263) rfl (by decide),
    Cert.RefLib.writes_sub_of_mem (y := main_v264) rfl (by decide),
    Cert.RefLib.writes_sub_of_mem (y := main_v265) rfl (by decide),
    Cert.RefLib.writes_sub_of_mem (y := main_v266) rfl (by decide),
    Cert.RefLib.writes_sub_of_mem (y := main_v267) rfl (by decide),
    Cert.RefLib.writes_sub_of_mem (y := main_v268) rfl (by decide),
    Cert.RefLib.writes_sub_of_mem (y := main_cst_60) rfl (by decide),
    Cert.RefLib.writes_sub_of_mem (y := main_v269) rfl (by decide),
    Cert.RefLib.writes_sub_of_mem (y := main_c_61) rfl (by decide),
    Cert.RefLib.writes_sub_of_mem (y := main_v270) rfl (by decide),
    Cert.RefLib.writes_sub_of_mem (y := main_v271) rfl (by decide),
    Cert.RefLib.writes_sub_of_mem (y := main_c_62) rfl (by decide),
    Cert.RefLib.writes_sub_of_mem (y := main_v272) rfl (by decide),
    Cert.RefLib.writes_sub_of_mem (y := main_v273) rfl (by decide),
    Cert.RefLib.writes_sub_of_mem (y := main_v274) rfl (by decide),
    Cert.RefLib.writes_sub_of_mem (y := main_v275) rfl (by decide),
    Cert.RefLib.writes_sub_of_mem (y := main_v276) rfl (by decide)⟩
theorem p34_writes : Cert.RefLib.WritesIn (p34 : List (HloOp τ sig (Elt F))) p34_W := Cert.RefLib.WritesIn.of_forall p34_writesF

/-- Operations 401 … 407 of @main's 443, called functions' operations inline: the part of the stretch that ends in `main_v283` lying in window 5. -/
abbrev p35 : List (HloOp τ sig (Elt F)) :=
  [ unary main_arg8 main_v277 ((extractStridedSlice S1x64x2 ![3, 0, 0] · slices_S4x64x2_S1x64x2_3_0_0) : (⟨S4x64x2, .f32⟩ : BufTy).Contents (Elt F) → (⟨S1x64x2, .f32⟩ : BufTy).Contents (Elt F)),
    reshape main_v277 main_v278 rfl shapeCasts_S1x64x2_S64x2,
    binary main_v276 main_v278 main_v279 ((fun l r => Host.dotGeneral dot_S4x50000x64_S64x2_S4x50000x2_2_0_01_1_n_n none l r) : (⟨S4x50000x64, .f32⟩ : BufTy).Contents (Elt F) → (⟨S64x2, .f32⟩ : BufTy).Contents (Elt F) → (⟨S4x50000x2, .f32⟩ : BufTy).Contents (Elt F)),
    binary main_v258 main_v279 main_v280 (addf : (⟨S4x50000x2, .f32⟩ : BufTy).Contents (Elt F) → (⟨S4x50000x2, .f32⟩ : BufTy).Contents (Elt F) → (⟨S4x50000x2, .f32⟩ : BufTy).Contents (Elt F)),
    unary main_arg9 main_v281 (broadcastInDim S1x1x2 ![2] bcast_S2_S1x1x2_2 : (⟨S2, .f32⟩ : BufTy).Contents (Elt F) → (⟨S1x1x2, .f32⟩ : BufTy).Contents (Elt F)),
    unary main_v281 main_v282 (broadcastInDim S4x50000x2 ![0, 1, 2] bcast_S1x1x2_S4x50000x2_0_1_2 : (⟨S1x1x2, .f32⟩ : BufTy).Contents (Elt F) → (⟨S4x50000x2, .f32⟩ : BufTy).Contents (Elt F)),
    binary main_v280 main_v282 main_v283 (addf : (⟨S4x50000x2, .f32⟩ : BufTy).Contents (Elt F) → (⟨S4x50000x2, .f32⟩ : BufTy).Contents (Elt F) → (⟨S4x50000x2, .f32⟩ : BufTy).Contents (Elt F)) ]

theorem p35_subF : (p35 : List (HloOp τ sig (Elt F))).Forall fun op => op.bufs ⊆ tcRefs τ sig :=
  ⟨unary_bufs_sub ..,
    reshape_bufs_sub ..,
    binary_bufs_sub ..,
    binary_bufs_sub ..,
    unary_bufs_sub ..,
    unary_bufs_sub ..,
    binary_bufs_sub ..⟩
theorem p35_sub : ∀ op ∈ (p35 : List (HloOp τ sig (Elt F))), op.bufs ⊆ tcRefs τ sig := List.forall_iff_forall_mem.mp p35_subF
theorem p35_fresh : ∀ op ∈ (p35 : List (HloOp τ sig (Elt F))), op.fresh = ∅ := by
  intro op h; (repeat (cases h with | head => rfl | tail _ h => ?_)); exact nomatch h
/-- The buffers the operations of `p35` write, in order. -/
abbrev p35_W : List (Ref sig .tc) := [main_v277, main_v278, main_v279, main_v280, main_v281, main_v282, main_v283]
theorem p35_writesF : (p35 : List (HloOp τ sig (Elt F))).Forall fun op => op.writes ⊆ (p35_W.map (Proc.devRef (τ := τ) .tc)).toFinset :=
  ⟨Cert.RefLib.writes_sub_of_mem (y := main_v277) rfl (by decide),
    Cert.RefLib.writes_sub_of_mem (y := main_v278) rfl (by decide),
    Cert.RefLib.writes_sub_of_mem (y := main_v279) rfl (by decide),
    Cert.RefLib.writes_sub_of_mem (y := main_v280) rfl (by decide),
    Cert.RefLib.writes_sub_of_mem (y := main_v281) rfl (by decide),
    Cert.RefLib.writes_sub_of_mem (y := main_v282) rfl (by decide),
    Cert.RefLib.writes_sub_of_mem (y := main_v283) rfl (by decide)⟩
theorem p35_writes : Cert.RefLib.WritesIn (p35 : List (HloOp τ sig (Elt F))) p35_W := Cert.RefLib.WritesIn.of_forall p35_writesF

/-- Operations 408 … 415 of @main's 443, called functions' operations inline: the part of the stretch that ends in `main_v285` lying in window 5. -/
abbrev p36 : List (HloOp τ sig (Elt F)) :=
  [ TRef.unary (.of main_arg16 : TRef sig ⟨S50000x2, .f32⟩) main_call5.v0 Host.absf,
    TRef.nullary main_call5.cst (constant S_ .f32 0x7F800000#32),
    TRef.unary main_call5.cst main_call5.v1 (broadcastInDim S50000x2 ![] bcast_S_S50000x2),
    TRef.binary main_call5.v0 main_call5.v1 main_call5.v2 (cmpf .oeq),
    nullary main_cst_63 (constant S_ .f32 0x00000000#32),
    TRef.unary (.of main_cst_63 : TRef sig ⟨S_, .f32⟩) main_call6.v0 id,
    TRef.unary main_call6.v0 main_call6.v1 (broadcastInDim S50000x2 ![] bcast_S_S50000x2),
    TRef.ternary (.of main_v284 : TRef sig ⟨S50000x2, .i1⟩) main_call6.v1 (.of main_arg16 : TRef sig ⟨S50000x2, .f32⟩) main_call6.v2 select ]

theorem p36_subF : (p36 : List (HloOp τ sig (Elt F))).Forall fun op => op.bufs ⊆ tcRefs τ sig :=
  ⟨unary_bufs_sub ..,
    nullary_bufs_sub ..,
    unary_bufs_sub ..,
    binary_bufs_sub ..,
    nullary_bufs_sub ..,
    unary_bufs_sub ..,
    unary_bufs_sub ..,
    ternary_bufs_sub ..⟩
theorem p36_sub : ∀ op ∈ (p36 : List (HloOp τ sig (Elt F))), op.bufs ⊆ tcRefs τ sig := List.forall_iff_forall_mem.mp p36_subF
theorem p36_fresh : ∀ op ∈ (p36 : List (HloOp τ sig (Elt F))), op.fresh = ∅ := by
  intro op h; (repeat (cases h with | head => rfl | tail _ h => ?_)); exact nomatch h
/-- The buffers the operations of `p36` write, in order. -/
abbrev p36_W : List (Ref sig .tc) := [main_call5_v0, main_call5_cst, main_call5_v1, main_v284, main_cst_63, main_call6_v0, main_call6_v1, main_v285]
theorem p36_writesF : (p36 : List (HloOp τ sig (Elt F))).Forall fun op => op.writes ⊆ (p36_W.map (Proc.devRef (τ := τ) .tc)).toFinset :=
  ⟨Cert.RefLib.writes_sub_of_mem (y := main_call5_v0) rfl (by decide),
    Cert.RefLib.writes_sub_of_mem (y := main_call5_cst) rfl (by decide),
    Cert.RefLib.writes_sub_of_mem (y := main_call5_v1) rfl (by decide),
    Cert.RefLib.writes_sub_of_mem (y := main_v284) rfl (by decide),
    Cert.RefLib.writes_sub_of_mem (y := main_cst_63) rfl (by decide),
    Cert.RefLib.writes_sub_of_mem (y := main_call6_v0) rfl (by decide),
    Cert.RefLib.writes_sub_of_mem (y := main_call6_v1) rfl (by decide),
    Cert.RefLib.writes_sub_of_mem (y := main_v285) rfl (by decide)⟩
theorem p36_writes : Cert.RefLib.WritesIn (p36 : List (HloOp τ sig (Elt F))) p36_W := Cert.RefLib.WritesIn.of_forall p36_writesF

/-- Operations 416 … 423 of @main's 443, called functions' operations inline: the part of the stretch that ends in `main_v294` lying in window 5. -/
abbrev p37 : List (HloOp τ sig (Elt F)) :=
  [ unary main_v285 main_v286 (broadcastInDim S1x50000x2 ![1, 2] bcast_S50000x2_S1x50000x2_1_2 : (⟨S50000x2, .f32⟩ : BufTy).Contents (Elt F) → (⟨S1x50000x2, .f32⟩ : BufTy).Contents (Elt F)),
    unary main_v286 main_v287 (broadcastInDim S4x50000x2 ![0, 1, 2] bcast_S1x50000x2_S4x50000x2_0_1_2 : (⟨S1x50000x2, .f32⟩ : BufTy).Contents (Elt F) → (⟨S4x50000x2, .f32⟩ : BufTy).Contents (Elt F)),
    binary main_v283 main_v287 main_v288 (mulf : (⟨S4x50000x2, .f32⟩ : BufTy).Contents (Elt F) → (⟨S4x50000x2, .f32⟩ : BufTy).Contents (Elt F) → (⟨S4x50000x2, .f32⟩ : BufTy).Contents (Elt F)),
    unary main_arg15 main_v289 (broadcastInDim S1x50000x2 ![1, 2] bcast_S50000x2_S1x50000x2_1_2 : (⟨S50000x2, .f32⟩ : BufTy).Contents (Elt F) → (⟨S1x50000x2, .f32⟩ : BufTy).Contents (Elt F)),
    unary main_v289 main_v290 (broadcastInDim S4x50000x2 ![0, 1, 2] bcast_S1x50000x2_S4x50000x2_0_1_2 : (⟨S1x50000x2, .f32⟩ : BufTy).Contents (Elt F) → (⟨S4x50000x2, .f32⟩ : BufTy).Contents (Elt F)),
    binary main_v288 main_v290 main_v291 (addf : (⟨S4x50000x2, .f32⟩ : BufTy).Contents (Elt F) → (⟨S4x50000x2, .f32⟩ : BufTy).Contents (Elt F) → (⟨S4x50000x2, .f32⟩ : BufTy).Contents (Elt F)),
    unary main_arg14 main_v292 (broadcastInDim S1x50000x2 ![1, 2] bcast_S50000x2_S1x50000x2_1_2 : (⟨S50000x2, .f32⟩ : BufTy).Contents (Elt F) → (⟨S1x50000x2, .f32⟩ : BufTy).Contents (Elt F)),
    unary main_v292 main_v293 (broadcastInDim S4x50000x2 ![0, 1, 2] bcast_S1x50000x2_S4x50000x2_0_1_2 : (⟨S1x50000x2, .f32⟩ : BufTy).Contents (Elt F) → (⟨S4x50000x2, .f32⟩ : BufTy).Contents (Elt F)) ]

theorem p37_subF : (p37 : List (HloOp τ sig (Elt F))).Forall fun op => op.bufs ⊆ tcRefs τ sig :=
  ⟨unary_bufs_sub ..,
    unary_bufs_sub ..,
    binary_bufs_sub ..,
    unary_bufs_sub ..,
    unary_bufs_sub ..,
    binary_bufs_sub ..,
    unary_bufs_sub ..,
    unary_bufs_sub ..⟩
theorem p37_sub : ∀ op ∈ (p37 : List (HloOp τ sig (Elt F))), op.bufs ⊆ tcRefs τ sig := List.forall_iff_forall_mem.mp p37_subF
theorem p37_fresh : ∀ op ∈ (p37 : List (HloOp τ sig (Elt F))), op.fresh = ∅ := by
  intro op h; (repeat (cases h with | head => rfl | tail _ h => ?_)); exact nomatch h
/-- The buffers the operations of `p37` write, in order. -/
abbrev p37_W : List (Ref sig .tc) := [main_v286, main_v287, main_v288, main_v289, main_v290, main_v291, main_v292, main_v293]
theorem p37_writesF : (p37 : List (HloOp τ sig (Elt F))).Forall fun op => op.writes ⊆ (p37_W.map (Proc.devRef (τ := τ) .tc)).toFinset :=
  ⟨Cert.RefLib.writes_sub_of_mem (y := main_v286) rfl (by decide),
    Cert.RefLib.writes_sub_of_mem (y := main_v287) rfl (by decide),
    Cert.RefLib.writes_sub_of_mem (y := main_v288) rfl (by decide),
    Cert.RefLib.writes_sub_of_mem (y := main_v289) rfl (by decide),
    Cert.RefLib.writes_sub_of_mem (y := main_v290) rfl (by decide),
    Cert.RefLib.writes_sub_of_mem (y := main_v291) rfl (by decide),
    Cert.RefLib.writes_sub_of_mem (y := main_v292) rfl (by decide),
    Cert.RefLib.writes_sub_of_mem (y := main_v293) rfl (by decide)⟩
theorem p37_writes : Cert.RefLib.WritesIn (p37 : List (HloOp τ sig (Elt F))) p37_W := Cert.RefLib.WritesIn.of_forall p37_writesF

/-- Window 5's operations, in order. -/
def w5 : List (HloOp τ sig (Elt F)) := p32 ++ p33 ++ p34 ++ p35 ++ p36 ++ p37

set_option maxRecDepth 16384 in
set_option maxHeartbeats 4000000 in
/-- The window is that straight line: each call unfolds to its function's operations over the call's buffers. -/
theorem main_part5_eq (c : Dev nD) : main_part5 (F := F) c = seq w5 := rfl

theorem w5_sub : ∀ op ∈ (w5 : List (HloOp τ sig (Elt F))), op.bufs ⊆ tcRefs τ sig :=
  Cert.RefLib.forall_append (Cert.RefLib.forall_append (Cert.RefLib.forall_append (Cert.RefLib.forall_append (Cert.RefLib.forall_append (p32_sub) p33_sub) p34_sub) p35_sub) p36_sub) p37_sub
theorem w5_fresh : ∀ op ∈ (w5 : List (HloOp τ sig (Elt F))), op.fresh = ∅ :=
  Cert.RefLib.forall_append (Cert.RefLib.forall_append (Cert.RefLib.forall_append (Cert.RefLib.forall_append (Cert.RefLib.forall_append (p32_fresh) p33_fresh) p34_fresh) p35_fresh) p36_fresh) p37_fresh
/-- The buffers window 5 writes, in order. -/
def w5_W : List (Ref sig .tc) := p32_W ++ p33_W ++ p34_W ++ p35_W ++ p36_W ++ p37_W
theorem w5_writes : Cert.RefLib.WritesIn (w5 : List (HloOp τ sig (Elt F))) w5_W :=
  Cert.RefLib.WritesIn.append (Cert.RefLib.WritesIn.append (Cert.RefLib.WritesIn.append (Cert.RefLib.WritesIn.append (Cert.RefLib.WritesIn.append (p32_writes) p33_writes) p34_writes) p35_writes) p36_writes) p37_writes

end Cert.ReferenceIdeal.RefRun

end
-- ==== Proof.RefRunW6.lean ====
/- Window 6 of the reference program's @main (`main_part6`) as literal lists of its host operations, the operations of
   each called function standing at the call over that call's buffers; each list with the facts the run of a straight
   line asks of it (its buffers are TensorCore references, no operation leaves a buffer undetermined) and the list of
   buffers it writes; and the window is the straight line of these lists in order. -/
import proofs.«159603_j71347996721325_2_alg».proof.Proof.Gen.ReferenceIdeal
import Idealize.ShloMosaic.Lib.StableHlo.Run
import proofs.«159603_j71347996721325_2_alg».proof.Proof.RefLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 424 … 424 of @main's 443, called functions' operations inline: the part of the stretch that ends in `main_v294` lying in window 6. -/
abbrev p38 : List (HloOp τ sig (Elt F)) :=
  [ binary main_v291 main_v293 main_v294 (mulf : (⟨S4x50000x2, .f32⟩ : BufTy).Contents (Elt F) → (⟨S4x50000x2, .f32⟩ : BufTy).Contents (Elt F) → (⟨S4x50000x2, .f32⟩ : BufTy).Contents (Elt F)) ]

theorem p38_subF : (p38 : List (HloOp τ sig (Elt F))).Forall fun op => op.bufs ⊆ tcRefs τ sig :=
  (binary_bufs_sub ..)
theorem p38_sub : ∀ op ∈ (p38 : List (HloOp τ sig (Elt F))), op.bufs ⊆ tcRefs τ sig := List.forall_iff_forall_mem.mp p38_subF
theorem p38_fresh : ∀ op ∈ (p38 : List (HloOp τ sig (Elt F))), op.fresh = ∅ := by
  intro op h; (repeat (cases h with | head => rfl | tail _ h => ?_)); exact nomatch h
/-- The buffers the operations of `p38` write, in order. -/
abbrev p38_W : List (Ref sig .tc) := [main_v294]
theorem p38_writesF : (p38 : List (HloOp τ sig (Elt F))).Forall fun op => op.writes ⊆ (p38_W.map (Proc.devRef (τ := τ) .tc)).toFinset :=
  (Cert.RefLib.writes_sub_of_mem (y := main_v294) rfl (by decide))
theorem p38_writes : Cert.RefLib.WritesIn (p38 : List (HloOp τ sig (Elt F))) p38_W := Cert.RefLib.WritesIn.of_forall p38_writesF

/-- Operations 425 … 443 of @main's 443, called functions' operations inline: the part of the stretch that ends in `main_v303` lying in window 6. -/
abbrev p39 : List (HloOp τ sig (Elt F)) :=
  [ unary main_v294 main_v295 ((extractStridedSlice S4x50000x1 ![0, 0, 0] · slices_S4x50000x2_S4x50000x1_0_0_0) : (⟨S4x50000x2, .f32⟩ : BufTy).Contents (Elt F) → (⟨S4x50000x1, .f32⟩ : BufTy).Contents (Elt F)),
    reshape main_v295 main_v296 rfl shapeCasts_S4x50000x1_S4x50000,
    TRef.unary (.of main_arg17 : TRef sig ⟨S50000, .f32⟩) main_call7.v0 (broadcastInDim S1x50000 ![1] bcast_S50000_S1x50000_1),
    TRef.unary main_call7.v0 main_call7.v1 (broadcastInDim S4x50000 ![0, 1] bcast_S1x50000_S4x50000_0_1),
    TRef.binary main_call7.v1 (.of main_v296 : TRef sig ⟨S4x50000, .f32⟩) main_call7.v2 maximumf,
    TRef.unary (.of main_arg18 : TRef sig ⟨S50000, .f32⟩) main_call7.v3 (broadcastInDim S1x50000 ![1] bcast_S50000_S1x50000_1),
    TRef.unary main_call7.v3 main_call7.v4 (broadcastInDim S4x50000 ![0, 1] bcast_S1x50000_S4x50000_0_1),
    TRef.binary main_call7.v4 main_call7.v2 main_call7.v5 minimumf,
    unary main_v294 main_v298 ((extractStridedSlice S4x50000x1 ![0, 0, 1] · slices_S4x50000x2_S4x50000x1_0_0_1) : (⟨S4x50000x2, .f32⟩ : BufTy).Contents (Elt F) → (⟨S4x50000x1, .f32⟩ : BufTy).Contents (Elt F)),
    reshape main_v298 main_v299 rfl shapeCasts_S4x50000x1_S4x50000,
    TRef.unary (.of main_arg19 : TRef sig ⟨S50000, .f32⟩) main_call8.v0 (broadcastInDim S1x50000 ![1] bcast_S50000_S1x50000_1),
    TRef.unary main_call8.v0 main_call8.v1 (broadcastInDim S4x50000 ![0, 1] bcast_S1x50000_S4x50000_0_1),
    TRef.binary main_call8.v1 (.of main_v299 : TRef sig ⟨S4x50000, .f32⟩) main_call8.v2 maximumf,
    TRef.unary (.of main_arg20 : TRef sig ⟨S50000, .f32⟩) main_call8.v3 (broadcastInDim S1x50000 ![1] bcast_S50000_S1x50000_1),
    TRef.unary main_call8.v3 main_call8.v4 (broadcastInDim S4x50000 ![0, 1] bcast_S1x50000_S4x50000_0_1),
    TRef.binary main_call8.v4 main_call8.v2 main_call8.v5 minimumf,
    unary main_v297 main_v301 (broadcastInDim S4x50000x1 ![0, 1] bcast_S4x50000_S4x50000x1_0_1 : (⟨S4x50000, .f32⟩ : BufTy).Contents (Elt F) → (⟨S4x50000x1, .f32⟩ : BufTy).Contents (Elt F)),
    unary main_v300 main_v302 (broadcastInDim S4x50000x1 ![0, 1] bcast_S4x50000_S4x50000x1_0_1 : (⟨S4x50000, .f32⟩ : BufTy).Contents (Elt F) → (⟨S4x50000x1, .f32⟩ : BufTy).Contents (Elt F)),
    binary main_v301 main_v302 main_v303 ((fun a b => concatenate S4x50000x2 2 [⟨S4x50000x1, a⟩, ⟨S4x50000x1, b⟩] concatenates_S4x50000x1_S4x50000x1_S4x50000x2_d2) : (⟨S4x50000x1, .f32⟩ : BufTy).Contents (Elt F) → (⟨S4x50000x1, .f32⟩ : BufTy).Contents (Elt F) → (⟨S4x50000x2, .f32⟩ : BufTy).Contents (Elt F)) ]

theorem p39_subF : (p39 : List (HloOp τ sig (Elt F))).Forall fun op => op.bufs ⊆ tcRefs τ sig :=
  ⟨unary_bufs_sub ..,
    reshape_bufs_sub ..,
    unary_bufs_sub ..,
    unary_bufs_sub ..,
    binary_bufs_sub ..,
    unary_bufs_sub ..,
    unary_bufs_sub ..,
    binary_bufs_sub ..,
    unary_bufs_sub ..,
    reshape_bufs_sub ..,
    unary_bufs_sub ..,
    unary_bufs_sub ..,
    binary_bufs_sub ..,
    unary_bufs_sub ..,
    unary_bufs_sub ..,
    binary_bufs_sub ..,
    unary_bufs_sub ..,
    unary_bufs_sub ..,
    binary_bufs_sub ..⟩
theorem p39_sub : ∀ op ∈ (p39 : List (HloOp τ sig (Elt F))), op.bufs ⊆ tcRefs τ sig := List.forall_iff_forall_mem.mp p39_subF
theorem p39_fresh : ∀ op ∈ (p39 : List (HloOp τ sig (Elt F))), op.fresh = ∅ := by
  intro op h; (repeat (cases h with | head => rfl | tail _ h => ?_)); exact nomatch h
/-- The buffers the operations of `p39` write, in order. -/
abbrev p39_W : List (Ref sig .tc) := [main_v295, main_v296, main_call7_v0, main_call7_v1, main_call7_v2, main_call7_v3, main_call7_v4, main_v297, main_v298, main_v299, main_call8_v0, main_call8_v1, main_call8_v2, main_call8_v3, main_call8_v4, main_v300, main_v301, main_v302, main_v303]
theorem p39_writesF : (p39 : List (HloOp τ sig (Elt F))).Forall fun op => op.writes ⊆ (p39_W.map (Proc.devRef (τ := τ) .tc)).toFinset :=
  ⟨Cert.RefLib.writes_sub_of_mem (y := main_v295) rfl (by decide),
    Cert.RefLib.writes_sub_of_mem (y := main_v296) rfl (by decide),
    Cert.RefLib.writes_sub_of_mem (y := main_call7_v0) rfl (by decide),
    Cert.RefLib.writes_sub_of_mem (y := main_call7_v1) rfl (by decide),
    Cert.RefLib.writes_sub_of_mem (y := main_call7_v2) rfl (by decide),
    Cert.RefLib.writes_sub_of_mem (y := main_call7_v3) rfl (by decide),
    Cert.RefLib.writes_sub_of_mem (y := main_call7_v4) rfl (by decide),
    Cert.RefLib.writes_sub_of_mem (y := main_v297) rfl (by decide),
    Cert.RefLib.writes_sub_of_mem (y := main_v298) rfl (by decide),
    Cert.RefLib.writes_sub_of_mem (y := main_v299) rfl (by decide),
    Cert.RefLib.writes_sub_of_mem (y := main_call8_v0) rfl (by decide),
    Cert.RefLib.writes_sub_of_mem (y := main_call8_v1) rfl (by decide),
    Cert.RefLib.writes_sub_of_mem (y := main_call8_v2) rfl (by decide),
    Cert.RefLib.writes_sub_of_mem (y := main_call8_v3) rfl (by decide),
    Cert.RefLib.writes_sub_of_mem (y := main_call8_v4) rfl (by decide),
    Cert.RefLib.writes_sub_of_mem (y := main_v300) rfl (by decide),
    Cert.RefLib.writes_sub_of_mem (y := main_v301) rfl (by decide),
    Cert.RefLib.writes_sub_of_mem (y := main_v302) rfl (by decide),
    Cert.RefLib.writes_sub_of_mem (y := main_v303) rfl (by decide)⟩
theorem p39_writes : Cert.RefLib.WritesIn (p39 : List (HloOp τ sig (Elt F))) p39_W := Cert.RefLib.WritesIn.of_forall p39_writesF

/-- Window 6's operations, in order. -/
def w6 : List (HloOp τ sig (Elt F)) := p38 ++ p39

set_option maxRecDepth 16384 in
set_option maxHeartbeats 4000000 in
/-- The window is that straight line: each call unfolds to its function's operations over the call's buffers. -/
theorem main_part6_eq (c : Dev nD) : main_part6 (F := F) c = seq w6 := rfl

theorem w6_sub : ∀ op ∈ (w6 : List (HloOp τ sig (Elt F))), op.bufs ⊆ tcRefs τ sig :=
  Cert.RefLib.forall_append (p38_sub) p39_sub
theorem w6_fresh : ∀ op ∈ (w6 : List (HloOp τ sig (Elt F))), op.fresh = ∅ :=
  Cert.RefLib.forall_append (p38_fresh) p39_fresh
/-- The buffers window 6 writes, in order. -/
def w6_W : List (Ref sig .tc) := p38_W ++ p39_W
theorem w6_writes : Cert.RefLib.WritesIn (w6 : List (HloOp τ sig (Elt F))) w6_W :=
  Cert.RefLib.WritesIn.append (p38_writes) p39_writes

end Cert.ReferenceIdeal.RefRun

end
-- ==== Proof.RefRun.lean ====
/- The reference program's run, by hand. @main calls functions one of which itself calls a function, so its operations are
   listed here with every call unfolded (the seven window modules); @main is then the straight line `seq ops`, and every
   weakly fair execution of it terminates with each TensorCore buffer at the operations' fold over the launch contents. -/
import proofs.«159603_j71347996721325_2_alg».proof.Proof.RefRunW0
import proofs.«159603_j71347996721325_2_alg».proof.Proof.RefRunW1
import proofs.«159603_j71347996721325_2_alg».proof.Proof.RefRunW2
import proofs.«159603_j71347996721325_2_alg».proof.Proof.RefRunW3
import proofs.«159603_j71347996721325_2_alg».proof.Proof.RefRunW4
import proofs.«159603_j71347996721325_2_alg».proof.Proof.RefRunW5
import proofs.«159603_j71347996721325_2_alg».proof.Proof.RefRunW6
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 443 operations in order, the called functions' operations inline at their calls: the windows in a row. -/
abbrev ops : List (HloOp τ sig (Elt F)) := w0 ++ (w1 ++ (w2 ++ (w3 ++ (w4 ++ (w5 ++ (w6))))))

/-- @main is the straight line of its operations: window by window, the windows joined as @main joins them. -/
theorem main_eq (c : Dev nD) : main (F := F) c = seq ops := by
  show main (F := F) c = seq (w0 ++ (w1 ++ (w2 ++ (w3 ++ (w4 ++ (w5 ++ (w6)))))))
  rw [seq_append w0 _, seq_append w1 _, seq_append w2 _, seq_append w3 _, seq_append w4 _, seq_append w5 w6,
    ← main_part0_eq c, ← main_part1_eq c, ← main_part2_eq c, ← main_part3_eq c, ← main_part4_eq c, ← main_part5_eq c, ← main_part6_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_mem_sub : ∀ op ∈ (ops : List (HloOp τ sig (Elt F))), op.bufs ⊆ tcRefs τ sig :=
  Cert.RefLib.forall_append w0_sub (Cert.RefLib.forall_append w1_sub (Cert.RefLib.forall_append w2_sub (Cert.RefLib.forall_append w3_sub (Cert.RefLib.forall_append w4_sub (Cert.RefLib.forall_append w5_sub (w6_sub))))))
theorem ops_sub : (ops : List (HloOp τ sig (Elt F))).Forall fun op => op.bufs ⊆ tcRefs τ sig :=
  List.forall_iff_forall_mem.mpr ops_mem_sub
theorem ops_fresh : ∀ op ∈ (ops : List (HloOp τ sig (Elt F))), op.fresh = ∅ :=
  Cert.RefLib.forall_append w0_fresh (Cert.RefLib.forall_append w1_fresh (Cert.RefLib.forall_append w2_fresh (Cert.RefLib.forall_append w3_fresh (Cert.RefLib.forall_append w4_fresh (Cert.RefLib.forall_append w5_fresh (w6_fresh))))))

/-- Every buffer @main's operations write, in order. -/
abbrev ops_W : List (Ref sig .tc) := w0_W ++ (w1_W ++ (w2_W ++ (w3_W ++ (w4_W ++ (w5_W ++ (w6_W))))))
theorem ops_writes : Cert.RefLib.WritesIn (ops : List (HloOp τ sig (Elt F))) ops_W :=
  Cert.RefLib.WritesIn.append w0_writes (Cert.RefLib.WritesIn.append w1_writes (Cert.RefLib.WritesIn.append w2_writes (Cert.RefLib.WritesIn.append w3_writes (Cert.RefLib.WritesIn.append w4_writes (Cert.RefLib.WritesIn.append w5_writes (w6_writes))))))

/-- A buffer no operation writes — an argument — holds after the run what it held before. -/
theorem after_unwritten (M : Valuation τ sig (Elt F)) {r : Ref sig .tc} (h : r ∉ ops_W) :
    after ops M (Proc.devRef .tc r) = M (Proc.devRef .tc r) :=
  ops_writes.keep M h

/-- On every device, for any float values, from any memory with zero counters: every weakly fair execution of @main
    terminates, and every final state has each TensorCore buffer at the fold of the operations' results over its
    launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefRun

end
-- ==== Proof.RefArgs.lean ====
/- No operation of the reference program's @main writes one of its twenty-one argument buffers. -/
import proofs.«159603_j71347996721325_2_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
/-- No argument buffer is among the buffers @main's operations write. -/
theorem args_unwritten : main_arg0 ∉ ops_W ∧ main_arg1 ∉ ops_W ∧ main_arg2 ∉ ops_W ∧ main_arg3 ∉ ops_W ∧ main_arg4 ∉ ops_W ∧ main_arg5 ∉ ops_W ∧ main_arg6 ∉ ops_W ∧ main_arg7 ∉ ops_W ∧ main_arg8 ∉ ops_W ∧ main_arg9 ∉ ops_W ∧ main_arg10 ∉ ops_W ∧ main_arg11 ∉ ops_W ∧ main_arg12 ∉ ops_W ∧ main_arg13 ∉ ops_W ∧ main_arg14 ∉ ops_W ∧ main_arg15 ∉ ops_W ∧ main_arg16 ∉ ops_W ∧ main_arg17 ∉ ops_W ∧ main_arg18 ∉ ops_W ∧ main_arg19 ∉ ops_W ∧ main_arg20 ∉ ops_W := by
  refine ⟨?_, ?_, ?_, ?_, ?_, ?_, ?_, ?_, ?_, ?_, ?_, ?_, ?_, ?_, ?_, ?_, ?_, ?_, ?_, ?_, ?_⟩ <;> decide

end Cert.ReferenceIdeal.RefRun

end
-- ==== Proof.RefFrame.lean ====
/- The reference program runs and leaves its twenty-one argument arrays as they were: no operation of @main writes an
   argument's buffer, so the fold of the operations' results is the launch contents there. -/
import proofs.«159603_j71347996721325_2_alg».proof.Defs
import proofs.«159603_j71347996721325_2_alg».proof.Proof.Gen.ReferenceIdeal
import proofs.«159603_j71347996721325_2_alg».proof.Proof.Gen.Pre_finite_inputs
import proofs.«159603_j71347996721325_2_alg».proof.Proof.RefRun
import proofs.«159603_j71347996721325_2_alg».proof.Proof.RefArgs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- `ReferenceIdeal` runs (terminates, no fault) and its argument arrays end unchanged. -/
theorem frame_ri : Cert.frame_ReferenceIdeal := fun m g _ =>
  (θ_run _ _ _).mono (fun _ h c => ⟨(h c main_arg0).trans (ops_writes.keep _ args_unwritten.1),
      (h c main_arg1).trans (ops_writes.keep _ args_unwritten.2.1),
      (h c main_arg2).trans (ops_writes.keep _ args_unwritten.2.2.1),
      (h c main_arg3).trans (ops_writes.keep _ args_unwritten.2.2.2.1),
      (h c main_arg4).trans (ops_writes.keep _ args_unwritten.2.2.2.2.1),
      (h c main_arg5).trans (ops_writes.keep _ args_unwritten.2.2.2.2.2.1),
      (h c main_arg6).trans (ops_writes.keep _ args_unwritten.2.2.2.2.2.2.1),
      (h c main_arg7).trans (ops_writes.keep _ args_unwritten.2.2.2.2.2.2.2.1),
      (h c main_arg8).trans (ops_writes.keep _ args_unwritten.2.2.2.2.2.2.2.2.1),
      (h c main_arg9).trans (ops_writes.keep _ args_unwritten.2.2.2.2.2.2.2.2.2.1),
      (h c main_arg10).trans (ops_writes.keep _ args_unwritten.2.2.2.2.2.2.2.2.2.2.1),
      (h c main_arg11).trans (ops_writes.keep _ args_unwritten.2.2.2.2.2.2.2.2.2.2.2.1),
      (h c main_arg12).trans (ops_writes.keep _ args_unwritten.2.2.2.2.2.2.2.2.2.2.2.2.1),
      (h c main_arg13).trans (ops_writes.keep _ args_unwritten.2.2.2.2.2.2.2.2.2.2.2.2.2.1),
      (h c main_arg14).trans (ops_writes.keep _ args_unwritten.2.2.2.2.2.2.2.2.2.2.2.2.2.2.1),
      (h c main_arg15).trans (ops_writes.keep _ args_unwritten.2.2.2.2.2.2.2.2.2.2.2.2.2.2.2.1),
      (h c main_arg16).trans (ops_writes.keep _ args_unwritten.2.2.2.2.2.2.2.2.2.2.2.2.2.2.2.2.1),
      (h c main_arg17).trans (ops_writes.keep _ args_unwritten.2.2.2.2.2.2.2.2.2.2.2.2.2.2.2.2.2.1),
      (h c main_arg18).trans (ops_writes.keep _ args_unwritten.2.2.2.2.2.2.2.2.2.2.2.2.2.2.2.2.2.2.1),
      (h c main_arg19).trans (ops_writes.keep _ args_unwritten.2.2.2.2.2.2.2.2.2.2.2.2.2.2.2.2.2.2.2.1),
      (h c main_arg20).trans (ops_writes.keep _ args_unwritten.2.2.2.2.2.2.2.2.2.2.2.2.2.2.2.2.2.2.2.2)⟩)
    (run_after (F := Ideal) m g)

end Cert.ReferenceIdeal.RefRun

end
-- ==== Proof.Frames.lean ====
/-
  The three frame claims and the idealization's claim. Each kernel program's frame is its run through the nine host
  stretches and the three Pallas regions, read at the argument arrays (no host operation and no region writes one);
  the reference's is its run as one line of host operations, none of which writes an argument. The ideal pass rewrote no
  operation of the kernel, so there is nothing to preserve.
-/
import proofs.«159603_j71347996721325_2_alg».proof.Defs
import proofs.«159603_j71347996721325_2_alg».proof.Proof.Gen.Kernel
import proofs.«159603_j71347996721325_2_alg».proof.Proof.Gen.KernelIdeal
import proofs.«159603_j71347996721325_2_alg».proof.Proof.Gen.ReferenceIdeal
import proofs.«159603_j71347996721325_2_alg».proof.Proof.Gen.Pre_finite_inputs
import proofs.«159603_j71347996721325_2_alg».proof.Proof.KBits.Args
import proofs.«159603_j71347996721325_2_alg».proof.Proof.KIdeal.Args
import proofs.«159603_j71347996721325_2_alg».proof.Proof.RefFrame

noncomputable section

namespace Cert.Proof.Frames

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := Cert.ReferenceIdeal.RefRun.frame_ri
theorem preserves : Cert.preserves_Kernel_KernelIdeal := trivial

end Cert.Proof.Frames

end
-- ==== Proof.Spec.lean ====
/-
  One node's batch normalisation and leaky rectifier, as the two programs compute it, over the extended reals.
  A node has 4 · 64 = 256 pre-activation entries `x b g` (batch `b`, feature `g`), a scale `γ` and a shift `β`.
  The kernel takes the mean as the sum over features, then over the batch, divided by 256, and the variance in one
  pass, the mean of the squares less the square of the mean, clamped at zero from below. The reference takes the
  mean as one sum of all 256 entries divided by 256 and the variance in two passes, the mean of the squared
  deviations. Both then form `γ · (x − mean) · (var + ε)^(-1/2) + β` and apply the rectifier with slope 0.01,
  the kernel choosing by `y > 0` and the reference by `y ≥ 0`. On real entries the two agree: the two variance
  formulas are one real number, which is not negative, and the two rectifiers differ only at `y = 0`, where both give 0.
  The literals are kept as their binary patterns (the same words stand in both programs).
-/
import Idealize.ShloMosaic.PureOps.Ideal
import Idealize.ShloMosaic.Lib.ValueIdx

noncomputable section

namespace Cert.Spec

open Idealize.ShloMosaic

/-- The count 256, the variance's ε = 1e-5 (as f32), the rectifier's slope 0.01 (as f32), and zero. -/
def n256 : EReal := Ideal.ofBits .f32 0x43800000#32
def eps : EReal := Ideal.ofBits .f32 0x3727C5AC#32
def slope : EReal := Ideal.ofBits .f32 0x3C23D70A#32
def z0 : EReal := Ideal.ofBits .f32 0x00000000#32

/-! ## The kernel's form -/

def meanK (x : Fin 4 → Fin 64 → EReal) : EReal := Ideal.div (∑ b : Fin 4, ∑ g : Fin 64, x b g) n256
def varK (x : Fin 4 → Fin 64 → EReal) : EReal :=
  max (Ideal.div (∑ b : Fin 4, ∑ g : Fin 64, x b g * x b g) n256 - meanK x * meanK x) z0
def normK (x : Fin 4 → Fin 64 → EReal) (γ β : EReal) (b : Fin 4) (g : Fin 64) : EReal :=
  γ * (x b g - meanK x) * Ideal.rsqrt (varK x + eps) + β
def leakyK (y : EReal) : EReal := Scalar.select (Ideal.cmp .ogt y z0) y (slope * y)
def bnK (x : Fin 4 → Fin 64 → EReal) (γ β : EReal) (b : Fin 4) (g : Fin 64) : EReal := leakyK (normK x γ β b g)

/-! ## The reference's form -/

def meanR (x : Fin 4 → Fin 64 → EReal) : EReal := Ideal.div (∑ p : Fin 4 × Fin 64, x p.1 p.2) n256
def varR (x : Fin 4 → Fin 64 → EReal) : EReal :=
  Ideal.div (∑ p : Fin 4 × Fin 64, (x p.1 p.2 - meanR x) * (x p.1 p.2 - meanR x)) n256
def normR (x : Fin 4 → Fin 64 → EReal) (γ β : EReal) (b : Fin 4) (g : Fin 64) : EReal :=
  γ * (x b g - meanR x) * Ideal.rsqrt (varR x + eps) + β
def leakyR (y : EReal) : EReal := Scalar.select (Ideal.cmp .oge y z0) y (slope * y)
def bnR (x : Fin 4 → Fin 64 → EReal) (γ β : EReal) (b : Fin 4) (g : Fin 64) : EReal := leakyR (normR x γ β b g)

end Cert.Spec

end
-- ==== Proof.KIdeal.LibPayIdx.lean ====
/-
  A kernel body's layout and contraction operations READ AT AN INDEX GIVEN BY COORDINATES, at the ideal values (floats are
  extended reals): the operations a body of the shape "flatten the two leading axes, multiply on the matrix unit into a zero
  accumulator, unflatten, normalise per row" meets beside the pointwise ones. Every lemma is general in the extents.
  • Reshapes: `[a, b, k]` to `[m, k]` and back (row `p·b + q`), `[a, b]` to `[a, b, 1]`.
  • Broadcasts to `[a, b, n]`: of one row `[1, 1, n]`, of one slab `[1, b, n]`, of one column `[1, b, 1]`.
  • A matrix product `[m, k] × [k, n]` into the zero accumulator: the sum over the contracted coordinate; and the same
    between the two reshapes, read at `(p, q, c)`.
  • A sum over one axis from the zero accumulator: over the last axis of `[a, b, n]`, over the first of `[a, b, 1]`.
-/
import Idealize.ShloMosaic.Lib.ValueLayout
import Idealize.ShloMosaic.PureOps.Ideal.Laws

noncomputable section

open scoped BigOperators

namespace Cert.KernelIdeal.Hand

open Idealize.ShloMosaic Idealize.ShloMosaic.ValueIdx

variable {α : Type}

/-! ## Reshapes -/

/-- An `[a, b, k]` array cast to `[m, k]` reads, at row `i = p·b + q` and column `c`, the operand at `(p, q, c)`. -/
theorem shapeCast_abk_mk_apply {a b k m : ℕ} (x : (⟨3, ![a, b, k]⟩ : Shape).Idx → α)
    (h : (⟨3, ![a, b, k]⟩ : Shape).ShapeCasts ⟨2, ![m, k]⟩) (p : Fin a) (q : Fin b) (c : Fin k) (i : Fin m)
    (hi : i.val = p.val * b + q.val) :
    shapeCast ⟨2, ![m, k]⟩ x h (ix2 i c) = x (ix3 p q c) :=
  shapeCast_apply x h _ _ (by
    rw [Shape.rowMajor_val_three, Shape.rowMajor_val_two]
    show (p.val * b + q.val) * k + c.val = i.val * k + c.val
    rw [hi])

/-- An `[m, k]` array cast to `[a, b, k]` reads, at `(p, q, c)`, the operand at row `i = p·b + q` and column `c`. -/
theorem shapeCast_mk_abk_apply {a b k m : ℕ} (x : (⟨2, ![m, k]⟩ : Shape).Idx → α)
    (h : (⟨2, ![m, k]⟩ : Shape).ShapeCasts ⟨3, ![a, b, k]⟩) (p : Fin a) (q : Fin b) (c : Fin k) (i : Fin m)
    (hi : i.val = p.val * b + q.val) :
    shapeCast ⟨3, ![a, b, k]⟩ x h (ix3 p q c) = x (ix2 i c) :=
  shapeCast_apply x h _ _ (by
    rw [Shape.rowMajor_val_two, Shape.rowMajor_val_three]
    show i.val * k + c.val = (p.val * b + q.val) * k + c.val
    rw [hi])

/-- An `[a, b]` array cast to `[a, b, 1]` reads, at `(p, q, u)`, the operand at `(p, q)`, whatever the unit coordinate. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-! ## Broadcasts to `[a, b, n]` -/

/-- A `[1, 1, n]` array broadcast to `[a, b, n]` reads, at `(p, q, c)`, the operand's one row at `c`. -/
theorem broadcastTo_11c_abc_apply {a b n : ℕ} (v : (⟨3, ![1, 1, n]⟩ : Shape).Idx → α)
    (h : (⟨3, ![1, 1, n]⟩ : Shape).Broadcasts ⟨3, ![a, b, n]⟩) (p : Fin a) (q : Fin b) (c : Fin n) :
    broadcastTo ⟨3, ![a, b, n]⟩ v h (ix3 p q c) = v (ix3 (0 : Fin 1) (0 : Fin 1) c) := by
  refine broadcastTo_apply v h (ix3 p q c) (ix3 (0 : Fin 1) (0 : Fin 1) c) fun ax => ?_
  match ax with
  | ⟨0, _⟩ => rfl
  | ⟨1, _⟩ => rfl
  | ⟨2, _⟩ =>
    show c.val = if n = 1 then 0 else c.val
    split
    · have := c.isLt; omega
    · rfl

/-- A `[1, b, n]` array broadcast to `[a, b, n]` reads, at `(p, q, c)`, the operand's one slab at `(q, c)`. -/
theorem broadcastTo_1bc_abc_apply {a b n : ℕ} (v : (⟨3, ![1, b, n]⟩ : Shape).Idx → α)
    (h : (⟨3, ![1, b, n]⟩ : Shape).Broadcasts ⟨3, ![a, b, n]⟩) (p : Fin a) (q : Fin b) (c : Fin n) :
    broadcastTo ⟨3, ![a, b, n]⟩ v h (ix3 p q c) = v (ix3 (0 : Fin 1) q c) := by
  refine broadcastTo_apply v h (ix3 p q c) (ix3 (0 : Fin 1) q c) fun ax => ?_
  match ax with
  | ⟨0, _⟩ => rfl
  | ⟨1, _⟩ =>
    show q.val = if b = 1 then 0 else q.val
    split
    · have := q.isLt; omega
    · rfl
  | ⟨2, _⟩ =>
    show c.val = if n = 1 then 0 else c.val
    split
    · have := c.isLt; omega
    · rfl

/-- A `[1, b, 1]` array broadcast to `[a, b, n]` reads, at `(p, q, c)`, the operand's one column at `q`. -/
theorem broadcastTo_1b1_abc_apply {a b n : ℕ} (v : (⟨3, ![1, b, 1]⟩ : Shape).Idx → α)
    (h : (⟨3, ![1, b, 1]⟩ : Shape).Broadcasts ⟨3, ![a, b, n]⟩) (p : Fin a) (q : Fin b) (c : Fin n) :
    broadcastTo ⟨3, ![a, b, n]⟩ v h (ix3 p q c) = v (ix3 (0 : Fin 1) q (0 : Fin 1)) := by
  refine broadcastTo_apply v h (ix3 p q c) (ix3 (0 : Fin 1) q (0 : Fin 1)) fun ax => ?_
  match ax with
  | ⟨0, _⟩ => rfl
  | ⟨1, _⟩ =>
    show q.val = if b = 1 then 0 else q.val
    split
    · have := q.isLt; omega
    · rfl
  | ⟨2, _⟩ => rfl

/-! ## A matrix product into the zero accumulator -/

/-- The product of an `m × k` by a `k × n` matrix on the matrix unit, accumulated into the zero splat, read at `(i, c)`: the
    sum over the contracted coordinate of the products of the entries. `w` is the dimension numbers' well-formedness, which a
    program states. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (i : Fin m) (c : Fin n) :
    matmul (⟨[1], [0], [0], [1], [], [], w⟩ : DotDims _ _ _) prec A B (constant (F := Ideal) ⟨2, ![m, n]⟩ .f32 0x00000000#32) (ix2 i c)
      = ∑ j : Fin k, A (ix2 i j) * B (ix2 j c) := by
  show FloatOps.matmul _ prec A B (constant (F := Ideal) ⟨2, ![m, n]⟩ .f32 0x00000000#32) (ix2 i c) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun j _ => ?_
  have c2 := contrEquiv1_symm_val
    (⟨[1], [0], [0], [1], [], [], w⟩ : DotDims ⟨2, ![m, k]⟩ ⟨2, ![k, n]⟩ ⟨2, ![m, n]⟩) k rfl rfl j
  have l2 : (⟨[1], [0], [0], [1], [], [], w⟩ : DotDims ⟨2, ![m, k]⟩ ⟨2, ![k, n]⟩ ⟨2, ![m, n]⟩).lhsIdx (ix2 i c)
      ((contrEquiv1 _ k rfl rfl).symm j) = ix2 i j := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 i c)
      ((contrEquiv1 _ k rfl rfl).symm j) = ix2 j c := by
    funext ax; apply Fin.ext
    match ax with
    | ⟨0, _⟩ => simp [DotDims.rhsIdx]; exact c2
    | ⟨1, _⟩ => simp [DotDims.rhsIdx]; rfl
  rw [l2, r2]

/-- The row-block product: an `[a, b, k]` array flattened to `[m, k]` (row `p·b + q`), multiplied by a `[k, n]` matrix into the
    zero accumulator, and unflattened to `[a, b, n]`, read at `(p, q, c)`: the sum over the contracted coordinate of the
    products of the entries of row `(p, q)` and column `c`. -/
theorem flat_matmul_apply {a b k n m : ℕ} {φ₁ φ₂ : FTy}
    (w : DotDims.WF ⟨2, ![m, k]⟩ ⟨2, ![k, n]⟩ ⟨2, ![m, n]⟩ [1] [0] [0] [1] [] [])
    (prec : Option ContractPrecision) (X : FVec Ideal ⟨3, ![a, b, k]⟩ φ₁) (W : FVec Ideal ⟨2, ![k, n]⟩ φ₂)
    (h1 : (⟨3, ![a, b, k]⟩ : Shape).ShapeCasts ⟨2, ![m, k]⟩) (h2 : (⟨2, ![m, n]⟩ : Shape).ShapeCasts ⟨3, ![a, b, n]⟩)
    (p : Fin a) (q : Fin b) (c : Fin n) (hlt : p.val * b + q.val < m) :
    shapeCast ⟨3, ![a, b, n]⟩
        (matmul (⟨[1], [0], [0], [1], [], [], w⟩ : DotDims _ _ _) prec (shapeCast ⟨2, ![m, k]⟩ X h1) W
          (constant (F := Ideal) ⟨2, ![m, n]⟩ .f32 0x00000000#32)) h2 (ix3 p q c)
      = ∑ j : Fin k, X (ix3 p q j) * W (ix2 j c) := by
  refine (shapeCast_mk_abk_apply _ h2 p q c ⟨_, hlt⟩ rfl).trans ?_
  refine (matmul_plain_zero_apply w prec _ W ⟨_, hlt⟩ c).trans ?_
  exact Finset.sum_congr rfl fun j _ =>
    congrArg (· * W (ix2 j c)) (shapeCast_abk_mk_apply X h1 p q j ⟨_, hlt⟩ rfl)

/-! ## A sum over one axis from the zero accumulator -/

/-- The sum over the LAST axis of an `[a, b, n]` array from the zero accumulator, read at `(p, q)`: the sum over that axis's
    coordinates. The accumulator's word is zero, which is the hypothesis as a printed program carries it. -/
theorem multiReduction_add_last_apply {a b n : ℕ} (src : FVec Ideal ⟨3, ![a, b, n]⟩ .f32)
    (h : (⟨3, ![a, b, n]⟩ : Shape).Reduces [2] ⟨2, ![a, b]⟩) (hφ : FKind.Formats .f32)
    (hacc : (0x00000000#32 : BitVec 32) = 0x00000000#32) (p : Fin a) (q : Fin b) :
    multiReduction .add [2] ⟨2, ![a, b]⟩ src 0x00000000#32 h hφ hacc (ix2 p q) = ∑ c : Fin n, src (ix3 p q c) := by
  refine (Ideal.multiReduction_add_single src 0x00000000#32 h hφ hacc (ix2 p q)).trans ?_
  refine Finset.sum_congr rfl fun c _ => congrArg src ?_
  funext ax; apply Fin.ext
  match ax with
  | ⟨0, _⟩ => rfl
  | ⟨1, _⟩ => rfl
  | ⟨2, _⟩ => rfl

/-- The sum over the FIRST axis of an `[a, b, 1]` array from the zero accumulator, read at `(q, u)`: the sum over that axis's
    coordinates. -/
theorem multiReduction_add_first_apply {a b : ℕ} (src : FVec Ideal ⟨3, ![a, b, 1]⟩ .f32)
    (h : (⟨3, ![a, b, 1]⟩ : Shape).Reduces [0] ⟨2, ![b, 1]⟩) (hφ : FKind.Formats .f32)
    (hacc : (0x00000000#32 : BitVec 32) = 0x00000000#32) (q : Fin b) (u : Fin 1) :
    multiReduction .add [0] ⟨2, ![b, 1]⟩ src 0x00000000#32 h hφ hacc (ix2 q u) = ∑ p : Fin a, src (ix3 p q u) := by
  refine (Ideal.multiReduction_add_single src 0x00000000#32 h hφ hacc (ix2 q u)).trans ?_
  refine Finset.sum_congr rfl fun p _ => congrArg src ?_
  funext ax; apply Fin.ext
  match ax with
  | ⟨0, _⟩ => rfl
  | ⟨1, _⟩ => rfl
  | ⟨2, _⟩ => rfl

end Cert.KernelIdeal.Hand

end
-- ==== Proof.KIdeal.Pay0.lean ====
/-
  The batch-normalisation layer's body arithmetic read at one entry, at the ideal values (floats are extended reals), for the
  layer whose input block is `[4, 2000, 16]`. The body flattens the block to `[8000, 16]`, multiplies it by the `[16, 64]`
  weights into a zero accumulator, unflattens the product to `[4, 2000, 64]` and adds the bias row: node `r`'s pre-activations
  `x b g = ∑ j, in[b, r, j] · w[j, g] + bias[g]`. Per node it then sums the 64 features and the 4 batch entries from zero
  accumulators and divides by 256 (the mean), does the same with the squares, subtracts the squared mean and clamps at zero
  (the variance), and stores `γ · (x − mean) · (var + ε)^(-1/2) + β` through the rectifier with slope 0.01 chosen by `y > 0`.
  Every step is read at an index; the narrowing of the product's operands to sixteen bits is the identity on extended reals.
  The result is the specification's `bnK` of the node's pre-activations, scale and shift.
-/
import proofs.«159603_j71347996721325_2_alg».proof.Proof.Gen.KernelIdeal.Skeleton
import proofs.«159603_j71347996721325_2_alg».proof.Proof.KIdeal.LibPayIdx
import proofs.«159603_j71347996721325_2_alg».proof.Proof.Spec

noncomputable section

open scoped BigOperators

namespace Cert.KernelIdeal.Hand

open Cert.KernelIdeal Cert.KernelIdeal.Gen Idealize.ShloMosaic Idealize.ShloMosaic.ValueIdx

/-- A reciprocal square root at an index is the extended reals' reciprocal square root of the element. -/
private theorem rsqrt_at {s : Shape} {φ : FTy} (a : FVec Ideal s φ) (i : s.Idx) : rsqrt a i = Ideal.rsqrt (a i) := rfl

/-- Node `r`'s pre-activations: entry `(b, g)` is row `(b, r)` of the input block against column `g` of the weights, plus the
    bias at `g`. -/
def k0_pre (x0 : Vec Ideal S4x2000x16 .f32) (x1 : Vec Ideal S16x64 .f32) (x2 : Vec Ideal S1x64 .f32) (r : Fin 2000) :
    Fin 4 → Fin 64 → EReal :=
  fun b g => (∑ j : Fin 16, x0 (ix3 b r j) * x1 (ix2 j g)) + x2 (ix2 0 g)

/-- The product of the flattened block with the weights, unflattened, read at `(b, r, g)`: row `(b, r)` of the block against
    column `g` of the weights. -/
theorem k0_mm_apply (x0 : Vec Ideal S4x2000x16 .f32) (x1 : Vec Ideal S16x64 .f32) (b : Fin 4) (r : Fin 2000) (g : Fin 64) :
    shapeCast S4x2000x64
        (matmul dot_S8000x16_S16x64_S8000x64_1_0_0_1_n_n none
          (shapeCast S8000x16 (truncf .bf16 (x0 : FVec Ideal S4x2000x16 .f32) bitsLt_bf16_f32) shapeCasts_S4x2000x16_S8000x16)
          (truncf .bf16 (x1 : FVec Ideal S16x64 .f32) bitsLt_bf16_f32) (constant (F := Ideal) S8000x64 .f32 0x00000000#32))
        shapeCasts_S8000x64_S4x2000x64 (ix3 b r g)
      = ∑ j : Fin 16, x0 (ix3 b r j) * x1 (ix2 j g) :=
  flat_matmul_apply dot_S8000x16_S16x64_S8000x64_1_0_0_1_n_n_wf none _ _ _ _ b r g
    (by have := b.isLt; have := r.isLt; omega)

/-- The pre-activation array at `(b, r, g)`. -/
theorem k0_pay2_apply (x0 : Vec Ideal S4x2000x16 .f32) (x1 : Vec Ideal S16x64 .f32) (x2 : Vec Ideal S1x64 .f32)
    (b : Fin 4) (r : Fin 2000) (g : Fin 64) :
    k0_pay2 (F := Ideal) x0 x1 x2 (ix3 b r g) = k0_pre x0 x1 x2 r b g := by
  unfold k0_pay2 k0_pre
  simp only [addf_apply, shapeCast_self, broadcastTo_11c_abc_apply, shapeCast_ab_1ab_apply]
  rw [k0_mm_apply]

/-- The two-stage sum of a `[4, 2000, 64]` array — over the 64 features, then over the 4 batch entries, each from the zero
    accumulator, with the unit axes the body keeps — read at node `r`: the double sum of the node's entries. -/
theorem k0_rowsum_apply (P : FVec Ideal S4x2000x64 .f32) (r : Fin 2000) :
    shapeCast S1x2000x1
        (multiReduction .add [0] S2000x1
          (shapeCast S4x2000x1
            (multiReduction .add [2] S4x2000 P 0x00000000#32 reduces_S4x2000x64_S4x2000 (.inl rfl) rfl)
            shapeCasts_S4x2000_S4x2000x1)
          0x00000000#32 reduces_S4x2000x1_S2000x1 (.inl rfl) rfl)
        shapeCasts_S2000x1_S1x2000x1 (ix3 (0 : Fin 1) r (0 : Fin 1))
      = ∑ p : Fin 4, ∑ c : Fin 64, P (ix3 p r c) := by
  refine (shapeCast_ab_1ab_apply _ _ (0 : Fin 1) r (0 : Fin 1)).trans ?_
  refine (multiReduction_add_first_apply _ _ _ _ r (0 : Fin 1)).trans ?_
  refine Finset.sum_congr rfl fun p _ => ?_
  refine (shapeCast_ab_ab1_apply _ _ p r (0 : Fin 1)).trans ?_
  exact multiReduction_add_last_apply P _ _ _ p r

/-- The mean array at node `r`: the specification's mean of the node's pre-activations. -/
theorem k0_pay3_apply (x0 : Vec Ideal S4x2000x16 .f32) (x1 : Vec Ideal S16x64 .f32) (x2 : Vec Ideal S1x64 .f32) (r : Fin 2000) :
    k0_pay3 (F := Ideal) x0 x1 x2 (ix3 (0 : Fin 1) r (0 : Fin 1)) = Cert.Spec.meanK (k0_pre x0 x1 x2 r) := by
  unfold k0_pay3
  simp only [divf_apply, broadcast_apply]
  rw [k0_rowsum_apply]
  simp only [k0_pay2_apply]
  rfl

/-- The inverse-deviation array at node `r`: the reciprocal square root of the specification's variance of the node's
    pre-activations plus ε. -/
theorem k0_pay4_apply (x0 : Vec Ideal S4x2000x16 .f32) (x1 : Vec Ideal S16x64 .f32) (x2 : Vec Ideal S1x64 .f32) (r : Fin 2000) :
    k0_pay4 (F := Ideal) x0 x1 x2 (ix3 (0 : Fin 1) r (0 : Fin 1))
      = Ideal.rsqrt (Cert.Spec.varK (k0_pre x0 x1 x2 r) + Cert.Spec.eps) := by
  unfold k0_pay4
  simp only [rsqrt_at, addf_apply, maximumf_apply, subf_apply, mulf_apply, divf_apply, broadcast_apply]
  rw [k0_rowsum_apply, k0_pay3_apply]
  simp only [mulf_apply, k0_pay2_apply]
  rfl

/-- The scale array at node `r` is the loaded scale there. -/
theorem k0_pay5_apply (x3 : Vec Ideal S2000x1 .f32) (r : Fin 2000) :
    k0_pay5 (F := Ideal) x3 (ix3 (0 : Fin 1) r (0 : Fin 1)) = x3 (ix2 r 0) := by
  unfold k0_pay5
  simp only [shapeCast_self, shapeCast_ab_1ab_apply]

/-- The shift array is the loaded shift. -/
theorem k0_pay6_eq (x4 : Vec Ideal S2000x1 .f32) : k0_pay6 (F := Ideal) x4 = x4 := by
  unfold k0_pay6
  simp only [shapeCast_self]

/-- The body's stored value at `(b, r, g)`: the specification's normalisation and rectifier of node `r`'s pre-activations,
    scale and shift. -/
theorem pay0_apply (x0 : Vec Ideal S4x2000x16 .f32) (x1 : Vec Ideal S16x64 .f32) (x2 : Vec Ideal S1x64 .f32)
    (x3 x4 : Vec Ideal S2000x1 .f32) (b : Fin 4) (r : Fin 2000) (g : Fin 64) :
    k0_pay1 (F := Ideal) (k0_pay2 x0 x1 x2) (k0_pay3 x0 x1 x2) (k0_pay4 x0 x1 x2) (k0_pay5 x3) (k0_pay6 x4) (ix3 b r g)
      = Cert.Spec.bnK (fun b' g' => (∑ j : Fin 16, x0 (ix3 b' r j) * x1 (ix2 j g')) + x2 (ix2 0 g'))
          (x3 (ix2 r 0)) (x4 (ix2 r 0)) b g := by
  unfold k0_pay1
  simp only [select_apply, cmpf_apply, mulf_apply, addf_apply, subf_apply, broadcast_apply, broadcastTo_1b1_abc_apply,
    shapeCast_ab_1ab_apply]
  rw [k0_pay2_apply, k0_pay3_apply, k0_pay4_apply, k0_pay5_apply, k0_pay6_eq]
  rfl

end Cert.KernelIdeal.Hand

end
-- ==== Proof.KIdeal.Val0.lean ====
/-
  What region 0 leaves in the first layer's output array, as one function of the arrays the region finds. A grid point `t`
  handles the nodes 2000·t … 2000·t + 1999: its blocks of the concatenated hop array and of the scale and shift columns are
  those rows, the weights and the bias come whole, and the element (batch `b`, row `r`, feature `g`) of what it stores is the
  node's batch normalisation and rectifier of the row's 4 · 64 pre-activations. Written back at rows 2000·t + r, the 25
  points' blocks cover the array, so the array ends as that function at every index.
-/
import proofs.«159603_j71347996721325_2_alg».proof.Proof.KIdeal.Run
import proofs.«159603_j71347996721325_2_alg».proof.Proof.Spec
import proofs.«159603_j71347996721325_2_alg».proof.Proof.KIdeal.Pay0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

theorem hz3_0 : (![0, 0, 0] : Fin 3 → Nat) = fun _ => 0 := funext fun a => by fin_cases a <;> rfl
theorem hz2_0 : (![0, 0] : Fin 2 → Nat) = fun _ => 0 := funext fun a => by fin_cases a <;> rfl

/-- Region 0's output block as a function of its input blocks, at one element: the node's batch normalisation and
    rectifier of the row's pre-activations (the row of the concatenated hop array times the weights, plus the bias). -/
theorem out0_apply (x0 : Vec Ideal S4x2000x16 .f32) (x1 : Vec Ideal S16x64 .f32) (x2 : Vec Ideal S1x64 .f32) (x3 x4 : Vec Ideal S2000x1 .f32) (b : Fin 4) (r : Fin 2000) (g : Fin 64) :
    out0 (F := Ideal) x0 x1 x2 x3 x4 (ix3 b r g)
      = Cert.Spec.bnK (fun b' g' => (∑ j : Fin 16, x0 (ix3 b' r j) * x1 (ix2 j g')) + x2 (ix2 0 g')) (x3 (ix2 r 0)) (x4 (ix2 r 0)) b g := by
  unfold out0
  rw [View.canon_unit_zero hz3_0]
  simp only [View.ld_unit_zero (S := S4x2000x16) hz3_0, View.ld_unit_zero (S := S16x64) hz2_0, View.ld_unit_zero (S := S1x64) hz2_0, View.ld_unit_zero (S := S2000x1) hz2_0]
  exact pay0_apply x0 x1 x2 x3 x4 b r g

variable (V : (c : Dev nD) → (b : Ref sig .tc) → Buf (Elt Ideal) ((c : Thread nD τ).loc b))

/-- The block index of each window of region 0 at a grid point: the node axis moves with the point, the others stay. -/
theorem idx0_facts : ∀ t : Fin cfg0.N,
    (win0_0.index t (0 : Fin 3) = 0 ∧ win0_0.index t (1 : Fin 3) = t.val ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 3) = 0 ∧ win0_5.index t (1 : Fin 3) = t.val ∧ win0_5.index t (2 : Fin 3) = 0) :=
  (by decide +kernel : ∀ t : Fin grid0.N, _)

theorem t0_lt (t : Fin cfg0.N) : t.val < 25 := Nat.lt_of_lt_of_eq t.isLt N_0

/-- A block of the concatenated hop array is the rows 2000·t … 2000·t + 1999 of the array. -/
theorem iblk0_0_apply (c : Dev nD) (t : Fin cfg0.N) (b : Fin 4) (r : Fin 2000) (k : Fin 16) (hn : t.val * 2000 + r.val < 50000) :
    iblk0 V c 0 t (ix3 b r k) = (V c main_v85 : S4x50000x16.Idx → EReal) (ix3 b ⟨t.val * 2000 + r.val, hn⟩ k) := by
  obtain ⟨⟨e0, e1, e2⟩, -⟩ := idx0_facts t
  unfold iblk0
  show (V c main_v85 : S4x50000x16.Idx → EReal) (((cfg0.win 0).blk t).view.emb (ix3 b r k)) = _
  refine congrArg _ ?_
  funext a; apply Fin.ext
  match a with
  | ⟨0, _⟩ => show win0_0.index t (0 : Fin 3) * 4 + 1 * b.val = b.val; omega
  | ⟨1, _⟩ => show win0_0.index t (1 : Fin 3) * 2000 + 1 * r.val = t.val * 2000 + r.val; omega
  | ⟨2, _⟩ => show win0_0.index t (2 : Fin 3) * 16 + 1 * k.val = k.val; omega

/-- The weights' block is the whole array. -/
theorem iblk0_1_apply (c : Dev nD) (t : Fin cfg0.N) (j : Fin 16) (g : Fin 64) :
    iblk0 V c 1 t (ix2 j g) = (V c main_v30 : S16x64.Idx → EReal) (ix2 j g) := by
  obtain ⟨-, ⟨e0, e1⟩, -⟩ := idx0_facts t
  unfold iblk0
  show (V c main_v30 : S16x64.Idx → EReal) (((cfg0.win 1).blk t).view.emb (ix2 j g)) = _
  refine congrArg _ ?_
  funext a; apply Fin.ext
  match a with
  | ⟨0, _⟩ => show win0_1.index t (0 : Fin 2) * 16 + 1 * j.val = j.val; omega
  | ⟨1, _⟩ => show win0_1.index t (1 : Fin 2) * 64 + 1 * g.val = g.val; omega

/-- The bias's block is the whole array. -/
theorem iblk0_2_apply (c : Dev nD) (t : Fin cfg0.N) (z : Fin 1) (g : Fin 64) :
    iblk0 V c 2 t (ix2 z g) = (V c main_v86 : S1x64.Idx → EReal) (ix2 z g) := by
  obtain ⟨-, -, ⟨e0, e1⟩, -⟩ := idx0_facts t
  unfold iblk0
  show (V c main_v86 : S1x64.Idx → EReal) (((cfg0.win 2).blk t).view.emb (ix2 z g)) = _
  refine congrArg _ ?_
  funext a; apply Fin.ext
  match a with
  | ⟨0, _⟩ => show win0_2.index t (0 : Fin 2) * 1 + 1 * z.val = z.val; omega
  | ⟨1, _⟩ => show win0_2.index t (1 : Fin 2) * 64 + 1 * g.val = g.val; omega

/-- A block of the scale column is the rows 2000·t … 2000·t + 1999 of it. -/
theorem iblk0_3_apply (c : Dev nD) (t : Fin cfg0.N) (r : Fin 2000) (z : Fin 1) (hn : t.val * 2000 + r.val < 50000) :
    iblk0 V c 3 t (ix2 r z) = (V c main_v87 : S50000x1.Idx → EReal) (ix2 ⟨t.val * 2000 + r.val, hn⟩ z) := by
  obtain ⟨-, -, -, ⟨e0, e1⟩, -⟩ := idx0_facts t
  unfold iblk0
  show (V c main_v87 : S50000x1.Idx → EReal) (((cfg0.win 3).blk t).view.emb (ix2 r z)) = _
  refine congrArg _ ?_
  funext a; apply Fin.ext
  match a with
  | ⟨0, _⟩ => show win0_3.index t (0 : Fin 2) * 2000 + 1 * r.val = t.val * 2000 + r.val; omega
  | ⟨1, _⟩ => show win0_3.index t (1 : Fin 2) * 1 + 1 * z.val = z.val; omega
/-- The same for the shift column. -/
theorem iblk0_4_apply (c : Dev nD) (t : Fin cfg0.N) (r : Fin 2000) (z : Fin 1) (hn : t.val * 2000 + r.val < 50000) :
    iblk0 V c 4 t (ix2 r z) = (V c main_v88 : S50000x1.Idx → EReal) (ix2 ⟨t.val * 2000 + r.val, hn⟩ z) := by
  obtain ⟨-, -, -, -, ⟨e0, e1⟩, -⟩ := idx0_facts t
  unfold iblk0
  show (V c main_v88 : S50000x1.Idx → EReal) (((cfg0.win 4).blk t).view.emb (ix2 r z)) = _
  refine congrArg _ ?_
  funext a; apply Fin.ext
  match a with
  | ⟨0, _⟩ => show win0_4.index t (0 : Fin 2) * 2000 + 1 * r.val = t.val * 2000 + r.val; omega
  | ⟨1, _⟩ => show win0_4.index t (1 : Fin 2) * 1 + 1 * z.val = z.val; omega

/-- The first layer's output at one element (batch `b`, node `n`, feature `g`): the node's batch normalisation and rectifier
    of its 4 · 64 pre-activations, each the node's row of the concatenated hop array times a column of the stacked weights,
    plus the bias. -/
def g0 (cat : S4x50000x16.Idx → EReal) (W : S16x64.Idx → EReal) (bias : S1x64.Idx → EReal) (γ β : S50000x1.Idx → EReal)
    (b : Fin 4) (n : Fin 50000) (g : Fin 64) : EReal :=
  Cert.Spec.bnK (fun b' g' => (∑ j : Fin 16, cat (ix3 b' n j) * W (ix2 j g')) + bias (ix2 0 g')) (γ (ix2 n 0)) (β (ix2 n 0)) b g
/-- The whole output array of the first layer. -/
def G0 (cat : S4x50000x16.Idx → EReal) (W : S16x64.Idx → EReal) (bias : S1x64.Idx → EReal) (γ β : S50000x1.Idx → EReal) :
    S4x50000x64.Idx → EReal := fun i => g0 cat W bias γ β (i 0) (i 1) (i 2)

/-- What point `t` writes back is block `t` of `G0` of the arrays as the region finds them. -/
theorem flushed0_eq (c : Dev nD) (t : Fin cfg0.N) :
    (dat0 V c).flushed 5 t = ((cfg0.win 5).blk t).view.read (Elt Ideal)
      (G0 (V c main_v85) (V c main_v30) (V c main_v86) (V c main_v87) (V c main_v88)) := by
  show (cfg0.win 5).cut (grid0.coords t) ((dat0 V c).after 5 t) = _
  rw [after0_5]
  funext (j : S4x2000x64.Idx)
  obtain ⟨b, r, g, rfl⟩ : ∃ (b : Fin 4) (r : Fin 2000) (g : Fin 64), j = ix3 b r g := ⟨j 0, j 1, j 2, eq_ix3 j⟩
  have ht := t0_lt t
  have hn : t.val * 2000 + r.val < 50000 := by have := r.isLt; omega
  have hemb : ((cfg0.win 5).blk t).view.emb (ix3 b r g) = (ix3 b ⟨t.val * 2000 + r.val, hn⟩ g : S4x50000x64.Idx) := by
    obtain ⟨-, -, -, -, -, ⟨e0, e1, e2⟩⟩ := idx0_facts t
    funext a; apply Fin.ext
    match a with
    | ⟨0, _⟩ => show win0_5.index t (0 : Fin 3) * 4 + 1 * b.val = b.val; omega
    | ⟨1, _⟩ => show win0_5.index t (1 : Fin 3) * 2000 + 1 * r.val = t.val * 2000 + r.val; omega
    | ⟨2, _⟩ => show win0_5.index t (2 : Fin 3) * 64 + 1 * g.val = g.val; omega
  show out0 (F := Ideal) (iblk0 V c 0 t) (iblk0 V c 1 t) (iblk0 V c 2 t) (iblk0 V c 3 t) (iblk0 V c 4 t) (ix3 b r g)
    = G0 (V c main_v85) (V c main_v30) (V c main_v86) (V c main_v87) (V c main_v88) (((cfg0.win 5).blk t).view.emb (ix3 b r g))
  rw [hemb, out0_apply]
  simp only [iblk0_0_apply V c t _ _ _ hn, iblk0_1_apply, iblk0_2_apply, iblk0_3_apply V c t _ _ hn, iblk0_4_apply V c t _ _ hn]
  rfl

/-- An index of the output array is in point `t`'s block iff each coordinate is in the block's range on its axis. -/
theorem mem_blk0 (t : Fin cfg0.N) (i : S4x50000x64.Idx) :
    i ∈ ((cfg0.win 5).blk t).view.set ↔ ∀ a : Fin 3, win0_5.index t a * S4x2000x64.size a ≤ (i a).val ∧ (i a).val < win0_5.index t a * S4x2000x64.size a + S4x2000x64.size a := by
  show i ∈ ((View.whole main_v89).slice (win0_5.rect t)).set ↔ _
  rw [View.set_slice_whole, Rect.mem_set_unit]
  exact Iff.rfl

/-- Every index of the output array lies in the block of the point that handles its node. -/
theorem cover0_all (i : S4x50000x64.Idx) : ∃ t : Fin cfg0.N, (cfg0.win 5).flush t = true ∧ i ∈ ((cfg0.win 5).blk t).view.set := by
  have hi0 : (i 0).val < 4 := (i 0).isLt
  have hi1 : (i 1).val < 50000 := (i 1).isLt
  have hi2 : (i 2).val < 64 := (i 2).isLt
  have hN : cfg0.N = 25 := N_0
  let t : Fin cfg0.N := ⟨(i 1).val / 2000, by rw [hN]; omega⟩
  obtain ⟨-, -, -, -, -, ⟨e0, e1, e2⟩⟩ := idx0_facts t
  have e1' : win0_5.index t (1 : Fin 3) = (i 1).val / 2000 := e1
  refine ⟨t, flush0_5 t, ?_⟩
  rw [mem_blk0]
  intro a
  match a with
  | ⟨0, _⟩ => show win0_5.index t (0 : Fin 3) * 4 ≤ (i 0).val ∧ (i 0).val < win0_5.index t (0 : Fin 3) * 4 + 4; omega
  | ⟨1, _⟩ => show win0_5.index t (1 : Fin 3) * 2000 ≤ (i 1).val ∧ (i 1).val < win0_5.index t (1 : Fin 3) * 2000 + 2000; omega
  | ⟨2, _⟩ => show win0_5.index t (2 : Fin 3) * 64 ≤ (i 2).val ∧ (i 2).val < win0_5.index t (2 : Fin 3) * 64 + 64; omega

/-- The first layer's output array after region 0: `G0` of the arrays as the region finds them. -/
theorem final0 (c : Dev nD) : (dat0 V c).arrAt 5 cfg0.N
    = G0 (V c main_v85) (V c main_v30) (V c main_v86) (V c main_v87) (V c main_v88) :=
  (dat0 V c).arrAt_eq_of_cover 5 _ (fun t _ => flushed0_eq V c t) cover0_all

end Cert.KernelIdeal.Hand

end
-- ==== Proof.KIdeal.Pay1.lean ====
/-
  The batch-normalisation layer's body arithmetic read at one entry, at the ideal values (floats are extended reals), for the
  layer whose input block is `[4, 2000, 256]`. The body flattens the block to `[8000, 256]`, multiplies it by the `[256, 64]`
  weights into a zero accumulator, unflattens the product to `[4, 2000, 64]` and adds the bias row: node `r`'s pre-activations
  `x b g = ∑ j, in[b, r, j] · w[j, g] + bias[g]`. Per node it then sums the 64 features and the 4 batch entries from zero
  accumulators and divides by 256 (the mean), does the same with the squares, subtracts the squared mean and clamps at zero
  (the variance), and stores `γ · (x − mean) · (var + ε)^(-1/2) + β` through the rectifier with slope 0.01 chosen by `y > 0`.
  Every step is read at an index; the narrowing of the product's operands to sixteen bits is the identity on extended reals.
  The result is the specification's `bnK` of the node's pre-activations, scale and shift.
-/
import proofs.«159603_j71347996721325_2_alg».proof.Proof.Gen.KernelIdeal.Skeleton
import proofs.«159603_j71347996721325_2_alg».proof.Proof.KIdeal.LibPayIdx
import proofs.«159603_j71347996721325_2_alg».proof.Proof.Spec

noncomputable section

open scoped BigOperators

namespace Cert.KernelIdeal.Hand

open Cert.KernelIdeal Cert.KernelIdeal.Gen Idealize.ShloMosaic Idealize.ShloMosaic.ValueIdx

/-- A reciprocal square root at an index is the extended reals' reciprocal square root of the element. -/
private theorem rsqrt_at {s : Shape} {φ : FTy} (a : FVec Ideal s φ) (i : s.Idx) : rsqrt a i = Ideal.rsqrt (a i) := rfl

/-- Node `r`'s pre-activations: entry `(b, g)` is row `(b, r)` of the input block against column `g` of the weights, plus the
    bias at `g`. -/
def k1_pre (x0 : Vec Ideal S4x2000x256 .f32) (x1 : Vec Ideal S256x64 .f32) (x2 : Vec Ideal S1x64 .f32) (r : Fin 2000) :
    Fin 4 → Fin 64 → EReal :=
  fun b g => (∑ j : Fin 256, x0 (ix3 b r j) * x1 (ix2 j g)) + x2 (ix2 0 g)

/-- The product of the flattened block with the weights, unflattened, read at `(b, r, g)`: row `(b, r)` of the block against
    column `g` of the weights. -/
theorem k1_mm_apply (x0 : Vec Ideal S4x2000x256 .f32) (x1 : Vec Ideal S256x64 .f32) (b : Fin 4) (r : Fin 2000) (g : Fin 64) :
    shapeCast S4x2000x64
        (matmul dot_S8000x256_S256x64_S8000x64_1_0_0_1_n_n none
          (shapeCast S8000x256 (truncf .bf16 (x0 : FVec Ideal S4x2000x256 .f32) bitsLt_bf16_f32) shapeCasts_S4x2000x256_S8000x256)
          (truncf .bf16 (x1 : FVec Ideal S256x64 .f32) bitsLt_bf16_f32) (constant (F := Ideal) S8000x64 .f32 0x00000000#32))
        shapeCasts_S8000x64_S4x2000x64 (ix3 b r g)
      = ∑ j : Fin 256, x0 (ix3 b r j) * x1 (ix2 j g) :=
  flat_matmul_apply dot_S8000x256_S256x64_S8000x64_1_0_0_1_n_n_wf none _ _ _ _ b r g
    (by have := b.isLt; have := r.isLt; omega)

/-- The pre-activation array at `(b, r, g)`. -/
theorem k1_pay2_apply (x0 : Vec Ideal S4x2000x256 .f32) (x1 : Vec Ideal S256x64 .f32) (x2 : Vec Ideal S1x64 .f32)
    (b : Fin 4) (r : Fin 2000) (g : Fin 64) :
    k1_pay2 (F := Ideal) x0 x1 x2 (ix3 b r g) = k1_pre x0 x1 x2 r b g := by
  unfold k1_pay2 k1_pre
  simp only [addf_apply, shapeCast_self, broadcastTo_11c_abc_apply, shapeCast_ab_1ab_apply]
  rw [k1_mm_apply]

/-- The two-stage sum of a `[4, 2000, 64]` array — over the 64 features, then over the 4 batch entries, each from the zero
    accumulator, with the unit axes the body keeps — read at node `r`: the double sum of the node's entries. -/
theorem k1_rowsum_apply (P : FVec Ideal S4x2000x64 .f32) (r : Fin 2000) :
    shapeCast S1x2000x1
        (multiReduction .add [0] S2000x1
          (shapeCast S4x2000x1
            (multiReduction .add [2] S4x2000 P 0x00000000#32 reduces_S4x2000x64_S4x2000 (.inl rfl) rfl)
            shapeCasts_S4x2000_S4x2000x1)
          0x00000000#32 reduces_S4x2000x1_S2000x1 (.inl rfl) rfl)
        shapeCasts_S2000x1_S1x2000x1 (ix3 (0 : Fin 1) r (0 : Fin 1))
      = ∑ p : Fin 4, ∑ c : Fin 64, P (ix3 p r c) := by
  refine (shapeCast_ab_1ab_apply _ _ (0 : Fin 1) r (0 : Fin 1)).trans ?_
  refine (multiReduction_add_first_apply _ _ _ _ r (0 : Fin 1)).trans ?_
  refine Finset.sum_congr rfl fun p _ => ?_
  refine (shapeCast_ab_ab1_apply _ _ p r (0 : Fin 1)).trans ?_
  exact multiReduction_add_last_apply P _ _ _ p r

/-- The mean array at node `r`: the specification's mean of the node's pre-activations. -/
theorem k1_pay3_apply (x0 : Vec Ideal S4x2000x256 .f32) (x1 : Vec Ideal S256x64 .f32) (x2 : Vec Ideal S1x64 .f32) (r : Fin 2000) :
    k1_pay3 (F := Ideal) x0 x1 x2 (ix3 (0 : Fin 1) r (0 : Fin 1)) = Cert.Spec.meanK (k1_pre x0 x1 x2 r) := by
  unfold k1_pay3
  simp only [divf_apply, broadcast_apply]
  rw [k1_rowsum_apply]
  simp only [k1_pay2_apply]
  rfl

/-- The inverse-deviation array at node `r`: the reciprocal square root of the specification's variance of the node's
    pre-activations plus ε. -/
theorem k1_pay4_apply (x0 : Vec Ideal S4x2000x256 .f32) (x1 : Vec Ideal S256x64 .f32) (x2 : Vec Ideal S1x64 .f32) (r : Fin 2000) :
    k1_pay4 (F := Ideal) x0 x1 x2 (ix3 (0 : Fin 1) r (0 : Fin 1))
      = Ideal.rsqrt (Cert.Spec.varK (k1_pre x0 x1 x2 r) + Cert.Spec.eps) := by
  unfold k1_pay4
  simp only [rsqrt_at, addf_apply, maximumf_apply, subf_apply, mulf_apply, divf_apply, broadcast_apply]
  rw [k1_rowsum_apply, k1_pay3_apply]
  simp only [mulf_apply, k1_pay2_apply]
  rfl

/-- The scale array at node `r` is the loaded scale there. -/
theorem k1_pay5_apply (x3 : Vec Ideal S2000x1 .f32) (r : Fin 2000) :
    k1_pay5 (F := Ideal) x3 (ix3 (0 : Fin 1) r (0 : Fin 1)) = x3 (ix2 r 0) := by
  unfold k1_pay5
  simp only [shapeCast_self, shapeCast_ab_1ab_apply]

/-- The shift array is the loaded shift. -/
theorem k1_pay6_eq (x4 : Vec Ideal S2000x1 .f32) : k1_pay6 (F := Ideal) x4 = x4 := by
  unfold k1_pay6
  simp only [shapeCast_self]

/-- The body's stored value at `(b, r, g)`: the specification's normalisation and rectifier of node `r`'s pre-activations,
    scale and shift. -/
theorem pay1_apply (x0 : Vec Ideal S4x2000x256 .f32) (x1 : Vec Ideal S256x64 .f32) (x2 : Vec Ideal S1x64 .f32)
    (x3 x4 : Vec Ideal S2000x1 .f32) (b : Fin 4) (r : Fin 2000) (g : Fin 64) :
    k1_pay1 (F := Ideal) (k1_pay2 x0 x1 x2) (k1_pay3 x0 x1 x2) (k1_pay4 x0 x1 x2) (k1_pay5 x3) (k1_pay6 x4) (ix3 b r g)
      = Cert.Spec.bnK (fun b' g' => (∑ j : Fin 256, x0 (ix3 b' r j) * x1 (ix2 j g')) + x2 (ix2 0 g'))
          (x3 (ix2 r 0)) (x4 (ix2 r 0)) b g := by
  unfold k1_pay1
  simp only [select_apply, cmpf_apply, mulf_apply, addf_apply, subf_apply, broadcast_apply, broadcastTo_1b1_abc_apply,
    shapeCast_ab_1ab_apply]
  rw [k1_pay2_apply, k1_pay3_apply, k1_pay4_apply, k1_pay5_apply, k1_pay6_eq]
  rfl

end Cert.KernelIdeal.Hand

end
-- ==== Proof.KIdeal.Val1.lean ====
/-
  What region 1 leaves in the second layer's output array, as one function of the arrays the region finds. A grid point `t`
  handles the nodes 2000·t … 2000·t + 1999: its blocks of the concatenated hop array and of the scale and shift columns are
  those rows, the weights and the bias come whole, and the element (batch `b`, row `r`, feature `g`) of what it stores is the
  node's batch normalisation and rectifier of the row's 4 · 64 pre-activations. Written back at rows 2000·t + r, the 25
  points' blocks cover the array, so the array ends as that function at every index.
-/
import proofs.«159603_j71347996721325_2_alg».proof.Proof.KIdeal.Run
import proofs.«159603_j71347996721325_2_alg».proof.Proof.Spec
import proofs.«159603_j71347996721325_2_alg».proof.Proof.KIdeal.Pay1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

theorem hz3_1 : (![0, 0, 0] : Fin 3 → Nat) = fun _ => 0 := funext fun a => by fin_cases a <;> rfl
theorem hz2_1 : (![0, 0] : Fin 2 → Nat) = fun _ => 0 := funext fun a => by fin_cases a <;> rfl

/-- Region 1's output block as a function of its input blocks, at one element: the node's batch normalisation and
    rectifier of the row's pre-activations (the row of the concatenated hop array times the weights, plus the bias). -/
theorem out1_apply (x0 : Vec Ideal S4x2000x256 .f32) (x1 : Vec Ideal S256x64 .f32) (x2 : Vec Ideal S1x64 .f32) (x3 x4 : Vec Ideal S2000x1 .f32) (b : Fin 4) (r : Fin 2000) (g : Fin 64) :
    out1 (F := Ideal) x0 x1 x2 x3 x4 (ix3 b r g)
      = Cert.Spec.bnK (fun b' g' => (∑ j : Fin 256, x0 (ix3 b' r j) * x1 (ix2 j g')) + x2 (ix2 0 g')) (x3 (ix2 r 0)) (x4 (ix2 r 0)) b g := by
  unfold out1
  rw [View.canon_unit_zero hz3_1]
  simp only [View.ld_unit_zero (S := S4x2000x256) hz3_1, View.ld_unit_zero (S := S256x64) hz2_1, View.ld_unit_zero (S := S1x64) hz2_1, View.ld_unit_zero (S := S2000x1) hz2_1]
  exact pay1_apply x0 x1 x2 x3 x4 b r g

variable (V : (c : Dev nD) → (b : Ref sig .tc) → Buf (Elt Ideal) ((c : Thread nD τ).loc b))

/-- The block index of each window of region 1 at a grid point: the node axis moves with the point, the others stay. -/
theorem idx1_facts : ∀ t : Fin cfg1.N,
    (win1_0.index t (0 : Fin 3) = 0 ∧ win1_0.index t (1 : Fin 3) = t.val ∧ win1_0.index t (2 : Fin 3) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = t.val ∧ win1_3.index t (1 : Fin 2) = 0)
    ∧ (win1_4.index t (0 : Fin 2) = t.val ∧ win1_4.index t (1 : Fin 2) = 0)
    ∧ (win1_5.index t (0 : Fin 3) = 0 ∧ win1_5.index t (1 : Fin 3) = t.val ∧ win1_5.index t (2 : Fin 3) = 0) :=
  (by decide +kernel : ∀ t : Fin grid1.N, _)

theorem t1_lt (t : Fin cfg1.N) : t.val < 25 := Nat.lt_of_lt_of_eq t.isLt N_1

/-- A block of the concatenated hop array is the rows 2000·t … 2000·t + 1999 of the array. -/
theorem iblk1_0_apply (c : Dev nD) (t : Fin cfg1.N) (b : Fin 4) (r : Fin 2000) (k : Fin 256) (hn : t.val * 2000 + r.val < 50000) :
    iblk1 V c 0 t (ix3 b r k) = (V c main_v145 : S4x50000x256.Idx → EReal) (ix3 b ⟨t.val * 2000 + r.val, hn⟩ k) := by
  obtain ⟨⟨e0, e1, e2⟩, -⟩ := idx1_facts t
  unfold iblk1
  show (V c main_v145 : S4x50000x256.Idx → EReal) (((cfg1.win 0).blk t).view.emb (ix3 b r k)) = _
  refine congrArg _ ?_
  funext a; apply Fin.ext
  match a with
  | ⟨0, _⟩ => show win1_0.index t (0 : Fin 3) * 4 + 1 * b.val = b.val; omega
  | ⟨1, _⟩ => show win1_0.index t (1 : Fin 3) * 2000 + 1 * r.val = t.val * 2000 + r.val; omega
  | ⟨2, _⟩ => show win1_0.index t (2 : Fin 3) * 256 + 1 * k.val = k.val; omega

/-- The weights' block is the whole array. -/
theorem iblk1_1_apply (c : Dev nD) (t : Fin cfg1.N) (j : Fin 256) (g : Fin 64) :
    iblk1 V c 1 t (ix2 j g) = (V c main_v90 : S256x64.Idx → EReal) (ix2 j g) := by
  obtain ⟨-, ⟨e0, e1⟩, -⟩ := idx1_facts t
  unfold iblk1
  show (V c main_v90 : S256x64.Idx → EReal) (((cfg1.win 1).blk t).view.emb (ix2 j g)) = _
  refine congrArg _ ?_
  funext a; apply Fin.ext
  match a with
  | ⟨0, _⟩ => show win1_1.index t (0 : Fin 2) * 256 + 1 * j.val = j.val; omega
  | ⟨1, _⟩ => show win1_1.index t (1 : Fin 2) * 64 + 1 * g.val = g.val; omega

/-- The bias's block is the whole array. -/
theorem iblk1_2_apply (c : Dev nD) (t : Fin cfg1.N) (z : Fin 1) (g : Fin 64) :
    iblk1 V c 2 t (ix2 z g) = (V c main_v146 : S1x64.Idx → EReal) (ix2 z g) := by
  obtain ⟨-, -, ⟨e0, e1⟩, -⟩ := idx1_facts t
  unfold iblk1
  show (V c main_v146 : S1x64.Idx → EReal) (((cfg1.win 2).blk t).view.emb (ix2 z g)) = _
  refine congrArg _ ?_
  funext a; apply Fin.ext
  match a with
  | ⟨0, _⟩ => show win1_2.index t (0 : Fin 2) * 1 + 1 * z.val = z.val; omega
  | ⟨1, _⟩ => show win1_2.index t (1 : Fin 2) * 64 + 1 * g.val = g.val; omega

/-- A block of the scale column is the rows 2000·t … 2000·t + 1999 of it. -/
theorem iblk1_3_apply (c : Dev nD) (t : Fin cfg1.N) (r : Fin 2000) (z : Fin 1) (hn : t.val * 2000 + r.val < 50000) :
    iblk1 V c 3 t (ix2 r z) = (V c main_v147 : S50000x1.Idx → EReal) (ix2 ⟨t.val * 2000 + r.val, hn⟩ z) := by
  obtain ⟨-, -, -, ⟨e0, e1⟩, -⟩ := idx1_facts t
  unfold iblk1
  show (V c main_v147 : S50000x1.Idx → EReal) (((cfg1.win 3).blk t).view.emb (ix2 r z)) = _
  refine congrArg _ ?_
  funext a; apply Fin.ext
  match a with
  | ⟨0, _⟩ => show win1_3.index t (0 : Fin 2) * 2000 + 1 * r.val = t.val * 2000 + r.val; omega
  | ⟨1, _⟩ => show win1_3.index t (1 : Fin 2) * 1 + 1 * z.val = z.val; omega
/-- The same for the shift column. -/
theorem iblk1_4_apply (c : Dev nD) (t : Fin cfg1.N) (r : Fin 2000) (z : Fin 1) (hn : t.val * 2000 + r.val < 50000) :
    iblk1 V c 4 t (ix2 r z) = (V c main_v148 : S50000x1.Idx → EReal) (ix2 ⟨t.val * 2000 + r.val, hn⟩ z) := by
  obtain ⟨-, -, -, -, ⟨e0, e1⟩, -⟩ := idx1_facts t
  unfold iblk1
  show (V c main_v148 : S50000x1.Idx → EReal) (((cfg1.win 4).blk t).view.emb (ix2 r z)) = _
  refine congrArg _ ?_
  funext a; apply Fin.ext
  match a with
  | ⟨0, _⟩ => show win1_4.index t (0 : Fin 2) * 2000 + 1 * r.val = t.val * 2000 + r.val; omega
  | ⟨1, _⟩ => show win1_4.index t (1 : Fin 2) * 1 + 1 * z.val = z.val; omega

/-- The second layer's output at one element (batch `b`, node `n`, feature `g`): the node's batch normalisation and rectifier
    of its 4 · 64 pre-activations, each the node's row of the concatenated hop array times a column of the stacked weights,
    plus the bias. -/
def g1 (cat : S4x50000x256.Idx → EReal) (W : S256x64.Idx → EReal) (bias : S1x64.Idx → EReal) (γ β : S50000x1.Idx → EReal)
    (b : Fin 4) (n : Fin 50000) (g : Fin 64) : EReal :=
  Cert.Spec.bnK (fun b' g' => (∑ j : Fin 256, cat (ix3 b' n j) * W (ix2 j g')) + bias (ix2 0 g')) (γ (ix2 n 0)) (β (ix2 n 0)) b g
/-- The whole output array of the second layer. -/
def G1 (cat : S4x50000x256.Idx → EReal) (W : S256x64.Idx → EReal) (bias : S1x64.Idx → EReal) (γ β : S50000x1.Idx → EReal) :
    S4x50000x64.Idx → EReal := fun i => g1 cat W bias γ β (i 0) (i 1) (i 2)

/-- What point `t` writes back is block `t` of `G1` of the arrays as the region finds them. -/
theorem flushed1_eq (c : Dev nD) (t : Fin cfg1.N) :
    (dat1 V c).flushed 5 t = ((cfg1.win 5).blk t).view.read (Elt Ideal)
      (G1 (V c main_v145) (V c main_v90) (V c main_v146) (V c main_v147) (V c main_v148)) := by
  show (cfg1.win 5).cut (grid1.coords t) ((dat1 V c).after 5 t) = _
  rw [after1_5]
  funext (j : S4x2000x64.Idx)
  obtain ⟨b, r, g, rfl⟩ : ∃ (b : Fin 4) (r : Fin 2000) (g : Fin 64), j = ix3 b r g := ⟨j 0, j 1, j 2, eq_ix3 j⟩
  have ht := t1_lt t
  have hn : t.val * 2000 + r.val < 50000 := by have := r.isLt; omega
  have hemb : ((cfg1.win 5).blk t).view.emb (ix3 b r g) = (ix3 b ⟨t.val * 2000 + r.val, hn⟩ g : S4x50000x64.Idx) := by
    obtain ⟨-, -, -, -, -, ⟨e0, e1, e2⟩⟩ := idx1_facts t
    funext a; apply Fin.ext
    match a with
    | ⟨0, _⟩ => show win1_5.index t (0 : Fin 3) * 4 + 1 * b.val = b.val; omega
    | ⟨1, _⟩ => show win1_5.index t (1 : Fin 3) * 2000 + 1 * r.val = t.val * 2000 + r.val; omega
    | ⟨2, _⟩ => show win1_5.index t (2 : Fin 3) * 64 + 1 * g.val = g.val; omega
  show out1 (F := Ideal) (iblk1 V c 0 t) (iblk1 V c 1 t) (iblk1 V c 2 t) (iblk1 V c 3 t) (iblk1 V c 4 t) (ix3 b r g)
    = G1 (V c main_v145) (V c main_v90) (V c main_v146) (V c main_v147) (V c main_v148) (((cfg1.win 5).blk t).view.emb (ix3 b r g))
  rw [hemb, out1_apply]
  simp only [iblk1_0_apply V c t _ _ _ hn, iblk1_1_apply, iblk1_2_apply, iblk1_3_apply V c t _ _ hn, iblk1_4_apply V c t _ _ hn]
  rfl

/-- An index of the output array is in point `t`'s block iff each coordinate is in the block's range on its axis. -/
theorem mem_blk1 (t : Fin cfg1.N) (i : S4x50000x64.Idx) :
    i ∈ ((cfg1.win 5).blk t).view.set ↔ ∀ a : Fin 3, win1_5.index t a * S4x2000x64.size a ≤ (i a).val ∧ (i a).val < win1_5.index t a * S4x2000x64.size a + S4x2000x64.size a := by
  show i ∈ ((View.whole main_v149).slice (win1_5.rect t)).set ↔ _
  rw [View.set_slice_whole, Rect.mem_set_unit]
  exact Iff.rfl

/-- Every index of the output array lies in the block of the point that handles its node. -/
theorem cover1_all (i : S4x50000x64.Idx) : ∃ t : Fin cfg1.N, (cfg1.win 5).flush t = true ∧ i ∈ ((cfg1.win 5).blk t).view.set := by
  have hi0 : (i 0).val < 4 := (i 0).isLt
  have hi1 : (i 1).val < 50000 := (i 1).isLt
  have hi2 : (i 2).val < 64 := (i 2).isLt
  have hN : cfg1.N = 25 := N_1
  let t : Fin cfg1.N := ⟨(i 1).val / 2000, by rw [hN]; omega⟩
  obtain ⟨-, -, -, -, -, ⟨e0, e1, e2⟩⟩ := idx1_facts t
  have e1' : win1_5.index t (1 : Fin 3) = (i 1).val / 2000 := e1
  refine ⟨t, flush1_5 t, ?_⟩
  rw [mem_blk1]
  intro a
  match a with
  | ⟨0, _⟩ => show win1_5.index t (0 : Fin 3) * 4 ≤ (i 0).val ∧ (i 0).val < win1_5.index t (0 : Fin 3) * 4 + 4; omega
  | ⟨1, _⟩ => show win1_5.index t (1 : Fin 3) * 2000 ≤ (i 1).val ∧ (i 1).val < win1_5.index t (1 : Fin 3) * 2000 + 2000; omega
  | ⟨2, _⟩ => show win1_5.index t (2 : Fin 3) * 64 ≤ (i 2).val ∧ (i 2).val < win1_5.index t (2 : Fin 3) * 64 + 64; omega

/-- The second layer's output array after region 1: `G1` of the arrays as the region finds them. -/
theorem final1 (c : Dev nD) : (dat1 V c).arrAt 5 cfg1.N
    = G1 (V c main_v145) (V c main_v90) (V c main_v146) (V c main_v147) (V c main_v148) :=
  (dat1 V c).arrAt_eq_of_cover 5 _ (fun t _ => flushed1_eq V c t) cover1_all

end Cert.KernelIdeal.Hand

end
-- ==== Proof.KIdeal.Pay2.lean ====
/-
  The output layer's body arithmetic read at one entry, at the ideal values (floats are extended reals). The body flattens the
  `[4, 2000, 256]` block of hidden features to `[8000, 256]`, multiplies it by the `[256, 2]` weights into a zero accumulator,
  unflattens the product to `[4, 2000, 2]` and adds the bias row; it then scales the result by the node's scale, adds the
  node's mean, multiplies by the node's mask, and clamps between the node's lower and upper bounds. The narrowing of the
  operands to sixteen bits before the product is the identity on extended reals, so entry `(b, r, g)` is
  `min hi (max lo (((∑ j, x[b, r, j] · w[j, g] + bias[g]) · scale[r, g] + mean[r, g]) · mask[r, g]))`.
-/
import proofs.«159603_j71347996721325_2_alg».proof.Proof.Gen.KernelIdeal.Skeleton
import proofs.«159603_j71347996721325_2_alg».proof.Proof.KIdeal.LibPayIdx

noncomputable section

open scoped BigOperators

namespace Cert.KernelIdeal.Hand

open Cert.KernelIdeal Cert.KernelIdeal.Gen Idealize.ShloMosaic Idealize.ShloMosaic.ValueIdx

/-- The product of the flattened block with the weights, unflattened, read at `(b, r, g)`: row `(b, r)` of the block against
    column `g` of the weights. -/
theorem k2_mm_apply (x0 : Vec Ideal S4x2000x256 .f32) (x1 : Vec Ideal S256x2 .f32) (b : Fin 4) (r : Fin 2000) (g : Fin 2) :
    shapeCast S4x2000x2
        (matmul dot_S8000x256_S256x2_S8000x2_1_0_0_1_n_n none
          (shapeCast S8000x256 (truncf .bf16 (x0 : FVec Ideal S4x2000x256 .f32) bitsLt_bf16_f32) shapeCasts_S4x2000x256_S8000x256)
          (truncf .bf16 (x1 : FVec Ideal S256x2 .f32) bitsLt_bf16_f32) (constant (F := Ideal) S8000x2 .f32 0x00000000#32))
        shapeCasts_S8000x2_S4x2000x2 (ix3 b r g)
      = ∑ j : Fin 256, x0 (ix3 b r j) * x1 (ix2 j g) :=
  flat_matmul_apply dot_S8000x256_S256x2_S8000x2_1_0_0_1_n_n_wf none _ _ _ _ b r g
    (by have := b.isLt; have := r.isLt; omega)

/-- The body's stored value at `(b, r, g)`. -/
theorem pay2_apply (x0 : Vec Ideal S4x2000x256 .f32) (x1 : Vec Ideal S256x2 .f32) (x2 : Vec Ideal S1x2 .f32)
    (x3 x4 x5 x6 x7 : Vec Ideal S2000x2 .f32) (b : Fin 4) (r : Fin 2000) (g : Fin 2) :
    k2_pay1 (F := Ideal) x0 x1 x2 x3 x4 x5 x6 x7 (ix3 b r g)
      = min (x7 (ix2 r g)) (max (x6 (ix2 r g))
          ((((∑ j : Fin 256, x0 (ix3 b r j) * x1 (ix2 j g)) + x2 (ix2 0 g)) * x4 (ix2 r g) + x3 (ix2 r g)) * x5 (ix2 r g))) := by
  unfold k2_pay1
  simp only [minimumf_apply, maximumf_apply, mulf_apply, addf_apply, shapeCast_self, broadcastTo_1bc_abc_apply,
    broadcastTo_11c_abc_apply, shapeCast_ab_1ab_apply]
  rw [k2_mm_apply]

end Cert.KernelIdeal.Hand

end
-- ==== Proof.KIdeal.Val2.lean ====
/-
  What region 2 leaves in the result array, as one function of the arrays the region finds. A grid point `t` handles the
  nodes 2000·t … 2000·t + 1999: its blocks of the concatenated hop array and of the five per-node arrays are those rows,
  the weights and the bias come whole, and the element (batch `b`, row `r`, channel `g`) of what it stores is the row of the
  hop array times the weights' column, plus the bias, times the node's scale, plus its mean, times its mask, clamped
  between its bounds. Written back at rows 2000·t + r, the 25 points' blocks cover the array, so the array ends as that
  function at every index.
-/
import proofs.«159603_j71347996721325_2_alg».proof.Proof.KIdeal.Run
import proofs.«159603_j71347996721325_2_alg».proof.Proof.KIdeal.Pay2
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

theorem hz3 : (![0, 0, 0] : Fin 3 → Nat) = fun _ => 0 := funext fun a => by fin_cases a <;> rfl
theorem hz2 : (![0, 0] : Fin 2 → Nat) = fun _ => 0 := funext fun a => by fin_cases a <;> rfl

/-- Region 2's output block as a function of its input blocks, at one element. -/
theorem out2_apply (x0 : Vec Ideal S4x2000x256 .f32) (x1 : Vec Ideal S256x2 .f32) (x2 : Vec Ideal S1x2 .f32) (x3 x4 x5 x6 x7 : Vec Ideal S2000x2 .f32) (b : Fin 4) (r : Fin 2000) (g : Fin 2) :
    out2 (F := Ideal) x0 x1 x2 x3 x4 x5 x6 x7 (ix3 b r g)
      = min (x7 (ix2 r g)) (max (x6 (ix2 r g)) ((((∑ j : Fin 256, x0 (ix3 b r j) * x1 (ix2 j g)) + x2 (ix2 0 g)) * x4 (ix2 r g) + x3 (ix2 r g)) * x5 (ix2 r g))) := by
  unfold out2
  rw [View.canon_unit_zero hz3]
  simp only [View.ld_unit_zero (S := S4x2000x256) hz3, View.ld_unit_zero (S := S256x2) hz2, View.ld_unit_zero (S := S1x2) hz2, View.ld_unit_zero (S := S2000x2) hz2]
  exact pay2_apply x0 x1 x2 x3 x4 x5 x6 x7 b r g

variable (V : (c : Dev nD) → (b : Ref sig .tc) → Buf (Elt Ideal) ((c : Thread nD τ).loc b))

/-- The block index of each window of region 2 at a grid point: the node axis moves with the point, the others stay. -/
theorem idx2_facts : ∀ t : Fin cfg2.N,
    (win2_0.index t (0 : Fin 3) = 0 ∧ win2_0.index t (1 : Fin 3) = t.val ∧ win2_0.index t (2 : Fin 3) = 0)
    ∧ (win2_1.index t (0 : Fin 2) = 0 ∧ win2_1.index t (1 : Fin 2) = 0)
    ∧ (win2_2.index t (0 : Fin 2) = 0 ∧ win2_2.index t (1 : Fin 2) = 0)
    ∧ (win2_3.index t (0 : Fin 2) = t.val ∧ win2_3.index t (1 : Fin 2) = 0)
    ∧ (win2_4.index t (0 : Fin 2) = t.val ∧ win2_4.index t (1 : Fin 2) = 0)
    ∧ (win2_5.index t (0 : Fin 2) = t.val ∧ win2_5.index t (1 : Fin 2) = 0)
    ∧ (win2_6.index t (0 : Fin 2) = t.val ∧ win2_6.index t (1 : Fin 2) = 0)
    ∧ (win2_7.index t (0 : Fin 2) = t.val ∧ win2_7.index t (1 : Fin 2) = 0)
    ∧ (win2_8.index t (0 : Fin 3) = 0 ∧ win2_8.index t (1 : Fin 3) = t.val ∧ win2_8.index t (2 : Fin 3) = 0) :=
  (by decide +kernel : ∀ t : Fin grid2.N, _)

theorem t2_lt (t : Fin cfg2.N) : t.val < 25 := Nat.lt_of_lt_of_eq t.isLt N_2

/-- A block of the concatenated hop arrays is the rows 2000·t … 2000·t + 1999 of the array. -/
theorem iblk2_0_apply (c : Dev nD) (t : Fin cfg2.N) (b : Fin 4) (r : Fin 2000) (k : Fin 256) (hn : t.val * 2000 + r.val < 50000) :
    iblk2 V c 0 t (ix3 b r k) = (V c main_v205 : S4x50000x256.Idx → EReal) (ix3 b ⟨t.val * 2000 + r.val, hn⟩ k) := by
  obtain ⟨⟨e0, e1, e2⟩, -⟩ := idx2_facts t
  unfold iblk2
  show (V c main_v205 : S4x50000x256.Idx → EReal) (((cfg2.win 0).blk t).view.emb (ix3 b r k)) = _
  refine congrArg _ ?_
  funext a; apply Fin.ext
  match a with
  | ⟨0, _⟩ => show win2_0.index t (0 : Fin 3) * 4 + 1 * b.val = b.val; omega
  | ⟨1, _⟩ => show win2_0.index t (1 : Fin 3) * 2000 + 1 * r.val = t.val * 2000 + r.val; omega
  | ⟨2, _⟩ => show win2_0.index t (2 : Fin 3) * 256 + 1 * k.val = k.val; omega

/-- The weights' block is the whole array. -/
theorem iblk2_1_apply (c : Dev nD) (t : Fin cfg2.N) (j : Fin 256) (g : Fin 2) :
    iblk2 V c 1 t (ix2 j g) = (V c main_v150 : S256x2.Idx → EReal) (ix2 j g) := by
  obtain ⟨-, ⟨e0, e1⟩, -⟩ := idx2_facts t
  unfold iblk2
  show (V c main_v150 : S256x2.Idx → EReal) (((cfg2.win 1).blk t).view.emb (ix2 j g)) = _
  refine congrArg _ ?_
  funext a; apply Fin.ext
  match a with
  | ⟨0, _⟩ => show win2_1.index t (0 : Fin 2) * 256 + 1 * j.val = j.val; omega
  | ⟨1, _⟩ => show win2_1.index t (1 : Fin 2) * 2 + 1 * g.val = g.val; omega

/-- The bias's block is the whole array. -/
theorem iblk2_2_apply (c : Dev nD) (t : Fin cfg2.N) (z : Fin 1) (g : Fin 2) :
    iblk2 V c 2 t (ix2 z g) = (V c main_v214 : S1x2.Idx → EReal) (ix2 z g) := by
  obtain ⟨-, -, ⟨e0, e1⟩, -⟩ := idx2_facts t
  unfold iblk2
  show (V c main_v214 : S1x2.Idx → EReal) (((cfg2.win 2).blk t).view.emb (ix2 z g)) = _
  refine congrArg _ ?_
  funext a; apply Fin.ext
  match a with
  | ⟨0, _⟩ => show win2_2.index t (0 : Fin 2) * 1 + 1 * z.val = z.val; omega
  | ⟨1, _⟩ => show win2_2.index t (1 : Fin 2) * 2 + 1 * g.val = g.val; omega

/-- A block of a per-node array is the rows 2000·t … 2000·t + 1999 of the array (windows 3 to 7). -/
theorem iblk2_3_apply (c : Dev nD) (t : Fin cfg2.N) (r : Fin 2000) (g : Fin 2) (hn : t.val * 2000 + r.val < 50000) :
    iblk2 V c 3 t (ix2 r g) = (V c main_arg15 : S50000x2.Idx → EReal) (ix2 ⟨t.val * 2000 + r.val, hn⟩ g) := by
  obtain ⟨-, -, -, ⟨e0, e1⟩, -⟩ := idx2_facts t
  unfold iblk2
  show (V c main_arg15 : S50000x2.Idx → EReal) (((cfg2.win 3).blk t).view.emb (ix2 r g)) = _
  refine congrArg _ ?_
  funext a; apply Fin.ext
  match a with
  | ⟨0, _⟩ => show win2_3.index t (0 : Fin 2) * 2000 + 1 * r.val = t.val * 2000 + r.val; omega
  | ⟨1, _⟩ => show win2_3.index t (1 : Fin 2) * 2 + 1 * g.val = g.val; omega
theorem iblk2_4_apply (c : Dev nD) (t : Fin cfg2.N) (r : Fin 2000) (g : Fin 2) (hn : t.val * 2000 + r.val < 50000) :
    iblk2 V c 4 t (ix2 r g) = (V c main_v207 : S50000x2.Idx → EReal) (ix2 ⟨t.val * 2000 + r.val, hn⟩ g) := by
  obtain ⟨-, -, -, -, ⟨e0, e1⟩, -⟩ := idx2_facts t
  unfold iblk2
  show (V c main_v207 : S50000x2.Idx → EReal) (((cfg2.win 4).blk t).view.emb (ix2 r g)) = _
  refine congrArg _ ?_
  funext a; apply Fin.ext
  match a with
  | ⟨0, _⟩ => show win2_4.index t (0 : Fin 2) * 2000 + 1 * r.val = t.val * 2000 + r.val; omega
  | ⟨1, _⟩ => show win2_4.index t (1 : Fin 2) * 2 + 1 * g.val = g.val; omega
theorem iblk2_5_apply (c : Dev nD) (t : Fin cfg2.N) (r : Fin 2000) (g : Fin 2) (hn : t.val * 2000 + r.val < 50000) :
    iblk2 V c 5 t (ix2 r g) = (V c main_arg14 : S50000x2.Idx → EReal) (ix2 ⟨t.val * 2000 + r.val, hn⟩ g) := by
  obtain ⟨-, -, -, -, -, ⟨e0, e1⟩, -⟩ := idx2_facts t
  unfold iblk2
  show (V c main_arg14 : S50000x2.Idx → EReal) (((cfg2.win 5).blk t).view.emb (ix2 r g)) = _
  refine congrArg _ ?_
  funext a; apply Fin.ext
  match a with
  | ⟨0, _⟩ => show win2_5.index t (0 : Fin 2) * 2000 + 1 * r.val = t.val * 2000 + r.val; omega
  | ⟨1, _⟩ => show win2_5.index t (1 : Fin 2) * 2 + 1 * g.val = g.val; omega
theorem iblk2_6_apply (c : Dev nD) (t : Fin cfg2.N) (r : Fin 2000) (g : Fin 2) (hn : t.val * 2000 + r.val < 50000) :
    iblk2 V c 6 t (ix2 r g) = (V c main_v210 : S50000x2.Idx → EReal) (ix2 ⟨t.val * 2000 + r.val, hn⟩ g) := by
  obtain ⟨-, -, -, -, -, -, ⟨e0, e1⟩, -⟩ := idx2_facts t
  unfold iblk2
  show (V c main_v210 : S50000x2.Idx → EReal) (((cfg2.win 6).blk t).view.emb (ix2 r g)) = _
  refine congrArg _ ?_
  funext a; apply Fin.ext
  match a with
  | ⟨0, _⟩ => show win2_6.index t (0 : Fin 2) * 2000 + 1 * r.val = t.val * 2000 + r.val; omega
  | ⟨1, _⟩ => show win2_6.index t (1 : Fin 2) * 2 + 1 * g.val = g.val; omega
theorem iblk2_7_apply (c : Dev nD) (t : Fin cfg2.N) (r : Fin 2000) (g : Fin 2) (hn : t.val * 2000 + r.val < 50000) :
    iblk2 V c 7 t (ix2 r g) = (V c main_v213 : S50000x2.Idx → EReal) (ix2 ⟨t.val * 2000 + r.val, hn⟩ g) := by
  obtain ⟨-, -, -, -, -, -, -, ⟨e0, e1⟩, -⟩ := idx2_facts t
  unfold iblk2
  show (V c main_v213 : S50000x2.Idx → EReal) (((cfg2.win 7).blk t).view.emb (ix2 r g)) = _
  refine congrArg _ ?_
  funext a; apply Fin.ext
  match a with
  | ⟨0, _⟩ => show win2_7.index t (0 : Fin 2) * 2000 + 1 * r.val = t.val * 2000 + r.val; omega
  | ⟨1, _⟩ => show win2_7.index t (1 : Fin 2) * 2 + 1 * g.val = g.val; omega

/-- The result of the third layer at one element (batch `b`, node `n`, channel `g`): the row of the concatenated hop arrays
    times the stacked weights, plus the bias, rescaled, shifted, masked, and clamped between the node's bounds. -/
def g2 (hh : S4x50000x256.Idx → EReal) (W : S256x2.Idx → EReal) (bias : S1x2.Idx → EReal) (mean std mask lo hi : S50000x2.Idx → EReal)
    (b : Fin 4) (n : Fin 50000) (g : Fin 2) : EReal :=
  min (hi (ix2 n g)) (max (lo (ix2 n g)) ((((∑ j : Fin 256, hh (ix3 b n j) * W (ix2 j g)) + bias (ix2 0 g)) * std (ix2 n g) + mean (ix2 n g)) * mask (ix2 n g)))
/-- The whole result array. -/
def G2 (hh : S4x50000x256.Idx → EReal) (W : S256x2.Idx → EReal) (bias : S1x2.Idx → EReal) (mean std mask lo hi : S50000x2.Idx → EReal) :
    S4x50000x2.Idx → EReal := fun i => g2 hh W bias mean std mask lo hi (i 0) (i 1) (i 2)

/-- What point `t` writes back is block `t` of `G2` of the arrays as the region finds them. -/
theorem flushed2_eq (c : Dev nD) (t : Fin cfg2.N) :
    (dat2 V c).flushed 8 t = ((cfg2.win 8).blk t).view.read (Elt Ideal)
      (G2 (V c main_v205) (V c main_v150) (V c main_v214) (V c main_arg15) (V c main_v207) (V c main_arg14) (V c main_v210) (V c main_v213)) := by
  show (cfg2.win 8).cut (grid2.coords t) ((dat2 V c).after 8 t) = _
  rw [after2_8]
  funext (j : S4x2000x2.Idx)
  obtain ⟨b, r, g, rfl⟩ : ∃ (b : Fin 4) (r : Fin 2000) (g : Fin 2), j = ix3 b r g := ⟨j 0, j 1, j 2, eq_ix3 j⟩
  have ht := t2_lt t
  have hn : t.val * 2000 + r.val < 50000 := by have := r.isLt; omega
  have hemb : ((cfg2.win 8).blk t).view.emb (ix3 b r g) = (ix3 b ⟨t.val * 2000 + r.val, hn⟩ g : S4x50000x2.Idx) := by
    obtain ⟨-, -, -, -, -, -, -, -, ⟨e0, e1, e2⟩⟩ := idx2_facts t
    funext a; apply Fin.ext
    match a with
    | ⟨0, _⟩ => show win2_8.index t (0 : Fin 3) * 4 + 1 * b.val = b.val; omega
    | ⟨1, _⟩ => show win2_8.index t (1 : Fin 3) * 2000 + 1 * r.val = t.val * 2000 + r.val; omega
    | ⟨2, _⟩ => show win2_8.index t (2 : Fin 3) * 2 + 1 * g.val = g.val; omega
  show out2 (F := Ideal) (iblk2 V c 0 t) (iblk2 V c 1 t) (iblk2 V c 2 t) (iblk2 V c 3 t) (iblk2 V c 4 t) (iblk2 V c 5 t) (iblk2 V c 6 t) (iblk2 V c 7 t) (ix3 b r g)
    = G2 (V c main_v205) (V c main_v150) (V c main_v214) (V c main_arg15) (V c main_v207) (V c main_arg14) (V c main_v210) (V c main_v213)
        (((cfg2.win 8).blk t).view.emb (ix3 b r g))
  rw [hemb, out2_apply]
  simp only [iblk2_0_apply V c t _ _ _ hn, iblk2_1_apply, iblk2_2_apply, iblk2_3_apply V c t _ _ hn, iblk2_4_apply V c t _ _ hn,
    iblk2_5_apply V c t _ _ hn, iblk2_6_apply V c t _ _ hn, iblk2_7_apply V c t _ _ hn]
  rfl

/-- An index of the result array is in point `t`'s block iff each coordinate is in the block's range on its axis. -/
theorem mem_blk2 (t : Fin cfg2.N) (i : S4x50000x2.Idx) :
    i ∈ ((cfg2.win 8).blk t).view.set ↔ ∀ a : Fin 3, win2_8.index t a * S4x2000x2.size a ≤ (i a).val ∧ (i a).val < win2_8.index t a * S4x2000x2.size a + S4x2000x2.size a := by
  show i ∈ ((View.whole main_v215).slice (win2_8.rect t)).set ↔ _
  rw [View.set_slice_whole, Rect.mem_set_unit]
  exact Iff.rfl

/-- Every index of the result array lies in the block of the point that handles its node. -/
theorem cover2_all (i : S4x50000x2.Idx) : ∃ t : Fin cfg2.N, (cfg2.win 8).flush t = true ∧ i ∈ ((cfg2.win 8).blk t).view.set := by
  have hi0 : (i 0).val < 4 := (i 0).isLt
  have hi1 : (i 1).val < 50000 := (i 1).isLt
  have hi2 : (i 2).val < 2 := (i 2).isLt
  have hN : cfg2.N = 25 := N_2
  let t : Fin cfg2.N := ⟨(i 1).val / 2000, by rw [hN]; omega⟩
  obtain ⟨-, -, -, -, -, -, -, -, ⟨e0, e1, e2⟩⟩ := idx2_facts t
  have e1' : win2_8.index t (1 : Fin 3) = (i 1).val / 2000 := e1
  refine ⟨t, flush2_8 t, ?_⟩
  rw [mem_blk2]
  intro a
  match a with
  | ⟨0, _⟩ => show win2_8.index t (0 : Fin 3) * 4 ≤ (i 0).val ∧ (i 0).val < win2_8.index t (0 : Fin 3) * 4 + 4; omega
  | ⟨1, _⟩ => show win2_8.index t (1 : Fin 3) * 2000 ≤ (i 1).val ∧ (i 1).val < win2_8.index t (1 : Fin 3) * 2000 + 2000; omega
  | ⟨2, _⟩ => show win2_8.index t (2 : Fin 3) * 2 ≤ (i 2).val ∧ (i 2).val < win2_8.index t (2 : Fin 3) * 2 + 2; omega

/-- The result array after region 2: `G2` of the arrays as the region finds them. -/
theorem final2 (c : Dev nD) : (dat2 V c).arrAt 8 cfg2.N
    = G2 (V c main_v205) (V c main_v150) (V c main_v214) (V c main_arg15) (V c main_v207) (V c main_arg14) (V c main_v210) (V c main_v213) :=
  (dat2 V c).arrAt_eq_of_cover 8 _ (fun t _ => flushed2_eq V c t) cover2_all

end Cert.KernelIdeal.Hand

end
-- ==== Proof.KIdeal.Host0Ops.lean ====
/- The kernel program's host stretch hostOps0, hostOps0_1, hostOps0_2 cut at its named buffers: the cut pieces as literal lists (the printed
   lists are these in a row), the buffers each writes, the contents after each cut, and that a buffer the later cuts do not
   write — or the earlier ones — holds what it held. -/
import proofs.«159603_j71347996721325_2_alg».proof.Proof.Gen.KernelIdeal.Launch
import Idealize.ShloMosaic.Lib.StableHlo.Run
import Idealize.ShloMosaic.Lib.Pipeline.Frame
import proofs.«159603_j71347996721325_2_alg».proof.Proof.RefLib

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

set_option maxRecDepth 65536

/-- Operations 1 … 11 of the stretch: the part of the cut ending in `main_v7` lying in `hostOps0`. -/
abbrev h0_p0 : List (HloOp τ sig (Elt F)) :=
  [ nullary main_cst (constant S_ .f32 0x00000000#32),
    unary main_cst main_v0 (broadcastInDim S50000 ![] bcast_S_S50000 : (⟨S_, .f32⟩ : BufTy).Contents (Elt F) → (⟨S50000, .f32⟩ : BufTy).Contents (Elt F)),
    nullary main_c (constantI S_ 32 0#32),
    unary main_c main_v1 (broadcastInDim S400000 ![] bcast_S_S400000 : (⟨S_, .i32⟩ : BufTy).Contents (Elt F) → (⟨S400000, .i32⟩ : BufTy).Contents (Elt F)),
    binary main_arg2 main_v1 main_v2 (cmpi .slt : (⟨S400000, .i32⟩ : BufTy).Contents (Elt F) → (⟨S400000, .i32⟩ : BufTy).Contents (Elt F) → (⟨S400000, .i1⟩ : BufTy).Contents (Elt F)),
    nullary main_c_0 (constantI S_ 32 50000#32),
    unary main_c_0 main_v3 (broadcastInDim S400000 ![] bcast_S_S400000 : (⟨S_, .i32⟩ : BufTy).Contents (Elt F) → (⟨S400000, .i32⟩ : BufTy).Contents (Elt F)),
    binary main_arg2 main_v3 main_v4 (addi : (⟨S400000, .i32⟩ : BufTy).Contents (Elt F) → (⟨S400000, .i32⟩ : BufTy).Contents (Elt F) → (⟨S400000, .i32⟩ : BufTy).Contents (Elt F)),
    ternary main_v2 main_v4 main_arg2 main_v5 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v5 main_v6 (broadcastInDim S400000x1 ![0] bcast_S400000_S400000x1_0 : (⟨S400000, .i32⟩ : BufTy).Contents (Elt F) → (⟨S400000x1, .i32⟩ : BufTy).Contents (Elt F)),
    ternary main_v0 main_v6 main_arg3 main_v7 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)) ]
abbrev h0_p0_W : List (Ref sig .tc) := [main_cst, main_v0, main_c, main_v1, main_v2, main_c_0, main_v3, main_v4, main_v5, main_v6, main_v7]
theorem h0_p0_writesF : (h0_p0 : List (HloOp τ sig (Elt F))).Forall fun op => op.writes ⊆ (h0_p0_W.map (Proc.devRef (τ := τ) .tc)).toFinset :=
  ⟨Cert.RefLib.writes_sub_of_mem (y := main_cst) rfl (by decide),
    Cert.RefLib.writes_sub_of_mem (y := main_v0) rfl (by decide),
    Cert.RefLib.writes_sub_of_mem (y := main_c) rfl (by decide),
    Cert.RefLib.writes_sub_of_mem (y := main_v1) rfl (by decide),
    Cert.RefLib.writes_sub_of_mem (y := main_v2) rfl (by decide),
    Cert.RefLib.writes_sub_of_mem (y := main_c_0) rfl (by decide),
    Cert.RefLib.writes_sub_of_mem (y := main_v3) rfl (by decide),
    Cert.RefLib.writes_sub_of_mem (y := main_v4) rfl (by decide),
    Cert.RefLib.writes_sub_of_mem (y := main_v5) rfl (by decide),
    Cert.RefLib.writes_sub_of_mem (y := main_v6) rfl (by decide),
    Cert.RefLib.writes_sub_of_mem (y := main_v7) rfl (by decide)⟩
theorem h0_p0_writes : Cert.RefLib.WritesIn (h0_p0 : List (HloOp τ sig (Elt F))) h0_p0_W := Cert.RefLib.WritesIn.of_forall h0_p0_writesF

/-- Operations 12 … 19 of the stretch: the part of the cut ending in `main_v13` lying in `hostOps0`. -/
abbrev h0_p1 : List (HloOp τ sig (Elt F)) :=
  [ nullary main_cst_1 (constant S_ .f32 0x00000000#32),
    unary main_cst_1 main_v8 (broadcastInDim S50000 ![] bcast_S_S50000 : (⟨S_, .f32⟩ : BufTy).Contents (Elt F) → (⟨S50000, .f32⟩ : BufTy).Contents (Elt F)),
    binary main_v7 main_v8 main_v9 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x0DA24260#32),
    unary main_cst_2 main_v10 (broadcastInDim S50000 ![] bcast_S_S50000 : (⟨S_, .f32⟩ : BufTy).Contents (Elt F) → (⟨S50000, .f32⟩ : BufTy).Contents (Elt F)),
    binary main_v7 main_v10 main_v11 (maximumf : (⟨S50000, .f32⟩ : BufTy).Contents (Elt F) → (⟨S50000, .f32⟩ : BufTy).Contents (Elt F) → (⟨S50000, .f32⟩ : BufTy).Contents (Elt F)),
    unary main_v11 main_v12 (Host.rsqrt : (⟨S50000, .f32⟩ : BufTy).Contents (Elt F) → (⟨S50000, .f32⟩ : BufTy).Contents (Elt F)),
    nullary main_cst_3 (constant S_ .f32 0x00000000#32) ]
abbrev h0_p1_W : List (Ref sig .tc) := [main_cst_1, main_v8, main_v9, main_cst_2, main_v10, main_v11, main_v12, main_cst_3]
theorem h0_p1_writesF : (h0_p1 : List (HloOp τ sig (Elt F))).Forall fun op => op.writes ⊆ (h0_p1_W.map (Proc.devRef (τ := τ) .tc)).toFinset :=
  ⟨Cert.RefLib.writes_sub_of_mem (y := main_cst_1) rfl (by decide),
    Cert.RefLib.writes_sub_of_mem (y := main_v8) rfl (by decide),
    Cert.RefLib.writes_sub_of_mem (y := main_v9) rfl (by decide),
    Cert.RefLib.writes_sub_of_mem (y := main_cst_2) rfl (by decide),
    Cert.RefLib.writes_sub_of_mem (y := main_v10) rfl (by decide),
    Cert.RefLib.writes_sub_of_mem (y := main_v11) rfl (by decide),
    Cert.RefLib.writes_sub_of_mem (y := main_v12) rfl (by decide),
    Cert.RefLib.writes_sub_of_mem (y := main_cst_3) rfl (by decide)⟩
theorem h0_p1_writes : Cert.RefLib.WritesIn (h0_p1 : List (HloOp τ sig (Elt F))) h0_p1_W := Cert.RefLib.WritesIn.of_forall h0_p1_writesF

/-- Operations 20 … 22 of the stretch: the part of the cut ending in `main_v13` lying in `hostOps0_1`. -/
abbrev h0_p2 : List (HloOp τ sig (Elt F)) :=
  [ TRef.unary (.of main_cst_3 : TRef sig ⟨S_, .f32⟩) (.of main_call0_v0 : TRef sig ⟨S_, .f32⟩) id,
    TRef.unary (.of main_call0_v0 : TRef sig ⟨S_, .f32⟩) (.of main_call0_v1 : TRef sig ⟨S50000, .f32⟩) (broadcastInDim S50000 ![] bcast_S_S50000),
    TRef.ternary (.of main_v9 : TRef sig ⟨S50000, .i1⟩) (.of main_v12 : TRef sig ⟨S50000, .f32⟩) (.of main_call0_v1 : TRef sig ⟨S50000, .f32⟩) (.of main_v13 : TRef sig ⟨S50000, .f32⟩) select ]
abbrev h0_p2_W : List (Ref sig .tc) := [main_call0_v0, main_call0_v1, main_v13]
theorem h0_p2_writesF : (h0_p2 : List (HloOp τ sig (Elt F))).Forall fun op => op.writes ⊆ (h0_p2_W.map (Proc.devRef (τ := τ) .tc)).toFinset :=
  ⟨Cert.RefLib.writes_sub_of_mem (y := main_call0_v0) rfl (by decide),
    Cert.RefLib.writes_sub_of_mem (y := main_call0_v1) rfl (by decide),
    Cert.RefLib.writes_sub_of_mem (y := main_v13) rfl (by decide)⟩
theorem h0_p2_writes : Cert.RefLib.WritesIn (h0_p2 : List (HloOp τ sig (Elt F))) h0_p2_W := Cert.RefLib.WritesIn.of_forall h0_p2_writesF

/-- Operations 23 … 42 of the stretch: the part of the cut ending in `main_v29` lying in `hostOps0_2`. -/
abbrev h0_p3 : List (HloOp τ sig (Elt F)) :=
  [ nullary main_c_4 (constantI S_ 32 0#32),
    unary main_c_4 main_v14 (broadcastInDim S400000 ![] bcast_S_S400000 : (⟨S_, .i32⟩ : BufTy).Contents (Elt F) → (⟨S400000, .i32⟩ : BufTy).Contents (Elt F)),
    binary main_arg1 main_v14 main_v15 (cmpi .slt : (⟨S400000, .i32⟩ : BufTy).Contents (Elt F) → (⟨S400000, .i32⟩ : BufTy).Contents (Elt F) → (⟨S400000, .i1⟩ : BufTy).Contents (Elt F)),
    nullary main_c_5 (constantI S_ 32 50000#32),
    unary main_c_5 main_v16 (broadcastInDim S400000 ![] bcast_S_S400000 : (⟨S_, .i32⟩ : BufTy).Contents (Elt F) → (⟨S400000, .i32⟩ : BufTy).Contents (Elt F)),
    binary main_arg1 main_v16 main_v17 (addi : (⟨S400000, .i32⟩ : BufTy).Contents (Elt F) → (⟨S400000, .i32⟩ : BufTy).Contents (Elt F) → (⟨S400000, .i32⟩ : BufTy).Contents (Elt F)),
    ternary main_v15 main_v17 main_arg1 main_v18 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v18 main_v19 (broadcastInDim S400000x1 ![0] bcast_S400000_S400000x1_0 : (⟨S400000, .i32⟩ : BufTy).Contents (Elt F) → (⟨S400000x1, .i32⟩ : BufTy).Contents (Elt F)),
    binary main_v13 main_v19 main_v20 ((fun x i => Host.gather gather_S50000_S400000x1_S400000_n_0_n_n_0_1_1 x i) : (⟨S50000, .f32⟩ : BufTy).Contents (Elt F) → (⟨S400000x1, .i32⟩ : BufTy).Contents (Elt F) → (⟨S400000, .f32⟩ : BufTy).Contents (Elt F)),
    binary main_v20 main_arg3 main_v21 (mulf : (⟨S400000, .f32⟩ : BufTy).Contents (Elt F) → (⟨S400000, .f32⟩ : BufTy).Contents (Elt F) → (⟨S400000, .f32⟩ : BufTy).Contents (Elt F)),
    nullary main_c_6 (constantI S_ 32 0#32),
    unary main_c_6 main_v22 (broadcastInDim S400000 ![] bcast_S_S400000 : (⟨S_, .i32⟩ : BufTy).Contents (Elt F) → (⟨S400000, .i32⟩ : BufTy).Contents (Elt F)),
    binary main_arg2 main_v22 main_v23 (cmpi .slt : (⟨S400000, .i32⟩ : BufTy).Contents (Elt F) → (⟨S400000, .i32⟩ : BufTy).Contents (Elt F) → (⟨S400000, .i1⟩ : BufTy).Contents (Elt F)),
    nullary main_c_7 (constantI S_ 32 50000#32),
    unary main_c_7 main_v24 (broadcastInDim S400000 ![] bcast_S_S400000 : (⟨S_, .i32⟩ : BufTy).Contents (Elt F) → (⟨S400000, .i32⟩ : BufTy).Contents (Elt F)),
    binary main_arg2 main_v24 main_v25 (addi : (⟨S400000, .i32⟩ : BufTy).Contents (Elt F) → (⟨S400000, .i32⟩ : BufTy).Contents (Elt F) → (⟨S400000, .i32⟩ : BufTy).Contents (Elt F)),
    ternary main_v23 main_v25 main_arg2 main_v26 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v26 main_v27 (broadcastInDim S400000x1 ![0] bcast_S400000_S400000x1_0 : (⟨S400000, .i32⟩ : BufTy).Contents (Elt F) → (⟨S400000x1, .i32⟩ : BufTy).Contents (Elt F)),
    binary main_v13 main_v27 main_v28 ((fun x i => Host.gather gather_S50000_S400000x1_S400000_n_0_n_n_0_1_1 x i) : (⟨S50000, .f32⟩ : BufTy).Contents (Elt F) → (⟨S400000x1, .i32⟩ : BufTy).Contents (Elt F) → (⟨S400000, .f32⟩ : BufTy).Contents (Elt F)),
    binary main_v21 main_v28 main_v29 (mulf : (⟨S400000, .f32⟩ : BufTy).Contents (Elt F) → (⟨S400000, .f32⟩ : BufTy).Contents (Elt F) → (⟨S400000, .f32⟩ : BufTy).Contents (Elt F)) ]
abbrev h0_p3_W : List (Ref sig .tc) := [main_c_4, main_v14, main_v15, main_c_5, main_v16, main_v17, main_v18, main_v19, main_v20, main_v21, main_c_6, main_v22, main_v23, main_c_7, main_v24, main_v25, main_v26, main_v27, main_v28, main_v29]
theorem h0_p3_writesF : (h0_p3 : List (HloOp τ sig (Elt F))).Forall fun op => op.writes ⊆ (h0_p3_W.map (Proc.devRef (τ := τ) .tc)).toFinset :=
  ⟨Cert.RefLib.writes_sub_of_mem (y := main_c_4) rfl (by decide),
    Cert.RefLib.writes_sub_of_mem (y := main_v14) rfl (by decide),
    Cert.RefLib.writes_sub_of_mem (y := main_v15) rfl (by decide),
    Cert.RefLib.writes_sub_of_mem (y := main_c_5) rfl (by decide),
    Cert.RefLib.writes_sub_of_mem (y := main_v16) rfl (by decide),
    Cert.RefLib.writes_sub_of_mem (y := main_v17) rfl (by decide),
    Cert.RefLib.writes_sub_of_mem (y := main_v18) rfl (by decide),
    Cert.RefLib.writes_sub_of_mem (y := main_v19) rfl (by decide),
    Cert.RefLib.writes_sub_of_mem (y := main_v20) rfl (by decide),
    Cert.RefLib.writes_sub_of_mem (y := main_v21) rfl (by decide),
    Cert.RefLib.writes_sub_of_mem (y := main_c_6) rfl (by decide),
    Cert.RefLib.writes_sub_of_mem (y := main_v22) rfl (by decide),
    Cert.RefLib.writes_sub_of_mem (y := main_v23) rfl (by decide),
    Cert.RefLib.writes_sub_of_mem (y := main_c_7) rfl (by decide),
    Cert.RefLib.writes_sub_of_mem (y := main_v24) rfl (by decide),
    Cert.RefLib.writes_sub_of_mem (y := main_v25) rfl (by decide),
    Cert.RefLib.writes_sub_of_mem (y := main_v26) rfl (by decide),
    Cert.RefLib.writes_sub_of_mem (y := main_v27) rfl (by decide),
    Cert.RefLib.writes_sub_of_mem (y := main_v28) rfl (by decide),
    Cert.RefLib.writes_sub_of_mem (y := main_v29) rfl (by decide)⟩
theorem h0_p3_writes : Cert.RefLib.WritesIn (h0_p3 : List (HloOp τ sig (Elt F))) h0_p3_W := Cert.RefLib.WritesIn.of_forall h0_p3_writesF

/-- Operations 43 … 43 of the stretch: the part of the cut ending in `main_v30` lying in `hostOps0_2`. -/
abbrev h0_p4 : List (HloOp τ sig (Elt F)) :=
  [ reshape main_arg4 main_v30 rfl shapeCasts_S4x4x64_S16x64 ]
abbrev h0_p4_W : List (Ref sig .tc) := [main_v30]
theorem h0_p4_writesF : (h0_p4 : List (HloOp τ sig (Elt F))).Forall fun op => op.writes ⊆ (h0_p4_W.map (Proc.devRef (τ := τ) .tc)).toFinset :=
  (Cert.RefLib.writes_sub_of_mem (y := main_v30) rfl (by decide))
theorem h0_p4_writes : Cert.RefLib.WritesIn (h0_p4 : List (HloOp τ sig (Elt F))) h0_p4_W := Cert.RefLib.WritesIn.of_forall h0_p4_writesF

/-- Operations 44 … 66 of the stretch: the part of the cut ending in `main_v48` lying in `hostOps0_2`. -/
abbrev h0_p5 : List (HloOp τ sig (Elt F)) :=
  [ nullary main_c_8 (constantI S_ 32 0#32),
    unary main_c_8 main_v31 (broadcastInDim S400000 ![] bcast_S_S400000 : (⟨S_, .i32⟩ : BufTy).Contents (Elt F) → (⟨S400000, .i32⟩ : BufTy).Contents (Elt F)),
    binary main_arg1 main_v31 main_v32 (cmpi .slt : (⟨S400000, .i32⟩ : BufTy).Contents (Elt F) → (⟨S400000, .i32⟩ : BufTy).Contents (Elt F) → (⟨S400000, .i1⟩ : BufTy).Contents (Elt F)),
    nullary main_c_9 (constantI S_ 32 50000#32),
    unary main_c_9 main_v33 (broadcastInDim S400000 ![] bcast_S_S400000 : (⟨S_, .i32⟩ : BufTy).Contents (Elt F) → (⟨S400000, .i32⟩ : BufTy).Contents (Elt F)),
    binary main_arg1 main_v33 main_v34 (addi : (⟨S400000, .i32⟩ : BufTy).Contents (Elt F) → (⟨S400000, .i32⟩ : BufTy).Contents (Elt F) → (⟨S400000, .i32⟩ : BufTy).Contents (Elt F)),
    ternary main_v32 main_v34 main_arg1 main_v35 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v35 main_v36 (broadcastInDim S400000x1 ![0] bcast_S400000_S400000x1_0 : (⟨S400000, .i32⟩ : BufTy).Contents (Elt F) → (⟨S400000x1, .i32⟩ : BufTy).Contents (Elt F)),
    binary main_arg0 main_v36 main_v37 ((fun x i => Host.gather gather_S4x50000x4_S400000x1_S4x400000x4_02_1_n_n_1_1_414 x i) : (⟨S4x50000x4, .f32⟩ : BufTy).Contents (Elt F) → (⟨S400000x1, .i32⟩ : BufTy).Contents (Elt F) → (⟨S4x400000x4, .f32⟩ : BufTy).Contents (Elt F)),
    unary main_v29 main_v38 (broadcastInDim S1x400000x1 ![1] bcast_S400000_S1x400000x1_1 : (⟨S400000, .f32⟩ : BufTy).Contents (Elt F) → (⟨S1x400000x1, .f32⟩ : BufTy).Contents (Elt F)),
    unary main_v38 main_v39 (broadcastInDim S4x400000x4 ![0, 1, 2] bcast_S1x400000x1_S4x400000x4_0_1_2 : (⟨S1x400000x1, .f32⟩ : BufTy).Contents (Elt F) → (⟨S4x400000x4, .f32⟩ : BufTy).Contents (Elt F)),
    binary main_v37 main_v39 main_v40 (mulf : (⟨S4x400000x4, .f32⟩ : BufTy).Contents (Elt F) → (⟨S4x400000x4, .f32⟩ : BufTy).Contents (Elt F) → (⟨S4x400000x4, .f32⟩ : BufTy).Contents (Elt F)),
    nullary main_cst_10 (constant S_ .f32 0x00000000#32),
    unary main_cst_10 main_v41 (broadcastInDim S4x50000x4 ![] bcast_S_S4x50000x4 : (⟨S_, .f32⟩ : BufTy).Contents (Elt F) → (⟨S4x50000x4, .f32⟩ : BufTy).Contents (Elt F)),
    nullary main_c_11 (constantI S_ 32 0#32),
    unary main_c_11 main_v42 (broadcastInDim S400000 ![] bcast_S_S400000 : (⟨S_, .i32⟩ : BufTy).Contents (Elt F) → (⟨S400000, .i32⟩ : BufTy).Contents (Elt F)),
    binary main_arg2 main_v42 main_v43 (cmpi .slt : (⟨S400000, .i32⟩ : BufTy).Contents (Elt F) → (⟨S400000, .i32⟩ : BufTy).Contents (Elt F) → (⟨S400000, .i1⟩ : BufTy).Contents (Elt F)),
    nullary main_c_12 (constantI S_ 32 50000#32),
    unary main_c_12 main_v44 (broadcastInDim S400000 ![] bcast_S_S400000 : (⟨S_, .i32⟩ : BufTy).Contents (Elt F) → (⟨S400000, .i32⟩ : BufTy).Contents (Elt F)),
    binary main_arg2 main_v44 main_v45 (addi : (⟨S400000, .i32⟩ : BufTy).Contents (Elt F) → (⟨S400000, .i32⟩ : BufTy).Contents (Elt F) → (⟨S400000, .i32⟩ : BufTy).Contents (Elt F)),
    ternary main_v43 main_v45 main_arg2 main_v46 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v46 main_v47 (broadcastInDim S400000x1 ![0] bcast_S400000_S400000x1_0 : (⟨S400000, .i32⟩ : BufTy).Contents (Elt F) → (⟨S400000x1, .i32⟩ : BufTy).Contents (Elt F)),
    ternary main_v41 main_v47 main_v40 main_v48 ((fun x i u => Host.scatterAdd scatter_S4x50000x4_S400000x1_S4x400000x4_02_1_1_1 x i u) : (⟨S4x50000x4, .f32⟩ : BufTy).Contents (Elt F) → (⟨S400000x1, .i32⟩ : BufTy).Contents (Elt F) → (⟨S4x400000x4, .f32⟩ : BufTy).Contents (Elt F) → (⟨S4x50000x4, .f32⟩ : BufTy).Contents (Elt F)) ]
abbrev h0_p5_W : List (Ref sig .tc) := [main_c_8, main_v31, main_v32, main_c_9, main_v33, main_v34, main_v35, main_v36, main_v37, main_v38, main_v39, main_v40, main_cst_10, main_v41, main_c_11, main_v42, main_v43, main_c_12, main_v44, main_v45, main_v46, main_v47, main_v48]
theorem h0_p5_writesF : (h0_p5 : List (HloOp τ sig (Elt F))).Forall fun op => op.writes ⊆ (h0_p5_W.map (Proc.devRef (τ := τ) .tc)).toFinset :=
  ⟨Cert.RefLib.writes_sub_of_mem (y := main_c_8) rfl (by decide),
    Cert.RefLib.writes_sub_of_mem (y := main_v31) rfl (by decide),
    Cert.RefLib.writes_sub_of_mem (y := main_v32) rfl (by decide),
    Cert.RefLib.writes_sub_of_mem (y := main_c_9) rfl (by decide),
    Cert.RefLib.writes_sub_of_mem (y := main_v33) rfl (by decide),
    Cert.RefLib.writes_sub_of_mem (y := main_v34) rfl (by decide),
    Cert.RefLib.writes_sub_of_mem (y := main_v35) rfl (by decide),
    Cert.RefLib.writes_sub_of_mem (y := main_v36) rfl (by decide),
    Cert.RefLib.writes_sub_of_mem (y := main_v37) rfl (by decide),
    Cert.RefLib.writes_sub_of_mem (y := main_v38) rfl (by decide),
    Cert.RefLib.writes_sub_of_mem (y := main_v39) rfl (by decide),
    Cert.RefLib.writes_sub_of_mem (y := main_v40) rfl (by decide),
    Cert.RefLib.writes_sub_of_mem (y := main_cst_10) rfl (by decide),
    Cert.RefLib.writes_sub_of_mem (y := main_v41) rfl (by decide),
    Cert.RefLib.writes_sub_of_mem (y := main_c_11) rfl (by decide),
    Cert.RefLib.writes_sub_of_mem (y := main_v42) rfl (by decide),
    Cert.RefLib.writes_sub_of_mem (y := main_v43) rfl (by decide),
    Cert.RefLib.writes_sub_of_mem (y := main_c_12) rfl (by decide),
    Cert.RefLib.writes_sub_of_mem (y := main_v44) rfl (by decide),
    Cert.RefLib.writes_sub_of_mem (y := main_v45) rfl (by decide),
    Cert.RefLib.writes_sub_of_mem (y := main_v46) rfl (by decide),
    Cert.RefLib.writes_sub_of_mem (y := main_v47) rfl (by decide),
    Cert.RefLib.writes_sub_of_mem (y := main_v48) rfl (by decide)⟩
theorem h0_p5_writes : Cert.RefLib.WritesIn (h0_p5 : List (HloOp τ sig (Elt F))) h0_p5_W := Cert.RefLib.WritesIn.of_forall h0_p5_writesF

/-- Operations 67 … 89 of the stretch: the part of the cut ending in `main_v66` lying in `hostOps0_2`. -/
abbrev h0_p6 : List (HloOp τ sig (Elt F)) :=
  [ nullary main_c_13 (constantI S_ 32 0#32),
    unary main_c_13 main_v49 (broadcastInDim S400000 ![] bcast_S_S400000 : (⟨S_, .i32⟩ : BufTy).Contents (Elt F) → (⟨S400000, .i32⟩ : BufTy).Contents (Elt F)),
    binary main_arg1 main_v49 main_v50 (cmpi .slt : (⟨S400000, .i32⟩ : BufTy).Contents (Elt F) → (⟨S400000, .i32⟩ : BufTy).Contents (Elt F) → (⟨S400000, .i1⟩ : BufTy).Contents (Elt F)),
    nullary main_c_14 (constantI S_ 32 50000#32),
    unary main_c_14 main_v51 (broadcastInDim S400000 ![] bcast_S_S400000 : (⟨S_, .i32⟩ : BufTy).Contents (Elt F) → (⟨S400000, .i32⟩ : BufTy).Contents (Elt F)),
    binary main_arg1 main_v51 main_v52 (addi : (⟨S400000, .i32⟩ : BufTy).Contents (Elt F) → (⟨S400000, .i32⟩ : BufTy).Contents (Elt F) → (⟨S400000, .i32⟩ : BufTy).Contents (Elt F)),
    ternary main_v50 main_v52 main_arg1 main_v53 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v53 main_v54 (broadcastInDim S400000x1 ![0] bcast_S400000_S400000x1_0 : (⟨S400000, .i32⟩ : BufTy).Contents (Elt F) → (⟨S400000x1, .i32⟩ : BufTy).Contents (Elt F)),
    binary main_v48 main_v54 main_v55 ((fun x i => Host.gather gather_S4x50000x4_S400000x1_S4x400000x4_02_1_n_n_1_1_414 x i) : (⟨S4x50000x4, .f32⟩ : BufTy).Contents (Elt F) → (⟨S400000x1, .i32⟩ : BufTy).Contents (Elt F) → (⟨S4x400000x4, .f32⟩ : BufTy).Contents (Elt F)),
    unary main_v29 main_v56 (broadcastInDim S1x400000x1 ![1] bcast_S400000_S1x400000x1_1 : (⟨S400000, .f32⟩ : BufTy).Contents (Elt F) → (⟨S1x400000x1, .f32⟩ : BufTy).Contents (Elt F)),
    unary main_v56 main_v57 (broadcastInDim S4x400000x4 ![0, 1, 2] bcast_S1x400000x1_S4x400000x4_0_1_2 : (⟨S1x400000x1, .f32⟩ : BufTy).Contents (Elt F) → (⟨S4x400000x4, .f32⟩ : BufTy).Contents (Elt F)),
    binary main_v55 main_v57 main_v58 (mulf : (⟨S4x400000x4, .f32⟩ : BufTy).Contents (Elt F) → (⟨S4x400000x4, .f32⟩ : BufTy).Contents (Elt F) → (⟨S4x400000x4, .f32⟩ : BufTy).Contents (Elt F)),
    nullary main_cst_15 (constant S_ .f32 0x00000000#32),
    unary main_cst_15 main_v59 (broadcastInDim S4x50000x4 ![] bcast_S_S4x50000x4 : (⟨S_, .f32⟩ : BufTy).Contents (Elt F) → (⟨S4x50000x4, .f32⟩ : BufTy).Contents (Elt F)),
    nullary main_c_16 (constantI S_ 32 0#32),
    unary main_c_16 main_v60 (broadcastInDim S400000 ![] bcast_S_S400000 : (⟨S_, .i32⟩ : BufTy).Contents (Elt F) → (⟨S400000, .i32⟩ : BufTy).Contents (Elt F)),
    binary main_arg2 main_v60 main_v61 (cmpi .slt : (⟨S400000, .i32⟩ : BufTy).Contents (Elt F) → (⟨S400000, .i32⟩ : BufTy).Contents (Elt F) → (⟨S400000, .i1⟩ : BufTy).Contents (Elt F)),
    nullary main_c_17 (constantI S_ 32 50000#32),
    unary main_c_17 main_v62 (broadcastInDim S400000 ![] bcast_S_S400000 : (⟨S_, .i32⟩ : BufTy).Contents (Elt F) → (⟨S400000, .i32⟩ : BufTy).Contents (Elt F)),
    binary main_arg2 main_v62 main_v63 (addi : (⟨S400000, .i32⟩ : BufTy).Contents (Elt F) → (⟨S400000, .i32⟩ : BufTy).Contents (Elt F) → (⟨S400000, .i32⟩ : BufTy).Contents (Elt F)),
    ternary main_v61 main_v63 main_arg2 main_v64 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v64 main_v65 (broadcastInDim S400000x1 ![0] bcast_S400000_S400000x1_0 : (⟨S400000, .i32⟩ : BufTy).Contents (Elt F) → (⟨S400000x1, .i32⟩ : BufTy).Contents (Elt F)),
    ternary main_v59 main_v65 main_v58 main_v66 ((fun x i u => Host.scatterAdd scatter_S4x50000x4_S400000x1_S4x400000x4_02_1_1_1 x i u) : (⟨S4x50000x4, .f32⟩ : BufTy).Contents (Elt F) → (⟨S400000x1, .i32⟩ : BufTy).Contents (Elt F) → (⟨S4x400000x4, .f32⟩ : BufTy).Contents (Elt F) → (⟨S4x50000x4, .f32⟩ : BufTy).Contents (Elt F)) ]
abbrev h0_p6_W : List (Ref sig .tc) := [main_c_13, main_v49, main_v50, main_c_14, main_v51, main_v52, main_v53, main_v54, main_v55, main_v56, main_v57, main_v58, main_cst_15, main_v59, main_c_16, main_v60, main_v61, main_c_17, main_v62, main_v63, main_v64, main_v65, main_v66]
theorem h0_p6_writesF : (h0_p6 : List (HloOp τ sig (Elt F))).Forall fun op => op.writes ⊆ (h0_p6_W.map (Proc.devRef (τ := τ) .tc)).toFinset :=
  ⟨Cert.RefLib.writes_sub_of_mem (y := main_c_13) rfl (by decide),
    Cert.RefLib.writes_sub_of_mem (y := main_v49) rfl (by decide),
    Cert.RefLib.writes_sub_of_mem (y := main_v50) rfl (by decide),
    Cert.RefLib.writes_sub_of_mem (y := main_c_14) rfl (by decide),
    Cert.RefLib.writes_sub_of_mem (y := main_v51) rfl (by decide),
    Cert.RefLib.writes_sub_of_mem (y := main_v52) rfl (by decide),
    Cert.RefLib.writes_sub_of_mem (y := main_v53) rfl (by decide),
    Cert.RefLib.writes_sub_of_mem (y := main_v54) rfl (by decide),
    Cert.RefLib.writes_sub_of_mem (y := main_v55) rfl (by decide),
    Cert.RefLib.writes_sub_of_mem (y := main_v56) rfl (by decide),
    Cert.RefLib.writes_sub_of_mem (y := main_v57) rfl (by decide),
    Cert.RefLib.writes_sub_of_mem (y := main_v58) rfl (by decide),
    Cert.RefLib.writes_sub_of_mem (y := main_cst_15) rfl (by decide),
    Cert.RefLib.writes_sub_of_mem (y := main_v59) rfl (by decide),
    Cert.RefLib.writes_sub_of_mem (y := main_c_16) rfl (by decide),
    Cert.RefLib.writes_sub_of_mem (y := main_v60) rfl (by decide),
    Cert.RefLib.writes_sub_of_mem (y := main_v61) rfl (by decide),
    Cert.RefLib.writes_sub_of_mem (y := main_c_17) rfl (by decide),
    Cert.RefLib.writes_sub_of_mem (y := main_v62) rfl (by decide),
    Cert.RefLib.writes_sub_of_mem (y := main_v63) rfl (by decide),
    Cert.RefLib.writes_sub_of_mem (y := main_v64) rfl (by decide),
    Cert.RefLib.writes_sub_of_mem (y := main_v65) rfl (by decide),
    Cert.RefLib.writes_sub_of_mem (y := main_v66) rfl (by decide)⟩
theorem h0_p6_writes : Cert.RefLib.WritesIn (h0_p6 : List (HloOp τ sig (Elt F))) h0_p6_W := Cert.RefLib.WritesIn.of_forall h0_p6_writesF

/-- Operations 90 … 112 of the stretch: the part of the cut ending in `main_v84` lying in `hostOps0_2`. -/
abbrev h0_p7 : List (HloOp τ sig (Elt F)) :=
  [ nullary main_c_18 (constantI S_ 32 0#32),
    unary main_c_18 main_v67 (broadcastInDim S400000 ![] bcast_S_S400000 : (⟨S_, .i32⟩ : BufTy).Contents (Elt F) → (⟨S400000, .i32⟩ : BufTy).Contents (Elt F)),
    binary main_arg1 main_v67 main_v68 (cmpi .slt : (⟨S400000, .i32⟩ : BufTy).Contents (Elt F) → (⟨S400000, .i32⟩ : BufTy).Contents (Elt F) → (⟨S400000, .i1⟩ : BufTy).Contents (Elt F)),
    nullary main_c_19 (constantI S_ 32 50000#32),
    unary main_c_19 main_v69 (broadcastInDim S400000 ![] bcast_S_S400000 : (⟨S_, .i32⟩ : BufTy).Contents (Elt F) → (⟨S400000, .i32⟩ : BufTy).Contents (Elt F)),
    binary main_arg1 main_v69 main_v70 (addi : (⟨S400000, .i32⟩ : BufTy).Contents (Elt F) → (⟨S400000, .i32⟩ : BufTy).Contents (Elt F) → (⟨S400000, .i32⟩ : BufTy).Contents (Elt F)),
    ternary main_v68 main_v70 main_arg1 main_v71 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v71 main_v72 (broadcastInDim S400000x1 ![0] bcast_S400000_S400000x1_0 : (⟨S400000, .i32⟩ : BufTy).Contents (Elt F) → (⟨S400000x1, .i32⟩ : BufTy).Contents (Elt F)),
    binary main_v66 main_v72 main_v73 ((fun x i => Host.gather gather_S4x50000x4_S400000x1_S4x400000x4_02_1_n_n_1_1_414 x i) : (⟨S4x50000x4, .f32⟩ : BufTy).Contents (Elt F) → (⟨S400000x1, .i32⟩ : BufTy).Contents (Elt F) → (⟨S4x400000x4, .f32⟩ : BufTy).Contents (Elt F)),
    unary main_v29 main_v74 (broadcastInDim S1x400000x1 ![1] bcast_S400000_S1x400000x1_1 : (⟨S400000, .f32⟩ : BufTy).Contents (Elt F) → (⟨S1x400000x1, .f32⟩ : BufTy).Contents (Elt F)),
    unary main_v74 main_v75 (broadcastInDim S4x400000x4 ![0, 1, 2] bcast_S1x400000x1_S4x400000x4_0_1_2 : (⟨S1x400000x1, .f32⟩ : BufTy).Contents (Elt F) → (⟨S4x400000x4, .f32⟩ : BufTy).Contents (Elt F)),
    binary main_v73 main_v75 main_v76 (mulf : (⟨S4x400000x4, .f32⟩ : BufTy).Contents (Elt F) → (⟨S4x400000x4, .f32⟩ : BufTy).Contents (Elt F) → (⟨S4x400000x4, .f32⟩ : BufTy).Contents (Elt F)),
    nullary main_cst_20 (constant S_ .f32 0x00000000#32),
    unary main_cst_20 main_v77 (broadcastInDim S4x50000x4 ![] bcast_S_S4x50000x4 : (⟨S_, .f32⟩ : BufTy).Contents (Elt F) → (⟨S4x50000x4, .f32⟩ : BufTy).Contents (Elt F)),
    nullary main_c_21 (constantI S_ 32 0#32),
    unary main_c_21 main_v78 (broadcastInDim S400000 ![] bcast_S_S400000 : (⟨S_, .i32⟩ : BufTy).Contents (Elt F) → (⟨S400000, .i32⟩ : BufTy).Contents (Elt F)),
    binary main_arg2 main_v78 main_v79 (cmpi .slt : (⟨S400000, .i32⟩ : BufTy).Contents (Elt F) → (⟨S400000, .i32⟩ : BufTy).Contents (Elt F) → (⟨S400000, .i1⟩ : BufTy).Contents (Elt F)),
    nullary main_c_22 (constantI S_ 32 50000#32),
    unary main_c_22 main_v80 (broadcastInDim S400000 ![] bcast_S_S400000 : (⟨S_, .i32⟩ : BufTy).Contents (Elt F) → (⟨S400000, .i32⟩ : BufTy).Contents (Elt F)),
    binary main_arg2 main_v80 main_v81 (addi : (⟨S400000, .i32⟩ : BufTy).Contents (Elt F) → (⟨S400000, .i32⟩ : BufTy).Contents (Elt F) → (⟨S400000, .i32⟩ : BufTy).Contents (Elt F)),
    ternary main_v79 main_v81 main_arg2 main_v82 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v82 main_v83 (broadcastInDim S400000x1 ![0] bcast_S400000_S400000x1_0 : (⟨S400000, .i32⟩ : BufTy).Contents (Elt F) → (⟨S400000x1, .i32⟩ : BufTy).Contents (Elt F)),
    ternary main_v77 main_v83 main_v76 main_v84 ((fun x i u => Host.scatterAdd scatter_S4x50000x4_S400000x1_S4x400000x4_02_1_1_1 x i u) : (⟨S4x50000x4, .f32⟩ : BufTy).Contents (Elt F) → (⟨S400000x1, .i32⟩ : BufTy).Contents (Elt F) → (⟨S4x400000x4, .f32⟩ : BufTy).Contents (Elt F) → (⟨S4x50000x4, .f32⟩ : BufTy).Contents (Elt F)) ]
abbrev h0_p7_W : List (Ref sig .tc) := [main_c_18, main_v67, main_v68, main_c_19, main_v69, main_v70, main_v71, main_v72, main_v73, main_v74, main_v75, main_v76, main_cst_20, main_v77, main_c_21, main_v78, main_v79, main_c_22, main_v80, main_v81, main_v82, main_v83, main_v84]
theorem h0_p7_writesF : (h0_p7 : List (HloOp τ sig (Elt F))).Forall fun op => op.writes ⊆ (h0_p7_W.map (Proc.devRef (τ := τ) .tc)).toFinset :=
  ⟨Cert.RefLib.writes_sub_of_mem (y := main_c_18) rfl (by decide),
    Cert.RefLib.writes_sub_of_mem (y := main_v67) rfl (by decide),
    Cert.RefLib.writes_sub_of_mem (y := main_v68) rfl (by decide),
    Cert.RefLib.writes_sub_of_mem (y := main_c_19) rfl (by decide),
    Cert.RefLib.writes_sub_of_mem (y := main_v69) rfl (by decide),
    Cert.RefLib.writes_sub_of_mem (y := main_v70) rfl (by decide),
    Cert.RefLib.writes_sub_of_mem (y := main_v71) rfl (by decide),
    Cert.RefLib.writes_sub_of_mem (y := main_v72) rfl (by decide),
    Cert.RefLib.writes_sub_of_mem (y := main_v73) rfl (by decide),
    Cert.RefLib.writes_sub_of_mem (y := main_v74) rfl (by decide),
    Cert.RefLib.writes_sub_of_mem (y := main_v75) rfl (by decide),
    Cert.RefLib.writes_sub_of_mem (y := main_v76) rfl (by decide),
    Cert.RefLib.writes_sub_of_mem (y := main_cst_20) rfl (by decide),
    Cert.RefLib.writes_sub_of_mem (y := main_v77) rfl (by decide),
    Cert.RefLib.writes_sub_of_mem (y := main_c_21) rfl (by decide),
    Cert.RefLib.writes_sub_of_mem (y := main_v78) rfl (by decide),
    Cert.RefLib.writes_sub_of_mem (y := main_v79) rfl (by decide),
    Cert.RefLib.writes_sub_of_mem (y := main_c_22) rfl (by decide),
    Cert.RefLib.writes_sub_of_mem (y := main_v80) rfl (by decide),
    Cert.RefLib.writes_sub_of_mem (y := main_v81) rfl (by decide),
    Cert.RefLib.writes_sub_of_mem (y := main_v82) rfl (by decide),
    Cert.RefLib.writes_sub_of_mem (y := main_v83) rfl (by decide),
    Cert.RefLib.writes_sub_of_mem (y := main_v84) rfl (by decide)⟩
theorem h0_p7_writes : Cert.RefLib.WritesIn (h0_p7 : List (HloOp τ sig (Elt F))) h0_p7_W := Cert.RefLib.WritesIn.of_forall h0_p7_writesF

/-- Operations 113 … 113 of the stretch: the part of the cut ending in `main_v85` lying in `hostOps0_2`. -/
abbrev h0_p8 : List (HloOp τ sig (Elt F)) :=
  [ nary ![main_arg0, main_v48, main_v66, main_v84] main_v85 (fun u => concatenate S4x50000x16 2 [⟨S4x50000x4, u 0⟩, ⟨S4x50000x4, u 1⟩, ⟨S4x50000x4, u 2⟩, ⟨S4x50000x4, u 3⟩] concatenates_S4x50000x4_S4x50000x4_S4x50000x4_S4x50000x4_S4x50000x16_d2) ]
abbrev h0_p8_W : List (Ref sig .tc) := [main_v85]
theorem h0_p8_writesF : (h0_p8 : List (HloOp τ sig (Elt F))).Forall fun op => op.writes ⊆ (h0_p8_W.map (Proc.devRef (τ := τ) .tc)).toFinset :=
  (Cert.RefLib.writes_sub_of_mem (y := main_v85) rfl (by decide))
theorem h0_p8_writes : Cert.RefLib.WritesIn (h0_p8 : List (HloOp τ sig (Elt F))) h0_p8_W := Cert.RefLib.WritesIn.of_forall h0_p8_writesF

/-- Operations 114 … 114 of the stretch: the part of the cut ending in `main_v86` lying in `hostOps0_2`. -/
abbrev h0_p9 : List (HloOp τ sig (Elt F)) :=
  [ reshape main_arg5 main_v86 rfl shapeCasts_S64_S1x64 ]
abbrev h0_p9_W : List (Ref sig .tc) := [main_v86]
theorem h0_p9_writesF : (h0_p9 : List (HloOp τ sig (Elt F))).Forall fun op => op.writes ⊆ (h0_p9_W.map (Proc.devRef (τ := τ) .tc)).toFinset :=
  (Cert.RefLib.writes_sub_of_mem (y := main_v86) rfl (by decide))
theorem h0_p9_writes : Cert.RefLib.WritesIn (h0_p9 : List (HloOp τ sig (Elt F))) h0_p9_W := Cert.RefLib.WritesIn.of_forall h0_p9_writesF

/-- Operations 115 … 115 of the stretch: the part of the cut ending in `main_v87` lying in `hostOps0_2`. -/
abbrev h0_p10 : List (HloOp τ sig (Elt F)) :=
  [ reshape main_arg10 main_v87 rfl shapeCasts_S50000_S50000x1 ]
abbrev h0_p10_W : List (Ref sig .tc) := [main_v87]
theorem h0_p10_writesF : (h0_p10 : List (HloOp τ sig (Elt F))).Forall fun op => op.writes ⊆ (h0_p10_W.map (Proc.devRef (τ := τ) .tc)).toFinset :=
  (Cert.RefLib.writes_sub_of_mem (y := main_v87) rfl (by decide))
theorem h0_p10_writes : Cert.RefLib.WritesIn (h0_p10 : List (HloOp τ sig (Elt F))) h0_p10_W := Cert.RefLib.WritesIn.of_forall h0_p10_writesF

/-- Operations 116 … 116 of the stretch: the part of the cut ending in `main_v88` lying in `hostOps0_2`. -/
abbrev h0_p11 : List (HloOp τ sig (Elt F)) :=
  [ reshape main_arg11 main_v88 rfl shapeCasts_S50000_S50000x1 ]
abbrev h0_p11_W : List (Ref sig .tc) := [main_v88]
theorem h0_p11_writesF : (h0_p11 : List (HloOp τ sig (Elt F))).Forall fun op => op.writes ⊆ (h0_p11_W.map (Proc.devRef (τ := τ) .tc)).toFinset :=
  (Cert.RefLib.writes_sub_of_mem (y := main_v88) rfl (by decide))
theorem h0_p11_writes : Cert.RefLib.WritesIn (h0_p11 : List (HloOp τ sig (Elt F))) h0_p11_W := Cert.RefLib.WritesIn.of_forall h0_p11_writesF

set_option maxHeartbeats 4000000 in
/-- The printed list is its pieces in a row. -/
theorem h0_hostOps0_split : (hostOps0 : List (HloOp τ sig (Elt F))) = h0_p0 ++ h0_p1 := rfl
set_option maxHeartbeats 4000000 in
/-- The printed list is its pieces in a row. -/
theorem h0_hostOps0_1_split : (hostOps0_1 : List (HloOp τ sig (Elt F))) = h0_p2 := rfl
set_option maxHeartbeats 4000000 in
/-- The printed list is its pieces in a row. -/
theorem h0_hostOps0_2_split : (hostOps0_2 : List (HloOp τ sig (Elt F))) = h0_p3 ++ h0_p4 ++ h0_p5 ++ h0_p6 ++ h0_p7 ++ h0_p8 ++ h0_p9 ++ h0_p10 ++ h0_p11 := rfl

/-- Cut 0: the operations up to the one that writes `main_v7`. -/
abbrev h0_sg0 : List (HloOp τ sig (Elt F)) := h0_p0
abbrev h0_sg0_W : List (Ref sig .tc) := h0_p0_W
theorem h0_sg0_writes : Cert.RefLib.WritesIn (h0_sg0 : List (HloOp τ sig (Elt F))) h0_sg0_W :=
  h0_p0_writes
/-- Cut 1: the operations up to the one that writes `main_v13`. -/
abbrev h0_sg1 : List (HloOp τ sig (Elt F)) := h0_p1 ++ h0_p2
abbrev h0_sg1_W : List (Ref sig .tc) := h0_p1_W ++ h0_p2_W
theorem h0_sg1_writes : Cert.RefLib.WritesIn (h0_sg1 : List (HloOp τ sig (Elt F))) h0_sg1_W :=
  Cert.RefLib.WritesIn.append (h0_p1_writes) h0_p2_writes
/-- Cut 2: the operations up to the one that writes `main_v29`. -/
abbrev h0_sg2 : List (HloOp τ sig (Elt F)) := h0_p3
abbrev h0_sg2_W : List (Ref sig .tc) := h0_p3_W
theorem h0_sg2_writes : Cert.RefLib.WritesIn (h0_sg2 : List (HloOp τ sig (Elt F))) h0_sg2_W :=
  h0_p3_writes
/-- Cut 3: the operations up to the one that writes `main_v30`. -/
abbrev h0_sg3 : List (HloOp τ sig (Elt F)) := h0_p4
abbrev h0_sg3_W : List (Ref sig .tc) := h0_p4_W
theorem h0_sg3_writes : Cert.RefLib.WritesIn (h0_sg3 : List (HloOp τ sig (Elt F))) h0_sg3_W :=
  h0_p4_writes
/-- Cut 4: the operations up to the one that writes `main_v48`. -/
abbrev h0_sg4 : List (HloOp τ sig (Elt F)) := h0_p5
abbrev h0_sg4_W : List (Ref sig .tc) := h0_p5_W
theorem h0_sg4_writes : Cert.RefLib.WritesIn (h0_sg4 : List (HloOp τ sig (Elt F))) h0_sg4_W :=
  h0_p5_writes
/-- Cut 5: the operations up to the one that writes `main_v66`. -/
abbrev h0_sg5 : List (HloOp τ sig (Elt F)) := h0_p6
abbrev h0_sg5_W : List (Ref sig .tc) := h0_p6_W
theorem h0_sg5_writes : Cert.RefLib.WritesIn (h0_sg5 : List (HloOp τ sig (Elt F))) h0_sg5_W :=
  h0_p6_writes
/-- Cut 6: the operations up to the one that writes `main_v84`. -/
abbrev h0_sg6 : List (HloOp τ sig (Elt F)) := h0_p7
abbrev h0_sg6_W : List (Ref sig .tc) := h0_p7_W
theorem h0_sg6_writes : Cert.RefLib.WritesIn (h0_sg6 : List (HloOp τ sig (Elt F))) h0_sg6_W :=
  h0_p7_writes
/-- Cut 7: the operations up to the one that writes `main_v85`. -/
abbrev h0_sg7 : List (HloOp τ sig (Elt F)) := h0_p8
abbrev h0_sg7_W : List (Ref sig .tc) := h0_p8_W
theorem h0_sg7_writes : Cert.RefLib.WritesIn (h0_sg7 : List (HloOp τ sig (Elt F))) h0_sg7_W :=
  h0_p8_writes
/-- Cut 8: the operations up to the one that writes `main_v86`. -/
abbrev h0_sg8 : List (HloOp τ sig (Elt F)) := h0_p9
abbrev h0_sg8_W : List (Ref sig .tc) := h0_p9_W
theorem h0_sg8_writes : Cert.RefLib.WritesIn (h0_sg8 : List (HloOp τ sig (Elt F))) h0_sg8_W :=
  h0_p9_writes
/-- Cut 9: the operations up to the one that writes `main_v87`. -/
abbrev h0_sg9 : List (HloOp τ sig (Elt F)) := h0_p10
abbrev h0_sg9_W : List (Ref sig .tc) := h0_p10_W
theorem h0_sg9_writes : Cert.RefLib.WritesIn (h0_sg9 : List (HloOp τ sig (Elt F))) h0_sg9_W :=
  h0_p10_writes
/-- Cut 10: the operations up to the one that writes `main_v88`. -/
abbrev h0_sg10 : List (HloOp τ sig (Elt F)) := h0_p11
abbrev h0_sg10_W : List (Ref sig .tc) := h0_p11_W
theorem h0_sg10_writes : Cert.RefLib.WritesIn (h0_sg10 : List (HloOp τ sig (Elt F))) h0_sg10_W :=
  h0_p11_writes

def h0_val0 (W : Valuation τ sig (Elt F)) : Valuation τ sig (Elt F) := W
def h0_val1 (W : Valuation τ sig (Elt F)) : Valuation τ sig (Elt F) := after h0_sg0 (h0_val0 W)
theorem h0_val1_keep (W : Valuation τ sig (Elt F)) {r : Ref sig .tc} (h : r ∉ h0_sg0_W) :
    h0_val1 W (Proc.devRef .tc r) = h0_val0 W (Proc.devRef .tc r) := h0_sg0_writes.keep _ h
def h0_val2 (W : Valuation τ sig (Elt F)) : Valuation τ sig (Elt F) := after h0_sg1 (h0_val1 W)
theorem h0_val2_keep (W : Valuation τ sig (Elt F)) {r : Ref sig .tc} (h : r ∉ h0_sg1_W) :
    h0_val2 W (Proc.devRef .tc r) = h0_val1 W (Proc.devRef .tc r) := h0_sg1_writes.keep _ h
def h0_val3 (W : Valuation τ sig (Elt F)) : Valuation τ sig (Elt F) := after h0_sg2 (h0_val2 W)
theorem h0_val3_keep (W : Valuation τ sig (Elt F)) {r : Ref sig .tc} (h : r ∉ h0_sg2_W) :
    h0_val3 W (Proc.devRef .tc r) = h0_val2 W (Proc.devRef .tc r) := h0_sg2_writes.keep _ h
def h0_val4 (W : Valuation τ sig (Elt F)) : Valuation τ sig (Elt F) := after h0_sg3 (h0_val3 W)
theorem h0_val4_keep (W : Valuation τ sig (Elt F)) {r : Ref sig .tc} (h : r ∉ h0_sg3_W) :
    h0_val4 W (Proc.devRef .tc r) = h0_val3 W (Proc.devRef .tc r) := h0_sg3_writes.keep _ h
def h0_val5 (W : Valuation τ sig (Elt F)) : Valuation τ sig (Elt F) := after h0_sg4 (h0_val4 W)
theorem h0_val5_keep (W : Valuation τ sig (Elt F)) {r : Ref sig .tc} (h : r ∉ h0_sg4_W) :
    h0_val5 W (Proc.devRef .tc r) = h0_val4 W (Proc.devRef .tc r) := h0_sg4_writes.keep _ h
def h0_val6 (W : Valuation τ sig (Elt F)) : Valuation τ sig (Elt F) := after h0_sg5 (h0_val5 W)
theorem h0_val6_keep (W : Valuation τ sig (Elt F)) {r : Ref sig .tc} (h : r ∉ h0_sg5_W) :
    h0_val6 W (Proc.devRef .tc r) = h0_val5 W (Proc.devRef .tc r) := h0_sg5_writes.keep _ h
def h0_val7 (W : Valuation τ sig (Elt F)) : Valuation τ sig (Elt F) := after h0_sg6 (h0_val6 W)
theorem h0_val7_keep (W : Valuation τ sig (Elt F)) {r : Ref sig .tc} (h : r ∉ h0_sg6_W) :
    h0_val7 W (Proc.devRef .tc r) = h0_val6 W (Proc.devRef .tc r) := h0_sg6_writes.keep _ h
def h0_val8 (W : Valuation τ sig (Elt F)) : Valuation τ sig (Elt F) := after h0_sg7 (h0_val7 W)
theorem h0_val8_keep (W : Valuation τ sig (Elt F)) {r : Ref sig .tc} (h : r ∉ h0_sg7_W) :
    h0_val8 W (Proc.devRef .tc r) = h0_val7 W (Proc.devRef .tc r) := h0_sg7_writes.keep _ h
def h0_val9 (W : Valuation τ sig (Elt F)) : Valuation τ sig (Elt F) := after h0_sg8 (h0_val8 W)
theorem h0_val9_keep (W : Valuation τ sig (Elt F)) {r : Ref sig .tc} (h : r ∉ h0_sg8_W) :
    h0_val9 W (Proc.devRef .tc r) = h0_val8 W (Proc.devRef .tc r) := h0_sg8_writes.keep _ h
def h0_val10 (W : Valuation τ sig (Elt F)) : Valuation τ sig (Elt F) := after h0_sg9 (h0_val9 W)
theorem h0_val10_keep (W : Valuation τ sig (Elt F)) {r : Ref sig .tc} (h : r ∉ h0_sg9_W) :
    h0_val10 W (Proc.devRef .tc r) = h0_val9 W (Proc.devRef .tc r) := h0_sg9_writes.keep _ h
def h0_val11 (W : Valuation τ sig (Elt F)) : Valuation τ sig (Elt F) := after h0_sg10 (h0_val10 W)
theorem h0_val11_keep (W : Valuation τ sig (Elt F)) {r : Ref sig .tc} (h : r ∉ h0_sg10_W) :
    h0_val11 W (Proc.devRef .tc r) = h0_val10 W (Proc.devRef .tc r) := h0_sg10_writes.keep _ h

/-- The stretch run from `W` is the cuts in a row. -/
theorem h0_end (W : Valuation τ sig (Elt F)) :
    after hostOps0_2 (after hostOps0_1 (after hostOps0 (W))) = h0_val11 W := by
  rw [h0_hostOps0_split, h0_hostOps0_1_split, h0_hostOps0_2_split]
  simp only [h0_val0, h0_val1, h0_val2, h0_val3, h0_val4, h0_val5, h0_val6, h0_val7, h0_val8, h0_val9, h0_val10, h0_val11, StableHlo.after_append]

def h0_Wfrom11 : List (Ref sig .tc) := []
def h0_Wfrom10 : List (Ref sig .tc) := h0_sg10_W ++ h0_Wfrom11
def h0_Wfrom9 : List (Ref sig .tc) := h0_sg9_W ++ h0_Wfrom10
def h0_Wfrom8 : List (Ref sig .tc) := h0_sg8_W ++ h0_Wfrom9
def h0_Wfrom7 : List (Ref sig .tc) := h0_sg7_W ++ h0_Wfrom8
def h0_Wfrom6 : List (Ref sig .tc) := h0_sg6_W ++ h0_Wfrom7
def h0_Wfrom5 : List (Ref sig .tc) := h0_sg5_W ++ h0_Wfrom6
def h0_Wfrom4 : List (Ref sig .tc) := h0_sg4_W ++ h0_Wfrom5
def h0_Wfrom3 : List (Ref sig .tc) := h0_sg3_W ++ h0_Wfrom4
def h0_Wfrom2 : List (Ref sig .tc) := h0_sg2_W ++ h0_Wfrom3
def h0_Wfrom1 : List (Ref sig .tc) := h0_sg1_W ++ h0_Wfrom2
def h0_Wfrom0 : List (Ref sig .tc) := h0_sg0_W ++ h0_Wfrom1

/-- A buffer not written from cut k on holds at the end what it held after the first k cuts. -/
theorem h0_fin11 (W : Valuation τ sig (Elt F)) {r : Ref sig .tc} (_h : r ∉ h0_Wfrom11) :
    h0_val11 W (Proc.devRef .tc r) = h0_val11 W (Proc.devRef .tc r) := rfl
theorem h0_fin10 (W : Valuation τ sig (Elt F)) {r : Ref sig .tc} (h : r ∉ h0_Wfrom10) :
    h0_val11 W (Proc.devRef .tc r) = h0_val10 W (Proc.devRef .tc r) :=
  (h0_fin11 W fun hm => h (List.mem_append_right _ hm)).trans (h0_val11_keep W fun hm => h (List.mem_append_left _ hm))
theorem h0_fin9 (W : Valuation τ sig (Elt F)) {r : Ref sig .tc} (h : r ∉ h0_Wfrom9) :
    h0_val11 W (Proc.devRef .tc r) = h0_val9 W (Proc.devRef .tc r) :=
  (h0_fin10 W fun hm => h (List.mem_append_right _ hm)).trans (h0_val10_keep W fun hm => h (List.mem_append_left _ hm))
theorem h0_fin8 (W : Valuation τ sig (Elt F)) {r : Ref sig .tc} (h : r ∉ h0_Wfrom8) :
    h0_val11 W (Proc.devRef .tc r) = h0_val8 W (Proc.devRef .tc r) :=
  (h0_fin9 W fun hm => h (List.mem_append_right _ hm)).trans (h0_val9_keep W fun hm => h (List.mem_append_left _ hm))
theorem h0_fin7 (W : Valuation τ sig (Elt F)) {r : Ref sig .tc} (h : r ∉ h0_Wfrom7) :
    h0_val11 W (Proc.devRef .tc r) = h0_val7 W (Proc.devRef .tc r) :=
  (h0_fin8 W fun hm => h (List.mem_append_right _ hm)).trans (h0_val8_keep W fun hm => h (List.mem_append_left _ hm))
theorem h0_fin6 (W : Valuation τ sig (Elt F)) {r : Ref sig .tc} (h : r ∉ h0_Wfrom6) :
    h0_val11 W (Proc.devRef .tc r) = h0_val6 W (Proc.devRef .tc r) :=
  (h0_fin7 W fun hm => h (List.mem_append_right _ hm)).trans (h0_val7_keep W fun hm => h (List.mem_append_left _ hm))
theorem h0_fin5 (W : Valuation τ sig (Elt F)) {r : Ref sig .tc} (h : r ∉ h0_Wfrom5) :
    h0_val11 W (Proc.devRef .tc r) = h0_val5 W (Proc.devRef .tc r) :=
  (h0_fin6 W fun hm => h (List.mem_append_right _ hm)).trans (h0_val6_keep W fun hm => h (List.mem_append_left _ hm))
theorem h0_fin4 (W : Valuation τ sig (Elt F)) {r : Ref sig .tc} (h : r ∉ h0_Wfrom4) :
    h0_val11 W (Proc.devRef .tc r) = h0_val4 W (Proc.devRef .tc r) :=
  (h0_fin5 W fun hm => h (List.mem_append_right _ hm)).trans (h0_val5_keep W fun hm => h (List.mem_append_left _ hm))
theorem h0_fin3 (W : Valuation τ sig (Elt F)) {r : Ref sig .tc} (h : r ∉ h0_Wfrom3) :
    h0_val11 W (Proc.devRef .tc r) = h0_val3 W (Proc.devRef .tc r) :=
  (h0_fin4 W fun hm => h (List.mem_append_right _ hm)).trans (h0_val4_keep W fun hm => h (List.mem_append_left _ hm))
theorem h0_fin2 (W : Valuation τ sig (Elt F)) {r : Ref sig .tc} (h : r ∉ h0_Wfrom2) :
    h0_val11 W (Proc.devRef .tc r) = h0_val2 W (Proc.devRef .tc r) :=
  (h0_fin3 W fun hm => h (List.mem_append_right _ hm)).trans (h0_val3_keep W fun hm => h (List.mem_append_left _ hm))
theorem h0_fin1 (W : Valuation τ sig (Elt F)) {r : Ref sig .tc} (h : r ∉ h0_Wfrom1) :
    h0_val11 W (Proc.devRef .tc r) = h0_val1 W (Proc.devRef .tc r) :=
  (h0_fin2 W fun hm => h (List.mem_append_right _ hm)).trans (h0_val2_keep W fun hm => h (List.mem_append_left _ hm))
theorem h0_fin0 (W : Valuation τ sig (Elt F)) {r : Ref sig .tc} (h : r ∉ h0_Wfrom0) :
    h0_val11 W (Proc.devRef .tc r) = h0_val0 W (Proc.devRef .tc r) :=
  (h0_fin1 W fun hm => h (List.mem_append_right _ hm)).trans (h0_val1_keep W fun hm => h (List.mem_append_left _ hm))

def h0_Wupto0 : List (Ref sig .tc) := []
def h0_Wupto1 : List (Ref sig .tc) := h0_Wupto0 ++ h0_sg0_W
def h0_Wupto2 : List (Ref sig .tc) := h0_Wupto1 ++ h0_sg1_W
def h0_Wupto3 : List (Ref sig .tc) := h0_Wupto2 ++ h0_sg2_W
def h0_Wupto4 : List (Ref sig .tc) := h0_Wupto3 ++ h0_sg3_W
def h0_Wupto5 : List (Ref sig .tc) := h0_Wupto4 ++ h0_sg4_W
def h0_Wupto6 : List (Ref sig .tc) := h0_Wupto5 ++ h0_sg5_W
def h0_Wupto7 : List (Ref sig .tc) := h0_Wupto6 ++ h0_sg6_W
def h0_Wupto8 : List (Ref sig .tc) := h0_Wupto7 ++ h0_sg7_W
def h0_Wupto9 : List (Ref sig .tc) := h0_Wupto8 ++ h0_sg8_W
def h0_Wupto10 : List (Ref sig .tc) := h0_Wupto9 ++ h0_sg9_W
def h0_Wupto11 : List (Ref sig .tc) := h0_Wupto10 ++ h0_sg10_W

/-- A buffer not written by the first k cuts holds after them what it held before the stretch. -/
theorem h0_pre0 (W : Valuation τ sig (Elt F)) {r : Ref sig .tc} (_h : r ∉ h0_Wupto0) :
    h0_val0 W (Proc.devRef .tc r) = W (Proc.devRef .tc r) := rfl
theorem h0_pre1 (W : Valuation τ sig (Elt F)) {r : Ref sig .tc} (h : r ∉ h0_Wupto1) :
    h0_val1 W (Proc.devRef .tc r) = W (Proc.devRef .tc r) :=
  (h0_val1_keep W fun hm => h (List.mem_append_right _ hm)).trans (h0_pre0 W fun hm => h (List.mem_append_left _ hm))
theorem h0_pre2 (W : Valuation τ sig (Elt F)) {r : Ref sig .tc} (h : r ∉ h0_Wupto2) :
    h0_val2 W (Proc.devRef .tc r) = W (Proc.devRef .tc r) :=
  (h0_val2_keep W fun hm => h (List.mem_append_right _ hm)).trans (h0_pre1 W fun hm => h (List.mem_append_left _ hm))
theorem h0_pre3 (W : Valuation τ sig (Elt F)) {r : Ref sig .tc} (h : r ∉ h0_Wupto3) :
    h0_val3 W (Proc.devRef .tc r) = W (Proc.devRef .tc r) :=
  (h0_val3_keep W fun hm => h (List.mem_append_right _ hm)).trans (h0_pre2 W fun hm => h (List.mem_append_left _ hm))
theorem h0_pre4 (W : Valuation τ sig (Elt F)) {r : Ref sig .tc} (h : r ∉ h0_Wupto4) :
    h0_val4 W (Proc.devRef .tc r) = W (Proc.devRef .tc r) :=
  (h0_val4_keep W fun hm => h (List.mem_append_right _ hm)).trans (h0_pre3 W fun hm => h (List.mem_append_left _ hm))
theorem h0_pre5 (W : Valuation τ sig (Elt F)) {r : Ref sig .tc} (h : r ∉ h0_Wupto5) :
    h0_val5 W (Proc.devRef .tc r) = W (Proc.devRef .tc r) :=
  (h0_val5_keep W fun hm => h (List.mem_append_right _ hm)).trans (h0_pre4 W fun hm => h (List.mem_append_left _ hm))
theorem h0_pre6 (W : Valuation τ sig (Elt F)) {r : Ref sig .tc} (h : r ∉ h0_Wupto6) :
    h0_val6 W (Proc.devRef .tc r) = W (Proc.devRef .tc r) :=
  (h0_val6_keep W fun hm => h (List.mem_append_right _ hm)).trans (h0_pre5 W fun hm => h (List.mem_append_left _ hm))
theorem h0_pre7 (W : Valuation τ sig (Elt F)) {r : Ref sig .tc} (h : r ∉ h0_Wupto7) :
    h0_val7 W (Proc.devRef .tc r) = W (Proc.devRef .tc r) :=
  (h0_val7_keep W fun hm => h (List.mem_append_right _ hm)).trans (h0_pre6 W fun hm => h (List.mem_append_left _ hm))
theorem h0_pre8 (W : Valuation τ sig (Elt F)) {r : Ref sig .tc} (h : r ∉ h0_Wupto8) :
    h0_val8 W (Proc.devRef .tc r) = W (Proc.devRef .tc r) :=
  (h0_val8_keep W fun hm => h (List.mem_append_right _ hm)).trans (h0_pre7 W fun hm => h (List.mem_append_left _ hm))
theorem h0_pre9 (W : Valuation τ sig (Elt F)) {r : Ref sig .tc} (h : r ∉ h0_Wupto9) :
    h0_val9 W (Proc.devRef .tc r) = W (Proc.devRef .tc r) :=
  (h0_val9_keep W fun hm => h (List.mem_append_right _ hm)).trans (h0_pre8 W fun hm => h (List.mem_append_left _ hm))
theorem h0_pre10 (W : Valuation τ sig (Elt F)) {r : Ref sig .tc} (h : r ∉ h0_Wupto10) :
    h0_val10 W (Proc.devRef .tc r) = W (Proc.devRef .tc r) :=
  (h0_val10_keep W fun hm => h (List.mem_append_right _ hm)).trans (h0_pre9 W fun hm => h (List.mem_append_left _ hm))
theorem h0_pre11 (W : Valuation τ sig (Elt F)) {r : Ref sig .tc} (h : r ∉ h0_Wupto11) :
    h0_val11 W (Proc.devRef .tc r) = W (Proc.devRef .tc r) :=
  (h0_val11_keep W fun hm => h (List.mem_append_right _ hm)).trans (h0_pre10 W fun hm => h (List.mem_append_left _ hm))

end Cert.KernelIdeal.Hand

end
-- ==== Proof.KIdeal.HostFns.lean ====
/- The functions of the kernel program's host stretches that the reference program has no counterpart of: the
   re-readings of the weights, biases and per-node vectors in the shapes the kernels take, and the arrays set side by side. -/
import proofs.«159603_j71347996721325_2_alg».proof.Proof.Gen.KernelIdeal.Launch

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

/-- The four 4x64 weight slices stacked as one 16x64 matrix (row-major re-reading). -/
noncomputable def kresh_w1 (a4 : (⟨S4x4x64, .f32⟩ : BufTy).Contents (Elt F)) :
    (⟨S16x64, .f32⟩ : BufTy).Contents (Elt F) :=
  (shapeCast _ · shapeCasts_S4x4x64_S16x64) a4

/-- Four 4-feature arrays side by side along the feature axis: 16 features. -/
noncomputable def kcat4 (a0 : (⟨S4x50000x4, .f32⟩ : BufTy).Contents (Elt F)) (v48 : (⟨S4x50000x4, .f32⟩ : BufTy).Contents (Elt F)) (v66 : (⟨S4x50000x4, .f32⟩ : BufTy).Contents (Elt F)) (v84 : (⟨S4x50000x4, .f32⟩ : BufTy).Contents (Elt F)) :
    (⟨S4x50000x16, .f32⟩ : BufTy).Contents (Elt F) :=
  concatenate S4x50000x16 2 [⟨S4x50000x4, a0⟩, ⟨S4x50000x4, v48⟩, ⟨S4x50000x4, v66⟩, ⟨S4x50000x4, v84⟩] concatenates_S4x50000x4_S4x50000x4_S4x50000x4_S4x50000x4_S4x50000x16_d2

/-- A 64-vector as a 1x64 row. -/
noncomputable def kresh_row64 (a5 : (⟨S64, .f32⟩ : BufTy).Contents (Elt F)) :
    (⟨S1x64, .f32⟩ : BufTy).Contents (Elt F) :=
  (shapeCast _ · shapeCasts_S64_S1x64) a5

/-- A 50000-vector as a 50000x1 column. -/
noncomputable def kresh_col (a10 : (⟨S50000, .f32⟩ : BufTy).Contents (Elt F)) :
    (⟨S50000x1, .f32⟩ : BufTy).Contents (Elt F) :=
  (shapeCast _ · shapeCasts_S50000_S50000x1) a10

/-- The four 64x64 weight slices stacked as one 256x64 matrix (row-major re-reading). -/
noncomputable def kresh_w2 (a6 : (⟨S4x64x64, .f32⟩ : BufTy).Contents (Elt F)) :
    (⟨S256x64, .f32⟩ : BufTy).Contents (Elt F) :=
  (shapeCast _ · shapeCasts_S4x64x64_S256x64) a6

/-- Four 64-feature arrays side by side along the feature axis: 256 features. -/
noncomputable def kcat64 (v89 : (⟨S4x50000x64, .f32⟩ : BufTy).Contents (Elt F)) (v108 : (⟨S4x50000x64, .f32⟩ : BufTy).Contents (Elt F)) (v126 : (⟨S4x50000x64, .f32⟩ : BufTy).Contents (Elt F)) (v144 : (⟨S4x50000x64, .f32⟩ : BufTy).Contents (Elt F)) :
    (⟨S4x50000x256, .f32⟩ : BufTy).Contents (Elt F) :=
  concatenate S4x50000x256 2 [⟨S4x50000x64, v89⟩, ⟨S4x50000x64, v108⟩, ⟨S4x50000x64, v126⟩, ⟨S4x50000x64, v144⟩] concatenates_S4x50000x64_S4x50000x64_S4x50000x64_S4x50000x64_S4x50000x256_d2

/-- The four 64x2 weight slices stacked as one 256x2 matrix (row-major re-reading). -/
noncomputable def kresh_w3 (a8 : (⟨S4x64x2, .f32⟩ : BufTy).Contents (Elt F)) :
    (⟨S256x2, .f32⟩ : BufTy).Contents (Elt F) :=
  (shapeCast _ · shapeCasts_S4x64x2_S256x2) a8

/-- Two 50000-vectors as the two columns of a 50000x2 array. -/
noncomputable def kstack (a17 : (⟨S50000, .f32⟩ : BufTy).Contents (Elt F)) (a19 : (⟨S50000, .f32⟩ : BufTy).Contents (Elt F)) :
    (⟨S50000x2, .f32⟩ : BufTy).Contents (Elt F) :=
  let t_v208 : (⟨S50000x1, .f32⟩ : BufTy).Contents (Elt F) := (broadcastInDim S50000x1 ![0] bcast_S50000_S50000x1_0 : (⟨S50000, .f32⟩ : BufTy).Contents (Elt F) → (⟨S50000x1, .f32⟩ : BufTy).Contents (Elt F)) a17
  let t_v209 : (⟨S50000x1, .f32⟩ : BufTy).Contents (Elt F) := (broadcastInDim S50000x1 ![0] bcast_S50000_S50000x1_0 : (⟨S50000, .f32⟩ : BufTy).Contents (Elt F) → (⟨S50000x1, .f32⟩ : BufTy).Contents (Elt F)) a19
  ((fun a b => concatenate S50000x2 1 [⟨S50000x1, a⟩, ⟨S50000x1, b⟩] concatenates_S50000x1_S50000x1_S50000x2_d1) : (⟨S50000x1, .f32⟩ : BufTy).Contents (Elt F) → (⟨S50000x1, .f32⟩ : BufTy).Contents (Elt F) → (⟨S50000x2, .f32⟩ : BufTy).Contents (Elt F)) t_v208 t_v209

/-- A 2-vector as a 1x2 row. -/
noncomputable def kresh_row2 (a9 : (⟨S2, .f32⟩ : BufTy).Contents (Elt F)) :
    (⟨S1x2, .f32⟩ : BufTy).Contents (Elt F) :=
  (shapeCast _ · shapeCasts_S2_S1x2) a9

end Cert.KernelIdeal.Hand

end
-- ==== Proof.RefFns.lean ====
/- What each stretch of the reference program's run computes, as a function of the contents of the buffers it reads: the
   stretch's operations one line each, in the program's order, a called function's operations in the call's place.
   Stretches whose lines are the same but for the names of what they read share one function. -/
import proofs.«159603_j71347996721325_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- An edge-endpoint vector normalised as an index into the 50000 nodes (a negative entry has 50000 added), as a column of one-element index vectors. Shared by `main_v6`, `main_v19`. -/
noncomputable def res_main_v6 (a2 : (⟨S400000, .i32⟩ : BufTy).Contents (Elt F)) :
    (⟨S400000x1, .i32⟩ : BufTy).Contents (Elt F) :=
  let t_c : (⟨S_, .i32⟩ : BufTy).Contents (Elt F) := (constantI S_ 32 0#32)
  let t_v1 : (⟨S400000, .i32⟩ : BufTy).Contents (Elt F) := (broadcastInDim S400000 ![] bcast_S_S400000 : (⟨S_, .i32⟩ : BufTy).Contents (Elt F) → (⟨S400000, .i32⟩ : BufTy).Contents (Elt F)) t_c
  let t_v2 : (⟨S400000, .i1⟩ : BufTy).Contents (Elt F) := (cmpi .slt : (⟨S400000, .i32⟩ : BufTy).Contents (Elt F) → (⟨S400000, .i32⟩ : BufTy).Contents (Elt F) → (⟨S400000, .i1⟩ : BufTy).Contents (Elt F)) a2 t_v1
  let t_c_0 : (⟨S_, .i32⟩ : BufTy).Contents (Elt F) := (constantI S_ 32 50000#32)
  let t_v3 : (⟨S400000, .i32⟩ : BufTy).Contents (Elt F) := (broadcastInDim S400000 ![] bcast_S_S400000 : (⟨S_, .i32⟩ : BufTy).Contents (Elt F) → (⟨S400000, .i32⟩ : BufTy).Contents (Elt F)) t_c_0
  let t_v4 : (⟨S400000, .i32⟩ : BufTy).Contents (Elt F) := (addi : (⟨S400000, .i32⟩ : BufTy).Contents (Elt F) → (⟨S400000, .i32⟩ : BufTy).Contents (Elt F) → (⟨S400000, .i32⟩ : BufTy).Contents (Elt F)) a2 t_v3
  let t_v5 : (⟨S400000, .i32⟩ : BufTy).Contents (Elt F) := (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) t_v2 t_v4 a2
  (broadcastInDim S400000x1 ![0] bcast_S400000_S400000x1_0 : (⟨S400000, .i32⟩ : BufTy).Contents (Elt F) → (⟨S400000x1, .i32⟩ : BufTy).Contents (Elt F)) t_v5

/-- The degree: the scatter-add of the edge weights at the normalised target nodes into zeros. -/
noncomputable def res_main_v7 (a2 : (⟨S400000, .i32⟩ : BufTy).Contents (Elt F)) (a3 : (⟨S400000, .f32⟩ : BufTy).Contents (Elt F)) :
    (⟨S50000, .f32⟩ : BufTy).Contents (Elt F) :=
  let t_cst : (⟨S_, .f32⟩ : BufTy).Contents (Elt F) := (constant S_ .f32 0x00000000#32)
  let t_v0 : (⟨S50000, .f32⟩ : BufTy).Contents (Elt F) := (broadcastInDim S50000 ![] bcast_S_S50000 : (⟨S_, .f32⟩ : BufTy).Contents (Elt F) → (⟨S50000, .f32⟩ : BufTy).Contents (Elt F)) t_cst
  let t_c : (⟨S_, .i32⟩ : BufTy).Contents (Elt F) := (constantI S_ 32 0#32)
  let t_v1 : (⟨S400000, .i32⟩ : BufTy).Contents (Elt F) := (broadcastInDim S400000 ![] bcast_S_S400000 : (⟨S_, .i32⟩ : BufTy).Contents (Elt F) → (⟨S400000, .i32⟩ : BufTy).Contents (Elt F)) t_c
  let t_v2 : (⟨S400000, .i1⟩ : BufTy).Contents (Elt F) := (cmpi .slt : (⟨S400000, .i32⟩ : BufTy).Contents (Elt F) → (⟨S400000, .i32⟩ : BufTy).Contents (Elt F) → (⟨S400000, .i1⟩ : BufTy).Contents (Elt F)) a2 t_v1
  let t_c_0 : (⟨S_, .i32⟩ : BufTy).Contents (Elt F) := (constantI S_ 32 50000#32)
  let t_v3 : (⟨S400000, .i32⟩ : BufTy).Contents (Elt F) := (broadcastInDim S400000 ![] bcast_S_S400000 : (⟨S_, .i32⟩ : BufTy).Contents (Elt F) → (⟨S400000, .i32⟩ : BufTy).Contents (Elt F)) t_c_0
  let t_v4 : (⟨S400000, .i32⟩ : BufTy).Contents (Elt F) := (addi : (⟨S400000, .i32⟩ : BufTy).Contents (Elt F) → (⟨S400000, .i32⟩ : BufTy).Contents (Elt F) → (⟨S400000, .i32⟩ : BufTy).Contents (Elt F)) a2 t_v3
  let t_v5 : (⟨S400000, .i32⟩ : BufTy).Contents (Elt F) := (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) t_v2 t_v4 a2
  let t_v6 : (⟨S400000x1, .i32⟩ : BufTy).Contents (Elt F) := (broadcastInDim S400000x1 ![0] bcast_S400000_S400000x1_0 : (⟨S400000, .i32⟩ : BufTy).Contents (Elt F) → (⟨S400000x1, .i32⟩ : BufTy).Contents (Elt F)) t_v5
  ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)) t_v0 t_v6 a3

/-- deg > 0 selects rsqrt (max deg 1e-30), else 0. -/
noncomputable def res_main_v13 (v7 : (⟨S50000, .f32⟩ : BufTy).Contents (Elt F)) :
    (⟨S50000, .f32⟩ : BufTy).Contents (Elt F) :=
  let t_cst_1 : (⟨S_, .f32⟩ : BufTy).Contents (Elt F) := (constant S_ .f32 0x00000000#32)
  let t_v8 : (⟨S50000, .f32⟩ : BufTy).Contents (Elt F) := (broadcastInDim S50000 ![] bcast_S_S50000 : (⟨S_, .f32⟩ : BufTy).Contents (Elt F) → (⟨S50000, .f32⟩ : BufTy).Contents (Elt F)) t_cst_1
  let t_v9 : (⟨S50000, .i1⟩ : BufTy).Contents (Elt F) := (cmpf .ogt : (⟨S50000, .f32⟩ : BufTy).Contents (Elt F) → (⟨S50000, .f32⟩ : BufTy).Contents (Elt F) → (⟨S50000, .i1⟩ : BufTy).Contents (Elt F)) v7 t_v8
  let t_cst_2 : (⟨S_, .f32⟩ : BufTy).Contents (Elt F) := (constant S_ .f32 0x0DA24260#32)
  let t_v10 : (⟨S50000, .f32⟩ : BufTy).Contents (Elt F) := (broadcastInDim S50000 ![] bcast_S_S50000 : (⟨S_, .f32⟩ : BufTy).Contents (Elt F) → (⟨S50000, .f32⟩ : BufTy).Contents (Elt F)) t_cst_2
  let t_v11 : (⟨S50000, .f32⟩ : BufTy).Contents (Elt F) := (maximumf : (⟨S50000, .f32⟩ : BufTy).Contents (Elt F) → (⟨S50000, .f32⟩ : BufTy).Contents (Elt F) → (⟨S50000, .f32⟩ : BufTy).Contents (Elt F)) v7 t_v10
  let t_v12 : (⟨S50000, .f32⟩ : BufTy).Contents (Elt F) := (Host.rsqrt : (⟨S50000, .f32⟩ : BufTy).Contents (Elt F) → (⟨S50000, .f32⟩ : BufTy).Contents (Elt F)) t_v11
  let t_cst_3 : (⟨S_, .f32⟩ : BufTy).Contents (Elt F) := (constant S_ .f32 0x00000000#32)
  let t_call0_v0 : (⟨S_, .f32⟩ : BufTy).Contents (Elt F) := id t_cst_3
  let t_call0_v1 : (⟨S50000, .f32⟩ : BufTy).Contents (Elt F) := (broadcastInDim S50000 ![] bcast_S_S50000) t_call0_v0
  select t_v9 t_v12 t_call0_v1

/-- The normalised edge weight: dis gathered at the sources, times the edge weight, times dis gathered at the targets. -/
noncomputable def res_main_v29 (a1 : (⟨S400000, .i32⟩ : BufTy).Contents (Elt F)) (v13 : (⟨S50000, .f32⟩ : BufTy).Contents (Elt F)) (a3 : (⟨S400000, .f32⟩ : BufTy).Contents (Elt F)) (a2 : (⟨S400000, .i32⟩ : BufTy).Contents (Elt F)) :
    (⟨S400000, .f32⟩ : BufTy).Contents (Elt F) :=
  let t_c_4 : (⟨S_, .i32⟩ : BufTy).Contents (Elt F) := (constantI S_ 32 0#32)
  let t_v14 : (⟨S400000, .i32⟩ : BufTy).Contents (Elt F) := (broadcastInDim S400000 ![] bcast_S_S400000 : (⟨S_, .i32⟩ : BufTy).Contents (Elt F) → (⟨S400000, .i32⟩ : BufTy).Contents (Elt F)) t_c_4
  let t_v15 : (⟨S400000, .i1⟩ : BufTy).Contents (Elt F) := (cmpi .slt : (⟨S400000, .i32⟩ : BufTy).Contents (Elt F) → (⟨S400000, .i32⟩ : BufTy).Contents (Elt F) → (⟨S400000, .i1⟩ : BufTy).Contents (Elt F)) a1 t_v14
  let t_c_5 : (⟨S_, .i32⟩ : BufTy).Contents (Elt F) := (constantI S_ 32 50000#32)
  let t_v16 : (⟨S400000, .i32⟩ : BufTy).Contents (Elt F) := (broadcastInDim S400000 ![] bcast_S_S400000 : (⟨S_, .i32⟩ : BufTy).Contents (Elt F) → (⟨S400000, .i32⟩ : BufTy).Contents (Elt F)) t_c_5
  let t_v17 : (⟨S400000, .i32⟩ : BufTy).Contents (Elt F) := (addi : (⟨S400000, .i32⟩ : BufTy).Contents (Elt F) → (⟨S400000, .i32⟩ : BufTy).Contents (Elt F) → (⟨S400000, .i32⟩ : BufTy).Contents (Elt F)) a1 t_v16
  let t_v18 : (⟨S400000, .i32⟩ : BufTy).Contents (Elt F) := (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) t_v15 t_v17 a1
  let t_v19 : (⟨S400000x1, .i32⟩ : BufTy).Contents (Elt F) := (broadcastInDim S400000x1 ![0] bcast_S400000_S400000x1_0 : (⟨S400000, .i32⟩ : BufTy).Contents (Elt F) → (⟨S400000x1, .i32⟩ : BufTy).Contents (Elt F)) t_v18
  let t_v20 : (⟨S400000, .f32⟩ : BufTy).Contents (Elt F) := ((fun x i => Host.gather gather_S50000_S400000x1_S400000_n_0_n_n_0_1_1 x i) : (⟨S50000, .f32⟩ : BufTy).Contents (Elt F) → (⟨S400000x1, .i32⟩ : BufTy).Contents (Elt F) → (⟨S400000, .f32⟩ : BufTy).Contents (Elt F)) v13 t_v19
  let t_v21 : (⟨S400000, .f32⟩ : BufTy).Contents (Elt F) := (mulf : (⟨S400000, .f32⟩ : BufTy).Contents (Elt F) → (⟨S400000, .f32⟩ : BufTy).Contents (Elt F) → (⟨S400000, .f32⟩ : BufTy).Contents (Elt F)) t_v20 a3
  let t_c_6 : (⟨S_, .i32⟩ : BufTy).Contents (Elt F) := (constantI S_ 32 0#32)
  let t_v22 : (⟨S400000, .i32⟩ : BufTy).Contents (Elt F) := (broadcastInDim S400000 ![] bcast_S_S400000 : (⟨S_, .i32⟩ : BufTy).Contents (Elt F) → (⟨S400000, .i32⟩ : BufTy).Contents (Elt F)) t_c_6
  let t_v23 : (⟨S400000, .i1⟩ : BufTy).Contents (Elt F) := (cmpi .slt : (⟨S400000, .i32⟩ : BufTy).Contents (Elt F) → (⟨S400000, .i32⟩ : BufTy).Contents (Elt F) → (⟨S400000, .i1⟩ : BufTy).Contents (Elt F)) a2 t_v22
  let t_c_7 : (⟨S_, .i32⟩ : BufTy).Contents (Elt F) := (constantI S_ 32 50000#32)
  let t_v24 : (⟨S400000, .i32⟩ : BufTy).Contents (Elt F) := (broadcastInDim S400000 ![] bcast_S_S400000 : (⟨S_, .i32⟩ : BufTy).Contents (Elt F) → (⟨S400000, .i32⟩ : BufTy).Contents (Elt F)) t_c_7
  let t_v25 : (⟨S400000, .i32⟩ : BufTy).Contents (Elt F) := (addi : (⟨S400000, .i32⟩ : BufTy).Contents (Elt F) → (⟨S400000, .i32⟩ : BufTy).Contents (Elt F) → (⟨S400000, .i32⟩ : BufTy).Contents (Elt F)) a2 t_v24
  let t_v26 : (⟨S400000, .i32⟩ : BufTy).Contents (Elt F) := (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) t_v23 t_v25 a2
  let t_v27 : (⟨S400000x1, .i32⟩ : BufTy).Contents (Elt F) := (broadcastInDim S400000x1 ![0] bcast_S400000_S400000x1_0 : (⟨S400000, .i32⟩ : BufTy).Contents (Elt F) → (⟨S400000x1, .i32⟩ : BufTy).Contents (Elt F)) t_v26
  let t_v28 : (⟨S400000, .f32⟩ : BufTy).Contents (Elt F) := ((fun x i => Host.gather gather_S50000_S400000x1_S400000_n_0_n_n_0_1_1 x i) : (⟨S50000, .f32⟩ : BufTy).Contents (Elt F) → (⟨S400000x1, .i32⟩ : BufTy).Contents (Elt F) → (⟨S400000, .f32⟩ : BufTy).Contents (Elt F)) v13 t_v27
  (mulf : (⟨S400000, .f32⟩ : BufTy).Contents (Elt F) → (⟨S400000, .f32⟩ : BufTy).Contents (Elt F) → (⟨S400000, .f32⟩ : BufTy).Contents (Elt F)) t_v21 t_v28

/-- The first term of a layer's sum: the layer input contracted with slice 0 of the weights. -/
noncomputable def res_main_v32 (a4 : (⟨S4x4x64, .f32⟩ : BufTy).Contents (Elt F)) (a0 : (⟨S4x50000x4, .f32⟩ : BufTy).Contents (Elt F)) :
    (⟨S4x50000x64, .f32⟩ : BufTy).Contents (Elt F) :=
  let t_v30 : (⟨S1x4x64, .f32⟩ : BufTy).Contents (Elt F) := ((extractStridedSlice S1x4x64 ![0, 0, 0] · slices_S4x4x64_S1x4x64_0_0_0) : (⟨S4x4x64, .f32⟩ : BufTy).Contents (Elt F) → (⟨S1x4x64, .f32⟩ : BufTy).Contents (Elt F)) a4
  let t_v31 : (⟨S4x64, .f32⟩ : BufTy).Contents (Elt F) := (shapeCast _ · shapeCasts_S1x4x64_S4x64) t_v30
  ((fun l r => Host.dotGeneral dot_S4x50000x4_S4x64_S4x50000x64_2_0_01_1_n_n none l r) : (⟨S4x50000x4, .f32⟩ : BufTy).Contents (Elt F) → (⟨S4x64, .f32⟩ : BufTy).Contents (Elt F) → (⟨S4x50000x64, .f32⟩ : BufTy).Contents (Elt F)) a0 t_v31

/-- One propagation step at 4 features: rows of h gathered at the sources, each scaled by its edge's weight, scatter-added at the targets into zeros. Shared by `main_v50`, `main_v72`, `main_v94`. -/
noncomputable def res_main_v50 (a1 : (⟨S400000, .i32⟩ : BufTy).Contents (Elt F)) (a0 : (⟨S4x50000x4, .f32⟩ : BufTy).Contents (Elt F)) (v29 : (⟨S400000, .f32⟩ : BufTy).Contents (Elt F)) (a2 : (⟨S400000, .i32⟩ : BufTy).Contents (Elt F)) :
    (⟨S4x50000x4, .f32⟩ : BufTy).Contents (Elt F) :=
  let t_c_8 : (⟨S_, .i32⟩ : BufTy).Contents (Elt F) := (constantI S_ 32 0#32)
  let t_v33 : (⟨S400000, .i32⟩ : BufTy).Contents (Elt F) := (broadcastInDim S400000 ![] bcast_S_S400000 : (⟨S_, .i32⟩ : BufTy).Contents (Elt F) → (⟨S400000, .i32⟩ : BufTy).Contents (Elt F)) t_c_8
  let t_v34 : (⟨S400000, .i1⟩ : BufTy).Contents (Elt F) := (cmpi .slt : (⟨S400000, .i32⟩ : BufTy).Contents (Elt F) → (⟨S400000, .i32⟩ : BufTy).Contents (Elt F) → (⟨S400000, .i1⟩ : BufTy).Contents (Elt F)) a1 t_v33
  let t_c_9 : (⟨S_, .i32⟩ : BufTy).Contents (Elt F) := (constantI S_ 32 50000#32)
  let t_v35 : (⟨S400000, .i32⟩ : BufTy).Contents (Elt F) := (broadcastInDim S400000 ![] bcast_S_S400000 : (⟨S_, .i32⟩ : BufTy).Contents (Elt F) → (⟨S400000, .i32⟩ : BufTy).Contents (Elt F)) t_c_9
  let t_v36 : (⟨S400000, .i32⟩ : BufTy).Contents (Elt F) := (addi : (⟨S400000, .i32⟩ : BufTy).Contents (Elt F) → (⟨S400000, .i32⟩ : BufTy).Contents (Elt F) → (⟨S400000, .i32⟩ : BufTy).Contents (Elt F)) a1 t_v35
  let t_v37 : (⟨S400000, .i32⟩ : BufTy).Contents (Elt F) := (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) t_v34 t_v36 a1
  let t_v38 : (⟨S400000x1, .i32⟩ : BufTy).Contents (Elt F) := (broadcastInDim S400000x1 ![0] bcast_S400000_S400000x1_0 : (⟨S400000, .i32⟩ : BufTy).Contents (Elt F) → (⟨S400000x1, .i32⟩ : BufTy).Contents (Elt F)) t_v37
  let t_v39 : (⟨S4x400000x4, .f32⟩ : BufTy).Contents (Elt F) := ((fun x i => Host.gather gather_S4x50000x4_S400000x1_S4x400000x4_02_1_n_n_1_1_414 x i) : (⟨S4x50000x4, .f32⟩ : BufTy).Contents (Elt F) → (⟨S400000x1, .i32⟩ : BufTy).Contents (Elt F) → (⟨S4x400000x4, .f32⟩ : BufTy).Contents (Elt F)) a0 t_v38
  let t_v40 : (⟨S1x400000x1, .f32⟩ : BufTy).Contents (Elt F) := (broadcastInDim S1x400000x1 ![1] bcast_S400000_S1x400000x1_1 : (⟨S400000, .f32⟩ : BufTy).Contents (Elt F) → (⟨S1x400000x1, .f32⟩ : BufTy).Contents (Elt F)) v29
  let t_v41 : (⟨S4x400000x4, .f32⟩ : BufTy).Contents (Elt F) := (broadcastInDim S4x400000x4 ![0, 1, 2] bcast_S1x400000x1_S4x400000x4_0_1_2 : (⟨S1x400000x1, .f32⟩ : BufTy).Contents (Elt F) → (⟨S4x400000x4, .f32⟩ : BufTy).Contents (Elt F)) t_v40
  let t_v42 : (⟨S4x400000x4, .f32⟩ : BufTy).Contents (Elt F) := (mulf : (⟨S4x400000x4, .f32⟩ : BufTy).Contents (Elt F) → (⟨S4x400000x4, .f32⟩ : BufTy).Contents (Elt F) → (⟨S4x400000x4, .f32⟩ : BufTy).Contents (Elt F)) t_v39 t_v41
  let t_cst_10 : (⟨S_, .f32⟩ : BufTy).Contents (Elt F) := (constant S_ .f32 0x00000000#32)
  let t_v43 : (⟨S4x50000x4, .f32⟩ : BufTy).Contents (Elt F) := (broadcastInDim S4x50000x4 ![] bcast_S_S4x50000x4 : (⟨S_, .f32⟩ : BufTy).Contents (Elt F) → (⟨S4x50000x4, .f32⟩ : BufTy).Contents (Elt F)) t_cst_10
  let t_c_11 : (⟨S_, .i32⟩ : BufTy).Contents (Elt F) := (constantI S_ 32 0#32)
  let t_v44 : (⟨S400000, .i32⟩ : BufTy).Contents (Elt F) := (broadcastInDim S400000 ![] bcast_S_S400000 : (⟨S_, .i32⟩ : BufTy).Contents (Elt F) → (⟨S400000, .i32⟩ : BufTy).Contents (Elt F)) t_c_11
  let t_v45 : (⟨S400000, .i1⟩ : BufTy).Contents (Elt F) := (cmpi .slt : (⟨S400000, .i32⟩ : BufTy).Contents (Elt F) → (⟨S400000, .i32⟩ : BufTy).Contents (Elt F) → (⟨S400000, .i1⟩ : BufTy).Contents (Elt F)) a2 t_v44
  let t_c_12 : (⟨S_, .i32⟩ : BufTy).Contents (Elt F) := (constantI S_ 32 50000#32)
  let t_v46 : (⟨S400000, .i32⟩ : BufTy).Contents (Elt F) := (broadcastInDim S400000 ![] bcast_S_S400000 : (⟨S_, .i32⟩ : BufTy).Contents (Elt F) → (⟨S400000, .i32⟩ : BufTy).Contents (Elt F)) t_c_12
  let t_v47 : (⟨S400000, .i32⟩ : BufTy).Contents (Elt F) := (addi : (⟨S400000, .i32⟩ : BufTy).Contents (Elt F) → (⟨S400000, .i32⟩ : BufTy).Contents (Elt F) → (⟨S400000, .i32⟩ : BufTy).Contents (Elt F)) a2 t_v46
  let t_v48 : (⟨S400000, .i32⟩ : BufTy).Contents (Elt F) := (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) t_v45 t_v47 a2
  let t_v49 : (⟨S400000x1, .i32⟩ : BufTy).Contents (Elt F) := (broadcastInDim S400000x1 ![0] bcast_S400000_S400000x1_0 : (⟨S400000, .i32⟩ : BufTy).Contents (Elt F) → (⟨S400000x1, .i32⟩ : BufTy).Contents (Elt F)) t_v48
  ((fun x i u => Host.scatterAdd scatter_S4x50000x4_S400000x1_S4x400000x4_02_1_1_1 x i u) : (⟨S4x50000x4, .f32⟩ : BufTy).Contents (Elt F) → (⟨S400000x1, .i32⟩ : BufTy).Contents (Elt F) → (⟨S4x400000x4, .f32⟩ : BufTy).Contents (Elt F) → (⟨S4x50000x4, .f32⟩ : BufTy).Contents (Elt F)) t_v43 t_v49 t_v42

/-- The contents of `main_v54` from the contents of the buffers its stretch reads. -/
noncomputable def res_main_v54 (a4 : (⟨S4x4x64, .f32⟩ : BufTy).Contents (Elt F)) (v50 : (⟨S4x50000x4, .f32⟩ : BufTy).Contents (Elt F)) (v32 : (⟨S4x50000x64, .f32⟩ : BufTy).Contents (Elt F)) :
    (⟨S4x50000x64, .f32⟩ : BufTy).Contents (Elt F) :=
  let t_v51 : (⟨S1x4x64, .f32⟩ : BufTy).Contents (Elt F) := ((extractStridedSlice S1x4x64 ![1, 0, 0] · slices_S4x4x64_S1x4x64_1_0_0) : (⟨S4x4x64, .f32⟩ : BufTy).Contents (Elt F) → (⟨S1x4x64, .f32⟩ : BufTy).Contents (Elt F)) a4
  let t_v52 : (⟨S4x64, .f32⟩ : BufTy).Contents (Elt F) := (shapeCast _ · shapeCasts_S1x4x64_S4x64) t_v51
  let t_v53 : (⟨S4x50000x64, .f32⟩ : BufTy).Contents (Elt F) := ((fun l r => Host.dotGeneral dot_S4x50000x4_S4x64_S4x50000x64_2_0_01_1_n_n none l r) : (⟨S4x50000x4, .f32⟩ : BufTy).Contents (Elt F) → (⟨S4x64, .f32⟩ : BufTy).Contents (Elt F) → (⟨S4x50000x64, .f32⟩ : BufTy).Contents (Elt F)) v50 t_v52
  (addf : (⟨S4x50000x64, .f32⟩ : BufTy).Contents (Elt F) → (⟨S4x50000x64, .f32⟩ : BufTy).Contents (Elt F) → (⟨S4x50000x64, .f32⟩ : BufTy).Contents (Elt F)) v32 t_v53

/-- The contents of `main_v76` from the contents of the buffers its stretch reads. -/
noncomputable def res_main_v76 (a4 : (⟨S4x4x64, .f32⟩ : BufTy).Contents (Elt F)) (v72 : (⟨S4x50000x4, .f32⟩ : BufTy).Contents (Elt F)) (v54 : (⟨S4x50000x64, .f32⟩ : BufTy).Contents (Elt F)) :
    (⟨S4x50000x64, .f32⟩ : BufTy).Contents (Elt F) :=
  let t_v73 : (⟨S1x4x64, .f32⟩ : BufTy).Contents (Elt F) := ((extractStridedSlice S1x4x64 ![2, 0, 0] · slices_S4x4x64_S1x4x64_2_0_0) : (⟨S4x4x64, .f32⟩ : BufTy).Contents (Elt F) → (⟨S1x4x64, .f32⟩ : BufTy).Contents (Elt F)) a4
  let t_v74 : (⟨S4x64, .f32⟩ : BufTy).Contents (Elt F) := (shapeCast _ · shapeCasts_S1x4x64_S4x64) t_v73
  let t_v75 : (⟨S4x50000x64, .f32⟩ : BufTy).Contents (Elt F) := ((fun l r => Host.dotGeneral dot_S4x50000x4_S4x64_S4x50000x64_2_0_01_1_n_n none l r) : (⟨S4x50000x4, .f32⟩ : BufTy).Contents (Elt F) → (⟨S4x64, .f32⟩ : BufTy).Contents (Elt F) → (⟨S4x50000x64, .f32⟩ : BufTy).Contents (Elt F)) v72 t_v74
  (addf : (⟨S4x50000x64, .f32⟩ : BufTy).Contents (Elt F) → (⟨S4x50000x64, .f32⟩ : BufTy).Contents (Elt F) → (⟨S4x50000x64, .f32⟩ : BufTy).Contents (Elt F)) v54 t_v75

/-- The contents of `main_v101` from the contents of the buffers its stretch reads. -/
noncomputable def res_main_v101 (a4 : (⟨S4x4x64, .f32⟩ : BufTy).Contents (Elt F)) (v94 : (⟨S4x50000x4, .f32⟩ : BufTy).Contents (Elt F)) (v76 : (⟨S4x50000x64, .f32⟩ : BufTy).Contents (Elt F)) (a5 : (⟨S64, .f32⟩ : BufTy).Contents (Elt F)) :
    (⟨S4x50000x64, .f32⟩ : BufTy).Contents (Elt F) :=
  let t_v95 : (⟨S1x4x64, .f32⟩ : BufTy).Contents (Elt F) := ((extractStridedSlice S1x4x64 ![3, 0, 0] · slices_S4x4x64_S1x4x64_3_0_0) : (⟨S4x4x64, .f32⟩ : BufTy).Contents (Elt F) → (⟨S1x4x64, .f32⟩ : BufTy).Contents (Elt F)) a4
  let t_v96 : (⟨S4x64, .f32⟩ : BufTy).Contents (Elt F) := (shapeCast _ · shapeCasts_S1x4x64_S4x64) t_v95
  let t_v97 : (⟨S4x50000x64, .f32⟩ : BufTy).Contents (Elt F) := ((fun l r => Host.dotGeneral dot_S4x50000x4_S4x64_S4x50000x64_2_0_01_1_n_n none l r) : (⟨S4x50000x4, .f32⟩ : BufTy).Contents (Elt F) → (⟨S4x64, .f32⟩ : BufTy).Contents (Elt F) → (⟨S4x50000x64, .f32⟩ : BufTy).Contents (Elt F)) v94 t_v96
  let t_v98 : (⟨S4x50000x64, .f32⟩ : BufTy).Contents (Elt F) := (addf : (⟨S4x50000x64, .f32⟩ : BufTy).Contents (Elt F) → (⟨S4x50000x64, .f32⟩ : BufTy).Contents (Elt F) → (⟨S4x50000x64, .f32⟩ : BufTy).Contents (Elt F)) v76 t_v97
  let t_v99 : (⟨S1x1x64, .f32⟩ : BufTy).Contents (Elt F) := (broadcastInDim S1x1x64 ![2] bcast_S64_S1x1x64_2 : (⟨S64, .f32⟩ : BufTy).Contents (Elt F) → (⟨S1x1x64, .f32⟩ : BufTy).Contents (Elt F)) a5
  let t_v100 : (⟨S4x50000x64, .f32⟩ : BufTy).Contents (Elt F) := (broadcastInDim S4x50000x64 ![0, 1, 2] bcast_S1x1x64_S4x50000x64_0_1_2 : (⟨S1x1x64, .f32⟩ : BufTy).Contents (Elt F) → (⟨S4x50000x64, .f32⟩ : BufTy).Contents (Elt F)) t_v99
  (addf : (⟨S4x50000x64, .f32⟩ : BufTy).Contents (Elt F) → (⟨S4x50000x64, .f32⟩ : BufTy).Contents (Elt F) → (⟨S4x50000x64, .f32⟩ : BufTy).Contents (Elt F)) t_v98 t_v100

/-- The mean over batch and feature per node: the sum over axes 0 and 2 divided by 256, as a 1x50000x1 array. Shared by `main_v105`, `main_v196`. -/
noncomputable def res_main_v105 (v101 : (⟨S4x50000x64, .f32⟩ : BufTy).Contents (Elt F)) :
    (⟨S1x50000x1, .f32⟩ : BufTy).Contents (Elt F) :=
  let t_cst_23 : (⟨S_, .f32⟩ : BufTy).Contents (Elt F) := (constant S_ .f32 0x00000000#32)
  let t_v102 : (⟨S50000, .f32⟩ : BufTy).Contents (Elt F) := ((fun x v => Host.reduceAdd x v reducesTo_S4x50000x64_S50000_d0_2 h_S_) : (⟨S4x50000x64, .f32⟩ : BufTy).Contents (Elt F) → (⟨S_, .f32⟩ : BufTy).Contents (Elt F) → (⟨S50000, .f32⟩ : BufTy).Contents (Elt F)) v101 t_cst_23
  let t_v103 : (⟨S1x50000x1, .f32⟩ : BufTy).Contents (Elt F) := (broadcastInDim S1x50000x1 ![1] bcast_S50000_S1x50000x1_1 : (⟨S50000, .f32⟩ : BufTy).Contents (Elt F) → (⟨S1x50000x1, .f32⟩ : BufTy).Contents (Elt F)) t_v102
  let t_cst_24 : (⟨S_, .f32⟩ : BufTy).Contents (Elt F) := (constant S_ .f32 0x43800000#32)
  let t_v104 : (⟨S1x50000x1, .f32⟩ : BufTy).Contents (Elt F) := (broadcastInDim S1x50000x1 ![] bcast_S_S1x50000x1 : (⟨S_, .f32⟩ : BufTy).Contents (Elt F) → (⟨S1x50000x1, .f32⟩ : BufTy).Contents (Elt F)) t_cst_24
  (Host.divf : (⟨S1x50000x1, .f32⟩ : BufTy).Contents (Elt F) → (⟨S1x50000x1, .f32⟩ : BufTy).Contents (Elt F) → (⟨S1x50000x1, .f32⟩ : BufTy).Contents (Elt F)) t_v103 t_v104

/-- The variance over batch and feature per node (divisor 256 - 0), as the outlined variance function states it: mean of squared deviations, selected against the not-a-number constant when the divisor is not positive. Shared by `main_v106`, `main_v197`. -/
noncomputable def res_main_v106 (v101 : (⟨S4x50000x64, .f32⟩ : BufTy).Contents (Elt F)) :
    (⟨S1x50000x1, .f32⟩ : BufTy).Contents (Elt F) :=
  let t_c_25 : (⟨S_, .i32⟩ : BufTy).Contents (Elt F) := (constantI S_ 32 0#32)
  let t_call1_cst : (⟨S_, .f32⟩ : BufTy).Contents (Elt F) := (constant S_ .f32 0x00000000#32)
  let t_call1_v0 : (⟨S50000, .f32⟩ : BufTy).Contents (Elt F) := (fun x v => Host.reduceAdd x v reducesTo_S4x50000x64_S50000_d0_2 h_S_) v101 t_call1_cst
  let t_call1_v1 : (⟨S1x50000x1, .f32⟩ : BufTy).Contents (Elt F) := (broadcastInDim S1x50000x1 ![1] bcast_S50000_S1x50000x1_1) t_call1_v0
  let t_call1_cst_0 : (⟨S_, .f32⟩ : BufTy).Contents (Elt F) := (constant S_ .f32 0x43800000#32)
  let t_call1_v2 : (⟨S1x50000x1, .f32⟩ : BufTy).Contents (Elt F) := (broadcastInDim S1x50000x1 ![] bcast_S_S1x50000x1) t_call1_cst_0
  let t_call1_v3 : (⟨S1x50000x1, .f32⟩ : BufTy).Contents (Elt F) := Host.divf t_call1_v1 t_call1_v2
  let t_call1_v4 : (⟨S4x50000x64, .f32⟩ : BufTy).Contents (Elt F) := (broadcastInDim S4x50000x64 ![0, 1, 2] bcast_S1x50000x1_S4x50000x64_0_1_2) t_call1_v3
  let t_call1_v5 : (⟨S4x50000x64, .f32⟩ : BufTy).Contents (Elt F) := subf v101 t_call1_v4
  let t_call1_v6 : (⟨S4x50000x64, .f32⟩ : BufTy).Contents (Elt F) := mulf t_call1_v5 t_call1_v5
  let t_call1_v7 : (⟨S_, .f32⟩ : BufTy).Contents (Elt F) := (sitofp .f32) t_c_25
  let t_call1_cst_1 : (⟨S_, .f32⟩ : BufTy).Contents (Elt F) := (constant S_ .f32 0x43800000#32)
  let t_call1_v8 : (⟨S_, .f32⟩ : BufTy).Contents (Elt F) := subf t_call1_cst_1 t_call1_v7
  let t_call1_cst_2 : (⟨S_, .f32⟩ : BufTy).Contents (Elt F) := (constant S_ .f32 0x00000000#32)
  let t_call1_v9 : (⟨S50000, .f32⟩ : BufTy).Contents (Elt F) := (fun x v => Host.reduceAdd x v reducesTo_S4x50000x64_S50000_d0_2 h_S_) t_call1_v6 t_call1_cst_2
  let t_call1_v10 : (⟨S1x50000x1, .f32⟩ : BufTy).Contents (Elt F) := (broadcastInDim S1x50000x1 ![1] bcast_S50000_S1x50000x1_1) t_call1_v9
  let t_call1_v11 : (⟨S1x50000x1, .f32⟩ : BufTy).Contents (Elt F) := (broadcastInDim S1x50000x1 ![] bcast_S_S1x50000x1) t_call1_v8
  let t_call1_v12 : (⟨S1x50000x1, .f32⟩ : BufTy).Contents (Elt F) := Host.divf t_call1_v10 t_call1_v11
  let t_call1_cst_3 : (⟨S_, .f32⟩ : BufTy).Contents (Elt F) := (constant S_ .f32 0x00000000#32)
  let t_call1_v13 : (⟨S_, .i1⟩ : BufTy).Contents (Elt F) := (cmpf .ogt) t_call1_v8 t_call1_cst_3
  let t_call1_cst_4 : (⟨S_, .f32⟩ : BufTy).Contents (Elt F) := (constant S_ .f32 0x7FC00000#32)
  let t_call1_call0_v0 : (⟨S_, .f32⟩ : BufTy).Contents (Elt F) := id t_call1_cst_4
  let t_call1_call0_v1 : (⟨S1x50000x1, .f32⟩ : BufTy).Contents (Elt F) := (broadcastInDim S1x50000x1 ![] bcast_S_S1x50000x1) t_call1_call0_v0
  (fun p a b => select (broadcastInDim S1x50000x1 ![] bcast_S_S1x50000x1 p) a b) t_call1_v13 t_call1_v12 t_call1_call0_v1

/-- Scale times (x - mean) times rsqrt (var + 1e-5), plus shift, scale and shift per node. Shared by `main_v119`, `main_v210`. -/
noncomputable def res_main_v119 (a10 : (⟨S50000, .f32⟩ : BufTy).Contents (Elt F)) (v105 : (⟨S1x50000x1, .f32⟩ : BufTy).Contents (Elt F)) (v101 : (⟨S4x50000x64, .f32⟩ : BufTy).Contents (Elt F)) (v106 : (⟨S1x50000x1, .f32⟩ : BufTy).Contents (Elt F)) (a11 : (⟨S50000, .f32⟩ : BufTy).Contents (Elt F)) :
    (⟨S4x50000x64, .f32⟩ : BufTy).Contents (Elt F) :=
  let t_v107 : (⟨S1x50000x1, .f32⟩ : BufTy).Contents (Elt F) := (broadcastInDim S1x50000x1 ![1] bcast_S50000_S1x50000x1_1 : (⟨S50000, .f32⟩ : BufTy).Contents (Elt F) → (⟨S1x50000x1, .f32⟩ : BufTy).Contents (Elt F)) a10
  let t_v108 : (⟨S4x50000x64, .f32⟩ : BufTy).Contents (Elt F) := (broadcastInDim S4x50000x64 ![0, 1, 2] bcast_S1x50000x1_S4x50000x64_0_1_2 : (⟨S1x50000x1, .f32⟩ : BufTy).Contents (Elt F) → (⟨S4x50000x64, .f32⟩ : BufTy).Contents (Elt F)) v105
  let t_v109 : (⟨S4x50000x64, .f32⟩ : BufTy).Contents (Elt F) := (subf : (⟨S4x50000x64, .f32⟩ : BufTy).Contents (Elt F) → (⟨S4x50000x64, .f32⟩ : BufTy).Contents (Elt F) → (⟨S4x50000x64, .f32⟩ : BufTy).Contents (Elt F)) v101 t_v108
  let t_v110 : (⟨S4x50000x64, .f32⟩ : BufTy).Contents (Elt F) := (broadcastInDim S4x50000x64 ![0, 1, 2] bcast_S1x50000x1_S4x50000x64_0_1_2 : (⟨S1x50000x1, .f32⟩ : BufTy).Contents (Elt F) → (⟨S4x50000x64, .f32⟩ : BufTy).Contents (Elt F)) t_v107
  let t_v111 : (⟨S4x50000x64, .f32⟩ : BufTy).Contents (Elt F) := (mulf : (⟨S4x50000x64, .f32⟩ : BufTy).Contents (Elt F) → (⟨S4x50000x64, .f32⟩ : BufTy).Contents (Elt F) → (⟨S4x50000x64, .f32⟩ : BufTy).Contents (Elt F)) t_v110 t_v109
  let t_cst_26 : (⟨S_, .f32⟩ : BufTy).Contents (Elt F) := (constant S_ .f32 0x3727C5AC#32)
  let t_v112 : (⟨S1x50000x1, .f32⟩ : BufTy).Contents (Elt F) := (broadcastInDim S1x50000x1 ![] bcast_S_S1x50000x1 : (⟨S_, .f32⟩ : BufTy).Contents (Elt F) → (⟨S1x50000x1, .f32⟩ : BufTy).Contents (Elt F)) t_cst_26
  let t_v113 : (⟨S1x50000x1, .f32⟩ : BufTy).Contents (Elt F) := (addf : (⟨S1x50000x1, .f32⟩ : BufTy).Contents (Elt F) → (⟨S1x50000x1, .f32⟩ : BufTy).Contents (Elt F) → (⟨S1x50000x1, .f32⟩ : BufTy).Contents (Elt F)) v106 t_v112
  let t_v114 : (⟨S1x50000x1, .f32⟩ : BufTy).Contents (Elt F) := (Host.rsqrt : (⟨S1x50000x1, .f32⟩ : BufTy).Contents (Elt F) → (⟨S1x50000x1, .f32⟩ : BufTy).Contents (Elt F)) t_v113
  let t_v115 : (⟨S4x50000x64, .f32⟩ : BufTy).Contents (Elt F) := (broadcastInDim S4x50000x64 ![0, 1, 2] bcast_S1x50000x1_S4x50000x64_0_1_2 : (⟨S1x50000x1, .f32⟩ : BufTy).Contents (Elt F) → (⟨S4x50000x64, .f32⟩ : BufTy).Contents (Elt F)) t_v114
  let t_v116 : (⟨S4x50000x64, .f32⟩ : BufTy).Contents (Elt F) := (mulf : (⟨S4x50000x64, .f32⟩ : BufTy).Contents (Elt F) → (⟨S4x50000x64, .f32⟩ : BufTy).Contents (Elt F) → (⟨S4x50000x64, .f32⟩ : BufTy).Contents (Elt F)) t_v111 t_v115
  let t_v117 : (⟨S1x50000x1, .f32⟩ : BufTy).Contents (Elt F) := (broadcastInDim S1x50000x1 ![1] bcast_S50000_S1x50000x1_1 : (⟨S50000, .f32⟩ : BufTy).Contents (Elt F) → (⟨S1x50000x1, .f32⟩ : BufTy).Contents (Elt F)) a11
  let t_v118 : (⟨S4x50000x64, .f32⟩ : BufTy).Contents (Elt F) := (broadcastInDim S4x50000x64 ![0, 1, 2] bcast_S1x50000x1_S4x50000x64_0_1_2 : (⟨S1x50000x1, .f32⟩ : BufTy).Contents (Elt F) → (⟨S4x50000x64, .f32⟩ : BufTy).Contents (Elt F)) t_v117
  (addf : (⟨S4x50000x64, .f32⟩ : BufTy).Contents (Elt F) → (⟨S4x50000x64, .f32⟩ : BufTy).Contents (Elt F) → (⟨S4x50000x64, .f32⟩ : BufTy).Contents (Elt F)) t_v116 t_v118

/-- x where x >= 0, else 0.01 x. Shared by `main_v120`, `main_v211`. -/
noncomputable def res_main_v120 (v119 : (⟨S4x50000x64, .f32⟩ : BufTy).Contents (Elt F)) :
    (⟨S4x50000x64, .f32⟩ : BufTy).Contents (Elt F) :=
  let t_cst_27 : (⟨S_, .f32⟩ : BufTy).Contents (Elt F) := (constant S_ .f32 0x3C23D70A#32)
  let t_call2_cst : (⟨S_, .f32⟩ : BufTy).Contents (Elt F) := (constant S_ .f32 0x00000000#32)
  let t_call2_v0 : (⟨S4x50000x64, .f32⟩ : BufTy).Contents (Elt F) := (broadcastInDim S4x50000x64 ![] bcast_S_S4x50000x64) t_call2_cst
  let t_call2_v1 : (⟨S4x50000x64, .i1⟩ : BufTy).Contents (Elt F) := (cmpf .oge) v119 t_call2_v0
  let t_call2_v2 : (⟨S_, .f32⟩ : BufTy).Contents (Elt F) := id t_cst_27
  let t_call2_v3 : (⟨S4x50000x64, .f32⟩ : BufTy).Contents (Elt F) := (broadcastInDim S4x50000x64 ![] bcast_S_S4x50000x64) t_call2_v2
  let t_call2_v4 : (⟨S4x50000x64, .f32⟩ : BufTy).Contents (Elt F) := mulf t_call2_v3 v119
  select t_call2_v1 v119 t_call2_v4

/-- The contents of `main_v123` from the contents of the buffers its stretch reads. -/
noncomputable def res_main_v123 (a6 : (⟨S4x64x64, .f32⟩ : BufTy).Contents (Elt F)) (v120 : (⟨S4x50000x64, .f32⟩ : BufTy).Contents (Elt F)) :
    (⟨S4x50000x64, .f32⟩ : BufTy).Contents (Elt F) :=
  let t_v121 : (⟨S1x64x64, .f32⟩ : BufTy).Contents (Elt F) := ((extractStridedSlice S1x64x64 ![0, 0, 0] · slices_S4x64x64_S1x64x64_0_0_0) : (⟨S4x64x64, .f32⟩ : BufTy).Contents (Elt F) → (⟨S1x64x64, .f32⟩ : BufTy).Contents (Elt F)) a6
  let t_v122 : (⟨S64x64, .f32⟩ : BufTy).Contents (Elt F) := (shapeCast _ · shapeCasts_S1x64x64_S64x64) t_v121
  ((fun l r => Host.dotGeneral dot_S4x50000x64_S64x64_S4x50000x64_2_0_01_1_n_n none l r) : (⟨S4x50000x64, .f32⟩ : BufTy).Contents (Elt F) → (⟨S64x64, .f32⟩ : BufTy).Contents (Elt F) → (⟨S4x50000x64, .f32⟩ : BufTy).Contents (Elt F)) v120 t_v122

/-- One propagation step at 64 features: rows of h gathered at the sources, each scaled by its edge's weight, scatter-added at the targets into zeros. Shared by `main_v141`, `main_v163`, `main_v185`, `main_v232`, `main_v254`, `main_v276`. -/
noncomputable def res_main_v141 (a1 : (⟨S400000, .i32⟩ : BufTy).Contents (Elt F)) (v120 : (⟨S4x50000x64, .f32⟩ : BufTy).Contents (Elt F)) (v29 : (⟨S400000, .f32⟩ : BufTy).Contents (Elt F)) (a2 : (⟨S400000, .i32⟩ : BufTy).Contents (Elt F)) :
    (⟨S4x50000x64, .f32⟩ : BufTy).Contents (Elt F) :=
  let t_c_28 : (⟨S_, .i32⟩ : BufTy).Contents (Elt F) := (constantI S_ 32 0#32)
  let t_v124 : (⟨S400000, .i32⟩ : BufTy).Contents (Elt F) := (broadcastInDim S400000 ![] bcast_S_S400000 : (⟨S_, .i32⟩ : BufTy).Contents (Elt F) → (⟨S400000, .i32⟩ : BufTy).Contents (Elt F)) t_c_28
  let t_v125 : (⟨S400000, .i1⟩ : BufTy).Contents (Elt F) := (cmpi .slt : (⟨S400000, .i32⟩ : BufTy).Contents (Elt F) → (⟨S400000, .i32⟩ : BufTy).Contents (Elt F) → (⟨S400000, .i1⟩ : BufTy).Contents (Elt F)) a1 t_v124
  let t_c_29 : (⟨S_, .i32⟩ : BufTy).Contents (Elt F) := (constantI S_ 32 50000#32)
  let t_v126 : (⟨S400000, .i32⟩ : BufTy).Contents (Elt F) := (broadcastInDim S400000 ![] bcast_S_S400000 : (⟨S_, .i32⟩ : BufTy).Contents (Elt F) → (⟨S400000, .i32⟩ : BufTy).Contents (Elt F)) t_c_29
  let t_v127 : (⟨S400000, .i32⟩ : BufTy).Contents (Elt F) := (addi : (⟨S400000, .i32⟩ : BufTy).Contents (Elt F) → (⟨S400000, .i32⟩ : BufTy).Contents (Elt F) → (⟨S400000, .i32⟩ : BufTy).Contents (Elt F)) a1 t_v126
  let t_v128 : (⟨S400000, .i32⟩ : BufTy).Contents (Elt F) := (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) t_v125 t_v127 a1
  let t_v129 : (⟨S400000x1, .i32⟩ : BufTy).Contents (Elt F) := (broadcastInDim S400000x1 ![0] bcast_S400000_S400000x1_0 : (⟨S400000, .i32⟩ : BufTy).Contents (Elt F) → (⟨S400000x1, .i32⟩ : BufTy).Contents (Elt F)) t_v128
  let t_v130 : (⟨S4x400000x64, .f32⟩ : BufTy).Contents (Elt F) := ((fun x i => Host.gather gather_S4x50000x64_S400000x1_S4x400000x64_02_1_n_n_1_1_4164 x i) : (⟨S4x50000x64, .f32⟩ : BufTy).Contents (Elt F) → (⟨S400000x1, .i32⟩ : BufTy).Contents (Elt F) → (⟨S4x400000x64, .f32⟩ : BufTy).Contents (Elt F)) v120 t_v129
  let t_v131 : (⟨S1x400000x1, .f32⟩ : BufTy).Contents (Elt F) := (broadcastInDim S1x400000x1 ![1] bcast_S400000_S1x400000x1_1 : (⟨S400000, .f32⟩ : BufTy).Contents (Elt F) → (⟨S1x400000x1, .f32⟩ : BufTy).Contents (Elt F)) v29
  let t_v132 : (⟨S4x400000x64, .f32⟩ : BufTy).Contents (Elt F) := (broadcastInDim S4x400000x64 ![0, 1, 2] bcast_S1x400000x1_S4x400000x64_0_1_2 : (⟨S1x400000x1, .f32⟩ : BufTy).Contents (Elt F) → (⟨S4x400000x64, .f32⟩ : BufTy).Contents (Elt F)) t_v131
  let t_v133 : (⟨S4x400000x64, .f32⟩ : BufTy).Contents (Elt F) := (mulf : (⟨S4x400000x64, .f32⟩ : BufTy).Contents (Elt F) → (⟨S4x400000x64, .f32⟩ : BufTy).Contents (Elt F) → (⟨S4x400000x64, .f32⟩ : BufTy).Contents (Elt F)) t_v130 t_v132
  let t_cst_30 : (⟨S_, .f32⟩ : BufTy).Contents (Elt F) := (constant S_ .f32 0x00000000#32)
  let t_v134 : (⟨S4x50000x64, .f32⟩ : BufTy).Contents (Elt F) := (broadcastInDim S4x50000x64 ![] bcast_S_S4x50000x64 : (⟨S_, .f32⟩ : BufTy).Contents (Elt F) → (⟨S4x50000x64, .f32⟩ : BufTy).Contents (Elt F)) t_cst_30
  let t_c_31 : (⟨S_, .i32⟩ : BufTy).Contents (Elt F) := (constantI S_ 32 0#32)
  let t_v135 : (⟨S400000, .i32⟩ : BufTy).Contents (Elt F) := (broadcastInDim S400000 ![] bcast_S_S400000 : (⟨S_, .i32⟩ : BufTy).Contents (Elt F) → (⟨S400000, .i32⟩ : BufTy).Contents (Elt F)) t_c_31
  let t_v136 : (⟨S400000, .i1⟩ : BufTy).Contents (Elt F) := (cmpi .slt : (⟨S400000, .i32⟩ : BufTy).Contents (Elt F) → (⟨S400000, .i32⟩ : BufTy).Contents (Elt F) → (⟨S400000, .i1⟩ : BufTy).Contents (Elt F)) a2 t_v135
  let t_c_32 : (⟨S_, .i32⟩ : BufTy).Contents (Elt F) := (constantI S_ 32 50000#32)
  let t_v137 : (⟨S400000, .i32⟩ : BufTy).Contents (Elt F) := (broadcastInDim S400000 ![] bcast_S_S400000 : (⟨S_, .i32⟩ : BufTy).Contents (Elt F) → (⟨S400000, .i32⟩ : BufTy).Contents (Elt F)) t_c_32
  let t_v138 : (⟨S400000, .i32⟩ : BufTy).Contents (Elt F) := (addi : (⟨S400000, .i32⟩ : BufTy).Contents (Elt F) → (⟨S400000, .i32⟩ : BufTy).Contents (Elt F) → (⟨S400000, .i32⟩ : BufTy).Contents (Elt F)) a2 t_v137
  let t_v139 : (⟨S400000, .i32⟩ : BufTy).Contents (Elt F) := (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) t_v136 t_v138 a2
  let t_v140 : (⟨S400000x1, .i32⟩ : BufTy).Contents (Elt F) := (broadcastInDim S400000x1 ![0] bcast_S400000_S400000x1_0 : (⟨S400000, .i32⟩ : BufTy).Contents (Elt F) → (⟨S400000x1, .i32⟩ : BufTy).Contents (Elt F)) t_v139
  ((fun x i u => Host.scatterAdd scatter_S4x50000x64_S400000x1_S4x400000x64_02_1_1_1 x i u) : (⟨S4x50000x64, .f32⟩ : BufTy).Contents (Elt F) → (⟨S400000x1, .i32⟩ : BufTy).Contents (Elt F) → (⟨S4x400000x64, .f32⟩ : BufTy).Contents (Elt F) → (⟨S4x50000x64, .f32⟩ : BufTy).Contents (Elt F)) t_v134 t_v140 t_v133

/-- The contents of `main_v145` from the contents of the buffers its stretch reads. -/
noncomputable def res_main_v145 (a6 : (⟨S4x64x64, .f32⟩ : BufTy).Contents (Elt F)) (v141 : (⟨S4x50000x64, .f32⟩ : BufTy).Contents (Elt F)) (v123 : (⟨S4x50000x64, .f32⟩ : BufTy).Contents (Elt F)) :
    (⟨S4x50000x64, .f32⟩ : BufTy).Contents (Elt F) :=
  let t_v142 : (⟨S1x64x64, .f32⟩ : BufTy).Contents (Elt F) := ((extractStridedSlice S1x64x64 ![1, 0, 0] · slices_S4x64x64_S1x64x64_1_0_0) : (⟨S4x64x64, .f32⟩ : BufTy).Contents (Elt F) → (⟨S1x64x64, .f32⟩ : BufTy).Contents (Elt F)) a6
  let t_v143 : (⟨S64x64, .f32⟩ : BufTy).Contents (Elt F) := (shapeCast _ · shapeCasts_S1x64x64_S64x64) t_v142
  let t_v144 : (⟨S4x50000x64, .f32⟩ : BufTy).Contents (Elt F) := ((fun l r => Host.dotGeneral dot_S4x50000x64_S64x64_S4x50000x64_2_0_01_1_n_n none l r) : (⟨S4x50000x64, .f32⟩ : BufTy).Contents (Elt F) → (⟨S64x64, .f32⟩ : BufTy).Contents (Elt F) → (⟨S4x50000x64, .f32⟩ : BufTy).Contents (Elt F)) v141 t_v143
  (addf : (⟨S4x50000x64, .f32⟩ : BufTy).Contents (Elt F) → (⟨S4x50000x64, .f32⟩ : BufTy).Contents (Elt F) → (⟨S4x50000x64, .f32⟩ : BufTy).Contents (Elt F)) v123 t_v144

/-- The contents of `main_v167` from the contents of the buffers its stretch reads. -/
noncomputable def res_main_v167 (a6 : (⟨S4x64x64, .f32⟩ : BufTy).Contents (Elt F)) (v163 : (⟨S4x50000x64, .f32⟩ : BufTy).Contents (Elt F)) (v145 : (⟨S4x50000x64, .f32⟩ : BufTy).Contents (Elt F)) :
    (⟨S4x50000x64, .f32⟩ : BufTy).Contents (Elt F) :=
  let t_v164 : (⟨S1x64x64, .f32⟩ : BufTy).Contents (Elt F) := ((extractStridedSlice S1x64x64 ![2, 0, 0] · slices_S4x64x64_S1x64x64_2_0_0) : (⟨S4x64x64, .f32⟩ : BufTy).Contents (Elt F) → (⟨S1x64x64, .f32⟩ : BufTy).Contents (Elt F)) a6
  let t_v165 : (⟨S64x64, .f32⟩ : BufTy).Contents (Elt F) := (shapeCast _ · shapeCasts_S1x64x64_S64x64) t_v164
  let t_v166 : (⟨S4x50000x64, .f32⟩ : BufTy).Contents (Elt F) := ((fun l r => Host.dotGeneral dot_S4x50000x64_S64x64_S4x50000x64_2_0_01_1_n_n none l r) : (⟨S4x50000x64, .f32⟩ : BufTy).Contents (Elt F) → (⟨S64x64, .f32⟩ : BufTy).Contents (Elt F) → (⟨S4x50000x64, .f32⟩ : BufTy).Contents (Elt F)) v163 t_v165
  (addf : (⟨S4x50000x64, .f32⟩ : BufTy).Contents (Elt F) → (⟨S4x50000x64, .f32⟩ : BufTy).Contents (Elt F) → (⟨S4x50000x64, .f32⟩ : BufTy).Contents (Elt F)) v145 t_v166

/-- The contents of `main_v192` from the contents of the buffers its stretch reads. -/
noncomputable def res_main_v192 (a6 : (⟨S4x64x64, .f32⟩ : BufTy).Contents (Elt F)) (v185 : (⟨S4x50000x64, .f32⟩ : BufTy).Contents (Elt F)) (v167 : (⟨S4x50000x64, .f32⟩ : BufTy).Contents (Elt F)) (a7 : (⟨S64, .f32⟩ : BufTy).Contents (Elt F)) :
    (⟨S4x50000x64, .f32⟩ : BufTy).Contents (Elt F) :=
  let t_v186 : (⟨S1x64x64, .f32⟩ : BufTy).Contents (Elt F) := ((extractStridedSlice S1x64x64 ![3, 0, 0] · slices_S4x64x64_S1x64x64_3_0_0) : (⟨S4x64x64, .f32⟩ : BufTy).Contents (Elt F) → (⟨S1x64x64, .f32⟩ : BufTy).Contents (Elt F)) a6
  let t_v187 : (⟨S64x64, .f32⟩ : BufTy).Contents (Elt F) := (shapeCast _ · shapeCasts_S1x64x64_S64x64) t_v186
  let t_v188 : (⟨S4x50000x64, .f32⟩ : BufTy).Contents (Elt F) := ((fun l r => Host.dotGeneral dot_S4x50000x64_S64x64_S4x50000x64_2_0_01_1_n_n none l r) : (⟨S4x50000x64, .f32⟩ : BufTy).Contents (Elt F) → (⟨S64x64, .f32⟩ : BufTy).Contents (Elt F) → (⟨S4x50000x64, .f32⟩ : BufTy).Contents (Elt F)) v185 t_v187
  let t_v189 : (⟨S4x50000x64, .f32⟩ : BufTy).Contents (Elt F) := (addf : (⟨S4x50000x64, .f32⟩ : BufTy).Contents (Elt F) → (⟨S4x50000x64, .f32⟩ : BufTy).Contents (Elt F) → (⟨S4x50000x64, .f32⟩ : BufTy).Contents (Elt F)) v167 t_v188
  let t_v190 : (⟨S1x1x64, .f32⟩ : BufTy).Contents (Elt F) := (broadcastInDim S1x1x64 ![2] bcast_S64_S1x1x64_2 : (⟨S64, .f32⟩ : BufTy).Contents (Elt F) → (⟨S1x1x64, .f32⟩ : BufTy).Contents (Elt F)) a7
  let t_v191 : (⟨S4x50000x64, .f32⟩ : BufTy).Contents (Elt F) := (broadcastInDim S4x50000x64 ![0, 1, 2] bcast_S1x1x64_S4x50000x64_0_1_2 : (⟨S1x1x64, .f32⟩ : BufTy).Contents (Elt F) → (⟨S4x50000x64, .f32⟩ : BufTy).Contents (Elt F)) t_v190
  (addf : (⟨S4x50000x64, .f32⟩ : BufTy).Contents (Elt F) → (⟨S4x50000x64, .f32⟩ : BufTy).Contents (Elt F) → (⟨S4x50000x64, .f32⟩ : BufTy).Contents (Elt F)) t_v189 t_v191

/-- The contents of `main_v214` from the contents of the buffers its stretch reads. -/
noncomputable def res_main_v214 (a8 : (⟨S4x64x2, .f32⟩ : BufTy).Contents (Elt F)) (v211 : (⟨S4x50000x64, .f32⟩ : BufTy).Contents (Elt F)) :
    (⟨S4x50000x2, .f32⟩ : BufTy).Contents (Elt F) :=
  let t_v212 : (⟨S1x64x2, .f32⟩ : BufTy).Contents (Elt F) := ((extractStridedSlice S1x64x2 ![0, 0, 0] · slices_S4x64x2_S1x64x2_0_0_0) : (⟨S4x64x2, .f32⟩ : BufTy).Contents (Elt F) → (⟨S1x64x2, .f32⟩ : BufTy).Contents (Elt F)) a8
  let t_v213 : (⟨S64x2, .f32⟩ : BufTy).Contents (Elt F) := (shapeCast _ · shapeCasts_S1x64x2_S64x2) t_v212
  ((fun l r => Host.dotGeneral dot_S4x50000x64_S64x2_S4x50000x2_2_0_01_1_n_n none l r) : (⟨S4x50000x64, .f32⟩ : BufTy).Contents (Elt F) → (⟨S64x2, .f32⟩ : BufTy).Contents (Elt F) → (⟨S4x50000x2, .f32⟩ : BufTy).Contents (Elt F)) v211 t_v213

/-- The contents of `main_v236` from the contents of the buffers its stretch reads. -/
noncomputable def res_main_v236 (a8 : (⟨S4x64x2, .f32⟩ : BufTy).Contents (Elt F)) (v232 : (⟨S4x50000x64, .f32⟩ : BufTy).Contents (Elt F)) (v214 : (⟨S4x50000x2, .f32⟩ : BufTy).Contents (Elt F)) :
    (⟨S4x50000x2, .f32⟩ : BufTy).Contents (Elt F) :=
  let t_v233 : (⟨S1x64x2, .f32⟩ : BufTy).Contents (Elt F) := ((extractStridedSlice S1x64x2 ![1, 0, 0] · slices_S4x64x2_S1x64x2_1_0_0) : (⟨S4x64x2, .f32⟩ : BufTy).Contents (Elt F) → (⟨S1x64x2, .f32⟩ : BufTy).Contents (Elt F)) a8
  let t_v234 : (⟨S64x2, .f32⟩ : BufTy).Contents (Elt F) := (shapeCast _ · shapeCasts_S1x64x2_S64x2) t_v233
  let t_v235 : (⟨S4x50000x2, .f32⟩ : BufTy).Contents (Elt F) := ((fun l r => Host.dotGeneral dot_S4x50000x64_S64x2_S4x50000x2_2_0_01_1_n_n none l r) : (⟨S4x50000x64, .f32⟩ : BufTy).Contents (Elt F) → (⟨S64x2, .f32⟩ : BufTy).Contents (Elt F) → (⟨S4x50000x2, .f32⟩ : BufTy).Contents (Elt F)) v232 t_v234
  (addf : (⟨S4x50000x2, .f32⟩ : BufTy).Contents (Elt F) → (⟨S4x50000x2, .f32⟩ : BufTy).Contents (Elt F) → (⟨S4x50000x2, .f32⟩ : BufTy).Contents (Elt F)) v214 t_v235

/-- The contents of `main_v258` from the contents of the buffers its stretch reads. -/
noncomputable def res_main_v258 (a8 : (⟨S4x64x2, .f32⟩ : BufTy).Contents (Elt F)) (v254 : (⟨S4x50000x64, .f32⟩ : BufTy).Contents (Elt F)) (v236 : (⟨S4x50000x2, .f32⟩ : BufTy).Contents (Elt F)) :
    (⟨S4x50000x2, .f32⟩ : BufTy).Contents (Elt F) :=
  let t_v255 : (⟨S1x64x2, .f32⟩ : BufTy).Contents (Elt F) := ((extractStridedSlice S1x64x2 ![2, 0, 0] · slices_S4x64x2_S1x64x2_2_0_0) : (⟨S4x64x2, .f32⟩ : BufTy).Contents (Elt F) → (⟨S1x64x2, .f32⟩ : BufTy).Contents (Elt F)) a8
  let t_v256 : (⟨S64x2, .f32⟩ : BufTy).Contents (Elt F) := (shapeCast _ · shapeCasts_S1x64x2_S64x2) t_v255
  let t_v257 : (⟨S4x50000x2, .f32⟩ : BufTy).Contents (Elt F) := ((fun l r => Host.dotGeneral dot_S4x50000x64_S64x2_S4x50000x2_2_0_01_1_n_n none l r) : (⟨S4x50000x64, .f32⟩ : BufTy).Contents (Elt F) → (⟨S64x2, .f32⟩ : BufTy).Contents (Elt F) → (⟨S4x50000x2, .f32⟩ : BufTy).Contents (Elt F)) v254 t_v256
  (addf : (⟨S4x50000x2, .f32⟩ : BufTy).Contents (Elt F) → (⟨S4x50000x2, .f32⟩ : BufTy).Contents (Elt F) → (⟨S4x50000x2, .f32⟩ : BufTy).Contents (Elt F)) v236 t_v257

/-- The contents of `main_v283` from the contents of the buffers its stretch reads. -/
noncomputable def res_main_v283 (a8 : (⟨S4x64x2, .f32⟩ : BufTy).Contents (Elt F)) (v276 : (⟨S4x50000x64, .f32⟩ : BufTy).Contents (Elt F)) (v258 : (⟨S4x50000x2, .f32⟩ : BufTy).Contents (Elt F)) (a9 : (⟨S2, .f32⟩ : BufTy).Contents (Elt F)) :
    (⟨S4x50000x2, .f32⟩ : BufTy).Contents (Elt F) :=
  let t_v277 : (⟨S1x64x2, .f32⟩ : BufTy).Contents (Elt F) := ((extractStridedSlice S1x64x2 ![3, 0, 0] · slices_S4x64x2_S1x64x2_3_0_0) : (⟨S4x64x2, .f32⟩ : BufTy).Contents (Elt F) → (⟨S1x64x2, .f32⟩ : BufTy).Contents (Elt F)) a8
  let t_v278 : (⟨S64x2, .f32⟩ : BufTy).Contents (Elt F) := (shapeCast _ · shapeCasts_S1x64x2_S64x2) t_v277
  let t_v279 : (⟨S4x50000x2, .f32⟩ : BufTy).Contents (Elt F) := ((fun l r => Host.dotGeneral dot_S4x50000x64_S64x2_S4x50000x2_2_0_01_1_n_n none l r) : (⟨S4x50000x64, .f32⟩ : BufTy).Contents (Elt F) → (⟨S64x2, .f32⟩ : BufTy).Contents (Elt F) → (⟨S4x50000x2, .f32⟩ : BufTy).Contents (Elt F)) v276 t_v278
  let t_v280 : (⟨S4x50000x2, .f32⟩ : BufTy).Contents (Elt F) := (addf : (⟨S4x50000x2, .f32⟩ : BufTy).Contents (Elt F) → (⟨S4x50000x2, .f32⟩ : BufTy).Contents (Elt F) → (⟨S4x50000x2, .f32⟩ : BufTy).Contents (Elt F)) v258 t_v279
  let t_v281 : (⟨S1x1x2, .f32⟩ : BufTy).Contents (Elt F) := (broadcastInDim S1x1x2 ![2] bcast_S2_S1x1x2_2 : (⟨S2, .f32⟩ : BufTy).Contents (Elt F) → (⟨S1x1x2, .f32⟩ : BufTy).Contents (Elt F)) a9
  let t_v282 : (⟨S4x50000x2, .f32⟩ : BufTy).Contents (Elt F) := (broadcastInDim S4x50000x2 ![0, 1, 2] bcast_S1x1x2_S4x50000x2_0_1_2 : (⟨S1x1x2, .f32⟩ : BufTy).Contents (Elt F) → (⟨S4x50000x2, .f32⟩ : BufTy).Contents (Elt F)) t_v281
  (addf : (⟨S4x50000x2, .f32⟩ : BufTy).Contents (Elt F) → (⟨S4x50000x2, .f32⟩ : BufTy).Contents (Elt F) → (⟨S4x50000x2, .f32⟩ : BufTy).Contents (Elt F)) t_v280 t_v282

/-- The standard deviations with the infinite ones replaced by 0. -/
noncomputable def res_main_v285 (a16 : (⟨S50000x2, .f32⟩ : BufTy).Contents (Elt F)) :
    (⟨S50000x2, .f32⟩ : BufTy).Contents (Elt F) :=
  let t_call5_v0 : (⟨S50000x2, .f32⟩ : BufTy).Contents (Elt F) := Host.absf a16
  let t_call5_cst : (⟨S_, .f32⟩ : BufTy).Contents (Elt F) := (constant S_ .f32 0x7F800000#32)
  let t_call5_v1 : (⟨S50000x2, .f32⟩ : BufTy).Contents (Elt F) := (broadcastInDim S50000x2 ![] bcast_S_S50000x2) t_call5_cst
  let t_v284 : (⟨S50000x2, .i1⟩ : BufTy).Contents (Elt F) := (cmpf .oeq) t_call5_v0 t_call5_v1
  let t_cst_63 : (⟨S_, .f32⟩ : BufTy).Contents (Elt F) := (constant S_ .f32 0x00000000#32)
  let t_call6_v0 : (⟨S_, .f32⟩ : BufTy).Contents (Elt F) := id t_cst_63
  let t_call6_v1 : (⟨S50000x2, .f32⟩ : BufTy).Contents (Elt F) := (broadcastInDim S50000x2 ![] bcast_S_S50000x2) t_call6_v0
  select t_v284 t_call6_v1 a16

/-- (out times std plus mean) times mask, std, mean and mask broadcast over the batch. -/
noncomputable def res_main_v294 (v285 : (⟨S50000x2, .f32⟩ : BufTy).Contents (Elt F)) (v283 : (⟨S4x50000x2, .f32⟩ : BufTy).Contents (Elt F)) (a15 : (⟨S50000x2, .f32⟩ : BufTy).Contents (Elt F)) (a14 : (⟨S50000x2, .f32⟩ : BufTy).Contents (Elt F)) :
    (⟨S4x50000x2, .f32⟩ : BufTy).Contents (Elt F) :=
  let t_v286 : (⟨S1x50000x2, .f32⟩ : BufTy).Contents (Elt F) := (broadcastInDim S1x50000x2 ![1, 2] bcast_S50000x2_S1x50000x2_1_2 : (⟨S50000x2, .f32⟩ : BufTy).Contents (Elt F) → (⟨S1x50000x2, .f32⟩ : BufTy).Contents (Elt F)) v285
  let t_v287 : (⟨S4x50000x2, .f32⟩ : BufTy).Contents (Elt F) := (broadcastInDim S4x50000x2 ![0, 1, 2] bcast_S1x50000x2_S4x50000x2_0_1_2 : (⟨S1x50000x2, .f32⟩ : BufTy).Contents (Elt F) → (⟨S4x50000x2, .f32⟩ : BufTy).Contents (Elt F)) t_v286
  let t_v288 : (⟨S4x50000x2, .f32⟩ : BufTy).Contents (Elt F) := (mulf : (⟨S4x50000x2, .f32⟩ : BufTy).Contents (Elt F) → (⟨S4x50000x2, .f32⟩ : BufTy).Contents (Elt F) → (⟨S4x50000x2, .f32⟩ : BufTy).Contents (Elt F)) v283 t_v287
  let t_v289 : (⟨S1x50000x2, .f32⟩ : BufTy).Contents (Elt F) := (broadcastInDim S1x50000x2 ![1, 2] bcast_S50000x2_S1x50000x2_1_2 : (⟨S50000x2, .f32⟩ : BufTy).Contents (Elt F) → (⟨S1x50000x2, .f32⟩ : BufTy).Contents (Elt F)) a15
  let t_v290 : (⟨S4x50000x2, .f32⟩ : BufTy).Contents (Elt F) := (broadcastInDim S4x50000x2 ![0, 1, 2] bcast_S1x50000x2_S4x50000x2_0_1_2 : (⟨S1x50000x2, .f32⟩ : BufTy).Contents (Elt F) → (⟨S4x50000x2, .f32⟩ : BufTy).Contents (Elt F)) t_v289
  let t_v291 : (⟨S4x50000x2, .f32⟩ : BufTy).Contents (Elt F) := (addf : (⟨S4x50000x2, .f32⟩ : BufTy).Contents (Elt F) → (⟨S4x50000x2, .f32⟩ : BufTy).Contents (Elt F) → (⟨S4x50000x2, .f32⟩ : BufTy).Contents (Elt F)) t_v288 t_v290
  let t_v292 : (⟨S1x50000x2, .f32⟩ : BufTy).Contents (Elt F) := (broadcastInDim S1x50000x2 ![1, 2] bcast_S50000x2_S1x50000x2_1_2 : (⟨S50000x2, .f32⟩ : BufTy).Contents (Elt F) → (⟨S1x50000x2, .f32⟩ : BufTy).Contents (Elt F)) a14
  let t_v293 : (⟨S4x50000x2, .f32⟩ : BufTy).Contents (Elt F) := (broadcastInDim S4x50000x2 ![0, 1, 2] bcast_S1x50000x2_S4x50000x2_0_1_2 : (⟨S1x50000x2, .f32⟩ : BufTy).Contents (Elt F) → (⟨S4x50000x2, .f32⟩ : BufTy).Contents (Elt F)) t_v292
  (mulf : (⟨S4x50000x2, .f32⟩ : BufTy).Contents (Elt F) → (⟨S4x50000x2, .f32⟩ : BufTy).Contents (Elt F) → (⟨S4x50000x2, .f32⟩ : BufTy).Contents (Elt F)) t_v291 t_v293

/-- Channel 0 clipped between vmin and vmax, channel 1 between qmin and qmax, per node; the two channels side by side. -/
noncomputable def res_main_v303 (v294 : (⟨S4x50000x2, .f32⟩ : BufTy).Contents (Elt F)) (a17 : (⟨S50000, .f32⟩ : BufTy).Contents (Elt F)) (a18 : (⟨S50000, .f32⟩ : BufTy).Contents (Elt F)) (a19 : (⟨S50000, .f32⟩ : BufTy).Contents (Elt F)) (a20 : (⟨S50000, .f32⟩ : BufTy).Contents (Elt F)) :
    (⟨S4x50000x2, .f32⟩ : BufTy).Contents (Elt F) :=
  let t_v295 : (⟨S4x50000x1, .f32⟩ : BufTy).Contents (Elt F) := ((extractStridedSlice S4x50000x1 ![0, 0, 0] · slices_S4x50000x2_S4x50000x1_0_0_0) : (⟨S4x50000x2, .f32⟩ : BufTy).Contents (Elt F) → (⟨S4x50000x1, .f32⟩ : BufTy).Contents (Elt F)) v294
  let t_v296 : (⟨S4x50000, .f32⟩ : BufTy).Contents (Elt F) := (shapeCast _ · shapeCasts_S4x50000x1_S4x50000) t_v295
  let t_call7_v0 : (⟨S1x50000, .f32⟩ : BufTy).Contents (Elt F) := (broadcastInDim S1x50000 ![1] bcast_S50000_S1x50000_1) a17
  let t_call7_v1 : (⟨S4x50000, .f32⟩ : BufTy).Contents (Elt F) := (broadcastInDim S4x50000 ![0, 1] bcast_S1x50000_S4x50000_0_1) t_call7_v0
  let t_call7_v2 : (⟨S4x50000, .f32⟩ : BufTy).Contents (Elt F) := maximumf t_call7_v1 t_v296
  let t_call7_v3 : (⟨S1x50000, .f32⟩ : BufTy).Contents (Elt F) := (broadcastInDim S1x50000 ![1] bcast_S50000_S1x50000_1) a18
  let t_call7_v4 : (⟨S4x50000, .f32⟩ : BufTy).Contents (Elt F) := (broadcastInDim S4x50000 ![0, 1] bcast_S1x50000_S4x50000_0_1) t_call7_v3
  let t_v297 : (⟨S4x50000, .f32⟩ : BufTy).Contents (Elt F) := minimumf t_call7_v4 t_call7_v2
  let t_v298 : (⟨S4x50000x1, .f32⟩ : BufTy).Contents (Elt F) := ((extractStridedSlice S4x50000x1 ![0, 0, 1] · slices_S4x50000x2_S4x50000x1_0_0_1) : (⟨S4x50000x2, .f32⟩ : BufTy).Contents (Elt F) → (⟨S4x50000x1, .f32⟩ : BufTy).Contents (Elt F)) v294
  let t_v299 : (⟨S4x50000, .f32⟩ : BufTy).Contents (Elt F) := (shapeCast _ · shapeCasts_S4x50000x1_S4x50000) t_v298
  let t_call8_v0 : (⟨S1x50000, .f32⟩ : BufTy).Contents (Elt F) := (broadcastInDim S1x50000 ![1] bcast_S50000_S1x50000_1) a19
  let t_call8_v1 : (⟨S4x50000, .f32⟩ : BufTy).Contents (Elt F) := (broadcastInDim S4x50000 ![0, 1] bcast_S1x50000_S4x50000_0_1) t_call8_v0
  let t_call8_v2 : (⟨S4x50000, .f32⟩ : BufTy).Contents (Elt F) := maximumf t_call8_v1 t_v299
  let t_call8_v3 : (⟨S1x50000, .f32⟩ : BufTy).Contents (Elt F) := (broadcastInDim S1x50000 ![1] bcast_S50000_S1x50000_1) a20
  let t_call8_v4 : (⟨S4x50000, .f32⟩ : BufTy).Contents (Elt F) := (broadcastInDim S4x50000 ![0, 1] bcast_S1x50000_S4x50000_0_1) t_call8_v3
  let t_v300 : (⟨S4x50000, .f32⟩ : BufTy).Contents (Elt F) := minimumf t_call8_v4 t_call8_v2
  let t_v301 : (⟨S4x50000x1, .f32⟩ : BufTy).Contents (Elt F) := (broadcastInDim S4x50000x1 ![0, 1] bcast_S4x50000_S4x50000x1_0_1 : (⟨S4x50000, .f32⟩ : BufTy).Contents (Elt F) → (⟨S4x50000x1, .f32⟩ : BufTy).Contents (Elt F)) t_v297
  let t_v302 : (⟨S4x50000x1, .f32⟩ : BufTy).Contents (Elt F) := (broadcastInDim S4x50000x1 ![0, 1] bcast_S4x50000_S4x50000x1_0_1 : (⟨S4x50000, .f32⟩ : BufTy).Contents (Elt F) → (⟨S4x50000x1, .f32⟩ : BufTy).Contents (Elt F)) t_v300
  ((fun a b => concatenate S4x50000x2 2 [⟨S4x50000x1, a⟩, ⟨S4x50000x1, b⟩] concatenates_S4x50000x1_S4x50000x1_S4x50000x2_d2) : (⟨S4x50000x1, .f32⟩ : BufTy).Contents (Elt F) → (⟨S4x50000x1, .f32⟩ : BufTy).Contents (Elt F) → (⟨S4x50000x2, .f32⟩ : BufTy).Contents (Elt F)) t_v301 t_v302

end Cert.ReferenceIdeal.RefRun

end
-- ==== Proof.KIdeal.Host0S0.lean ====
/- Cut 0 of the kernel program's host stretch hostOps0…: run from any contents it leaves its named buffer at the cut's
   function of what it reads — the reference program's own function where the operations are the same chain. -/
import proofs.«159603_j71347996721325_2_alg».proof.Proof.KIdeal.Host0Ops
import proofs.«159603_j71347996721325_2_alg».proof.Proof.KIdeal.HostFns
import proofs.«159603_j71347996721325_2_alg».proof.Proof.RefFns

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

set_option maxRecDepth 65536 in
set_option maxHeartbeats 4000000 in
theorem h0_sg0_main_v7 (W : Valuation τ sig (Elt F)) :
    after h0_sg0 W (Proc.devRef .tc main_v7) = Cert.ReferenceIdeal.RefRun.res_main_v7 (W (Proc.devRef .tc main_arg2)) (W (Proc.devRef .tc main_arg3)) := by
  simp only [h0_sg0, h0_p0, StableHlo.after_append]
  after_results_simp
  rfl

end Cert.KernelIdeal.Hand

end
-- ==== Proof.KIdeal.Host0S1.lean ====
/- Cut 1 of the kernel program's host stretch hostOps0…: run from any contents it leaves its named buffer at the cut's
   function of what it reads — the reference program's own function where the operations are the same chain. -/
import proofs.«159603_j71347996721325_2_alg».proof.Proof.KIdeal.Host0Ops
import proofs.«159603_j71347996721325_2_alg».proof.Proof.KIdeal.HostFns
import proofs.«159603_j71347996721325_2_alg».proof.Proof.RefFns

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

set_option maxRecDepth 65536 in
set_option maxHeartbeats 4000000 in
theorem h0_sg1_main_v13 (W : Valuation τ sig (Elt F)) :
    after h0_sg1 W (Proc.devRef .tc main_v13) = Cert.ReferenceIdeal.RefRun.res_main_v13 (W (Proc.devRef .tc main_v7)) := by
  simp only [h0_sg1, h0_p1, h0_p2, StableHlo.after_append]
  after_results_simp
  rfl

end Cert.KernelIdeal.Hand

end
-- ==== Proof.KIdeal.Host0S2.lean ====
/- Cut 2 of the kernel program's host stretch hostOps0…: run from any contents it leaves its named buffer at the cut's
   function of what it reads — the reference program's own function where the operations are the same chain. -/
import proofs.«159603_j71347996721325_2_alg».proof.Proof.KIdeal.Host0Ops
import proofs.«159603_j71347996721325_2_alg».proof.Proof.KIdeal.HostFns
import proofs.«159603_j71347996721325_2_alg».proof.Proof.RefFns

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

set_option maxRecDepth 65536 in
set_option maxHeartbeats 4000000 in
theorem h0_sg2_main_v29 (W : Valuation τ sig (Elt F)) :
    after h0_sg2 W (Proc.devRef .tc main_v29) = Cert.ReferenceIdeal.RefRun.res_main_v29 (W (Proc.devRef .tc main_arg1)) (W (Proc.devRef .tc main_v13)) (W (Proc.devRef .tc main_arg3)) (W (Proc.devRef .tc main_arg2)) := by
  simp only [h0_sg2, h0_p3, StableHlo.after_append]
  after_results_simp
  rfl

end Cert.KernelIdeal.Hand

end
-- ==== Proof.KIdeal.Host0S3.lean ====
/- Cut 3 of the kernel program's host stretch hostOps0…: run from any contents it leaves its named buffer at the cut's
   function of what it reads — the reference program's own function where the operations are the same chain. -/
import proofs.«159603_j71347996721325_2_alg».proof.Proof.KIdeal.Host0Ops
import proofs.«159603_j71347996721325_2_alg».proof.Proof.KIdeal.HostFns
import proofs.«159603_j71347996721325_2_alg».proof.Proof.RefFns

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

set_option maxRecDepth 65536 in
set_option maxHeartbeats 4000000 in
theorem h0_sg3_main_v30 (W : Valuation τ sig (Elt F)) :
    after h0_sg3 W (Proc.devRef .tc main_v30) = kresh_w1 (W (Proc.devRef .tc main_arg4)) := by
  simp only [h0_sg3, h0_p4, StableHlo.after_append]
  after_results_simp
  rfl

end Cert.KernelIdeal.Hand

end
-- ==== Proof.KIdeal.Host0S4.lean ====
/- Cut 4 of the kernel program's host stretch hostOps0…: run from any contents it leaves its named buffer at the cut's
   function of what it reads — the reference program's own function where the operations are the same chain. -/
import proofs.«159603_j71347996721325_2_alg».proof.Proof.KIdeal.Host0Ops
import proofs.«159603_j71347996721325_2_alg».proof.Proof.KIdeal.HostFns
import proofs.«159603_j71347996721325_2_alg».proof.Proof.RefFns

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

set_option maxRecDepth 65536 in
set_option maxHeartbeats 4000000 in
theorem h0_sg4_main_v48 (W : Valuation τ sig (Elt F)) :
    after h0_sg4 W (Proc.devRef .tc main_v48) = Cert.ReferenceIdeal.RefRun.res_main_v50 (W (Proc.devRef .tc main_arg1)) (W (Proc.devRef .tc main_arg0)) (W (Proc.devRef .tc main_v29)) (W (Proc.devRef .tc main_arg2)) := by
  simp only [h0_sg4, h0_p5, StableHlo.after_append]
  after_results_simp
  rfl

end Cert.KernelIdeal.Hand

end
-- ==== Proof.KIdeal.Host0S5.lean ====
/- Cut 5 of the kernel program's host stretch hostOps0…: run from any contents it leaves its named buffer at the cut's
   function of what it reads — the reference program's own function where the operations are the same chain. -/
import proofs.«159603_j71347996721325_2_alg».proof.Proof.KIdeal.Host0Ops
import proofs.«159603_j71347996721325_2_alg».proof.Proof.KIdeal.HostFns
import proofs.«159603_j71347996721325_2_alg».proof.Proof.RefFns

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

set_option maxRecDepth 65536 in
set_option maxHeartbeats 4000000 in
theorem h0_sg5_main_v66 (W : Valuation τ sig (Elt F)) :
    after h0_sg5 W (Proc.devRef .tc main_v66) = Cert.ReferenceIdeal.RefRun.res_main_v50 (W (Proc.devRef .tc main_arg1)) (W (Proc.devRef .tc main_v48)) (W (Proc.devRef .tc main_v29)) (W (Proc.devRef .tc main_arg2)) := by
  simp only [h0_sg5, h0_p6, StableHlo.after_append]
  after_results_simp
  rfl

end Cert.KernelIdeal.Hand

end
-- ==== Proof.KIdeal.Host0S6.lean ====
/- Cut 6 of the kernel program's host stretch hostOps0…: run from any contents it leaves its named buffer at the cut's
   function of what it reads — the reference program's own function where the operations are the same chain. -/
import proofs.«159603_j71347996721325_2_alg».proof.Proof.KIdeal.Host0Ops
import proofs.«159603_j71347996721325_2_alg».proof.Proof.KIdeal.HostFns
import proofs.«159603_j71347996721325_2_alg».proof.Proof.RefFns

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

set_option maxRecDepth 65536 in
set_option maxHeartbeats 4000000 in
theorem h0_sg6_main_v84 (W : Valuation τ sig (Elt F)) :
    after h0_sg6 W (Proc.devRef .tc main_v84) = Cert.ReferenceIdeal.RefRun.res_main_v50 (W (Proc.devRef .tc main_arg1)) (W (Proc.devRef .tc main_v66)) (W (Proc.devRef .tc main_v29)) (W (Proc.devRef .tc main_arg2)) := by
  simp only [h0_sg6, h0_p7, StableHlo.after_append]
  after_results_simp
  rfl

end Cert.KernelIdeal.Hand

end
-- ==== Proof.KIdeal.Host0S7.lean ====
/- Cut 7 of the kernel program's host stretch hostOps0…: run from any contents it leaves its named buffer at the cut's
   function of what it reads — the reference program's own function where the operations are the same chain. -/
import proofs.«159603_j71347996721325_2_alg».proof.Proof.KIdeal.Host0Ops
import proofs.«159603_j71347996721325_2_alg».proof.Proof.KIdeal.HostFns
import proofs.«159603_j71347996721325_2_alg».proof.Proof.RefFns

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

set_option maxRecDepth 65536 in
set_option maxHeartbeats 4000000 in
theorem h0_sg7_main_v85 (W : Valuation τ sig (Elt F)) :
    after h0_sg7 W (Proc.devRef .tc main_v85) = kcat4 (W (Proc.devRef .tc main_arg0)) (W (Proc.devRef .tc main_v48)) (W (Proc.devRef .tc main_v66)) (W (Proc.devRef .tc main_v84)) := by
  simp only [h0_sg7, h0_p8, StableHlo.after_append]
  after_results_simp
  rfl

end Cert.KernelIdeal.Hand

end
-- ==== Proof.KIdeal.Host0S8.lean ====
/- Cut 8 of the kernel program's host stretch hostOps0…: run from any contents it leaves its named buffer at the cut's
   function of what it reads — the reference program's own function where the operations are the same chain. -/
import proofs.«159603_j71347996721325_2_alg».proof.Proof.KIdeal.Host0Ops
import proofs.«159603_j71347996721325_2_alg».proof.Proof.KIdeal.HostFns
import proofs.«159603_j71347996721325_2_alg».proof.Proof.RefFns

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

set_option maxRecDepth 65536 in
set_option maxHeartbeats 4000000 in
theorem h0_sg8_main_v86 (W : Valuation τ sig (Elt F)) :
    after h0_sg8 W (Proc.devRef .tc main_v86) = kresh_row64 (W (Proc.devRef .tc main_arg5)) := by
  simp only [h0_sg8, h0_p9, StableHlo.after_append]
  after_results_simp
  rfl

end Cert.KernelIdeal.Hand

end
-- ==== Proof.KIdeal.Host0S9.lean ====
/- Cut 9 of the kernel program's host stretch hostOps0…: run from any contents it leaves its named buffer at the cut's
   function of what it reads — the reference program's own function where the operations are the same chain. -/
import proofs.«159603_j71347996721325_2_alg».proof.Proof.KIdeal.Host0Ops
import proofs.«159603_j71347996721325_2_alg».proof.Proof.KIdeal.HostFns
import proofs.«159603_j71347996721325_2_alg».proof.Proof.RefFns

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

set_option maxRecDepth 65536 in
set_option maxHeartbeats 4000000 in
theorem h0_sg9_main_v87 (W : Valuation τ sig (Elt F)) :
    after h0_sg9 W (Proc.devRef .tc main_v87) = kresh_col (W (Proc.devRef .tc main_arg10)) := by
  simp only [h0_sg9, h0_p10, StableHlo.after_append]
  after_results_simp
  rfl

end Cert.KernelIdeal.Hand

end
-- ==== Proof.KIdeal.Host0S10.lean ====
/- Cut 10 of the kernel program's host stretch hostOps0…: run from any contents it leaves its named buffer at the cut's
   function of what it reads — the reference program's own function where the operations are the same chain. -/
import proofs.«159603_j71347996721325_2_alg».proof.Proof.KIdeal.Host0Ops
import proofs.«159603_j71347996721325_2_alg».proof.Proof.KIdeal.HostFns
import proofs.«159603_j71347996721325_2_alg».proof.Proof.RefFns

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

set_option maxRecDepth 65536 in
set_option maxHeartbeats 4000000 in
theorem h0_sg10_main_v88 (W : Valuation τ sig (Elt F)) :
    after h0_sg10 W (Proc.devRef .tc main_v88) = kresh_col (W (Proc.devRef .tc main_arg11)) := by
  simp only [h0_sg10, h0_p11, StableHlo.after_append]
  after_results_simp
  rfl

end Cert.KernelIdeal.Hand

end
-- ==== Proof.RefComp.lean ====
/- The longer functions the reference program's run is read back over: compositions of the stretches' functions — the
   normalised edge weights from the arguments, each layer's sum from its four propagated inputs, a hidden layer's output
   from its sum, the result from the last layer's sum. -/
import proofs.«159603_j71347996721325_2_alg».proof.Proof.RefFns

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The normalised edge weights from the sources, the targets and the edge weights: the degree, its inverse square root where positive, and the product along each edge. -/
noncomputable def ref_w (a1 : (⟨S400000, .i32⟩ : BufTy).Contents (Elt F)) (a2 : (⟨S400000, .i32⟩ : BufTy).Contents (Elt F)) (a3 : (⟨S400000, .f32⟩ : BufTy).Contents (Elt F)) :
    (⟨S400000, .f32⟩ : BufTy).Contents (Elt F) :=
  res_main_v29 a1 (res_main_v13 (res_main_v7 a2 a3)) a3 a2

/-- Layer 1 before normalisation: the sum over i of the i-th propagated input contracted with slice i of the weights, plus the bias. -/
noncomputable def ref_out1 (a0 : (⟨S4x50000x4, .f32⟩ : BufTy).Contents (Elt F)) (v50 : (⟨S4x50000x4, .f32⟩ : BufTy).Contents (Elt F)) (v72 : (⟨S4x50000x4, .f32⟩ : BufTy).Contents (Elt F)) (v94 : (⟨S4x50000x4, .f32⟩ : BufTy).Contents (Elt F)) (a4 : (⟨S4x4x64, .f32⟩ : BufTy).Contents (Elt F)) (a5 : (⟨S64, .f32⟩ : BufTy).Contents (Elt F)) :
    (⟨S4x50000x64, .f32⟩ : BufTy).Contents (Elt F) :=
  res_main_v101 a4 v94 (res_main_v76 a4 v72 (res_main_v54 a4 v50 (res_main_v32 a4 a0))) a5

/-- A hidden layer's output from its sum: normalised per node over batch and feature (mean, variance, rsqrt (var + 1e-5), scale, shift), then x where x >= 0 else 0.01 x. -/
noncomputable def ref_act1 (v101 : (⟨S4x50000x64, .f32⟩ : BufTy).Contents (Elt F)) (a10 : (⟨S50000, .f32⟩ : BufTy).Contents (Elt F)) (a11 : (⟨S50000, .f32⟩ : BufTy).Contents (Elt F)) :
    (⟨S4x50000x64, .f32⟩ : BufTy).Contents (Elt F) :=
  res_main_v120 (res_main_v119 a10 (res_main_v105 v101) v101 (res_main_v106 v101) a11)

/-- Layer 2 before normalisation: the sum over i of the i-th propagated input contracted with slice i of the weights, plus the bias. -/
noncomputable def ref_out2 (v120 : (⟨S4x50000x64, .f32⟩ : BufTy).Contents (Elt F)) (v141 : (⟨S4x50000x64, .f32⟩ : BufTy).Contents (Elt F)) (v163 : (⟨S4x50000x64, .f32⟩ : BufTy).Contents (Elt F)) (v185 : (⟨S4x50000x64, .f32⟩ : BufTy).Contents (Elt F)) (a6 : (⟨S4x64x64, .f32⟩ : BufTy).Contents (Elt F)) (a7 : (⟨S64, .f32⟩ : BufTy).Contents (Elt F)) :
    (⟨S4x50000x64, .f32⟩ : BufTy).Contents (Elt F) :=
  res_main_v192 a6 v185 (res_main_v167 a6 v163 (res_main_v145 a6 v141 (res_main_v123 a6 v120))) a7

/-- Layer 3's sum: the sum over i of the i-th propagated input contracted with slice i of the weights, plus the bias. -/
noncomputable def ref_out3 (v211 : (⟨S4x50000x64, .f32⟩ : BufTy).Contents (Elt F)) (v232 : (⟨S4x50000x64, .f32⟩ : BufTy).Contents (Elt F)) (v254 : (⟨S4x50000x64, .f32⟩ : BufTy).Contents (Elt F)) (v276 : (⟨S4x50000x64, .f32⟩ : BufTy).Contents (Elt F)) (a8 : (⟨S4x64x2, .f32⟩ : BufTy).Contents (Elt F)) (a9 : (⟨S2, .f32⟩ : BufTy).Contents (Elt F)) :
    (⟨S4x50000x2, .f32⟩ : BufTy).Contents (Elt F) :=
  res_main_v283 a8 v276 (res_main_v258 a8 v254 (res_main_v236 a8 v232 (res_main_v214 a8 v211))) a9

/-- The result from layer 3's sum: times the standard deviation (an infinite one replaced by 0), plus the mean, times the mask; channel 0 clipped per node between vmin and vmax, channel 1 between qmin and qmax. -/
noncomputable def ref_final (v283 : (⟨S4x50000x2, .f32⟩ : BufTy).Contents (Elt F)) (a14 : (⟨S50000x2, .f32⟩ : BufTy).Contents (Elt F)) (a15 : (⟨S50000x2, .f32⟩ : BufTy).Contents (Elt F)) (a16 : (⟨S50000x2, .f32⟩ : BufTy).Contents (Elt F)) (a17 : (⟨S50000, .f32⟩ : BufTy).Contents (Elt F)) (a18 : (⟨S50000, .f32⟩ : BufTy).Contents (Elt F)) (a19 : (⟨S50000, .f32⟩ : BufTy).Contents (Elt F)) (a20 : (⟨S50000, .f32⟩ : BufTy).Contents (Elt F)) :
    (⟨S4x50000x2, .f32⟩ : BufTy).Contents (Elt F) :=
  res_main_v303 (res_main_v294 (res_main_v285 a16) v283 a15 a14) a17 a18 a19 a20

end Cert.ReferenceIdeal.RefRun

end
-- ==== Proof.KIdeal.Host0.lean ====
/- The kernel program's host stretch hostOps0, hostOps0_1, hostOps0_2 read back: from any contents `W`, what each named buffer holds after
   it, as the named functions of what `W` holds in the buffers the stretch reads and of the stretch's earlier named buffers. -/
import proofs.«159603_j71347996721325_2_alg».proof.Proof.KIdeal.Host0S0
import proofs.«159603_j71347996721325_2_alg».proof.Proof.KIdeal.Host0S1
import proofs.«159603_j71347996721325_2_alg».proof.Proof.KIdeal.Host0S2
import proofs.«159603_j71347996721325_2_alg».proof.Proof.KIdeal.Host0S3
import proofs.«159603_j71347996721325_2_alg».proof.Proof.KIdeal.Host0S4
import proofs.«159603_j71347996721325_2_alg».proof.Proof.KIdeal.Host0S5
import proofs.«159603_j71347996721325_2_alg».proof.Proof.KIdeal.Host0S6
import proofs.«159603_j71347996721325_2_alg».proof.Proof.KIdeal.Host0S7
import proofs.«159603_j71347996721325_2_alg».proof.Proof.KIdeal.Host0S8
import proofs.«159603_j71347996721325_2_alg».proof.Proof.KIdeal.Host0S9
import proofs.«159603_j71347996721325_2_alg».proof.Proof.KIdeal.Host0S10
import proofs.«159603_j71347996721325_2_alg».proof.Proof.RefComp

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

set_option maxRecDepth 65536 in
theorem h0_main_v7 (W : Valuation τ sig (Elt F)) :
    after hostOps0_2 (after hostOps0_1 (after hostOps0 (W))) (Proc.devRef .tc main_v7)
      = Cert.ReferenceIdeal.RefRun.res_main_v7 (W (Proc.devRef .tc main_arg2)) (W (Proc.devRef .tc main_arg3)) := by
  rw [h0_end W]
  have h := h0_sg0_main_v7 (h0_val0 W)
  rw [h0_pre0 W (r := main_arg2) (by decide),
    h0_pre0 W (r := main_arg3) (by decide)] at h
  exact (h0_fin1 W (r := main_v7) (by decide)).trans h

set_option maxRecDepth 65536 in
theorem h0_main_v13 (W : Valuation τ sig (Elt F)) :
    after hostOps0_2 (after hostOps0_1 (after hostOps0 (W))) (Proc.devRef .tc main_v13)
      = Cert.ReferenceIdeal.RefRun.res_main_v13 (after hostOps0_2 (after hostOps0_1 (after hostOps0 (W))) (Proc.devRef .tc main_v7)) := by
  rw [h0_end W]
  have h := h0_sg1_main_v13 (h0_val1 W)
  rw [← h0_fin1 W (r := main_v7) (by decide)] at h
  exact (h0_fin2 W (r := main_v13) (by decide)).trans h

set_option maxRecDepth 65536 in
theorem h0_main_v29 (W : Valuation τ sig (Elt F)) :
    after hostOps0_2 (after hostOps0_1 (after hostOps0 (W))) (Proc.devRef .tc main_v29)
      = Cert.ReferenceIdeal.RefRun.res_main_v29 (W (Proc.devRef .tc main_arg1)) (after hostOps0_2 (after hostOps0_1 (after hostOps0 (W))) (Proc.devRef .tc main_v13)) (W (Proc.devRef .tc main_arg3)) (W (Proc.devRef .tc main_arg2)) := by
  rw [h0_end W]
  have h := h0_sg2_main_v29 (h0_val2 W)
  rw [h0_pre2 W (r := main_arg1) (by decide),
    ← h0_fin2 W (r := main_v13) (by decide),
    h0_pre2 W (r := main_arg3) (by decide),
    h0_pre2 W (r := main_arg2) (by decide)] at h
  exact (h0_fin3 W (r := main_v29) (by decide)).trans h

set_option maxRecDepth 65536 in
theorem h0_main_v30 (W : Valuation τ sig (Elt F)) :
    after hostOps0_2 (after hostOps0_1 (after hostOps0 (W))) (Proc.devRef .tc main_v30)
      = kresh_w1 (W (Proc.devRef .tc main_arg4)) := by
  rw [h0_end W]
  have h := h0_sg3_main_v30 (h0_val3 W)
  rw [h0_pre3 W (r := main_arg4) (by decide)] at h
  exact (h0_fin4 W (r := main_v30) (by decide)).trans h

set_option maxRecDepth 65536 in
theorem h0_main_v48 (W : Valuation τ sig (Elt F)) :
    after hostOps0_2 (after hostOps0_1 (after hostOps0 (W))) (Proc.devRef .tc main_v48)
      = Cert.ReferenceIdeal.RefRun.res_main_v50 (W (Proc.devRef .tc main_arg1)) (W (Proc.devRef .tc main_arg0)) (after hostOps0_2 (after hostOps0_1 (after hostOps0 (W))) (Proc.devRef .tc main_v29)) (W (Proc.devRef .tc main_arg2)) := by
  rw [h0_end W]
  have h := h0_sg4_main_v48 (h0_val4 W)
  rw [h0_pre4 W (r := main_arg1) (by decide),
    h0_pre4 W (r := main_arg0) (by decide),
    ← h0_fin4 W (r := main_v29) (by decide),
    h0_pre4 W (r := main_arg2) (by decide)] at h
  exact (h0_fin5 W (r := main_v48) (by decide)).trans h

set_option maxRecDepth 65536 in
theorem h0_main_v66 (W : Valuation τ sig (Elt F)) :
    after hostOps0_2 (after hostOps0_1 (after hostOps0 (W))) (Proc.devRef .tc main_v66)
      = Cert.ReferenceIdeal.RefRun.res_main_v50 (W (Proc.devRef .tc main_arg1)) (after hostOps0_2 (after hostOps0_1 (after hostOps0 (W))) (Proc.devRef .tc main_v48)) (after hostOps0_2 (after hostOps0_1 (after hostOps0 (W))) (Proc.devRef .tc main_v29)) (W (Proc.devRef .tc main_arg2)) := by
  rw [h0_end W]
  have h := h0_sg5_main_v66 (h0_val5 W)
  rw [h0_pre5 W (r := main_arg1) (by decide),
    ← h0_fin5 W (r := main_v48) (by decide),
    ← h0_fin5 W (r := main_v29) (by decide),
    h0_pre5 W (r := main_arg2) (by decide)] at h
  exact (h0_fin6 W (r := main_v66) (by decide)).trans h

set_option maxRecDepth 65536 in
theorem h0_main_v84 (W : Valuation τ sig (Elt F)) :
    after hostOps0_2 (after hostOps0_1 (after hostOps0 (W))) (Proc.devRef .tc main_v84)
      = Cert.ReferenceIdeal.RefRun.res_main_v50 (W (Proc.devRef .tc main_arg1)) (after hostOps0_2 (after hostOps0_1 (after hostOps0 (W))) (Proc.devRef .tc main_v66)) (after hostOps0_2 (after hostOps0_1 (after hostOps0 (W))) (Proc.devRef .tc main_v29)) (W (Proc.devRef .tc main_arg2)) := by
  rw [h0_end W]
  have h := h0_sg6_main_v84 (h0_val6 W)
  rw [h0_pre6 W (r := main_arg1) (by decide),
    ← h0_fin6 W (r := main_v66) (by decide),
    ← h0_fin6 W (r := main_v29) (by decide),
    h0_pre6 W (r := main_arg2) (by decide)] at h
  exact (h0_fin7 W (r := main_v84) (by decide)).trans h

set_option maxRecDepth 65536 in
theorem h0_main_v85 (W : Valuation τ sig (Elt F)) :
    after hostOps0_2 (after hostOps0_1 (after hostOps0 (W))) (Proc.devRef .tc main_v85)
      = kcat4 (W (Proc.devRef .tc main_arg0)) (after hostOps0_2 (after hostOps0_1 (after hostOps0 (W))) (Proc.devRef .tc main_v48)) (after hostOps0_2 (after hostOps0_1 (after hostOps0 (W))) (Proc.devRef .tc main_v66)) (after hostOps0_2 (after hostOps0_1 (after hostOps0 (W))) (Proc.devRef .tc main_v84)) := by
  rw [h0_end W]
  have h := h0_sg7_main_v85 (h0_val7 W)
  rw [h0_pre7 W (r := main_arg0) (by decide),
    ← h0_fin7 W (r := main_v48) (by decide),
    ← h0_fin7 W (r := main_v66) (by decide),
    ← h0_fin7 W (r := main_v84) (by decide)] at h
  exact (h0_fin8 W (r := main_v85) (by decide)).trans h

set_option maxRecDepth 65536 in
theorem h0_main_v86 (W : Valuation τ sig (Elt F)) :
    after hostOps0_2 (after hostOps0_1 (after hostOps0 (W))) (Proc.devRef .tc main_v86)
      = kresh_row64 (W (Proc.devRef .tc main_arg5)) := by
  rw [h0_end W]
  have h := h0_sg8_main_v86 (h0_val8 W)
  rw [h0_pre8 W (r := main_arg5) (by decide)] at h
  exact (h0_fin9 W (r := main_v86) (by decide)).trans h

set_option maxRecDepth 65536 in
theorem h0_main_v87 (W : Valuation τ sig (Elt F)) :
    after hostOps0_2 (after hostOps0_1 (after hostOps0 (W))) (Proc.devRef .tc main_v87)
      = kresh_col (W (Proc.devRef .tc main_arg10)) := by
  rw [h0_end W]
  have h := h0_sg9_main_v87 (h0_val9 W)
  rw [h0_pre9 W (r := main_arg10) (by decide)] at h
  exact (h0_fin10 W (r := main_v87) (by decide)).trans h

set_option maxRecDepth 65536 in
theorem h0_main_v88 (W : Valuation τ sig (Elt F)) :
    after hostOps0_2 (after hostOps0_1 (after hostOps0 (W))) (Proc.devRef .tc main_v88)
      = kresh_col (W (Proc.devRef .tc main_arg11)) := by
  rw [h0_end W]
  have h := h0_sg10_main_v88 (h0_val10 W)
  rw [h0_pre10 W (r := main_arg11) (by decide)] at h
  exact (h0_fin11 W (r := main_v88) (by decide)).trans h

/-- The normalised edge weights the stretch leaves in `main_v29` are the reference program's function of the sources, the targets and the edge weights. -/
theorem h0_w (W : Valuation τ sig (Elt F)) :
    after hostOps0_2 (after hostOps0_1 (after hostOps0 (W))) (Proc.devRef .tc main_v29)
      = Cert.ReferenceIdeal.RefRun.ref_w (W (Proc.devRef .tc main_arg1)) (W (Proc.devRef .tc main_arg2)) (W (Proc.devRef .tc main_arg3)) := by
  rw [h0_main_v29 W, h0_main_v13 W, h0_main_v7 W]
  rfl

end Cert.KernelIdeal.Hand

end
-- ==== Proof.KIdeal.Host1Ops.lean ====
/- The kernel program's host stretch hostOps1 cut at its named buffers: the cut pieces as literal lists (the printed
   lists are these in a row), the buffers each writes, the contents after each cut, and that a buffer the later cuts do not
   write — or the earlier ones — holds what it held. -/
import proofs.«159603_j71347996721325_2_alg».proof.Proof.Gen.KernelIdeal.Launch
import Idealize.ShloMosaic.Lib.StableHlo.Run
import Idealize.ShloMosaic.Lib.Pipeline.Frame
import proofs.«159603_j71347996721325_2_alg».proof.Proof.RefLib

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

set_option maxRecDepth 65536

/-- Operations 1 … 1 of the stretch: the part of the cut ending in `main_v90` lying in `hostOps1`. -/
abbrev h1_p0 : List (HloOp τ sig (Elt F)) :=
  [ reshape main_arg6 main_v90 rfl shapeCasts_S4x64x64_S256x64 ]
abbrev h1_p0_W : List (Ref sig .tc) := [main_v90]
theorem h1_p0_writesF : (h1_p0 : List (HloOp τ sig (Elt F))).Forall fun op => op.writes ⊆ (h1_p0_W.map (Proc.devRef (τ := τ) .tc)).toFinset :=
  (Cert.RefLib.writes_sub_of_mem (y := main_v90) rfl (by decide))
theorem h1_p0_writes : Cert.RefLib.WritesIn (h1_p0 : List (HloOp τ sig (Elt F))) h1_p0_W := Cert.RefLib.WritesIn.of_forall h1_p0_writesF

/-- Operations 2 … 24 of the stretch: the part of the cut ending in `main_v108` lying in `hostOps1`. -/
abbrev h1_p1 : List (HloOp τ sig (Elt F)) :=
  [ nullary main_c_23 (constantI S_ 32 0#32),
    unary main_c_23 main_v91 (broadcastInDim S400000 ![] bcast_S_S400000 : (⟨S_, .i32⟩ : BufTy).Contents (Elt F) → (⟨S400000, .i32⟩ : BufTy).Contents (Elt F)),
    binary main_arg1 main_v91 main_v92 (cmpi .slt : (⟨S400000, .i32⟩ : BufTy).Contents (Elt F) → (⟨S400000, .i32⟩ : BufTy).Contents (Elt F) → (⟨S400000, .i1⟩ : BufTy).Contents (Elt F)),
    nullary main_c_24 (constantI S_ 32 50000#32),
    unary main_c_24 main_v93 (broadcastInDim S400000 ![] bcast_S_S400000 : (⟨S_, .i32⟩ : BufTy).Contents (Elt F) → (⟨S400000, .i32⟩ : BufTy).Contents (Elt F)),
    binary main_arg1 main_v93 main_v94 (addi : (⟨S400000, .i32⟩ : BufTy).Contents (Elt F) → (⟨S400000, .i32⟩ : BufTy).Contents (Elt F) → (⟨S400000, .i32⟩ : BufTy).Contents (Elt F)),
    ternary main_v92 main_v94 main_arg1 main_v95 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v95 main_v96 (broadcastInDim S400000x1 ![0] bcast_S400000_S400000x1_0 : (⟨S400000, .i32⟩ : BufTy).Contents (Elt F) → (⟨S400000x1, .i32⟩ : BufTy).Contents (Elt F)),
    binary main_v89 main_v96 main_v97 ((fun x i => Host.gather gather_S4x50000x64_S400000x1_S4x400000x64_02_1_n_n_1_1_4164 x i) : (⟨S4x50000x64, .f32⟩ : BufTy).Contents (Elt F) → (⟨S400000x1, .i32⟩ : BufTy).Contents (Elt F) → (⟨S4x400000x64, .f32⟩ : BufTy).Contents (Elt F)),
    unary main_v29 main_v98 (broadcastInDim S1x400000x1 ![1] bcast_S400000_S1x400000x1_1 : (⟨S400000, .f32⟩ : BufTy).Contents (Elt F) → (⟨S1x400000x1, .f32⟩ : BufTy).Contents (Elt F)),
    unary main_v98 main_v99 (broadcastInDim S4x400000x64 ![0, 1, 2] bcast_S1x400000x1_S4x400000x64_0_1_2 : (⟨S1x400000x1, .f32⟩ : BufTy).Contents (Elt F) → (⟨S4x400000x64, .f32⟩ : BufTy).Contents (Elt F)),
    binary main_v97 main_v99 main_v100 (mulf : (⟨S4x400000x64, .f32⟩ : BufTy).Contents (Elt F) → (⟨S4x400000x64, .f32⟩ : BufTy).Contents (Elt F) → (⟨S4x400000x64, .f32⟩ : BufTy).Contents (Elt F)),
    nullary main_cst_25 (constant S_ .f32 0x00000000#32),
    unary main_cst_25 main_v101 (broadcastInDim S4x50000x64 ![] bcast_S_S4x50000x64 : (⟨S_, .f32⟩ : BufTy).Contents (Elt F) → (⟨S4x50000x64, .f32⟩ : BufTy).Contents (Elt F)),
    nullary main_c_26 (constantI S_ 32 0#32),
    unary main_c_26 main_v102 (broadcastInDim S400000 ![] bcast_S_S400000 : (⟨S_, .i32⟩ : BufTy).Contents (Elt F) → (⟨S400000, .i32⟩ : BufTy).Contents (Elt F)),
    binary main_arg2 main_v102 main_v103 (cmpi .slt : (⟨S400000, .i32⟩ : BufTy).Contents (Elt F) → (⟨S400000, .i32⟩ : BufTy).Contents (Elt F) → (⟨S400000, .i1⟩ : BufTy).Contents (Elt F)),
    nullary main_c_27 (constantI S_ 32 50000#32),
    unary main_c_27 main_v104 (broadcastInDim S400000 ![] bcast_S_S400000 : (⟨S_, .i32⟩ : BufTy).Contents (Elt F) → (⟨S400000, .i32⟩ : BufTy).Contents (Elt F)),
    binary main_arg2 main_v104 main_v105 (addi : (⟨S400000, .i32⟩ : BufTy).Contents (Elt F) → (⟨S400000, .i32⟩ : BufTy).Contents (Elt F) → (⟨S400000, .i32⟩ : BufTy).Contents (Elt F)),
    ternary main_v103 main_v105 main_arg2 main_v106 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v106 main_v107 (broadcastInDim S400000x1 ![0] bcast_S400000_S400000x1_0 : (⟨S400000, .i32⟩ : BufTy).Contents (Elt F) → (⟨S400000x1, .i32⟩ : BufTy).Contents (Elt F)),
    ternary main_v101 main_v107 main_v100 main_v108 ((fun x i u => Host.scatterAdd scatter_S4x50000x64_S400000x1_S4x400000x64_02_1_1_1 x i u) : (⟨S4x50000x64, .f32⟩ : BufTy).Contents (Elt F) → (⟨S400000x1, .i32⟩ : BufTy).Contents (Elt F) → (⟨S4x400000x64, .f32⟩ : BufTy).Contents (Elt F) → (⟨S4x50000x64, .f32⟩ : BufTy).Contents (Elt F)) ]
abbrev h1_p1_W : List (Ref sig .tc) := [main_c_23, main_v91, main_v92, main_c_24, main_v93, main_v94, main_v95, main_v96, main_v97, main_v98, main_v99, main_v100, main_cst_25, main_v101, main_c_26, main_v102, main_v103, main_c_27, main_v104, main_v105, main_v106, main_v107, main_v108]
theorem h1_p1_writesF : (h1_p1 : List (HloOp τ sig (Elt F))).Forall fun op => op.writes ⊆ (h1_p1_W.map (Proc.devRef (τ := τ) .tc)).toFinset :=
  ⟨Cert.RefLib.writes_sub_of_mem (y := main_c_23) rfl (by decide),
    Cert.RefLib.writes_sub_of_mem (y := main_v91) rfl (by decide),
    Cert.RefLib.writes_sub_of_mem (y := main_v92) rfl (by decide),
    Cert.RefLib.writes_sub_of_mem (y := main_c_24) rfl (by decide),
    Cert.RefLib.writes_sub_of_mem (y := main_v93) rfl (by decide),
    Cert.RefLib.writes_sub_of_mem (y := main_v94) rfl (by decide),
    Cert.RefLib.writes_sub_of_mem (y := main_v95) rfl (by decide),
    Cert.RefLib.writes_sub_of_mem (y := main_v96) rfl (by decide),
    Cert.RefLib.writes_sub_of_mem (y := main_v97) rfl (by decide),
    Cert.RefLib.writes_sub_of_mem (y := main_v98) rfl (by decide),
    Cert.RefLib.writes_sub_of_mem (y := main_v99) rfl (by decide),
    Cert.RefLib.writes_sub_of_mem (y := main_v100) rfl (by decide),
    Cert.RefLib.writes_sub_of_mem (y := main_cst_25) rfl (by decide),
    Cert.RefLib.writes_sub_of_mem (y := main_v101) rfl (by decide),
    Cert.RefLib.writes_sub_of_mem (y := main_c_26) rfl (by decide),
    Cert.RefLib.writes_sub_of_mem (y := main_v102) rfl (by decide),
    Cert.RefLib.writes_sub_of_mem (y := main_v103) rfl (by decide),
    Cert.RefLib.writes_sub_of_mem (y := main_c_27) rfl (by decide),
    Cert.RefLib.writes_sub_of_mem (y := main_v104) rfl (by decide),
    Cert.RefLib.writes_sub_of_mem (y := main_v105) rfl (by decide),
    Cert.RefLib.writes_sub_of_mem (y := main_v106) rfl (by decide),
    Cert.RefLib.writes_sub_of_mem (y := main_v107) rfl (by decide),
    Cert.RefLib.writes_sub_of_mem (y := main_v108) rfl (by decide)⟩
theorem h1_p1_writes : Cert.RefLib.WritesIn (h1_p1 : List (HloOp τ sig (Elt F))) h1_p1_W := Cert.RefLib.WritesIn.of_forall h1_p1_writesF

/-- Operations 25 … 47 of the stretch: the part of the cut ending in `main_v126` lying in `hostOps1`. -/
abbrev h1_p2 : List (HloOp τ sig (Elt F)) :=
  [ nullary main_c_28 (constantI S_ 32 0#32),
    unary main_c_28 main_v109 (broadcastInDim S400000 ![] bcast_S_S400000 : (⟨S_, .i32⟩ : BufTy).Contents (Elt F) → (⟨S400000, .i32⟩ : BufTy).Contents (Elt F)),
    binary main_arg1 main_v109 main_v110 (cmpi .slt : (⟨S400000, .i32⟩ : BufTy).Contents (Elt F) → (⟨S400000, .i32⟩ : BufTy).Contents (Elt F) → (⟨S400000, .i1⟩ : BufTy).Contents (Elt F)),
    nullary main_c_29 (constantI S_ 32 50000#32),
    unary main_c_29 main_v111 (broadcastInDim S400000 ![] bcast_S_S400000 : (⟨S_, .i32⟩ : BufTy).Contents (Elt F) → (⟨S400000, .i32⟩ : BufTy).Contents (Elt F)),
    binary main_arg1 main_v111 main_v112 (addi : (⟨S400000, .i32⟩ : BufTy).Contents (Elt F) → (⟨S400000, .i32⟩ : BufTy).Contents (Elt F) → (⟨S400000, .i32⟩ : BufTy).Contents (Elt F)),
    ternary main_v110 main_v112 main_arg1 main_v113 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v113 main_v114 (broadcastInDim S400000x1 ![0] bcast_S400000_S400000x1_0 : (⟨S400000, .i32⟩ : BufTy).Contents (Elt F) → (⟨S400000x1, .i32⟩ : BufTy).Contents (Elt F)),
    binary main_v108 main_v114 main_v115 ((fun x i => Host.gather gather_S4x50000x64_S400000x1_S4x400000x64_02_1_n_n_1_1_4164 x i) : (⟨S4x50000x64, .f32⟩ : BufTy).Contents (Elt F) → (⟨S400000x1, .i32⟩ : BufTy).Contents (Elt F) → (⟨S4x400000x64, .f32⟩ : BufTy).Contents (Elt F)),
    unary main_v29 main_v116 (broadcastInDim S1x400000x1 ![1] bcast_S400000_S1x400000x1_1 : (⟨S400000, .f32⟩ : BufTy).Contents (Elt F) → (⟨S1x400000x1, .f32⟩ : BufTy).Contents (Elt F)),
    unary main_v116 main_v117 (broadcastInDim S4x400000x64 ![0, 1, 2] bcast_S1x400000x1_S4x400000x64_0_1_2 : (⟨S1x400000x1, .f32⟩ : BufTy).Contents (Elt F) → (⟨S4x400000x64, .f32⟩ : BufTy).Contents (Elt F)),
    binary main_v115 main_v117 main_v118 (mulf : (⟨S4x400000x64, .f32⟩ : BufTy).Contents (Elt F) → (⟨S4x400000x64, .f32⟩ : BufTy).Contents (Elt F) → (⟨S4x400000x64, .f32⟩ : BufTy).Contents (Elt F)),
    nullary main_cst_30 (constant S_ .f32 0x00000000#32),
    unary main_cst_30 main_v119 (broadcastInDim S4x50000x64 ![] bcast_S_S4x50000x64 : (⟨S_, .f32⟩ : BufTy).Contents (Elt F) → (⟨S4x50000x64, .f32⟩ : BufTy).Contents (Elt F)),
    nullary main_c_31 (constantI S_ 32 0#32),
    unary main_c_31 main_v120 (broadcastInDim S400000 ![] bcast_S_S400000 : (⟨S_, .i32⟩ : BufTy).Contents (Elt F) → (⟨S400000, .i32⟩ : BufTy).Contents (Elt F)),
    binary main_arg2 main_v120 main_v121 (cmpi .slt : (⟨S400000, .i32⟩ : BufTy).Contents (Elt F) → (⟨S400000, .i32⟩ : BufTy).Contents (Elt F) → (⟨S400000, .i1⟩ : BufTy).Contents (Elt F)),
    nullary main_c_32 (constantI S_ 32 50000#32),
    unary main_c_32 main_v122 (broadcastInDim S400000 ![] bcast_S_S400000 : (⟨S_, .i32⟩ : BufTy).Contents (Elt F) → (⟨S400000, .i32⟩ : BufTy).Contents (Elt F)),
    binary main_arg2 main_v122 main_v123 (addi : (⟨S400000, .i32⟩ : BufTy).Contents (Elt F) → (⟨S400000, .i32⟩ : BufTy).Contents (Elt F) → (⟨S400000, .i32⟩ : BufTy).Contents (Elt F)),
    ternary main_v121 main_v123 main_arg2 main_v124 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v124 main_v125 (broadcastInDim S400000x1 ![0] bcast_S400000_S400000x1_0 : (⟨S400000, .i32⟩ : BufTy).Contents (Elt F) → (⟨S400000x1, .i32⟩ : BufTy).Contents (Elt F)),
    ternary main_v119 main_v125 main_v118 main_v126 ((fun x i u => Host.scatterAdd scatter_S4x50000x64_S400000x1_S4x400000x64_02_1_1_1 x i u) : (⟨S4x50000x64, .f32⟩ : BufTy).Contents (Elt F) → (⟨S400000x1, .i32⟩ : BufTy).Contents (Elt F) → (⟨S4x400000x64, .f32⟩ : BufTy).Contents (Elt F) → (⟨S4x50000x64, .f32⟩ : BufTy).Contents (Elt F)) ]
abbrev h1_p2_W : List (Ref sig .tc) := [main_c_28, main_v109, main_v110, main_c_29, main_v111, main_v112, main_v113, main_v114, main_v115, main_v116, main_v117, main_v118, main_cst_30, main_v119, main_c_31, main_v120, main_v121, main_c_32, main_v122, main_v123, main_v124, main_v125, main_v126]
theorem h1_p2_writesF : (h1_p2 : List (HloOp τ sig (Elt F))).Forall fun op => op.writes ⊆ (h1_p2_W.map (Proc.devRef (τ := τ) .tc)).toFinset :=
  ⟨Cert.RefLib.writes_sub_of_mem (y := main_c_28) rfl (by decide),
    Cert.RefLib.writes_sub_of_mem (y := main_v109) rfl (by decide),
    Cert.RefLib.writes_sub_of_mem (y := main_v110) rfl (by decide),
    Cert.RefLib.writes_sub_of_mem (y := main_c_29) rfl (by decide),
    Cert.RefLib.writes_sub_of_mem (y := main_v111) rfl (by decide),
    Cert.RefLib.writes_sub_of_mem (y := main_v112) rfl (by decide),
    Cert.RefLib.writes_sub_of_mem (y := main_v113) rfl (by decide),
    Cert.RefLib.writes_sub_of_mem (y := main_v114) rfl (by decide),
    Cert.RefLib.writes_sub_of_mem (y := main_v115) rfl (by decide),
    Cert.RefLib.writes_sub_of_mem (y := main_v116) rfl (by decide),
    Cert.RefLib.writes_sub_of_mem (y := main_v117) rfl (by decide),
    Cert.RefLib.writes_sub_of_mem (y := main_v118) rfl (by decide),
    Cert.RefLib.writes_sub_of_mem (y := main_cst_30) rfl (by decide),
    Cert.RefLib.writes_sub_of_mem (y := main_v119) rfl (by decide),
    Cert.RefLib.writes_sub_of_mem (y := main_c_31) rfl (by decide),
    Cert.RefLib.writes_sub_of_mem (y := main_v120) rfl (by decide),
    Cert.RefLib.writes_sub_of_mem (y := main_v121) rfl (by decide),
    Cert.RefLib.writes_sub_of_mem (y := main_c_32) rfl (by decide),
    Cert.RefLib.writes_sub_of_mem (y := main_v122) rfl (by decide),
    Cert.RefLib.writes_sub_of_mem (y := main_v123) rfl (by decide),
    Cert.RefLib.writes_sub_of_mem (y := main_v124) rfl (by decide),
    Cert.RefLib.writes_sub_of_mem (y := main_v125) rfl (by decide),
    Cert.RefLib.writes_sub_of_mem (y := main_v126) rfl (by decide)⟩
theorem h1_p2_writes : Cert.RefLib.WritesIn (h1_p2 : List (HloOp τ sig (Elt F))) h1_p2_W := Cert.RefLib.WritesIn.of_forall h1_p2_writesF

/-- Operations 48 … 70 of the stretch: the part of the cut ending in `main_v144` lying in `hostOps1`. -/
abbrev h1_p3 : List (HloOp τ sig (Elt F)) :=
  [ nullary main_c_33 (constantI S_ 32 0#32),
    unary main_c_33 main_v127 (broadcastInDim S400000 ![] bcast_S_S400000 : (⟨S_, .i32⟩ : BufTy).Contents (Elt F) → (⟨S400000, .i32⟩ : BufTy).Contents (Elt F)),
    binary main_arg1 main_v127 main_v128 (cmpi .slt : (⟨S400000, .i32⟩ : BufTy).Contents (Elt F) → (⟨S400000, .i32⟩ : BufTy).Contents (Elt F) → (⟨S400000, .i1⟩ : BufTy).Contents (Elt F)),
    nullary main_c_34 (constantI S_ 32 50000#32),
    unary main_c_34 main_v129 (broadcastInDim S400000 ![] bcast_S_S400000 : (⟨S_, .i32⟩ : BufTy).Contents (Elt F) → (⟨S400000, .i32⟩ : BufTy).Contents (Elt F)),
    binary main_arg1 main_v129 main_v130 (addi : (⟨S400000, .i32⟩ : BufTy).Contents (Elt F) → (⟨S400000, .i32⟩ : BufTy).Contents (Elt F) → (⟨S400000, .i32⟩ : BufTy).Contents (Elt F)),
    ternary main_v128 main_v130 main_arg1 main_v131 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v131 main_v132 (broadcastInDim S400000x1 ![0] bcast_S400000_S400000x1_0 : (⟨S400000, .i32⟩ : BufTy).Contents (Elt F) → (⟨S400000x1, .i32⟩ : BufTy).Contents (Elt F)),
    binary main_v126 main_v132 main_v133 ((fun x i => Host.gather gather_S4x50000x64_S400000x1_S4x400000x64_02_1_n_n_1_1_4164 x i) : (⟨S4x50000x64, .f32⟩ : BufTy).Contents (Elt F) → (⟨S400000x1, .i32⟩ : BufTy).Contents (Elt F) → (⟨S4x400000x64, .f32⟩ : BufTy).Contents (Elt F)),
    unary main_v29 main_v134 (broadcastInDim S1x400000x1 ![1] bcast_S400000_S1x400000x1_1 : (⟨S400000, .f32⟩ : BufTy).Contents (Elt F) → (⟨S1x400000x1, .f32⟩ : BufTy).Contents (Elt F)),
    unary main_v134 main_v135 (broadcastInDim S4x400000x64 ![0, 1, 2] bcast_S1x400000x1_S4x400000x64_0_1_2 : (⟨S1x400000x1, .f32⟩ : BufTy).Contents (Elt F) → (⟨S4x400000x64, .f32⟩ : BufTy).Contents (Elt F)),
    binary main_v133 main_v135 main_v136 (mulf : (⟨S4x400000x64, .f32⟩ : BufTy).Contents (Elt F) → (⟨S4x400000x64, .f32⟩ : BufTy).Contents (Elt F) → (⟨S4x400000x64, .f32⟩ : BufTy).Contents (Elt F)),
    nullary main_cst_35 (constant S_ .f32 0x00000000#32),
    unary main_cst_35 main_v137 (broadcastInDim S4x50000x64 ![] bcast_S_S4x50000x64 : (⟨S_, .f32⟩ : BufTy).Contents (Elt F) → (⟨S4x50000x64, .f32⟩ : BufTy).Contents (Elt F)),
    nullary main_c_36 (constantI S_ 32 0#32),
    unary main_c_36 main_v138 (broadcastInDim S400000 ![] bcast_S_S400000 : (⟨S_, .i32⟩ : BufTy).Contents (Elt F) → (⟨S400000, .i32⟩ : BufTy).Contents (Elt F)),
    binary main_arg2 main_v138 main_v139 (cmpi .slt : (⟨S400000, .i32⟩ : BufTy).Contents (Elt F) → (⟨S400000, .i32⟩ : BufTy).Contents (Elt F) → (⟨S400000, .i1⟩ : BufTy).Contents (Elt F)),
    nullary main_c_37 (constantI S_ 32 50000#32),
    unary main_c_37 main_v140 (broadcastInDim S400000 ![] bcast_S_S400000 : (⟨S_, .i32⟩ : BufTy).Contents (Elt F) → (⟨S400000, .i32⟩ : BufTy).Contents (Elt F)),
    binary main_arg2 main_v140 main_v141 (addi : (⟨S400000, .i32⟩ : BufTy).Contents (Elt F) → (⟨S400000, .i32⟩ : BufTy).Contents (Elt F) → (⟨S400000, .i32⟩ : BufTy).Contents (Elt F)),
    ternary main_v139 main_v141 main_arg2 main_v142 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v142 main_v143 (broadcastInDim S400000x1 ![0] bcast_S400000_S400000x1_0 : (⟨S400000, .i32⟩ : BufTy).Contents (Elt F) → (⟨S400000x1, .i32⟩ : BufTy).Contents (Elt F)),
    ternary main_v137 main_v143 main_v136 main_v144 ((fun x i u => Host.scatterAdd scatter_S4x50000x64_S400000x1_S4x400000x64_02_1_1_1 x i u) : (⟨S4x50000x64, .f32⟩ : BufTy).Contents (Elt F) → (⟨S400000x1, .i32⟩ : BufTy).Contents (Elt F) → (⟨S4x400000x64, .f32⟩ : BufTy).Contents (Elt F) → (⟨S4x50000x64, .f32⟩ : BufTy).Contents (Elt F)) ]
abbrev h1_p3_W : List (Ref sig .tc) := [main_c_33, main_v127, main_v128, main_c_34, main_v129, main_v130, main_v131, main_v132, main_v133, main_v134, main_v135, main_v136, main_cst_35, main_v137, main_c_36, main_v138, main_v139, main_c_37, main_v140, main_v141, main_v142, main_v143, main_v144]
theorem h1_p3_writesF : (h1_p3 : List (HloOp τ sig (Elt F))).Forall fun op => op.writes ⊆ (h1_p3_W.map (Proc.devRef (τ := τ) .tc)).toFinset :=
  ⟨Cert.RefLib.writes_sub_of_mem (y := main_c_33) rfl (by decide),
    Cert.RefLib.writes_sub_of_mem (y := main_v127) rfl (by decide),
    Cert.RefLib.writes_sub_of_mem (y := main_v128) rfl (by decide),
    Cert.RefLib.writes_sub_of_mem (y := main_c_34) rfl (by decide),
    Cert.RefLib.writes_sub_of_mem (y := main_v129) rfl (by decide),
    Cert.RefLib.writes_sub_of_mem (y := main_v130) rfl (by decide),
    Cert.RefLib.writes_sub_of_mem (y := main_v131) rfl (by decide),
    Cert.RefLib.writes_sub_of_mem (y := main_v132) rfl (by decide),
    Cert.RefLib.writes_sub_of_mem (y := main_v133) rfl (by decide),
    Cert.RefLib.writes_sub_of_mem (y := main_v134) rfl (by decide),
    Cert.RefLib.writes_sub_of_mem (y := main_v135) rfl (by decide),
    Cert.RefLib.writes_sub_of_mem (y := main_v136) rfl (by decide),
    Cert.RefLib.writes_sub_of_mem (y := main_cst_35) rfl (by decide),
    Cert.RefLib.writes_sub_of_mem (y := main_v137) rfl (by decide),
    Cert.RefLib.writes_sub_of_mem (y := main_c_36) rfl (by decide),
    Cert.RefLib.writes_sub_of_mem (y := main_v138) rfl (by decide),
    Cert.RefLib.writes_sub_of_mem (y := main_v139) rfl (by decide),
    Cert.RefLib.writes_sub_of_mem (y := main_c_37) rfl (by decide),
    Cert.RefLib.writes_sub_of_mem (y := main_v140) rfl (by decide),
    Cert.RefLib.writes_sub_of_mem (y := main_v141) rfl (by decide),
    Cert.RefLib.writes_sub_of_mem (y := main_v142) rfl (by decide),
    Cert.RefLib.writes_sub_of_mem (y := main_v143) rfl (by decide),
    Cert.RefLib.writes_sub_of_mem (y := main_v144) rfl (by decide)⟩
theorem h1_p3_writes : Cert.RefLib.WritesIn (h1_p3 : List (HloOp τ sig (Elt F))) h1_p3_W := Cert.RefLib.WritesIn.of_forall h1_p3_writesF

/-- Operations 71 … 71 of the stretch: the part of the cut ending in `main_v145` lying in `hostOps1`. -/
abbrev h1_p4 : List (HloOp τ sig (Elt F)) :=
  [ nary ![main_v89, main_v108, main_v126, main_v144] main_v145 (fun u => concatenate S4x50000x256 2 [⟨S4x50000x64, u 0⟩, ⟨S4x50000x64, u 1⟩, ⟨S4x50000x64, u 2⟩, ⟨S4x50000x64, u 3⟩] concatenates_S4x50000x64_S4x50000x64_S4x50000x64_S4x50000x64_S4x50000x256_d2) ]
abbrev h1_p4_W : List (Ref sig .tc) := [main_v145]
theorem h1_p4_writesF : (h1_p4 : List (HloOp τ sig (Elt F))).Forall fun op => op.writes ⊆ (h1_p4_W.map (Proc.devRef (τ := τ) .tc)).toFinset :=
  (Cert.RefLib.writes_sub_of_mem (y := main_v145) rfl (by decide))
theorem h1_p4_writes : Cert.RefLib.WritesIn (h1_p4 : List (HloOp τ sig (Elt F))) h1_p4_W := Cert.RefLib.WritesIn.of_forall h1_p4_writesF

/-- Operations 72 … 72 of the stretch: the part of the cut ending in `main_v146` lying in `hostOps1`. -/
abbrev h1_p5 : List (HloOp τ sig (Elt F)) :=
  [ reshape main_arg7 main_v146 rfl shapeCasts_S64_S1x64 ]
abbrev h1_p5_W : List (Ref sig .tc) := [main_v146]
theorem h1_p5_writesF : (h1_p5 : List (HloOp τ sig (Elt F))).Forall fun op => op.writes ⊆ (h1_p5_W.map (Proc.devRef (τ := τ) .tc)).toFinset :=
  (Cert.RefLib.writes_sub_of_mem (y := main_v146) rfl (by decide))
theorem h1_p5_writes : Cert.RefLib.WritesIn (h1_p5 : List (HloOp τ sig (Elt F))) h1_p5_W := Cert.RefLib.WritesIn.of_forall h1_p5_writesF

/-- Operations 73 … 73 of the stretch: the part of the cut ending in `main_v147` lying in `hostOps1`. -/
abbrev h1_p6 : List (HloOp τ sig (Elt F)) :=
  [ reshape main_arg12 main_v147 rfl shapeCasts_S50000_S50000x1 ]
abbrev h1_p6_W : List (Ref sig .tc) := [main_v147]
theorem h1_p6_writesF : (h1_p6 : List (HloOp τ sig (Elt F))).Forall fun op => op.writes ⊆ (h1_p6_W.map (Proc.devRef (τ := τ) .tc)).toFinset :=
  (Cert.RefLib.writes_sub_of_mem (y := main_v147) rfl (by decide))
theorem h1_p6_writes : Cert.RefLib.WritesIn (h1_p6 : List (HloOp τ sig (Elt F))) h1_p6_W := Cert.RefLib.WritesIn.of_forall h1_p6_writesF

/-- Operations 74 … 74 of the stretch: the part of the cut ending in `main_v148` lying in `hostOps1`. -/
abbrev h1_p7 : List (HloOp τ sig (Elt F)) :=
  [ reshape main_arg13 main_v148 rfl shapeCasts_S50000_S50000x1 ]
abbrev h1_p7_W : List (Ref sig .tc) := [main_v148]
theorem h1_p7_writesF : (h1_p7 : List (HloOp τ sig (Elt F))).Forall fun op => op.writes ⊆ (h1_p7_W.map (Proc.devRef (τ := τ) .tc)).toFinset :=
  (Cert.RefLib.writes_sub_of_mem (y := main_v148) rfl (by decide))
theorem h1_p7_writes : Cert.RefLib.WritesIn (h1_p7 : List (HloOp τ sig (Elt F))) h1_p7_W := Cert.RefLib.WritesIn.of_forall h1_p7_writesF

set_option maxHeartbeats 4000000 in
/-- The printed list is its pieces in a row. -/
theorem h1_hostOps1_split : (hostOps1 : List (HloOp τ sig (Elt F))) = h1_p0 ++ h1_p1 ++ h1_p2 ++ h1_p3 ++ h1_p4 ++ h1_p5 ++ h1_p6 ++ h1_p7 := rfl

/-- Cut 0: the operations up to the one that writes `main_v90`. -/
abbrev h1_sg0 : List (HloOp τ sig (Elt F)) := h1_p0
abbrev h1_sg0_W : List (Ref sig .tc) := h1_p0_W
theorem h1_sg0_writes : Cert.RefLib.WritesIn (h1_sg0 : List (HloOp τ sig (Elt F))) h1_sg0_W :=
  h1_p0_writes
/-- Cut 1: the operations up to the one that writes `main_v108`. -/
abbrev h1_sg1 : List (HloOp τ sig (Elt F)) := h1_p1
abbrev h1_sg1_W : List (Ref sig .tc) := h1_p1_W
theorem h1_sg1_writes : Cert.RefLib.WritesIn (h1_sg1 : List (HloOp τ sig (Elt F))) h1_sg1_W :=
  h1_p1_writes
/-- Cut 2: the operations up to the one that writes `main_v126`. -/
abbrev h1_sg2 : List (HloOp τ sig (Elt F)) := h1_p2
abbrev h1_sg2_W : List (Ref sig .tc) := h1_p2_W
theorem h1_sg2_writes : Cert.RefLib.WritesIn (h1_sg2 : List (HloOp τ sig (Elt F))) h1_sg2_W :=
  h1_p2_writes
/-- Cut 3: the operations up to the one that writes `main_v144`. -/
abbrev h1_sg3 : List (HloOp τ sig (Elt F)) := h1_p3
abbrev h1_sg3_W : List (Ref sig .tc) := h1_p3_W
theorem h1_sg3_writes : Cert.RefLib.WritesIn (h1_sg3 : List (HloOp τ sig (Elt F))) h1_sg3_W :=
  h1_p3_writes
/-- Cut 4: the operations up to the one that writes `main_v145`. -/
abbrev h1_sg4 : List (HloOp τ sig (Elt F)) := h1_p4
abbrev h1_sg4_W : List (Ref sig .tc) := h1_p4_W
theorem h1_sg4_writes : Cert.RefLib.WritesIn (h1_sg4 : List (HloOp τ sig (Elt F))) h1_sg4_W :=
  h1_p4_writes
/-- Cut 5: the operations up to the one that writes `main_v146`. -/
abbrev h1_sg5 : List (HloOp τ sig (Elt F)) := h1_p5
abbrev h1_sg5_W : List (Ref sig .tc) := h1_p5_W
theorem h1_sg5_writes : Cert.RefLib.WritesIn (h1_sg5 : List (HloOp τ sig (Elt F))) h1_sg5_W :=
  h1_p5_writes
/-- Cut 6: the operations up to the one that writes `main_v147`. -/
abbrev h1_sg6 : List (HloOp τ sig (Elt F)) := h1_p6
abbrev h1_sg6_W : List (Ref sig .tc) := h1_p6_W
theorem h1_sg6_writes : Cert.RefLib.WritesIn (h1_sg6 : List (HloOp τ sig (Elt F))) h1_sg6_W :=
  h1_p6_writes
/-- Cut 7: the operations up to the one that writes `main_v148`. -/
abbrev h1_sg7 : List (HloOp τ sig (Elt F)) := h1_p7
abbrev h1_sg7_W : List (Ref sig .tc) := h1_p7_W
theorem h1_sg7_writes : Cert.RefLib.WritesIn (h1_sg7 : List (HloOp τ sig (Elt F))) h1_sg7_W :=
  h1_p7_writes

def h1_val0 (W : Valuation τ sig (Elt F)) : Valuation τ sig (Elt F) := W
def h1_val1 (W : Valuation τ sig (Elt F)) : Valuation τ sig (Elt F) := after h1_sg0 (h1_val0 W)
theorem h1_val1_keep (W : Valuation τ sig (Elt F)) {r : Ref sig .tc} (h : r ∉ h1_sg0_W) :
    h1_val1 W (Proc.devRef .tc r) = h1_val0 W (Proc.devRef .tc r) := h1_sg0_writes.keep _ h
def h1_val2 (W : Valuation τ sig (Elt F)) : Valuation τ sig (Elt F) := after h1_sg1 (h1_val1 W)
theorem h1_val2_keep (W : Valuation τ sig (Elt F)) {r : Ref sig .tc} (h : r ∉ h1_sg1_W) :
    h1_val2 W (Proc.devRef .tc r) = h1_val1 W (Proc.devRef .tc r) := h1_sg1_writes.keep _ h
def h1_val3 (W : Valuation τ sig (Elt F)) : Valuation τ sig (Elt F) := after h1_sg2 (h1_val2 W)
theorem h1_val3_keep (W : Valuation τ sig (Elt F)) {r : Ref sig .tc} (h : r ∉ h1_sg2_W) :
    h1_val3 W (Proc.devRef .tc r) = h1_val2 W (Proc.devRef .tc r) := h1_sg2_writes.keep _ h
def h1_val4 (W : Valuation τ sig (Elt F)) : Valuation τ sig (Elt F) := after h1_sg3 (h1_val3 W)
theorem h1_val4_keep (W : Valuation τ sig (Elt F)) {r : Ref sig .tc} (h : r ∉ h1_sg3_W) :
    h1_val4 W (Proc.devRef .tc r) = h1_val3 W (Proc.devRef .tc r) := h1_sg3_writes.keep _ h
def h1_val5 (W : Valuation τ sig (Elt F)) : Valuation τ sig (Elt F) := after h1_sg4 (h1_val4 W)
theorem h1_val5_keep (W : Valuation τ sig (Elt F)) {r : Ref sig .tc} (h : r ∉ h1_sg4_W) :
    h1_val5 W (Proc.devRef .tc r) = h1_val4 W (Proc.devRef .tc r) := h1_sg4_writes.keep _ h
def h1_val6 (W : Valuation τ sig (Elt F)) : Valuation τ sig (Elt F) := after h1_sg5 (h1_val5 W)
theorem h1_val6_keep (W : Valuation τ sig (Elt F)) {r : Ref sig .tc} (h : r ∉ h1_sg5_W) :
    h1_val6 W (Proc.devRef .tc r) = h1_val5 W (Proc.devRef .tc r) := h1_sg5_writes.keep _ h
def h1_val7 (W : Valuation τ sig (Elt F)) : Valuation τ sig (Elt F) := after h1_sg6 (h1_val6 W)
theorem h1_val7_keep (W : Valuation τ sig (Elt F)) {r : Ref sig .tc} (h : r ∉ h1_sg6_W) :
    h1_val7 W (Proc.devRef .tc r) = h1_val6 W (Proc.devRef .tc r) := h1_sg6_writes.keep _ h
def h1_val8 (W : Valuation τ sig (Elt F)) : Valuation τ sig (Elt F) := after h1_sg7 (h1_val7 W)
theorem h1_val8_keep (W : Valuation τ sig (Elt F)) {r : Ref sig .tc} (h : r ∉ h1_sg7_W) :
    h1_val8 W (Proc.devRef .tc r) = h1_val7 W (Proc.devRef .tc r) := h1_sg7_writes.keep _ h

/-- The stretch run from `W` is the cuts in a row. -/
theorem h1_end (W : Valuation τ sig (Elt F)) :
    after hostOps1 (W) = h1_val8 W := by
  rw [h1_hostOps1_split]
  simp only [h1_val0, h1_val1, h1_val2, h1_val3, h1_val4, h1_val5, h1_val6, h1_val7, h1_val8, StableHlo.after_append]

def h1_Wfrom8 : List (Ref sig .tc) := []
def h1_Wfrom7 : List (Ref sig .tc) := h1_sg7_W ++ h1_Wfrom8
def h1_Wfrom6 : List (Ref sig .tc) := h1_sg6_W ++ h1_Wfrom7
def h1_Wfrom5 : List (Ref sig .tc) := h1_sg5_W ++ h1_Wfrom6
def h1_Wfrom4 : List (Ref sig .tc) := h1_sg4_W ++ h1_Wfrom5
def h1_Wfrom3 : List (Ref sig .tc) := h1_sg3_W ++ h1_Wfrom4
def h1_Wfrom2 : List (Ref sig .tc) := h1_sg2_W ++ h1_Wfrom3
def h1_Wfrom1 : List (Ref sig .tc) := h1_sg1_W ++ h1_Wfrom2
def h1_Wfrom0 : List (Ref sig .tc) := h1_sg0_W ++ h1_Wfrom1

/-- A buffer not written from cut k on holds at the end what it held after the first k cuts. -/
theorem h1_fin8 (W : Valuation τ sig (Elt F)) {r : Ref sig .tc} (_h : r ∉ h1_Wfrom8) :
    h1_val8 W (Proc.devRef .tc r) = h1_val8 W (Proc.devRef .tc r) := rfl
theorem h1_fin7 (W : Valuation τ sig (Elt F)) {r : Ref sig .tc} (h : r ∉ h1_Wfrom7) :
    h1_val8 W (Proc.devRef .tc r) = h1_val7 W (Proc.devRef .tc r) :=
  (h1_fin8 W fun hm => h (List.mem_append_right _ hm)).trans (h1_val8_keep W fun hm => h (List.mem_append_left _ hm))
theorem h1_fin6 (W : Valuation τ sig (Elt F)) {r : Ref sig .tc} (h : r ∉ h1_Wfrom6) :
    h1_val8 W (Proc.devRef .tc r) = h1_val6 W (Proc.devRef .tc r) :=
  (h1_fin7 W fun hm => h (List.mem_append_right _ hm)).trans (h1_val7_keep W fun hm => h (List.mem_append_left _ hm))
theorem h1_fin5 (W : Valuation τ sig (Elt F)) {r : Ref sig .tc} (h : r ∉ h1_Wfrom5) :
    h1_val8 W (Proc.devRef .tc r) = h1_val5 W (Proc.devRef .tc r) :=
  (h1_fin6 W fun hm => h (List.mem_append_right _ hm)).trans (h1_val6_keep W fun hm => h (List.mem_append_left _ hm))
theorem h1_fin4 (W : Valuation τ sig (Elt F)) {r : Ref sig .tc} (h : r ∉ h1_Wfrom4) :
    h1_val8 W (Proc.devRef .tc r) = h1_val4 W (Proc.devRef .tc r) :=
  (h1_fin5 W fun hm => h (List.mem_append_right _ hm)).trans (h1_val5_keep W fun hm => h (List.mem_append_left _ hm))
theorem h1_fin3 (W : Valuation τ sig (Elt F)) {r : Ref sig .tc} (h : r ∉ h1_Wfrom3) :
    h1_val8 W (Proc.devRef .tc r) = h1_val3 W (Proc.devRef .tc r) :=
  (h1_fin4 W fun hm => h (List.mem_append_right _ hm)).trans (h1_val4_keep W fun hm => h (List.mem_append_left _ hm))
theorem h1_fin2 (W : Valuation τ sig (Elt F)) {r : Ref sig .tc} (h : r ∉ h1_Wfrom2) :
    h1_val8 W (Proc.devRef .tc r) = h1_val2 W (Proc.devRef .tc r) :=
  (h1_fin3 W fun hm => h (List.mem_append_right _ hm)).trans (h1_val3_keep W fun hm => h (List.mem_append_left _ hm))
theorem h1_fin1 (W : Valuation τ sig (Elt F)) {r : Ref sig .tc} (h : r ∉ h1_Wfrom1) :
    h1_val8 W (Proc.devRef .tc r) = h1_val1 W (Proc.devRef .tc r) :=
  (h1_fin2 W fun hm => h (List.mem_append_right _ hm)).trans (h1_val2_keep W fun hm => h (List.mem_append_left _ hm))
theorem h1_fin0 (W : Valuation τ sig (Elt F)) {r : Ref sig .tc} (h : r ∉ h1_Wfrom0) :
    h1_val8 W (Proc.devRef .tc r) = h1_val0 W (Proc.devRef .tc r) :=
  (h1_fin1 W fun hm => h (List.mem_append_right _ hm)).trans (h1_val1_keep W fun hm => h (List.mem_append_left _ hm))

def h1_Wupto0 : List (Ref sig .tc) := []
def h1_Wupto1 : List (Ref sig .tc) := h1_Wupto0 ++ h1_sg0_W
def h1_Wupto2 : List (Ref sig .tc) := h1_Wupto1 ++ h1_sg1_W
def h1_Wupto3 : List (Ref sig .tc) := h1_Wupto2 ++ h1_sg2_W
def h1_Wupto4 : List (Ref sig .tc) := h1_Wupto3 ++ h1_sg3_W
def h1_Wupto5 : List (Ref sig .tc) := h1_Wupto4 ++ h1_sg4_W
def h1_Wupto6 : List (Ref sig .tc) := h1_Wupto5 ++ h1_sg5_W
def h1_Wupto7 : List (Ref sig .tc) := h1_Wupto6 ++ h1_sg6_W
def h1_Wupto8 : List (Ref sig .tc) := h1_Wupto7 ++ h1_sg7_W

/-- A buffer not written by the first k cuts holds after them what it held before the stretch. -/
theorem h1_pre0 (W : Valuation τ sig (Elt F)) {r : Ref sig .tc} (_h : r ∉ h1_Wupto0) :
    h1_val0 W (Proc.devRef .tc r) = W (Proc.devRef .tc r) := rfl
theorem h1_pre1 (W : Valuation τ sig (Elt F)) {r : Ref sig .tc} (h : r ∉ h1_Wupto1) :
    h1_val1 W (Proc.devRef .tc r) = W (Proc.devRef .tc r) :=
  (h1_val1_keep W fun hm => h (List.mem_append_right _ hm)).trans (h1_pre0 W fun hm => h (List.mem_append_left _ hm))
theorem h1_pre2 (W : Valuation τ sig (Elt F)) {r : Ref sig .tc} (h : r ∉ h1_Wupto2) :
    h1_val2 W (Proc.devRef .tc r) = W (Proc.devRef .tc r) :=
  (h1_val2_keep W fun hm => h (List.mem_append_right _ hm)).trans (h1_pre1 W fun hm => h (List.mem_append_left _ hm))
theorem h1_pre3 (W : Valuation τ sig (Elt F)) {r : Ref sig .tc} (h : r ∉ h1_Wupto3) :
    h1_val3 W (Proc.devRef .tc r) = W (Proc.devRef .tc r) :=
  (h1_val3_keep W fun hm => h (List.mem_append_right _ hm)).trans (h1_pre2 W fun hm => h (List.mem_append_left _ hm))
theorem h1_pre4 (W : Valuation τ sig (Elt F)) {r : Ref sig .tc} (h : r ∉ h1_Wupto4) :
    h1_val4 W (Proc.devRef .tc r) = W (Proc.devRef .tc r) :=
  (h1_val4_keep W fun hm => h (List.mem_append_right _ hm)).trans (h1_pre3 W fun hm => h (List.mem_append_left _ hm))
theorem h1_pre5 (W : Valuation τ sig (Elt F)) {r : Ref sig .tc} (h : r ∉ h1_Wupto5) :
    h1_val5 W (Proc.devRef .tc r) = W (Proc.devRef .tc r) :=
  (h1_val5_keep W fun hm => h (List.mem_append_right _ hm)).trans (h1_pre4 W fun hm => h (List.mem_append_left _ hm))
theorem h1_pre6 (W : Valuation τ sig (Elt F)) {r : Ref sig .tc} (h : r ∉ h1_Wupto6) :
    h1_val6 W (Proc.devRef .tc r) = W (Proc.devRef .tc r) :=
  (h1_val6_keep W fun hm => h (List.mem_append_right _ hm)).trans (h1_pre5 W fun hm => h (List.mem_append_left _ hm))
theorem h1_pre7 (W : Valuation τ sig (Elt F)) {r : Ref sig .tc} (h : r ∉ h1_Wupto7) :
    h1_val7 W (Proc.devRef .tc r) = W (Proc.devRef .tc r) :=
  (h1_val7_keep W fun hm => h (List.mem_append_right _ hm)).trans (h1_pre6 W fun hm => h (List.mem_append_left _ hm))
theorem h1_pre8 (W : Valuation τ sig (Elt F)) {r : Ref sig .tc} (h : r ∉ h1_Wupto8) :
    h1_val8 W (Proc.devRef .tc r) = W (Proc.devRef .tc r) :=
  (h1_val8_keep W fun hm => h (List.mem_append_right _ hm)).trans (h1_pre7 W fun hm => h (List.mem_append_left _ hm))

end Cert.KernelIdeal.Hand

end
-- ==== Proof.KIdeal.Host1S0.lean ====
/- Cut 0 of the kernel program's host stretch hostOps1…: run from any contents it leaves its named buffer at the cut's
   function of what it reads — the reference program's own function where the operations are the same chain. -/
import proofs.«159603_j71347996721325_2_alg».proof.Proof.KIdeal.Host1Ops
import proofs.«159603_j71347996721325_2_alg».proof.Proof.KIdeal.HostFns
import proofs.«159603_j71347996721325_2_alg».proof.Proof.RefFns

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

set_option maxRecDepth 65536 in
set_option maxHeartbeats 4000000 in
theorem h1_sg0_main_v90 (W : Valuation τ sig (Elt F)) :
    after h1_sg0 W (Proc.devRef .tc main_v90) = kresh_w2 (W (Proc.devRef .tc main_arg6)) := by
  simp only [h1_sg0, h1_p0, StableHlo.after_append]
  after_results_simp
  rfl

end Cert.KernelIdeal.Hand

end
-- ==== Proof.KIdeal.Host1S1.lean ====
/- Cut 1 of the kernel program's host stretch hostOps1…: run from any contents it leaves its named buffer at the cut's
   function of what it reads — the reference program's own function where the operations are the same chain. -/
import proofs.«159603_j71347996721325_2_alg».proof.Proof.KIdeal.Host1Ops
import proofs.«159603_j71347996721325_2_alg».proof.Proof.KIdeal.HostFns
import proofs.«159603_j71347996721325_2_alg».proof.Proof.RefFns

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

set_option maxRecDepth 65536 in
set_option maxHeartbeats 4000000 in
theorem h1_sg1_main_v108 (W : Valuation τ sig (Elt F)) :
    after h1_sg1 W (Proc.devRef .tc main_v108) = Cert.ReferenceIdeal.RefRun.res_main_v141 (W (Proc.devRef .tc main_arg1)) (W (Proc.devRef .tc main_v89)) (W (Proc.devRef .tc main_v29)) (W (Proc.devRef .tc main_arg2)) := by
  simp only [h1_sg1, h1_p1, StableHlo.after_append]
  after_results_simp
  rfl

end Cert.KernelIdeal.Hand

end
-- ==== Proof.KIdeal.Host1S2.lean ====
/- Cut 2 of the kernel program's host stretch hostOps1…: run from any contents it leaves its named buffer at the cut's
   function of what it reads — the reference program's own function where the operations are the same chain. -/
import proofs.«159603_j71347996721325_2_alg».proof.Proof.KIdeal.Host1Ops
import proofs.«159603_j71347996721325_2_alg».proof.Proof.KIdeal.HostFns
import proofs.«159603_j71347996721325_2_alg».proof.Proof.RefFns

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

set_option maxRecDepth 65536 in
set_option maxHeartbeats 4000000 in
theorem h1_sg2_main_v126 (W : Valuation τ sig (Elt F)) :
    after h1_sg2 W (Proc.devRef .tc main_v126) = Cert.ReferenceIdeal.RefRun.res_main_v141 (W (Proc.devRef .tc main_arg1)) (W (Proc.devRef .tc main_v108)) (W (Proc.devRef .tc main_v29)) (W (Proc.devRef .tc main_arg2)) := by
  simp only [h1_sg2, h1_p2, StableHlo.after_append]
  after_results_simp
  rfl

end Cert.KernelIdeal.Hand

end
-- ==== Proof.KIdeal.Host1S3.lean ====
/- Cut 3 of the kernel program's host stretch hostOps1…: run from any contents it leaves its named buffer at the cut's
   function of what it reads — the reference program's own function where the operations are the same chain. -/
import proofs.«159603_j71347996721325_2_alg».proof.Proof.KIdeal.Host1Ops
import proofs.«159603_j71347996721325_2_alg».proof.Proof.KIdeal.HostFns
import proofs.«159603_j71347996721325_2_alg».proof.Proof.RefFns

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

set_option maxRecDepth 65536 in
set_option maxHeartbeats 4000000 in
theorem h1_sg3_main_v144 (W : Valuation τ sig (Elt F)) :
    after h1_sg3 W (Proc.devRef .tc main_v144) = Cert.ReferenceIdeal.RefRun.res_main_v141 (W (Proc.devRef .tc main_arg1)) (W (Proc.devRef .tc main_v126)) (W (Proc.devRef .tc main_v29)) (W (Proc.devRef .tc main_arg2)) := by
  simp only [h1_sg3, h1_p3, StableHlo.after_append]
  after_results_simp
  rfl

end Cert.KernelIdeal.Hand

end
-- ==== Proof.KIdeal.Host1S4.lean ====
/- Cut 4 of the kernel program's host stretch hostOps1…: run from any contents it leaves its named buffer at the cut's
   function of what it reads — the reference program's own function where the operations are the same chain. -/
import proofs.«159603_j71347996721325_2_alg».proof.Proof.KIdeal.Host1Ops
import proofs.«159603_j71347996721325_2_alg».proof.Proof.KIdeal.HostFns
import proofs.«159603_j71347996721325_2_alg».proof.Proof.RefFns

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

set_option maxRecDepth 65536 in
set_option maxHeartbeats 4000000 in
theorem h1_sg4_main_v145 (W : Valuation τ sig (Elt F)) :
    after h1_sg4 W (Proc.devRef .tc main_v145) = kcat64 (W (Proc.devRef .tc main_v89)) (W (Proc.devRef .tc main_v108)) (W (Proc.devRef .tc main_v126)) (W (Proc.devRef .tc main_v144)) := by
  simp only [h1_sg4, h1_p4, StableHlo.after_append]
  after_results_simp
  rfl

end Cert.KernelIdeal.Hand

end
-- ==== Proof.KIdeal.Host1S5.lean ====
/- Cut 5 of the kernel program's host stretch hostOps1…: run from any contents it leaves its named buffer at the cut's
   function of what it reads — the reference program's own function where the operations are the same chain. -/
import proofs.«159603_j71347996721325_2_alg».proof.Proof.KIdeal.Host1Ops
import proofs.«159603_j71347996721325_2_alg».proof.Proof.KIdeal.HostFns
import proofs.«159603_j71347996721325_2_alg».proof.Proof.RefFns

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

set_option maxRecDepth 65536 in
set_option maxHeartbeats 4000000 in
theorem h1_sg5_main_v146 (W : Valuation τ sig (Elt F)) :
    after h1_sg5 W (Proc.devRef .tc main_v146) = kresh_row64 (W (Proc.devRef .tc main_arg7)) := by
  simp only [h1_sg5, h1_p5, StableHlo.after_append]
  after_results_simp
  rfl

end Cert.KernelIdeal.Hand

end
-- ==== Proof.KIdeal.Host1S6.lean ====
/- Cut 6 of the kernel program's host stretch hostOps1…: run from any contents it leaves its named buffer at the cut's
   function of what it reads — the reference program's own function where the operations are the same chain. -/
import proofs.«159603_j71347996721325_2_alg».proof.Proof.KIdeal.Host1Ops
import proofs.«159603_j71347996721325_2_alg».proof.Proof.KIdeal.HostFns
import proofs.«159603_j71347996721325_2_alg».proof.Proof.RefFns

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

set_option maxRecDepth 65536 in
set_option maxHeartbeats 4000000 in
theorem h1_sg6_main_v147 (W : Valuation τ sig (Elt F)) :
    after h1_sg6 W (Proc.devRef .tc main_v147) = kresh_col (W (Proc.devRef .tc main_arg12)) := by
  simp only [h1_sg6, h1_p6, StableHlo.after_append]
  after_results_simp
  rfl

end Cert.KernelIdeal.Hand

end
-- ==== Proof.KIdeal.Host1S7.lean ====
/- Cut 7 of the kernel program's host stretch hostOps1…: run from any contents it leaves its named buffer at the cut's
   function of what it reads — the reference program's own function where the operations are the same chain. -/
import proofs.«159603_j71347996721325_2_alg».proof.Proof.KIdeal.Host1Ops
import proofs.«159603_j71347996721325_2_alg».proof.Proof.KIdeal.HostFns
import proofs.«159603_j71347996721325_2_alg».proof.Proof.RefFns

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

set_option maxRecDepth 65536 in
set_option maxHeartbeats 4000000 in
theorem h1_sg7_main_v148 (W : Valuation τ sig (Elt F)) :
    after h1_sg7 W (Proc.devRef .tc main_v148) = kresh_col (W (Proc.devRef .tc main_arg13)) := by
  simp only [h1_sg7, h1_p7, StableHlo.after_append]
  after_results_simp
  rfl

end Cert.KernelIdeal.Hand

end
-- ==== Proof.KIdeal.Host1.lean ====
/- The kernel program's host stretch hostOps1 read back: from any contents `W`, what each named buffer holds after
   it, as the named functions of what `W` holds in the buffers the stretch reads and of the stretch's earlier named buffers. -/
import proofs.«159603_j71347996721325_2_alg».proof.Proof.KIdeal.Host1S0
import proofs.«159603_j71347996721325_2_alg».proof.Proof.KIdeal.Host1S1
import proofs.«159603_j71347996721325_2_alg».proof.Proof.KIdeal.Host1S2
import proofs.«159603_j71347996721325_2_alg».proof.Proof.KIdeal.Host1S3
import proofs.«159603_j71347996721325_2_alg».proof.Proof.KIdeal.Host1S4
import proofs.«159603_j71347996721325_2_alg».proof.Proof.KIdeal.Host1S5
import proofs.«159603_j71347996721325_2_alg».proof.Proof.KIdeal.Host1S6
import proofs.«159603_j71347996721325_2_alg».proof.Proof.KIdeal.Host1S7
import proofs.«159603_j71347996721325_2_alg».proof.Proof.RefComp

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

set_option maxRecDepth 65536 in
theorem h1_main_v90 (W : Valuation τ sig (Elt F)) :
    after hostOps1 (W) (Proc.devRef .tc main_v90)
      = kresh_w2 (W (Proc.devRef .tc main_arg6)) := by
  rw [h1_end W]
  have h := h1_sg0_main_v90 (h1_val0 W)
  rw [h1_pre0 W (r := main_arg6) (by decide)] at h
  exact (h1_fin1 W (r := main_v90) (by decide)).trans h

set_option maxRecDepth 65536 in
theorem h1_main_v108 (W : Valuation τ sig (Elt F)) :
    after hostOps1 (W) (Proc.devRef .tc main_v108)
      = Cert.ReferenceIdeal.RefRun.res_main_v141 (W (Proc.devRef .tc main_arg1)) (W (Proc.devRef .tc main_v89)) (W (Proc.devRef .tc main_v29)) (W (Proc.devRef .tc main_arg2)) := by
  rw [h1_end W]
  have h := h1_sg1_main_v108 (h1_val1 W)
  rw [h1_pre1 W (r := main_arg1) (by decide),
    h1_pre1 W (r := main_v89) (by decide),
    h1_pre1 W (r := main_v29) (by decide),
    h1_pre1 W (r := main_arg2) (by decide)] at h
  exact (h1_fin2 W (r := main_v108) (by decide)).trans h

set_option maxRecDepth 65536 in
theorem h1_main_v126 (W : Valuation τ sig (Elt F)) :
    after hostOps1 (W) (Proc.devRef .tc main_v126)
      = Cert.ReferenceIdeal.RefRun.res_main_v141 (W (Proc.devRef .tc main_arg1)) (after hostOps1 (W) (Proc.devRef .tc main_v108)) (W (Proc.devRef .tc main_v29)) (W (Proc.devRef .tc main_arg2)) := by
  rw [h1_end W]
  have h := h1_sg2_main_v126 (h1_val2 W)
  rw [h1_pre2 W (r := main_arg1) (by decide),
    ← h1_fin2 W (r := main_v108) (by decide),
    h1_pre2 W (r := main_v29) (by decide),
    h1_pre2 W (r := main_arg2) (by decide)] at h
  exact (h1_fin3 W (r := main_v126) (by decide)).trans h

set_option maxRecDepth 65536 in
theorem h1_main_v144 (W : Valuation τ sig (Elt F)) :
    after hostOps1 (W) (Proc.devRef .tc main_v144)
      = Cert.ReferenceIdeal.RefRun.res_main_v141 (W (Proc.devRef .tc main_arg1)) (after hostOps1 (W) (Proc.devRef .tc main_v126)) (W (Proc.devRef .tc main_v29)) (W (Proc.devRef .tc main_arg2)) := by
  rw [h1_end W]
  have h := h1_sg3_main_v144 (h1_val3 W)
  rw [h1_pre3 W (r := main_arg1) (by decide),
    ← h1_fin3 W (r := main_v126) (by decide),
    h1_pre3 W (r := main_v29) (by decide),
    h1_pre3 W (r := main_arg2) (by decide)] at h
  exact (h1_fin4 W (r := main_v144) (by decide)).trans h

set_option maxRecDepth 65536 in
theorem h1_main_v145 (W : Valuation τ sig (Elt F)) :
    after hostOps1 (W) (Proc.devRef .tc main_v145)
      = kcat64 (W (Proc.devRef .tc main_v89)) (after hostOps1 (W) (Proc.devRef .tc main_v108)) (after hostOps1 (W) (Proc.devRef .tc main_v126)) (after hostOps1 (W) (Proc.devRef .tc main_v144)) := by
  rw [h1_end W]
  have h := h1_sg4_main_v145 (h1_val4 W)
  rw [h1_pre4 W (r := main_v89) (by decide),
    ← h1_fin4 W (r := main_v108) (by decide),
    ← h1_fin4 W (r := main_v126) (by decide),
    ← h1_fin4 W (r := main_v144) (by decide)] at h
  exact (h1_fin5 W (r := main_v145) (by decide)).trans h

set_option maxRecDepth 65536 in
theorem h1_main_v146 (W : Valuation τ sig (Elt F)) :
    after hostOps1 (W) (Proc.devRef .tc main_v146)
      = kresh_row64 (W (Proc.devRef .tc main_arg7)) := by
  rw [h1_end W]
  have h := h1_sg5_main_v146 (h1_val5 W)
  rw [h1_pre5 W (r := main_arg7) (by decide)] at h
  exact (h1_fin6 W (r := main_v146) (by decide)).trans h

set_option maxRecDepth 65536 in
theorem h1_main_v147 (W : Valuation τ sig (Elt F)) :
    after hostOps1 (W) (Proc.devRef .tc main_v147)
      = kresh_col (W (Proc.devRef .tc main_arg12)) := by
  rw [h1_end W]
  have h := h1_sg6_main_v147 (h1_val6 W)
  rw [h1_pre6 W (r := main_arg12) (by decide)] at h
  exact (h1_fin7 W (r := main_v147) (by decide)).trans h

set_option maxRecDepth 65536 in
theorem h1_main_v148 (W : Valuation τ sig (Elt F)) :
    after hostOps1 (W) (Proc.devRef .tc main_v148)
      = kresh_col (W (Proc.devRef .tc main_arg13)) := by
  rw [h1_end W]
  have h := h1_sg7_main_v148 (h1_val7 W)
  rw [h1_pre7 W (r := main_arg13) (by decide)] at h
  exact (h1_fin8 W (r := main_v148) (by decide)).trans h

set_option maxRecDepth 65536 in
/-- The stretch does not write `main_v29`. -/
theorem h1_keep_main_v29 (W : Valuation τ sig (Elt F)) :
    after hostOps1 (W) (Proc.devRef .tc main_v29) = W (Proc.devRef .tc main_v29) := by
  rw [h1_end W]
  exact h1_pre8 W (r := main_v29) (by decide)

set_option maxRecDepth 65536 in
/-- The stretch does not write `main_v89`. -/
theorem h1_keep_main_v89 (W : Valuation τ sig (Elt F)) :
    after hostOps1 (W) (Proc.devRef .tc main_v89) = W (Proc.devRef .tc main_v89) := by
  rw [h1_end W]
  exact h1_pre8 W (r := main_v89) (by decide)

end Cert.KernelIdeal.Hand

end
-- ==== Proof.KIdeal.Host2Ops.lean ====
/- The kernel program's host stretch hostOps2, hostOps2_1, hostOps2_2, hostOps2_3, hostOps2_4 cut at its named buffers: the cut pieces as literal lists (the printed
   lists are these in a row), the buffers each writes, the contents after each cut, and that a buffer the later cuts do not
   write — or the earlier ones — holds what it held. -/
import proofs.«159603_j71347996721325_2_alg».proof.Proof.Gen.KernelIdeal.Launch
import Idealize.ShloMosaic.Lib.StableHlo.Run
import Idealize.ShloMosaic.Lib.Pipeline.Frame
import proofs.«159603_j71347996721325_2_alg».proof.Proof.RefLib

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

set_option maxRecDepth 65536

/-- Operations 1 … 1 of the stretch: the part of the cut ending in `main_v150` lying in `hostOps2`. -/
abbrev h2_p0 : List (HloOp τ sig (Elt F)) :=
  [ reshape main_arg8 main_v150 rfl shapeCasts_S4x64x2_S256x2 ]
abbrev h2_p0_W : List (Ref sig .tc) := [main_v150]
theorem h2_p0_writesF : (h2_p0 : List (HloOp τ sig (Elt F))).Forall fun op => op.writes ⊆ (h2_p0_W.map (Proc.devRef (τ := τ) .tc)).toFinset :=
  (Cert.RefLib.writes_sub_of_mem (y := main_v150) rfl (by decide))
theorem h2_p0_writes : Cert.RefLib.WritesIn (h2_p0 : List (HloOp τ sig (Elt F))) h2_p0_W := Cert.RefLib.WritesIn.of_forall h2_p0_writesF

/-- Operations 2 … 24 of the stretch: the part of the cut ending in `main_v168` lying in `hostOps2`. -/
abbrev h2_p1 : List (HloOp τ sig (Elt F)) :=
  [ nullary main_c_38 (constantI S_ 32 0#32),
    unary main_c_38 main_v151 (broadcastInDim S400000 ![] bcast_S_S400000 : (⟨S_, .i32⟩ : BufTy).Contents (Elt F) → (⟨S400000, .i32⟩ : BufTy).Contents (Elt F)),
    binary main_arg1 main_v151 main_v152 (cmpi .slt : (⟨S400000, .i32⟩ : BufTy).Contents (Elt F) → (⟨S400000, .i32⟩ : BufTy).Contents (Elt F) → (⟨S400000, .i1⟩ : BufTy).Contents (Elt F)),
    nullary main_c_39 (constantI S_ 32 50000#32),
    unary main_c_39 main_v153 (broadcastInDim S400000 ![] bcast_S_S400000 : (⟨S_, .i32⟩ : BufTy).Contents (Elt F) → (⟨S400000, .i32⟩ : BufTy).Contents (Elt F)),
    binary main_arg1 main_v153 main_v154 (addi : (⟨S400000, .i32⟩ : BufTy).Contents (Elt F) → (⟨S400000, .i32⟩ : BufTy).Contents (Elt F) → (⟨S400000, .i32⟩ : BufTy).Contents (Elt F)),
    ternary main_v152 main_v154 main_arg1 main_v155 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v155 main_v156 (broadcastInDim S400000x1 ![0] bcast_S400000_S400000x1_0 : (⟨S400000, .i32⟩ : BufTy).Contents (Elt F) → (⟨S400000x1, .i32⟩ : BufTy).Contents (Elt F)),
    binary main_v149 main_v156 main_v157 ((fun x i => Host.gather gather_S4x50000x64_S400000x1_S4x400000x64_02_1_n_n_1_1_4164 x i) : (⟨S4x50000x64, .f32⟩ : BufTy).Contents (Elt F) → (⟨S400000x1, .i32⟩ : BufTy).Contents (Elt F) → (⟨S4x400000x64, .f32⟩ : BufTy).Contents (Elt F)),
    unary main_v29 main_v158 (broadcastInDim S1x400000x1 ![1] bcast_S400000_S1x400000x1_1 : (⟨S400000, .f32⟩ : BufTy).Contents (Elt F) → (⟨S1x400000x1, .f32⟩ : BufTy).Contents (Elt F)),
    unary main_v158 main_v159 (broadcastInDim S4x400000x64 ![0, 1, 2] bcast_S1x400000x1_S4x400000x64_0_1_2 : (⟨S1x400000x1, .f32⟩ : BufTy).Contents (Elt F) → (⟨S4x400000x64, .f32⟩ : BufTy).Contents (Elt F)),
    binary main_v157 main_v159 main_v160 (mulf : (⟨S4x400000x64, .f32⟩ : BufTy).Contents (Elt F) → (⟨S4x400000x64, .f32⟩ : BufTy).Contents (Elt F) → (⟨S4x400000x64, .f32⟩ : BufTy).Contents (Elt F)),
    nullary main_cst_40 (constant S_ .f32 0x00000000#32),
    unary main_cst_40 main_v161 (broadcastInDim S4x50000x64 ![] bcast_S_S4x50000x64 : (⟨S_, .f32⟩ : BufTy).Contents (Elt F) → (⟨S4x50000x64, .f32⟩ : BufTy).Contents (Elt F)),
    nullary main_c_41 (constantI S_ 32 0#32),
    unary main_c_41 main_v162 (broadcastInDim S400000 ![] bcast_S_S400000 : (⟨S_, .i32⟩ : BufTy).Contents (Elt F) → (⟨S400000, .i32⟩ : BufTy).Contents (Elt F)),
    binary main_arg2 main_v162 main_v163 (cmpi .slt : (⟨S400000, .i32⟩ : BufTy).Contents (Elt F) → (⟨S400000, .i32⟩ : BufTy).Contents (Elt F) → (⟨S400000, .i1⟩ : BufTy).Contents (Elt F)),
    nullary main_c_42 (constantI S_ 32 50000#32),
    unary main_c_42 main_v164 (broadcastInDim S400000 ![] bcast_S_S400000 : (⟨S_, .i32⟩ : BufTy).Contents (Elt F) → (⟨S400000, .i32⟩ : BufTy).Contents (Elt F)),
    binary main_arg2 main_v164 main_v165 (addi : (⟨S400000, .i32⟩ : BufTy).Contents (Elt F) → (⟨S400000, .i32⟩ : BufTy).Contents (Elt F) → (⟨S400000, .i32⟩ : BufTy).Contents (Elt F)),
    ternary main_v163 main_v165 main_arg2 main_v166 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v166 main_v167 (broadcastInDim S400000x1 ![0] bcast_S400000_S400000x1_0 : (⟨S400000, .i32⟩ : BufTy).Contents (Elt F) → (⟨S400000x1, .i32⟩ : BufTy).Contents (Elt F)),
    ternary main_v161 main_v167 main_v160 main_v168 ((fun x i u => Host.scatterAdd scatter_S4x50000x64_S400000x1_S4x400000x64_02_1_1_1 x i u) : (⟨S4x50000x64, .f32⟩ : BufTy).Contents (Elt F) → (⟨S400000x1, .i32⟩ : BufTy).Contents (Elt F) → (⟨S4x400000x64, .f32⟩ : BufTy).Contents (Elt F) → (⟨S4x50000x64, .f32⟩ : BufTy).Contents (Elt F)) ]
abbrev h2_p1_W : List (Ref sig .tc) := [main_c_38, main_v151, main_v152, main_c_39, main_v153, main_v154, main_v155, main_v156, main_v157, main_v158, main_v159, main_v160, main_cst_40, main_v161, main_c_41, main_v162, main_v163, main_c_42, main_v164, main_v165, main_v166, main_v167, main_v168]
theorem h2_p1_writesF : (h2_p1 : List (HloOp τ sig (Elt F))).Forall fun op => op.writes ⊆ (h2_p1_W.map (Proc.devRef (τ := τ) .tc)).toFinset :=
  ⟨Cert.RefLib.writes_sub_of_mem (y := main_c_38) rfl (by decide),
    Cert.RefLib.writes_sub_of_mem (y := main_v151) rfl (by decide),
    Cert.RefLib.writes_sub_of_mem (y := main_v152) rfl (by decide),
    Cert.RefLib.writes_sub_of_mem (y := main_c_39) rfl (by decide),
    Cert.RefLib.writes_sub_of_mem (y := main_v153) rfl (by decide),
    Cert.RefLib.writes_sub_of_mem (y := main_v154) rfl (by decide),
    Cert.RefLib.writes_sub_of_mem (y := main_v155) rfl (by decide),
    Cert.RefLib.writes_sub_of_mem (y := main_v156) rfl (by decide),
    Cert.RefLib.writes_sub_of_mem (y := main_v157) rfl (by decide),
    Cert.RefLib.writes_sub_of_mem (y := main_v158) rfl (by decide),
    Cert.RefLib.writes_sub_of_mem (y := main_v159) rfl (by decide),
    Cert.RefLib.writes_sub_of_mem (y := main_v160) rfl (by decide),
    Cert.RefLib.writes_sub_of_mem (y := main_cst_40) rfl (by decide),
    Cert.RefLib.writes_sub_of_mem (y := main_v161) rfl (by decide),
    Cert.RefLib.writes_sub_of_mem (y := main_c_41) rfl (by decide),
    Cert.RefLib.writes_sub_of_mem (y := main_v162) rfl (by decide),
    Cert.RefLib.writes_sub_of_mem (y := main_v163) rfl (by decide),
    Cert.RefLib.writes_sub_of_mem (y := main_c_42) rfl (by decide),
    Cert.RefLib.writes_sub_of_mem (y := main_v164) rfl (by decide),
    Cert.RefLib.writes_sub_of_mem (y := main_v165) rfl (by decide),
    Cert.RefLib.writes_sub_of_mem (y := main_v166) rfl (by decide),
    Cert.RefLib.writes_sub_of_mem (y := main_v167) rfl (by decide),
    Cert.RefLib.writes_sub_of_mem (y := main_v168) rfl (by decide)⟩
theorem h2_p1_writes : Cert.RefLib.WritesIn (h2_p1 : List (HloOp τ sig (Elt F))) h2_p1_W := Cert.RefLib.WritesIn.of_forall h2_p1_writesF

/-- Operations 25 … 47 of the stretch: the part of the cut ending in `main_v186` lying in `hostOps2`. -/
abbrev h2_p2 : List (HloOp τ sig (Elt F)) :=
  [ nullary main_c_43 (constantI S_ 32 0#32),
    unary main_c_43 main_v169 (broadcastInDim S400000 ![] bcast_S_S400000 : (⟨S_, .i32⟩ : BufTy).Contents (Elt F) → (⟨S400000, .i32⟩ : BufTy).Contents (Elt F)),
    binary main_arg1 main_v169 main_v170 (cmpi .slt : (⟨S400000, .i32⟩ : BufTy).Contents (Elt F) → (⟨S400000, .i32⟩ : BufTy).Contents (Elt F) → (⟨S400000, .i1⟩ : BufTy).Contents (Elt F)),
    nullary main_c_44 (constantI S_ 32 50000#32),
    unary main_c_44 main_v171 (broadcastInDim S400000 ![] bcast_S_S400000 : (⟨S_, .i32⟩ : BufTy).Contents (Elt F) → (⟨S400000, .i32⟩ : BufTy).Contents (Elt F)),
    binary main_arg1 main_v171 main_v172 (addi : (⟨S400000, .i32⟩ : BufTy).Contents (Elt F) → (⟨S400000, .i32⟩ : BufTy).Contents (Elt F) → (⟨S400000, .i32⟩ : BufTy).Contents (Elt F)),
    ternary main_v170 main_v172 main_arg1 main_v173 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v173 main_v174 (broadcastInDim S400000x1 ![0] bcast_S400000_S400000x1_0 : (⟨S400000, .i32⟩ : BufTy).Contents (Elt F) → (⟨S400000x1, .i32⟩ : BufTy).Contents (Elt F)),
    binary main_v168 main_v174 main_v175 ((fun x i => Host.gather gather_S4x50000x64_S400000x1_S4x400000x64_02_1_n_n_1_1_4164 x i) : (⟨S4x50000x64, .f32⟩ : BufTy).Contents (Elt F) → (⟨S400000x1, .i32⟩ : BufTy).Contents (Elt F) → (⟨S4x400000x64, .f32⟩ : BufTy).Contents (Elt F)),
    unary main_v29 main_v176 (broadcastInDim S1x400000x1 ![1] bcast_S400000_S1x400000x1_1 : (⟨S400000, .f32⟩ : BufTy).Contents (Elt F) → (⟨S1x400000x1, .f32⟩ : BufTy).Contents (Elt F)),
    unary main_v176 main_v177 (broadcastInDim S4x400000x64 ![0, 1, 2] bcast_S1x400000x1_S4x400000x64_0_1_2 : (⟨S1x400000x1, .f32⟩ : BufTy).Contents (Elt F) → (⟨S4x400000x64, .f32⟩ : BufTy).Contents (Elt F)),
    binary main_v175 main_v177 main_v178 (mulf : (⟨S4x400000x64, .f32⟩ : BufTy).Contents (Elt F) → (⟨S4x400000x64, .f32⟩ : BufTy).Contents (Elt F) → (⟨S4x400000x64, .f32⟩ : BufTy).Contents (Elt F)),
    nullary main_cst_45 (constant S_ .f32 0x00000000#32),
    unary main_cst_45 main_v179 (broadcastInDim S4x50000x64 ![] bcast_S_S4x50000x64 : (⟨S_, .f32⟩ : BufTy).Contents (Elt F) → (⟨S4x50000x64, .f32⟩ : BufTy).Contents (Elt F)),
    nullary main_c_46 (constantI S_ 32 0#32),
    unary main_c_46 main_v180 (broadcastInDim S400000 ![] bcast_S_S400000 : (⟨S_, .i32⟩ : BufTy).Contents (Elt F) → (⟨S400000, .i32⟩ : BufTy).Contents (Elt F)),
    binary main_arg2 main_v180 main_v181 (cmpi .slt : (⟨S400000, .i32⟩ : BufTy).Contents (Elt F) → (⟨S400000, .i32⟩ : BufTy).Contents (Elt F) → (⟨S400000, .i1⟩ : BufTy).Contents (Elt F)),
    nullary main_c_47 (constantI S_ 32 50000#32),
    unary main_c_47 main_v182 (broadcastInDim S400000 ![] bcast_S_S400000 : (⟨S_, .i32⟩ : BufTy).Contents (Elt F) → (⟨S400000, .i32⟩ : BufTy).Contents (Elt F)),
    binary main_arg2 main_v182 main_v183 (addi : (⟨S400000, .i32⟩ : BufTy).Contents (Elt F) → (⟨S400000, .i32⟩ : BufTy).Contents (Elt F) → (⟨S400000, .i32⟩ : BufTy).Contents (Elt F)),
    ternary main_v181 main_v183 main_arg2 main_v184 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v184 main_v185 (broadcastInDim S400000x1 ![0] bcast_S400000_S400000x1_0 : (⟨S400000, .i32⟩ : BufTy).Contents (Elt F) → (⟨S400000x1, .i32⟩ : BufTy).Contents (Elt F)),
    ternary main_v179 main_v185 main_v178 main_v186 ((fun x i u => Host.scatterAdd scatter_S4x50000x64_S400000x1_S4x400000x64_02_1_1_1 x i u) : (⟨S4x50000x64, .f32⟩ : BufTy).Contents (Elt F) → (⟨S400000x1, .i32⟩ : BufTy).Contents (Elt F) → (⟨S4x400000x64, .f32⟩ : BufTy).Contents (Elt F) → (⟨S4x50000x64, .f32⟩ : BufTy).Contents (Elt F)) ]
abbrev h2_p2_W : List (Ref sig .tc) := [main_c_43, main_v169, main_v170, main_c_44, main_v171, main_v172, main_v173, main_v174, main_v175, main_v176, main_v177, main_v178, main_cst_45, main_v179, main_c_46, main_v180, main_v181, main_c_47, main_v182, main_v183, main_v184, main_v185, main_v186]
theorem h2_p2_writesF : (h2_p2 : List (HloOp τ sig (Elt F))).Forall fun op => op.writes ⊆ (h2_p2_W.map (Proc.devRef (τ := τ) .tc)).toFinset :=
  ⟨Cert.RefLib.writes_sub_of_mem (y := main_c_43) rfl (by decide),
    Cert.RefLib.writes_sub_of_mem (y := main_v169) rfl (by decide),
    Cert.RefLib.writes_sub_of_mem (y := main_v170) rfl (by decide),
    Cert.RefLib.writes_sub_of_mem (y := main_c_44) rfl (by decide),
    Cert.RefLib.writes_sub_of_mem (y := main_v171) rfl (by decide),
    Cert.RefLib.writes_sub_of_mem (y := main_v172) rfl (by decide),
    Cert.RefLib.writes_sub_of_mem (y := main_v173) rfl (by decide),
    Cert.RefLib.writes_sub_of_mem (y := main_v174) rfl (by decide),
    Cert.RefLib.writes_sub_of_mem (y := main_v175) rfl (by decide),
    Cert.RefLib.writes_sub_of_mem (y := main_v176) rfl (by decide),
    Cert.RefLib.writes_sub_of_mem (y := main_v177) rfl (by decide),
    Cert.RefLib.writes_sub_of_mem (y := main_v178) rfl (by decide),
    Cert.RefLib.writes_sub_of_mem (y := main_cst_45) rfl (by decide),
    Cert.RefLib.writes_sub_of_mem (y := main_v179) rfl (by decide),
    Cert.RefLib.writes_sub_of_mem (y := main_c_46) rfl (by decide),
    Cert.RefLib.writes_sub_of_mem (y := main_v180) rfl (by decide),
    Cert.RefLib.writes_sub_of_mem (y := main_v181) rfl (by decide),
    Cert.RefLib.writes_sub_of_mem (y := main_c_47) rfl (by decide),
    Cert.RefLib.writes_sub_of_mem (y := main_v182) rfl (by decide),
    Cert.RefLib.writes_sub_of_mem (y := main_v183) rfl (by decide),
    Cert.RefLib.writes_sub_of_mem (y := main_v184) rfl (by decide),
    Cert.RefLib.writes_sub_of_mem (y := main_v185) rfl (by decide),
    Cert.RefLib.writes_sub_of_mem (y := main_v186) rfl (by decide)⟩
theorem h2_p2_writes : Cert.RefLib.WritesIn (h2_p2 : List (HloOp τ sig (Elt F))) h2_p2_W := Cert.RefLib.WritesIn.of_forall h2_p2_writesF

/-- Operations 48 … 70 of the stretch: the part of the cut ending in `main_v204` lying in `hostOps2`. -/
abbrev h2_p3 : List (HloOp τ sig (Elt F)) :=
  [ nullary main_c_48 (constantI S_ 32 0#32),
    unary main_c_48 main_v187 (broadcastInDim S400000 ![] bcast_S_S400000 : (⟨S_, .i32⟩ : BufTy).Contents (Elt F) → (⟨S400000, .i32⟩ : BufTy).Contents (Elt F)),
    binary main_arg1 main_v187 main_v188 (cmpi .slt : (⟨S400000, .i32⟩ : BufTy).Contents (Elt F) → (⟨S400000, .i32⟩ : BufTy).Contents (Elt F) → (⟨S400000, .i1⟩ : BufTy).Contents (Elt F)),
    nullary main_c_49 (constantI S_ 32 50000#32),
    unary main_c_49 main_v189 (broadcastInDim S400000 ![] bcast_S_S400000 : (⟨S_, .i32⟩ : BufTy).Contents (Elt F) → (⟨S400000, .i32⟩ : BufTy).Contents (Elt F)),
    binary main_arg1 main_v189 main_v190 (addi : (⟨S400000, .i32⟩ : BufTy).Contents (Elt F) → (⟨S400000, .i32⟩ : BufTy).Contents (Elt F) → (⟨S400000, .i32⟩ : BufTy).Contents (Elt F)),
    ternary main_v188 main_v190 main_arg1 main_v191 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v191 main_v192 (broadcastInDim S400000x1 ![0] bcast_S400000_S400000x1_0 : (⟨S400000, .i32⟩ : BufTy).Contents (Elt F) → (⟨S400000x1, .i32⟩ : BufTy).Contents (Elt F)),
    binary main_v186 main_v192 main_v193 ((fun x i => Host.gather gather_S4x50000x64_S400000x1_S4x400000x64_02_1_n_n_1_1_4164 x i) : (⟨S4x50000x64, .f32⟩ : BufTy).Contents (Elt F) → (⟨S400000x1, .i32⟩ : BufTy).Contents (Elt F) → (⟨S4x400000x64, .f32⟩ : BufTy).Contents (Elt F)),
    unary main_v29 main_v194 (broadcastInDim S1x400000x1 ![1] bcast_S400000_S1x400000x1_1 : (⟨S400000, .f32⟩ : BufTy).Contents (Elt F) → (⟨S1x400000x1, .f32⟩ : BufTy).Contents (Elt F)),
    unary main_v194 main_v195 (broadcastInDim S4x400000x64 ![0, 1, 2] bcast_S1x400000x1_S4x400000x64_0_1_2 : (⟨S1x400000x1, .f32⟩ : BufTy).Contents (Elt F) → (⟨S4x400000x64, .f32⟩ : BufTy).Contents (Elt F)),
    binary main_v193 main_v195 main_v196 (mulf : (⟨S4x400000x64, .f32⟩ : BufTy).Contents (Elt F) → (⟨S4x400000x64, .f32⟩ : BufTy).Contents (Elt F) → (⟨S4x400000x64, .f32⟩ : BufTy).Contents (Elt F)),
    nullary main_cst_50 (constant S_ .f32 0x00000000#32),
    unary main_cst_50 main_v197 (broadcastInDim S4x50000x64 ![] bcast_S_S4x50000x64 : (⟨S_, .f32⟩ : BufTy).Contents (Elt F) → (⟨S4x50000x64, .f32⟩ : BufTy).Contents (Elt F)),
    nullary main_c_51 (constantI S_ 32 0#32),
    unary main_c_51 main_v198 (broadcastInDim S400000 ![] bcast_S_S400000 : (⟨S_, .i32⟩ : BufTy).Contents (Elt F) → (⟨S400000, .i32⟩ : BufTy).Contents (Elt F)),
    binary main_arg2 main_v198 main_v199 (cmpi .slt : (⟨S400000, .i32⟩ : BufTy).Contents (Elt F) → (⟨S400000, .i32⟩ : BufTy).Contents (Elt F) → (⟨S400000, .i1⟩ : BufTy).Contents (Elt F)),
    nullary main_c_52 (constantI S_ 32 50000#32),
    unary main_c_52 main_v200 (broadcastInDim S400000 ![] bcast_S_S400000 : (⟨S_, .i32⟩ : BufTy).Contents (Elt F) → (⟨S400000, .i32⟩ : BufTy).Contents (Elt F)),
    binary main_arg2 main_v200 main_v201 (addi : (⟨S400000, .i32⟩ : BufTy).Contents (Elt F) → (⟨S400000, .i32⟩ : BufTy).Contents (Elt F) → (⟨S400000, .i32⟩ : BufTy).Contents (Elt F)),
    ternary main_v199 main_v201 main_arg2 main_v202 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v202 main_v203 (broadcastInDim S400000x1 ![0] bcast_S400000_S400000x1_0 : (⟨S400000, .i32⟩ : BufTy).Contents (Elt F) → (⟨S400000x1, .i32⟩ : BufTy).Contents (Elt F)),
    ternary main_v197 main_v203 main_v196 main_v204 ((fun x i u => Host.scatterAdd scatter_S4x50000x64_S400000x1_S4x400000x64_02_1_1_1 x i u) : (⟨S4x50000x64, .f32⟩ : BufTy).Contents (Elt F) → (⟨S400000x1, .i32⟩ : BufTy).Contents (Elt F) → (⟨S4x400000x64, .f32⟩ : BufTy).Contents (Elt F) → (⟨S4x50000x64, .f32⟩ : BufTy).Contents (Elt F)) ]
abbrev h2_p3_W : List (Ref sig .tc) := [main_c_48, main_v187, main_v188, main_c_49, main_v189, main_v190, main_v191, main_v192, main_v193, main_v194, main_v195, main_v196, main_cst_50, main_v197, main_c_51, main_v198, main_v199, main_c_52, main_v200, main_v201, main_v202, main_v203, main_v204]
theorem h2_p3_writesF : (h2_p3 : List (HloOp τ sig (Elt F))).Forall fun op => op.writes ⊆ (h2_p3_W.map (Proc.devRef (τ := τ) .tc)).toFinset :=
  ⟨Cert.RefLib.writes_sub_of_mem (y := main_c_48) rfl (by decide),
    Cert.RefLib.writes_sub_of_mem (y := main_v187) rfl (by decide),
    Cert.RefLib.writes_sub_of_mem (y := main_v188) rfl (by decide),
    Cert.RefLib.writes_sub_of_mem (y := main_c_49) rfl (by decide),
    Cert.RefLib.writes_sub_of_mem (y := main_v189) rfl (by decide),
    Cert.RefLib.writes_sub_of_mem (y := main_v190) rfl (by decide),
    Cert.RefLib.writes_sub_of_mem (y := main_v191) rfl (by decide),
    Cert.RefLib.writes_sub_of_mem (y := main_v192) rfl (by decide),
    Cert.RefLib.writes_sub_of_mem (y := main_v193) rfl (by decide),
    Cert.RefLib.writes_sub_of_mem (y := main_v194) rfl (by decide),
    Cert.RefLib.writes_sub_of_mem (y := main_v195) rfl (by decide),
    Cert.RefLib.writes_sub_of_mem (y := main_v196) rfl (by decide),
    Cert.RefLib.writes_sub_of_mem (y := main_cst_50) rfl (by decide),
    Cert.RefLib.writes_sub_of_mem (y := main_v197) rfl (by decide),
    Cert.RefLib.writes_sub_of_mem (y := main_c_51) rfl (by decide),
    Cert.RefLib.writes_sub_of_mem (y := main_v198) rfl (by decide),
    Cert.RefLib.writes_sub_of_mem (y := main_v199) rfl (by decide),
    Cert.RefLib.writes_sub_of_mem (y := main_c_52) rfl (by decide),
    Cert.RefLib.writes_sub_of_mem (y := main_v200) rfl (by decide),
    Cert.RefLib.writes_sub_of_mem (y := main_v201) rfl (by decide),
    Cert.RefLib.writes_sub_of_mem (y := main_v202) rfl (by decide),
    Cert.RefLib.writes_sub_of_mem (y := main_v203) rfl (by decide),
    Cert.RefLib.writes_sub_of_mem (y := main_v204) rfl (by decide)⟩
theorem h2_p3_writes : Cert.RefLib.WritesIn (h2_p3 : List (HloOp τ sig (Elt F))) h2_p3_W := Cert.RefLib.WritesIn.of_forall h2_p3_writesF

/-- Operations 71 … 71 of the stretch: the part of the cut ending in `main_v205` lying in `hostOps2`. -/
abbrev h2_p4 : List (HloOp τ sig (Elt F)) :=
  [ nary ![main_v149, main_v168, main_v186, main_v204] main_v205 (fun u => concatenate S4x50000x256 2 [⟨S4x50000x64, u 0⟩, ⟨S4x50000x64, u 1⟩, ⟨S4x50000x64, u 2⟩, ⟨S4x50000x64, u 3⟩] concatenates_S4x50000x64_S4x50000x64_S4x50000x64_S4x50000x64_S4x50000x256_d2) ]
abbrev h2_p4_W : List (Ref sig .tc) := [main_v205]
theorem h2_p4_writesF : (h2_p4 : List (HloOp τ sig (Elt F))).Forall fun op => op.writes ⊆ (h2_p4_W.map (Proc.devRef (τ := τ) .tc)).toFinset :=
  (Cert.RefLib.writes_sub_of_mem (y := main_v205) rfl (by decide))
theorem h2_p4_writes : Cert.RefLib.WritesIn (h2_p4 : List (HloOp τ sig (Elt F))) h2_p4_W := Cert.RefLib.WritesIn.of_forall h2_p4_writesF

/-- Operations 72 … 75 of the stretch: the part of the cut ending in `main_v207` lying in `hostOps2_1`. -/
abbrev h2_p5 : List (HloOp τ sig (Elt F)) :=
  [ TRef.unary (.of main_arg16 : TRef sig ⟨S50000x2, .f32⟩) (.of main_call1_v0 : TRef sig ⟨S50000x2, .f32⟩) Host.absf,
    TRef.nullary (.of main_call1_cst : TRef sig ⟨S_, .f32⟩) (constant S_ .f32 0x7F800000#32),
    TRef.unary (.of main_call1_cst : TRef sig ⟨S_, .f32⟩) (.of main_call1_v1 : TRef sig ⟨S50000x2, .f32⟩) (broadcastInDim S50000x2 ![] bcast_S_S50000x2),
    TRef.binary (.of main_call1_v0 : TRef sig ⟨S50000x2, .f32⟩) (.of main_call1_v1 : TRef sig ⟨S50000x2, .f32⟩) (.of main_v206 : TRef sig ⟨S50000x2, .i1⟩) (cmpf .oeq) ]
abbrev h2_p5_W : List (Ref sig .tc) := [main_call1_v0, main_call1_cst, main_call1_v1, main_v206]
theorem h2_p5_writesF : (h2_p5 : List (HloOp τ sig (Elt F))).Forall fun op => op.writes ⊆ (h2_p5_W.map (Proc.devRef (τ := τ) .tc)).toFinset :=
  ⟨Cert.RefLib.writes_sub_of_mem (y := main_call1_v0) rfl (by decide),
    Cert.RefLib.writes_sub_of_mem (y := main_call1_cst) rfl (by decide),
    Cert.RefLib.writes_sub_of_mem (y := main_call1_v1) rfl (by decide),
    Cert.RefLib.writes_sub_of_mem (y := main_v206) rfl (by decide)⟩
theorem h2_p5_writes : Cert.RefLib.WritesIn (h2_p5 : List (HloOp τ sig (Elt F))) h2_p5_W := Cert.RefLib.WritesIn.of_forall h2_p5_writesF

/-- Operations 76 … 76 of the stretch: the part of the cut ending in `main_v207` lying in `hostOps2_2`. -/
abbrev h2_p6 : List (HloOp τ sig (Elt F)) :=
  [ nullary main_cst_53 (constant S_ .f32 0x00000000#32) ]
abbrev h2_p6_W : List (Ref sig .tc) := [main_cst_53]
theorem h2_p6_writesF : (h2_p6 : List (HloOp τ sig (Elt F))).Forall fun op => op.writes ⊆ (h2_p6_W.map (Proc.devRef (τ := τ) .tc)).toFinset :=
  (Cert.RefLib.writes_sub_of_mem (y := main_cst_53) rfl (by decide))
theorem h2_p6_writes : Cert.RefLib.WritesIn (h2_p6 : List (HloOp τ sig (Elt F))) h2_p6_W := Cert.RefLib.WritesIn.of_forall h2_p6_writesF

/-- Operations 77 … 79 of the stretch: the part of the cut ending in `main_v207` lying in `hostOps2_3`. -/
abbrev h2_p7 : List (HloOp τ sig (Elt F)) :=
  [ TRef.unary (.of main_cst_53 : TRef sig ⟨S_, .f32⟩) (.of main_call2_v0 : TRef sig ⟨S_, .f32⟩) id,
    TRef.unary (.of main_call2_v0 : TRef sig ⟨S_, .f32⟩) (.of main_call2_v1 : TRef sig ⟨S50000x2, .f32⟩) (broadcastInDim S50000x2 ![] bcast_S_S50000x2),
    TRef.ternary (.of main_v206 : TRef sig ⟨S50000x2, .i1⟩) (.of main_call2_v1 : TRef sig ⟨S50000x2, .f32⟩) (.of main_arg16 : TRef sig ⟨S50000x2, .f32⟩) (.of main_v207 : TRef sig ⟨S50000x2, .f32⟩) select ]
abbrev h2_p7_W : List (Ref sig .tc) := [main_call2_v0, main_call2_v1, main_v207]
theorem h2_p7_writesF : (h2_p7 : List (HloOp τ sig (Elt F))).Forall fun op => op.writes ⊆ (h2_p7_W.map (Proc.devRef (τ := τ) .tc)).toFinset :=
  ⟨Cert.RefLib.writes_sub_of_mem (y := main_call2_v0) rfl (by decide),
    Cert.RefLib.writes_sub_of_mem (y := main_call2_v1) rfl (by decide),
    Cert.RefLib.writes_sub_of_mem (y := main_v207) rfl (by decide)⟩
theorem h2_p7_writes : Cert.RefLib.WritesIn (h2_p7 : List (HloOp τ sig (Elt F))) h2_p7_W := Cert.RefLib.WritesIn.of_forall h2_p7_writesF

/-- Operations 80 … 82 of the stretch: the part of the cut ending in `main_v210` lying in `hostOps2_4`. -/
abbrev h2_p8 : List (HloOp τ sig (Elt F)) :=
  [ unary main_arg17 main_v208 (broadcastInDim S50000x1 ![0] bcast_S50000_S50000x1_0 : (⟨S50000, .f32⟩ : BufTy).Contents (Elt F) → (⟨S50000x1, .f32⟩ : BufTy).Contents (Elt F)),
    unary main_arg19 main_v209 (broadcastInDim S50000x1 ![0] bcast_S50000_S50000x1_0 : (⟨S50000, .f32⟩ : BufTy).Contents (Elt F) → (⟨S50000x1, .f32⟩ : BufTy).Contents (Elt F)),
    binary main_v208 main_v209 main_v210 ((fun a b => concatenate S50000x2 1 [⟨S50000x1, a⟩, ⟨S50000x1, b⟩] concatenates_S50000x1_S50000x1_S50000x2_d1) : (⟨S50000x1, .f32⟩ : BufTy).Contents (Elt F) → (⟨S50000x1, .f32⟩ : BufTy).Contents (Elt F) → (⟨S50000x2, .f32⟩ : BufTy).Contents (Elt F)) ]
abbrev h2_p8_W : List (Ref sig .tc) := [main_v208, main_v209, main_v210]
theorem h2_p8_writesF : (h2_p8 : List (HloOp τ sig (Elt F))).Forall fun op => op.writes ⊆ (h2_p8_W.map (Proc.devRef (τ := τ) .tc)).toFinset :=
  ⟨Cert.RefLib.writes_sub_of_mem (y := main_v208) rfl (by decide),
    Cert.RefLib.writes_sub_of_mem (y := main_v209) rfl (by decide),
    Cert.RefLib.writes_sub_of_mem (y := main_v210) rfl (by decide)⟩
theorem h2_p8_writes : Cert.RefLib.WritesIn (h2_p8 : List (HloOp τ sig (Elt F))) h2_p8_W := Cert.RefLib.WritesIn.of_forall h2_p8_writesF

/-- Operations 83 … 85 of the stretch: the part of the cut ending in `main_v213` lying in `hostOps2_4`. -/
abbrev h2_p9 : List (HloOp τ sig (Elt F)) :=
  [ unary main_arg18 main_v211 (broadcastInDim S50000x1 ![0] bcast_S50000_S50000x1_0 : (⟨S50000, .f32⟩ : BufTy).Contents (Elt F) → (⟨S50000x1, .f32⟩ : BufTy).Contents (Elt F)),
    unary main_arg20 main_v212 (broadcastInDim S50000x1 ![0] bcast_S50000_S50000x1_0 : (⟨S50000, .f32⟩ : BufTy).Contents (Elt F) → (⟨S50000x1, .f32⟩ : BufTy).Contents (Elt F)),
    binary main_v211 main_v212 main_v213 ((fun a b => concatenate S50000x2 1 [⟨S50000x1, a⟩, ⟨S50000x1, b⟩] concatenates_S50000x1_S50000x1_S50000x2_d1) : (⟨S50000x1, .f32⟩ : BufTy).Contents (Elt F) → (⟨S50000x1, .f32⟩ : BufTy).Contents (Elt F) → (⟨S50000x2, .f32⟩ : BufTy).Contents (Elt F)) ]
abbrev h2_p9_W : List (Ref sig .tc) := [main_v211, main_v212, main_v213]
theorem h2_p9_writesF : (h2_p9 : List (HloOp τ sig (Elt F))).Forall fun op => op.writes ⊆ (h2_p9_W.map (Proc.devRef (τ := τ) .tc)).toFinset :=
  ⟨Cert.RefLib.writes_sub_of_mem (y := main_v211) rfl (by decide),
    Cert.RefLib.writes_sub_of_mem (y := main_v212) rfl (by decide),
    Cert.RefLib.writes_sub_of_mem (y := main_v213) rfl (by decide)⟩
theorem h2_p9_writes : Cert.RefLib.WritesIn (h2_p9 : List (HloOp τ sig (Elt F))) h2_p9_W := Cert.RefLib.WritesIn.of_forall h2_p9_writesF

/-- Operations 86 … 86 of the stretch: the part of the cut ending in `main_v214` lying in `hostOps2_4`. -/
abbrev h2_p10 : List (HloOp τ sig (Elt F)) :=
  [ reshape main_arg9 main_v214 rfl shapeCasts_S2_S1x2 ]
abbrev h2_p10_W : List (Ref sig .tc) := [main_v214]
theorem h2_p10_writesF : (h2_p10 : List (HloOp τ sig (Elt F))).Forall fun op => op.writes ⊆ (h2_p10_W.map (Proc.devRef (τ := τ) .tc)).toFinset :=
  (Cert.RefLib.writes_sub_of_mem (y := main_v214) rfl (by decide))
theorem h2_p10_writes : Cert.RefLib.WritesIn (h2_p10 : List (HloOp τ sig (Elt F))) h2_p10_W := Cert.RefLib.WritesIn.of_forall h2_p10_writesF

set_option maxHeartbeats 4000000 in
/-- The printed list is its pieces in a row. -/
theorem h2_hostOps2_split : (hostOps2 : List (HloOp τ sig (Elt F))) = h2_p0 ++ h2_p1 ++ h2_p2 ++ h2_p3 ++ h2_p4 := rfl
set_option maxHeartbeats 4000000 in
/-- The printed list is its pieces in a row. -/
theorem h2_hostOps2_1_split : (hostOps2_1 : List (HloOp τ sig (Elt F))) = h2_p5 := rfl
set_option maxHeartbeats 4000000 in
/-- The printed list is its pieces in a row. -/
theorem h2_hostOps2_2_split : (hostOps2_2 : List (HloOp τ sig (Elt F))) = h2_p6 := rfl
set_option maxHeartbeats 4000000 in
/-- The printed list is its pieces in a row. -/
theorem h2_hostOps2_3_split : (hostOps2_3 : List (HloOp τ sig (Elt F))) = h2_p7 := rfl
set_option maxHeartbeats 4000000 in
/-- The printed list is its pieces in a row. -/
theorem h2_hostOps2_4_split : (hostOps2_4 : List (HloOp τ sig (Elt F))) = h2_p8 ++ h2_p9 ++ h2_p10 := rfl

/-- Cut 0: the operations up to the one that writes `main_v150`. -/
abbrev h2_sg0 : List (HloOp τ sig (Elt F)) := h2_p0
abbrev h2_sg0_W : List (Ref sig .tc) := h2_p0_W
theorem h2_sg0_writes : Cert.RefLib.WritesIn (h2_sg0 : List (HloOp τ sig (Elt F))) h2_sg0_W :=
  h2_p0_writes
/-- Cut 1: the operations up to the one that writes `main_v168`. -/
abbrev h2_sg1 : List (HloOp τ sig (Elt F)) := h2_p1
abbrev h2_sg1_W : List (Ref sig .tc) := h2_p1_W
theorem h2_sg1_writes : Cert.RefLib.WritesIn (h2_sg1 : List (HloOp τ sig (Elt F))) h2_sg1_W :=
  h2_p1_writes
/-- Cut 2: the operations up to the one that writes `main_v186`. -/
abbrev h2_sg2 : List (HloOp τ sig (Elt F)) := h2_p2
abbrev h2_sg2_W : List (Ref sig .tc) := h2_p2_W
theorem h2_sg2_writes : Cert.RefLib.WritesIn (h2_sg2 : List (HloOp τ sig (Elt F))) h2_sg2_W :=
  h2_p2_writes
/-- Cut 3: the operations up to the one that writes `main_v204`. -/
abbrev h2_sg3 : List (HloOp τ sig (Elt F)) := h2_p3
abbrev h2_sg3_W : List (Ref sig .tc) := h2_p3_W
theorem h2_sg3_writes : Cert.RefLib.WritesIn (h2_sg3 : List (HloOp τ sig (Elt F))) h2_sg3_W :=
  h2_p3_writes
/-- Cut 4: the operations up to the one that writes `main_v205`. -/
abbrev h2_sg4 : List (HloOp τ sig (Elt F)) := h2_p4
abbrev h2_sg4_W : List (Ref sig .tc) := h2_p4_W
theorem h2_sg4_writes : Cert.RefLib.WritesIn (h2_sg4 : List (HloOp τ sig (Elt F))) h2_sg4_W :=
  h2_p4_writes
/-- Cut 5: the operations up to the one that writes `main_v207`. -/
abbrev h2_sg5 : List (HloOp τ sig (Elt F)) := h2_p5 ++ h2_p6 ++ h2_p7
abbrev h2_sg5_W : List (Ref sig .tc) := h2_p5_W ++ h2_p6_W ++ h2_p7_W
theorem h2_sg5_writes : Cert.RefLib.WritesIn (h2_sg5 : List (HloOp τ sig (Elt F))) h2_sg5_W :=
  Cert.RefLib.WritesIn.append (Cert.RefLib.WritesIn.append (h2_p5_writes) h2_p6_writes) h2_p7_writes
/-- Cut 6: the operations up to the one that writes `main_v210`. -/
abbrev h2_sg6 : List (HloOp τ sig (Elt F)) := h2_p8
abbrev h2_sg6_W : List (Ref sig .tc) := h2_p8_W
theorem h2_sg6_writes : Cert.RefLib.WritesIn (h2_sg6 : List (HloOp τ sig (Elt F))) h2_sg6_W :=
  h2_p8_writes
/-- Cut 7: the operations up to the one that writes `main_v213`. -/
abbrev h2_sg7 : List (HloOp τ sig (Elt F)) := h2_p9
abbrev h2_sg7_W : List (Ref sig .tc) := h2_p9_W
theorem h2_sg7_writes : Cert.RefLib.WritesIn (h2_sg7 : List (HloOp τ sig (Elt F))) h2_sg7_W :=
  h2_p9_writes
/-- Cut 8: the operations up to the one that writes `main_v214`. -/
abbrev h2_sg8 : List (HloOp τ sig (Elt F)) := h2_p10
abbrev h2_sg8_W : List (Ref sig .tc) := h2_p10_W
theorem h2_sg8_writes : Cert.RefLib.WritesIn (h2_sg8 : List (HloOp τ sig (Elt F))) h2_sg8_W :=
  h2_p10_writes

def h2_val0 (W : Valuation τ sig (Elt F)) : Valuation τ sig (Elt F) := W
def h2_val1 (W : Valuation τ sig (Elt F)) : Valuation τ sig (Elt F) := after h2_sg0 (h2_val0 W)
theorem h2_val1_keep (W : Valuation τ sig (Elt F)) {r : Ref sig .tc} (h : r ∉ h2_sg0_W) :
    h2_val1 W (Proc.devRef .tc r) = h2_val0 W (Proc.devRef .tc r) := h2_sg0_writes.keep _ h
def h2_val2 (W : Valuation τ sig (Elt F)) : Valuation τ sig (Elt F) := after h2_sg1 (h2_val1 W)
theorem h2_val2_keep (W : Valuation τ sig (Elt F)) {r : Ref sig .tc} (h : r ∉ h2_sg1_W) :
    h2_val2 W (Proc.devRef .tc r) = h2_val1 W (Proc.devRef .tc r) := h2_sg1_writes.keep _ h
def h2_val3 (W : Valuation τ sig (Elt F)) : Valuation τ sig (Elt F) := after h2_sg2 (h2_val2 W)
theorem h2_val3_keep (W : Valuation τ sig (Elt F)) {r : Ref sig .tc} (h : r ∉ h2_sg2_W) :
    h2_val3 W (Proc.devRef .tc r) = h2_val2 W (Proc.devRef .tc r) := h2_sg2_writes.keep _ h
def h2_val4 (W : Valuation τ sig (Elt F)) : Valuation τ sig (Elt F) := after h2_sg3 (h2_val3 W)
theorem h2_val4_keep (W : Valuation τ sig (Elt F)) {r : Ref sig .tc} (h : r ∉ h2_sg3_W) :
    h2_val4 W (Proc.devRef .tc r) = h2_val3 W (Proc.devRef .tc r) := h2_sg3_writes.keep _ h
def h2_val5 (W : Valuation τ sig (Elt F)) : Valuation τ sig (Elt F) := after h2_sg4 (h2_val4 W)
theorem h2_val5_keep (W : Valuation τ sig (Elt F)) {r : Ref sig .tc} (h : r ∉ h2_sg4_W) :
    h2_val5 W (Proc.devRef .tc r) = h2_val4 W (Proc.devRef .tc r) := h2_sg4_writes.keep _ h
def h2_val6 (W : Valuation τ sig (Elt F)) : Valuation τ sig (Elt F) := after h2_sg5 (h2_val5 W)
theorem h2_val6_keep (W : Valuation τ sig (Elt F)) {r : Ref sig .tc} (h : r ∉ h2_sg5_W) :
    h2_val6 W (Proc.devRef .tc r) = h2_val5 W (Proc.devRef .tc r) := h2_sg5_writes.keep _ h
def h2_val7 (W : Valuation τ sig (Elt F)) : Valuation τ sig (Elt F) := after h2_sg6 (h2_val6 W)
theorem h2_val7_keep (W : Valuation τ sig (Elt F)) {r : Ref sig .tc} (h : r ∉ h2_sg6_W) :
    h2_val7 W (Proc.devRef .tc r) = h2_val6 W (Proc.devRef .tc r) := h2_sg6_writes.keep _ h
def h2_val8 (W : Valuation τ sig (Elt F)) : Valuation τ sig (Elt F) := after h2_sg7 (h2_val7 W)
theorem h2_val8_keep (W : Valuation τ sig (Elt F)) {r : Ref sig .tc} (h : r ∉ h2_sg7_W) :
    h2_val8 W (Proc.devRef .tc r) = h2_val7 W (Proc.devRef .tc r) := h2_sg7_writes.keep _ h
def h2_val9 (W : Valuation τ sig (Elt F)) : Valuation τ sig (Elt F) := after h2_sg8 (h2_val8 W)
theorem h2_val9_keep (W : Valuation τ sig (Elt F)) {r : Ref sig .tc} (h : r ∉ h2_sg8_W) :
    h2_val9 W (Proc.devRef .tc r) = h2_val8 W (Proc.devRef .tc r) := h2_sg8_writes.keep _ h

/-- The stretch run from `W` is the cuts in a row. -/
theorem h2_end (W : Valuation τ sig (Elt F)) :
    after hostOps2_4 (after hostOps2_3 (after hostOps2_2 (after hostOps2_1 (after hostOps2 (W))))) = h2_val9 W := by
  rw [h2_hostOps2_split, h2_hostOps2_1_split, h2_hostOps2_2_split, h2_hostOps2_3_split, h2_hostOps2_4_split]
  simp only [h2_val0, h2_val1, h2_val2, h2_val3, h2_val4, h2_val5, h2_val6, h2_val7, h2_val8, h2_val9, StableHlo.after_append]

def h2_Wfrom9 : List (Ref sig .tc) := []
def h2_Wfrom8 : List (Ref sig .tc) := h2_sg8_W ++ h2_Wfrom9
def h2_Wfrom7 : List (Ref sig .tc) := h2_sg7_W ++ h2_Wfrom8
def h2_Wfrom6 : List (Ref sig .tc) := h2_sg6_W ++ h2_Wfrom7
def h2_Wfrom5 : List (Ref sig .tc) := h2_sg5_W ++ h2_Wfrom6
def h2_Wfrom4 : List (Ref sig .tc) := h2_sg4_W ++ h2_Wfrom5
def h2_Wfrom3 : List (Ref sig .tc) := h2_sg3_W ++ h2_Wfrom4
def h2_Wfrom2 : List (Ref sig .tc) := h2_sg2_W ++ h2_Wfrom3
def h2_Wfrom1 : List (Ref sig .tc) := h2_sg1_W ++ h2_Wfrom2
def h2_Wfrom0 : List (Ref sig .tc) := h2_sg0_W ++ h2_Wfrom1

/-- A buffer not written from cut k on holds at the end what it held after the first k cuts. -/
theorem h2_fin9 (W : Valuation τ sig (Elt F)) {r : Ref sig .tc} (_h : r ∉ h2_Wfrom9) :
    h2_val9 W (Proc.devRef .tc r) = h2_val9 W (Proc.devRef .tc r) := rfl
theorem h2_fin8 (W : Valuation τ sig (Elt F)) {r : Ref sig .tc} (h : r ∉ h2_Wfrom8) :
    h2_val9 W (Proc.devRef .tc r) = h2_val8 W (Proc.devRef .tc r) :=
  (h2_fin9 W fun hm => h (List.mem_append_right _ hm)).trans (h2_val9_keep W fun hm => h (List.mem_append_left _ hm))
theorem h2_fin7 (W : Valuation τ sig (Elt F)) {r : Ref sig .tc} (h : r ∉ h2_Wfrom7) :
    h2_val9 W (Proc.devRef .tc r) = h2_val7 W (Proc.devRef .tc r) :=
  (h2_fin8 W fun hm => h (List.mem_append_right _ hm)).trans (h2_val8_keep W fun hm => h (List.mem_append_left _ hm))
theorem h2_fin6 (W : Valuation τ sig (Elt F)) {r : Ref sig .tc} (h : r ∉ h2_Wfrom6) :
    h2_val9 W (Proc.devRef .tc r) = h2_val6 W (Proc.devRef .tc r) :=
  (h2_fin7 W fun hm => h (List.mem_append_right _ hm)).trans (h2_val7_keep W fun hm => h (List.mem_append_left _ hm))
theorem h2_fin5 (W : Valuation τ sig (Elt F)) {r : Ref sig .tc} (h : r ∉ h2_Wfrom5) :
    h2_val9 W (Proc.devRef .tc r) = h2_val5 W (Proc.devRef .tc r) :=
  (h2_fin6 W fun hm => h (List.mem_append_right _ hm)).trans (h2_val6_keep W fun hm => h (List.mem_append_left _ hm))
theorem h2_fin4 (W : Valuation τ sig (Elt F)) {r : Ref sig .tc} (h : r ∉ h2_Wfrom4) :
    h2_val9 W (Proc.devRef .tc r) = h2_val4 W (Proc.devRef .tc r) :=
  (h2_fin5 W fun hm => h (List.mem_append_right _ hm)).trans (h2_val5_keep W fun hm => h (List.mem_append_left _ hm))
theorem h2_fin3 (W : Valuation τ sig (Elt F)) {r : Ref sig .tc} (h : r ∉ h2_Wfrom3) :
    h2_val9 W (Proc.devRef .tc r) = h2_val3 W (Proc.devRef .tc r) :=
  (h2_fin4 W fun hm => h (List.mem_append_right _ hm)).trans (h2_val4_keep W fun hm => h (List.mem_append_left _ hm))
theorem h2_fin2 (W : Valuation τ sig (Elt F)) {r : Ref sig .tc} (h : r ∉ h2_Wfrom2) :
    h2_val9 W (Proc.devRef .tc r) = h2_val2 W (Proc.devRef .tc r) :=
  (h2_fin3 W fun hm => h (List.mem_append_right _ hm)).trans (h2_val3_keep W fun hm => h (List.mem_append_left _ hm))
theorem h2_fin1 (W : Valuation τ sig (Elt F)) {r : Ref sig .tc} (h : r ∉ h2_Wfrom1) :
    h2_val9 W (Proc.devRef .tc r) = h2_val1 W (Proc.devRef .tc r) :=
  (h2_fin2 W fun hm => h (List.mem_append_right _ hm)).trans (h2_val2_keep W fun hm => h (List.mem_append_left _ hm))
theorem h2_fin0 (W : Valuation τ sig (Elt F)) {r : Ref sig .tc} (h : r ∉ h2_Wfrom0) :
    h2_val9 W (Proc.devRef .tc r) = h2_val0 W (Proc.devRef .tc r) :=
  (h2_fin1 W fun hm => h (List.mem_append_right _ hm)).trans (h2_val1_keep W fun hm => h (List.mem_append_left _ hm))

def h2_Wupto0 : List (Ref sig .tc) := []
def h2_Wupto1 : List (Ref sig .tc) := h2_Wupto0 ++ h2_sg0_W
def h2_Wupto2 : List (Ref sig .tc) := h2_Wupto1 ++ h2_sg1_W
def h2_Wupto3 : List (Ref sig .tc) := h2_Wupto2 ++ h2_sg2_W
def h2_Wupto4 : List (Ref sig .tc) := h2_Wupto3 ++ h2_sg3_W
def h2_Wupto5 : List (Ref sig .tc) := h2_Wupto4 ++ h2_sg4_W
def h2_Wupto6 : List (Ref sig .tc) := h2_Wupto5 ++ h2_sg5_W
def h2_Wupto7 : List (Ref sig .tc) := h2_Wupto6 ++ h2_sg6_W
def h2_Wupto8 : List (Ref sig .tc) := h2_Wupto7 ++ h2_sg7_W
def h2_Wupto9 : List (Ref sig .tc) := h2_Wupto8 ++ h2_sg8_W

/-- A buffer not written by the first k cuts holds after them what it held before the stretch. -/
theorem h2_pre0 (W : Valuation τ sig (Elt F)) {r : Ref sig .tc} (_h : r ∉ h2_Wupto0) :
    h2_val0 W (Proc.devRef .tc r) = W (Proc.devRef .tc r) := rfl
theorem h2_pre1 (W : Valuation τ sig (Elt F)) {r : Ref sig .tc} (h : r ∉ h2_Wupto1) :
    h2_val1 W (Proc.devRef .tc r) = W (Proc.devRef .tc r) :=
  (h2_val1_keep W fun hm => h (List.mem_append_right _ hm)).trans (h2_pre0 W fun hm => h (List.mem_append_left _ hm))
theorem h2_pre2 (W : Valuation τ sig (Elt F)) {r : Ref sig .tc} (h : r ∉ h2_Wupto2) :
    h2_val2 W (Proc.devRef .tc r) = W (Proc.devRef .tc r) :=
  (h2_val2_keep W fun hm => h (List.mem_append_right _ hm)).trans (h2_pre1 W fun hm => h (List.mem_append_left _ hm))
theorem h2_pre3 (W : Valuation τ sig (Elt F)) {r : Ref sig .tc} (h : r ∉ h2_Wupto3) :
    h2_val3 W (Proc.devRef .tc r) = W (Proc.devRef .tc r) :=
  (h2_val3_keep W fun hm => h (List.mem_append_right _ hm)).trans (h2_pre2 W fun hm => h (List.mem_append_left _ hm))
theorem h2_pre4 (W : Valuation τ sig (Elt F)) {r : Ref sig .tc} (h : r ∉ h2_Wupto4) :
    h2_val4 W (Proc.devRef .tc r) = W (Proc.devRef .tc r) :=
  (h2_val4_keep W fun hm => h (List.mem_append_right _ hm)).trans (h2_pre3 W fun hm => h (List.mem_append_left _ hm))
theorem h2_pre5 (W : Valuation τ sig (Elt F)) {r : Ref sig .tc} (h : r ∉ h2_Wupto5) :
    h2_val5 W (Proc.devRef .tc r) = W (Proc.devRef .tc r) :=
  (h2_val5_keep W fun hm => h (List.mem_append_right _ hm)).trans (h2_pre4 W fun hm => h (List.mem_append_left _ hm))
theorem h2_pre6 (W : Valuation τ sig (Elt F)) {r : Ref sig .tc} (h : r ∉ h2_Wupto6) :
    h2_val6 W (Proc.devRef .tc r) = W (Proc.devRef .tc r) :=
  (h2_val6_keep W fun hm => h (List.mem_append_right _ hm)).trans (h2_pre5 W fun hm => h (List.mem_append_left _ hm))
theorem h2_pre7 (W : Valuation τ sig (Elt F)) {r : Ref sig .tc} (h : r ∉ h2_Wupto7) :
    h2_val7 W (Proc.devRef .tc r) = W (Proc.devRef .tc r) :=
  (h2_val7_keep W fun hm => h (List.mem_append_right _ hm)).trans (h2_pre6 W fun hm => h (List.mem_append_left _ hm))
theorem h2_pre8 (W : Valuation τ sig (Elt F)) {r : Ref sig .tc} (h : r ∉ h2_Wupto8) :
    h2_val8 W (Proc.devRef .tc r) = W (Proc.devRef .tc r) :=
  (h2_val8_keep W fun hm => h (List.mem_append_right _ hm)).trans (h2_pre7 W fun hm => h (List.mem_append_left _ hm))
theorem h2_pre9 (W : Valuation τ sig (Elt F)) {r : Ref sig .tc} (h : r ∉ h2_Wupto9) :
    h2_val9 W (Proc.devRef .tc r) = W (Proc.devRef .tc r) :=
  (h2_val9_keep W fun hm => h (List.mem_append_right _ hm)).trans (h2_pre8 W fun hm => h (List.mem_append_left _ hm))

end Cert.KernelIdeal.Hand

end
-- ==== Proof.KIdeal.Host2S0.lean ====
/- Cut 0 of the kernel program's host stretch hostOps2…: run from any contents it leaves its named buffer at the cut's
   function of what it reads — the reference program's own function where the operations are the same chain. -/
import proofs.«159603_j71347996721325_2_alg».proof.Proof.KIdeal.Host2Ops
import proofs.«159603_j71347996721325_2_alg».proof.Proof.KIdeal.HostFns
import proofs.«159603_j71347996721325_2_alg».proof.Proof.RefFns

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

set_option maxRecDepth 65536 in
set_option maxHeartbeats 4000000 in
theorem h2_sg0_main_v150 (W : Valuation τ sig (Elt F)) :
    after h2_sg0 W (Proc.devRef .tc main_v150) = kresh_w3 (W (Proc.devRef .tc main_arg8)) := by
  simp only [h2_sg0, h2_p0, StableHlo.after_append]
  after_results_simp
  rfl

end Cert.KernelIdeal.Hand

end
-- ==== Proof.KIdeal.Host2S1.lean ====
/- Cut 1 of the kernel program's host stretch hostOps2…: run from any contents it leaves its named buffer at the cut's
   function of what it reads — the reference program's own function where the operations are the same chain. -/
import proofs.«159603_j71347996721325_2_alg».proof.Proof.KIdeal.Host2Ops
import proofs.«159603_j71347996721325_2_alg».proof.Proof.KIdeal.HostFns
import proofs.«159603_j71347996721325_2_alg».proof.Proof.RefFns

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

set_option maxRecDepth 65536 in
set_option maxHeartbeats 4000000 in
theorem h2_sg1_main_v168 (W : Valuation τ sig (Elt F)) :
    after h2_sg1 W (Proc.devRef .tc main_v168) = Cert.ReferenceIdeal.RefRun.res_main_v141 (W (Proc.devRef .tc main_arg1)) (W (Proc.devRef .tc main_v149)) (W (Proc.devRef .tc main_v29)) (W (Proc.devRef .tc main_arg2)) := by
  simp only [h2_sg1, h2_p1, StableHlo.after_append]
  after_results_simp
  rfl

end Cert.KernelIdeal.Hand

end
-- ==== Proof.KIdeal.Host2S2.lean ====
/- Cut 2 of the kernel program's host stretch hostOps2…: run from any contents it leaves its named buffer at the cut's
   function of what it reads — the reference program's own function where the operations are the same chain. -/
import proofs.«159603_j71347996721325_2_alg».proof.Proof.KIdeal.Host2Ops
import proofs.«159603_j71347996721325_2_alg».proof.Proof.KIdeal.HostFns
import proofs.«159603_j71347996721325_2_alg».proof.Proof.RefFns

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

set_option maxRecDepth 65536 in
set_option maxHeartbeats 4000000 in
theorem h2_sg2_main_v186 (W : Valuation τ sig (Elt F)) :
    after h2_sg2 W (Proc.devRef .tc main_v186) = Cert.ReferenceIdeal.RefRun.res_main_v141 (W (Proc.devRef .tc main_arg1)) (W (Proc.devRef .tc main_v168)) (W (Proc.devRef .tc main_v29)) (W (Proc.devRef .tc main_arg2)) := by
  simp only [h2_sg2, h2_p2, StableHlo.after_append]
  after_results_simp
  rfl

end Cert.KernelIdeal.Hand

end
-- ==== Proof.KIdeal.Host2S3.lean ====
/- Cut 3 of the kernel program's host stretch hostOps2…: run from any contents it leaves its named buffer at the cut's
   function of what it reads — the reference program's own function where the operations are the same chain. -/
import proofs.«159603_j71347996721325_2_alg».proof.Proof.KIdeal.Host2Ops
import proofs.«159603_j71347996721325_2_alg».proof.Proof.KIdeal.HostFns
import proofs.«159603_j71347996721325_2_alg».proof.Proof.RefFns

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

set_option maxRecDepth 65536 in
set_option maxHeartbeats 4000000 in
theorem h2_sg3_main_v204 (W : Valuation τ sig (Elt F)) :
    after h2_sg3 W (Proc.devRef .tc main_v204) = Cert.ReferenceIdeal.RefRun.res_main_v141 (W (Proc.devRef .tc main_arg1)) (W (Proc.devRef .tc main_v186)) (W (Proc.devRef .tc main_v29)) (W (Proc.devRef .tc main_arg2)) := by
  simp only [h2_sg3, h2_p3, StableHlo.after_append]
  after_results_simp
  rfl

end Cert.KernelIdeal.Hand

end
-- ==== Proof.KIdeal.Host2S4.lean ====
/- Cut 4 of the kernel program's host stretch hostOps2…: run from any contents it leaves its named buffer at the cut's
   function of what it reads — the reference program's own function where the operations are the same chain. -/
import proofs.«159603_j71347996721325_2_alg».proof.Proof.KIdeal.Host2Ops
import proofs.«159603_j71347996721325_2_alg».proof.Proof.KIdeal.HostFns
import proofs.«159603_j71347996721325_2_alg».proof.Proof.RefFns

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

set_option maxRecDepth 65536 in
set_option maxHeartbeats 4000000 in
theorem h2_sg4_main_v205 (W : Valuation τ sig (Elt F)) :
    after h2_sg4 W (Proc.devRef .tc main_v205) = kcat64 (W (Proc.devRef .tc main_v149)) (W (Proc.devRef .tc main_v168)) (W (Proc.devRef .tc main_v186)) (W (Proc.devRef .tc main_v204)) := by
  simp only [h2_sg4, h2_p4, StableHlo.after_append]
  after_results_simp
  rfl

end Cert.KernelIdeal.Hand

end
-- ==== Proof.KIdeal.Host2S5.lean ====
/- Cut 5 of the kernel program's host stretch hostOps2…: run from any contents it leaves its named buffer at the cut's
   function of what it reads — the reference program's own function where the operations are the same chain. -/
import proofs.«159603_j71347996721325_2_alg».proof.Proof.KIdeal.Host2Ops
import proofs.«159603_j71347996721325_2_alg».proof.Proof.KIdeal.HostFns
import proofs.«159603_j71347996721325_2_alg».proof.Proof.RefFns

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

set_option maxRecDepth 65536 in
set_option maxHeartbeats 4000000 in
theorem h2_sg5_main_v207 (W : Valuation τ sig (Elt F)) :
    after h2_sg5 W (Proc.devRef .tc main_v207) = Cert.ReferenceIdeal.RefRun.res_main_v285 (W (Proc.devRef .tc main_arg16)) := by
  simp only [h2_sg5, h2_p5, h2_p6, h2_p7, StableHlo.after_append]
  after_results_simp
  rfl

end Cert.KernelIdeal.Hand

end
-- ==== Proof.KIdeal.Host2S6.lean ====
/- Cut 6 of the kernel program's host stretch hostOps2…: run from any contents it leaves its named buffer at the cut's
   function of what it reads — the reference program's own function where the operations are the same chain. -/
import proofs.«159603_j71347996721325_2_alg».proof.Proof.KIdeal.Host2Ops
import proofs.«159603_j71347996721325_2_alg».proof.Proof.KIdeal.HostFns
import proofs.«159603_j71347996721325_2_alg».proof.Proof.RefFns

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

set_option maxRecDepth 65536 in
set_option maxHeartbeats 4000000 in
theorem h2_sg6_main_v210 (W : Valuation τ sig (Elt F)) :
    after h2_sg6 W (Proc.devRef .tc main_v210) = kstack (W (Proc.devRef .tc main_arg17)) (W (Proc.devRef .tc main_arg19)) := by
  simp only [h2_sg6, h2_p8, StableHlo.after_append]
  after_results_simp
  rfl

end Cert.KernelIdeal.Hand

end
-- ==== Proof.KIdeal.Host2S7.lean ====
/- Cut 7 of the kernel program's host stretch hostOps2…: run from any contents it leaves its named buffer at the cut's
   function of what it reads — the reference program's own function where the operations are the same chain. -/
import proofs.«159603_j71347996721325_2_alg».proof.Proof.KIdeal.Host2Ops
import proofs.«159603_j71347996721325_2_alg».proof.Proof.KIdeal.HostFns
import proofs.«159603_j71347996721325_2_alg».proof.Proof.RefFns

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

set_option maxRecDepth 65536 in
set_option maxHeartbeats 4000000 in
theorem h2_sg7_main_v213 (W : Valuation τ sig (Elt F)) :
    after h2_sg7 W (Proc.devRef .tc main_v213) = kstack (W (Proc.devRef .tc main_arg18)) (W (Proc.devRef .tc main_arg20)) := by
  simp only [h2_sg7, h2_p9, StableHlo.after_append]
  after_results_simp
  rfl

end Cert.KernelIdeal.Hand

end
-- ==== Proof.KIdeal.Host2S8.lean ====
/- Cut 8 of the kernel program's host stretch hostOps2…: run from any contents it leaves its named buffer at the cut's
   function of what it reads — the reference program's own function where the operations are the same chain. -/
import proofs.«159603_j71347996721325_2_alg».proof.Proof.KIdeal.Host2Ops
import proofs.«159603_j71347996721325_2_alg».proof.Proof.KIdeal.HostFns
import proofs.«159603_j71347996721325_2_alg».proof.Proof.RefFns

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

set_option maxRecDepth 65536 in
set_option maxHeartbeats 4000000 in
theorem h2_sg8_main_v214 (W : Valuation τ sig (Elt F)) :
    after h2_sg8 W (Proc.devRef .tc main_v214) = kresh_row2 (W (Proc.devRef .tc main_arg9)) := by
  simp only [h2_sg8, h2_p10, StableHlo.after_append]
  after_results_simp
  rfl

end Cert.KernelIdeal.Hand

end
-- ==== Proof.KIdeal.Host2.lean ====
/- The kernel program's host stretch hostOps2, hostOps2_1, hostOps2_2, hostOps2_3, hostOps2_4 read back: from any contents `W`, what each named buffer holds after
   it, as the named functions of what `W` holds in the buffers the stretch reads and of the stretch's earlier named buffers. -/
import proofs.«159603_j71347996721325_2_alg».proof.Proof.KIdeal.Host2S0
import proofs.«159603_j71347996721325_2_alg».proof.Proof.KIdeal.Host2S1
import proofs.«159603_j71347996721325_2_alg».proof.Proof.KIdeal.Host2S2
import proofs.«159603_j71347996721325_2_alg».proof.Proof.KIdeal.Host2S3
import proofs.«159603_j71347996721325_2_alg».proof.Proof.KIdeal.Host2S4
import proofs.«159603_j71347996721325_2_alg».proof.Proof.KIdeal.Host2S5
import proofs.«159603_j71347996721325_2_alg».proof.Proof.KIdeal.Host2S6
import proofs.«159603_j71347996721325_2_alg».proof.Proof.KIdeal.Host2S7
import proofs.«159603_j71347996721325_2_alg».proof.Proof.KIdeal.Host2S8
import proofs.«159603_j71347996721325_2_alg».proof.Proof.RefComp

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

set_option maxRecDepth 65536 in
theorem h2_main_v150 (W : Valuation τ sig (Elt F)) :
    after hostOps2_4 (after hostOps2_3 (after hostOps2_2 (after hostOps2_1 (after hostOps2 (W))))) (Proc.devRef .tc main_v150)
      = kresh_w3 (W (Proc.devRef .tc main_arg8)) := by
  rw [h2_end W]
  have h := h2_sg0_main_v150 (h2_val0 W)
  rw [h2_pre0 W (r := main_arg8) (by decide)] at h
  exact (h2_fin1 W (r := main_v150) (by decide)).trans h

set_option maxRecDepth 65536 in
theorem h2_main_v168 (W : Valuation τ sig (Elt F)) :
    after hostOps2_4 (after hostOps2_3 (after hostOps2_2 (after hostOps2_1 (after hostOps2 (W))))) (Proc.devRef .tc main_v168)
      = Cert.ReferenceIdeal.RefRun.res_main_v141 (W (Proc.devRef .tc main_arg1)) (W (Proc.devRef .tc main_v149)) (W (Proc.devRef .tc main_v29)) (W (Proc.devRef .tc main_arg2)) := by
  rw [h2_end W]
  have h := h2_sg1_main_v168 (h2_val1 W)
  rw [h2_pre1 W (r := main_arg1) (by decide),
    h2_pre1 W (r := main_v149) (by decide),
    h2_pre1 W (r := main_v29) (by decide),
    h2_pre1 W (r := main_arg2) (by decide)] at h
  exact (h2_fin2 W (r := main_v168) (by decide)).trans h

set_option maxRecDepth 65536 in
theorem h2_main_v186 (W : Valuation τ sig (Elt F)) :
    after hostOps2_4 (after hostOps2_3 (after hostOps2_2 (after hostOps2_1 (after hostOps2 (W))))) (Proc.devRef .tc main_v186)
      = Cert.ReferenceIdeal.RefRun.res_main_v141 (W (Proc.devRef .tc main_arg1)) (after hostOps2_4 (after hostOps2_3 (after hostOps2_2 (after hostOps2_1 (after hostOps2 (W))))) (Proc.devRef .tc main_v168)) (W (Proc.devRef .tc main_v29)) (W (Proc.devRef .tc main_arg2)) := by
  rw [h2_end W]
  have h := h2_sg2_main_v186 (h2_val2 W)
  rw [h2_pre2 W (r := main_arg1) (by decide),
    ← h2_fin2 W (r := main_v168) (by decide),
    h2_pre2 W (r := main_v29) (by decide),
    h2_pre2 W (r := main_arg2) (by decide)] at h
  exact (h2_fin3 W (r := main_v186) (by decide)).trans h

set_option maxRecDepth 65536 in
theorem h2_main_v204 (W : Valuation τ sig (Elt F)) :
    after hostOps2_4 (after hostOps2_3 (after hostOps2_2 (after hostOps2_1 (after hostOps2 (W))))) (Proc.devRef .tc main_v204)
      = Cert.ReferenceIdeal.RefRun.res_main_v141 (W (Proc.devRef .tc main_arg1)) (after hostOps2_4 (after hostOps2_3 (after hostOps2_2 (after hostOps2_1 (after hostOps2 (W))))) (Proc.devRef .tc main_v186)) (W (Proc.devRef .tc main_v29)) (W (Proc.devRef .tc main_arg2)) := by
  rw [h2_end W]
  have h := h2_sg3_main_v204 (h2_val3 W)
  rw [h2_pre3 W (r := main_arg1) (by decide),
    ← h2_fin3 W (r := main_v186) (by decide),
    h2_pre3 W (r := main_v29) (by decide),
    h2_pre3 W (r := main_arg2) (by decide)] at h
  exact (h2_fin4 W (r := main_v204) (by decide)).trans h

set_option maxRecDepth 65536 in
theorem h2_main_v205 (W : Valuation τ sig (Elt F)) :
    after hostOps2_4 (after hostOps2_3 (after hostOps2_2 (after hostOps2_1 (after hostOps2 (W))))) (Proc.devRef .tc main_v205)
      = kcat64 (W (Proc.devRef .tc main_v149)) (after hostOps2_4 (after hostOps2_3 (after hostOps2_2 (after hostOps2_1 (after hostOps2 (W))))) (Proc.devRef .tc main_v168)) (after hostOps2_4 (after hostOps2_3 (after hostOps2_2 (after hostOps2_1 (after hostOps2 (W))))) (Proc.devRef .tc main_v186)) (after hostOps2_4 (after hostOps2_3 (after hostOps2_2 (after hostOps2_1 (after hostOps2 (W))))) (Proc.devRef .tc main_v204)) := by
  rw [h2_end W]
  have h := h2_sg4_main_v205 (h2_val4 W)
  rw [h2_pre4 W (r := main_v149) (by decide),
    ← h2_fin4 W (r := main_v168) (by decide),
    ← h2_fin4 W (r := main_v186) (by decide),
    ← h2_fin4 W (r := main_v204) (by decide)] at h
  exact (h2_fin5 W (r := main_v205) (by decide)).trans h

set_option maxRecDepth 65536 in
theorem h2_main_v207 (W : Valuation τ sig (Elt F)) :
    after hostOps2_4 (after hostOps2_3 (after hostOps2_2 (after hostOps2_1 (after hostOps2 (W))))) (Proc.devRef .tc main_v207)
      = Cert.ReferenceIdeal.RefRun.res_main_v285 (W (Proc.devRef .tc main_arg16)) := by
  rw [h2_end W]
  have h := h2_sg5_main_v207 (h2_val5 W)
  rw [h2_pre5 W (r := main_arg16) (by decide)] at h
  exact (h2_fin6 W (r := main_v207) (by decide)).trans h

set_option maxRecDepth 65536 in
theorem h2_main_v210 (W : Valuation τ sig (Elt F)) :
    after hostOps2_4 (after hostOps2_3 (after hostOps2_2 (after hostOps2_1 (after hostOps2 (W))))) (Proc.devRef .tc main_v210)
      = kstack (W (Proc.devRef .tc main_arg17)) (W (Proc.devRef .tc main_arg19)) := by
  rw [h2_end W]
  have h := h2_sg6_main_v210 (h2_val6 W)
  rw [h2_pre6 W (r := main_arg17) (by decide),
    h2_pre6 W (r := main_arg19) (by decide)] at h
  exact (h2_fin7 W (r := main_v210) (by decide)).trans h

set_option maxRecDepth 65536 in
theorem h2_main_v213 (W : Valuation τ sig (Elt F)) :
    after hostOps2_4 (after hostOps2_3 (after hostOps2_2 (after hostOps2_1 (after hostOps2 (W))))) (Proc.devRef .tc main_v213)
      = kstack (W (Proc.devRef .tc main_arg18)) (W (Proc.devRef .tc main_arg20)) := by
  rw [h2_end W]
  have h := h2_sg7_main_v213 (h2_val7 W)
  rw [h2_pre7 W (r := main_arg18) (by decide),
    h2_pre7 W (r := main_arg20) (by decide)] at h
  exact (h2_fin8 W (r := main_v213) (by decide)).trans h

set_option maxRecDepth 65536 in
theorem h2_main_v214 (W : Valuation τ sig (Elt F)) :
    after hostOps2_4 (after hostOps2_3 (after hostOps2_2 (after hostOps2_1 (after hostOps2 (W))))) (Proc.devRef .tc main_v214)
      = kresh_row2 (W (Proc.devRef .tc main_arg9)) := by
  rw [h2_end W]
  have h := h2_sg8_main_v214 (h2_val8 W)
  rw [h2_pre8 W (r := main_arg9) (by decide)] at h
  exact (h2_fin9 W (r := main_v214) (by decide)).trans h

set_option maxRecDepth 65536 in
/-- The stretch does not write `main_arg14`. -/
theorem h2_keep_main_arg14 (W : Valuation τ sig (Elt F)) :
    after hostOps2_4 (after hostOps2_3 (after hostOps2_2 (after hostOps2_1 (after hostOps2 (W))))) (Proc.devRef .tc main_arg14) = W (Proc.devRef .tc main_arg14) := by
  rw [h2_end W]
  exact h2_pre9 W (r := main_arg14) (by decide)

set_option maxRecDepth 65536 in
/-- The stretch does not write `main_arg15`. -/
theorem h2_keep_main_arg15 (W : Valuation τ sig (Elt F)) :
    after hostOps2_4 (after hostOps2_3 (after hostOps2_2 (after hostOps2_1 (after hostOps2 (W))))) (Proc.devRef .tc main_arg15) = W (Proc.devRef .tc main_arg15) := by
  rw [h2_end W]
  exact h2_pre9 W (r := main_arg15) (by decide)

set_option maxRecDepth 65536 in
/-- The stretch does not write `main_v29`. -/
theorem h2_keep_main_v29 (W : Valuation τ sig (Elt F)) :
    after hostOps2_4 (after hostOps2_3 (after hostOps2_2 (after hostOps2_1 (after hostOps2 (W))))) (Proc.devRef .tc main_v29) = W (Proc.devRef .tc main_v29) := by
  rw [h2_end W]
  exact h2_pre9 W (r := main_v29) (by decide)

end Cert.KernelIdeal.Hand

end
-- ==== Proof.KIdeal.Chain.lean ====
/-
  The kernel program's result as a function of its arguments. Write w for the normalised edge weights (a function of the
  edge endpoints and the raw weights) and P for one propagation step (gather at the sources, scale by w, scatter-add at
  the targets). Each layer lays its input and its three successive propagations side by side and hands them, with the
  layer's stacked weights, bias and (for the hidden layers) scale and shift columns, to its Pallas region; the region's output
  array is the layer function of those arrays (the value modules). Between regions every argument array, the edge weights
  and the previous layer's output are as the earlier segments left them. So the result buffer at the end of @main is the
  third layer's function of the second's of the first's of the arguments.
-/
import proofs.«159603_j71347996721325_2_alg».proof.Proof.KIdeal.Args
import proofs.«159603_j71347996721325_2_alg».proof.Proof.KIdeal.Val0
import proofs.«159603_j71347996721325_2_alg».proof.Proof.KIdeal.Val1
import proofs.«159603_j71347996721325_2_alg».proof.Proof.KIdeal.Val2
import proofs.«159603_j71347996721325_2_alg».proof.Proof.KIdeal.Host0
import proofs.«159603_j71347996721325_2_alg».proof.Proof.KIdeal.Host1
import proofs.«159603_j71347996721325_2_alg».proof.Proof.KIdeal.Host2

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL Idealize.SL.Sem
open Cert.ReferenceIdeal.RefRun (res_main_v50 res_main_v141 ref_w res_main_v285)

/-- The contents of a buffer of element type `e` and shape `S` at the ideal instance. -/
abbrev C (S : Shape) (e : EltTy) : Type := (⟨S, e⟩ : BufTy).Contents (Elt Ideal)

/-- The first layer: the input and its three propagations side by side, through region 0. -/
def K1 (a1 a2 : C S400000 .i32) (a3 : C S400000 .f32) (a0 : C S4x50000x4 .f32) (a4 : C S4x4x64 .f32) (a5 : C S64 .f32) (a10 a11 : C S50000 .f32) :
    S4x50000x64.Idx → EReal :=
  G0 (kcat4 a0 (res_main_v50 a1 a0 (ref_w a1 a2 a3) a2) (res_main_v50 a1 (res_main_v50 a1 a0 (ref_w a1 a2 a3) a2) (ref_w a1 a2 a3) a2)
        (res_main_v50 a1 (res_main_v50 a1 (res_main_v50 a1 a0 (ref_w a1 a2 a3) a2) (ref_w a1 a2 a3) a2) (ref_w a1 a2 a3) a2))
    (kresh_w1 a4) (kresh_row64 a5) (kresh_col a10) (kresh_col a11)
/-- A later layer's input side by side with its three propagations. -/
def kcatP (a1 a2 : C S400000 .i32) (a3 : C S400000 .f32) (x : C S4x50000x64 .f32) : C S4x50000x256 .f32 :=
  kcat64 x (res_main_v141 a1 x (ref_w a1 a2 a3) a2) (res_main_v141 a1 (res_main_v141 a1 x (ref_w a1 a2 a3) a2) (ref_w a1 a2 a3) a2)
    (res_main_v141 a1 (res_main_v141 a1 (res_main_v141 a1 x (ref_w a1 a2 a3) a2) (ref_w a1 a2 a3) a2) (ref_w a1 a2 a3) a2)
/-- The second layer, through region 1. -/
def K2 (a1 a2 : C S400000 .i32) (a3 : C S400000 .f32) (x : C S4x50000x64 .f32) (a6 : C S4x64x64 .f32) (a7 : C S64 .f32) (a12 a13 : C S50000 .f32) :
    S4x50000x64.Idx → EReal :=
  G1 (kcatP a1 a2 a3 x) (kresh_w2 a6) (kresh_row64 a7) (kresh_col a12) (kresh_col a13)
/-- The third layer with its rescaling, mask and clamp, through region 2. -/
def K3 (a1 a2 : C S400000 .i32) (a3 : C S400000 .f32) (x : C S4x50000x64 .f32) (a8 : C S4x64x2 .f32) (a9 : C S2 .f32)
    (a14 a15 a16 : C S50000x2 .f32) (a17 a18 a19 a20 : C S50000 .f32) : S4x50000x2.Idx → EReal :=
  G2 (kcatP a1 a2 a3 x) (kresh_w3 a8) (kresh_row2 a9) a15 (res_main_v285 a16) a14 (kstack a17 a19) (kstack a18 a20)

variable (m : (ℓ : Loc nD τ sig) → Buf (Elt Ideal) ℓ) (ρ : Dev nD → PrngReg)

/-- An argument array's launch contents. -/
abbrev A (c : Dev nD) (k : Ref sig .tc) : Buf (Elt Ideal) ((c : Thread nD τ).loc k) := Wa0 m ρ c (Proc.devRef .tc k)

/-- The arguments as every boundary up to region 0's exit, region 1's exit and region 2's entry finds them. -/
theorem keep_to_Wa3 (c : Dev nD) : ArgsKept (Wa0 m ρ c) (Wa3 m ρ c) :=
  ((keep_hostOps0 (Wa0 m ρ c)).trans (keep_hostOps0_1 (Wa1 m ρ c))).trans (keep_hostOps0_2 (Wa2 m ρ c))
theorem keep_to_Wb0 (c : Dev nD) : ArgsKept (Wa0 m ρ c) (Wb0 m ρ c) := (keep_to_Wa3 m ρ c).trans (keep_reg0 m ρ c)
theorem keep_to_Wc0 (c : Dev nD) : ArgsKept (Wa0 m ρ c) (Wc0 m ρ c) :=
  ((keep_to_Wb0 m ρ c).trans (keep_hostOps1 (Wb0 m ρ c))).trans (keep_reg1 m ρ c)

/-- The edge weights at region 0's entry, and unchanged at the two later regions' entries. -/
theorem w_Wa3 (c : Dev nD) : Wa3 m ρ c (Proc.devRef .tc main_v29) = ref_w (A m ρ c main_arg1) (A m ρ c main_arg2) (A m ρ c main_arg3) :=
  h0_w (F := Ideal) (Wa0 m ρ c)
theorem w_Wb0 (c : Dev nD) : Wb0 m ρ c (Proc.devRef .tc main_v29) = ref_w (A m ρ c main_arg1) (A m ρ c main_arg2) (A m ρ c main_arg3) :=
  (Wb0_of_ne m ρ c main_v29 (by decide)).trans (w_Wa3 m ρ c)
theorem w_Wc0 (c : Dev nD) : Wc0 m ρ c (Proc.devRef .tc main_v29) = ref_w (A m ρ c main_arg1) (A m ρ c main_arg2) (A m ρ c main_arg3) :=
  ((Wc0_of_ne m ρ c main_v29 (by decide)).trans (h1_keep_main_v29 (F := Ideal) (Wb0 m ρ c))).trans (w_Wb0 m ρ c)

/-- The first layer's output array at region 0's exit. -/
theorem Wb0_v89 (c : Dev nD) :
    (Wb0 m ρ c (Proc.devRef .tc main_v89) : S4x50000x64.Idx → EReal)
      = K1 (A m ρ c main_arg1) (A m ρ c main_arg2) (A m ρ c main_arg3) (A m ρ c main_arg0) (A m ρ c main_arg4) (A m ρ c main_arg5) (A m ρ c main_arg10) (A m ρ c main_arg11) := by
  have h := (Wb0_arr m ρ c 5).trans (final0 (Va3 m ρ) c)
  have e85 : Va3 m ρ c main_v85 = _ := h0_main_v85 (F := Ideal) (Wa0 m ρ c)
  have e30 : Va3 m ρ c main_v30 = _ := h0_main_v30 (F := Ideal) (Wa0 m ρ c)
  have e86 : Va3 m ρ c main_v86 = _ := h0_main_v86 (F := Ideal) (Wa0 m ρ c)
  have e87 : Va3 m ρ c main_v87 = _ := h0_main_v87 (F := Ideal) (Wa0 m ρ c)
  have e88 : Va3 m ρ c main_v88 = _ := h0_main_v88 (F := Ideal) (Wa0 m ρ c)
  have e48 := h0_main_v48 (F := Ideal) (Wa0 m ρ c)
  have e66 := h0_main_v66 (F := Ideal) (Wa0 m ρ c)
  have e84 := h0_main_v84 (F := Ideal) (Wa0 m ρ c)
  have ew := h0_w (F := Ideal) (Wa0 m ρ c)
  refine h.trans ?_
  rw [e85, e30, e86, e87, e88, e84, e66, e48, ew]
  rfl

/-- The second layer's output array at region 1's exit. -/
theorem Wc0_v149 (c : Dev nD) :
    (Wc0 m ρ c (Proc.devRef .tc main_v149) : S4x50000x64.Idx → EReal)
      = K2 (A m ρ c main_arg1) (A m ρ c main_arg2) (A m ρ c main_arg3)
          (K1 (A m ρ c main_arg1) (A m ρ c main_arg2) (A m ρ c main_arg3) (A m ρ c main_arg0) (A m ρ c main_arg4) (A m ρ c main_arg5) (A m ρ c main_arg10) (A m ρ c main_arg11))
          (A m ρ c main_arg6) (A m ρ c main_arg7) (A m ρ c main_arg12) (A m ρ c main_arg13) := by
  have h := (Wc0_arr m ρ c 5).trans (final1 (Vb1 m ρ) c)
  have hk := keep_to_Wb0 m ρ c
  unfold ArgsKept at hk
  obtain ⟨k0, k1, k2, k3, k4, k5, k6, k7, k8, k9, k10, k11, k12, k13, k14, k15, k16, k17, k18, k19, k20⟩ := hk
  have e145 : Vb1 m ρ c main_v145 = _ := h1_main_v145 (F := Ideal) (Wb0 m ρ c)
  have e90 : Vb1 m ρ c main_v90 = _ := h1_main_v90 (F := Ideal) (Wb0 m ρ c)
  have e146 : Vb1 m ρ c main_v146 = _ := h1_main_v146 (F := Ideal) (Wb0 m ρ c)
  have e147 : Vb1 m ρ c main_v147 = _ := h1_main_v147 (F := Ideal) (Wb0 m ρ c)
  have e148 : Vb1 m ρ c main_v148 = _ := h1_main_v148 (F := Ideal) (Wb0 m ρ c)
  have e108 := h1_main_v108 (F := Ideal) (Wb0 m ρ c)
  have e126 := h1_main_v126 (F := Ideal) (Wb0 m ρ c)
  have e144 := h1_main_v144 (F := Ideal) (Wb0 m ρ c)
  refine h.trans ?_
  rw [e145, e90, e146, e147, e148, e144, e126, e108, w_Wb0 m ρ c, Wb0_v89 m ρ c, k1, k2, k6, k7, k12, k13]
  rfl

/-- The result array at the end of @main. -/
theorem Wd_v215 (c : Dev nD) :
    (Wd m ρ c (Proc.devRef .tc main_v215) : S4x50000x2.Idx → EReal)
      = K3 (A m ρ c main_arg1) (A m ρ c main_arg2) (A m ρ c main_arg3)
          (K2 (A m ρ c main_arg1) (A m ρ c main_arg2) (A m ρ c main_arg3)
            (K1 (A m ρ c main_arg1) (A m ρ c main_arg2) (A m ρ c main_arg3) (A m ρ c main_arg0) (A m ρ c main_arg4) (A m ρ c main_arg5) (A m ρ c main_arg10) (A m ρ c main_arg11))
            (A m ρ c main_arg6) (A m ρ c main_arg7) (A m ρ c main_arg12) (A m ρ c main_arg13))
          (A m ρ c main_arg8) (A m ρ c main_arg9) (A m ρ c main_arg14) (A m ρ c main_arg15) (A m ρ c main_arg16)
          (A m ρ c main_arg17) (A m ρ c main_arg18) (A m ρ c main_arg19) (A m ρ c main_arg20) := by
  have h := (Wd_arr m ρ c 8).trans (final2 (Vc5 m ρ) c)
  have hk := keep_to_Wc0 m ρ c
  unfold ArgsKept at hk
  obtain ⟨k0, k1, k2, k3, k4, k5, k6, k7, k8, k9, k10, k11, k12, k13, k14, k15, k16, k17, k18, k19, k20⟩ := hk
  have e205 : Vc5 m ρ c main_v205 = _ := h2_main_v205 (F := Ideal) (Wc0 m ρ c)
  have e150 : Vc5 m ρ c main_v150 = _ := h2_main_v150 (F := Ideal) (Wc0 m ρ c)
  have e214 : Vc5 m ρ c main_v214 = _ := h2_main_v214 (F := Ideal) (Wc0 m ρ c)
  have e207 : Vc5 m ρ c main_v207 = _ := h2_main_v207 (F := Ideal) (Wc0 m ρ c)
  have e210 : Vc5 m ρ c main_v210 = _ := h2_main_v210 (F := Ideal) (Wc0 m ρ c)
  have e213 : Vc5 m ρ c main_v213 = _ := h2_main_v213 (F := Ideal) (Wc0 m ρ c)
  have ea14 : Vc5 m ρ c main_arg14 = _ := h2_keep_main_arg14 (F := Ideal) (Wc0 m ρ c)
  have ea15 : Vc5 m ρ c main_arg15 = _ := h2_keep_main_arg15 (F := Ideal) (Wc0 m ρ c)
  have e168 := h2_main_v168 (F := Ideal) (Wc0 m ρ c)
  have e186 := h2_main_v186 (F := Ideal) (Wc0 m ρ c)
  have e204 := h2_main_v204 (F := Ideal) (Wc0 m ρ c)
  refine h.trans ?_
  rw [e205, e150, e214, e207, e210, e213, ea14, ea15, e204, e186, e168, w_Wc0 m ρ c, Wc0_v149 m ρ c,
    k1, k2, k8, k9, k14, k15, k16, k17, k18, k19, k20]
  rfl

end Cert.KernelIdeal.Hand

end
-- ==== Proof.LibLayoutIdx.lean ====
/-
  HOST layout operations READ AT AN INDEX GIVEN BY COORDINATES, general in the extents and in the element type: what a
  program's host part does to its arguments before a kernel sees them.
  • Four `[A, B, K]` arrays laid side by side on the last axis (`concatenate4_last_apply`): position `i·K + f` of the result
    holds array `i` at `f`.
  • Two `[N, 1]` columns laid side by side (`concatenate2_cols_apply`), a vector made a column (`broadcastInDim_a_a1_apply`,
    `shapeCast_a_a1_apply`), and the two together: two vectors stacked as the columns of an `[N, 2]` array (`stack2_apply`).
  (The row-major reshape of `[A, K, G]` to `[A·K, G]` and a vector made a row are in the kernel-side index library and in the
  library's own layout lemmas.)
-/
import Idealize.ShloMosaic.Lib.ValueLayout

namespace Cert.LayoutIdx

open Idealize.ShloMosaic Idealize.ShloMosaic.ValueIdx

variable {α : Type}

/-! ## Four arrays side by side on the last axis -/

/-- Four `[A, B, K]` arrays concatenated on the last axis into `[A, B, n]`, read at `(a, b, j)` with `j = i·K + f`: array `i`
    at `(a, b, f)`. -/
theorem concatenate4_last_apply {A B K n : ℕ} (u0 u1 u2 u3 : (⟨3, ![A, B, K]⟩ : Shape).Idx → α)
    (h : Shape.Concatenates [⟨3, ![A, B, K]⟩, ⟨3, ![A, B, K]⟩, ⟨3, ![A, B, K]⟩, ⟨3, ![A, B, K]⟩] ⟨3, ![A, B, n]⟩ 2)
    (a : Fin A) (b : Fin B) (i : Fin 4) (f : Fin K) (j : Fin n) (hj : j.val = i.val * K + f.val) :
    concatenate ⟨3, ![A, B, n]⟩ 2
        [⟨⟨3, ![A, B, K]⟩, u0⟩, ⟨⟨3, ![A, B, K]⟩, u1⟩, ⟨⟨3, ![A, B, K]⟩, u2⟩, ⟨⟨3, ![A, B, K]⟩, u3⟩] h (ix3 a b j)
      = (![u0, u1, u2, u3] i) (ix3 a b f) := by
  have hoff : ∀ bb : Fin 3, bb.cast (rfl : (3 : ℕ) = 3) ≠ (2 : Fin 3) →
      ((ix3 a b f) bb).val = ((ix3 a b j) (bb.cast (rfl : (3 : ℕ) = 3))).val := fun bb hb => by
    match bb with
    | ⟨0, _⟩ => rfl
    | ⟨1, _⟩ => rfl
    | ⟨2, _⟩ => exact absurd (Fin.ext rfl) hb
  match i with
  | ⟨0, _⟩ =>
    refine concatenate_apply_piece (t := ⟨3, ![A, B, n]⟩) 2 [⟨⟨3, ![A, B, K]⟩, u0⟩, ⟨⟨3, ![A, B, K]⟩, u1⟩, ⟨⟨3, ![A, B, K]⟩, u2⟩, ⟨⟨3, ![A, B, K]⟩, u3⟩] h (ix3 a b j) 0
      (by show 0 < 4; omega) ⟨3, ![A, B, K]⟩ u0 rfl rfl _ rfl (ix3 a b f) hoff ?_
    show 0 + f.val = j.val
    rw [hj]; show 0 + f.val = 0 * K + f.val; omega
  | ⟨1, _⟩ =>
    refine concatenate_apply_piece (t := ⟨3, ![A, B, n]⟩) 2 [⟨⟨3, ![A, B, K]⟩, u0⟩, ⟨⟨3, ![A, B, K]⟩, u1⟩, ⟨⟨3, ![A, B, K]⟩, u2⟩, ⟨⟨3, ![A, B, K]⟩, u3⟩] h (ix3 a b j) 1
      (by show 1 < 4; omega) ⟨3, ![A, B, K]⟩ u1 rfl rfl _ rfl (ix3 a b f) hoff ?_
    show (K + 0) + f.val = j.val
    rw [hj]; show (K + 0) + f.val = 1 * K + f.val; omega
  | ⟨2, _⟩ =>
    refine concatenate_apply_piece (t := ⟨3, ![A, B, n]⟩) 2 [⟨⟨3, ![A, B, K]⟩, u0⟩, ⟨⟨3, ![A, B, K]⟩, u1⟩, ⟨⟨3, ![A, B, K]⟩, u2⟩, ⟨⟨3, ![A, B, K]⟩, u3⟩] h (ix3 a b j) 2
      (by show 2 < 4; omega) ⟨3, ![A, B, K]⟩ u2 rfl rfl _ rfl (ix3 a b f) hoff ?_
    show (K + (K + 0)) + f.val = j.val
    rw [hj]; show (K + (K + 0)) + f.val = 2 * K + f.val; omega
  | ⟨3, _⟩ =>
    refine concatenate_apply_piece (t := ⟨3, ![A, B, n]⟩) 2 [⟨⟨3, ![A, B, K]⟩, u0⟩, ⟨⟨3, ![A, B, K]⟩, u1⟩, ⟨⟨3, ![A, B, K]⟩, u2⟩, ⟨⟨3, ![A, B, K]⟩, u3⟩] h (ix3 a b j) 3
      (by show 3 < 4; omega) ⟨3, ![A, B, K]⟩ u3 rfl rfl _ rfl (ix3 a b f) hoff ?_
    show (K + (K + (K + 0))) + f.val = j.val
    rw [hj]; show (K + (K + (K + 0))) + f.val = 3 * K + f.val; omega

/-! ## A vector made a column, and two columns side by side -/

/-- An `[N]` array cast to `[N, 1]` reads, at `(n, u)`, the operand at `n`, whatever the unit coordinate. -/
theorem shapeCast_a_a1_apply {N : ℕ} (x : (⟨1, ![N]⟩ : Shape).Idx → α) (h : (⟨1, ![N]⟩ : Shape).ShapeCasts ⟨2, ![N, 1]⟩)
    (n : Fin N) (u : Fin 1) : shapeCast ⟨2, ![N, 1]⟩ x h (ix2 n u) = x (ix1 n) :=
  shapeCast_apply x h _ _ (by
    have hu : u.val = 0 := by omega
    rw [Shape.rowMajor_val_one, Shape.rowMajor_val_two]
    show n.val = n.val * 1 + u.val
    rw [hu, Nat.mul_one, Nat.add_zero])

/-- An `[N]` array broadcast along a new unit last axis to `[N, 1]` reads, at `(n, u)`, the operand at `n`. -/
theorem broadcastInDim_a_a1_apply {N : ℕ} (x : (⟨1, ![N]⟩ : Shape).Idx → α)
    (h : (⟨1, ![N]⟩ : Shape).BroadcastsInDim ⟨2, ![N, 1]⟩ ![0]) (n : Fin N) (u : Fin 1) :
    broadcastInDim ⟨2, ![N, 1]⟩ ![0] h x (ix2 n u) = x (ix1 n) := by
  refine broadcastInDim_apply _ h x (ix2 n u) (ix1 n) fun ax => ?_
  match ax with
  | ⟨0, _⟩ =>
    show n.val = if N = 1 then 0 else n.val
    split
    · have := n.isLt; omega
    · rfl

/-- Two `[N, 1]` columns concatenated on the last axis into `[N, 2]`, read at `(n, g)`: the first column at `n` if `g = 0`, the
    second if `g = 1`. -/
theorem concatenate2_cols_apply {N : ℕ} (x y : (⟨2, ![N, 1]⟩ : Shape).Idx → α)
    (h : Shape.Concatenates [⟨2, ![N, 1]⟩, ⟨2, ![N, 1]⟩] ⟨2, ![N, 2]⟩ 1) (n : Fin N) (g : Fin 2) :
    concatenate ⟨2, ![N, 2]⟩ 1 [⟨⟨2, ![N, 1]⟩, x⟩, ⟨⟨2, ![N, 1]⟩, y⟩] h (ix2 n g)
      = ![x (ix2 n (0 : Fin 1)), y (ix2 n (0 : Fin 1))] g := by
  match g with
  | ⟨0, _⟩ =>
    refine concatenate_pair_apply_left 1 x y h _ rfl (ix2 n (0 : Fin 1)) fun bb => ?_
    match bb with
    | ⟨0, _⟩ => rfl
    | ⟨1, _⟩ => rfl
  | ⟨1, _⟩ =>
    refine concatenate_pair_apply_right 1 x y h _ rfl rfl (ix2 n (0 : Fin 1)) (fun bb hb => ?_) rfl
    match bb with
    | ⟨0, _⟩ => rfl
    | ⟨1, _⟩ => exact absurd (Fin.ext rfl) hb

/-- Two `[N]` arrays, each broadcast to a column `[N, 1]`, concatenated into `[N, 2]`, read at `(n, g)`: the first array at `n`
    if `g = 0`, the second if `g = 1`. -/
theorem stack2_apply {N : ℕ} (x y : (⟨1, ![N]⟩ : Shape).Idx → α)
    (hb : (⟨1, ![N]⟩ : Shape).BroadcastsInDim ⟨2, ![N, 1]⟩ ![0])
    (hc : Shape.Concatenates [⟨2, ![N, 1]⟩, ⟨2, ![N, 1]⟩] ⟨2, ![N, 2]⟩ 1) (n : Fin N) (g : Fin 2) :
    concatenate ⟨2, ![N, 2]⟩ 1
        [⟨⟨2, ![N, 1]⟩, broadcastInDim ⟨2, ![N, 1]⟩ ![0] hb x⟩, ⟨⟨2, ![N, 1]⟩, broadcastInDim ⟨2, ![N, 1]⟩ ![0] hb y⟩] hc (ix2 n g)
      = ![x (ix1 n), y (ix1 n)] g := by
  rw [concatenate2_cols_apply, broadcastInDim_a_a1_apply, broadcastInDim_a_a1_apply]

end Cert.LayoutIdx
-- ==== Proof.KIdeal.HostIdx.lean ====
/-
  The kernel program's host re-readings of its arguments — the weight stacks read row-major as matrices, the bias vectors as
  rows, the per-node vectors as columns, two per-node vectors as the two columns of one array, and four feature arrays set
  side by side — each READ AT AN INDEX GIVEN BY COORDINATES. Layout only: every statement holds for any float values.
  Position `i·K + f` of a stacked or side-by-side axis holds part `i` at `f`.
-/
import proofs.«159603_j71347996721325_2_alg».proof.Proof.KIdeal.HostFns
import proofs.«159603_j71347996721325_2_alg».proof.Proof.KIdeal.LibPayIdx
import proofs.«159603_j71347996721325_2_alg».proof.Proof.LibLayoutIdx

noncomputable section

namespace Cert.KernelIdeal.Hand

open Cert.KernelIdeal Cert.KernelIdeal.Gen Idealize.ShloMosaic Idealize.ShloMosaic.ValueIdx

variable {F : FTy → Type} [FloatOps F]

/-! ## Four feature arrays side by side -/

/-- Four 4-feature arrays side by side, read at `(b, n, j)` with `j = i·4 + f`: array `i` at `(b, n, f)`. -/
theorem kcat4_apply (u0 u1 u2 u3 : (⟨S4x50000x4, .f32⟩ : BufTy).Contents (Elt F)) (b : Fin 4) (n : Fin 50000)
    (i : Fin 4) (f : Fin 4) (j : Fin 16) (hj : j.val = i.val * 4 + f.val) :
    kcat4 u0 u1 u2 u3 (ix3 b n j) = (![u0, u1, u2, u3] i) (ix3 b n f) :=
  Cert.LayoutIdx.concatenate4_last_apply u0 u1 u2 u3 _ b n i f j hj

/-- Four 64-feature arrays side by side, read at `(b, n, j)` with `j = i·64 + f`: array `i` at `(b, n, f)`. -/
theorem kcat64_apply (u0 u1 u2 u3 : (⟨S4x50000x64, .f32⟩ : BufTy).Contents (Elt F)) (b : Fin 4) (n : Fin 50000)
    (i : Fin 4) (f : Fin 64) (j : Fin 256) (hj : j.val = i.val * 64 + f.val) :
    kcat64 u0 u1 u2 u3 (ix3 b n j) = (![u0, u1, u2, u3] i) (ix3 b n f) :=
  Cert.LayoutIdx.concatenate4_last_apply u0 u1 u2 u3 _ b n i f j hj

/-! ## The weight stacks as matrices -/

/-- The four 4×64 weight slices stacked as a 16×64 matrix: row `j = i·4 + f` is row `f` of slice `i`. -/
theorem kresh_w1_apply (a4 : (⟨S4x4x64, .f32⟩ : BufTy).Contents (Elt F)) (i : Fin 4) (f : Fin 4) (j : Fin 16) (g : Fin 64)
    (hj : j.val = i.val * 4 + f.val) : kresh_w1 a4 (ix2 j g) = a4 (ix3 i f g) :=
  shapeCast_abk_mk_apply a4 shapeCasts_S4x4x64_S16x64 i f g j hj

/-- The four 64×64 weight slices stacked as a 256×64 matrix: row `j = i·64 + f` is row `f` of slice `i`. -/
theorem kresh_w2_apply (a6 : (⟨S4x64x64, .f32⟩ : BufTy).Contents (Elt F)) (i : Fin 4) (f : Fin 64) (j : Fin 256) (g : Fin 64)
    (hj : j.val = i.val * 64 + f.val) : kresh_w2 a6 (ix2 j g) = a6 (ix3 i f g) :=
  shapeCast_abk_mk_apply a6 shapeCasts_S4x64x64_S256x64 i f g j hj

/-- The four 64×2 weight slices stacked as a 256×2 matrix: row `j = i·64 + f` is row `f` of slice `i`. -/
theorem kresh_w3_apply (a8 : (⟨S4x64x2, .f32⟩ : BufTy).Contents (Elt F)) (i : Fin 4) (f : Fin 64) (j : Fin 256) (g : Fin 2)
    (hj : j.val = i.val * 64 + f.val) : kresh_w3 a8 (ix2 j g) = a8 (ix3 i f g) :=
  shapeCast_abk_mk_apply a8 shapeCasts_S4x64x2_S256x2 i f g j hj

/-! ## Vectors as rows and columns -/

/-- A 64-vector as a 1×64 row, read at `(z, g)`: the vector at `g`. -/
theorem kresh_row64_apply (a : (⟨S64, .f32⟩ : BufTy).Contents (Elt F)) (z : Fin 1) (g : Fin 64) :
    kresh_row64 a (ix2 z g) = a (ix1 g) :=
  shapeCast_a_1a_apply a shapeCasts_S64_S1x64 z g

/-- A 2-vector as a 1×2 row, read at `(z, g)`: the vector at `g`. -/
theorem kresh_row2_apply (a : (⟨S2, .f32⟩ : BufTy).Contents (Elt F)) (z : Fin 1) (g : Fin 2) :
    kresh_row2 a (ix2 z g) = a (ix1 g) :=
  shapeCast_a_1a_apply a shapeCasts_S2_S1x2 z g

/-- A 50000-vector as a 50000×1 column, read at `(n, z)`: the vector at `n`. -/
theorem kresh_col_apply (a : (⟨S50000, .f32⟩ : BufTy).Contents (Elt F)) (n : Fin 50000) (z : Fin 1) :
    kresh_col a (ix2 n z) = a (ix1 n) :=
  Cert.LayoutIdx.shapeCast_a_a1_apply a shapeCasts_S50000_S50000x1 n z

/-- Two 50000-vectors as the two columns of a 50000×2 array, read at `(n, g)`: the first at `n` if `g = 0`, else the second. -/
theorem kstack_apply (a b : (⟨S50000, .f32⟩ : BufTy).Contents (Elt F)) (n : Fin 50000) (g : Fin 2) :
    kstack a b (ix2 n g) = if g = 0 then a (ix1 n) else b (ix1 n) := by
  refine (Cert.LayoutIdx.stack2_apply a b bcast_S50000_S50000x1_0 concatenates_S50000x1_S50000x1_S50000x2_d1 n g).trans ?_
  match g with
  | ⟨0, _⟩ => rfl
  | ⟨1, _⟩ => rfl

end Cert.KernelIdeal.Hand

end
-- ==== Proof.RefVals.lean ====
/- The run of the reference program's operations read stretch by stretch. The operation list is cut after each of 35 named
   buffers; `val g M` is what the device's buffers hold after the first g stretches from contents `M`, the last of them
   what they hold after the whole run; a buffer that the stretches from g on do not write holds at the end what it held
   after the first g. -/
import proofs.«159603_j71347996721325_2_alg».proof.Proof.RefRun
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Stretch 0: the operations after the previous named buffer up to the one that writes `main_v7`. -/
abbrev sg0 : List (HloOp τ sig (Elt F)) := p0
abbrev sg0_W : List (Ref sig .tc) := p0_W
theorem sg0_writes : Cert.RefLib.WritesIn (sg0 : List (HloOp τ sig (Elt F))) sg0_W :=
  p0_writes

/-- Stretch 1: the operations after the previous named buffer up to the one that writes `main_v13`. -/
abbrev sg1 : List (HloOp τ sig (Elt F)) := p1
abbrev sg1_W : List (Ref sig .tc) := p1_W
theorem sg1_writes : Cert.RefLib.WritesIn (sg1 : List (HloOp τ sig (Elt F))) sg1_W :=
  p1_writes

/-- Stretch 2: the operations after the previous named buffer up to the one that writes `main_v29`. -/
abbrev sg2 : List (HloOp τ sig (Elt F)) := p2
abbrev sg2_W : List (Ref sig .tc) := p2_W
theorem sg2_writes : Cert.RefLib.WritesIn (sg2 : List (HloOp τ sig (Elt F))) sg2_W :=
  p2_writes

/-- Stretch 3: the operations after the previous named buffer up to the one that writes `main_v32`. -/
abbrev sg3 : List (HloOp τ sig (Elt F)) := p3
abbrev sg3_W : List (Ref sig .tc) := p3_W
theorem sg3_writes : Cert.RefLib.WritesIn (sg3 : List (HloOp τ sig (Elt F))) sg3_W :=
  p3_writes

/-- Stretch 4: the operations after the previous named buffer up to the one that writes `main_v50`. -/
abbrev sg4 : List (HloOp τ sig (Elt F)) := p4 ++ p5
abbrev sg4_W : List (Ref sig .tc) := p4_W ++ p5_W
theorem sg4_writes : Cert.RefLib.WritesIn (sg4 : List (HloOp τ sig (Elt F))) sg4_W :=
  Cert.RefLib.WritesIn.append (p4_writes) p5_writes

/-- Stretch 5: the operations after the previous named buffer up to the one that writes `main_v54`. -/
abbrev sg5 : List (HloOp τ sig (Elt F)) := p6
abbrev sg5_W : List (Ref sig .tc) := p6_W
theorem sg5_writes : Cert.RefLib.WritesIn (sg5 : List (HloOp τ sig (Elt F))) sg5_W :=
  p6_writes

/-- Stretch 6: the operations after the previous named buffer up to the one that writes `main_v72`. -/
abbrev sg6 : List (HloOp τ sig (Elt F)) := p7
abbrev sg6_W : List (Ref sig .tc) := p7_W
theorem sg6_writes : Cert.RefLib.WritesIn (sg6 : List (HloOp τ sig (Elt F))) sg6_W :=
  p7_writes

/-- Stretch 7: the operations after the previous named buffer up to the one that writes `main_v76`. -/
abbrev sg7 : List (HloOp τ sig (Elt F)) := p8
abbrev sg7_W : List (Ref sig .tc) := p8_W
theorem sg7_writes : Cert.RefLib.WritesIn (sg7 : List (HloOp τ sig (Elt F))) sg7_W :=
  p8_writes

/-- Stretch 8: the operations after the previous named buffer up to the one that writes `main_v94`. -/
abbrev sg8 : List (HloOp τ sig (Elt F)) := p9
abbrev sg8_W : List (Ref sig .tc) := p9_W
theorem sg8_writes : Cert.RefLib.WritesIn (sg8 : List (HloOp τ sig (Elt F))) sg8_W :=
  p9_writes

/-- Stretch 9: the operations after the previous named buffer up to the one that writes `main_v101`. -/
abbrev sg9 : List (HloOp τ sig (Elt F)) := p10
abbrev sg9_W : List (Ref sig .tc) := p10_W
theorem sg9_writes : Cert.RefLib.WritesIn (sg9 : List (HloOp τ sig (Elt F))) sg9_W :=
  p10_writes

/-- Stretch 10: the operations after the previous named buffer up to the one that writes `main_v105`. -/
abbrev sg10 : List (HloOp τ sig (Elt F)) := p11
abbrev sg10_W : List (Ref sig .tc) := p11_W
theorem sg10_writes : Cert.RefLib.WritesIn (sg10 : List (HloOp τ sig (Elt F))) sg10_W :=
  p11_writes

/-- Stretch 11: the operations after the previous named buffer up to the one that writes `main_v106`. -/
abbrev sg11 : List (HloOp τ sig (Elt F)) := p12
abbrev sg11_W : List (Ref sig .tc) := p12_W
theorem sg11_writes : Cert.RefLib.WritesIn (sg11 : List (HloOp τ sig (Elt F))) sg11_W :=
  p12_writes

/-- Stretch 12: the operations after the previous named buffer up to the one that writes `main_v119`. -/
abbrev sg12 : List (HloOp τ sig (Elt F)) := p13
abbrev sg12_W : List (Ref sig .tc) := p13_W
theorem sg12_writes : Cert.RefLib.WritesIn (sg12 : List (HloOp τ sig (Elt F))) sg12_W :=
  p13_writes

/-- Stretch 13: the operations after the previous named buffer up to the one that writes `main_v120`. -/
abbrev sg13 : List (HloOp τ sig (Elt F)) := p14
abbrev sg13_W : List (Ref sig .tc) := p14_W
theorem sg13_writes : Cert.RefLib.WritesIn (sg13 : List (HloOp τ sig (Elt F))) sg13_W :=
  p14_writes

/-- Stretch 14: the operations after the previous named buffer up to the one that writes `main_v123`. -/
abbrev sg14 : List (HloOp τ sig (Elt F)) := p15
abbrev sg14_W : List (Ref sig .tc) := p15_W
theorem sg14_writes : Cert.RefLib.WritesIn (sg14 : List (HloOp τ sig (Elt F))) sg14_W :=
  p15_writes

/-- Stretch 15: the operations after the previous named buffer up to the one that writes `main_v141`. -/
abbrev sg15 : List (HloOp τ sig (Elt F)) := p16
abbrev sg15_W : List (Ref sig .tc) := p16_W
theorem sg15_writes : Cert.RefLib.WritesIn (sg15 : List (HloOp τ sig (Elt F))) sg15_W :=
  p16_writes

/-- Stretch 16: the operations after the previous named buffer up to the one that writes `main_v145`. -/
abbrev sg16 : List (HloOp τ sig (Elt F)) := p17 ++ p18
abbrev sg16_W : List (Ref sig .tc) := p17_W ++ p18_W
theorem sg16_writes : Cert.RefLib.WritesIn (sg16 : List (HloOp τ sig (Elt F))) sg16_W :=
  Cert.RefLib.WritesIn.append (p17_writes) p18_writes

/-- Stretch 17: the operations after the previous named buffer up to the one that writes `main_v163`. -/
abbrev sg17 : List (HloOp τ sig (Elt F)) := p19
abbrev sg17_W : List (Ref sig .tc) := p19_W
theorem sg17_writes : Cert.RefLib.WritesIn (sg17 : List (HloOp τ sig (Elt F))) sg17_W :=
  p19_writes

/-- Stretch 18: the operations after the previous named buffer up to the one that writes `main_v167`. -/
abbrev sg18 : List (HloOp τ sig (Elt F)) := p20
abbrev sg18_W : List (Ref sig .tc) := p20_W
theorem sg18_writes : Cert.RefLib.WritesIn (sg18 : List (HloOp τ sig (Elt F))) sg18_W :=
  p20_writes

/-- Stretch 19: the operations after the previous named buffer up to the one that writes `main_v185`. -/
abbrev sg19 : List (HloOp τ sig (Elt F)) := p21
abbrev sg19_W : List (Ref sig .tc) := p21_W
theorem sg19_writes : Cert.RefLib.WritesIn (sg19 : List (HloOp τ sig (Elt F))) sg19_W :=
  p21_writes

/-- Stretch 20: the operations after the previous named buffer up to the one that writes `main_v192`. -/
abbrev sg20 : List (HloOp τ sig (Elt F)) := p22
abbrev sg20_W : List (Ref sig .tc) := p22_W
theorem sg20_writes : Cert.RefLib.WritesIn (sg20 : List (HloOp τ sig (Elt F))) sg20_W :=
  p22_writes

/-- Stretch 21: the operations after the previous named buffer up to the one that writes `main_v196`. -/
abbrev sg21 : List (HloOp τ sig (Elt F)) := p23 ++ p24
abbrev sg21_W : List (Ref sig .tc) := p23_W ++ p24_W
theorem sg21_writes : Cert.RefLib.WritesIn (sg21 : List (HloOp τ sig (Elt F))) sg21_W :=
  Cert.RefLib.WritesIn.append (p23_writes) p24_writes

/-- Stretch 22: the operations after the previous named buffer up to the one that writes `main_v197`. -/
abbrev sg22 : List (HloOp τ sig (Elt F)) := p25
abbrev sg22_W : List (Ref sig .tc) := p25_W
theorem sg22_writes : Cert.RefLib.WritesIn (sg22 : List (HloOp τ sig (Elt F))) sg22_W :=
  p25_writes

/-- Stretch 23: the operations after the previous named buffer up to the one that writes `main_v210`. -/
abbrev sg23 : List (HloOp τ sig (Elt F)) := p26
abbrev sg23_W : List (Ref sig .tc) := p26_W
theorem sg23_writes : Cert.RefLib.WritesIn (sg23 : List (HloOp τ sig (Elt F))) sg23_W :=
  p26_writes

/-- Stretch 24: the operations after the previous named buffer up to the one that writes `main_v211`. -/
abbrev sg24 : List (HloOp τ sig (Elt F)) := p27
abbrev sg24_W : List (Ref sig .tc) := p27_W
theorem sg24_writes : Cert.RefLib.WritesIn (sg24 : List (HloOp τ sig (Elt F))) sg24_W :=
  p27_writes

/-- Stretch 25: the operations after the previous named buffer up to the one that writes `main_v214`. -/
abbrev sg25 : List (HloOp τ sig (Elt F)) := p28
abbrev sg25_W : List (Ref sig .tc) := p28_W
theorem sg25_writes : Cert.RefLib.WritesIn (sg25 : List (HloOp τ sig (Elt F))) sg25_W :=
  p28_writes

/-- Stretch 26: the operations after the previous named buffer up to the one that writes `main_v232`. -/
abbrev sg26 : List (HloOp τ sig (Elt F)) := p29
abbrev sg26_W : List (Ref sig .tc) := p29_W
theorem sg26_writes : Cert.RefLib.WritesIn (sg26 : List (HloOp τ sig (Elt F))) sg26_W :=
  p29_writes

/-- Stretch 27: the operations after the previous named buffer up to the one that writes `main_v236`. -/
abbrev sg27 : List (HloOp τ sig (Elt F)) := p30
abbrev sg27_W : List (Ref sig .tc) := p30_W
theorem sg27_writes : Cert.RefLib.WritesIn (sg27 : List (HloOp τ sig (Elt F))) sg27_W :=
  p30_writes

/-- Stretch 28: the operations after the previous named buffer up to the one that writes `main_v254`. -/
abbrev sg28 : List (HloOp τ sig (Elt F)) := p31 ++ p32
abbrev sg28_W : List (Ref sig .tc) := p31_W ++ p32_W
theorem sg28_writes : Cert.RefLib.WritesIn (sg28 : List (HloOp τ sig (Elt F))) sg28_W :=
  Cert.RefLib.WritesIn.append (p31_writes) p32_writes

/-- Stretch 29: the operations after the previous named buffer up to the one that writes `main_v258`. -/
abbrev sg29 : List (HloOp τ sig (Elt F)) := p33
abbrev sg29_W : List (Ref sig .tc) := p33_W
theorem sg29_writes : Cert.RefLib.WritesIn (sg29 : List (HloOp τ sig (Elt F))) sg29_W :=
  p33_writes

/-- Stretch 30: the operations after the previous named buffer up to the one that writes `main_v276`. -/
abbrev sg30 : List (HloOp τ sig (Elt F)) := p34
abbrev sg30_W : List (Ref sig .tc) := p34_W
theorem sg30_writes : Cert.RefLib.WritesIn (sg30 : List (HloOp τ sig (Elt F))) sg30_W :=
  p34_writes

/-- Stretch 31: the operations after the previous named buffer up to the one that writes `main_v283`. -/
abbrev sg31 : List (HloOp τ sig (Elt F)) := p35
abbrev sg31_W : List (Ref sig .tc) := p35_W
theorem sg31_writes : Cert.RefLib.WritesIn (sg31 : List (HloOp τ sig (Elt F))) sg31_W :=
  p35_writes

/-- Stretch 32: the operations after the previous named buffer up to the one that writes `main_v285`. -/
abbrev sg32 : List (HloOp τ sig (Elt F)) := p36
abbrev sg32_W : List (Ref sig .tc) := p36_W
theorem sg32_writes : Cert.RefLib.WritesIn (sg32 : List (HloOp τ sig (Elt F))) sg32_W :=
  p36_writes

/-- Stretch 33: the operations after the previous named buffer up to the one that writes `main_v294`. -/
abbrev sg33 : List (HloOp τ sig (Elt F)) := p37 ++ p38
abbrev sg33_W : List (Ref sig .tc) := p37_W ++ p38_W
theorem sg33_writes : Cert.RefLib.WritesIn (sg33 : List (HloOp τ sig (Elt F))) sg33_W :=
  Cert.RefLib.WritesIn.append (p37_writes) p38_writes

/-- Stretch 34: the operations after the previous named buffer up to the one that writes `main_v303`. -/
abbrev sg34 : List (HloOp τ sig (Elt F)) := p39
abbrev sg34_W : List (Ref sig .tc) := p39_W
theorem sg34_writes : Cert.RefLib.WritesIn (sg34 : List (HloOp τ sig (Elt F))) sg34_W :=
  p39_writes

/-- The buffers before the first stretch. -/
def val0 (M : Valuation τ sig (Elt F)) : Valuation τ sig (Elt F) := M
/-- The buffers after the first 1 stretch. -/
def val1 (M : Valuation τ sig (Elt F)) : Valuation τ sig (Elt F) := after sg0 (val0 M)
theorem val1_keep (M : Valuation τ sig (Elt F)) {r : Ref sig .tc} (h : r ∉ sg0_W) :
    val1 M (Proc.devRef .tc r) = val0 M (Proc.devRef .tc r) := sg0_writes.keep _ h
/-- The buffers after the first 2 stretches. -/
def val2 (M : Valuation τ sig (Elt F)) : Valuation τ sig (Elt F) := after sg1 (val1 M)
theorem val2_keep (M : Valuation τ sig (Elt F)) {r : Ref sig .tc} (h : r ∉ sg1_W) :
    val2 M (Proc.devRef .tc r) = val1 M (Proc.devRef .tc r) := sg1_writes.keep _ h
/-- The buffers after the first 3 stretches. -/
def val3 (M : Valuation τ sig (Elt F)) : Valuation τ sig (Elt F) := after sg2 (val2 M)
theorem val3_keep (M : Valuation τ sig (Elt F)) {r : Ref sig .tc} (h : r ∉ sg2_W) :
    val3 M (Proc.devRef .tc r) = val2 M (Proc.devRef .tc r) := sg2_writes.keep _ h
/-- The buffers after the first 4 stretches. -/
def val4 (M : Valuation τ sig (Elt F)) : Valuation τ sig (Elt F) := after sg3 (val3 M)
theorem val4_keep (M : Valuation τ sig (Elt F)) {r : Ref sig .tc} (h : r ∉ sg3_W) :
    val4 M (Proc.devRef .tc r) = val3 M (Proc.devRef .tc r) := sg3_writes.keep _ h
/-- The buffers after the first 5 stretches. -/
def val5 (M : Valuation τ sig (Elt F)) : Valuation τ sig (Elt F) := after sg4 (val4 M)
theorem val5_keep (M : Valuation τ sig (Elt F)) {r : Ref sig .tc} (h : r ∉ sg4_W) :
    val5 M (Proc.devRef .tc r) = val4 M (Proc.devRef .tc r) := sg4_writes.keep _ h
/-- The buffers after the first 6 stretches. -/
def val6 (M : Valuation τ sig (Elt F)) : Valuation τ sig (Elt F) := after sg5 (val5 M)
theorem val6_keep (M : Valuation τ sig (Elt F)) {r : Ref sig .tc} (h : r ∉ sg5_W) :
    val6 M (Proc.devRef .tc r) = val5 M (Proc.devRef .tc r) := sg5_writes.keep _ h
/-- The buffers after the first 7 stretches. -/
def val7 (M : Valuation τ sig (Elt F)) : Valuation τ sig (Elt F) := after sg6 (val6 M)
theorem val7_keep (M : Valuation τ sig (Elt F)) {r : Ref sig .tc} (h : r ∉ sg6_W) :
    val7 M (Proc.devRef .tc r) = val6 M (Proc.devRef .tc r) := sg6_writes.keep _ h
/-- The buffers after the first 8 stretches. -/
def val8 (M : Valuation τ sig (Elt F)) : Valuation τ sig (Elt F) := after sg7 (val7 M)
theorem val8_keep (M : Valuation τ sig (Elt F)) {r : Ref sig .tc} (h : r ∉ sg7_W) :
    val8 M (Proc.devRef .tc r) = val7 M (Proc.devRef .tc r) := sg7_writes.keep _ h
/-- The buffers after the first 9 stretches. -/
def val9 (M : Valuation τ sig (Elt F)) : Valuation τ sig (Elt F) := after sg8 (val8 M)
theorem val9_keep (M : Valuation τ sig (Elt F)) {r : Ref sig .tc} (h : r ∉ sg8_W) :
    val9 M (Proc.devRef .tc r) = val8 M (Proc.devRef .tc r) := sg8_writes.keep _ h
/-- The buffers after the first 10 stretches. -/
def val10 (M : Valuation τ sig (Elt F)) : Valuation τ sig (Elt F) := after sg9 (val9 M)
theorem val10_keep (M : Valuation τ sig (Elt F)) {r : Ref sig .tc} (h : r ∉ sg9_W) :
    val10 M (Proc.devRef .tc r) = val9 M (Proc.devRef .tc r) := sg9_writes.keep _ h
/-- The buffers after the first 11 stretches. -/
def val11 (M : Valuation τ sig (Elt F)) : Valuation τ sig (Elt F) := after sg10 (val10 M)
theorem val11_keep (M : Valuation τ sig (Elt F)) {r : Ref sig .tc} (h : r ∉ sg10_W) :
    val11 M (Proc.devRef .tc r) = val10 M (Proc.devRef .tc r) := sg10_writes.keep _ h
/-- The buffers after the first 12 stretches. -/
def val12 (M : Valuation τ sig (Elt F)) : Valuation τ sig (Elt F) := after sg11 (val11 M)
theorem val12_keep (M : Valuation τ sig (Elt F)) {r : Ref sig .tc} (h : r ∉ sg11_W) :
    val12 M (Proc.devRef .tc r) = val11 M (Proc.devRef .tc r) := sg11_writes.keep _ h
/-- The buffers after the first 13 stretches. -/
def val13 (M : Valuation τ sig (Elt F)) : Valuation τ sig (Elt F) := after sg12 (val12 M)
theorem val13_keep (M : Valuation τ sig (Elt F)) {r : Ref sig .tc} (h : r ∉ sg12_W) :
    val13 M (Proc.devRef .tc r) = val12 M (Proc.devRef .tc r) := sg12_writes.keep _ h
/-- The buffers after the first 14 stretches. -/
def val14 (M : Valuation τ sig (Elt F)) : Valuation τ sig (Elt F) := after sg13 (val13 M)
theorem val14_keep (M : Valuation τ sig (Elt F)) {r : Ref sig .tc} (h : r ∉ sg13_W) :
    val14 M (Proc.devRef .tc r) = val13 M (Proc.devRef .tc r) := sg13_writes.keep _ h
/-- The buffers after the first 15 stretches. -/
def val15 (M : Valuation τ sig (Elt F)) : Valuation τ sig (Elt F) := after sg14 (val14 M)
theorem val15_keep (M : Valuation τ sig (Elt F)) {r : Ref sig .tc} (h : r ∉ sg14_W) :
    val15 M (Proc.devRef .tc r) = val14 M (Proc.devRef .tc r) := sg14_writes.keep _ h
/-- The buffers after the first 16 stretches. -/
def val16 (M : Valuation τ sig (Elt F)) : Valuation τ sig (Elt F) := after sg15 (val15 M)
theorem val16_keep (M : Valuation τ sig (Elt F)) {r : Ref sig .tc} (h : r ∉ sg15_W) :
    val16 M (Proc.devRef .tc r) = val15 M (Proc.devRef .tc r) := sg15_writes.keep _ h
/-- The buffers after the first 17 stretches. -/
def val17 (M : Valuation τ sig (Elt F)) : Valuation τ sig (Elt F) := after sg16 (val16 M)
theorem val17_keep (M : Valuation τ sig (Elt F)) {r : Ref sig .tc} (h : r ∉ sg16_W) :
    val17 M (Proc.devRef .tc r) = val16 M (Proc.devRef .tc r) := sg16_writes.keep _ h
/-- The buffers after the first 18 stretches. -/
def val18 (M : Valuation τ sig (Elt F)) : Valuation τ sig (Elt F) := after sg17 (val17 M)
theorem val18_keep (M : Valuation τ sig (Elt F)) {r : Ref sig .tc} (h : r ∉ sg17_W) :
    val18 M (Proc.devRef .tc r) = val17 M (Proc.devRef .tc r) := sg17_writes.keep _ h
/-- The buffers after the first 19 stretches. -/
def val19 (M : Valuation τ sig (Elt F)) : Valuation τ sig (Elt F) := after sg18 (val18 M)
theorem val19_keep (M : Valuation τ sig (Elt F)) {r : Ref sig .tc} (h : r ∉ sg18_W) :
    val19 M (Proc.devRef .tc r) = val18 M (Proc.devRef .tc r) := sg18_writes.keep _ h
/-- The buffers after the first 20 stretches. -/
def val20 (M : Valuation τ sig (Elt F)) : Valuation τ sig (Elt F) := after sg19 (val19 M)
theorem val20_keep (M : Valuation τ sig (Elt F)) {r : Ref sig .tc} (h : r ∉ sg19_W) :
    val20 M (Proc.devRef .tc r) = val19 M (Proc.devRef .tc r) := sg19_writes.keep _ h
/-- The buffers after the first 21 stretches. -/
def val21 (M : Valuation τ sig (Elt F)) : Valuation τ sig (Elt F) := after sg20 (val20 M)
theorem val21_keep (M : Valuation τ sig (Elt F)) {r : Ref sig .tc} (h : r ∉ sg20_W) :
    val21 M (Proc.devRef .tc r) = val20 M (Proc.devRef .tc r) := sg20_writes.keep _ h
/-- The buffers after the first 22 stretches. -/
def val22 (M : Valuation τ sig (Elt F)) : Valuation τ sig (Elt F) := after sg21 (val21 M)
theorem val22_keep (M : Valuation τ sig (Elt F)) {r : Ref sig .tc} (h : r ∉ sg21_W) :
    val22 M (Proc.devRef .tc r) = val21 M (Proc.devRef .tc r) := sg21_writes.keep _ h
/-- The buffers after the first 23 stretches. -/
def val23 (M : Valuation τ sig (Elt F)) : Valuation τ sig (Elt F) := after sg22 (val22 M)
theorem val23_keep (M : Valuation τ sig (Elt F)) {r : Ref sig .tc} (h : r ∉ sg22_W) :
    val23 M (Proc.devRef .tc r) = val22 M (Proc.devRef .tc r) := sg22_writes.keep _ h
/-- The buffers after the first 24 stretches. -/
def val24 (M : Valuation τ sig (Elt F)) : Valuation τ sig (Elt F) := after sg23 (val23 M)
theorem val24_keep (M : Valuation τ sig (Elt F)) {r : Ref sig .tc} (h : r ∉ sg23_W) :
    val24 M (Proc.devRef .tc r) = val23 M (Proc.devRef .tc r) := sg23_writes.keep _ h
/-- The buffers after the first 25 stretches. -/
def val25 (M : Valuation τ sig (Elt F)) : Valuation τ sig (Elt F) := after sg24 (val24 M)
theorem val25_keep (M : Valuation τ sig (Elt F)) {r : Ref sig .tc} (h : r ∉ sg24_W) :
    val25 M (Proc.devRef .tc r) = val24 M (Proc.devRef .tc r) := sg24_writes.keep _ h
/-- The buffers after the first 26 stretches. -/
def val26 (M : Valuation τ sig (Elt F)) : Valuation τ sig (Elt F) := after sg25 (val25 M)
theorem val26_keep (M : Valuation τ sig (Elt F)) {r : Ref sig .tc} (h : r ∉ sg25_W) :
    val26 M (Proc.devRef .tc r) = val25 M (Proc.devRef .tc r) := sg25_writes.keep _ h
/-- The buffers after the first 27 stretches. -/
def val27 (M : Valuation τ sig (Elt F)) : Valuation τ sig (Elt F) := after sg26 (val26 M)
theorem val27_keep (M : Valuation τ sig (Elt F)) {r : Ref sig .tc} (h : r ∉ sg26_W) :
    val27 M (Proc.devRef .tc r) = val26 M (Proc.devRef .tc r) := sg26_writes.keep _ h
/-- The buffers after the first 28 stretches. -/
def val28 (M : Valuation τ sig (Elt F)) : Valuation τ sig (Elt F) := after sg27 (val27 M)
theorem val28_keep (M : Valuation τ sig (Elt F)) {r : Ref sig .tc} (h : r ∉ sg27_W) :
    val28 M (Proc.devRef .tc r) = val27 M (Proc.devRef .tc r) := sg27_writes.keep _ h
/-- The buffers after the first 29 stretches. -/
def val29 (M : Valuation τ sig (Elt F)) : Valuation τ sig (Elt F) := after sg28 (val28 M)
theorem val29_keep (M : Valuation τ sig (Elt F)) {r : Ref sig .tc} (h : r ∉ sg28_W) :
    val29 M (Proc.devRef .tc r) = val28 M (Proc.devRef .tc r) := sg28_writes.keep _ h
/-- The buffers after the first 30 stretches. -/
def val30 (M : Valuation τ sig (Elt F)) : Valuation τ sig (Elt F) := after sg29 (val29 M)
theorem val30_keep (M : Valuation τ sig (Elt F)) {r : Ref sig .tc} (h : r ∉ sg29_W) :
    val30 M (Proc.devRef .tc r) = val29 M (Proc.devRef .tc r) := sg29_writes.keep _ h
/-- The buffers after the first 31 stretches. -/
def val31 (M : Valuation τ sig (Elt F)) : Valuation τ sig (Elt F) := after sg30 (val30 M)
theorem val31_keep (M : Valuation τ sig (Elt F)) {r : Ref sig .tc} (h : r ∉ sg30_W) :
    val31 M (Proc.devRef .tc r) = val30 M (Proc.devRef .tc r) := sg30_writes.keep _ h
/-- The buffers after the first 32 stretches. -/
def val32 (M : Valuation τ sig (Elt F)) : Valuation τ sig (Elt F) := after sg31 (val31 M)
theorem val32_keep (M : Valuation τ sig (Elt F)) {r : Ref sig .tc} (h : r ∉ sg31_W) :
    val32 M (Proc.devRef .tc r) = val31 M (Proc.devRef .tc r) := sg31_writes.keep _ h
/-- The buffers after the first 33 stretches. -/
def val33 (M : Valuation τ sig (Elt F)) : Valuation τ sig (Elt F) := after sg32 (val32 M)
theorem val33_keep (M : Valuation τ sig (Elt F)) {r : Ref sig .tc} (h : r ∉ sg32_W) :
    val33 M (Proc.devRef .tc r) = val32 M (Proc.devRef .tc r) := sg32_writes.keep _ h
/-- The buffers after the first 34 stretches. -/
def val34 (M : Valuation τ sig (Elt F)) : Valuation τ sig (Elt F) := after sg33 (val33 M)
theorem val34_keep (M : Valuation τ sig (Elt F)) {r : Ref sig .tc} (h : r ∉ sg33_W) :
    val34 M (Proc.devRef .tc r) = val33 M (Proc.devRef .tc r) := sg33_writes.keep _ h
/-- The buffers after the first 35 stretches. -/
def val35 (M : Valuation τ sig (Elt F)) : Valuation τ sig (Elt F) := after sg34 (val34 M)
theorem val35_keep (M : Valuation τ sig (Elt F)) {r : Ref sig .tc} (h : r ∉ sg34_W) :
    val35 M (Proc.devRef .tc r) = val34 M (Proc.devRef .tc r) := sg34_writes.keep _ h

set_option maxRecDepth 65536 in
/-- The whole run is the stretches in a row. -/
theorem after_ops (M : Valuation τ sig (Elt F)) : after ops M = val35 M := by
  simp only [ops, w0, w1, w2, w3, w4, w5, w6, val0, val1, val2, val3, val4, val5, val6, val7, val8, val9, val10, val11, val12, val13, val14, val15, val16, val17, val18, val19, val20, val21, val22, val23, val24, val25, val26, val27, val28, val29, val30, val31, val32, val33, val34, val35, StableHlo.after_append]

/-- The buffers written from stretch g on. -/
def Wfrom35 : List (Ref sig .tc) := []
def Wfrom34 : List (Ref sig .tc) := sg34_W ++ Wfrom35
def Wfrom33 : List (Ref sig .tc) := sg33_W ++ Wfrom34
def Wfrom32 : List (Ref sig .tc) := sg32_W ++ Wfrom33
def Wfrom31 : List (Ref sig .tc) := sg31_W ++ Wfrom32
def Wfrom30 : List (Ref sig .tc) := sg30_W ++ Wfrom31
def Wfrom29 : List (Ref sig .tc) := sg29_W ++ Wfrom30
def Wfrom28 : List (Ref sig .tc) := sg28_W ++ Wfrom29
def Wfrom27 : List (Ref sig .tc) := sg27_W ++ Wfrom28
def Wfrom26 : List (Ref sig .tc) := sg26_W ++ Wfrom27
def Wfrom25 : List (Ref sig .tc) := sg25_W ++ Wfrom26
def Wfrom24 : List (Ref sig .tc) := sg24_W ++ Wfrom25
def Wfrom23 : List (Ref sig .tc) := sg23_W ++ Wfrom24
def Wfrom22 : List (Ref sig .tc) := sg22_W ++ Wfrom23
def Wfrom21 : List (Ref sig .tc) := sg21_W ++ Wfrom22
def Wfrom20 : List (Ref sig .tc) := sg20_W ++ Wfrom21
def Wfrom19 : List (Ref sig .tc) := sg19_W ++ Wfrom20
def Wfrom18 : List (Ref sig .tc) := sg18_W ++ Wfrom19
def Wfrom17 : List (Ref sig .tc) := sg17_W ++ Wfrom18
def Wfrom16 : List (Ref sig .tc) := sg16_W ++ Wfrom17
def Wfrom15 : List (Ref sig .tc) := sg15_W ++ Wfrom16
def Wfrom14 : List (Ref sig .tc) := sg14_W ++ Wfrom15
def Wfrom13 : List (Ref sig .tc) := sg13_W ++ Wfrom14
def Wfrom12 : List (Ref sig .tc) := sg12_W ++ Wfrom13
def Wfrom11 : List (Ref sig .tc) := sg11_W ++ Wfrom12
def Wfrom10 : List (Ref sig .tc) := sg10_W ++ Wfrom11
def Wfrom9 : List (Ref sig .tc) := sg9_W ++ Wfrom10
def Wfrom8 : List (Ref sig .tc) := sg8_W ++ Wfrom9
def Wfrom7 : List (Ref sig .tc) := sg7_W ++ Wfrom8
def Wfrom6 : List (Ref sig .tc) := sg6_W ++ Wfrom7
def Wfrom5 : List (Ref sig .tc) := sg5_W ++ Wfrom6
def Wfrom4 : List (Ref sig .tc) := sg4_W ++ Wfrom5
def Wfrom3 : List (Ref sig .tc) := sg3_W ++ Wfrom4
def Wfrom2 : List (Ref sig .tc) := sg2_W ++ Wfrom3
def Wfrom1 : List (Ref sig .tc) := sg1_W ++ Wfrom2
def Wfrom0 : List (Ref sig .tc) := sg0_W ++ Wfrom1

/-- A buffer not written from stretch g on holds after the run what it held after the first g stretches. -/
theorem fin_keep35 (M : Valuation τ sig (Elt F)) {r : Ref sig .tc} (_h : r ∉ Wfrom35) :
    after ops M (Proc.devRef .tc r) = val35 M (Proc.devRef .tc r) := congrFun (after_ops M) _
theorem fin_keep34 (M : Valuation τ sig (Elt F)) {r : Ref sig .tc} (h : r ∉ Wfrom34) :
    after ops M (Proc.devRef .tc r) = val34 M (Proc.devRef .tc r) :=
  (fin_keep35 M fun hm => h (List.mem_append_right _ hm)).trans (val35_keep M fun hm => h (List.mem_append_left _ hm))
theorem fin_keep33 (M : Valuation τ sig (Elt F)) {r : Ref sig .tc} (h : r ∉ Wfrom33) :
    after ops M (Proc.devRef .tc r) = val33 M (Proc.devRef .tc r) :=
  (fin_keep34 M fun hm => h (List.mem_append_right _ hm)).trans (val34_keep M fun hm => h (List.mem_append_left _ hm))
theorem fin_keep32 (M : Valuation τ sig (Elt F)) {r : Ref sig .tc} (h : r ∉ Wfrom32) :
    after ops M (Proc.devRef .tc r) = val32 M (Proc.devRef .tc r) :=
  (fin_keep33 M fun hm => h (List.mem_append_right _ hm)).trans (val33_keep M fun hm => h (List.mem_append_left _ hm))
theorem fin_keep31 (M : Valuation τ sig (Elt F)) {r : Ref sig .tc} (h : r ∉ Wfrom31) :
    after ops M (Proc.devRef .tc r) = val31 M (Proc.devRef .tc r) :=
  (fin_keep32 M fun hm => h (List.mem_append_right _ hm)).trans (val32_keep M fun hm => h (List.mem_append_left _ hm))
theorem fin_keep30 (M : Valuation τ sig (Elt F)) {r : Ref sig .tc} (h : r ∉ Wfrom30) :
    after ops M (Proc.devRef .tc r) = val30 M (Proc.devRef .tc r) :=
  (fin_keep31 M fun hm => h (List.mem_append_right _ hm)).trans (val31_keep M fun hm => h (List.mem_append_left _ hm))
theorem fin_keep29 (M : Valuation τ sig (Elt F)) {r : Ref sig .tc} (h : r ∉ Wfrom29) :
    after ops M (Proc.devRef .tc r) = val29 M (Proc.devRef .tc r) :=
  (fin_keep30 M fun hm => h (List.mem_append_right _ hm)).trans (val30_keep M fun hm => h (List.mem_append_left _ hm))
theorem fin_keep28 (M : Valuation τ sig (Elt F)) {r : Ref sig .tc} (h : r ∉ Wfrom28) :
    after ops M (Proc.devRef .tc r) = val28 M (Proc.devRef .tc r) :=
  (fin_keep29 M fun hm => h (List.mem_append_right _ hm)).trans (val29_keep M fun hm => h (List.mem_append_left _ hm))
theorem fin_keep27 (M : Valuation τ sig (Elt F)) {r : Ref sig .tc} (h : r ∉ Wfrom27) :
    after ops M (Proc.devRef .tc r) = val27 M (Proc.devRef .tc r) :=
  (fin_keep28 M fun hm => h (List.mem_append_right _ hm)).trans (val28_keep M fun hm => h (List.mem_append_left _ hm))
theorem fin_keep26 (M : Valuation τ sig (Elt F)) {r : Ref sig .tc} (h : r ∉ Wfrom26) :
    after ops M (Proc.devRef .tc r) = val26 M (Proc.devRef .tc r) :=
  (fin_keep27 M fun hm => h (List.mem_append_right _ hm)).trans (val27_keep M fun hm => h (List.mem_append_left _ hm))
theorem fin_keep25 (M : Valuation τ sig (Elt F)) {r : Ref sig .tc} (h : r ∉ Wfrom25) :
    after ops M (Proc.devRef .tc r) = val25 M (Proc.devRef .tc r) :=
  (fin_keep26 M fun hm => h (List.mem_append_right _ hm)).trans (val26_keep M fun hm => h (List.mem_append_left _ hm))
theorem fin_keep24 (M : Valuation τ sig (Elt F)) {r : Ref sig .tc} (h : r ∉ Wfrom24) :
    after ops M (Proc.devRef .tc r) = val24 M (Proc.devRef .tc r) :=
  (fin_keep25 M fun hm => h (List.mem_append_right _ hm)).trans (val25_keep M fun hm => h (List.mem_append_left _ hm))
theorem fin_keep23 (M : Valuation τ sig (Elt F)) {r : Ref sig .tc} (h : r ∉ Wfrom23) :
    after ops M (Proc.devRef .tc r) = val23 M (Proc.devRef .tc r) :=
  (fin_keep24 M fun hm => h (List.mem_append_right _ hm)).trans (val24_keep M fun hm => h (List.mem_append_left _ hm))
theorem fin_keep22 (M : Valuation τ sig (Elt F)) {r : Ref sig .tc} (h : r ∉ Wfrom22) :
    after ops M (Proc.devRef .tc r) = val22 M (Proc.devRef .tc r) :=
  (fin_keep23 M fun hm => h (List.mem_append_right _ hm)).trans (val23_keep M fun hm => h (List.mem_append_left _ hm))
theorem fin_keep21 (M : Valuation τ sig (Elt F)) {r : Ref sig .tc} (h : r ∉ Wfrom21) :
    after ops M (Proc.devRef .tc r) = val21 M (Proc.devRef .tc r) :=
  (fin_keep22 M fun hm => h (List.mem_append_right _ hm)).trans (val22_keep M fun hm => h (List.mem_append_left _ hm))
theorem fin_keep20 (M : Valuation τ sig (Elt F)) {r : Ref sig .tc} (h : r ∉ Wfrom20) :
    after ops M (Proc.devRef .tc r) = val20 M (Proc.devRef .tc r) :=
  (fin_keep21 M fun hm => h (List.mem_append_right _ hm)).trans (val21_keep M fun hm => h (List.mem_append_left _ hm))
theorem fin_keep19 (M : Valuation τ sig (Elt F)) {r : Ref sig .tc} (h : r ∉ Wfrom19) :
    after ops M (Proc.devRef .tc r) = val19 M (Proc.devRef .tc r) :=
  (fin_keep20 M fun hm => h (List.mem_append_right _ hm)).trans (val20_keep M fun hm => h (List.mem_append_left _ hm))
theorem fin_keep18 (M : Valuation τ sig (Elt F)) {r : Ref sig .tc} (h : r ∉ Wfrom18) :
    after ops M (Proc.devRef .tc r) = val18 M (Proc.devRef .tc r) :=
  (fin_keep19 M fun hm => h (List.mem_append_right _ hm)).trans (val19_keep M fun hm => h (List.mem_append_left _ hm))
theorem fin_keep17 (M : Valuation τ sig (Elt F)) {r : Ref sig .tc} (h : r ∉ Wfrom17) :
    after ops M (Proc.devRef .tc r) = val17 M (Proc.devRef .tc r) :=
  (fin_keep18 M fun hm => h (List.mem_append_right _ hm)).trans (val18_keep M fun hm => h (List.mem_append_left _ hm))
theorem fin_keep16 (M : Valuation τ sig (Elt F)) {r : Ref sig .tc} (h : r ∉ Wfrom16) :
    after ops M (Proc.devRef .tc r) = val16 M (Proc.devRef .tc r) :=
  (fin_keep17 M fun hm => h (List.mem_append_right _ hm)).trans (val17_keep M fun hm => h (List.mem_append_left _ hm))
theorem fin_keep15 (M : Valuation τ sig (Elt F)) {r : Ref sig .tc} (h : r ∉ Wfrom15) :
    after ops M (Proc.devRef .tc r) = val15 M (Proc.devRef .tc r) :=
  (fin_keep16 M fun hm => h (List.mem_append_right _ hm)).trans (val16_keep M fun hm => h (List.mem_append_left _ hm))
theorem fin_keep14 (M : Valuation τ sig (Elt F)) {r : Ref sig .tc} (h : r ∉ Wfrom14) :
    after ops M (Proc.devRef .tc r) = val14 M (Proc.devRef .tc r) :=
  (fin_keep15 M fun hm => h (List.mem_append_right _ hm)).trans (val15_keep M fun hm => h (List.mem_append_left _ hm))
theorem fin_keep13 (M : Valuation τ sig (Elt F)) {r : Ref sig .tc} (h : r ∉ Wfrom13) :
    after ops M (Proc.devRef .tc r) = val13 M (Proc.devRef .tc r) :=
  (fin_keep14 M fun hm => h (List.mem_append_right _ hm)).trans (val14_keep M fun hm => h (List.mem_append_left _ hm))
theorem fin_keep12 (M : Valuation τ sig (Elt F)) {r : Ref sig .tc} (h : r ∉ Wfrom12) :
    after ops M (Proc.devRef .tc r) = val12 M (Proc.devRef .tc r) :=
  (fin_keep13 M fun hm => h (List.mem_append_right _ hm)).trans (val13_keep M fun hm => h (List.mem_append_left _ hm))
theorem fin_keep11 (M : Valuation τ sig (Elt F)) {r : Ref sig .tc} (h : r ∉ Wfrom11) :
    after ops M (Proc.devRef .tc r) = val11 M (Proc.devRef .tc r) :=
  (fin_keep12 M fun hm => h (List.mem_append_right _ hm)).trans (val12_keep M fun hm => h (List.mem_append_left _ hm))
theorem fin_keep10 (M : Valuation τ sig (Elt F)) {r : Ref sig .tc} (h : r ∉ Wfrom10) :
    after ops M (Proc.devRef .tc r) = val10 M (Proc.devRef .tc r) :=
  (fin_keep11 M fun hm => h (List.mem_append_right _ hm)).trans (val11_keep M fun hm => h (List.mem_append_left _ hm))
theorem fin_keep9 (M : Valuation τ sig (Elt F)) {r : Ref sig .tc} (h : r ∉ Wfrom9) :
    after ops M (Proc.devRef .tc r) = val9 M (Proc.devRef .tc r) :=
  (fin_keep10 M fun hm => h (List.mem_append_right _ hm)).trans (val10_keep M fun hm => h (List.mem_append_left _ hm))
theorem fin_keep8 (M : Valuation τ sig (Elt F)) {r : Ref sig .tc} (h : r ∉ Wfrom8) :
    after ops M (Proc.devRef .tc r) = val8 M (Proc.devRef .tc r) :=
  (fin_keep9 M fun hm => h (List.mem_append_right _ hm)).trans (val9_keep M fun hm => h (List.mem_append_left _ hm))
theorem fin_keep7 (M : Valuation τ sig (Elt F)) {r : Ref sig .tc} (h : r ∉ Wfrom7) :
    after ops M (Proc.devRef .tc r) = val7 M (Proc.devRef .tc r) :=
  (fin_keep8 M fun hm => h (List.mem_append_right _ hm)).trans (val8_keep M fun hm => h (List.mem_append_left _ hm))
theorem fin_keep6 (M : Valuation τ sig (Elt F)) {r : Ref sig .tc} (h : r ∉ Wfrom6) :
    after ops M (Proc.devRef .tc r) = val6 M (Proc.devRef .tc r) :=
  (fin_keep7 M fun hm => h (List.mem_append_right _ hm)).trans (val7_keep M fun hm => h (List.mem_append_left _ hm))
theorem fin_keep5 (M : Valuation τ sig (Elt F)) {r : Ref sig .tc} (h : r ∉ Wfrom5) :
    after ops M (Proc.devRef .tc r) = val5 M (Proc.devRef .tc r) :=
  (fin_keep6 M fun hm => h (List.mem_append_right _ hm)).trans (val6_keep M fun hm => h (List.mem_append_left _ hm))
theorem fin_keep4 (M : Valuation τ sig (Elt F)) {r : Ref sig .tc} (h : r ∉ Wfrom4) :
    after ops M (Proc.devRef .tc r) = val4 M (Proc.devRef .tc r) :=
  (fin_keep5 M fun hm => h (List.mem_append_right _ hm)).trans (val5_keep M fun hm => h (List.mem_append_left _ hm))
theorem fin_keep3 (M : Valuation τ sig (Elt F)) {r : Ref sig .tc} (h : r ∉ Wfrom3) :
    after ops M (Proc.devRef .tc r) = val3 M (Proc.devRef .tc r) :=
  (fin_keep4 M fun hm => h (List.mem_append_right _ hm)).trans (val4_keep M fun hm => h (List.mem_append_left _ hm))
theorem fin_keep2 (M : Valuation τ sig (Elt F)) {r : Ref sig .tc} (h : r ∉ Wfrom2) :
    after ops M (Proc.devRef .tc r) = val2 M (Proc.devRef .tc r) :=
  (fin_keep3 M fun hm => h (List.mem_append_right _ hm)).trans (val3_keep M fun hm => h (List.mem_append_left _ hm))
theorem fin_keep1 (M : Valuation τ sig (Elt F)) {r : Ref sig .tc} (h : r ∉ Wfrom1) :
    after ops M (Proc.devRef .tc r) = val1 M (Proc.devRef .tc r) :=
  (fin_keep2 M fun hm => h (List.mem_append_right _ hm)).trans (val2_keep M fun hm => h (List.mem_append_left _ hm))
theorem fin_keep0 (M : Valuation τ sig (Elt F)) {r : Ref sig .tc} (h : r ∉ Wfrom0) :
    after ops M (Proc.devRef .tc r) = val0 M (Proc.devRef .tc r) :=
  (fin_keep1 M fun hm => h (List.mem_append_right _ hm)).trans (val1_keep M fun hm => h (List.mem_append_left _ hm))

/-- An argument, written by no operation, holds after any number of stretches what it held before the run. -/
theorem val_unwritten_of (M : Valuation τ sig (Elt F)) {r : Ref sig .tc} {V : Valuation τ sig (Elt F)}
    (hV : after ops M (Proc.devRef .tc r) = V (Proc.devRef .tc r)) (h : r ∉ ops_W) :
    V (Proc.devRef .tc r) = M (Proc.devRef .tc r) := hV.symm.trans (after_unwritten M h)

end Cert.ReferenceIdeal.RefRun

end
-- ==== Proof.RefRead0.lean ====
/- Stretch 0 of the reference program's run (the operations that end in `main_v7`): run from any contents it leaves its
   named buffer at the stretch's function of what it reads; and so, after the whole run, the buffer holds that function
   of what the run leaves in the earlier named buffers and of the arguments. -/
import proofs.«159603_j71347996721325_2_alg».proof.Proof.RefFns
import proofs.«159603_j71347996721325_2_alg».proof.Proof.RefVals
import proofs.«159603_j71347996721325_2_alg».proof.Proof.RefArgs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- Stretch 0 run from any contents `W` leaves `main_v6` at `res_main_v6` of what `W` holds in the buffers it reads. -/
theorem sg0_main_v6 (W : Valuation τ sig (Elt F)) :
    after sg0 W (Proc.devRef .tc main_v6) = res_main_v6 (W (Proc.devRef .tc main_arg2)) := by
  simp only [sg0, p0, StableHlo.after_append]
  after_results_simp
  rfl

set_option maxRecDepth 65536 in
/-- After the whole run `main_v6` holds `res_main_v6` of what the run leaves in the earlier named buffers and of the arguments. -/
theorem after_main_v6 (M : Valuation τ sig (Elt F)) :
    after ops M (Proc.devRef .tc main_v6) = res_main_v6 (M (Proc.devRef .tc main_arg2)) := by
  have h := sg0_main_v6 (val0 M)
  rw [val_unwritten_of M (V := val0 M) (fin_keep0 M (r := main_arg2) (by decide)) args_unwritten.2.2.1] at h
  exact (fin_keep1 M (r := main_v6) (by decide)).trans h

set_option maxRecDepth 65536 in
set_option maxHeartbeats 4000000 in
/-- Stretch 0 run from any contents `W` leaves `main_v7` at `res_main_v7` of what `W` holds in the buffers it reads. -/
theorem sg0_main_v7 (W : Valuation τ sig (Elt F)) :
    after sg0 W (Proc.devRef .tc main_v7) = res_main_v7 (W (Proc.devRef .tc main_arg2)) (W (Proc.devRef .tc main_arg3)) := by
  simp only [sg0, p0, StableHlo.after_append]
  after_results_simp
  rfl

set_option maxRecDepth 65536 in
/-- After the whole run `main_v7` holds `res_main_v7` of what the run leaves in the earlier named buffers and of the arguments. -/
theorem after_main_v7 (M : Valuation τ sig (Elt F)) :
    after ops M (Proc.devRef .tc main_v7) = res_main_v7 (M (Proc.devRef .tc main_arg2)) (M (Proc.devRef .tc main_arg3)) := by
  have h := sg0_main_v7 (val0 M)
  rw [val_unwritten_of M (V := val0 M) (fin_keep0 M (r := main_arg2) (by decide)) args_unwritten.2.2.1,
    val_unwritten_of M (V := val0 M) (fin_keep0 M (r := main_arg3) (by decide)) args_unwritten.2.2.2.1] at h
  exact (fin_keep1 M (r := main_v7) (by decide)).trans h

end Cert.ReferenceIdeal.RefRun

end
-- ==== Proof.RefRead1.lean ====
/- Stretch 1 of the reference program's run (the operations that end in `main_v13`): run from any contents it leaves its
   named buffer at the stretch's function of what it reads; and so, after the whole run, the buffer holds that function
   of what the run leaves in the earlier named buffers and of the arguments. -/
import proofs.«159603_j71347996721325_2_alg».proof.Proof.RefFns
import proofs.«159603_j71347996721325_2_alg».proof.Proof.RefVals
import proofs.«159603_j71347996721325_2_alg».proof.Proof.RefArgs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- Stretch 1 run from any contents `W` leaves `main_v13` at `res_main_v13` of what `W` holds in the buffers it reads. -/
theorem sg1_main_v13 (W : Valuation τ sig (Elt F)) :
    after sg1 W (Proc.devRef .tc main_v13) = res_main_v13 (W (Proc.devRef .tc main_v7)) := by
  simp only [sg1, p1, StableHlo.after_append]
  after_results_simp
  rfl

set_option maxRecDepth 65536 in
/-- After the whole run `main_v13` holds `res_main_v13` of what the run leaves in the earlier named buffers and of the arguments. -/
theorem after_main_v13 (M : Valuation τ sig (Elt F)) :
    after ops M (Proc.devRef .tc main_v13) = res_main_v13 (after ops M (Proc.devRef .tc main_v7)) := by
  have h := sg1_main_v13 (val1 M)
  rw [← fin_keep1 M (r := main_v7) (by decide)] at h
  exact (fin_keep2 M (r := main_v13) (by decide)).trans h

end Cert.ReferenceIdeal.RefRun

end
-- ==== Proof.RefRead2.lean ====
/- Stretch 2 of the reference program's run (the operations that end in `main_v29`): run from any contents it leaves its
   named buffer at the stretch's function of what it reads; and so, after the whole run, the buffer holds that function
   of what the run leaves in the earlier named buffers and of the arguments. -/
import proofs.«159603_j71347996721325_2_alg».proof.Proof.RefFns
import proofs.«159603_j71347996721325_2_alg».proof.Proof.RefVals
import proofs.«159603_j71347996721325_2_alg».proof.Proof.RefArgs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- Stretch 2 run from any contents `W` leaves `main_v19` at `res_main_v6` of what `W` holds in the buffers it reads. -/
theorem sg2_main_v19 (W : Valuation τ sig (Elt F)) :
    after sg2 W (Proc.devRef .tc main_v19) = res_main_v6 (W (Proc.devRef .tc main_arg1)) := by
  simp only [sg2, p2, StableHlo.after_append]
  after_results_simp
  rfl

set_option maxRecDepth 65536 in
/-- After the whole run `main_v19` holds `res_main_v6` of what the run leaves in the earlier named buffers and of the arguments. -/
theorem after_main_v19 (M : Valuation τ sig (Elt F)) :
    after ops M (Proc.devRef .tc main_v19) = res_main_v6 (M (Proc.devRef .tc main_arg1)) := by
  have h := sg2_main_v19 (val2 M)
  rw [val_unwritten_of M (V := val2 M) (fin_keep2 M (r := main_arg1) (by decide)) args_unwritten.2.1] at h
  exact (fin_keep3 M (r := main_v19) (by decide)).trans h

set_option maxRecDepth 65536 in
set_option maxHeartbeats 4000000 in
/-- Stretch 2 run from any contents `W` leaves `main_v29` at `res_main_v29` of what `W` holds in the buffers it reads. -/
theorem sg2_main_v29 (W : Valuation τ sig (Elt F)) :
    after sg2 W (Proc.devRef .tc main_v29) = res_main_v29 (W (Proc.devRef .tc main_arg1)) (W (Proc.devRef .tc main_v13)) (W (Proc.devRef .tc main_arg3)) (W (Proc.devRef .tc main_arg2)) := by
  simp only [sg2, p2, StableHlo.after_append]
  after_results_simp
  rfl

set_option maxRecDepth 65536 in
/-- After the whole run `main_v29` holds `res_main_v29` of what the run leaves in the earlier named buffers and of the arguments. -/
theorem after_main_v29 (M : Valuation τ sig (Elt F)) :
    after ops M (Proc.devRef .tc main_v29) = res_main_v29 (M (Proc.devRef .tc main_arg1)) (after ops M (Proc.devRef .tc main_v13)) (M (Proc.devRef .tc main_arg3)) (M (Proc.devRef .tc main_arg2)) := by
  have h := sg2_main_v29 (val2 M)
  rw [val_unwritten_of M (V := val2 M) (fin_keep2 M (r := main_arg1) (by decide)) args_unwritten.2.1,
    ← fin_keep2 M (r := main_v13) (by decide),
    val_unwritten_of M (V := val2 M) (fin_keep2 M (r := main_arg3) (by decide)) args_unwritten.2.2.2.1,
    val_unwritten_of M (V := val2 M) (fin_keep2 M (r := main_arg2) (by decide)) args_unwritten.2.2.1] at h
  exact (fin_keep3 M (r := main_v29) (by decide)).trans h

end Cert.ReferenceIdeal.RefRun

end
-- ==== Proof.RefRead3.lean ====
/- Stretch 3 of the reference program's run (the operations that end in `main_v32`): run from any contents it leaves its
   named buffer at the stretch's function of what it reads; and so, after the whole run, the buffer holds that function
   of what the run leaves in the earlier named buffers and of the arguments. -/
import proofs.«159603_j71347996721325_2_alg».proof.Proof.RefFns
import proofs.«159603_j71347996721325_2_alg».proof.Proof.RefVals
import proofs.«159603_j71347996721325_2_alg».proof.Proof.RefArgs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- Stretch 3 run from any contents `W` leaves `main_v32` at `res_main_v32` of what `W` holds in the buffers it reads. -/
theorem sg3_main_v32 (W : Valuation τ sig (Elt F)) :
    after sg3 W (Proc.devRef .tc main_v32) = res_main_v32 (W (Proc.devRef .tc main_arg4)) (W (Proc.devRef .tc main_arg0)) := by
  simp only [sg3, p3, StableHlo.after_append]
  after_results_simp
  rfl

set_option maxRecDepth 65536 in
/-- After the whole run `main_v32` holds `res_main_v32` of what the run leaves in the earlier named buffers and of the arguments. -/
theorem after_main_v32 (M : Valuation τ sig (Elt F)) :
    after ops M (Proc.devRef .tc main_v32) = res_main_v32 (M (Proc.devRef .tc main_arg4)) (M (Proc.devRef .tc main_arg0)) := by
  have h := sg3_main_v32 (val3 M)
  rw [val_unwritten_of M (V := val3 M) (fin_keep3 M (r := main_arg4) (by decide)) args_unwritten.2.2.2.2.1,
    val_unwritten_of M (V := val3 M) (fin_keep3 M (r := main_arg0) (by decide)) args_unwritten.1] at h
  exact (fin_keep4 M (r := main_v32) (by decide)).trans h

end Cert.ReferenceIdeal.RefRun

end
-- ==== Proof.RefRead4.lean ====
/- Stretch 4 of the reference program's run (the operations that end in `main_v50`): run from any contents it leaves its
   named buffer at the stretch's function of what it reads; and so, after the whole run, the buffer holds that function
   of what the run leaves in the earlier named buffers and of the arguments. -/
import proofs.«159603_j71347996721325_2_alg».proof.Proof.RefFns
import proofs.«159603_j71347996721325_2_alg».proof.Proof.RefVals
import proofs.«159603_j71347996721325_2_alg».proof.Proof.RefArgs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- Stretch 4 run from any contents `W` leaves `main_v50` at `res_main_v50` of what `W` holds in the buffers it reads. -/
theorem sg4_main_v50 (W : Valuation τ sig (Elt F)) :
    after sg4 W (Proc.devRef .tc main_v50) = res_main_v50 (W (Proc.devRef .tc main_arg1)) (W (Proc.devRef .tc main_arg0)) (W (Proc.devRef .tc main_v29)) (W (Proc.devRef .tc main_arg2)) := by
  simp only [sg4, p4, p5, StableHlo.after_append]
  after_results_simp
  rfl

set_option maxRecDepth 65536 in
/-- After the whole run `main_v50` holds `res_main_v50` of what the run leaves in the earlier named buffers and of the arguments. -/
theorem after_main_v50 (M : Valuation τ sig (Elt F)) :
    after ops M (Proc.devRef .tc main_v50) = res_main_v50 (M (Proc.devRef .tc main_arg1)) (M (Proc.devRef .tc main_arg0)) (after ops M (Proc.devRef .tc main_v29)) (M (Proc.devRef .tc main_arg2)) := by
  have h := sg4_main_v50 (val4 M)
  rw [val_unwritten_of M (V := val4 M) (fin_keep4 M (r := main_arg1) (by decide)) args_unwritten.2.1,
    val_unwritten_of M (V := val4 M) (fin_keep4 M (r := main_arg0) (by decide)) args_unwritten.1,
    ← fin_keep4 M (r := main_v29) (by decide),
    val_unwritten_of M (V := val4 M) (fin_keep4 M (r := main_arg2) (by decide)) args_unwritten.2.2.1] at h
  exact (fin_keep5 M (r := main_v50) (by decide)).trans h

end Cert.ReferenceIdeal.RefRun

end
-- ==== Proof.RefRead5.lean ====
/- Stretch 5 of the reference program's run (the operations that end in `main_v54`): run from any contents it leaves its
   named buffer at the stretch's function of what it reads; and so, after the whole run, the buffer holds that function
   of what the run leaves in the earlier named buffers and of the arguments. -/
import proofs.«159603_j71347996721325_2_alg».proof.Proof.RefFns
import proofs.«159603_j71347996721325_2_alg».proof.Proof.RefVals
import proofs.«159603_j71347996721325_2_alg».proof.Proof.RefArgs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- Stretch 5 run from any contents `W` leaves `main_v54` at `res_main_v54` of what `W` holds in the buffers it reads. -/
theorem sg5_main_v54 (W : Valuation τ sig (Elt F)) :
    after sg5 W (Proc.devRef .tc main_v54) = res_main_v54 (W (Proc.devRef .tc main_arg4)) (W (Proc.devRef .tc main_v50)) (W (Proc.devRef .tc main_v32)) := by
  simp only [sg5, p6, StableHlo.after_append]
  after_results_simp
  rfl

set_option maxRecDepth 65536 in
/-- After the whole run `main_v54` holds `res_main_v54` of what the run leaves in the earlier named buffers and of the arguments. -/
theorem after_main_v54 (M : Valuation τ sig (Elt F)) :
    after ops M (Proc.devRef .tc main_v54) = res_main_v54 (M (Proc.devRef .tc main_arg4)) (after ops M (Proc.devRef .tc main_v50)) (after ops M (Proc.devRef .tc main_v32)) := by
  have h := sg5_main_v54 (val5 M)
  rw [val_unwritten_of M (V := val5 M) (fin_keep5 M (r := main_arg4) (by decide)) args_unwritten.2.2.2.2.1,
    ← fin_keep5 M (r := main_v50) (by decide),
    ← fin_keep5 M (r := main_v32) (by decide)] at h
  exact (fin_keep6 M (r := main_v54) (by decide)).trans h

end Cert.ReferenceIdeal.RefRun

end
-- ==== Proof.RefRead6.lean ====
/- Stretch 6 of the reference program's run (the operations that end in `main_v72`): run from any contents it leaves its
   named buffer at the stretch's function of what it reads; and so, after the whole run, the buffer holds that function
   of what the run leaves in the earlier named buffers and of the arguments. -/
import proofs.«159603_j71347996721325_2_alg».proof.Proof.RefFns
import proofs.«159603_j71347996721325_2_alg».proof.Proof.RefVals
import proofs.«159603_j71347996721325_2_alg».proof.Proof.RefArgs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- Stretch 6 run from any contents `W` leaves `main_v72` at `res_main_v50` of what `W` holds in the buffers it reads. -/
theorem sg6_main_v72 (W : Valuation τ sig (Elt F)) :
    after sg6 W (Proc.devRef .tc main_v72) = res_main_v50 (W (Proc.devRef .tc main_arg1)) (W (Proc.devRef .tc main_v50)) (W (Proc.devRef .tc main_v29)) (W (Proc.devRef .tc main_arg2)) := by
  simp only [sg6, p7, StableHlo.after_append]
  after_results_simp
  rfl

set_option maxRecDepth 65536 in
/-- After the whole run `main_v72` holds `res_main_v50` of what the run leaves in the earlier named buffers and of the arguments. -/
theorem after_main_v72 (M : Valuation τ sig (Elt F)) :
    after ops M (Proc.devRef .tc main_v72) = res_main_v50 (M (Proc.devRef .tc main_arg1)) (after ops M (Proc.devRef .tc main_v50)) (after ops M (Proc.devRef .tc main_v29)) (M (Proc.devRef .tc main_arg2)) := by
  have h := sg6_main_v72 (val6 M)
  rw [val_unwritten_of M (V := val6 M) (fin_keep6 M (r := main_arg1) (by decide)) args_unwritten.2.1,
    ← fin_keep6 M (r := main_v50) (by decide),
    ← fin_keep6 M (r := main_v29) (by decide),
    val_unwritten_of M (V := val6 M) (fin_keep6 M (r := main_arg2) (by decide)) args_unwritten.2.2.1] at h
  exact (fin_keep7 M (r := main_v72) (by decide)).trans h

end Cert.ReferenceIdeal.RefRun

end
-- ==== Proof.RefRead7.lean ====
/- Stretch 7 of the reference program's run (the operations that end in `main_v76`): run from any contents it leaves its
   named buffer at the stretch's function of what it reads; and so, after the whole run, the buffer holds that function
   of what the run leaves in the earlier named buffers and of the arguments. -/
import proofs.«159603_j71347996721325_2_alg».proof.Proof.RefFns
import proofs.«159603_j71347996721325_2_alg».proof.Proof.RefVals
import proofs.«159603_j71347996721325_2_alg».proof.Proof.RefArgs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- Stretch 7 run from any contents `W` leaves `main_v76` at `res_main_v76` of what `W` holds in the buffers it reads. -/
theorem sg7_main_v76 (W : Valuation τ sig (Elt F)) :
    after sg7 W (Proc.devRef .tc main_v76) = res_main_v76 (W (Proc.devRef .tc main_arg4)) (W (Proc.devRef .tc main_v72)) (W (Proc.devRef .tc main_v54)) := by
  simp only [sg7, p8, StableHlo.after_append]
  after_results_simp
  rfl

set_option maxRecDepth 65536 in
/-- After the whole run `main_v76` holds `res_main_v76` of what the run leaves in the earlier named buffers and of the arguments. -/
theorem after_main_v76 (M : Valuation τ sig (Elt F)) :
    after ops M (Proc.devRef .tc main_v76) = res_main_v76 (M (Proc.devRef .tc main_arg4)) (after ops M (Proc.devRef .tc main_v72)) (after ops M (Proc.devRef .tc main_v54)) := by
  have h := sg7_main_v76 (val7 M)
  rw [val_unwritten_of M (V := val7 M) (fin_keep7 M (r := main_arg4) (by decide)) args_unwritten.2.2.2.2.1,
    ← fin_keep7 M (r := main_v72) (by decide),
    ← fin_keep7 M (r := main_v54) (by decide)] at h
  exact (fin_keep8 M (r := main_v76) (by decide)).trans h

end Cert.ReferenceIdeal.RefRun

end
-- ==== Proof.RefRead8.lean ====
/- Stretch 8 of the reference program's run (the operations that end in `main_v94`): run from any contents it leaves its
   named buffer at the stretch's function of what it reads; and so, after the whole run, the buffer holds that function
   of what the run leaves in the earlier named buffers and of the arguments. -/
import proofs.«159603_j71347996721325_2_alg».proof.Proof.RefFns
import proofs.«159603_j71347996721325_2_alg».proof.Proof.RefVals
import proofs.«159603_j71347996721325_2_alg».proof.Proof.RefArgs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- Stretch 8 run from any contents `W` leaves `main_v94` at `res_main_v50` of what `W` holds in the buffers it reads. -/
theorem sg8_main_v94 (W : Valuation τ sig (Elt F)) :
    after sg8 W (Proc.devRef .tc main_v94) = res_main_v50 (W (Proc.devRef .tc main_arg1)) (W (Proc.devRef .tc main_v72)) (W (Proc.devRef .tc main_v29)) (W (Proc.devRef .tc main_arg2)) := by
  simp only [sg8, p9, StableHlo.after_append]
  after_results_simp
  rfl

set_option maxRecDepth 65536 in
/-- After the whole run `main_v94` holds `res_main_v50` of what the run leaves in the earlier named buffers and of the arguments. -/
theorem after_main_v94 (M : Valuation τ sig (Elt F)) :
    after ops M (Proc.devRef .tc main_v94) = res_main_v50 (M (Proc.devRef .tc main_arg1)) (after ops M (Proc.devRef .tc main_v72)) (after ops M (Proc.devRef .tc main_v29)) (M (Proc.devRef .tc main_arg2)) := by
  have h := sg8_main_v94 (val8 M)
  rw [val_unwritten_of M (V := val8 M) (fin_keep8 M (r := main_arg1) (by decide)) args_unwritten.2.1,
    ← fin_keep8 M (r := main_v72) (by decide),
    ← fin_keep8 M (r := main_v29) (by decide),
    val_unwritten_of M (V := val8 M) (fin_keep8 M (r := main_arg2) (by decide)) args_unwritten.2.2.1] at h
  exact (fin_keep9 M (r := main_v94) (by decide)).trans h

end Cert.ReferenceIdeal.RefRun

end
-- ==== Proof.RefRead9.lean ====
/- Stretch 9 of the reference program's run (the operations that end in `main_v101`): run from any contents it leaves its
   named buffer at the stretch's function of what it reads; and so, after the whole run, the buffer holds that function
   of what the run leaves in the earlier named buffers and of the arguments. -/
import proofs.«159603_j71347996721325_2_alg».proof.Proof.RefFns
import proofs.«159603_j71347996721325_2_alg».proof.Proof.RefVals
import proofs.«159603_j71347996721325_2_alg».proof.Proof.RefArgs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- Stretch 9 run from any contents `W` leaves `main_v101` at `res_main_v101` of what `W` holds in the buffers it reads. -/
theorem sg9_main_v101 (W : Valuation τ sig (Elt F)) :
    after sg9 W (Proc.devRef .tc main_v101) = res_main_v101 (W (Proc.devRef .tc main_arg4)) (W (Proc.devRef .tc main_v94)) (W (Proc.devRef .tc main_v76)) (W (Proc.devRef .tc main_arg5)) := by
  simp only [sg9, p10, StableHlo.after_append]
  after_results_simp
  rfl

set_option maxRecDepth 65536 in
/-- After the whole run `main_v101` holds `res_main_v101` of what the run leaves in the earlier named buffers and of the arguments. -/
theorem after_main_v101 (M : Valuation τ sig (Elt F)) :
    after ops M (Proc.devRef .tc main_v101) = res_main_v101 (M (Proc.devRef .tc main_arg4)) (after ops M (Proc.devRef .tc main_v94)) (after ops M (Proc.devRef .tc main_v76)) (M (Proc.devRef .tc main_arg5)) := by
  have h := sg9_main_v101 (val9 M)
  rw [val_unwritten_of M (V := val9 M) (fin_keep9 M (r := main_arg4) (by decide)) args_unwritten.2.2.2.2.1,
    ← fin_keep9 M (r := main_v94) (by decide),
    ← fin_keep9 M (r := main_v76) (by decide),
    val_unwritten_of M (V := val9 M) (fin_keep9 M (r := main_arg5) (by decide)) args_unwritten.2.2.2.2.2.1] at h
  exact (fin_keep10 M (r := main_v101) (by decide)).trans h

end Cert.ReferenceIdeal.RefRun

end
-- ==== Proof.RefRead10.lean ====
/- Stretch 10 of the reference program's run (the operations that end in `main_v105`): run from any contents it leaves its
   named buffer at the stretch's function of what it reads; and so, after the whole run, the buffer holds that function
   of what the run leaves in the earlier named buffers and of the arguments. -/
import proofs.«159603_j71347996721325_2_alg».proof.Proof.RefFns
import proofs.«159603_j71347996721325_2_alg».proof.Proof.RefVals
import proofs.«159603_j71347996721325_2_alg».proof.Proof.RefArgs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- Stretch 10 run from any contents `W` leaves `main_v105` at `res_main_v105` of what `W` holds in the buffers it reads. -/
theorem sg10_main_v105 (W : Valuation τ sig (Elt F)) :
    after sg10 W (Proc.devRef .tc main_v105) = res_main_v105 (W (Proc.devRef .tc main_v101)) := by
  simp only [sg10, p11, StableHlo.after_append]
  after_results_simp
  rfl

set_option maxRecDepth 65536 in
/-- After the whole run `main_v105` holds `res_main_v105` of what the run leaves in the earlier named buffers and of the arguments. -/
theorem after_main_v105 (M : Valuation τ sig (Elt F)) :
    after ops M (Proc.devRef .tc main_v105) = res_main_v105 (after ops M (Proc.devRef .tc main_v101)) := by
  have h := sg10_main_v105 (val10 M)
  rw [← fin_keep10 M (r := main_v101) (by decide)] at h
  exact (fin_keep11 M (r := main_v105) (by decide)).trans h

end Cert.ReferenceIdeal.RefRun

end
-- ==== Proof.RefRead11.lean ====
/- Stretch 11 of the reference program's run (the operations that end in `main_v106`): run from any contents it leaves its
   named buffer at the stretch's function of what it reads; and so, after the whole run, the buffer holds that function
   of what the run leaves in the earlier named buffers and of the arguments. -/
import proofs.«159603_j71347996721325_2_alg».proof.Proof.RefFns
import proofs.«159603_j71347996721325_2_alg».proof.Proof.RefVals
import proofs.«159603_j71347996721325_2_alg».proof.Proof.RefArgs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- Stretch 11 run from any contents `W` leaves `main_v106` at `res_main_v106` of what `W` holds in the buffers it reads. -/
theorem sg11_main_v106 (W : Valuation τ sig (Elt F)) :
    after sg11 W (Proc.devRef .tc main_v106) = res_main_v106 (W (Proc.devRef .tc main_v101)) := by
  simp only [sg11, p12, StableHlo.after_append]
  after_results_simp
  rfl

set_option maxRecDepth 65536 in
/-- After the whole run `main_v106` holds `res_main_v106` of what the run leaves in the earlier named buffers and of the arguments. -/
theorem after_main_v106 (M : Valuation τ sig (Elt F)) :
    after ops M (Proc.devRef .tc main_v106) = res_main_v106 (after ops M (Proc.devRef .tc main_v101)) := by
  have h := sg11_main_v106 (val11 M)
  rw [← fin_keep11 M (r := main_v101) (by decide)] at h
  exact (fin_keep12 M (r := main_v106) (by decide)).trans h

end Cert.ReferenceIdeal.RefRun

end
-- ==== Proof.RefRead12.lean ====
/- Stretch 12 of the reference program's run (the operations that end in `main_v119`): run from any contents it leaves its
   named buffer at the stretch's function of what it reads; and so, after the whole run, the buffer holds that function
   of what the run leaves in the earlier named buffers and of the arguments. -/
import proofs.«159603_j71347996721325_2_alg».proof.Proof.RefFns
import proofs.«159603_j71347996721325_2_alg».proof.Proof.RefVals
import proofs.«159603_j71347996721325_2_alg».proof.Proof.RefArgs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- Stretch 12 run from any contents `W` leaves `main_v119` at `res_main_v119` of what `W` holds in the buffers it reads. -/
theorem sg12_main_v119 (W : Valuation τ sig (Elt F)) :
    after sg12 W (Proc.devRef .tc main_v119) = res_main_v119 (W (Proc.devRef .tc main_arg10)) (W (Proc.devRef .tc main_v105)) (W (Proc.devRef .tc main_v101)) (W (Proc.devRef .tc main_v106)) (W (Proc.devRef .tc main_arg11)) := by
  simp only [sg12, p13, StableHlo.after_append]
  after_results_simp
  rfl

set_option maxRecDepth 65536 in
/-- After the whole run `main_v119` holds `res_main_v119` of what the run leaves in the earlier named buffers and of the arguments. -/
theorem after_main_v119 (M : Valuation τ sig (Elt F)) :
    after ops M (Proc.devRef .tc main_v119) = res_main_v119 (M (Proc.devRef .tc main_arg10)) (after ops M (Proc.devRef .tc main_v105)) (after ops M (Proc.devRef .tc main_v101)) (after ops M (Proc.devRef .tc main_v106)) (M (Proc.devRef .tc main_arg11)) := by
  have h := sg12_main_v119 (val12 M)
  rw [val_unwritten_of M (V := val12 M) (fin_keep12 M (r := main_arg10) (by decide)) args_unwritten.2.2.2.2.2.2.2.2.2.2.1,
    ← fin_keep12 M (r := main_v105) (by decide),
    ← fin_keep12 M (r := main_v101) (by decide),
    ← fin_keep12 M (r := main_v106) (by decide),
    val_unwritten_of M (V := val12 M) (fin_keep12 M (r := main_arg11) (by decide)) args_unwritten.2.2.2.2.2.2.2.2.2.2.2.1] at h
  exact (fin_keep13 M (r := main_v119) (by decide)).trans h

end Cert.ReferenceIdeal.RefRun

end
-- ==== Proof.RefRead13.lean ====
/- Stretch 13 of the reference program's run (the operations that end in `main_v120`): run from any contents it leaves its
   named buffer at the stretch's function of what it reads; and so, after the whole run, the buffer holds that function
   of what the run leaves in the earlier named buffers and of the arguments. -/
import proofs.«159603_j71347996721325_2_alg».proof.Proof.RefFns
import proofs.«159603_j71347996721325_2_alg».proof.Proof.RefVals
import proofs.«159603_j71347996721325_2_alg».proof.Proof.RefArgs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- Stretch 13 run from any contents `W` leaves `main_v120` at `res_main_v120` of what `W` holds in the buffers it reads. -/
theorem sg13_main_v120 (W : Valuation τ sig (Elt F)) :
    after sg13 W (Proc.devRef .tc main_v120) = res_main_v120 (W (Proc.devRef .tc main_v119)) := by
  simp only [sg13, p14, StableHlo.after_append]
  after_results_simp
  rfl

set_option maxRecDepth 65536 in
/-- After the whole run `main_v120` holds `res_main_v120` of what the run leaves in the earlier named buffers and of the arguments. -/
theorem after_main_v120 (M : Valuation τ sig (Elt F)) :
    after ops M (Proc.devRef .tc main_v120) = res_main_v120 (after ops M (Proc.devRef .tc main_v119)) := by
  have h := sg13_main_v120 (val13 M)
  rw [← fin_keep13 M (r := main_v119) (by decide)] at h
  exact (fin_keep14 M (r := main_v120) (by decide)).trans h

end Cert.ReferenceIdeal.RefRun

end
-- ==== Proof.RefRead14.lean ====
/- Stretch 14 of the reference program's run (the operations that end in `main_v123`): run from any contents it leaves its
   named buffer at the stretch's function of what it reads; and so, after the whole run, the buffer holds that function
   of what the run leaves in the earlier named buffers and of the arguments. -/
import proofs.«159603_j71347996721325_2_alg».proof.Proof.RefFns
import proofs.«159603_j71347996721325_2_alg».proof.Proof.RefVals
import proofs.«159603_j71347996721325_2_alg».proof.Proof.RefArgs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- Stretch 14 run from any contents `W` leaves `main_v123` at `res_main_v123` of what `W` holds in the buffers it reads. -/
theorem sg14_main_v123 (W : Valuation τ sig (Elt F)) :
    after sg14 W (Proc.devRef .tc main_v123) = res_main_v123 (W (Proc.devRef .tc main_arg6)) (W (Proc.devRef .tc main_v120)) := by
  simp only [sg14, p15, StableHlo.after_append]
  after_results_simp
  rfl

set_option maxRecDepth 65536 in
/-- After the whole run `main_v123` holds `res_main_v123` of what the run leaves in the earlier named buffers and of the arguments. -/
theorem after_main_v123 (M : Valuation τ sig (Elt F)) :
    after ops M (Proc.devRef .tc main_v123) = res_main_v123 (M (Proc.devRef .tc main_arg6)) (after ops M (Proc.devRef .tc main_v120)) := by
  have h := sg14_main_v123 (val14 M)
  rw [val_unwritten_of M (V := val14 M) (fin_keep14 M (r := main_arg6) (by decide)) args_unwritten.2.2.2.2.2.2.1,
    ← fin_keep14 M (r := main_v120) (by decide)] at h
  exact (fin_keep15 M (r := main_v123) (by decide)).trans h

end Cert.ReferenceIdeal.RefRun

end
-- ==== Proof.RefRead15.lean ====
/- Stretch 15 of the reference program's run (the operations that end in `main_v141`): run from any contents it leaves its
   named buffer at the stretch's function of what it reads; and so, after the whole run, the buffer holds that function
   of what the run leaves in the earlier named buffers and of the arguments. -/
import proofs.«159603_j71347996721325_2_alg».proof.Proof.RefFns
import proofs.«159603_j71347996721325_2_alg».proof.Proof.RefVals
import proofs.«159603_j71347996721325_2_alg».proof.Proof.RefArgs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- Stretch 15 run from any contents `W` leaves `main_v141` at `res_main_v141` of what `W` holds in the buffers it reads. -/
theorem sg15_main_v141 (W : Valuation τ sig (Elt F)) :
    after sg15 W (Proc.devRef .tc main_v141) = res_main_v141 (W (Proc.devRef .tc main_arg1)) (W (Proc.devRef .tc main_v120)) (W (Proc.devRef .tc main_v29)) (W (Proc.devRef .tc main_arg2)) := by
  simp only [sg15, p16, StableHlo.after_append]
  after_results_simp
  rfl

set_option maxRecDepth 65536 in
/-- After the whole run `main_v141` holds `res_main_v141` of what the run leaves in the earlier named buffers and of the arguments. -/
theorem after_main_v141 (M : Valuation τ sig (Elt F)) :
    after ops M (Proc.devRef .tc main_v141) = res_main_v141 (M (Proc.devRef .tc main_arg1)) (after ops M (Proc.devRef .tc main_v120)) (after ops M (Proc.devRef .tc main_v29)) (M (Proc.devRef .tc main_arg2)) := by
  have h := sg15_main_v141 (val15 M)
  rw [val_unwritten_of M (V := val15 M) (fin_keep15 M (r := main_arg1) (by decide)) args_unwritten.2.1,
    ← fin_keep15 M (r := main_v120) (by decide),
    ← fin_keep15 M (r := main_v29) (by decide),
    val_unwritten_of M (V := val15 M) (fin_keep15 M (r := main_arg2) (by decide)) args_unwritten.2.2.1] at h
  exact (fin_keep16 M (r := main_v141) (by decide)).trans h

end Cert.ReferenceIdeal.RefRun

end
-- ==== Proof.RefRead16.lean ====
/- Stretch 16 of the reference program's run (the operations that end in `main_v145`): run from any contents it leaves its
   named buffer at the stretch's function of what it reads; and so, after the whole run, the buffer holds that function
   of what the run leaves in the earlier named buffers and of the arguments. -/
import proofs.«159603_j71347996721325_2_alg».proof.Proof.RefFns
import proofs.«159603_j71347996721325_2_alg».proof.Proof.RefVals
import proofs.«159603_j71347996721325_2_alg».proof.Proof.RefArgs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- Stretch 16 run from any contents `W` leaves `main_v145` at `res_main_v145` of what `W` holds in the buffers it reads. -/
theorem sg16_main_v145 (W : Valuation τ sig (Elt F)) :
    after sg16 W (Proc.devRef .tc main_v145) = res_main_v145 (W (Proc.devRef .tc main_arg6)) (W (Proc.devRef .tc main_v141)) (W (Proc.devRef .tc main_v123)) := by
  simp only [sg16, p17, p18, StableHlo.after_append]
  after_results_simp
  rfl

set_option maxRecDepth 65536 in
/-- After the whole run `main_v145` holds `res_main_v145` of what the run leaves in the earlier named buffers and of the arguments. -/
theorem after_main_v145 (M : Valuation τ sig (Elt F)) :
    after ops M (Proc.devRef .tc main_v145) = res_main_v145 (M (Proc.devRef .tc main_arg6)) (after ops M (Proc.devRef .tc main_v141)) (after ops M (Proc.devRef .tc main_v123)) := by
  have h := sg16_main_v145 (val16 M)
  rw [val_unwritten_of M (V := val16 M) (fin_keep16 M (r := main_arg6) (by decide)) args_unwritten.2.2.2.2.2.2.1,
    ← fin_keep16 M (r := main_v141) (by decide),
    ← fin_keep16 M (r := main_v123) (by decide)] at h
  exact (fin_keep17 M (r := main_v145) (by decide)).trans h

end Cert.ReferenceIdeal.RefRun

end
-- ==== Proof.RefRead17.lean ====
/- Stretch 17 of the reference program's run (the operations that end in `main_v163`): run from any contents it leaves its
   named buffer at the stretch's function of what it reads; and so, after the whole run, the buffer holds that function
   of what the run leaves in the earlier named buffers and of the arguments. -/
import proofs.«159603_j71347996721325_2_alg».proof.Proof.RefFns
import proofs.«159603_j71347996721325_2_alg».proof.Proof.RefVals
import proofs.«159603_j71347996721325_2_alg».proof.Proof.RefArgs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- Stretch 17 run from any contents `W` leaves `main_v163` at `res_main_v141` of what `W` holds in the buffers it reads. -/
theorem sg17_main_v163 (W : Valuation τ sig (Elt F)) :
    after sg17 W (Proc.devRef .tc main_v163) = res_main_v141 (W (Proc.devRef .tc main_arg1)) (W (Proc.devRef .tc main_v141)) (W (Proc.devRef .tc main_v29)) (W (Proc.devRef .tc main_arg2)) := by
  simp only [sg17, p19, StableHlo.after_append]
  after_results_simp
  rfl

set_option maxRecDepth 65536 in
/-- After the whole run `main_v163` holds `res_main_v141` of what the run leaves in the earlier named buffers and of the arguments. -/
theorem after_main_v163 (M : Valuation τ sig (Elt F)) :
    after ops M (Proc.devRef .tc main_v163) = res_main_v141 (M (Proc.devRef .tc main_arg1)) (after ops M (Proc.devRef .tc main_v141)) (after ops M (Proc.devRef .tc main_v29)) (M (Proc.devRef .tc main_arg2)) := by
  have h := sg17_main_v163 (val17 M)
  rw [val_unwritten_of M (V := val17 M) (fin_keep17 M (r := main_arg1) (by decide)) args_unwritten.2.1,
    ← fin_keep17 M (r := main_v141) (by decide),
    ← fin_keep17 M (r := main_v29) (by decide),
    val_unwritten_of M (V := val17 M) (fin_keep17 M (r := main_arg2) (by decide)) args_unwritten.2.2.1] at h
  exact (fin_keep18 M (r := main_v163) (by decide)).trans h

end Cert.ReferenceIdeal.RefRun

end
-- ==== Proof.RefRead18.lean ====
/- Stretch 18 of the reference program's run (the operations that end in `main_v167`): run from any contents it leaves its
   named buffer at the stretch's function of what it reads; and so, after the whole run, the buffer holds that function
   of what the run leaves in the earlier named buffers and of the arguments. -/
import proofs.«159603_j71347996721325_2_alg».proof.Proof.RefFns
import proofs.«159603_j71347996721325_2_alg».proof.Proof.RefVals
import proofs.«159603_j71347996721325_2_alg».proof.Proof.RefArgs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- Stretch 18 run from any contents `W` leaves `main_v167` at `res_main_v167` of what `W` holds in the buffers it reads. -/
theorem sg18_main_v167 (W : Valuation τ sig (Elt F)) :
    after sg18 W (Proc.devRef .tc main_v167) = res_main_v167 (W (Proc.devRef .tc main_arg6)) (W (Proc.devRef .tc main_v163)) (W (Proc.devRef .tc main_v145)) := by
  simp only [sg18, p20, StableHlo.after_append]
  after_results_simp
  rfl

set_option maxRecDepth 65536 in
/-- After the whole run `main_v167` holds `res_main_v167` of what the run leaves in the earlier named buffers and of the arguments. -/
theorem after_main_v167 (M : Valuation τ sig (Elt F)) :
    after ops M (Proc.devRef .tc main_v167) = res_main_v167 (M (Proc.devRef .tc main_arg6)) (after ops M (Proc.devRef .tc main_v163)) (after ops M (Proc.devRef .tc main_v145)) := by
  have h := sg18_main_v167 (val18 M)
  rw [val_unwritten_of M (V := val18 M) (fin_keep18 M (r := main_arg6) (by decide)) args_unwritten.2.2.2.2.2.2.1,
    ← fin_keep18 M (r := main_v163) (by decide),
    ← fin_keep18 M (r := main_v145) (by decide)] at h
  exact (fin_keep19 M (r := main_v167) (by decide)).trans h

end Cert.ReferenceIdeal.RefRun

end
-- ==== Proof.RefRead19.lean ====
/- Stretch 19 of the reference program's run (the operations that end in `main_v185`): run from any contents it leaves its
   named buffer at the stretch's function of what it reads; and so, after the whole run, the buffer holds that function
   of what the run leaves in the earlier named buffers and of the arguments. -/
import proofs.«159603_j71347996721325_2_alg».proof.Proof.RefFns
import proofs.«159603_j71347996721325_2_alg».proof.Proof.RefVals
import proofs.«159603_j71347996721325_2_alg».proof.Proof.RefArgs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- Stretch 19 run from any contents `W` leaves `main_v185` at `res_main_v141` of what `W` holds in the buffers it reads. -/
theorem sg19_main_v185 (W : Valuation τ sig (Elt F)) :
    after sg19 W (Proc.devRef .tc main_v185) = res_main_v141 (W (Proc.devRef .tc main_arg1)) (W (Proc.devRef .tc main_v163)) (W (Proc.devRef .tc main_v29)) (W (Proc.devRef .tc main_arg2)) := by
  simp only [sg19, p21, StableHlo.after_append]
  after_results_simp
  rfl

set_option maxRecDepth 65536 in
/-- After the whole run `main_v185` holds `res_main_v141` of what the run leaves in the earlier named buffers and of the arguments. -/
theorem after_main_v185 (M : Valuation τ sig (Elt F)) :
    after ops M (Proc.devRef .tc main_v185) = res_main_v141 (M (Proc.devRef .tc main_arg1)) (after ops M (Proc.devRef .tc main_v163)) (after ops M (Proc.devRef .tc main_v29)) (M (Proc.devRef .tc main_arg2)) := by
  have h := sg19_main_v185 (val19 M)
  rw [val_unwritten_of M (V := val19 M) (fin_keep19 M (r := main_arg1) (by decide)) args_unwritten.2.1,
    ← fin_keep19 M (r := main_v163) (by decide),
    ← fin_keep19 M (r := main_v29) (by decide),
    val_unwritten_of M (V := val19 M) (fin_keep19 M (r := main_arg2) (by decide)) args_unwritten.2.2.1] at h
  exact (fin_keep20 M (r := main_v185) (by decide)).trans h

end Cert.ReferenceIdeal.RefRun

end
-- ==== Proof.RefRead20.lean ====
/- Stretch 20 of the reference program's run (the operations that end in `main_v192`): run from any contents it leaves its
   named buffer at the stretch's function of what it reads; and so, after the whole run, the buffer holds that function
   of what the run leaves in the earlier named buffers and of the arguments. -/
import proofs.«159603_j71347996721325_2_alg».proof.Proof.RefFns
import proofs.«159603_j71347996721325_2_alg».proof.Proof.RefVals
import proofs.«159603_j71347996721325_2_alg».proof.Proof.RefArgs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- Stretch 20 run from any contents `W` leaves `main_v192` at `res_main_v192` of what `W` holds in the buffers it reads. -/
theorem sg20_main_v192 (W : Valuation τ sig (Elt F)) :
    after sg20 W (Proc.devRef .tc main_v192) = res_main_v192 (W (Proc.devRef .tc main_arg6)) (W (Proc.devRef .tc main_v185)) (W (Proc.devRef .tc main_v167)) (W (Proc.devRef .tc main_arg7)) := by
  simp only [sg20, p22, StableHlo.after_append]
  after_results_simp
  rfl

set_option maxRecDepth 65536 in
/-- After the whole run `main_v192` holds `res_main_v192` of what the run leaves in the earlier named buffers and of the arguments. -/
theorem after_main_v192 (M : Valuation τ sig (Elt F)) :
    after ops M (Proc.devRef .tc main_v192) = res_main_v192 (M (Proc.devRef .tc main_arg6)) (after ops M (Proc.devRef .tc main_v185)) (after ops M (Proc.devRef .tc main_v167)) (M (Proc.devRef .tc main_arg7)) := by
  have h := sg20_main_v192 (val20 M)
  rw [val_unwritten_of M (V := val20 M) (fin_keep20 M (r := main_arg6) (by decide)) args_unwritten.2.2.2.2.2.2.1,
    ← fin_keep20 M (r := main_v185) (by decide),
    ← fin_keep20 M (r := main_v167) (by decide),
    val_unwritten_of M (V := val20 M) (fin_keep20 M (r := main_arg7) (by decide)) args_unwritten.2.2.2.2.2.2.2.1] at h
  exact (fin_keep21 M (r := main_v192) (by decide)).trans h

end Cert.ReferenceIdeal.RefRun

end
-- ==== Proof.RefRead21.lean ====
/- Stretch 21 of the reference program's run (the operations that end in `main_v196`): run from any contents it leaves its
   named buffer at the stretch's function of what it reads; and so, after the whole run, the buffer holds that function
   of what the run leaves in the earlier named buffers and of the arguments. -/
import proofs.«159603_j71347996721325_2_alg».proof.Proof.RefFns
import proofs.«159603_j71347996721325_2_alg».proof.Proof.RefVals
import proofs.«159603_j71347996721325_2_alg».proof.Proof.RefArgs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- Stretch 21 run from any contents `W` leaves `main_v196` at `res_main_v105` of what `W` holds in the buffers it reads. -/
theorem sg21_main_v196 (W : Valuation τ sig (Elt F)) :
    after sg21 W (Proc.devRef .tc main_v196) = res_main_v105 (W (Proc.devRef .tc main_v192)) := by
  simp only [sg21, p23, p24, StableHlo.after_append]
  after_results_simp
  rfl

set_option maxRecDepth 65536 in
/-- After the whole run `main_v196` holds `res_main_v105` of what the run leaves in the earlier named buffers and of the arguments. -/
theorem after_main_v196 (M : Valuation τ sig (Elt F)) :
    after ops M (Proc.devRef .tc main_v196) = res_main_v105 (after ops M (Proc.devRef .tc main_v192)) := by
  have h := sg21_main_v196 (val21 M)
  rw [← fin_keep21 M (r := main_v192) (by decide)] at h
  exact (fin_keep22 M (r := main_v196) (by decide)).trans h

end Cert.ReferenceIdeal.RefRun

end
-- ==== Proof.RefRead22.lean ====
/- Stretch 22 of the reference program's run (the operations that end in `main_v197`): run from any contents it leaves its
   named buffer at the stretch's function of what it reads; and so, after the whole run, the buffer holds that function
   of what the run leaves in the earlier named buffers and of the arguments. -/
import proofs.«159603_j71347996721325_2_alg».proof.Proof.RefFns
import proofs.«159603_j71347996721325_2_alg».proof.Proof.RefVals
import proofs.«159603_j71347996721325_2_alg».proof.Proof.RefArgs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- Stretch 22 run from any contents `W` leaves `main_v197` at `res_main_v106` of what `W` holds in the buffers it reads. -/
theorem sg22_main_v197 (W : Valuation τ sig (Elt F)) :
    after sg22 W (Proc.devRef .tc main_v197) = res_main_v106 (W (Proc.devRef .tc main_v192)) := by
  simp only [sg22, p25, StableHlo.after_append]
  after_results_simp
  rfl

set_option maxRecDepth 65536 in
/-- After the whole run `main_v197` holds `res_main_v106` of what the run leaves in the earlier named buffers and of the arguments. -/
theorem after_main_v197 (M : Valuation τ sig (Elt F)) :
    after ops M (Proc.devRef .tc main_v197) = res_main_v106 (after ops M (Proc.devRef .tc main_v192)) := by
  have h := sg22_main_v197 (val22 M)
  rw [← fin_keep22 M (r := main_v192) (by decide)] at h
  exact (fin_keep23 M (r := main_v197) (by decide)).trans h

end Cert.ReferenceIdeal.RefRun

end
-- ==== Proof.RefRead23.lean ====
/- Stretch 23 of the reference program's run (the operations that end in `main_v210`): run from any contents it leaves its
   named buffer at the stretch's function of what it reads; and so, after the whole run, the buffer holds that function
   of what the run leaves in the earlier named buffers and of the arguments. -/
import proofs.«159603_j71347996721325_2_alg».proof.Proof.RefFns
import proofs.«159603_j71347996721325_2_alg».proof.Proof.RefVals
import proofs.«159603_j71347996721325_2_alg».proof.Proof.RefArgs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- Stretch 23 run from any contents `W` leaves `main_v210` at `res_main_v119` of what `W` holds in the buffers it reads. -/
theorem sg23_main_v210 (W : Valuation τ sig (Elt F)) :
    after sg23 W (Proc.devRef .tc main_v210) = res_main_v119 (W (Proc.devRef .tc main_arg12)) (W (Proc.devRef .tc main_v196)) (W (Proc.devRef .tc main_v192)) (W (Proc.devRef .tc main_v197)) (W (Proc.devRef .tc main_arg13)) := by
  simp only [sg23, p26, StableHlo.after_append]
  after_results_simp
  rfl

set_option maxRecDepth 65536 in
/-- After the whole run `main_v210` holds `res_main_v119` of what the run leaves in the earlier named buffers and of the arguments. -/
theorem after_main_v210 (M : Valuation τ sig (Elt F)) :
    after ops M (Proc.devRef .tc main_v210) = res_main_v119 (M (Proc.devRef .tc main_arg12)) (after ops M (Proc.devRef .tc main_v196)) (after ops M (Proc.devRef .tc main_v192)) (after ops M (Proc.devRef .tc main_v197)) (M (Proc.devRef .tc main_arg13)) := by
  have h := sg23_main_v210 (val23 M)
  rw [val_unwritten_of M (V := val23 M) (fin_keep23 M (r := main_arg12) (by decide)) args_unwritten.2.2.2.2.2.2.2.2.2.2.2.2.1,
    ← fin_keep23 M (r := main_v196) (by decide),
    ← fin_keep23 M (r := main_v192) (by decide),
    ← fin_keep23 M (r := main_v197) (by decide),
    val_unwritten_of M (V := val23 M) (fin_keep23 M (r := main_arg13) (by decide)) args_unwritten.2.2.2.2.2.2.2.2.2.2.2.2.2.1] at h
  exact (fin_keep24 M (r := main_v210) (by decide)).trans h

end Cert.ReferenceIdeal.RefRun

end
-- ==== Proof.RefRead24.lean ====
/- Stretch 24 of the reference program's run (the operations that end in `main_v211`): run from any contents it leaves its
   named buffer at the stretch's function of what it reads; and so, after the whole run, the buffer holds that function
   of what the run leaves in the earlier named buffers and of the arguments. -/
import proofs.«159603_j71347996721325_2_alg».proof.Proof.RefFns
import proofs.«159603_j71347996721325_2_alg».proof.Proof.RefVals
import proofs.«159603_j71347996721325_2_alg».proof.Proof.RefArgs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- Stretch 24 run from any contents `W` leaves `main_v211` at `res_main_v120` of what `W` holds in the buffers it reads. -/
theorem sg24_main_v211 (W : Valuation τ sig (Elt F)) :
    after sg24 W (Proc.devRef .tc main_v211) = res_main_v120 (W (Proc.devRef .tc main_v210)) := by
  simp only [sg24, p27, StableHlo.after_append]
  after_results_simp
  rfl

set_option maxRecDepth 65536 in
/-- After the whole run `main_v211` holds `res_main_v120` of what the run leaves in the earlier named buffers and of the arguments. -/
theorem after_main_v211 (M : Valuation τ sig (Elt F)) :
    after ops M (Proc.devRef .tc main_v211) = res_main_v120 (after ops M (Proc.devRef .tc main_v210)) := by
  have h := sg24_main_v211 (val24 M)
  rw [← fin_keep24 M (r := main_v210) (by decide)] at h
  exact (fin_keep25 M (r := main_v211) (by decide)).trans h

end Cert.ReferenceIdeal.RefRun

end
-- ==== Proof.RefRead25.lean ====
/- Stretch 25 of the reference program's run (the operations that end in `main_v214`): run from any contents it leaves its
   named buffer at the stretch's function of what it reads; and so, after the whole run, the buffer holds that function
   of what the run leaves in the earlier named buffers and of the arguments. -/
import proofs.«159603_j71347996721325_2_alg».proof.Proof.RefFns
import proofs.«159603_j71347996721325_2_alg».proof.Proof.RefVals
import proofs.«159603_j71347996721325_2_alg».proof.Proof.RefArgs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- Stretch 25 run from any contents `W` leaves `main_v214` at `res_main_v214` of what `W` holds in the buffers it reads. -/
theorem sg25_main_v214 (W : Valuation τ sig (Elt F)) :
    after sg25 W (Proc.devRef .tc main_v214) = res_main_v214 (W (Proc.devRef .tc main_arg8)) (W (Proc.devRef .tc main_v211)) := by
  simp only [sg25, p28, StableHlo.after_append]
  after_results_simp
  rfl

set_option maxRecDepth 65536 in
/-- After the whole run `main_v214` holds `res_main_v214` of what the run leaves in the earlier named buffers and of the arguments. -/
theorem after_main_v214 (M : Valuation τ sig (Elt F)) :
    after ops M (Proc.devRef .tc main_v214) = res_main_v214 (M (Proc.devRef .tc main_arg8)) (after ops M (Proc.devRef .tc main_v211)) := by
  have h := sg25_main_v214 (val25 M)
  rw [val_unwritten_of M (V := val25 M) (fin_keep25 M (r := main_arg8) (by decide)) args_unwritten.2.2.2.2.2.2.2.2.1,
    ← fin_keep25 M (r := main_v211) (by decide)] at h
  exact (fin_keep26 M (r := main_v214) (by decide)).trans h

end Cert.ReferenceIdeal.RefRun

end
-- ==== Proof.RefRead26.lean ====
/- Stretch 26 of the reference program's run (the operations that end in `main_v232`): run from any contents it leaves its
   named buffer at the stretch's function of what it reads; and so, after the whole run, the buffer holds that function
   of what the run leaves in the earlier named buffers and of the arguments. -/
import proofs.«159603_j71347996721325_2_alg».proof.Proof.RefFns
import proofs.«159603_j71347996721325_2_alg».proof.Proof.RefVals
import proofs.«159603_j71347996721325_2_alg».proof.Proof.RefArgs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- Stretch 26 run from any contents `W` leaves `main_v232` at `res_main_v141` of what `W` holds in the buffers it reads. -/
theorem sg26_main_v232 (W : Valuation τ sig (Elt F)) :
    after sg26 W (Proc.devRef .tc main_v232) = res_main_v141 (W (Proc.devRef .tc main_arg1)) (W (Proc.devRef .tc main_v211)) (W (Proc.devRef .tc main_v29)) (W (Proc.devRef .tc main_arg2)) := by
  simp only [sg26, p29, StableHlo.after_append]
  after_results_simp
  rfl

set_option maxRecDepth 65536 in
/-- After the whole run `main_v232` holds `res_main_v141` of what the run leaves in the earlier named buffers and of the arguments. -/
theorem after_main_v232 (M : Valuation τ sig (Elt F)) :
    after ops M (Proc.devRef .tc main_v232) = res_main_v141 (M (Proc.devRef .tc main_arg1)) (after ops M (Proc.devRef .tc main_v211)) (after ops M (Proc.devRef .tc main_v29)) (M (Proc.devRef .tc main_arg2)) := by
  have h := sg26_main_v232 (val26 M)
  rw [val_unwritten_of M (V := val26 M) (fin_keep26 M (r := main_arg1) (by decide)) args_unwritten.2.1,
    ← fin_keep26 M (r := main_v211) (by decide),
    ← fin_keep26 M (r := main_v29) (by decide),
    val_unwritten_of M (V := val26 M) (fin_keep26 M (r := main_arg2) (by decide)) args_unwritten.2.2.1] at h
  exact (fin_keep27 M (r := main_v232) (by decide)).trans h

end Cert.ReferenceIdeal.RefRun

end
-- ==== Proof.RefRead27.lean ====
/- Stretch 27 of the reference program's run (the operations that end in `main_v236`): run from any contents it leaves its
   named buffer at the stretch's function of what it reads; and so, after the whole run, the buffer holds that function
   of what the run leaves in the earlier named buffers and of the arguments. -/
import proofs.«159603_j71347996721325_2_alg».proof.Proof.RefFns
import proofs.«159603_j71347996721325_2_alg».proof.Proof.RefVals
import proofs.«159603_j71347996721325_2_alg».proof.Proof.RefArgs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- Stretch 27 run from any contents `W` leaves `main_v236` at `res_main_v236` of what `W` holds in the buffers it reads. -/
theorem sg27_main_v236 (W : Valuation τ sig (Elt F)) :
    after sg27 W (Proc.devRef .tc main_v236) = res_main_v236 (W (Proc.devRef .tc main_arg8)) (W (Proc.devRef .tc main_v232)) (W (Proc.devRef .tc main_v214)) := by
  simp only [sg27, p30, StableHlo.after_append]
  after_results_simp
  rfl

set_option maxRecDepth 65536 in
/-- After the whole run `main_v236` holds `res_main_v236` of what the run leaves in the earlier named buffers and of the arguments. -/
theorem after_main_v236 (M : Valuation τ sig (Elt F)) :
    after ops M (Proc.devRef .tc main_v236) = res_main_v236 (M (Proc.devRef .tc main_arg8)) (after ops M (Proc.devRef .tc main_v232)) (after ops M (Proc.devRef .tc main_v214)) := by
  have h := sg27_main_v236 (val27 M)
  rw [val_unwritten_of M (V := val27 M) (fin_keep27 M (r := main_arg8) (by decide)) args_unwritten.2.2.2.2.2.2.2.2.1,
    ← fin_keep27 M (r := main_v232) (by decide),
    ← fin_keep27 M (r := main_v214) (by decide)] at h
  exact (fin_keep28 M (r := main_v236) (by decide)).trans h

end Cert.ReferenceIdeal.RefRun

end
-- ==== Proof.RefRead28.lean ====
/- Stretch 28 of the reference program's run (the operations that end in `main_v254`): run from any contents it leaves its
   named buffer at the stretch's function of what it reads; and so, after the whole run, the buffer holds that function
   of what the run leaves in the earlier named buffers and of the arguments. -/
import proofs.«159603_j71347996721325_2_alg».proof.Proof.RefFns
import proofs.«159603_j71347996721325_2_alg».proof.Proof.RefVals
import proofs.«159603_j71347996721325_2_alg».proof.Proof.RefArgs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- Stretch 28 run from any contents `W` leaves `main_v254` at `res_main_v141` of what `W` holds in the buffers it reads. -/
theorem sg28_main_v254 (W : Valuation τ sig (Elt F)) :
    after sg28 W (Proc.devRef .tc main_v254) = res_main_v141 (W (Proc.devRef .tc main_arg1)) (W (Proc.devRef .tc main_v232)) (W (Proc.devRef .tc main_v29)) (W (Proc.devRef .tc main_arg2)) := by
  simp only [sg28, p31, p32, StableHlo.after_append]
  after_results_simp
  rfl

set_option maxRecDepth 65536 in
/-- After the whole run `main_v254` holds `res_main_v141` of what the run leaves in the earlier named buffers and of the arguments. -/
theorem after_main_v254 (M : Valuation τ sig (Elt F)) :
    after ops M (Proc.devRef .tc main_v254) = res_main_v141 (M (Proc.devRef .tc main_arg1)) (after ops M (Proc.devRef .tc main_v232)) (after ops M (Proc.devRef .tc main_v29)) (M (Proc.devRef .tc main_arg2)) := by
  have h := sg28_main_v254 (val28 M)
  rw [val_unwritten_of M (V := val28 M) (fin_keep28 M (r := main_arg1) (by decide)) args_unwritten.2.1,
    ← fin_keep28 M (r := main_v232) (by decide),
    ← fin_keep28 M (r := main_v29) (by decide),
    val_unwritten_of M (V := val28 M) (fin_keep28 M (r := main_arg2) (by decide)) args_unwritten.2.2.1] at h
  exact (fin_keep29 M (r := main_v254) (by decide)).trans h

end Cert.ReferenceIdeal.RefRun

end
-- ==== Proof.RefRead29.lean ====
/- Stretch 29 of the reference program's run (the operations that end in `main_v258`): run from any contents it leaves its
   named buffer at the stretch's function of what it reads; and so, after the whole run, the buffer holds that function
   of what the run leaves in the earlier named buffers and of the arguments. -/
import proofs.«159603_j71347996721325_2_alg».proof.Proof.RefFns
import proofs.«159603_j71347996721325_2_alg».proof.Proof.RefVals
import proofs.«159603_j71347996721325_2_alg».proof.Proof.RefArgs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- Stretch 29 run from any contents `W` leaves `main_v258` at `res_main_v258` of what `W` holds in the buffers it reads. -/
theorem sg29_main_v258 (W : Valuation τ sig (Elt F)) :
    after sg29 W (Proc.devRef .tc main_v258) = res_main_v258 (W (Proc.devRef .tc main_arg8)) (W (Proc.devRef .tc main_v254)) (W (Proc.devRef .tc main_v236)) := by
  simp only [sg29, p33, StableHlo.after_append]
  after_results_simp
  rfl

set_option maxRecDepth 65536 in
/-- After the whole run `main_v258` holds `res_main_v258` of what the run leaves in the earlier named buffers and of the arguments. -/
theorem after_main_v258 (M : Valuation τ sig (Elt F)) :
    after ops M (Proc.devRef .tc main_v258) = res_main_v258 (M (Proc.devRef .tc main_arg8)) (after ops M (Proc.devRef .tc main_v254)) (after ops M (Proc.devRef .tc main_v236)) := by
  have h := sg29_main_v258 (val29 M)
  rw [val_unwritten_of M (V := val29 M) (fin_keep29 M (r := main_arg8) (by decide)) args_unwritten.2.2.2.2.2.2.2.2.1,
    ← fin_keep29 M (r := main_v254) (by decide),
    ← fin_keep29 M (r := main_v236) (by decide)] at h
  exact (fin_keep30 M (r := main_v258) (by decide)).trans h

end Cert.ReferenceIdeal.RefRun

end
-- ==== Proof.RefRead30.lean ====
/- Stretch 30 of the reference program's run (the operations that end in `main_v276`): run from any contents it leaves its
   named buffer at the stretch's function of what it reads; and so, after the whole run, the buffer holds that function
   of what the run leaves in the earlier named buffers and of the arguments. -/
import proofs.«159603_j71347996721325_2_alg».proof.Proof.RefFns
import proofs.«159603_j71347996721325_2_alg».proof.Proof.RefVals
import proofs.«159603_j71347996721325_2_alg».proof.Proof.RefArgs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- Stretch 30 run from any contents `W` leaves `main_v276` at `res_main_v141` of what `W` holds in the buffers it reads. -/
theorem sg30_main_v276 (W : Valuation τ sig (Elt F)) :
    after sg30 W (Proc.devRef .tc main_v276) = res_main_v141 (W (Proc.devRef .tc main_arg1)) (W (Proc.devRef .tc main_v254)) (W (Proc.devRef .tc main_v29)) (W (Proc.devRef .tc main_arg2)) := by
  simp only [sg30, p34, StableHlo.after_append]
  after_results_simp
  rfl

set_option maxRecDepth 65536 in
/-- After the whole run `main_v276` holds `res_main_v141` of what the run leaves in the earlier named buffers and of the arguments. -/
theorem after_main_v276 (M : Valuation τ sig (Elt F)) :
    after ops M (Proc.devRef .tc main_v276) = res_main_v141 (M (Proc.devRef .tc main_arg1)) (after ops M (Proc.devRef .tc main_v254)) (after ops M (Proc.devRef .tc main_v29)) (M (Proc.devRef .tc main_arg2)) := by
  have h := sg30_main_v276 (val30 M)
  rw [val_unwritten_of M (V := val30 M) (fin_keep30 M (r := main_arg1) (by decide)) args_unwritten.2.1,
    ← fin_keep30 M (r := main_v254) (by decide),
    ← fin_keep30 M (r := main_v29) (by decide),
    val_unwritten_of M (V := val30 M) (fin_keep30 M (r := main_arg2) (by decide)) args_unwritten.2.2.1] at h
  exact (fin_keep31 M (r := main_v276) (by decide)).trans h

end Cert.ReferenceIdeal.RefRun

end
-- ==== Proof.RefRead31.lean ====
/- Stretch 31 of the reference program's run (the operations that end in `main_v283`): run from any contents it leaves its
   named buffer at the stretch's function of what it reads; and so, after the whole run, the buffer holds that function
   of what the run leaves in the earlier named buffers and of the arguments. -/
import proofs.«159603_j71347996721325_2_alg».proof.Proof.RefFns
import proofs.«159603_j71347996721325_2_alg».proof.Proof.RefVals
import proofs.«159603_j71347996721325_2_alg».proof.Proof.RefArgs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- Stretch 31 run from any contents `W` leaves `main_v283` at `res_main_v283` of what `W` holds in the buffers it reads. -/
theorem sg31_main_v283 (W : Valuation τ sig (Elt F)) :
    after sg31 W (Proc.devRef .tc main_v283) = res_main_v283 (W (Proc.devRef .tc main_arg8)) (W (Proc.devRef .tc main_v276)) (W (Proc.devRef .tc main_v258)) (W (Proc.devRef .tc main_arg9)) := by
  simp only [sg31, p35, StableHlo.after_append]
  after_results_simp
  rfl

set_option maxRecDepth 65536 in
/-- After the whole run `main_v283` holds `res_main_v283` of what the run leaves in the earlier named buffers and of the arguments. -/
theorem after_main_v283 (M : Valuation τ sig (Elt F)) :
    after ops M (Proc.devRef .tc main_v283) = res_main_v283 (M (Proc.devRef .tc main_arg8)) (after ops M (Proc.devRef .tc main_v276)) (after ops M (Proc.devRef .tc main_v258)) (M (Proc.devRef .tc main_arg9)) := by
  have h := sg31_main_v283 (val31 M)
  rw [val_unwritten_of M (V := val31 M) (fin_keep31 M (r := main_arg8) (by decide)) args_unwritten.2.2.2.2.2.2.2.2.1,
    ← fin_keep31 M (r := main_v276) (by decide),
    ← fin_keep31 M (r := main_v258) (by decide),
    val_unwritten_of M (V := val31 M) (fin_keep31 M (r := main_arg9) (by decide)) args_unwritten.2.2.2.2.2.2.2.2.2.1] at h
  exact (fin_keep32 M (r := main_v283) (by decide)).trans h

end Cert.ReferenceIdeal.RefRun

end
-- ==== Proof.RefRead32.lean ====
/- Stretch 32 of the reference program's run (the operations that end in `main_v285`): run from any contents it leaves its
   named buffer at the stretch's function of what it reads; and so, after the whole run, the buffer holds that function
   of what the run leaves in the earlier named buffers and of the arguments. -/
import proofs.«159603_j71347996721325_2_alg».proof.Proof.RefFns
import proofs.«159603_j71347996721325_2_alg».proof.Proof.RefVals
import proofs.«159603_j71347996721325_2_alg».proof.Proof.RefArgs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- Stretch 32 run from any contents `W` leaves `main_v285` at `res_main_v285` of what `W` holds in the buffers it reads. -/
theorem sg32_main_v285 (W : Valuation τ sig (Elt F)) :
    after sg32 W (Proc.devRef .tc main_v285) = res_main_v285 (W (Proc.devRef .tc main_arg16)) := by
  simp only [sg32, p36, StableHlo.after_append]
  after_results_simp
  rfl

set_option maxRecDepth 65536 in
/-- After the whole run `main_v285` holds `res_main_v285` of what the run leaves in the earlier named buffers and of the arguments. -/
theorem after_main_v285 (M : Valuation τ sig (Elt F)) :
    after ops M (Proc.devRef .tc main_v285) = res_main_v285 (M (Proc.devRef .tc main_arg16)) := by
  have h := sg32_main_v285 (val32 M)
  rw [val_unwritten_of M (V := val32 M) (fin_keep32 M (r := main_arg16) (by decide)) args_unwritten.2.2.2.2.2.2.2.2.2.2.2.2.2.2.2.2.1] at h
  exact (fin_keep33 M (r := main_v285) (by decide)).trans h

end Cert.ReferenceIdeal.RefRun

end
-- ==== Proof.RefRead33.lean ====
/- Stretch 33 of the reference program's run (the operations that end in `main_v294`): run from any contents it leaves its
   named buffer at the stretch's function of what it reads; and so, after the whole run, the buffer holds that function
   of what the run leaves in the earlier named buffers and of the arguments. -/
import proofs.«159603_j71347996721325_2_alg».proof.Proof.RefFns
import proofs.«159603_j71347996721325_2_alg».proof.Proof.RefVals
import proofs.«159603_j71347996721325_2_alg».proof.Proof.RefArgs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- Stretch 33 run from any contents `W` leaves `main_v294` at `res_main_v294` of what `W` holds in the buffers it reads. -/
theorem sg33_main_v294 (W : Valuation τ sig (Elt F)) :
    after sg33 W (Proc.devRef .tc main_v294) = res_main_v294 (W (Proc.devRef .tc main_v285)) (W (Proc.devRef .tc main_v283)) (W (Proc.devRef .tc main_arg15)) (W (Proc.devRef .tc main_arg14)) := by
  simp only [sg33, p37, p38, StableHlo.after_append]
  after_results_simp
  rfl

set_option maxRecDepth 65536 in
/-- After the whole run `main_v294` holds `res_main_v294` of what the run leaves in the earlier named buffers and of the arguments. -/
theorem after_main_v294 (M : Valuation τ sig (Elt F)) :
    after ops M (Proc.devRef .tc main_v294) = res_main_v294 (after ops M (Proc.devRef .tc main_v285)) (after ops M (Proc.devRef .tc main_v283)) (M (Proc.devRef .tc main_arg15)) (M (Proc.devRef .tc main_arg14)) := by
  have h := sg33_main_v294 (val33 M)
  rw [← fin_keep33 M (r := main_v285) (by decide),
    ← fin_keep33 M (r := main_v283) (by decide),
    val_unwritten_of M (V := val33 M) (fin_keep33 M (r := main_arg15) (by decide)) args_unwritten.2.2.2.2.2.2.2.2.2.2.2.2.2.2.2.1,
    val_unwritten_of M (V := val33 M) (fin_keep33 M (r := main_arg14) (by decide)) args_unwritten.2.2.2.2.2.2.2.2.2.2.2.2.2.2.1] at h
  exact (fin_keep34 M (r := main_v294) (by decide)).trans h

end Cert.ReferenceIdeal.RefRun

end
-- ==== Proof.RefRead34.lean ====
/- Stretch 34 of the reference program's run (the operations that end in `main_v303`): run from any contents it leaves its
   named buffer at the stretch's function of what it reads; and so, after the whole run, the buffer holds that function
   of what the run leaves in the earlier named buffers and of the arguments. -/
import proofs.«159603_j71347996721325_2_alg».proof.Proof.RefFns
import proofs.«159603_j71347996721325_2_alg».proof.Proof.RefVals
import proofs.«159603_j71347996721325_2_alg».proof.Proof.RefArgs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- Stretch 34 run from any contents `W` leaves `main_v303` at `res_main_v303` of what `W` holds in the buffers it reads. -/
theorem sg34_main_v303 (W : Valuation τ sig (Elt F)) :
    after sg34 W (Proc.devRef .tc main_v303) = res_main_v303 (W (Proc.devRef .tc main_v294)) (W (Proc.devRef .tc main_arg17)) (W (Proc.devRef .tc main_arg18)) (W (Proc.devRef .tc main_arg19)) (W (Proc.devRef .tc main_arg20)) := by
  simp only [sg34, p39, StableHlo.after_append]
  after_results_simp
  rfl

set_option maxRecDepth 65536 in
/-- After the whole run `main_v303` holds `res_main_v303` of what the run leaves in the earlier named buffers and of the arguments. -/
theorem after_main_v303 (M : Valuation τ sig (Elt F)) :
    after ops M (Proc.devRef .tc main_v303) = res_main_v303 (after ops M (Proc.devRef .tc main_v294)) (M (Proc.devRef .tc main_arg17)) (M (Proc.devRef .tc main_arg18)) (M (Proc.devRef .tc main_arg19)) (M (Proc.devRef .tc main_arg20)) := by
  have h := sg34_main_v303 (val34 M)
  rw [← fin_keep34 M (r := main_v294) (by decide),
    val_unwritten_of M (V := val34 M) (fin_keep34 M (r := main_arg17) (by decide)) args_unwritten.2.2.2.2.2.2.2.2.2.2.2.2.2.2.2.2.2.1,
    val_unwritten_of M (V := val34 M) (fin_keep34 M (r := main_arg18) (by decide)) args_unwritten.2.2.2.2.2.2.2.2.2.2.2.2.2.2.2.2.2.2.1,
    val_unwritten_of M (V := val34 M) (fin_keep34 M (r := main_arg19) (by decide)) args_unwritten.2.2.2.2.2.2.2.2.2.2.2.2.2.2.2.2.2.2.2.1,
    val_unwritten_of M (V := val34 M) (fin_keep34 M (r := main_arg20) (by decide)) args_unwritten.2.2.2.2.2.2.2.2.2.2.2.2.2.2.2.2.2.2.2.2] at h
  exact (fin_keep35 M (r := main_v303) (by decide)).trans h

end Cert.ReferenceIdeal.RefRun

end
-- ==== Proof.RefRead.lean ====
/- The reference program's run read back over its named buffers: each stretch's statement, and the longer statements made of
   them — the normalised edge weights from the arguments, each layer's sum from its four propagated inputs, a hidden
   layer's output from its sum, the result from the last layer's sum. -/
import proofs.«159603_j71347996721325_2_alg».proof.Proof.RefComp
import proofs.«159603_j71347996721325_2_alg».proof.Proof.RefRead0
import proofs.«159603_j71347996721325_2_alg».proof.Proof.RefRead1
import proofs.«159603_j71347996721325_2_alg».proof.Proof.RefRead2
import proofs.«159603_j71347996721325_2_alg».proof.Proof.RefRead3
import proofs.«159603_j71347996721325_2_alg».proof.Proof.RefRead4
import proofs.«159603_j71347996721325_2_alg».proof.Proof.RefRead5
import proofs.«159603_j71347996721325_2_alg».proof.Proof.RefRead6
import proofs.«159603_j71347996721325_2_alg».proof.Proof.RefRead7
import proofs.«159603_j71347996721325_2_alg».proof.Proof.RefRead8
import proofs.«159603_j71347996721325_2_alg».proof.Proof.RefRead9
import proofs.«159603_j71347996721325_2_alg».proof.Proof.RefRead10
import proofs.«159603_j71347996721325_2_alg».proof.Proof.RefRead11
import proofs.«159603_j71347996721325_2_alg».proof.Proof.RefRead12
import proofs.«159603_j71347996721325_2_alg».proof.Proof.RefRead13
import proofs.«159603_j71347996721325_2_alg».proof.Proof.RefRead14
import proofs.«159603_j71347996721325_2_alg».proof.Proof.RefRead15
import proofs.«159603_j71347996721325_2_alg».proof.Proof.RefRead16
import proofs.«159603_j71347996721325_2_alg».proof.Proof.RefRead17
import proofs.«159603_j71347996721325_2_alg».proof.Proof.RefRead18
import proofs.«159603_j71347996721325_2_alg».proof.Proof.RefRead19
import proofs.«159603_j71347996721325_2_alg».proof.Proof.RefRead20
import proofs.«159603_j71347996721325_2_alg».proof.Proof.RefRead21
import proofs.«159603_j71347996721325_2_alg».proof.Proof.RefRead22
import proofs.«159603_j71347996721325_2_alg».proof.Proof.RefRead23
import proofs.«159603_j71347996721325_2_alg».proof.Proof.RefRead24
import proofs.«159603_j71347996721325_2_alg».proof.Proof.RefRead25
import proofs.«159603_j71347996721325_2_alg».proof.Proof.RefRead26
import proofs.«159603_j71347996721325_2_alg».proof.Proof.RefRead27
import proofs.«159603_j71347996721325_2_alg».proof.Proof.RefRead28
import proofs.«159603_j71347996721325_2_alg».proof.Proof.RefRead29
import proofs.«159603_j71347996721325_2_alg».proof.Proof.RefRead30
import proofs.«159603_j71347996721325_2_alg».proof.Proof.RefRead31
import proofs.«159603_j71347996721325_2_alg».proof.Proof.RefRead32
import proofs.«159603_j71347996721325_2_alg».proof.Proof.RefRead33
import proofs.«159603_j71347996721325_2_alg».proof.Proof.RefRead34

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- After the whole run `main_v29` holds `ref_w` of what the run leaves in no earlier buffer and of the arguments. -/
theorem after_ref_w (M : Valuation τ sig (Elt F)) :
    after ops M (Proc.devRef .tc main_v29) = ref_w (M (Proc.devRef .tc main_arg1)) (M (Proc.devRef .tc main_arg2)) (M (Proc.devRef .tc main_arg3)) := by
  rw [after_main_v29 M, after_main_v13 M, after_main_v7 M]
  rfl

/-- After the whole run `main_v101` holds `ref_out1` of what the run leaves in `main_v50`, `main_v72`, `main_v94` and of the arguments. -/
theorem after_ref_out1 (M : Valuation τ sig (Elt F)) :
    after ops M (Proc.devRef .tc main_v101) = ref_out1 (M (Proc.devRef .tc main_arg0)) (after ops M (Proc.devRef .tc main_v50)) (after ops M (Proc.devRef .tc main_v72)) (after ops M (Proc.devRef .tc main_v94)) (M (Proc.devRef .tc main_arg4)) (M (Proc.devRef .tc main_arg5)) := by
  rw [after_main_v101 M, after_main_v76 M, after_main_v54 M, after_main_v32 M]
  rfl

/-- After the whole run `main_v120` holds `ref_act1` of what the run leaves in `main_v101` and of the arguments. -/
theorem after_ref_act1 (M : Valuation τ sig (Elt F)) :
    after ops M (Proc.devRef .tc main_v120) = ref_act1 (after ops M (Proc.devRef .tc main_v101)) (M (Proc.devRef .tc main_arg10)) (M (Proc.devRef .tc main_arg11)) := by
  rw [after_main_v120 M, after_main_v119 M, after_main_v105 M, after_main_v106 M]
  rfl

/-- After the whole run `main_v192` holds `ref_out2` of what the run leaves in `main_v120`, `main_v141`, `main_v163`, `main_v185` and of the arguments. -/
theorem after_ref_out2 (M : Valuation τ sig (Elt F)) :
    after ops M (Proc.devRef .tc main_v192) = ref_out2 (after ops M (Proc.devRef .tc main_v120)) (after ops M (Proc.devRef .tc main_v141)) (after ops M (Proc.devRef .tc main_v163)) (after ops M (Proc.devRef .tc main_v185)) (M (Proc.devRef .tc main_arg6)) (M (Proc.devRef .tc main_arg7)) := by
  rw [after_main_v192 M, after_main_v167 M, after_main_v145 M, after_main_v123 M]
  rfl

/-- After the whole run `main_v211` holds `ref_act1` of what the run leaves in `main_v192` and of the arguments. -/
theorem after_ref_act2 (M : Valuation τ sig (Elt F)) :
    after ops M (Proc.devRef .tc main_v211) = ref_act1 (after ops M (Proc.devRef .tc main_v192)) (M (Proc.devRef .tc main_arg12)) (M (Proc.devRef .tc main_arg13)) := by
  rw [after_main_v211 M, after_main_v210 M, after_main_v196 M, after_main_v197 M]
  rfl

/-- After the whole run `main_v283` holds `ref_out3` of what the run leaves in `main_v211`, `main_v232`, `main_v254`, `main_v276` and of the arguments. -/
theorem after_ref_out3 (M : Valuation τ sig (Elt F)) :
    after ops M (Proc.devRef .tc main_v283) = ref_out3 (after ops M (Proc.devRef .tc main_v211)) (after ops M (Proc.devRef .tc main_v232)) (after ops M (Proc.devRef .tc main_v254)) (after ops M (Proc.devRef .tc main_v276)) (M (Proc.devRef .tc main_arg8)) (M (Proc.devRef .tc main_arg9)) := by
  rw [after_main_v283 M, after_main_v258 M, after_main_v236 M, after_main_v214 M]
  rfl

/-- After the whole run `main_v303` holds `ref_final` of what the run leaves in `main_v283` and of the arguments. -/
theorem after_ref_final (M : Valuation τ sig (Elt F)) :
    after ops M (Proc.devRef .tc main_v303) = ref_final (after ops M (Proc.devRef .tc main_v283)) (M (Proc.devRef .tc main_arg14)) (M (Proc.devRef .tc main_arg15)) (M (Proc.devRef .tc main_arg16)) (M (Proc.devRef .tc main_arg17)) (M (Proc.devRef .tc main_arg18)) (M (Proc.devRef .tc main_arg19)) (M (Proc.devRef .tc main_arg20)) := by
  rw [after_main_v303 M, after_main_v294 M, after_main_v285 M]
  rfl

end Cert.ReferenceIdeal.RefRun

end
-- ==== Proof.RefChain.lean ====
/-
  The reference program's result as a function of its arguments, in the same three layers as the kernel's: the normalised
  edge weights w, a propagation step P, and per layer the four products of the layer's input and its three successive
  propagations with the four slices of the weights, added left to right, plus the bias; then the batch normalisation and
  rectifier (hidden layers) or the rescaling, mask and clamp (last layer).
-/
import proofs.«159603_j71347996721325_2_alg».proof.Proof.RefRead

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The contents of a buffer of shape `S` and element type `e`. -/
abbrev CR (S : Shape) (e : EltTy) : Type := (⟨S, e⟩ : BufTy).Contents (Elt F)

/-- The first layer. -/
def R1 (a1 a2 : CR (F := F) S400000 .i32) (a3 : CR (F := F) S400000 .f32) (a0 : CR (F := F) S4x50000x4 .f32) (a4 : CR (F := F) S4x4x64 .f32) (a5 : CR (F := F) S64 .f32)
    (a10 a11 : CR (F := F) S50000 .f32) : CR (F := F) S4x50000x64 .f32 :=
  ref_act1 (ref_out1 a0 (res_main_v50 a1 a0 (ref_w a1 a2 a3) a2) (res_main_v50 a1 (res_main_v50 a1 a0 (ref_w a1 a2 a3) a2) (ref_w a1 a2 a3) a2)
      (res_main_v50 a1 (res_main_v50 a1 (res_main_v50 a1 a0 (ref_w a1 a2 a3) a2) (ref_w a1 a2 a3) a2) (ref_w a1 a2 a3) a2) a4 a5) a10 a11
/-- The second layer. -/
def R2 (a1 a2 : CR (F := F) S400000 .i32) (a3 : CR (F := F) S400000 .f32) (x : CR (F := F) S4x50000x64 .f32) (a6 : CR (F := F) S4x64x64 .f32) (a7 : CR (F := F) S64 .f32)
    (a12 a13 : CR (F := F) S50000 .f32) : CR (F := F) S4x50000x64 .f32 :=
  ref_act1 (ref_out2 x (res_main_v141 a1 x (ref_w a1 a2 a3) a2) (res_main_v141 a1 (res_main_v141 a1 x (ref_w a1 a2 a3) a2) (ref_w a1 a2 a3) a2)
      (res_main_v141 a1 (res_main_v141 a1 (res_main_v141 a1 x (ref_w a1 a2 a3) a2) (ref_w a1 a2 a3) a2) (ref_w a1 a2 a3) a2) a6 a7) a12 a13
/-- The third layer with its rescaling, mask and clamp. -/
def R3 (a1 a2 : CR (F := F) S400000 .i32) (a3 : CR (F := F) S400000 .f32) (x : CR (F := F) S4x50000x64 .f32) (a8 : CR (F := F) S4x64x2 .f32) (a9 : CR (F := F) S2 .f32)
    (a14 a15 a16 : CR (F := F) S50000x2 .f32) (a17 a18 a19 a20 : CR (F := F) S50000 .f32) : CR (F := F) S4x50000x2 .f32 :=
  ref_final (ref_out3 x (res_main_v141 a1 x (ref_w a1 a2 a3) a2) (res_main_v141 a1 (res_main_v141 a1 x (ref_w a1 a2 a3) a2) (ref_w a1 a2 a3) a2)
      (res_main_v141 a1 (res_main_v141 a1 (res_main_v141 a1 x (ref_w a1 a2 a3) a2) (ref_w a1 a2 a3) a2) (ref_w a1 a2 a3) a2) a8 a9) a14 a15 a16 a17 a18 a19 a20

/-- The result buffer after the reference's operations, from any contents `M`. -/
theorem after_result (M : Valuation τ sig (Elt F)) :
    after ops M (Proc.devRef .tc main_v303)
      = R3 (M (Proc.devRef .tc main_arg1)) (M (Proc.devRef .tc main_arg2)) (M (Proc.devRef .tc main_arg3))
          (R2 (M (Proc.devRef .tc main_arg1)) (M (Proc.devRef .tc main_arg2)) (M (Proc.devRef .tc main_arg3))
            (R1 (M (Proc.devRef .tc main_arg1)) (M (Proc.devRef .tc main_arg2)) (M (Proc.devRef .tc main_arg3)) (M (Proc.devRef .tc main_arg0))
              (M (Proc.devRef .tc main_arg4)) (M (Proc.devRef .tc main_arg5)) (M (Proc.devRef .tc main_arg10)) (M (Proc.devRef .tc main_arg11)))
            (M (Proc.devRef .tc main_arg6)) (M (Proc.devRef .tc main_arg7)) (M (Proc.devRef .tc main_arg12)) (M (Proc.devRef .tc main_arg13)))
          (M (Proc.devRef .tc main_arg8)) (M (Proc.devRef .tc main_arg9)) (M (Proc.devRef .tc main_arg14)) (M (Proc.devRef .tc main_arg15)) (M (Proc.devRef .tc main_arg16))
          (M (Proc.devRef .tc main_arg17)) (M (Proc.devRef .tc main_arg18)) (M (Proc.devRef .tc main_arg19)) (M (Proc.devRef .tc main_arg20)) := by
  rw [after_ref_final M, after_ref_out3 M, after_main_v276 M, after_main_v254 M, after_main_v232 M, after_ref_act2 M, after_ref_out2 M,
    after_main_v185 M, after_main_v163 M, after_main_v141 M, after_ref_act1 M, after_ref_out1 M, after_main_v94 M, after_main_v72 M, after_main_v50 M,
    after_ref_w M]
  rfl

end Cert.ReferenceIdeal.RefRun

end
-- ==== Proof.LibRealSums.lean ====
/-
  Arithmetic of extended reals that are in fact real numbers: a finite sum, a product, a sum or a maximum of reals is a
  real, and a real factor moves across a finite sum of products of reals. On the extended reals themselves the last law
  fails at the infinities, which is why every array that meets it is first shown to hold real numbers only.
-/
import Idealize.ShloMosaic.PureOps.Ideal

namespace Cert.Algebra

open Finset

/-- The embedding of the reals commutes with finite sums. -/
theorem coe_sum {ι : Type*} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A finite sum of reals is a real. -/
theorem sum_real {ι : Type*} (s : Finset ι) (f : ι → EReal) (h : ∀ i ∈ s, ∃ r : ℝ, f i = (r : EReal)) :
    ∃ r : ℝ, ∑ i ∈ s, f i = (r : EReal) := by
  classical
  choose! g hg using h
  exact ⟨∑ i ∈ s, g i, by rw [coe_sum]; exact Finset.sum_congr rfl hg⟩

/-- A product of two reals is a real. -/
theorem mul_real {a b : EReal} (ha : ∃ r : ℝ, a = (r : EReal)) (hb : ∃ r : ℝ, b = (r : EReal)) :
    ∃ r : ℝ, a * b = (r : EReal) := by
  obtain ⟨x, rfl⟩ := ha; obtain ⟨y, rfl⟩ := hb; exact ⟨x * y, (EReal.coe_mul x y).symm⟩

/-- A sum of two reals is a real. -/
theorem add_real {a b : EReal} (ha : ∃ r : ℝ, a = (r : EReal)) (hb : ∃ r : ℝ, b = (r : EReal)) :
    ∃ r : ℝ, a + b = (r : EReal) := by
  obtain ⟨x, rfl⟩ := ha; obtain ⟨y, rfl⟩ := hb; exact ⟨x + y, (EReal.coe_add x y).symm⟩

/-- The maximum of two reals is a real. -/
theorem max_real {a b : EReal} (ha : ∃ r : ℝ, a = (r : EReal)) (hb : ∃ r : ℝ, b = (r : EReal)) :
    ∃ r : ℝ, max a b = (r : EReal) := by
  rcases max_choice a b with h | h <;> rw [h] <;> assumption

/-- A real factor moves across a finite sum of products of reals:
    the sum over k of (a k · n) · w k is (the sum over k of a k · w k) · n. -/
theorem scale_sum {ι : Type*} [Fintype ι] (a w : ι → EReal) (n : EReal) (ha : ∀ k, ∃ r : ℝ, a k = (r : EReal))
    (hw : ∀ k, ∃ r : ℝ, w k = (r : EReal)) (hn : ∃ r : ℝ, n = (r : EReal)) :
    ∑ k, (a k * n) * w k = (∑ k, a k * w k) * n := by
  choose x hx using ha
  choose y hy using hw
  obtain ⟨z, rfl⟩ := hn
  have e1 : ∀ k, (a k * (z : EReal)) * w k = ((x k * z * y k : ℝ) : EReal) := fun k => by
    rw [hx, hy, ← EReal.coe_mul, ← EReal.coe_mul]
  have e2 : ∀ k, a k * w k = ((x k * y k : ℝ) : EReal) := fun k => by rw [hx, hy, ← EReal.coe_mul]
  rw [Finset.sum_congr rfl (fun k _ => e1 k), Finset.sum_congr rfl (fun k _ => e2 k), ← coe_sum, ← coe_sum,
    ← EReal.coe_mul]
  congr 1
  rw [Finset.sum_mul]
  exact Finset.sum_congr rfl fun k _ => by ring

end Cert.Algebra
-- ==== Proof.AlgConsts.lean ====
/-
  The float literals of the two programs, as the real numbers their binary patterns denote: the count 256, the
  variance's ε (the f32 nearest 1e-5), the rectifier's slope (the f32 nearest 0.01) and the degree's floor (the f32
  nearest 1e-30). Each is a dyadic rational, written as an integer times a power of two; ε, the slope and the floor are
  positive. The patterns are unfolded once, here.
-/
import Idealize.ShloMosaic.PureOps.Ideal
import Mathlib.Tactic

namespace Cert.Algebra

open Idealize.ShloMosaic

/-- The pattern of 256.0 denotes the real 256. -/
theorem ofBits_256 : Ideal.ofBits .f32 0x43800000#32 = ((256 : ℝ) : EReal) := by
  simp [Ideal.ofBits, Ideal.ieee, -EReal.coe_mul]; norm_num

/-- The pattern of ε denotes 10995116 · 2⁻⁴⁰ (about 1.0000000e-5). -/
theorem ofBits_eps : Ideal.ofBits .f32 0x3727C5AC#32 = (((10995116 : ℝ) * 2 ^ (-40 : ℤ) : ℝ) : EReal) := by
  simp [Ideal.ofBits, Ideal.ieee, -EReal.coe_mul]

/-- The pattern of the slope denotes 10737418 · 2⁻³⁰ (about 0.01). -/
theorem ofBits_slope : Ideal.ofBits .f32 0x3C23D70A#32 = (((10737418 : ℝ) * 2 ^ (-30 : ℤ) : ℝ) : EReal) := by
  simp [Ideal.ofBits, Ideal.ieee, -EReal.coe_mul]

/-- The pattern of the floor denotes 10633824 · 2⁻¹²³ (about 1e-30). -/
theorem ofBits_tiny : Ideal.ofBits .f32 0x0DA24260#32 = (((10633824 : ℝ) * 2 ^ (-123 : ℤ) : ℝ) : EReal) := by
  simp [Ideal.ofBits, Ideal.ieee, -EReal.coe_mul]

/-- The pattern of +0.0 denotes zero. -/
theorem ofBits_zero : Ideal.ofBits .f32 0x00000000#32 = 0 := by
  simp [Ideal.ofBits, Ideal.ieee]

/-- The pattern of +∞ denotes the top of the extended reals. -/
theorem ofBits_inf : Ideal.ofBits .f32 0x7F800000#32 = ⊤ := by
  simp [Ideal.ofBits, Ideal.ieee]

/-- 256 is a real that is not zero. -/
theorem n256_real : ∃ r : ℝ, r ≠ 0 ∧ Ideal.ofBits .f32 0x43800000#32 = (r : EReal) :=
  ⟨256, by norm_num, ofBits_256⟩

/-- ε is a positive real. -/
theorem eps_pos_real : ∃ r : ℝ, 0 < r ∧ Ideal.ofBits .f32 0x3727C5AC#32 = (r : EReal) :=
  ⟨_, by positivity, ofBits_eps⟩

/-- The slope is a positive real. -/
theorem slope_pos_real : ∃ r : ℝ, 0 < r ∧ Ideal.ofBits .f32 0x3C23D70A#32 = (r : EReal) :=
  ⟨_, by positivity, ofBits_slope⟩

/-- The floor is a positive real. -/
theorem tiny_pos_real : ∃ r : ℝ, 0 < r ∧ Ideal.ofBits .f32 0x0DA24260#32 = (r : EReal) :=
  ⟨_, by positivity, ofBits_tiny⟩

/-- In the spelling of the real-ness lemmas. -/
theorem eps_real : ∃ r : ℝ, Ideal.ofBits .f32 0x3727C5AC#32 = (r : EReal) := ⟨_, ofBits_eps⟩
theorem slope_real : ∃ r : ℝ, Ideal.ofBits .f32 0x3C23D70A#32 = (r : EReal) := ⟨_, ofBits_slope⟩
theorem tiny_real : ∃ r : ℝ, Ideal.ofBits .f32 0x0DA24260#32 = (r : EReal) := ⟨_, ofBits_tiny⟩
theorem n256_real' : ∃ r : ℝ, Ideal.ofBits .f32 0x43800000#32 = (r : EReal) := ⟨_, ofBits_256⟩
theorem zero_real : ∃ r : ℝ, Ideal.ofBits .f32 0x00000000#32 = (r : EReal) := ⟨0, by rw [ofBits_zero, EReal.coe_zero]⟩

/-- As extended reals: ε, the slope and the floor are above zero. -/
theorem eps_pos : (0 : EReal) < Ideal.ofBits .f32 0x3727C5AC#32 := by
  rw [ofBits_eps]; exact EReal.coe_pos.mpr (by positivity)
theorem slope_pos : (0 : EReal) < Ideal.ofBits .f32 0x3C23D70A#32 := by
  rw [ofBits_slope]; exact EReal.coe_pos.mpr (by positivity)
theorem tiny_pos : (0 : EReal) < Ideal.ofBits .f32 0x0DA24260#32 := by
  rw [ofBits_tiny]; exact EReal.coe_pos.mpr (by positivity)

end Cert.Algebra
-- ==== Proof.AlgVariance.lean ====
/-
  The variance of finitely many real numbers, computed two ways. With N values x i, mean m = (the sum of the x i) / N:
  the one-pass form (the sum of the x i · x i) / N − m · m, cut off below at 0, and the two-pass form
  (the sum of (x i − m) · (x i − m)) / N are the same real number, because the second is never negative and expanding
  its square gives the first. On the extended reals the expansion fails at the infinities, so every x i is assumed to
  be a real; the statements are about extended reals that are reals, in the operations of the ideal instance.
-/
import Idealize.ShloMosaic.PureOps.Ideal
import Mathlib.Tactic
import proofs.«159603_j71347996721325_2_alg».proof.Proof.LibRealSums

namespace Cert.Algebra

open Finset Idealize.ShloMosaic

/-- The ideal quotient of a real by a real that is not zero is the real quotient. -/
theorem div_coe_coe (a c : ℝ) (hc : c ≠ 0) : Ideal.div (a : EReal) (c : EReal) = ((a / c : ℝ) : EReal) := by
  rw [Ideal.div_coe hc, ← EReal.coe_mul, one_div, div_eq_mul_inv]

/-- The embedding of the reals commutes with the maximum. -/
theorem coe_max (a b : ℝ) : ((max a b : ℝ) : EReal) = max (a : EReal) (b : EReal) :=
  EReal.coe_strictMono.monotone.map_max

/-- The real identity: with N = the number of values, the mean of the squared deviations is the mean of the squares
    less the square of the mean. -/
theorem real_two_pass_eq_one_pass {ι : Type*} [Fintype ι] (r : ι → ℝ) (c : ℝ) (hcard : (Fintype.card ι : ℝ) = c)
    (hc : c ≠ 0) :
    (∑ i, (r i - (∑ i, r i) / c) * (r i - (∑ i, r i) / c)) / c
      = (∑ i, r i * r i) / c - (∑ i, r i) / c * ((∑ i, r i) / c) := by
  set S := ∑ i, r i with hS
  set m := S / c with hm
  have e : ∑ i, (r i - m) * (r i - m) = (∑ i, r i * r i) - 2 * m * S + c * (m * m) := by
    have : ∀ i, (r i - m) * (r i - m) = r i * r i - 2 * m * r i + m * m := fun i => by ring
    rw [Finset.sum_congr rfl fun i _ => this i, Finset.sum_add_distrib, Finset.sum_sub_distrib, ← Finset.mul_sum,
      Finset.sum_const, Finset.card_univ, nsmul_eq_mul, hcard]
  rw [e, hm]
  field_simp
  ring

/-- The two-pass variance of reals is not negative. -/
theorem real_two_pass_nonneg {ι : Type*} [Fintype ι] (r : ι → ℝ) (m c : ℝ) (hc : 0 < c) :
    0 ≤ (∑ i, (r i - m) * (r i - m)) / c :=
  div_nonneg (Finset.sum_nonneg fun i _ => mul_self_nonneg _) hc.le

/-- The number of values is positive when it is a real that is not zero. -/
theorem card_pos_of_ne {ι : Type*} [Fintype ι] (c : ℝ) (hcard : (Fintype.card ι : ℝ) = c) (hc : c ≠ 0) : 0 < c := by
  rw [← hcard] at hc ⊢
  exact lt_of_le_of_ne (Nat.cast_nonneg _) (Ne.symm hc)

/-- THE VARIANCE, over any finite index type: for real values, the one-pass form cut off below at zero is the two-pass
    form. `c` is the extended real the count's bit pattern denotes, known to be the real number of values. -/
theorem var_one_pass_eq_two_pass {ι : Type*} [Fintype ι] (x : ι → EReal) (hx : ∀ i, ∃ r : ℝ, x i = (r : EReal))
    (c : EReal) (n : ℝ) (hc : c = (n : EReal)) (hcard : (Fintype.card ι : ℝ) = n) (hn : n ≠ 0) :
    max (Ideal.div (∑ i, x i * x i) c - Ideal.div (∑ i, x i) c * Ideal.div (∑ i, x i) c) 0
      = Ideal.div (∑ i, (x i - Ideal.div (∑ i, x i) c) * (x i - Ideal.div (∑ i, x i) c)) c := by
  choose r hr using hx
  obtain rfl : x = fun i => (r i : EReal) := funext hr
  subst hc
  have hpos := card_pos_of_ne n hcard hn
  simp only [← EReal.coe_mul, ← coe_sum, div_coe_coe _ _ hn, ← EReal.coe_sub, ← EReal.coe_zero, ← coe_max]
  rw [EReal.coe_eq_coe_iff, real_two_pass_eq_one_pass r n hcard hn]
  exact max_eq_left (by rw [← real_two_pass_eq_one_pass r n hcard hn]; exact real_two_pass_nonneg r _ n hpos)

/-- The mean of real values is a real. -/
theorem mean_real {ι : Type*} [Fintype ι] (x : ι → EReal) (hx : ∀ i, ∃ r : ℝ, x i = (r : EReal))
    (c : EReal) (n : ℝ) (hc : c = (n : EReal)) (hn : n ≠ 0) : ∃ m : ℝ, Ideal.div (∑ i, x i) c = (m : EReal) := by
  obtain ⟨s, hs⟩ := sum_real Finset.univ x fun i _ => hx i
  exact ⟨s / n, by rw [hs, hc, div_coe_coe _ _ hn]⟩

/-- The two-pass variance of real values is a real that is not negative. -/
theorem two_pass_real_nonneg {ι : Type*} [Fintype ι] (x : ι → EReal) (hx : ∀ i, ∃ r : ℝ, x i = (r : EReal))
    (c : EReal) (n : ℝ) (hc : c = (n : EReal)) (hcard : (Fintype.card ι : ℝ) = n) (hn : n ≠ 0) :
    ∃ v : ℝ, 0 ≤ v ∧
      Ideal.div (∑ i, (x i - Ideal.div (∑ i, x i) c) * (x i - Ideal.div (∑ i, x i) c)) c = (v : EReal) := by
  choose r hr using hx
  obtain rfl : x = fun i => (r i : EReal) := funext hr
  subst hc
  have hpos := card_pos_of_ne n hcard hn
  refine ⟨(∑ i, (r i - (∑ i, r i) / n) * (r i - (∑ i, r i) / n)) / n, real_two_pass_nonneg r _ n hpos, ?_⟩
  simp only [← EReal.coe_mul, ← coe_sum, div_coe_coe _ _ hn, ← EReal.coe_sub]

/-- So is the one-pass variance cut off at zero: it is the same number. -/
theorem one_pass_real_nonneg {ι : Type*} [Fintype ι] (x : ι → EReal) (hx : ∀ i, ∃ r : ℝ, x i = (r : EReal))
    (c : EReal) (n : ℝ) (hc : c = (n : EReal)) (hcard : (Fintype.card ι : ℝ) = n) (hn : n ≠ 0) :
    ∃ v : ℝ, 0 ≤ v ∧
      max (Ideal.div (∑ i, x i * x i) c - Ideal.div (∑ i, x i) c * Ideal.div (∑ i, x i) c) 0 = (v : EReal) := by
  rw [var_one_pass_eq_two_pass x hx c n hc hcard hn]
  exact two_pass_real_nonneg x hx c n hc hcard hn

/-- A real that is not negative plus a positive real is a positive real. -/
theorem add_pos_real {v e : EReal} (hv : ∃ r : ℝ, 0 ≤ r ∧ v = (r : EReal)) (he : ∃ r : ℝ, 0 < r ∧ e = (r : EReal)) :
    ∃ r : ℝ, 0 < r ∧ v + e = (r : EReal) := by
  obtain ⟨a, ha, rfl⟩ := hv; obtain ⟨b, hb, rfl⟩ := he
  exact ⟨a + b, by positivity, (EReal.coe_add a b).symm⟩

/-- The reciprocal square root of a positive real is the real 1/√r, which is positive. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

theorem rsqrt_pos_real {a : EReal} (ha : ∃ r : ℝ, 0 < r ∧ a = (r : EReal)) :
    ∃ r : ℝ, 0 < r ∧ Ideal.rsqrt a = (r : EReal) := by
  obtain ⟨r, hr, rfl⟩ := ha
  exact ⟨(Real.sqrt r)⁻¹, inv_pos.mpr (Real.sqrt_pos.mpr hr), rsqrt_coe_of_pos hr⟩

/-! ### At the network's size: 4 batches of 64 features, 256 values per node -/

theorem card_4x64 : (Fintype.card (Fin 4 × Fin 64) : ℝ) = 256 := by
  simp [Fintype.card_prod]

/-- THE VARIANCE at 4 × 64, every sum written as the sum over the batch of the sums over the features. -/
theorem var_eq_4x64 (x : Fin 4 → Fin 64 → EReal) (hx : ∀ b g, ∃ r : ℝ, x b g = (r : EReal))
    (c : EReal) (hc : c = ((256 : ℝ) : EReal)) :
    max (Ideal.div (∑ b, ∑ g, x b g * x b g) c
          - Ideal.div (∑ b, ∑ g, x b g) c * Ideal.div (∑ b, ∑ g, x b g) c) 0
      = Ideal.div (∑ b, ∑ g, (x b g - Ideal.div (∑ b, ∑ g, x b g) c) * (x b g - Ideal.div (∑ b, ∑ g, x b g) c)) c := by
  have h := var_one_pass_eq_two_pass (fun p : Fin 4 × Fin 64 => x p.1 p.2) (fun p => hx p.1 p.2) c 256 hc card_4x64
    (by norm_num)
  simpa only [Fintype.sum_prod_type] using h

/-- The mean at 4 × 64 is a real. -/
theorem mean_real_4x64 (x : Fin 4 → Fin 64 → EReal) (hx : ∀ b g, ∃ r : ℝ, x b g = (r : EReal))
    (c : EReal) (hc : c = ((256 : ℝ) : EReal)) : ∃ m : ℝ, Ideal.div (∑ b, ∑ g, x b g) c = (m : EReal) := by
  have h := mean_real (fun p : Fin 4 × Fin 64 => x p.1 p.2) (fun p => hx p.1 p.2) c 256 hc (by norm_num)
  simpa only [Fintype.sum_prod_type] using h

/-- The one-pass variance at 4 × 64 is a real that is not negative. -/
theorem one_pass_real_nonneg_4x64 (x : Fin 4 → Fin 64 → EReal) (hx : ∀ b g, ∃ r : ℝ, x b g = (r : EReal))
    (c : EReal) (hc : c = ((256 : ℝ) : EReal)) :
    ∃ v : ℝ, 0 ≤ v ∧ max (Ideal.div (∑ b, ∑ g, x b g * x b g) c
          - Ideal.div (∑ b, ∑ g, x b g) c * Ideal.div (∑ b, ∑ g, x b g) c) 0 = (v : EReal) := by
  have h := one_pass_real_nonneg (fun p : Fin 4 × Fin 64 => x p.1 p.2) (fun p => hx p.1 p.2) c 256 hc card_4x64
    (by norm_num)
  simpa only [Fintype.sum_prod_type] using h

/-- The two-pass variance at 4 × 64 is a real that is not negative. -/
theorem two_pass_real_nonneg_4x64 (x : Fin 4 → Fin 64 → EReal) (hx : ∀ b g, ∃ r : ℝ, x b g = (r : EReal))
    (c : EReal) (hc : c = ((256 : ℝ) : EReal)) :
    ∃ v : ℝ, 0 ≤ v ∧ Ideal.div (∑ b, ∑ g, (x b g - Ideal.div (∑ b, ∑ g, x b g) c)
          * (x b g - Ideal.div (∑ b, ∑ g, x b g) c)) c = (v : EReal) := by
  have h := two_pass_real_nonneg (fun p : Fin 4 × Fin 64 => x p.1 p.2) (fun p => hx p.1 p.2) c 256 hc card_4x64
    (by norm_num)
  simpa only [Fintype.sum_prod_type] using h

end Cert.Algebra
-- ==== Proof.AlgLeaky.lean ====
/-
  The leaky rectifier, written with a strict and with a weak comparison. One program keeps y where y > 0 and takes
  slope · y elsewhere; the other keeps y where y ≥ 0. They can differ only at y = 0, where the first answers
  slope · 0, which is 0 on the extended reals whatever the slope (the convention 0 · ±∞ = 0 included), and the
  second answers y = 0. So the two agree at every extended real. The normalised value
  γ · (x − μ) · inv + β that feeds the rectifier is a real when its five ingredients are.
-/
import Idealize.ShloMosaic.PureOps.Ideal
import Idealize.ShloMosaic.PureOps.Ideal.Laws
import Mathlib.Tactic
import proofs.«159603_j71347996721325_2_alg».proof.Proof.LibRealSums

namespace Cert.Algebra

open Idealize.ShloMosaic

/-- A select on a decided proposition is the `if` on it. -/
theorem select_ofBool {α : Type} (p : Prop) [Decidable p] (a b : α) :
    Scalar.select (BitVec.ofBool (decide p)) a b = if p then a else b := by
  by_cases h : p <;> simp [Scalar.select, h]

/-- The ordered "greater than" comparison of extended reals, selected on: the `if` on `z < y`. -/
theorem select_cmp_ogt {α : Type} (y z : EReal) (a b : α) :
    Scalar.select (Ideal.cmp .ogt y z) a b = if z < y then a else b := select_ofBool _ a b

/-- The ordered "greater or equal" comparison, selected on: the `if` on `z ≤ y`. -/
theorem select_cmp_oge {α : Type} (y z : EReal) (a b : α) :
    Scalar.select (Ideal.cmp .oge y z) a b = if z ≤ y then a else b := select_ofBool _ a b

/-- THE RECTIFIER as two `if`s: equal at every extended real y and every slope s. -/
theorem leaky_if_eq (y s : EReal) : (if 0 < y then y else s * y) = (if 0 ≤ y then y else s * y) := by
  by_cases h : 0 < y
  · rw [if_pos h, if_pos h.le]
  · by_cases h0 : 0 ≤ y
    · obtain rfl : y = 0 := le_antisymm (not_lt.mp h) h0
      rw [if_neg h, if_pos h0, mul_zero]
    · rw [if_neg h, if_neg h0]

/-- … with the slope on the right of the product. -/
theorem leaky_if_eq' (y s : EReal) : (if 0 < y then y else y * s) = (if 0 ≤ y then y else y * s) := by
  rw [mul_comm y s]; exact leaky_if_eq y s

/-- THE RECTIFIER in the comparison and select of the ideal instance, against a zero `z`: the strict form equals the
    weak form at every extended real. -/
theorem leaky_select_eq (y s z : EReal) (hz : z = 0) :
    Scalar.select (Ideal.cmp .ogt y z) y (s * y) = Scalar.select (Ideal.cmp .oge y z) y (s * y) := by
  subst hz
  rw [select_cmp_ogt, select_cmp_oge]; exact leaky_if_eq y s

theorem leaky_select_eq' (y s z : EReal) (hz : z = 0) :
    Scalar.select (Ideal.cmp .ogt y z) y (y * s) = Scalar.select (Ideal.cmp .oge y z) y (y * s) := by
  rw [mul_comm y s]; exact leaky_select_eq y s z hz

/-- The same against the instance's field names, as a program's term reads before any unfolding: `y`, `s` f32
    values at the ideal instance, `z` a pattern that denotes zero. -/
theorem leaky_cmpf_eq (y s z : Ideal .f32) (hz : z = 0) :
    Scalar.select (FloatOps.cmpf .ogt y z) y (FloatOps.mulf s y)
      = Scalar.select (FloatOps.cmpf .oge y z) y (FloatOps.mulf s y) :=
  leaky_select_eq y s z hz

theorem leaky_cmpf_eq' (y s z : Ideal .f32) (hz : z = 0) :
    Scalar.select (FloatOps.cmpf .ogt y z) y (FloatOps.mulf y s)
      = Scalar.select (FloatOps.cmpf .oge y z) y (FloatOps.mulf y s) :=
  leaky_select_eq' y s z hz

/-! ### Real-ness -/

/-- A difference of two reals is a real. -/
theorem sub_real {a b : EReal} (ha : ∃ r : ℝ, a = (r : EReal)) (hb : ∃ r : ℝ, b = (r : EReal)) :
    ∃ r : ℝ, a - b = (r : EReal) := by
  obtain ⟨x, rfl⟩ := ha; obtain ⟨y, rfl⟩ := hb; exact ⟨x - y, (EReal.coe_sub x y).symm⟩

/-- A select between two reals is a real, whatever the condition. -/
theorem select_real (c : BitVec 1) {a b : EReal} (ha : ∃ r : ℝ, a = (r : EReal)) (hb : ∃ r : ℝ, b = (r : EReal)) :
    ∃ r : ℝ, Scalar.select c a b = (r : EReal) := by
  unfold Scalar.select; split_ifs <;> assumption

/-- An `if` between two reals is a real. -/
theorem ite_real (p : Prop) [Decidable p] {a b : EReal} (ha : ∃ r : ℝ, a = (r : EReal))
    (hb : ∃ r : ℝ, b = (r : EReal)) : ∃ r : ℝ, (if p then a else b) = (r : EReal) := by
  split_ifs <;> assumption

/-- The normalised value γ · (x − μ) · inv + β is a real when γ, x, μ, inv and β are. -/
theorem normed_real {g x m i b : EReal} (hg : ∃ r : ℝ, g = (r : EReal)) (hx : ∃ r : ℝ, x = (r : EReal))
    (hm : ∃ r : ℝ, m = (r : EReal)) (hi : ∃ r : ℝ, i = (r : EReal)) (hb : ∃ r : ℝ, b = (r : EReal)) :
    ∃ r : ℝ, g * (x - m) * i + b = (r : EReal) :=
  add_real (mul_real (mul_real hg (sub_real hx hm)) hi) hb

/-- The rectified value is a real when y and the slope are (either form of the comparison, either order of the
    product). -/
theorem leaky_real (c : BitVec 1) {y s : EReal} (hy : ∃ r : ℝ, y = (r : EReal)) (hs : ∃ r : ℝ, s = (r : EReal)) :
    ∃ r : ℝ, Scalar.select c y (s * y) = (r : EReal) :=
  select_real c hy (mul_real hs hy)

theorem leaky_real' (c : BitVec 1) {y s : EReal} (hy : ∃ r : ℝ, y = (r : EReal)) (hs : ∃ r : ℝ, s = (r : EReal)) :
    ∃ r : ℝ, Scalar.select c y (y * s) = (r : EReal) :=
  select_real c hy (mul_real hy hs)

end Cert.Algebra
-- ==== Proof.AlgBN.lean ====
/-
  One node's batch normalisation and rectifier: the kernel's form equals the reference's on real entries.
  The two means are one sum reordered. With the means equal, the kernel's one-pass variance cut off at zero is the
  reference's two-pass variance (the entries are reals), so the normalised values agree; and the two rectifiers agree at
  every extended real. The result is a real: every stage maps reals to reals, the reciprocal square root because the
  variance is not negative and ε is positive.
-/
import Idealize.ShloMosaic.PureOps.Ideal
import Mathlib.Tactic
import proofs.«159603_j71347996721325_2_alg».proof.Proof.LibRealSums
import proofs.«159603_j71347996721325_2_alg».proof.Proof.Spec
import proofs.«159603_j71347996721325_2_alg».proof.Proof.AlgConsts
import proofs.«159603_j71347996721325_2_alg».proof.Proof.AlgVariance
import proofs.«159603_j71347996721325_2_alg».proof.Proof.AlgLeaky

namespace Cert.Algebra

open Finset Idealize.ShloMosaic Cert.Spec

/-- The literals of the specification, as reals. -/
theorem n256_eq : n256 = ((256 : ℝ) : EReal) := ofBits_256
theorem z0_eq : z0 = 0 := ofBits_zero
theorem eps_pos_real' : ∃ r : ℝ, 0 < r ∧ eps = (r : EReal) := eps_pos_real
theorem slope_real' : ∃ r : ℝ, slope = (r : EReal) := slope_real

/-- The two means are the same sum (no hypothesis on the entries). -/
theorem meanK_eq_meanR (x : Fin 4 → Fin 64 → EReal) : meanK x = meanR x := by
  unfold meanK meanR
  rw [Fintype.sum_prod_type' x]

/-- The two variances agree on real entries. -/
theorem varK_eq_varR (x : Fin 4 → Fin 64 → EReal) (hx : ∀ b g, ∃ r : ℝ, x b g = (r : EReal)) : varK x = varR x := by
  have h := var_eq_4x64 x hx n256 n256_eq
  unfold varK varR
  rw [← meanK_eq_meanR x, z0_eq]
  unfold meanK
  simp only [Fintype.sum_prod_type]
  exact h

/-- The two normalised values agree on real entries (γ and β arbitrary). -/
theorem normK_eq_normR (x : Fin 4 → Fin 64 → EReal) (hx : ∀ b g, ∃ r : ℝ, x b g = (r : EReal)) (γ β : EReal)
    (b : Fin 4) (g : Fin 64) : normK x γ β b g = normR x γ β b g := by
  unfold normK normR
  rw [meanK_eq_meanR x, varK_eq_varR x hx]

/-- The two rectifiers agree at every extended real. -/
theorem leakyK_eq_leakyR (y : EReal) : leakyK y = leakyR y := leaky_select_eq y slope z0 z0_eq

/-- THE NODE: the kernel's normalisation and rectifier equal the reference's on real entries; the scale and the shift
    may be any extended reals. -/
theorem bnK_eq_bnR (x : Fin 4 → Fin 64 → EReal) (hx : ∀ b g, ∃ r : ℝ, x b g = (r : EReal)) (γ β : EReal)
    (b : Fin 4) (g : Fin 64) : bnK x γ β b g = bnR x γ β b g := by
  unfold bnK bnR
  rw [normK_eq_normR x hx, leakyK_eq_leakyR]

/-- The kernel's mean is a real. -/
theorem meanK_real (x : Fin 4 → Fin 64 → EReal) (hx : ∀ b g, ∃ r : ℝ, x b g = (r : EReal)) :
    ∃ m : ℝ, meanK x = (m : EReal) := mean_real_4x64 x hx n256 n256_eq

/-- The kernel's variance is a real that is not negative. -/
theorem varK_real_nonneg (x : Fin 4 → Fin 64 → EReal) (hx : ∀ b g, ∃ r : ℝ, x b g = (r : EReal)) :
    ∃ v : ℝ, 0 ≤ v ∧ varK x = (v : EReal) := by
  have h := one_pass_real_nonneg_4x64 x hx n256 n256_eq
  unfold varK meanK
  rw [z0_eq]
  exact h

/-- The reciprocal square root of the variance plus ε is a positive real. -/
theorem invK_pos_real (x : Fin 4 → Fin 64 → EReal) (hx : ∀ b g, ∃ r : ℝ, x b g = (r : EReal)) :
    ∃ r : ℝ, 0 < r ∧ Ideal.rsqrt (varK x + eps) = (r : EReal) :=
  rsqrt_pos_real (add_pos_real (varK_real_nonneg x hx) eps_pos_real')

/-- The kernel's normalised value is a real. -/
theorem normK_real (x : Fin 4 → Fin 64 → EReal) (hx : ∀ b g, ∃ r : ℝ, x b g = (r : EReal)) (γ β : EReal)
    (hγ : ∃ r : ℝ, γ = (r : EReal)) (hβ : ∃ r : ℝ, β = (r : EReal)) (b : Fin 4) (g : Fin 64) :
    ∃ r : ℝ, normK x γ β b g = (r : EReal) := by
  obtain ⟨i, _, hi⟩ := invK_pos_real x hx
  exact normed_real hγ (hx b g) (meanK_real x hx) ⟨i, hi⟩ hβ

/-- THE NODE's value is a real. -/
theorem bnK_real (x : Fin 4 → Fin 64 → EReal) (hx : ∀ b g, ∃ r : ℝ, x b g = (r : EReal)) (γ β : EReal)
    (hγ : ∃ r : ℝ, γ = (r : EReal)) (hβ : ∃ r : ℝ, β = (r : EReal)) (b : Fin 4) (g : Fin 64) :
    ∃ r : ℝ, bnK x γ β b g = (r : EReal) :=
  leaky_real _ (normK_real x hx γ β hγ hβ b g) slope_real'

/-- So is the reference's: it is the same number. -/
theorem bnR_real (x : Fin 4 → Fin 64 → EReal) (hx : ∀ b g, ∃ r : ℝ, x b g = (r : EReal)) (γ β : EReal)
    (hγ : ∃ r : ℝ, γ = (r : EReal)) (hβ : ∃ r : ℝ, β = (r : EReal)) (b : Fin 4) (g : Fin 64) :
    ∃ r : ℝ, bnR x γ β b g = (r : EReal) := by
  rw [← bnK_eq_bnR x hx]; exact bnK_real x hx γ β hγ hβ b g

end Cert.Algebra
-- ==== Proof.AlgConcat.lean ====
/-
  A product with four blocks laid side by side. A row of length 4·K that consists of four blocks of length K, multiplied
  entry by entry with a column laid out the same way and summed, is the sum of the four blocks' own products, added from
  the left. Only commutativity and associativity of the sum are used, so the law holds on all extended reals.
-/
import Idealize.ShloMosaic.PureOps.Ideal
import Mathlib.Algebra.BigOperators.Fin
import Mathlib.Logic.Equiv.Fin.Basic
import Mathlib.Tactic

namespace Cert.Algebra

open Finset

/-- The position i·K + f of a row of length 4·K, as the image of the pair (i, f). -/
theorem finProdFinEquiv_val_mul_add {K : ℕ} (i : Fin 4) (f : Fin K) :
    (finProdFinEquiv (i, f) : Fin (4 * K)).val = i.val * K + f.val := by
  simp [finProdFinEquiv, Nat.mul_comm, Nat.add_comm]

/-- A sum over the 4·K positions is the sum over the four blocks of the sums over each block. -/
theorem sum_blocks {K : ℕ} (g : Fin (4 * K) → EReal) :
    ∑ j : Fin (4 * K), g j = ∑ i : Fin 4, ∑ f : Fin K, g (finProdFinEquiv (i, f)) := by
  rw [← Equiv.sum_comp finProdFinEquiv, Fintype.sum_prod_type]

/-- The concatenated product: if position i·K + f of `cat` holds `h i f` and position i·K + f of `Wcat` holds
    `W i f`, the product summed over all 4·K positions is the four blocks' products, added from the left. -/
theorem concat_dot {n K : ℕ} (hn : n = 4 * K) (cat Wcat : Fin n → EReal) (h W : Fin 4 → Fin K → EReal)
    (hcat : ∀ (i : Fin 4) (f : Fin K) (j : Fin n), j.val = i.val * K + f.val → cat j = h i f)
    (hW : ∀ (i : Fin 4) (f : Fin K) (j : Fin n), j.val = i.val * K + f.val → Wcat j = W i f) :
    ∑ j : Fin n, cat j * Wcat j
      = ((∑ f : Fin K, h 0 f * W 0 f + ∑ f : Fin K, h 1 f * W 1 f) + ∑ f : Fin K, h 2 f * W 2 f)
          + ∑ f : Fin K, h 3 f * W 3 f := by
  subst hn
  have e : ∀ (i : Fin 4) (f : Fin K),
      cat (finProdFinEquiv (i, f)) * Wcat (finProdFinEquiv (i, f)) = h i f * W i f := fun i f => by
    rw [hcat i f _ (finProdFinEquiv_val_mul_add i f), hW i f _ (finProdFinEquiv_val_mul_add i f)]
  rw [sum_blocks, Fin.sum_univ_four]
  simp only [e]

/-- The same with the blocks read off the row itself: `h i f` is the entry at position i·K + f. -/
theorem concat_dot' {n K : ℕ} (hn : n = 4 * K) (cat Wcat : Fin n → EReal) :
    ∑ j : Fin n, cat j * Wcat j
      = ((∑ f : Fin K, cat ⟨(0 : Fin 4).val * K + f.val, by have := f.isLt; simp; omega⟩
              * Wcat ⟨(0 : Fin 4).val * K + f.val, by have := f.isLt; simp; omega⟩
          + ∑ f : Fin K, cat ⟨(1 : Fin 4).val * K + f.val, by have := f.isLt; simp; omega⟩
              * Wcat ⟨(1 : Fin 4).val * K + f.val, by have := f.isLt; simp; omega⟩)
          + ∑ f : Fin K, cat ⟨(2 : Fin 4).val * K + f.val, by have := f.isLt; simp; omega⟩
              * Wcat ⟨(2 : Fin 4).val * K + f.val, by have := f.isLt; simp; omega⟩)
          + ∑ f : Fin K, cat ⟨(3 : Fin 4).val * K + f.val, by have := f.isLt; simp; omega⟩
              * Wcat ⟨(3 : Fin 4).val * K + f.val, by have := f.isLt; simp; omega⟩ := by
  have hb : ∀ (i : Fin 4) (f : Fin K), i.val * K + f.val < n := fun i f => by
    have := f.isLt; have := i.isLt; subst hn; nlinarith
  exact concat_dot hn cat Wcat (fun i f => cat ⟨i.val * K + f.val, hb i f⟩) (fun i f => Wcat ⟨i.val * K + f.val, hb i f⟩)
    (fun i f j hj => congrArg cat (Fin.ext hj)) (fun i f j hj => congrArg Wcat (Fin.ext hj))

/-- At the three sizes the network uses, the statement's index types are the literal ones. -/
example (cat Wcat : Fin 16 → EReal) (h W : Fin 4 → Fin 4 → EReal)
    (hcat : ∀ (i : Fin 4) (f : Fin 4) (j : Fin 16), j.val = i.val * 4 + f.val → cat j = h i f)
    (hW : ∀ (i : Fin 4) (f : Fin 4) (j : Fin 16), j.val = i.val * 4 + f.val → Wcat j = W i f) :
    ∑ j : Fin 16, cat j * Wcat j
      = ((∑ f : Fin 4, h 0 f * W 0 f + ∑ f : Fin 4, h 1 f * W 1 f) + ∑ f : Fin 4, h 2 f * W 2 f)
          + ∑ f : Fin 4, h 3 f * W 3 f :=
  concat_dot (by norm_num) cat Wcat h W hcat hW

example (cat Wcat : Fin 256 → EReal) (h W : Fin 4 → Fin 64 → EReal)
    (hcat : ∀ (i : Fin 4) (f : Fin 64) (j : Fin 256), j.val = i.val * 64 + f.val → cat j = h i f)
    (hW : ∀ (i : Fin 4) (f : Fin 64) (j : Fin 256), j.val = i.val * 64 + f.val → Wcat j = W i f) :
    ∑ j : Fin 256, cat j * Wcat j
      = ((∑ f : Fin 64, h 0 f * W 0 f + ∑ f : Fin 64, h 1 f * W 1 f) + ∑ f : Fin 64, h 2 f * W 2 f)
          + ∑ f : Fin 64, h 3 f * W 3 f :=
  concat_dot (by norm_num) cat Wcat h W hcat hW

end Cert.Algebra
-- ==== Proof.AlgReal.lean ====
/-
  Closure of "is a real" under the operations of the two programs, read at the ideal instance: sums, products,
  differences, maxima and minima, a select, a quotient by a real that is not zero, the reciprocal square root of a real
  kept above a positive floor, a finite sum of products (a matrix product's entry, with or without an accumulator), and
  an accumulating scatter's entry. "x is a real" is spelt: there is a real r with x = r. Each fact is stated for the
  extended reals' own operations and again under the instance's field names, which are those operations by definition.
-/
import Idealize.ShloMosaic.PureOps.Ideal
import Idealize.ShloMosaic.PureOps.Ideal.Laws
import Mathlib.Tactic
import proofs.«159603_j71347996721325_2_alg».proof.Proof.LibRealSums
import proofs.«159603_j71347996721325_2_alg».proof.Proof.AlgVariance
import proofs.«159603_j71347996721325_2_alg».proof.Proof.AlgLeaky

namespace Cert.Algebra

open Finset Idealize.ShloMosaic

/-! ### The extended reals' own operations -/

/-- The minimum of two reals is a real. -/
theorem min_real {a b : EReal} (ha : ∃ r : ℝ, a = (r : EReal)) (hb : ∃ r : ℝ, b = (r : EReal)) :
    ∃ r : ℝ, min a b = (r : EReal) := by
  rcases min_choice a b with h | h <;> rw [h] <;> assumption

/-- The negation of a real is a real. -/
theorem neg_real {a : EReal} (ha : ∃ r : ℝ, a = (r : EReal)) : ∃ r : ℝ, -a = (r : EReal) := by
  obtain ⟨x, rfl⟩ := ha; exact ⟨-x, (EReal.coe_neg x).symm⟩

/-- Zero and one are reals. -/
theorem zero_real' : ∃ r : ℝ, (0 : EReal) = (r : EReal) := ⟨0, EReal.coe_zero.symm⟩
theorem one_real : ∃ r : ℝ, (1 : EReal) = (r : EReal) := ⟨1, EReal.coe_one.symm⟩

/-- A real divided by a real that is not zero is a real. -/
theorem div_real {a c : EReal} (ha : ∃ r : ℝ, a = (r : EReal)) (hc : ∃ r : ℝ, r ≠ 0 ∧ c = (r : EReal)) :
    ∃ r : ℝ, Ideal.div a c = (r : EReal) := by
  obtain ⟨x, rfl⟩ := ha; obtain ⟨n, hn, rfl⟩ := hc
  exact ⟨x / n, div_coe_coe x n hn⟩

/-- A positive real is a real, and is not zero. -/
theorem real_of_pos_real {a : EReal} (ha : ∃ r : ℝ, 0 < r ∧ a = (r : EReal)) : ∃ r : ℝ, a = (r : EReal) := by
  obtain ⟨r, _, h⟩ := ha; exact ⟨r, h⟩
theorem ne_zero_of_pos_real {a : EReal} (ha : ∃ r : ℝ, 0 < r ∧ a = (r : EReal)) :
    ∃ r : ℝ, r ≠ 0 ∧ a = (r : EReal) := by
  obtain ⟨r, hr, h⟩ := ha; exact ⟨r, hr.ne', h⟩

/-- A real kept above a positive floor is a positive real. -/
theorem max_floor_pos_real {d t : EReal} (hd : ∃ r : ℝ, d = (r : EReal)) (ht : ∃ r : ℝ, 0 < r ∧ t = (r : EReal)) :
    ∃ r : ℝ, 0 < r ∧ max d t = (r : EReal) := by
  obtain ⟨x, rfl⟩ := hd; obtain ⟨y, hy, rfl⟩ := ht
  exact ⟨max x y, lt_max_of_lt_right hy, (coe_max x y).symm⟩

/-- The reciprocal square root of a real kept above a positive floor is a (positive) real. -/
theorem rsqrt_max_floor_pos_real {d t : EReal} (hd : ∃ r : ℝ, d = (r : EReal))
    (ht : ∃ r : ℝ, 0 < r ∧ t = (r : EReal)) : ∃ r : ℝ, 0 < r ∧ Ideal.rsqrt (max d t) = (r : EReal) :=
  rsqrt_pos_real (max_floor_pos_real hd ht)

theorem rsqrt_max_floor_real {d t : EReal} (hd : ∃ r : ℝ, d = (r : EReal)) (ht : ∃ r : ℝ, 0 < r ∧ t = (r : EReal)) :
    ∃ r : ℝ, Ideal.rsqrt (max d t) = (r : EReal) :=
  real_of_pos_real (rsqrt_max_floor_pos_real hd ht)

/-- The reciprocal square root of a positive real is a real. -/
theorem rsqrt_real_of_pos {a : EReal} (ha : ∃ r : ℝ, 0 < r ∧ a = (r : EReal)) : ∃ r : ℝ, Ideal.rsqrt a = (r : EReal) :=
  real_of_pos_real (rsqrt_pos_real ha)

/-- A finite sum of products of reals is a real. -/
theorem sum_mul_real {ι : Type*} (s : Finset ι) (f g : ι → EReal) (hf : ∀ i ∈ s, ∃ r : ℝ, f i = (r : EReal))
    (hg : ∀ i ∈ s, ∃ r : ℝ, g i = (r : EReal)) : ∃ r : ℝ, ∑ i ∈ s, f i * g i = (r : EReal) :=
  sum_real s _ fun i hi => mul_real (hf i hi) (hg i hi)

/-- … over a whole finite index type (a matrix product's entry onto a zero accumulator). -/
theorem dot_real {ι : Type*} [Fintype ι] (f g : ι → EReal) (hf : ∀ i, ∃ r : ℝ, f i = (r : EReal))
    (hg : ∀ i, ∃ r : ℝ, g i = (r : EReal)) : ∃ r : ℝ, ∑ i, f i * g i = (r : EReal) :=
  sum_mul_real Finset.univ f g (fun i _ => hf i) (fun i _ => hg i)

/-- … and onto a real accumulator. -/
theorem acc_dot_real {ι : Type*} [Fintype ι] {a : EReal} (f g : ι → EReal) (ha : ∃ r : ℝ, a = (r : EReal))
    (hf : ∀ i, ∃ r : ℝ, f i = (r : EReal)) (hg : ∀ i, ∃ r : ℝ, g i = (r : EReal)) :
    ∃ r : ℝ, a + ∑ i, f i * g i = (r : EReal) :=
  add_real ha (dot_real f g hf hg)

/-- A real plus a finite sum of reals over any set of indices is a real (an accumulating scatter's entry, a host sum from
    its initial value). -/
theorem add_sum_real {ι : Type*} {a : EReal} (s : Finset ι) (u : ι → EReal) (ha : ∃ r : ℝ, a = (r : EReal))
    (hu : ∀ i ∈ s, ∃ r : ℝ, u i = (r : EReal)) : ∃ r : ℝ, a + ∑ i ∈ s, u i = (r : EReal) :=
  add_real ha (sum_real s u hu)

/-- A finite sum of reals over a whole index type is a real. -/
theorem fsum_real {ι : Type*} [Fintype ι] (f : ι → EReal) (hf : ∀ i, ∃ r : ℝ, f i = (r : EReal)) :
    ∃ r : ℝ, ∑ i, f i = (r : EReal) :=
  sum_real Finset.univ f fun i _ => hf i

/-- A double sum of reals is a real. -/
theorem sum_sum_real {ι κ : Type*} [Fintype ι] [Fintype κ] (f : ι → κ → EReal)
    (hf : ∀ i k, ∃ r : ℝ, f i k = (r : EReal)) : ∃ r : ℝ, ∑ i, ∑ k, f i k = (r : EReal) :=
  fsum_real _ fun i => fsum_real _ (hf i)

/-- The output stage: a product plus a term, times a mask, kept between two bounds, is a real when all six are. -/
theorem clamp_real {x s m k lo hi : EReal} (hx : ∃ r : ℝ, x = (r : EReal)) (hs : ∃ r : ℝ, s = (r : EReal))
    (hm : ∃ r : ℝ, m = (r : EReal)) (hk : ∃ r : ℝ, k = (r : EReal)) (hlo : ∃ r : ℝ, lo = (r : EReal))
    (hhi : ∃ r : ℝ, hi = (r : EReal)) : ∃ r : ℝ, min (max ((x * s + m) * k) lo) hi = (r : EReal) :=
  min_real (max_real (mul_real (add_real (mul_real hx hs) hm) hk) hlo) hhi

/-! ### Under the instance's field names (the same operations, by definition) -/

section Fields
variable {x y : Ideal .f32}

theorem mulf_real (hx : ∃ r : ℝ, x = (r : EReal)) (hy : ∃ r : ℝ, y = (r : EReal)) :
    ∃ r : ℝ, (FloatOps.mulf x y : Ideal .f32) = (r : EReal) := mul_real hx hy
theorem addf_real (hx : ∃ r : ℝ, x = (r : EReal)) (hy : ∃ r : ℝ, y = (r : EReal)) :
    ∃ r : ℝ, (FloatOps.addf x y : Ideal .f32) = (r : EReal) := add_real hx hy
theorem subf_real (hx : ∃ r : ℝ, x = (r : EReal)) (hy : ∃ r : ℝ, y = (r : EReal)) :
    ∃ r : ℝ, (FloatOps.subf x y : Ideal .f32) = (r : EReal) := sub_real hx hy
theorem maximumf_real (hx : ∃ r : ℝ, x = (r : EReal)) (hy : ∃ r : ℝ, y = (r : EReal)) :
    ∃ r : ℝ, (FloatOps.maximumf x y : Ideal .f32) = (r : EReal) := max_real hx hy
theorem minimumf_real (hx : ∃ r : ℝ, x = (r : EReal)) (hy : ∃ r : ℝ, y = (r : EReal)) :
    ∃ r : ℝ, (FloatOps.minimumf x y : Ideal .f32) = (r : EReal) := min_real hx hy
theorem divf_real (hx : ∃ r : ℝ, x = (r : EReal)) (hy : ∃ r : ℝ, r ≠ 0 ∧ y = (r : EReal)) :
    ∃ r : ℝ, (FloatOps.divf x y : Ideal .f32) = (r : EReal) := div_real hx hy
theorem hostDivf_real (hx : ∃ r : ℝ, x = (r : EReal)) (hy : ∃ r : ℝ, r ≠ 0 ∧ y = (r : EReal)) :
    ∃ r : ℝ, (FloatOps.hostDivf x y : Ideal .f32) = (r : EReal) := div_real hx hy
theorem rsqrtf_real_of_pos (hx : ∃ r : ℝ, 0 < r ∧ x = (r : EReal)) :
    ∃ r : ℝ, (FloatOps.rsqrt x : Ideal .f32) = (r : EReal) := rsqrt_real_of_pos hx
theorem hostRsqrt_real_of_pos (hx : ∃ r : ℝ, 0 < r ∧ x = (r : EReal)) :
    ∃ r : ℝ, (FloatOps.hostUnary .rsqrt x : Ideal .f32) = (r : EReal) := rsqrt_real_of_pos hx
theorem hostRsqrt_maximumf_floor_real (hx : ∃ r : ℝ, x = (r : EReal)) (hy : ∃ r : ℝ, 0 < r ∧ y = (r : EReal)) :
    ∃ r : ℝ, (FloatOps.hostUnary .rsqrt (FloatOps.maximumf x y) : Ideal .f32) = (r : EReal) :=
  rsqrt_max_floor_real hx hy
theorem selectf_real (c : BitVec 1) (hx : ∃ r : ℝ, x = (r : EReal)) (hy : ∃ r : ℝ, y = (r : EReal)) :
    ∃ r : ℝ, (Scalar.select c x y : Ideal .f32) = (r : EReal) := select_real c hx hy

end Fields

end Cert.Algebra
-- ==== Proof.AlgNode.lean ====
/-
  One node of a hidden layer, the two programs side by side. The kernel's pre-activation at (batch `b'`, feature `g'`) is the
  node's row of the four hop arrays laid side by side, times the stacked weights' column, plus the bias; the reference's is the
  four hops' products with their own slices of the weights, added left to right, plus the bias. The first is the second by
  splitting a sum over 4·K indices into four sums over K. The entries are real when the hop arrays, the weights and the bias
  are, so the kernel's one-pass normalisation and rectifier of them is the reference's two-pass one, and it is real.
-/
import proofs.«159603_j71347996721325_2_alg».proof.Proof.Spec
import proofs.«159603_j71347996721325_2_alg».proof.Proof.AlgBN
import proofs.«159603_j71347996721325_2_alg».proof.Proof.AlgConcat
import proofs.«159603_j71347996721325_2_alg».proof.Proof.AlgReal
import proofs.«159603_j71347996721325_2_alg».proof.Proof.LibRealSums

noncomputable section

namespace Cert.Algebra

open Cert.Spec

/-- The reference's pre-activation: four products added left to right, then the bias. -/
def pre4 {K G : ℕ} (h : Fin 4 → Fin 4 → Fin K → EReal) (W : Fin 4 → Fin K → Fin G → EReal) (bias : Fin G → EReal)
    (b' : Fin 4) (g' : Fin G) : EReal :=
  ((((∑ f : Fin K, h 0 b' f * W 0 f g') + ∑ f : Fin K, h 1 b' f * W 1 f g') + ∑ f : Fin K, h 2 b' f * W 2 f g')
    + ∑ f : Fin K, h 3 b' f * W 3 f g') + bias g'

theorem pre4_real {K G : ℕ} (h : Fin 4 → Fin 4 → Fin K → EReal) (W : Fin 4 → Fin K → Fin G → EReal) (bias : Fin G → EReal)
    (hh : ∀ i b' f, ∃ r : ℝ, h i b' f = (r : EReal)) (hW : ∀ i f g', ∃ r : ℝ, W i f g' = (r : EReal))
    (hb : ∀ g', ∃ r : ℝ, bias g' = (r : EReal)) (b' : Fin 4) (g' : Fin G) : ∃ r : ℝ, pre4 h W bias b' g' = (r : EReal) := by
  unfold pre4
  have d : ∀ i : Fin 4, ∃ r : ℝ, (∑ f : Fin K, h i b' f * W i f g') = (r : EReal) :=
    fun i => dot_real (fun f => h i b' f) (fun f => W i f g') (fun f => hh i b' f) (fun f => hW i f g')
  exact add_real (add_real (add_real (add_real (d 0) (d 1)) (d 2)) (d 3)) (hb g')

/-- The kernel's pre-activation over the concatenated row is the reference's. -/
theorem cat_pre_eq {n K G : ℕ} (hn : n = 4 * K) (cat : Fin 4 → Fin n → EReal) (Wc : Fin n → Fin G → EReal)
    (h : Fin 4 → Fin 4 → Fin K → EReal) (W : Fin 4 → Fin K → Fin G → EReal) (bias : Fin G → EReal)
    (hcat : ∀ (b' : Fin 4) (i : Fin 4) (f : Fin K) (j : Fin n), j.val = i.val * K + f.val → cat b' j = h i b' f)
    (hWc : ∀ (i : Fin 4) (f : Fin K) (j : Fin n) (g' : Fin G), j.val = i.val * K + f.val → Wc j g' = W i f g') :
    (fun (b' : Fin 4) (g' : Fin G) => (∑ j : Fin n, cat b' j * Wc j g') + bias g') = pre4 h W bias := by
  funext b' g'
  unfold pre4
  rw [concat_dot hn (cat b') (fun j => Wc j g') (fun i f => h i b' f) (fun i f => W i f g')
    (fun i f j e => hcat b' i f j e) (fun i f j e => hWc i f j g' e)]

/-- The last layer's tail: rescale, shift, mask, clamp. The kernel writes the clamp as min hi (max lo y), the reference
    as min (max y lo) hi. -/
theorem clamp_comm (y lo hi : EReal) : min hi (max lo y) = min (max y lo) hi := by rw [min_comm, max_comm]

/-- One node of a hidden layer: the kernel's value is the reference's. -/
theorem node_bridge {n K : ℕ} (hn : n = 4 * K) (cat : Fin 4 → Fin n → EReal) (Wc : Fin n → Fin 64 → EReal)
    (h : Fin 4 → Fin 4 → Fin K → EReal) (W : Fin 4 → Fin K → Fin 64 → EReal) (bias : Fin 64 → EReal) (γ β : EReal)
    (hcat : ∀ (b' : Fin 4) (i : Fin 4) (f : Fin K) (j : Fin n), j.val = i.val * K + f.val → cat b' j = h i b' f)
    (hWc : ∀ (i : Fin 4) (f : Fin K) (j : Fin n) (g' : Fin 64), j.val = i.val * K + f.val → Wc j g' = W i f g')
    (hh : ∀ i b' f, ∃ r : ℝ, h i b' f = (r : EReal)) (hW : ∀ i f g', ∃ r : ℝ, W i f g' = (r : EReal))
    (hb : ∀ g', ∃ r : ℝ, bias g' = (r : EReal)) (b : Fin 4) (g : Fin 64) :
    bnK (fun b' g' => (∑ j : Fin n, cat b' j * Wc j g') + bias g') γ β b g = bnR (pre4 h W bias) γ β b g := by
  rw [cat_pre_eq hn cat Wc h W bias hcat hWc]
  exact bnK_eq_bnR _ (fun b' g' => pre4_real h W bias hh hW hb b' g') γ β b g

/-- and it is a real when the scale and the shift are. -/
theorem node_real {K : ℕ} (h : Fin 4 → Fin 4 → Fin K → EReal) (W : Fin 4 → Fin K → Fin 64 → EReal) (bias : Fin 64 → EReal) (γ β : EReal)
    (hh : ∀ i b' f, ∃ r : ℝ, h i b' f = (r : EReal)) (hW : ∀ i f g', ∃ r : ℝ, W i f g' = (r : EReal))
    (hb : ∀ g', ∃ r : ℝ, bias g' = (r : EReal)) (hγ : ∃ r : ℝ, γ = (r : EReal)) (hβ : ∃ r : ℝ, β = (r : EReal))
    (b : Fin 4) (g : Fin 64) : ∃ r : ℝ, bnR (pre4 h W bias) γ β b g = (r : EReal) :=
  bnR_real _ (fun b' g' => pre4_real h W bias hh hW hb b' g') γ β hγ hβ b g

end Cert.Algebra

end
-- ==== Proof.AlgRealHost.lean ====
/-
  "Every entry is a real" through the host's whole-array operations, read at the ideal instance. A gather, a broadcast,
  a reshape and a concatenation only pick entries of their operands, so they keep the property whatever the indices
  are; the pointwise operations keep it entry by entry; an accumulating scatter's entry is the operand's entry plus a
  finite sum of updates, a real when all of them are; and the reciprocal square root of a degree kept above a positive
  floor is the reciprocal square root of a positive real.
-/
import Idealize.ShloMosaic.PureOps.Ideal
import Idealize.ShloMosaic.PureOps.Ideal.Laws
import Idealize.ShloMosaic.Lib.ValueIdx
import Mathlib.Tactic
import proofs.«159603_j71347996721325_2_alg».proof.Proof.LibRealSums
import proofs.«159603_j71347996721325_2_alg».proof.Proof.AlgReal
import proofs.«159603_j71347996721325_2_alg».proof.Proof.AlgConsts

namespace Cert.Algebra

open Finset Idealize.ShloMosaic

/-- Every entry of the array is a real. -/
def AllReal {S : Shape} (f : S.Idx → EReal) : Prop := ∀ i, ∃ r : ℝ, f i = (r : EReal)

/-- Every entry of the array is a positive real. -/
def AllPosReal {S : Shape} (f : S.Idx → EReal) : Prop := ∀ i, ∃ r : ℝ, 0 < r ∧ f i = (r : EReal)

theorem allPosReal_allReal {S : Shape} {f : S.Idx → EReal} (h : AllPosReal f) : AllReal f :=
  fun i => real_of_pos_real (h i)

/-! ### Operations that only pick entries -/

/-- Reading an array through any map of indices keeps the property. -/
theorem allReal_reindex {S T : Shape} {x : S.Idx → EReal} (hx : AllReal x) (f : T.Idx → S.Idx) :
    AllReal (fun j => x (f j)) := fun j => hx (f j)

theorem allPosReal_reindex {S T : Shape} {x : S.Idx → EReal} (hx : AllPosReal x) (f : T.Idx → S.Idx) :
    AllPosReal (fun j => x (f j)) := fun j => hx (f j)

/-- A gather picks entries of its operand (out-of-range starts are clamped to entries of it), for every record of
    dimension numbers and every array of start indices. -/
theorem allReal_gather {s si t : Shape} {w : Nat} (d : GatherDims s si t) {x : s.Idx → EReal} (hx : AllReal x)
    (idx : IVec si w) : AllReal (Host.gather d x idx) := fun j => hx (d.operandIdx j idx)

/-- A broadcast along named axes picks entries of its operand. -/
theorem allReal_broadcastInDim {s t : Shape} (dims : Fin s.rank → Fin t.rank) (h : s.BroadcastsInDim t dims)
    {x : s.Idx → EReal} (hx : AllReal x) : AllReal (broadcastInDim t dims h x) := by
  intro j; unfold Idealize.ShloMosaic.broadcastInDim; exact hx _

theorem allPosReal_broadcastInDim {s t : Shape} (dims : Fin s.rank → Fin t.rank) (h : s.BroadcastsInDim t dims)
    {x : s.Idx → EReal} (hx : AllPosReal x) : AllPosReal (broadcastInDim t dims h x) := by
  intro j; unfold Idealize.ShloMosaic.broadcastInDim; exact hx _

/-- A reshape holds the same entries in row-major order. -/
theorem allReal_shapeCast {s t : Shape} (h : s.ShapeCasts t) {x : s.Idx → EReal} (hx : AllReal x) :
    AllReal (shapeCast t x h) := by
  intro j; unfold Idealize.ShloMosaic.shapeCast; exact hx _

/-- A scalar broadcast to a shape. -/
theorem allReal_broadcast (t : Shape) {x : EReal} (hx : ∃ r : ℝ, x = (r : EReal)) : AllReal (broadcast t x) :=
  fun _ => hx

/-- A concatenation picks, at each index, an entry of one of its pieces. -/
theorem allReal_concatenate (t : Shape) (a : Fin t.rank) (xs : List ((s : Shape) × (s.Idx → EReal)))
    (h : Shape.Concatenates (xs.map (·.1)) t a) (hxs : ∀ p ∈ xs, ∀ i, ∃ r : ℝ, p.2 i = (r : EReal)) :
    AllReal (concatenate t a xs h) := by
  intro j
  unfold Idealize.ShloMosaic.concatenate
  exact hxs _ (List.getElem_mem _) _

/-- The four-piece concatenation as the programs print it. -/
theorem allReal_concatenate4 (t : Shape) (a : Fin t.rank) (s0 s1 s2 s3 : Shape) {u0 : s0.Idx → EReal}
    {u1 : s1.Idx → EReal} {u2 : s2.Idx → EReal} {u3 : s3.Idx → EReal}
    (h : Shape.Concatenates (List.map (·.1) ([⟨s0, u0⟩, ⟨s1, u1⟩, ⟨s2, u2⟩, ⟨s3, u3⟩] : List ((s : Shape) × (s.Idx → EReal)))) t a)
    (h0 : AllReal u0) (h1 : AllReal u1) (h2 : AllReal u2) (h3 : AllReal u3) :
    AllReal (concatenate t a [⟨s0, u0⟩, ⟨s1, u1⟩, ⟨s2, u2⟩, ⟨s3, u3⟩] h) := by
  refine allReal_concatenate t a _ h fun p hp => ?_
  simp only [List.mem_cons, List.not_mem_nil, or_false] at hp
  rcases hp with rfl | rfl | rfl | rfl
  · exact h0
  · exact h1
  · exact h2
  · exact h3

/-! ### Constants -/

/-- A splat constant whose pattern denotes a real. -/
theorem allReal_constant (S : Shape) (w : BitVec 32) (hw : ∃ r : ℝ, Ideal.ofBits .f32 w = (r : EReal)) :
    AllReal (constant (F := Ideal) S .f32 w) := fun _ => hw

theorem allPosReal_constant (S : Shape) (w : BitVec 32) (hw : ∃ r : ℝ, 0 < r ∧ Ideal.ofBits .f32 w = (r : EReal)) :
    AllPosReal (constant (F := Ideal) S .f32 w) := fun _ => hw

/-! ### Pointwise operations -/

section Pointwise
variable {S : Shape} {a b : FVec Ideal S .f32}

theorem allReal_mulf (ha : AllReal a) (hb : AllReal b) : AllReal (mulf a b) := fun i => mul_real (ha i) (hb i)
theorem allReal_addf (ha : AllReal a) (hb : AllReal b) : AllReal (addf a b) := fun i => add_real (ha i) (hb i)
theorem allReal_subf (ha : AllReal a) (hb : AllReal b) : AllReal (subf a b) := fun i => sub_real (ha i) (hb i)
theorem allReal_maximumf (ha : AllReal a) (hb : AllReal b) : AllReal (maximumf a b) := fun i => max_real (ha i) (hb i)
theorem allReal_minimumf (ha : AllReal a) (hb : AllReal b) : AllReal (minimumf a b) := fun i => min_real (ha i) (hb i)

/-- A select between two arrays of reals, whatever the condition array. -/
theorem allReal_select (c : IVec S 1) (ha : AllReal a) (hb : AllReal b) : AllReal (select c a b) :=
  fun i => select_real (c i) (ha i) (hb i)

/-- A quotient by an array of reals none of which is zero. -/
theorem allReal_hostDivf (ha : AllReal a) (hb : ∀ i, ∃ r : ℝ, r ≠ 0 ∧ b i = (r : EReal)) : AllReal (Host.divf a b) :=
  fun i => div_real (ha i) (hb i)

/-- The reciprocal square root of an array of positive reals. -/
theorem allPosReal_hostRsqrt (ha : AllPosReal a) : AllPosReal (Host.rsqrt a) := fun i => rsqrt_pos_real (ha i)

/-- An array of reals kept above an array of positive reals is an array of positive reals. -/
theorem allPosReal_maximumf_floor (ha : AllReal a) (hb : AllPosReal b) : AllPosReal (maximumf a b) :=
  fun i => max_floor_pos_real (ha i) (hb i)

end Pointwise

/-! ### The accumulating scatter -/

/-- An accumulating scatter's entry is the operand's entry plus the finite sum of the updates that land on it: a real
    when the operand and the updates hold reals, for every record of dimension numbers and every array of indices. -/
theorem allReal_scatterAdd {s si u : Shape} {w : Nat} (d : ScatterDims s si u) {x : FVec Ideal s .f32}
    {upd : FVec Ideal u .f32} (hx : AllReal x) (hu : AllReal upd) (idx : IVec si w) :
    AllReal (Host.scatterAdd (F := Ideal) d x idx upd) := by
  intro i
  show ∃ r : ℝ, Ideal.hostScatterAdd d x idx upd i = (r : EReal)
  unfold Ideal.hostScatterAdd
  exact add_sum_real _ upd (hx i) fun j _ => hu j

/-! ### The degree normalisation -/

/-- Where the degree is positive the reciprocal square root of the degree kept above the floor, elsewhere the other
    array: reals throughout, when the degrees and the other array hold reals and the floor is a positive real, whatever
    the condition is. -/
theorem allReal_degree_norm {S : Shape} (c : IVec S 1) {deg floor other : FVec Ideal S .f32} (hd : AllReal deg)
    (hf : AllPosReal floor) (ho : AllReal other) :
    AllReal (select c (Host.rsqrt (maximumf deg floor)) other) :=
  allReal_select c (allPosReal_allReal (allPosReal_hostRsqrt (allPosReal_maximumf_floor hd hf))) ho

/-- The same in the programs' spelling: the floor is the scalar constant 1e-30 broadcast to the degrees' shape, the
    other array the scalar constant zero broadcast likewise; `c` is any condition (the programs' is "degree > 0"). -/
theorem allReal_degree_norm_bcast {S : Shape}
    (hb : (⟨0, ![]⟩ : Shape).BroadcastsInDim S (![] : Fin 0 → Fin S.rank)) (c : IVec S 1) {deg : FVec Ideal S .f32}
    (hd : AllReal deg) :
    AllReal (select c
      (Host.rsqrt (maximumf deg (broadcastInDim S ![] hb (constant (F := Ideal) ⟨0, ![]⟩ .f32 0x0DA24260#32))))
      (broadcastInDim S ![] hb (constant (F := Ideal) ⟨0, ![]⟩ .f32 0x00000000#32))) :=
  allReal_degree_norm c hd (allPosReal_broadcastInDim _ hb (allPosReal_constant _ _ tiny_pos_real))
    (allReal_broadcastInDim _ hb (allReal_constant _ _ zero_real))

/-- A broadcast scalar constant whose pattern denotes a real is an array of reals. -/
theorem allReal_bcast_constant {S : Shape} (hb : (⟨0, ![]⟩ : Shape).BroadcastsInDim S (![] : Fin 0 → Fin S.rank))
    (w : BitVec 32) (hw : ∃ r : ℝ, Ideal.ofBits .f32 w = (r : EReal)) :
    AllReal (broadcastInDim S ![] hb (constant (F := Ideal) ⟨0, ![]⟩ .f32 w)) :=
  allReal_broadcastInDim _ hb (allReal_constant _ _ hw)

/-- The zero array an accumulating scatter starts from. -/
theorem allReal_bcast_zero {S : Shape} (hb : (⟨0, ![]⟩ : Shape).BroadcastsInDim S (![] : Fin 0 → Fin S.rank)) :
    AllReal (broadcastInDim S ![] hb (constant (F := Ideal) ⟨0, ![]⟩ .f32 0x00000000#32)) :=
  allReal_bcast_constant hb _ zero_real

/-! ### At the programs' own shapes and records (the statements above, instantiated) -/

example (d : ScatterDims ⟨1, ![50000]⟩ ⟨2, ![400000, 1]⟩ ⟨1, ![400000]⟩) (x : FVec Ideal ⟨1, ![50000]⟩ .f32)
    (i : IVec ⟨2, ![400000, 1]⟩ 32) (u : FVec Ideal ⟨1, ![400000]⟩ .f32) (hx : AllReal x) (hu : AllReal u) :
    AllReal ((fun x i u => Host.scatterAdd (F := Ideal) d x i u) x i u) := allReal_scatterAdd d hx hu i

example (d : GatherDims ⟨3, ![4, 50000, 64]⟩ ⟨2, ![400000, 1]⟩ ⟨3, ![4, 400000, 64]⟩)
    (x : FVec Ideal ⟨3, ![4, 50000, 64]⟩ .f32) (i : IVec ⟨2, ![400000, 1]⟩ 32) (hx : AllReal x) :
    AllReal ((fun x i => Host.gather d x i) x i) := allReal_gather d hx i

end Cert.Algebra
-- ==== Proof.AlgMean.lean ====
/-
  The sum over the batch and the features of one node, read two ways. One program sums the 64 features of each of the 4
  batches first and then the 4 results; the other sums, in one reduction of a [4, 50000, 64] array over its axes 0 and 2,
  every entry whose middle coordinate is the node. Both are the sum over b and g of the entry at (b, node, g): a finite
  sum on the extended reals may be reordered freely, so nothing about finiteness is needed.
-/
import Idealize.ShloMosaic.PureOps.Ideal
import Idealize.ShloMosaic.PureOps.Ideal.Laws
import Idealize.ShloMosaic.Lib.ValueIdx
import Mathlib.Tactic

namespace Cert.Algebra

open Finset Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Dropping axes 0 and 2 of an index of a [4, 50000, 64] array leaves its middle coordinate. -/
theorem drop_d0_2 (h : (⟨3, ![4, 50000, 64]⟩ : Shape).ReducesTo [0, 2] ⟨1, ![50000]⟩)
    (b : Fin 4) (m : Fin 50000) (g : Fin 64) : h.drop (ix3 b m g) = ix1 m := by
  funext a
  match a with
  | ⟨0, _⟩ => exact Fin.ext (Shape.ReducesTo.drop_apply_val_of_eq h (ix3 b m g) 0 1)

/-- The host's sum of a [4, 50000, 64] array over axes 0 and 2, read at node n: the initial value plus the sum over
    the batch of the sums over the features of the entries at (b, n, g). -/
theorem hostReduceAdd_d0_2 (h : (⟨3, ![4, 50000, 64]⟩ : Shape).ReducesTo [0, 2] ⟨1, ![50000]⟩)
    (x : (⟨3, ![4, 50000, 64]⟩ : Shape).Idx → EReal) (init : EReal) (n : Fin 50000) :
    Ideal.hostReduceAdd h x init (ix1 n) = init + ∑ b : Fin 4, ∑ g : Fin 64, x (ix3 b n g) := by
  unfold Ideal.hostReduceAdd
  refine congrArg (init + ·) ?_
  rw [Finset.sum_filter, sum_idx3]
  refine Finset.sum_congr rfl fun b _ => ?_
  have e : ∀ m : Fin 50000, (∑ g : Fin 64, if h.drop (ix3 b m g) = ix1 n then x (ix3 b m g) else 0)
      = if m = n then ∑ g : Fin 64, x (ix3 b m g) else 0 := fun m => by
    by_cases hm : m = n
    · subst hm
      rw [if_pos rfl]
      exact Finset.sum_congr rfl fun g _ => if_pos (drop_d0_2 h b m g)
    · rw [if_neg hm]
      refine Finset.sum_eq_zero fun g _ => if_neg fun hd => hm ?_
      rw [drop_d0_2 h b m g] at hd
      exact congrFun hd 0
  rw [Finset.sum_congr rfl fun m _ => e m, Finset.sum_ite_eq' Finset.univ n, if_pos (Finset.mem_univ n)]

/-- The same with the 256 entries of the node indexed by the pairs (b, g). -/
theorem hostReduceAdd_d0_2_prod (h : (⟨3, ![4, 50000, 64]⟩ : Shape).ReducesTo [0, 2] ⟨1, ![50000]⟩)
    (x : (⟨3, ![4, 50000, 64]⟩ : Shape).Idx → EReal) (init : EReal) (n : Fin 50000) :
    Ideal.hostReduceAdd h x init (ix1 n) = init + ∑ p : Fin 4 × Fin 64, x (ix3 p.1 n p.2) := by
  rw [hostReduceAdd_d0_2, Fintype.sum_prod_type]

/-- THE MEAN: the batch-then-feature double sum and the sum over the pairs (b, g) are one extended real, so their
    quotients by the same count are equal, whatever the entries and the count are. -/
theorem sum_sum_eq_sum_prod (x : Fin 4 → Fin 64 → EReal) : ∑ b, ∑ g, x b g = ∑ p : Fin 4 × Fin 64, x p.1 p.2 :=
  (Fintype.sum_prod_type' x).symm

theorem mean_eq (x : Fin 4 → Fin 64 → EReal) (c : EReal) :
    Ideal.div (∑ b, ∑ g, x b g) c = Ideal.div (0 + ∑ p : Fin 4 × Fin 64, x p.1 p.2) c := by
  rw [zero_add, sum_sum_eq_sum_prod]

/-- The host operation itself, as a reference program applies it, read at node n through the lemma above. -/
example (h : (⟨3, ![4, 50000, 64]⟩ : Shape).ReducesTo [0, 2] ⟨1, ![50000]⟩) (hu : 0 < (⟨0, ![]⟩ : Shape).numel)
    (x : FVec Ideal ⟨3, ![4, 50000, 64]⟩ .f32) (init : FVec Ideal ⟨0, ![]⟩ .f32) (n : Fin 50000) :
    Host.reduceAdd (F := Ideal) x init h hu (ix1 n)
      = init (Shape.Idx.first hu) + ∑ b : Fin 4, ∑ g : Fin 64, x (ix3 b n g) :=
  hostReduceAdd_d0_2 h x _ n

end Cert.Algebra
-- ==== Proof.LibBcastIdx.lean ====
/-
  A host program's `broadcast_in_dim` READ AT AN INDEX GIVEN BY COORDINATES, general in the extents and in the element type:
  a scalar broadcast to any shape (`broadcastInDim_scalar_apply`), a vector `[N]` set on the middle axis of `[1, N, 1]`
  (`broadcastInDim_b_1b1_apply`), and a column `[1, B, 1]` broadcast to `[A, B, C]` (`broadcastInDim_1b1_abc_apply`): what a
  per-node statistic kept with unit axes goes through before it meets the array it normalises. The axis maps are written over
  the literal ranks (`Fin 1 → Fin 3`, `Fin 3 → Fin 3`), which is how a printed program's terms carry them.
-/
import Idealize.ShloMosaic.Lib.ValueLayout

namespace Cert.LayoutIdx

open Idealize.ShloMosaic Idealize.ShloMosaic.ValueIdx

variable {α : Type}

/-- A scalar broadcast to any shape reads, at every index, the scalar. -/
theorem broadcastInDim_scalar_apply {t : Shape} (dims : Fin (⟨0, ![]⟩ : Shape).rank → Fin t.rank)
    (h : (⟨0, ![]⟩ : Shape).BroadcastsInDim t dims) (c : (⟨0, ![]⟩ : Shape).Idx → α) (j : t.Idx) :
    broadcastInDim t dims h c j = c ix0 :=
  broadcastInDim_apply dims h c j ix0 fun a => a.elim0

/-- An `[N]` array set on the middle axis of `[1, N, 1]` reads, at `(z, n, w)`, the operand at `n`. -/
theorem broadcastInDim_b_1b1_apply {N : ℕ} (v : (⟨1, ![N]⟩ : Shape).Idx → α)
    (h : (⟨1, ![N]⟩ : Shape).BroadcastsInDim ⟨3, ![1, N, 1]⟩ (![1] : Fin 1 → Fin 3)) (z : Fin 1) (n : Fin N) (w : Fin 1) :
    broadcastInDim ⟨3, ![1, N, 1]⟩ (![1] : Fin 1 → Fin 3) h v (ix3 z n w) = v (ix1 n) := by
  refine broadcastInDim_apply _ h v (ix3 z n w) (ix1 n) fun ax => ?_
  match ax with
  | ⟨0, _⟩ =>
    show n.val = if N = 1 then 0 else n.val
    split
    · have := n.isLt; omega
    · rfl

/-- A `[1, B, 1]` array broadcast axis by axis to `[A, B, C]` reads, at `(a, b, c)`, the operand's one column at `b`. -/
theorem broadcastInDim_1b1_abc_apply {A B C : ℕ} (v : (⟨3, ![1, B, 1]⟩ : Shape).Idx → α)
    (h : (⟨3, ![1, B, 1]⟩ : Shape).BroadcastsInDim ⟨3, ![A, B, C]⟩ (![0, 1, 2] : Fin 3 → Fin 3)) (a : Fin A) (b : Fin B)
    (c : Fin C) :
    broadcastInDim ⟨3, ![A, B, C]⟩ (![0, 1, 2] : Fin 3 → Fin 3) h v (ix3 a b c) = v (ix3 (0 : Fin 1) b (0 : Fin 1)) := by
  refine broadcastInDim_apply _ h v (ix3 a b c) (ix3 (0 : Fin 1) b (0 : Fin 1)) fun ax => ?_
  match ax with
  | ⟨0, _⟩ => rfl
  | ⟨1, _⟩ =>
    show b.val = if B = 1 then 0 else b.val
    split
    · have := b.isLt; omega
    · rfl
  | ⟨2, _⟩ => rfl

end Cert.LayoutIdx
-- ==== Proof.RefActIdx.lean ====
/-
  The reference program's batch normalisation and leaky rectifier of a hidden layer, READ AT ONE ENTRY, at the ideal values
  (floats are extended reals). For node `n` the reference sums all 256 entries `x[b, n, g]` in one reduction from the initial
  value zero and divides by 256 (the mean); sums the squared deviations the same way and divides by `256 − 0` (the variance:
  the divisor is the count less the degrees-of-freedom correction, an integer zero converted to a float, and the quotient is
  kept because that divisor is positive); and stores `γ[n] · (x − mean) · (var + ε)^(-1/2) + β[n]` through the rectifier
  with slope 0.01 chosen by `y ≥ 0`. The per-node statistics are kept as `[1, 50000, 1]` arrays and broadcast back. Each
  step is read at an index; the result is the specification's `bnR` of the node's entries, scale and shift.
-/
import proofs.«159603_j71347996721325_2_alg».proof.Proof.RefComp
import proofs.«159603_j71347996721325_2_alg».proof.Proof.Spec
import proofs.«159603_j71347996721325_2_alg».proof.Proof.AlgMean
import proofs.«159603_j71347996721325_2_alg».proof.Proof.AlgConsts
import proofs.«159603_j71347996721325_2_alg».proof.Proof.LibBcastIdx

noncomputable section

open scoped BigOperators

namespace Cert.ReferenceIdeal.RefRun

open Cert.ReferenceIdeal Cert.ReferenceIdeal.Gen Idealize.ShloMosaic Idealize.ShloMosaic.ValueIdx Cert.LayoutIdx

/-! ## The host's pointwise operations and its reduction at an index -/

/-- The host's quotient at an index is the ideal quotient of the elements. -/
private theorem hostDivf_at {s : Shape} {φ : FTy} (a b : FVec Ideal s φ) (i : s.Idx) :
    Host.divf a b i = Ideal.div (a i) (b i) := rfl

/-- The host's reciprocal square root at an index is the extended reals' reciprocal square root of the element. -/
private theorem hostRsqrt_at {s : Shape} {φ : FTy} (a : FVec Ideal s φ) (i : s.Idx) :
    Host.rsqrt a i = Ideal.rsqrt (a i) := rfl

/-- The integer zero converted to a float is the extended real zero. -/
private theorem sitofp_zero : FloatOps.sitofp (F := Ideal) .f32 (0#32 : BitVec 32) = 0 := by
  show ((((0#32 : BitVec 32).toInt : ℤ) : ℝ) : EReal) = 0
  rw [show (0#32 : BitVec 32).toInt = 0 from by decide]
  simp

/-- The count less the converted zero is above zero: the comparison that keeps the variance's quotient gives the bit 1. -/
private theorem count_pos_bit :
    FloatOps.cmpf (F := Ideal) (φ := .f32) .ogt (Ideal.ofBits .f32 0x43800000#32 - 0) (Ideal.ofBits .f32 0x00000000#32) = 1#1 := by
  show BitVec.ofBool (decide (Ideal.ofBits .f32 0x00000000#32 < Ideal.ofBits .f32 0x43800000#32 - 0)) = 1#1
  rw [sub_zero, Ideal.ofBits_zero_f32, Cert.Algebra.ofBits_256]
  have h : (0 : EReal) < ((256 : ℝ) : EReal) := by exact_mod_cast (by norm_num : (0 : ℝ) < 256)
  simp [h]

/-- The reference's sum of a `[4, 50000, 64]` array over its axes 0 and 2 from a scalar initial value, read at node `n`: the
    initial value plus the sum of the node's 256 entries, indexed by the pairs `(b, g)`. -/
private theorem reduce_at (x : FVec Ideal S4x50000x64 .f32) (c : FVec Ideal S_ .f32) (n : Fin 50000) :
    Host.reduceAdd (F := Ideal) x c reducesTo_S4x50000x64_S50000_d0_2 h_S_ (ix1 n)
      = c (Shape.Idx.first h_S_) + ∑ p : Fin 4 × Fin 64, x (ix3 p.1 n p.2) :=
  Cert.Algebra.hostReduceAdd_d0_2_prod _ x _ n

/-- Node `n`'s entries of a `[4, 50000, 64]` array, by batch and feature. -/
def rowOf (x : FVec Ideal S4x50000x64 .f32) (n : Fin 50000) : Fin 4 → Fin 64 → EReal := fun b g => x (ix3 b n g)

/-! ## The four stretches at an index -/

/-- The mean array at node `n`: the specification's mean of the node's entries. -/
theorem res_main_v105_apply (x : FVec Ideal S4x50000x64 .f32) (z : Fin 1) (n : Fin 50000) (w : Fin 1) :
    res_main_v105 (F := Ideal) x (ix3 z n w) = Cert.Spec.meanR (rowOf x n) := by
  unfold res_main_v105
  simp only [hostDivf_at, broadcastInDim_b_1b1_apply, broadcastInDim_scalar_apply, constant_apply, reduce_at]
  rw [Ideal.ofBits_zero_f32, zero_add]
  rfl

/-- The variance array at node `n`: the specification's two-pass variance of the node's entries. -/
theorem res_main_v106_apply (x : FVec Ideal S4x50000x64 .f32) (z : Fin 1) (n : Fin 50000) (w : Fin 1) :
    res_main_v106 (F := Ideal) x (ix3 z n w) = Cert.Spec.varR (rowOf x n) := by
  unfold res_main_v106
  simp only [select_apply, cmpf_apply, hostDivf_at, mulf_apply, subf_apply, sitofp_apply, constantI_apply,
    broadcastInDim_b_1b1_apply, broadcastInDim_scalar_apply, broadcastInDim_1b1_abc_apply, constant_apply, reduce_at, id_eq]
  rw [sitofp_zero, count_pos_bit, select_one]
  simp only [Ideal.ofBits_zero_f32, zero_add, sub_zero]
  rfl

/-- The normalised array at `(b, n, g)`, from any mean and variance arrays: scale times deviation times the reciprocal square
    root of the variance plus ε, plus shift. -/
theorem res_main_v119_apply (γ : FVec Ideal S50000 .f32) (m : FVec Ideal S1x50000x1 .f32) (x : FVec Ideal S4x50000x64 .f32)
    (v : FVec Ideal S1x50000x1 .f32) (β : FVec Ideal S50000 .f32) (b : Fin 4) (n : Fin 50000) (g : Fin 64) :
    res_main_v119 (F := Ideal) γ m x v β (ix3 b n g)
      = γ (ix1 n) * (x (ix3 b n g) - m (ix3 (0 : Fin 1) n (0 : Fin 1)))
          * Ideal.rsqrt (v (ix3 (0 : Fin 1) n (0 : Fin 1)) + Cert.Spec.eps) + β (ix1 n) := by
  unfold res_main_v119
  simp only [addf_apply, mulf_apply, subf_apply, hostRsqrt_at, broadcastInDim_b_1b1_apply, broadcastInDim_scalar_apply,
    broadcastInDim_1b1_abc_apply, constant_apply]
  rfl

/-- The rectified array at an index: the specification's rectifier of the element. -/
theorem res_main_v120_apply (y : FVec Ideal S4x50000x64 .f32) (i : S4x50000x64.Idx) :
    res_main_v120 (F := Ideal) y i = Cert.Spec.leakyR (y i) := by
  unfold res_main_v120
  simp only [select_apply, cmpf_apply, mulf_apply, broadcastInDim_scalar_apply, constant_apply, id_eq]
  rfl

/-! ## The hidden layer's output at an entry -/

/-- The reference's hidden-layer output at `(b, n, g)`: the specification's normalisation and rectifier of node `n`'s entries,
    scale and shift. -/
theorem ref_act1_apply (x : FVec Ideal S4x50000x64 .f32) (γ β : FVec Ideal S50000 .f32) (b : Fin 4) (n : Fin 50000)
    (g : Fin 64) :
    ref_act1 (F := Ideal) x γ β (ix3 b n g)
      = Cert.Spec.bnR (fun b' g' => x (ix3 b' n g')) (γ (ix1 n)) (β (ix1 n)) b g := by
  unfold ref_act1
  rw [res_main_v120_apply, res_main_v119_apply, res_main_v105_apply, res_main_v106_apply]
  rfl

end Cert.ReferenceIdeal.RefRun

end
-- ==== Proof.RefIdxLib.lean ====
/- Host operations of a graph layer read at an index given by coordinates, at the ideal values (floats are extended
   reals), general in the extents: the product of a [B, N, K] array with a [K, G] matrix over the last axis; slice i of a
   stack of matrices re-read as a matrix; a vector laid along the last axis of a [B, N, G] array; an [N, G] array laid
   along the first. -/
import Idealize.ShloMosaic.Lib.Pipeline.Value
import Idealize.ShloMosaic.Lib.ValueIdx
import Idealize.ShloMosaic.PureOps.Ideal.Laws

noncomputable section

open scoped BigOperators

namespace Cert.RefLib

open Idealize.ShloMosaic Idealize.ShloMosaic.ValueIdx

variable {α : Type}

/-- A [B, N, K] array contracted on its last axis with the first axis of a [K, G] matrix, read at (b, n, g): the sum over
    the contracted coordinate of the products of the entries. `w` is the dimension numbers' well-formedness. -/
theorem dotGeneral_rows_apply {B N K G : ℕ} {φ₁ φ₂ : FTy}
    (w : DotDims.WF ⟨3, ![B, N, K]⟩ ⟨2, ![K, G]⟩ ⟨3, ![B, N, G]⟩ [2] [0] [0, 1] [1] [] [])
    (prec : Option ContractPrecision) (A : FVec Ideal ⟨3, ![B, N, K]⟩ φ₁) (W : FVec Ideal ⟨2, ![K, G]⟩ φ₂)
    (b : Fin B) (n : Fin N) (g : Fin G) :
    Host.dotGeneral (⟨[2], [0], [0, 1], [1], [], [], w⟩ : DotDims ⟨3, ![B, N, K]⟩ ⟨2, ![K, G]⟩ ⟨3, ![B, N, G]⟩) prec A W (ix3 b n g)
      = ∑ f : Fin K, A (ix3 b n f) * W (ix2 f g) := by
  show FloatOps.dotGeneral _ prec _ A W (ix3 b n g) = _
  rw [Ideal.dotGeneral_apply, ← Equiv.sum_comp (contrEquiv1 (⟨[2], [0], [0, 1], [1], [], [], w⟩ : DotDims ⟨3, ![B, N, K]⟩ ⟨2, ![K, G]⟩ ⟨3, ![B, N, G]⟩) K rfl rfl).symm]
  refine Finset.sum_congr rfl fun c _ => ?_
  have c3 := contrEquiv1_symm_val (⟨[2], [0], [0, 1], [1], [], [], w⟩ : DotDims ⟨3, ![B, N, K]⟩ ⟨2, ![K, G]⟩ ⟨3, ![B, N, G]⟩) K rfl rfl c
  have l3 : (⟨[2], [0], [0, 1], [1], [], [], w⟩ : DotDims ⟨3, ![B, N, K]⟩ ⟨2, ![K, G]⟩ ⟨3, ![B, N, G]⟩).lhsIdx (ix3 b n g) ((contrEquiv1 _ K rfl rfl).symm c) = ix3 b n c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [0], [0, 1], [1], [], [], w⟩ : DotDims ⟨3, ![B, N, K]⟩ ⟨2, ![K, G]⟩ ⟨3, ![B, N, G]⟩).rhsIdx (ix3 b n g) ((contrEquiv1 _ K rfl rfl).symm c) = ix2 c g := by
    funext ax; apply Fin.ext
    match ax with
    | ⟨0, _⟩ => simp [DotDims.rhsIdx]; exact c3
    | ⟨1, _⟩ => simp [DotDims.rhsIdx]; rfl
  rw [l3, r3]

/-- Slice i of a stack of S matrices [S, K, G], re-read as a [K, G] matrix, at (f, g): the stack at (i, f, g). -/
theorem slice_matrix_apply {S K G : ℕ} (W : (⟨3, ![S, K, G]⟩ : Shape).Idx → α) (off : Fin 3 → ℕ)
    (hs : (⟨3, ![S, K, G]⟩ : Shape).Slices off ⟨3, ![1, K, G]⟩) (hc : (⟨3, ![1, K, G]⟩ : Shape).ShapeCasts ⟨2, ![K, G]⟩)
    (i : Fin S) (h0 : off 0 = i.val) (h1 : off 1 = 0) (h2 : off 2 = 0) (f : Fin K) (g : Fin G) :
    shapeCast ⟨2, ![K, G]⟩ (extractStridedSlice ⟨3, ![1, K, G]⟩ off W hs) hc (ix2 f g) = W (ix3 i f g) := by
  refine (shapeCast_apply _ hc (ix2 f g) (ix3 (0 : Fin 1) f g) (by
    rw [Shape.rowMajor_val_three, Shape.rowMajor_val_two]
    show ((0 : ℕ) * K + f.val) * G + g.val = f.val * G + g.val
    rw [Nat.zero_mul, Nat.zero_add])).trans ?_
  refine extractStridedSlice_apply off W hs (ix3 (0 : Fin 1) f g) (ix3 i f g) fun ax => ?_
  match ax with
  | ⟨0, _⟩ => show i.val = off 0 + 0; rw [h0, Nat.add_zero]
  | ⟨1, _⟩ => show f.val = off 1 + f.val; rw [h1, Nat.zero_add]
  | ⟨2, _⟩ => show g.val = off 2 + g.val; rw [h2, Nat.zero_add]

/-- A G-vector as a [1, 1, G] array laid over a [B, N, G] array, read at (b, n, g): the vector at g. -/
theorem bias_apply {B N G : ℕ} (v : (⟨1, ![G]⟩ : Shape).Idx → α)
    (h1 : (⟨1, ![G]⟩ : Shape).BroadcastsInDim ⟨3, ![1, 1, G]⟩ ![2])
    (h2 : (⟨3, ![1, 1, G]⟩ : Shape).BroadcastsInDim ⟨3, ![B, N, G]⟩ ![0, 1, 2]) (b : Fin B) (n : Fin N) (g : Fin G) :
    broadcastInDim ⟨3, ![B, N, G]⟩ ![0, 1, 2] h2 (broadcastInDim ⟨3, ![1, 1, G]⟩ ![2] h1 v) (ix3 b n g) = v (ix1 g) := by
  refine (broadcastInDim_apply _ h2 _ (ix3 b n g) (ix3 (0 : Fin 1) (0 : Fin 1) g) fun ax => ?_).trans ?_
  · match ax with
    | ⟨0, _⟩ => rfl
    | ⟨1, _⟩ => rfl
    | ⟨2, _⟩ =>
      show g.val = if G = 1 then 0 else g.val
      split
      · have := g.isLt; omega
      · rfl
  · refine broadcastInDim_apply _ h1 v (ix3 (0 : Fin 1) (0 : Fin 1) g) (ix1 g) fun ax => ?_
    match ax with
    | ⟨0, _⟩ =>
      show g.val = if G = 1 then 0 else g.val
      split
      · have := g.isLt; omega
      · rfl

/-- An [N, G] array as a [1, N, G] array laid over a [B, N, G] array, read at (b, n, g): the array at (n, g). -/
theorem per_node_apply {B N G : ℕ} (v : (⟨2, ![N, G]⟩ : Shape).Idx → α)
    (h1 : (⟨2, ![N, G]⟩ : Shape).BroadcastsInDim ⟨3, ![1, N, G]⟩ ![1, 2])
    (h2 : (⟨3, ![1, N, G]⟩ : Shape).BroadcastsInDim ⟨3, ![B, N, G]⟩ ![0, 1, 2]) (b : Fin B) (n : Fin N) (g : Fin G) :
    broadcastInDim ⟨3, ![B, N, G]⟩ ![0, 1, 2] h2 (broadcastInDim ⟨3, ![1, N, G]⟩ ![1, 2] h1 v) (ix3 b n g) = v (ix2 n g) := by
  refine (broadcastInDim_apply _ h2 _ (ix3 b n g) (ix3 (0 : Fin 1) n g) fun ax => ?_).trans ?_
  · match ax with
    | ⟨0, _⟩ => rfl
    | ⟨1, _⟩ =>
      show n.val = if N = 1 then 0 else n.val
      split
      · have := n.isLt; omega
      · rfl
    | ⟨2, _⟩ =>
      show g.val = if G = 1 then 0 else g.val
      split
      · have := g.isLt; omega
      · rfl
  · refine broadcastInDim_apply _ h1 v (ix3 (0 : Fin 1) n g) (ix2 n g) fun ax => ?_
    match ax with
    | ⟨0, _⟩ =>
      show n.val = if N = 1 then 0 else n.val
      split
      · have := n.isLt; omega
      · rfl
    | ⟨1, _⟩ =>
      show g.val = if G = 1 then 0 else g.val
      split
      · have := g.isLt; omega
      · rfl

/-- The product of a [B, N, K] array with slice i of a stack of [K, G] matrices, read at (b, n, g): the sum over the
    contracted coordinate of the array's entries times the stack's at (i, ·, g). -/
theorem dot_slice_apply {B N K G S : ℕ} {φ₁ φ₂ : FTy}
    (w : DotDims.WF ⟨3, ![B, N, K]⟩ ⟨2, ![K, G]⟩ ⟨3, ![B, N, G]⟩ [2] [0] [0, 1] [1] [] [])
    (prec : Option ContractPrecision) (X : FVec Ideal ⟨3, ![B, N, K]⟩ φ₁) (W : FVec Ideal ⟨3, ![S, K, G]⟩ φ₂) (off : Fin 3 → ℕ)
    (hs : (⟨3, ![S, K, G]⟩ : Shape).Slices off ⟨3, ![1, K, G]⟩) (hc : (⟨3, ![1, K, G]⟩ : Shape).ShapeCasts ⟨2, ![K, G]⟩)
    (i : Fin S) (h0 : off 0 = i.val) (h1 : off 1 = 0) (h2 : off 2 = 0) (b : Fin B) (n : Fin N) (g : Fin G) :
    Host.dotGeneral (⟨[2], [0], [0, 1], [1], [], [], w⟩ : DotDims ⟨3, ![B, N, K]⟩ ⟨2, ![K, G]⟩ ⟨3, ![B, N, G]⟩) prec X
        (shapeCast ⟨2, ![K, G]⟩ (extractStridedSlice ⟨3, ![1, K, G]⟩ off W hs) hc) (ix3 b n g)
      = ∑ f : Fin K, X (ix3 b n f) * W (ix3 i f g) :=
  (dotGeneral_rows_apply w prec X _ b n g).trans
    (Finset.sum_congr rfl fun f _ => congrArg (X (ix3 b n f) * ·) (slice_matrix_apply W off hs hc i h0 h1 h2 f g))

/-- An N-vector as a [1, N] row laid over a [B, N] array, read at (b, n): the vector at n. -/
theorem row_apply {B N : ℕ} (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![B, N]⟩ ![0, 1]) (b : Fin B) (n : Fin N) :
    broadcastInDim ⟨2, ![B, N]⟩ ![0, 1] h2 (broadcastInDim ⟨2, ![1, N]⟩ ![1] h1 v) (ix2 b n) = v (ix1 n) := by
  refine (broadcastInDim_apply _ h2 _ (ix2 b n) (ix2 (0 : Fin 1) n) fun ax => ?_).trans ?_
  · match ax with
    | ⟨0, _⟩ => rfl
    | ⟨1, _⟩ =>
      show n.val = if N = 1 then 0 else n.val
      split
      · have := n.isLt; omega
      · rfl
  · refine broadcastInDim_apply _ h1 v (ix2 (0 : Fin 1) n) (ix1 n) fun ax => ?_
    match ax with
    | ⟨0, _⟩ =>
      show n.val = if N = 1 then 0 else n.val
      split
      · have := n.isLt; omega
      · rfl

/-- A [B, N] array given a trailing unit axis, read at (b, n, u): the array at (b, n). -/
theorem trailing_unit_apply {B N : ℕ} (v : (⟨2, ![B, N]⟩ : Shape).Idx → α)
    (h : (⟨2, ![B, N]⟩ : Shape).BroadcastsInDim ⟨3, ![B, N, 1]⟩ ![0, 1]) (b : Fin B) (n : Fin N) (u : Fin 1) :
    broadcastInDim ⟨3, ![B, N, 1]⟩ ![0, 1] h v (ix3 b n u) = v (ix2 b n) := by
  refine broadcastInDim_apply _ h v (ix3 b n u) (ix2 b n) fun ax => ?_
  match ax with
  | ⟨0, _⟩ =>
    show b.val = if B = 1 then 0 else b.val
    split
    · have := b.isLt; omega
    · rfl
  | ⟨1, _⟩ =>
    show n.val = if N = 1 then 0 else n.val
    split
    · have := n.isLt; omega
    · rfl

/-- Column c of a [B, N, C] array, cut out and re-read as a [B, N] array, at (b, n): the array at (b, n, c). -/
theorem column_apply {B N C : ℕ} (x : (⟨3, ![B, N, C]⟩ : Shape).Idx → α) (off : Fin 3 → ℕ)
    (hs : (⟨3, ![B, N, C]⟩ : Shape).Slices off ⟨3, ![B, N, 1]⟩) (hc : (⟨3, ![B, N, 1]⟩ : Shape).ShapeCasts ⟨2, ![B, N]⟩)
    (c : Fin C) (h0 : off 0 = 0) (h1 : off 1 = 0) (h2 : off 2 = c.val) (b : Fin B) (n : Fin N) :
    shapeCast ⟨2, ![B, N]⟩ (extractStridedSlice ⟨3, ![B, N, 1]⟩ off x hs) hc (ix2 b n) = x (ix3 b n c) := by
  refine (shapeCast_apply _ hc (ix2 b n) (ix3 b n (0 : Fin 1)) (by
    rw [Shape.rowMajor_val_three, Shape.rowMajor_val_two]
    show (b.val * N + n.val) * 1 + (0 : ℕ) = b.val * N + n.val
    rw [Nat.mul_one, Nat.add_zero])).trans ?_
  refine extractStridedSlice_apply off x hs (ix3 b n (0 : Fin 1)) (ix3 b n c) fun ax => ?_
  match ax with
  | ⟨0, _⟩ => show b.val = off 0 + b.val; rw [h0, Nat.zero_add]
  | ⟨1, _⟩ => show n.val = off 1 + n.val; rw [h1, Nat.zero_add]
  | ⟨2, _⟩ => show c.val = off 2 + 0; rw [h2, Nat.add_zero]

/-- Two [B, N, 1] arrays set side by side on the last axis, read at (b, n, 0): the first at (b, n, 0). -/
theorem pair_last_apply_zero {B N : ℕ} (x₁ x₂ : (⟨3, ![B, N, 1]⟩ : Shape).Idx → α)
    (h : Shape.Concatenates [⟨3, ![B, N, 1]⟩, ⟨3, ![B, N, 1]⟩] ⟨3, ![B, N, 2]⟩ 2) (b : Fin B) (n : Fin N) :
    concatenate ⟨3, ![B, N, 2]⟩ 2 [⟨⟨3, ![B, N, 1]⟩, x₁⟩, ⟨⟨3, ![B, N, 1]⟩, x₂⟩] h (ix3 b n (0 : Fin 2)) = x₁ (ix3 b n (0 : Fin 1)) := by
  refine concatenate_pair_apply_left 2 x₁ x₂ h (ix3 b n (0 : Fin 2)) rfl (ix3 b n (0 : Fin 1)) fun ax => ?_
  match ax with
  | ⟨0, _⟩ => rfl
  | ⟨1, _⟩ => rfl
  | ⟨2, _⟩ => rfl

/-- … read at (b, n, 1): the second at (b, n, 0). -/
theorem pair_last_apply_one {B N : ℕ} (x₁ x₂ : (⟨3, ![B, N, 1]⟩ : Shape).Idx → α)
    (h : Shape.Concatenates [⟨3, ![B, N, 1]⟩, ⟨3, ![B, N, 1]⟩] ⟨3, ![B, N, 2]⟩ 2) (b : Fin B) (n : Fin N) :
    concatenate ⟨3, ![B, N, 2]⟩ 2 [⟨⟨3, ![B, N, 1]⟩, x₁⟩, ⟨⟨3, ![B, N, 1]⟩, x₂⟩] h (ix3 b n (1 : Fin 2)) = x₂ (ix3 b n (0 : Fin 1)) := by
  refine concatenate_pair_apply_right 2 x₁ x₂ h (ix3 b n (1 : Fin 2)) rfl rfl (ix3 b n (0 : Fin 1)) (fun ax hax => ?_) rfl
  match ax with
  | ⟨0, _⟩ => rfl
  | ⟨1, _⟩ => rfl
  | ⟨2, _⟩ => exact absurd rfl hax

end Cert.RefLib

end
-- ==== Proof.RefOutIdx.lean ====
/- The reference program's layer sums and its last stage read at an index, at the ideal values (floats are extended
   reals): a layer's sum at (b, n, g) is the sum over i of the sums over f of the i-th propagated input at (b, n, f) times
   slice i of the weights at (f, g), plus the bias at g; the result at (b, n, g) is the last layer's sum there times the
   standard deviation at (n, g), plus the mean, times the mask, then bounded below and above per node and channel. -/
import proofs.«159603_j71347996721325_2_alg».proof.Proof.RefComp
import proofs.«159603_j71347996721325_2_alg».proof.Proof.RefIdxLib
import Idealize.ShloMosaic.PureOps.Ideal.Laws
import Idealize.ShloMosaic.Lib.ValueIdx
import Idealize.ShloMosaic.Lib.Pipeline.Value

noncomputable section

namespace Cert.ReferenceIdeal.RefRun

open scoped BigOperators
open Idealize.ShloMosaic.ValueIdx (ix1 ix2 ix3 addf_apply mulf_apply maximumf_apply minimumf_apply)
open Cert.ReferenceIdeal Cert.ReferenceIdeal.Gen Idealize.ShloMosaic Idealize.ShloMosaic.TcCoe Idealize.SL.Sem Idealize.ShloMosaic.StableHlo

variable {F : FTy → Type} [FloatOps F]

/-! ## Layer 1 -/

theorem res_main_v32_apply (a4 : FVec Ideal S4x4x64 .f32) (a0 : FVec Ideal S4x50000x4 .f32) (b : Fin 4) (n : Fin 50000) (g : Fin 64) :
    res_main_v32 (F := Ideal) a4 a0 (ix3 b n g) = ∑ f : Fin 4, a0 (ix3 b n f) * a4 (ix3 (0 : Fin 4) f g) :=
  Cert.RefLib.dot_slice_apply dot_S4x50000x4_S4x64_S4x50000x64_2_0_01_1_n_n_wf none a0 a4 _ _ _ (0 : Fin 4) rfl rfl rfl b n g

theorem res_main_v54_apply (a4 : FVec Ideal S4x4x64 .f32) (v50 : FVec Ideal S4x50000x4 .f32) (v32 : FVec Ideal S4x50000x64 .f32) (b : Fin 4) (n : Fin 50000) (g : Fin 64) :
    res_main_v54 (F := Ideal) a4 v50 v32 (ix3 b n g) = v32 (ix3 b n g) + ∑ f : Fin 4, v50 (ix3 b n f) * a4 (ix3 (1 : Fin 4) f g) :=
  (addf_apply _ _ _).trans (congrArg (v32 (ix3 b n g) + ·) (Cert.RefLib.dot_slice_apply dot_S4x50000x4_S4x64_S4x50000x64_2_0_01_1_n_n_wf none v50 a4 _ _ _ (1 : Fin 4) rfl rfl rfl b n g))

theorem res_main_v76_apply (a4 : FVec Ideal S4x4x64 .f32) (v72 : FVec Ideal S4x50000x4 .f32) (v54 : FVec Ideal S4x50000x64 .f32) (b : Fin 4) (n : Fin 50000) (g : Fin 64) :
    res_main_v76 (F := Ideal) a4 v72 v54 (ix3 b n g) = v54 (ix3 b n g) + ∑ f : Fin 4, v72 (ix3 b n f) * a4 (ix3 (2 : Fin 4) f g) :=
  (addf_apply _ _ _).trans (congrArg (v54 (ix3 b n g) + ·) (Cert.RefLib.dot_slice_apply dot_S4x50000x4_S4x64_S4x50000x64_2_0_01_1_n_n_wf none v72 a4 _ _ _ (2 : Fin 4) rfl rfl rfl b n g))

theorem res_main_v101_apply (a4 : FVec Ideal S4x4x64 .f32) (v94 : FVec Ideal S4x50000x4 .f32) (v76 : FVec Ideal S4x50000x64 .f32) (a5 : FVec Ideal S64 .f32) (b : Fin 4) (n : Fin 50000) (g : Fin 64) :
    res_main_v101 (F := Ideal) a4 v94 v76 a5 (ix3 b n g) = (v76 (ix3 b n g) + ∑ f : Fin 4, v94 (ix3 b n f) * a4 (ix3 (3 : Fin 4) f g)) + a5 (ix1 g) :=
  (addf_apply _ _ _).trans (congrArg₂ (· + ·) ((addf_apply _ _ _).trans (congrArg (v76 (ix3 b n g) + ·) (Cert.RefLib.dot_slice_apply dot_S4x50000x4_S4x64_S4x50000x64_2_0_01_1_n_n_wf none v94 a4 _ _ _ (3 : Fin 4) rfl rfl rfl b n g)))
    (Cert.RefLib.bias_apply a5 _ _ b n g))

/-- Layer 1's sum at (b, n, g): the four products' sums in the printed association, plus the bias. -/
theorem ref_out1_apply (a0 v50 v72 v94 : FVec Ideal S4x50000x4 .f32) (a4 : FVec Ideal S4x4x64 .f32) (a5 : FVec Ideal S64 .f32) (b : Fin 4) (n : Fin 50000) (g : Fin 64) :
    ref_out1 (F := Ideal) a0 v50 v72 v94 a4 a5 (ix3 b n g)
      = ((((∑ f : Fin 4, a0 (ix3 b n f) * a4 (ix3 (0 : Fin 4) f g)) + ∑ f : Fin 4, v50 (ix3 b n f) * a4 (ix3 (1 : Fin 4) f g)) + ∑ f : Fin 4, v72 (ix3 b n f) * a4 (ix3 (2 : Fin 4) f g)) + ∑ f : Fin 4, v94 (ix3 b n f) * a4 (ix3 (3 : Fin 4) f g)) + a5 (ix1 g) := by
  unfold ref_out1
  rw [res_main_v101_apply, res_main_v76_apply, res_main_v54_apply, res_main_v32_apply]

/-! ## Layer 2 -/

theorem res_main_v123_apply (a6 : FVec Ideal S4x64x64 .f32) (v120 : FVec Ideal S4x50000x64 .f32) (b : Fin 4) (n : Fin 50000) (g : Fin 64) :
    res_main_v123 (F := Ideal) a6 v120 (ix3 b n g) = ∑ f : Fin 64, v120 (ix3 b n f) * a6 (ix3 (0 : Fin 4) f g) :=
  Cert.RefLib.dot_slice_apply dot_S4x50000x64_S64x64_S4x50000x64_2_0_01_1_n_n_wf none v120 a6 _ _ _ (0 : Fin 4) rfl rfl rfl b n g

theorem res_main_v145_apply (a6 : FVec Ideal S4x64x64 .f32) (v141 : FVec Ideal S4x50000x64 .f32) (v123 : FVec Ideal S4x50000x64 .f32) (b : Fin 4) (n : Fin 50000) (g : Fin 64) :
    res_main_v145 (F := Ideal) a6 v141 v123 (ix3 b n g) = v123 (ix3 b n g) + ∑ f : Fin 64, v141 (ix3 b n f) * a6 (ix3 (1 : Fin 4) f g) :=
  (addf_apply _ _ _).trans (congrArg (v123 (ix3 b n g) + ·) (Cert.RefLib.dot_slice_apply dot_S4x50000x64_S64x64_S4x50000x64_2_0_01_1_n_n_wf none v141 a6 _ _ _ (1 : Fin 4) rfl rfl rfl b n g))

theorem res_main_v167_apply (a6 : FVec Ideal S4x64x64 .f32) (v163 : FVec Ideal S4x50000x64 .f32) (v145 : FVec Ideal S4x50000x64 .f32) (b : Fin 4) (n : Fin 50000) (g : Fin 64) :
    res_main_v167 (F := Ideal) a6 v163 v145 (ix3 b n g) = v145 (ix3 b n g) + ∑ f : Fin 64, v163 (ix3 b n f) * a6 (ix3 (2 : Fin 4) f g) :=
  (addf_apply _ _ _).trans (congrArg (v145 (ix3 b n g) + ·) (Cert.RefLib.dot_slice_apply dot_S4x50000x64_S64x64_S4x50000x64_2_0_01_1_n_n_wf none v163 a6 _ _ _ (2 : Fin 4) rfl rfl rfl b n g))

theorem res_main_v192_apply (a6 : FVec Ideal S4x64x64 .f32) (v185 : FVec Ideal S4x50000x64 .f32) (v167 : FVec Ideal S4x50000x64 .f32) (a7 : FVec Ideal S64 .f32) (b : Fin 4) (n : Fin 50000) (g : Fin 64) :
    res_main_v192 (F := Ideal) a6 v185 v167 a7 (ix3 b n g) = (v167 (ix3 b n g) + ∑ f : Fin 64, v185 (ix3 b n f) * a6 (ix3 (3 : Fin 4) f g)) + a7 (ix1 g) :=
  (addf_apply _ _ _).trans (congrArg₂ (· + ·) ((addf_apply _ _ _).trans (congrArg (v167 (ix3 b n g) + ·) (Cert.RefLib.dot_slice_apply dot_S4x50000x64_S64x64_S4x50000x64_2_0_01_1_n_n_wf none v185 a6 _ _ _ (3 : Fin 4) rfl rfl rfl b n g)))
    (Cert.RefLib.bias_apply a7 _ _ b n g))

/-- Layer 2's sum at (b, n, g): the four products' sums in the printed association, plus the bias. -/
theorem ref_out2_apply (v120 v141 v163 v185 : FVec Ideal S4x50000x64 .f32) (a6 : FVec Ideal S4x64x64 .f32) (a7 : FVec Ideal S64 .f32) (b : Fin 4) (n : Fin 50000) (g : Fin 64) :
    ref_out2 (F := Ideal) v120 v141 v163 v185 a6 a7 (ix3 b n g)
      = ((((∑ f : Fin 64, v120 (ix3 b n f) * a6 (ix3 (0 : Fin 4) f g)) + ∑ f : Fin 64, v141 (ix3 b n f) * a6 (ix3 (1 : Fin 4) f g)) + ∑ f : Fin 64, v163 (ix3 b n f) * a6 (ix3 (2 : Fin 4) f g)) + ∑ f : Fin 64, v185 (ix3 b n f) * a6 (ix3 (3 : Fin 4) f g)) + a7 (ix1 g) := by
  unfold ref_out2
  rw [res_main_v192_apply, res_main_v167_apply, res_main_v145_apply, res_main_v123_apply]

/-! ## Layer 3 -/

theorem res_main_v214_apply (a8 : FVec Ideal S4x64x2 .f32) (v211 : FVec Ideal S4x50000x64 .f32) (b : Fin 4) (n : Fin 50000) (g : Fin 2) :
    res_main_v214 (F := Ideal) a8 v211 (ix3 b n g) = ∑ f : Fin 64, v211 (ix3 b n f) * a8 (ix3 (0 : Fin 4) f g) :=
  Cert.RefLib.dot_slice_apply dot_S4x50000x64_S64x2_S4x50000x2_2_0_01_1_n_n_wf none v211 a8 _ _ _ (0 : Fin 4) rfl rfl rfl b n g

theorem res_main_v236_apply (a8 : FVec Ideal S4x64x2 .f32) (v232 : FVec Ideal S4x50000x64 .f32) (v214 : FVec Ideal S4x50000x2 .f32) (b : Fin 4) (n : Fin 50000) (g : Fin 2) :
    res_main_v236 (F := Ideal) a8 v232 v214 (ix3 b n g) = v214 (ix3 b n g) + ∑ f : Fin 64, v232 (ix3 b n f) * a8 (ix3 (1 : Fin 4) f g) :=
  (addf_apply _ _ _).trans (congrArg (v214 (ix3 b n g) + ·) (Cert.RefLib.dot_slice_apply dot_S4x50000x64_S64x2_S4x50000x2_2_0_01_1_n_n_wf none v232 a8 _ _ _ (1 : Fin 4) rfl rfl rfl b n g))

theorem res_main_v258_apply (a8 : FVec Ideal S4x64x2 .f32) (v254 : FVec Ideal S4x50000x64 .f32) (v236 : FVec Ideal S4x50000x2 .f32) (b : Fin 4) (n : Fin 50000) (g : Fin 2) :
    res_main_v258 (F := Ideal) a8 v254 v236 (ix3 b n g) = v236 (ix3 b n g) + ∑ f : Fin 64, v254 (ix3 b n f) * a8 (ix3 (2 : Fin 4) f g) :=
  (addf_apply _ _ _).trans (congrArg (v236 (ix3 b n g) + ·) (Cert.RefLib.dot_slice_apply dot_S4x50000x64_S64x2_S4x50000x2_2_0_01_1_n_n_wf none v254 a8 _ _ _ (2 : Fin 4) rfl rfl rfl b n g))

theorem res_main_v283_apply (a8 : FVec Ideal S4x64x2 .f32) (v276 : FVec Ideal S4x50000x64 .f32) (v258 : FVec Ideal S4x50000x2 .f32) (a9 : FVec Ideal S2 .f32) (b : Fin 4) (n : Fin 50000) (g : Fin 2) :
    res_main_v283 (F := Ideal) a8 v276 v258 a9 (ix3 b n g) = (v258 (ix3 b n g) + ∑ f : Fin 64, v276 (ix3 b n f) * a8 (ix3 (3 : Fin 4) f g)) + a9 (ix1 g) :=
  (addf_apply _ _ _).trans (congrArg₂ (· + ·) ((addf_apply _ _ _).trans (congrArg (v258 (ix3 b n g) + ·) (Cert.RefLib.dot_slice_apply dot_S4x50000x64_S64x2_S4x50000x2_2_0_01_1_n_n_wf none v276 a8 _ _ _ (3 : Fin 4) rfl rfl rfl b n g)))
    (Cert.RefLib.bias_apply a9 _ _ b n g))

/-- Layer 3's sum at (b, n, g): the four products' sums in the printed association, plus the bias. -/
theorem ref_out3_apply (v211 v232 v254 v276 : FVec Ideal S4x50000x64 .f32) (a8 : FVec Ideal S4x64x2 .f32) (a9 : FVec Ideal S2 .f32) (b : Fin 4) (n : Fin 50000) (g : Fin 2) :
    ref_out3 (F := Ideal) v211 v232 v254 v276 a8 a9 (ix3 b n g)
      = ((((∑ f : Fin 64, v211 (ix3 b n f) * a8 (ix3 (0 : Fin 4) f g)) + ∑ f : Fin 64, v232 (ix3 b n f) * a8 (ix3 (1 : Fin 4) f g)) + ∑ f : Fin 64, v254 (ix3 b n f) * a8 (ix3 (2 : Fin 4) f g)) + ∑ f : Fin 64, v276 (ix3 b n f) * a8 (ix3 (3 : Fin 4) f g)) + a9 (ix1 g) := by
  unfold ref_out3
  rw [res_main_v283_apply, res_main_v258_apply, res_main_v236_apply, res_main_v214_apply]

/-! ## The last stage -/

theorem res_main_v294_apply (v285 : FVec Ideal S50000x2 .f32) (v283 : FVec Ideal S4x50000x2 .f32) (a15 a14 : FVec Ideal S50000x2 .f32) (b : Fin 4) (n : Fin 50000) (g : Fin 2) :
    res_main_v294 (F := Ideal) v285 v283 a15 a14 (ix3 b n g) = (v283 (ix3 b n g) * v285 (ix2 n g) + a15 (ix2 n g)) * a14 (ix2 n g) :=
  (mulf_apply _ _ _).trans (congrArg₂ (· * ·)
    ((addf_apply _ _ _).trans (congrArg₂ (· + ·)
      ((mulf_apply _ _ _).trans (congrArg (v283 (ix3 b n g) * ·) (Cert.RefLib.per_node_apply v285 _ _ b n g)))
      (Cert.RefLib.per_node_apply a15 _ _ b n g)))
    (Cert.RefLib.per_node_apply a14 _ _ b n g))

theorem res_main_v303_apply_zero (v294 : FVec Ideal S4x50000x2 .f32) (a17 a18 a19 a20 : FVec Ideal S50000 .f32) (b : Fin 4) (n : Fin 50000) :
    res_main_v303 (F := Ideal) v294 a17 a18 a19 a20 (ix3 b n (0 : Fin 2)) = min (a18 (ix1 n)) (max (a17 (ix1 n)) (v294 (ix3 b n (0 : Fin 2)))) :=
  (Cert.RefLib.pair_last_apply_zero _ _ concatenates_S4x50000x1_S4x50000x1_S4x50000x2_d2 b n).trans ((Cert.RefLib.trailing_unit_apply _ bcast_S4x50000_S4x50000x1_0_1 b n 0).trans
    ((minimumf_apply _ _ _).trans (congrArg₂ min (Cert.RefLib.row_apply a18 bcast_S50000_S1x50000_1 bcast_S1x50000_S4x50000_0_1 b n)
      ((maximumf_apply _ _ _).trans (congrArg₂ max (Cert.RefLib.row_apply a17 bcast_S50000_S1x50000_1 bcast_S1x50000_S4x50000_0_1 b n)
        (Cert.RefLib.column_apply v294 ![0, 0, 0] slices_S4x50000x2_S4x50000x1_0_0_0 shapeCasts_S4x50000x1_S4x50000 (0 : Fin 2) rfl rfl rfl b n))))))

theorem res_main_v303_apply_one (v294 : FVec Ideal S4x50000x2 .f32) (a17 a18 a19 a20 : FVec Ideal S50000 .f32) (b : Fin 4) (n : Fin 50000) :
    res_main_v303 (F := Ideal) v294 a17 a18 a19 a20 (ix3 b n (1 : Fin 2)) = min (a20 (ix1 n)) (max (a19 (ix1 n)) (v294 (ix3 b n (1 : Fin 2)))) :=
  (Cert.RefLib.pair_last_apply_one _ _ concatenates_S4x50000x1_S4x50000x1_S4x50000x2_d2 b n).trans ((Cert.RefLib.trailing_unit_apply _ bcast_S4x50000_S4x50000x1_0_1 b n 0).trans
    ((minimumf_apply _ _ _).trans (congrArg₂ min (Cert.RefLib.row_apply a20 bcast_S50000_S1x50000_1 bcast_S1x50000_S4x50000_0_1 b n)
      ((maximumf_apply _ _ _).trans (congrArg₂ max (Cert.RefLib.row_apply a19 bcast_S50000_S1x50000_1 bcast_S1x50000_S4x50000_0_1 b n)
        (Cert.RefLib.column_apply v294 ![0, 0, 1] slices_S4x50000x2_S4x50000x1_0_0_1 shapeCasts_S4x50000x1_S4x50000 (1 : Fin 2) rfl rfl rfl b n))))))

/-- The result at (b, n, g): the last layer's sum times the standard deviation (an infinite one replaced by 0) plus the
    mean, times the mask; then the larger of that and the channel's lower bound at the node, then the smaller of that and
    the channel's upper bound — the bound first in both, as printed. -/
theorem ref_final_apply (v283 : FVec Ideal S4x50000x2 .f32) (a14 a15 a16 : FVec Ideal S50000x2 .f32) (a17 a18 a19 a20 : FVec Ideal S50000 .f32) (b : Fin 4) (n : Fin 50000) (g : Fin 2) :
    ref_final (F := Ideal) v283 a14 a15 a16 a17 a18 a19 a20 (ix3 b n g)
      = min (if g = 0 then a18 (ix1 n) else a20 (ix1 n))
          (max (if g = 0 then a17 (ix1 n) else a19 (ix1 n))
            ((v283 (ix3 b n g) * res_main_v285 (F := Ideal) a16 (ix2 n g) + a15 (ix2 n g)) * a14 (ix2 n g))) := by
  unfold ref_final
  have hg : g = 0 ∨ g = 1 := by
    rcases g with ⟨_ | _ | k, hk⟩
    · exact Or.inl rfl
    · exact Or.inr rfl
    · omega
  rcases hg with rfl | rfl
  · rw [res_main_v303_apply_zero, res_main_v294_apply, if_pos rfl, if_pos rfl]
  · rw [res_main_v303_apply_one, res_main_v294_apply, if_neg (by decide), if_neg (by decide)]

end Cert.ReferenceIdeal.RefRun

end
-- ==== Proof.RefReal.lean ====
/-
  The reference's shared chains keep "every entry is a real". The normalised edge weights are, along each edge, the
  product of the edge weight with the inverse square roots of two degrees; a degree is a sum of edge weights, and its
  inverse square root is taken above a positive floor or replaced by zero, so it is a real. One propagation step gathers
  rows at the sources, scales each by its edge's normalised weight and adds them up at the targets, starting from zeros:
  finite sums of products of reals. The index arrays play no part: whatever they hold, a gather only picks entries and a
  scatter only decides which updates meet.
-/
import Idealize.ShloMosaic.PureOps.Ideal
import Mathlib.Tactic
import proofs.«159603_j71347996721325_2_alg».proof.Proof.RefComp
import proofs.«159603_j71347996721325_2_alg».proof.Proof.AlgRealHost

namespace Cert.Algebra

open Cert.ReferenceIdeal Cert.ReferenceIdeal.Gen Cert.ReferenceIdeal.RefRun Idealize.ShloMosaic

/-- The degrees are reals when the edge weights are. -/
theorem allReal_ref_deg (a2 : (⟨S400000, .i32⟩ : BufTy).Contents (Elt Ideal))
    (a3 : (⟨S400000, .f32⟩ : BufTy).Contents (Elt Ideal)) (h3 : AllReal a3) :
    AllReal (res_main_v7 (F := Ideal) a2 a3) := by
  unfold res_main_v7
  dsimp only
  exact allReal_scatterAdd _ (allReal_bcast_zero _) h3 _

/-- The inverse square roots of the degrees (zero where the degree is not positive) are reals when the degrees are. -/
theorem allReal_ref_dis (v7 : (⟨S50000, .f32⟩ : BufTy).Contents (Elt Ideal)) (h7 : AllReal v7) :
    AllReal (res_main_v13 (F := Ideal) v7) := by
  unfold res_main_v13
  dsimp only
  exact allReal_degree_norm_bcast _ _ h7

/-- The product along each edge is a real when the per-node factors and the edge weights are. -/
theorem allReal_ref_edge (a1 : (⟨S400000, .i32⟩ : BufTy).Contents (Elt Ideal))
    (v13 : (⟨S50000, .f32⟩ : BufTy).Contents (Elt Ideal)) (a3 : (⟨S400000, .f32⟩ : BufTy).Contents (Elt Ideal))
    (a2 : (⟨S400000, .i32⟩ : BufTy).Contents (Elt Ideal)) (h13 : AllReal v13) (h3 : AllReal a3) :
    AllReal (res_main_v29 (F := Ideal) a1 v13 a3 a2) := by
  unfold res_main_v29
  dsimp only
  exact allReal_mulf (allReal_mulf (allReal_gather _ h13 _) h3) (allReal_gather _ h13 _)

/-- THE NORMALISED EDGE WEIGHTS are reals when the edge weights are, whatever the two index arrays hold. -/
theorem allReal_ref_w (a1 a2 : (⟨S400000, .i32⟩ : BufTy).Contents (Elt Ideal))
    (a3 : (⟨S400000, .f32⟩ : BufTy).Contents (Elt Ideal)) (h3 : AllReal a3) :
    AllReal (ref_w (F := Ideal) a1 a2 a3) := by
  unfold ref_w
  exact allReal_ref_edge a1 _ a3 a2 (allReal_ref_dis _ (allReal_ref_deg a2 a3 h3)) h3

/-- ONE PROPAGATION STEP at 4 features keeps reals. -/
theorem allReal_hop4 (a1 : (⟨S400000, .i32⟩ : BufTy).Contents (Elt Ideal))
    (h : (⟨S4x50000x4, .f32⟩ : BufTy).Contents (Elt Ideal)) (w : (⟨S400000, .f32⟩ : BufTy).Contents (Elt Ideal))
    (a2 : (⟨S400000, .i32⟩ : BufTy).Contents (Elt Ideal)) (hh : AllReal h) (hw : AllReal w) :
    AllReal (res_main_v50 (F := Ideal) a1 h w a2) := by
  unfold res_main_v50
  dsimp only
  exact allReal_scatterAdd _ (allReal_bcast_zero _)
    (allReal_mulf (allReal_gather _ hh _) (allReal_broadcastInDim _ _ (allReal_broadcastInDim _ _ hw))) _

/-- ONE PROPAGATION STEP at 64 features keeps reals. -/
theorem allReal_hop64 (a1 : (⟨S400000, .i32⟩ : BufTy).Contents (Elt Ideal))
    (h : (⟨S4x50000x64, .f32⟩ : BufTy).Contents (Elt Ideal)) (w : (⟨S400000, .f32⟩ : BufTy).Contents (Elt Ideal))
    (a2 : (⟨S400000, .i32⟩ : BufTy).Contents (Elt Ideal)) (hh : AllReal h) (hw : AllReal w) :
    AllReal (res_main_v141 (F := Ideal) a1 h w a2) := by
  unfold res_main_v141
  dsimp only
  exact allReal_scatterAdd _ (allReal_bcast_zero _)
    (allReal_mulf (allReal_gather _ hh _) (allReal_broadcastInDim _ _ (allReal_broadcastInDim _ _ hw))) _

end Cert.Algebra
-- ==== Proof.Bridge.lean ====
/-
  The two programs' results are one function of the arguments. Layer by layer, element by element: the kernel's region
  function of the input and its three propagations laid side by side is the reference's normalisation of the four products
  added up, because a sum over the 4·K concatenated features is the four sums over K, and because on real entries the
  one-pass and the two-pass normalisations agree. The entries are real because the arguments are, and gathers, finite sums
  of products, the degree's inverse square root away from zero, and each layer's normalisation keep real arrays real.
-/
import proofs.«159603_j71347996721325_2_alg».proof.Proof.KIdeal.Chain
import proofs.«159603_j71347996721325_2_alg».proof.Proof.KIdeal.HostIdx
import proofs.«159603_j71347996721325_2_alg».proof.Proof.RefChain
import proofs.«159603_j71347996721325_2_alg».proof.Proof.AlgNode
import proofs.«159603_j71347996721325_2_alg».proof.Proof.AlgRealHost
import proofs.«159603_j71347996721325_2_alg».proof.Proof.RefActIdx
import proofs.«159603_j71347996721325_2_alg».proof.Proof.RefOutIdx
import proofs.«159603_j71347996721325_2_alg».proof.Proof.RefReal

set_option maxRecDepth 16384

noncomputable section

namespace Cert.Proof.Bridge

open Cert.KernelIdeal Cert.KernelIdeal.Hand
open Cert.ReferenceIdeal.RefRun (R1 R2 R3 ref_act1 ref_out1 ref_out2 ref_out3 ref_final ref_w res_main_v50 res_main_v141 res_main_v285
  ref_act1_apply ref_out1_apply ref_out2_apply ref_out3_apply ref_final_apply)
open Cert.Algebra Cert.Spec
open Idealize.ShloMosaic Idealize.ShloMosaic.ValueIdx

/-- One element of layer 1, on the kernel's side, in the reference's normal form. -/
theorem layer1_node (a0 h1 h2 h3 : C S4x50000x4 .f32) (a4 : C S4x4x64 .f32) (a5 : C S64 .f32) (a10 a11 : C S50000 .f32)
    (r0 : AllReal a0) (r1 : AllReal h1) (r2 : AllReal h2) (r3 : AllReal h3) (r4 : AllReal a4) (r5 : AllReal a5)
    (b : Fin 4) (n : Fin 50000) (g : Fin 64) :
    G0 (kcat4 a0 h1 h2 h3) (kresh_w1 a4) (kresh_row64 a5) (kresh_col a10) (kresh_col a11) (ix3 b n g)
      = bnR (pre4 (fun i b' f => (![a0, h1, h2, h3] i) (ix3 b' n f)) (fun i f g' => a4 (ix3 i f g')) (fun g' => a5 (ix1 g')))
          (a10 (ix1 n)) (a11 (ix1 n)) b g := by
  show bnK (fun b' g' => (∑ j : Fin 16, kcat4 a0 h1 h2 h3 (ix3 b' n j) * kresh_w1 a4 (ix2 j g')) + kresh_row64 a5 (ix2 0 g'))
      (kresh_col a10 (ix2 n 0)) (kresh_col a11 (ix2 n 0)) b g = _
  rw [kresh_col_apply, kresh_col_apply]
  simp only [kresh_row64_apply]
  have hh : ∀ (i : Fin 4) (b' : Fin 4) (f : Fin 4), ∃ r : ℝ, (![a0, h1, h2, h3] i) (ix3 b' n f) = (r : EReal) := by
    intro i b' f
    fin_cases i
    · exact r0 _
    · exact r1 _
    · exact r2 _
    · exact r3 _
  exact node_bridge (n := 16) (K := 4) rfl (fun b' j => kcat4 a0 h1 h2 h3 (ix3 b' n j)) (fun j g' => kresh_w1 a4 (ix2 j g'))
    (fun i b' f => (![a0, h1, h2, h3] i) (ix3 b' n f)) (fun i f g' => a4 (ix3 i f g')) (fun g' => a5 (ix1 g')) _ _
    (fun b' i f j e => kcat4_apply a0 h1 h2 h3 b' n i f j e) (fun i f j g' e => kresh_w1_apply a4 i f j g' e)
    hh (fun i f g' => r4 _) (fun g' => r5 _) b g

/-- One element of layer 1: the kernel's region function of the four hop arrays laid side by side is the reference's
    normalisation of the four products added up. -/
theorem layer1_apply (a0 h1 h2 h3 : C S4x50000x4 .f32) (a4 : C S4x4x64 .f32) (a5 : C S64 .f32) (a10 a11 : C S50000 .f32)
    (r0 : AllReal a0) (r1 : AllReal h1) (r2 : AllReal h2) (r3 : AllReal h3) (r4 : AllReal a4) (r5 : AllReal a5)
    (b : Fin 4) (n : Fin 50000) (g : Fin 64) :
    G0 (kcat4 a0 h1 h2 h3) (kresh_w1 a4) (kresh_row64 a5) (kresh_col a10) (kresh_col a11) (ix3 b n g)
      = ref_act1 (F := Ideal) (ref_out1 a0 h1 h2 h3 a4 a5) a10 a11 (ix3 b n g) := by
  rw [layer1_node a0 h1 h2 h3 a4 a5 a10 a11 r0 r1 r2 r3 r4 r5 b n g, ref_act1_apply]
  congr 1
  funext b' g'
  rw [ref_out1_apply]
  rfl

/-- Layer 1's output is real when its inputs, weights, bias, scale and shift are. -/
theorem layer1_real (a0 h1 h2 h3 : C S4x50000x4 .f32) (a4 : C S4x4x64 .f32) (a5 : C S64 .f32) (a10 a11 : C S50000 .f32)
    (r0 : AllReal a0) (r1 : AllReal h1) (r2 : AllReal h2) (r3 : AllReal h3) (r4 : AllReal a4) (r5 : AllReal a5)
    (r10 : AllReal a10) (r11 : AllReal a11) :
    AllReal (G0 (kcat4 a0 h1 h2 h3) (kresh_w1 a4) (kresh_row64 a5) (kresh_col a10) (kresh_col a11)) := by
  intro i
  obtain ⟨b, n, g, rfl⟩ : ∃ (b : Fin 4) (n : Fin 50000) (g : Fin 64), i = ix3 b n g := ⟨i 0, i 1, i 2, eq_ix3 i⟩
  rw [layer1_node a0 h1 h2 h3 a4 a5 a10 a11 r0 r1 r2 r3 r4 r5 b n g]
  refine node_real _ _ _ _ _ ?_ (fun i f g' => r4 _) (fun g' => r5 _) (r10 _) (r11 _) b g
  intro i b' f
  fin_cases i
  · exact r0 _
  · exact r1 _
  · exact r2 _
  · exact r3 _

/-- One element of layer 2, on the kernel's side, in the reference's normal form. -/
theorem layer2_node (a0 h1 h2 h3 : C S4x50000x64 .f32) (a4 : C S4x64x64 .f32) (a5 : C S64 .f32) (a10 a11 : C S50000 .f32)
    (r0 : AllReal a0) (r1 : AllReal h1) (r2 : AllReal h2) (r3 : AllReal h3) (r4 : AllReal a4) (r5 : AllReal a5)
    (b : Fin 4) (n : Fin 50000) (g : Fin 64) :
    G1 (kcat64 a0 h1 h2 h3) (kresh_w2 a4) (kresh_row64 a5) (kresh_col a10) (kresh_col a11) (ix3 b n g)
      = bnR (pre4 (fun i b' f => (![a0, h1, h2, h3] i) (ix3 b' n f)) (fun i f g' => a4 (ix3 i f g')) (fun g' => a5 (ix1 g')))
          (a10 (ix1 n)) (a11 (ix1 n)) b g := by
  show bnK (fun b' g' => (∑ j : Fin 256, kcat64 a0 h1 h2 h3 (ix3 b' n j) * kresh_w2 a4 (ix2 j g')) + kresh_row64 a5 (ix2 0 g'))
      (kresh_col a10 (ix2 n 0)) (kresh_col a11 (ix2 n 0)) b g = _
  rw [kresh_col_apply, kresh_col_apply]
  simp only [kresh_row64_apply]
  have hh : ∀ (i : Fin 4) (b' : Fin 4) (f : Fin 64), ∃ r : ℝ, (![a0, h1, h2, h3] i) (ix3 b' n f) = (r : EReal) := by
    intro i b' f
    fin_cases i
    · exact r0 _
    · exact r1 _
    · exact r2 _
    · exact r3 _
  exact node_bridge (n := 256) (K := 64) rfl (fun b' j => kcat64 a0 h1 h2 h3 (ix3 b' n j)) (fun j g' => kresh_w2 a4 (ix2 j g'))
    (fun i b' f => (![a0, h1, h2, h3] i) (ix3 b' n f)) (fun i f g' => a4 (ix3 i f g')) (fun g' => a5 (ix1 g')) _ _
    (fun b' i f j e => kcat64_apply a0 h1 h2 h3 b' n i f j e) (fun i f j g' e => kresh_w2_apply a4 i f j g' e)
    hh (fun i f g' => r4 _) (fun g' => r5 _) b g

/-- One element of layer 2: the kernel's region function of the four hop arrays laid side by side is the reference's
    normalisation of the four products added up. -/
theorem layer2_apply (a0 h1 h2 h3 : C S4x50000x64 .f32) (a4 : C S4x64x64 .f32) (a5 : C S64 .f32) (a10 a11 : C S50000 .f32)
    (r0 : AllReal a0) (r1 : AllReal h1) (r2 : AllReal h2) (r3 : AllReal h3) (r4 : AllReal a4) (r5 : AllReal a5)
    (b : Fin 4) (n : Fin 50000) (g : Fin 64) :
    G1 (kcat64 a0 h1 h2 h3) (kresh_w2 a4) (kresh_row64 a5) (kresh_col a10) (kresh_col a11) (ix3 b n g)
      = ref_act1 (F := Ideal) (ref_out2 a0 h1 h2 h3 a4 a5) a10 a11 (ix3 b n g) := by
  rw [layer2_node a0 h1 h2 h3 a4 a5 a10 a11 r0 r1 r2 r3 r4 r5 b n g, ref_act1_apply]
  congr 1
  funext b' g'
  rw [ref_out2_apply]
  rfl

/-- Layer 2's output is real when its inputs, weights, bias, scale and shift are. -/
theorem layer2_real (a0 h1 h2 h3 : C S4x50000x64 .f32) (a4 : C S4x64x64 .f32) (a5 : C S64 .f32) (a10 a11 : C S50000 .f32)
    (r0 : AllReal a0) (r1 : AllReal h1) (r2 : AllReal h2) (r3 : AllReal h3) (r4 : AllReal a4) (r5 : AllReal a5)
    (r10 : AllReal a10) (r11 : AllReal a11) :
    AllReal (G1 (kcat64 a0 h1 h2 h3) (kresh_w2 a4) (kresh_row64 a5) (kresh_col a10) (kresh_col a11)) := by
  intro i
  obtain ⟨b, n, g, rfl⟩ : ∃ (b : Fin 4) (n : Fin 50000) (g : Fin 64), i = ix3 b n g := ⟨i 0, i 1, i 2, eq_ix3 i⟩
  rw [layer2_node a0 h1 h2 h3 a4 a5 a10 a11 r0 r1 r2 r3 r4 r5 b n g]
  refine node_real _ _ _ _ _ ?_ (fun i f g' => r4 _) (fun g' => r5 _) (r10 _) (r11 _) b g
  intro i b' f
  fin_cases i
  · exact r0 _
  · exact r1 _
  · exact r2 _
  · exact r3 _

/-- One element of the last layer: the same split of the concatenated product, then the rescaling, the mask and the clamp,
    which the two programs write alike. -/
theorem layer3_apply (x h1 h2 h3 : C S4x50000x64 .f32) (a8 : C S4x64x2 .f32) (a9 : C S2 .f32) (a14 a15 a16 : C S50000x2 .f32)
    (a17 a18 a19 a20 : C S50000 .f32) (b : Fin 4) (n : Fin 50000) (g : Fin 2) :
    G2 (kcat64 x h1 h2 h3) (kresh_w3 a8) (kresh_row2 a9) a15 (res_main_v285 (F := Ideal) a16) a14 (kstack a17 a19) (kstack a18 a20) (ix3 b n g)
      = ref_final (F := Ideal) (ref_out3 x h1 h2 h3 a8 a9) a14 a15 a16 a17 a18 a19 a20 (ix3 b n g) := by
  rw [ref_final_apply, ref_out3_apply]
  show min (kstack a18 a20 (ix2 n g)) (max (kstack a17 a19 (ix2 n g))
      ((((∑ j : Fin 256, kcat64 x h1 h2 h3 (ix3 b n j) * kresh_w3 a8 (ix2 j g)) + kresh_row2 a9 (ix2 0 g)) * res_main_v285 (F := Ideal) a16 (ix2 n g)
        + a15 (ix2 n g)) * a14 (ix2 n g))) = _
  rw [kstack_apply, kstack_apply, kresh_row2_apply]
  have hpre : (∑ j : Fin 256, kcat64 x h1 h2 h3 (ix3 b n j) * kresh_w3 a8 (ix2 j g)) + a9 (ix1 g)
      = pre4 (fun i b' f => (![x, h1, h2, h3] i) (ix3 b' n f)) (fun i f g' => a8 (ix3 i f g')) (fun g' => a9 (ix1 g')) b g :=
    congrFun (congrFun (cat_pre_eq (n := 256) (K := 64) (G := 2) rfl (fun b' j => kcat64 x h1 h2 h3 (ix3 b' n j)) (fun j g' => kresh_w3 a8 (ix2 j g'))
      (fun i b' f => (![x, h1, h2, h3] i) (ix3 b' n f)) (fun i f g' => a8 (ix3 i f g')) (fun g' => a9 (ix1 g'))
      (fun b' i f j e => kcat64_apply x h1 h2 h3 b' n i f j e) (fun i f j g' e => kresh_w3_apply a8 i f j g' e)) b) g
  rw [hpre]
  rfl

/-! ## The three layers as whole arrays -/

theorem K1_eq_R1 (a1 a2 : C S400000 .i32) (a3 : C S400000 .f32) (a0 : C S4x50000x4 .f32) (a4 : C S4x4x64 .f32) (a5 : C S64 .f32) (a10 a11 : C S50000 .f32)
    (r0 : AllReal a0) (r3 : AllReal a3) (r4 : AllReal a4) (r5 : AllReal a5) :
    K1 a1 a2 a3 a0 a4 a5 a10 a11 = R1 (F := Ideal) a1 a2 a3 a0 a4 a5 a10 a11 := by
  have rw_ := allReal_ref_w a1 a2 a3 r3
  have q1 := allReal_hop4 a1 a0 _ a2 r0 rw_
  have q2 := allReal_hop4 a1 _ _ a2 q1 rw_
  have q3 := allReal_hop4 a1 _ _ a2 q2 rw_
  funext i
  obtain ⟨b, n, g, rfl⟩ : ∃ (b : Fin 4) (n : Fin 50000) (g : Fin 64), i = ix3 b n g := ⟨i 0, i 1, i 2, eq_ix3 i⟩
  exact layer1_apply a0 _ _ _ a4 a5 a10 a11 r0 q1 q2 q3 r4 r5 b n g

theorem K1_real (a1 a2 : C S400000 .i32) (a3 : C S400000 .f32) (a0 : C S4x50000x4 .f32) (a4 : C S4x4x64 .f32) (a5 : C S64 .f32) (a10 a11 : C S50000 .f32)
    (r0 : AllReal a0) (r3 : AllReal a3) (r4 : AllReal a4) (r5 : AllReal a5) (r10 : AllReal a10) (r11 : AllReal a11) :
    AllReal (K1 a1 a2 a3 a0 a4 a5 a10 a11) := by
  have rw_ := allReal_ref_w a1 a2 a3 r3
  have q1 := allReal_hop4 a1 a0 _ a2 r0 rw_
  have q2 := allReal_hop4 a1 _ _ a2 q1 rw_
  have q3 := allReal_hop4 a1 _ _ a2 q2 rw_
  exact layer1_real a0 _ _ _ a4 a5 a10 a11 r0 q1 q2 q3 r4 r5 r10 r11

theorem K2_eq_R2 (a1 a2 : C S400000 .i32) (a3 : C S400000 .f32) (x : C S4x50000x64 .f32) (a6 : C S4x64x64 .f32) (a7 : C S64 .f32) (a12 a13 : C S50000 .f32)
    (rx : AllReal x) (r3 : AllReal a3) (r6 : AllReal a6) (r7 : AllReal a7) :
    K2 a1 a2 a3 x a6 a7 a12 a13 = R2 (F := Ideal) a1 a2 a3 x a6 a7 a12 a13 := by
  have rw_ := allReal_ref_w a1 a2 a3 r3
  have q1 := allReal_hop64 a1 x _ a2 rx rw_
  have q2 := allReal_hop64 a1 _ _ a2 q1 rw_
  have q3 := allReal_hop64 a1 _ _ a2 q2 rw_
  funext i
  obtain ⟨b, n, g, rfl⟩ : ∃ (b : Fin 4) (n : Fin 50000) (g : Fin 64), i = ix3 b n g := ⟨i 0, i 1, i 2, eq_ix3 i⟩
  exact layer2_apply x _ _ _ a6 a7 a12 a13 rx q1 q2 q3 r6 r7 b n g

theorem K2_real (a1 a2 : C S400000 .i32) (a3 : C S400000 .f32) (x : C S4x50000x64 .f32) (a6 : C S4x64x64 .f32) (a7 : C S64 .f32) (a12 a13 : C S50000 .f32)
    (rx : AllReal x) (r3 : AllReal a3) (r6 : AllReal a6) (r7 : AllReal a7) (r12 : AllReal a12) (r13 : AllReal a13) :
    AllReal (K2 a1 a2 a3 x a6 a7 a12 a13) := by
  have rw_ := allReal_ref_w a1 a2 a3 r3
  have q1 := allReal_hop64 a1 x _ a2 rx rw_
  have q2 := allReal_hop64 a1 _ _ a2 q1 rw_
  have q3 := allReal_hop64 a1 _ _ a2 q2 rw_
  exact layer2_real x _ _ _ a6 a7 a12 a13 rx q1 q2 q3 r6 r7 r12 r13

theorem K3_eq_R3 (a1 a2 : C S400000 .i32) (a3 : C S400000 .f32) (x : C S4x50000x64 .f32) (a8 : C S4x64x2 .f32) (a9 : C S2 .f32)
    (a14 a15 a16 : C S50000x2 .f32) (a17 a18 a19 a20 : C S50000 .f32) :
    K3 a1 a2 a3 x a8 a9 a14 a15 a16 a17 a18 a19 a20 = R3 (F := Ideal) a1 a2 a3 x a8 a9 a14 a15 a16 a17 a18 a19 a20 := by
  funext i
  obtain ⟨b, n, g, rfl⟩ : ∃ (b : Fin 4) (n : Fin 50000) (g : Fin 2), i = ix3 b n g := ⟨i 0, i 1, i 2, eq_ix3 i⟩
  exact layer3_apply x _ _ _ a8 a9 a14 a15 a16 a17 a18 a19 a20 b n g

/-- The two programs' results are one function of the arguments, when every float argument is real. -/
theorem result_eq (a1 a2 : C S400000 .i32) (a3 : C S400000 .f32) (a0 : C S4x50000x4 .f32) (a4 : C S4x4x64 .f32) (a5 : C S64 .f32)
    (a6 : C S4x64x64 .f32) (a7 : C S64 .f32) (a8 : C S4x64x2 .f32) (a9 : C S2 .f32) (a10 a11 a12 a13 : C S50000 .f32)
    (a14 a15 a16 : C S50000x2 .f32) (a17 a18 a19 a20 : C S50000 .f32)
    (r0 : AllReal a0) (r3 : AllReal a3) (r4 : AllReal a4) (r5 : AllReal a5) (r6 : AllReal a6) (r7 : AllReal a7)
    (r10 : AllReal a10) (r11 : AllReal a11) :
    K3 a1 a2 a3 (K2 a1 a2 a3 (K1 a1 a2 a3 a0 a4 a5 a10 a11) a6 a7 a12 a13) a8 a9 a14 a15 a16 a17 a18 a19 a20
      = R3 (F := Ideal) a1 a2 a3 (R2 a1 a2 a3 (R1 a1 a2 a3 a0 a4 a5 a10 a11) a6 a7 a12 a13) a8 a9 a14 a15 a16 a17 a18 a19 a20 := by
  have e1 := K1_eq_R1 a1 a2 a3 a0 a4 a5 a10 a11 r0 r3 r4 r5
  have q1 := K1_real a1 a2 a3 a0 a4 a5 a10 a11 r0 r3 r4 r5 r10 r11
  have e2 := K2_eq_R2 a1 a2 a3 (K1 a1 a2 a3 a0 a4 a5 a10 a11) a6 a7 a12 a13 q1 r3 r6 r7
  rw [K3_eq_R3, e2, e1]

end Cert.Proof.Bridge

end
-- ==== Proof.PreReal.lean ====
/-
  The precondition read back: every float input holds real numbers. The predicate is, per float argument x, the
  conjunction over all entries of |x| < +∞, and then the conjunction of the 19 results; it says nothing of the two integer
  arguments. When it answers 1, every conjunct is 1, so at every entry the extended real max(x, −x) is below the top,
  which excludes both infinities: the entry is a real.
-/
import Idealize.ShloMosaic.PureOps.Ideal
import Idealize.ShloMosaic.PureOps.Ideal.Laws
import Idealize.ShloMosaic.Lib.ReduceAll
import Idealize.ShloMosaic.Lib.ValueIdx
import Mathlib.Tactic
import proofs.«159603_j71347996721325_2_alg».proof.Pre_finite_inputs
import proofs.«159603_j71347996721325_2_alg».proof.Proof.AlgConsts
import proofs.«159603_j71347996721325_2_alg».proof.Proof.AlgRealHost

namespace Cert.Proof.PreReal

open Idealize.ShloMosaic Cert.Algebra

/-- The scalar shape has one index. -/
instance : Subsingleton (⟨0, ![]⟩ : Shape).Idx := ⟨fun a b => funext fun d => d.elim0⟩

/-- An extended real whose absolute value is below the top is a real. -/
theorem real_of_abs_lt_top (x : EReal) (h : max x (-x) < ⊤) : ∃ r : ℝ, x = (r : EReal) := by
  induction x using EReal.rec with
  | bot => simp at h
  | top => simp at h
  | coe r => exact ⟨r, rfl⟩

/-- The element test of the predicate: the comparison "|x| < +∞" answering 1 makes x a real. -/
theorem real_of_isfinite (x : Ideal .f32)
    (h : FloatOps.cmpf .olt (FloatOps.hostAbsf x) (Ideal.ofBits .f32 0x7F800000#32) = 1#1) :
    ∃ r : ℝ, x = (r : EReal) := by
  refine real_of_abs_lt_top x ?_
  have h' : BitVec.ofBool (decide (max x (-x) < Ideal.ofBits .f32 0x7F800000#32)) = 1#1 := h
  rw [ofBits_inf] at h'
  by_contra hn
  rw [decide_eq_false hn] at h'
  exact absurd h' (by decide)

/-- ONE ARRAY: if the conjunction over all entries of "|x| < +∞" is 1, every entry of the array is a real. Any shape,
    any list of reduced axes that leaves the scalar shape. -/
theorem allReal_of_isfinite_all {S : Shape} {axes : List (Fin S.rank)}
    (hb : (⟨0, ![]⟩ : Shape).BroadcastsInDim S (![] : Fin 0 → Fin S.rank)) (hr : S.ReducesTo axes ⟨0, ![]⟩)
    (hu : 0 < (⟨0, ![]⟩ : Shape).numel) (x : FVec Ideal S .f32)
    (e : Host.reduce IntOp.andi
          (cmpf .olt (Host.absf x) (broadcastInDim S ![] hb (constant (F := Ideal) ⟨0, ![]⟩ .f32 0x7F800000#32)))
          (constantI ⟨0, ![]⟩ 1 1#1) hr hu ValueIdx.ix0 = 1#1) : AllReal x := by
  intro i
  exact real_of_isfinite (x i) (Host.reduce_andi_all _ _ hr hu _ e i)

open Cert.Pre_finite_inputs in
/-- THE PRECONDITION: if the predicate answers 1 on the 21 arguments, each of the 19 float arguments holds real numbers
    (the integer arguments `a1` and `a2` are not constrained). -/
theorem inputs_real [Cert.Pre_finite_inputs.Facts]
    (a0 : FVec Ideal S4x50000x4 .f32) (a1 : IVec S400000 32) (a2 : IVec S400000 32) (a3 : FVec Ideal S400000 .f32)
    (a4 : FVec Ideal S4x4x64 .f32) (a5 : FVec Ideal S64 .f32) (a6 : FVec Ideal S4x64x64 .f32) (a7 : FVec Ideal S64 .f32)
    (a8 : FVec Ideal S4x64x2 .f32) (a9 : FVec Ideal S2 .f32) (a10 : FVec Ideal S50000 .f32) (a11 : FVec Ideal S50000 .f32)
    (a12 : FVec Ideal S50000 .f32) (a13 : FVec Ideal S50000 .f32) (a14 : FVec Ideal S50000x2 .f32)
    (a15 : FVec Ideal S50000x2 .f32) (a16 : FVec Ideal S50000x2 .f32) (a17 : FVec Ideal S50000 .f32)
    (a18 : FVec Ideal S50000 .f32) (a19 : FVec Ideal S50000 .f32) (a20 : FVec Ideal S50000 .f32)
    (h : Cert.Pre_finite_inputs.fn (F := Ideal) a0 a1 a2 a3 a4 a5 a6 a7 a8 a9 a10 a11 a12 a13 a14 a15 a16 a17 a18 a19 a20
          = fun _ => 1#1) :
    AllReal a0 ∧ AllReal a3 ∧ AllReal a4 ∧ AllReal a5 ∧ AllReal a6 ∧ AllReal a7 ∧ AllReal a8 ∧ AllReal a9 ∧ AllReal a10
      ∧ AllReal a11 ∧ AllReal a12 ∧ AllReal a13 ∧ AllReal a14 ∧ AllReal a15 ∧ AllReal a16 ∧ AllReal a17 ∧ AllReal a18
      ∧ AllReal a19 ∧ AllReal a20 := by
  have h0 := congrFun h ValueIdx.ix0
  dsimp only [fn, fn_part1, fn_part2, fn_part3, fn_part4, fn_part5, andi] at h0
  simp only [IntOp.andi_eq_one] at h0
  obtain ⟨⟨⟨⟨⟨⟨⟨⟨⟨⟨⟨⟨⟨⟨⟨⟨⟨⟨e0, e3⟩, e4⟩, e5⟩, e6⟩, e7⟩, e8⟩, e9⟩, e10⟩, e11⟩, e12⟩, e13⟩, e14⟩, e15⟩, e16⟩, e17⟩, e18⟩, e19⟩,
    e20⟩ := h0
  exact ⟨allReal_of_isfinite_all _ _ _ a0 e0, allReal_of_isfinite_all _ _ _ a3 e3, allReal_of_isfinite_all _ _ _ a4 e4,
    allReal_of_isfinite_all _ _ _ a5 e5, allReal_of_isfinite_all _ _ _ a6 e6, allReal_of_isfinite_all _ _ _ a7 e7,
    allReal_of_isfinite_all _ _ _ a8 e8, allReal_of_isfinite_all _ _ _ a9 e9, allReal_of_isfinite_all _ _ _ a10 e10,
    allReal_of_isfinite_all _ _ _ a11 e11, allReal_of_isfinite_all _ _ _ a12 e12, allReal_of_isfinite_all _ _ _ a13 e13,
    allReal_of_isfinite_all _ _ _ a14 e14, allReal_of_isfinite_all _ _ _ a15 e15, allReal_of_isfinite_all _ _ _ a16 e16,
    allReal_of_isfinite_all _ _ _ a17 e17, allReal_of_isfinite_all _ _ _ a18 e18, allReal_of_isfinite_all _ _ _ a19 e19,
    allReal_of_isfinite_all _ _ _ a20 e20⟩

end Cert.Proof.PreReal
-- ==== Proof.Algebraic.lean ====
/-
  The two idealized programs, run from memories that agree on the arguments, end with the same result array. The kernel
  program's run ends with its result buffer at the third layer's function of the second's of the first's of the arguments
  (its run through the three regions and the value of each region's output); the reference's run ends with its result
  buffer at the same composition written with its own layer functions; under the precondition every float argument is
  real, and then the two compositions are one function. Both runs leave the argument arrays as launched.
-/
import proofs.«159603_j71347996721325_2_alg».proof.Proof.Frames
import proofs.«159603_j71347996721325_2_alg».proof.Proof.Bridge
import proofs.«159603_j71347996721325_2_alg».proof.Proof.PreReal

set_option maxRecDepth 16384

noncomputable section

namespace Cert.Proof.Algebraic

open Idealize.ShloMosaic Idealize.ShloMosaic.TcCoe Idealize.SL.Sem Idealize.ShloMosaic.StableHlo
open Cert.KernelIdeal.Hand Cert.Proof.Bridge Cert.Algebra

theorem algebraic : Cert.algebraic_KernelIdeal_ReferenceIdeal := by
  intro m ρ m' ρ' hpre hagree
  refine ⟨fun c => Wd m ρ c (Proc.devRef .tc Cert.KernelIdeal.main_v215), ?_, ?_⟩
  · -- the kernel program: its run, read at the result buffer and at the arguments
    refine (θ_run Cert.KernelIdeal.defs _ _).mono (fun r h c => ?_) (run_all m ρ)
    have hk := keep_all m ρ c
    unfold ArgsKept at hk
    obtain ⟨k0, k1, k2, k3, k4, k5, k6, k7, k8, k9, k10, k11, k12, k13, k14, k15, k16, k17, k18, k19, k20⟩ := hk
    exact ⟨h c _ (mem_uc Cert.KernelIdeal.main_v215 (by decide)),
      (h c _ (mem_uc Cert.KernelIdeal.main_arg0 (by decide))).trans k0,
      (h c _ (mem_uc Cert.KernelIdeal.main_arg1 (by decide))).trans k1,
      (h c _ (mem_uc Cert.KernelIdeal.main_arg2 (by decide))).trans k2,
      (h c _ (mem_uc Cert.KernelIdeal.main_arg3 (by decide))).trans k3,
      (h c _ (mem_uc Cert.KernelIdeal.main_arg4 (by decide))).trans k4,
      (h c _ (mem_uc Cert.KernelIdeal.main_arg5 (by decide))).trans k5,
      (h c _ (mem_uc Cert.KernelIdeal.main_arg6 (by decide))).trans k6,
      (h c _ (mem_uc Cert.KernelIdeal.main_arg7 (by decide))).trans k7,
      (h c _ (mem_uc Cert.KernelIdeal.main_arg8 (by decide))).trans k8,
      (h c _ (mem_uc Cert.KernelIdeal.main_arg9 (by decide))).trans k9,
      (h c _ (mem_uc Cert.KernelIdeal.main_arg10 (by decide))).trans k10,
      (h c _ (mem_uc Cert.KernelIdeal.main_arg11 (by decide))).trans k11,
      (h c _ (mem_uc Cert.KernelIdeal.main_arg12 (by decide))).trans k12,
      (h c _ (mem_uc Cert.KernelIdeal.main_arg13 (by decide))).trans k13,
      (h c _ (mem_uc Cert.KernelIdeal.main_arg14 (by decide))).trans k14,
      (h c _ (mem_uc Cert.KernelIdeal.main_arg15 (by decide))).trans k15,
      (h c _ (mem_uc Cert.KernelIdeal.main_arg16 (by decide))).trans k16,
      (h c _ (mem_uc Cert.KernelIdeal.main_arg17 (by decide))).trans k17,
      (h c _ (mem_uc Cert.KernelIdeal.main_arg18 (by decide))).trans k18,
      (h c _ (mem_uc Cert.KernelIdeal.main_arg19 (by decide))).trans k19,
      (h c _ (mem_uc Cert.KernelIdeal.main_arg20 (by decide))).trans k20⟩
  · -- the reference: its run, the result buffer through the bridge, the arguments unwritten
    refine (θ_run Cert.ReferenceIdeal.defs _ _).mono (fun r h c => ?_) (Cert.ReferenceIdeal.RefRun.run_after m' ρ')
    obtain ⟨g0, g1, g2, g3, g4, g5, g6, g7, g8, g9, g10, g11, g12, g13, g14, g15, g16, g17, g18, g19, g20⟩ := hagree c
    obtain ⟨r0, r3, r4, r5, r6, r7, r8, r9, r10, r11, r12, r13, r14, r15, r16, r17, r18, r19, r20⟩ := Cert.Proof.PreReal.inputs_real _ _ _ _ _ _ _ _ _ _ _ _ _ _ _ _ _ _ _ _ _ (hpre c)
    have au := Cert.ReferenceIdeal.RefRun.args_unwritten
    obtain ⟨u0, u1, u2, u3, u4, u5, u6, u7, u8, u9, u10, u11, u12, u13, u14, u15, u16, u17, u18, u19, u20⟩ := au
    refine ⟨?_, (h c Cert.ReferenceIdeal.main_arg0).trans (Cert.ReferenceIdeal.RefRun.after_unwritten _ u0),
      (h c Cert.ReferenceIdeal.main_arg1).trans (Cert.ReferenceIdeal.RefRun.after_unwritten _ u1),
      (h c Cert.ReferenceIdeal.main_arg2).trans (Cert.ReferenceIdeal.RefRun.after_unwritten _ u2),
      (h c Cert.ReferenceIdeal.main_arg3).trans (Cert.ReferenceIdeal.RefRun.after_unwritten _ u3),
      (h c Cert.ReferenceIdeal.main_arg4).trans (Cert.ReferenceIdeal.RefRun.after_unwritten _ u4),
      (h c Cert.ReferenceIdeal.main_arg5).trans (Cert.ReferenceIdeal.RefRun.after_unwritten _ u5),
      (h c Cert.ReferenceIdeal.main_arg6).trans (Cert.ReferenceIdeal.RefRun.after_unwritten _ u6),
      (h c Cert.ReferenceIdeal.main_arg7).trans (Cert.ReferenceIdeal.RefRun.after_unwritten _ u7),
      (h c Cert.ReferenceIdeal.main_arg8).trans (Cert.ReferenceIdeal.RefRun.after_unwritten _ u8),
      (h c Cert.ReferenceIdeal.main_arg9).trans (Cert.ReferenceIdeal.RefRun.after_unwritten _ u9),
      (h c Cert.ReferenceIdeal.main_arg10).trans (Cert.ReferenceIdeal.RefRun.after_unwritten _ u10),
      (h c Cert.ReferenceIdeal.main_arg11).trans (Cert.ReferenceIdeal.RefRun.after_unwritten _ u11),
      (h c Cert.ReferenceIdeal.main_arg12).trans (Cert.ReferenceIdeal.RefRun.after_unwritten _ u12),
      (h c Cert.ReferenceIdeal.main_arg13).trans (Cert.ReferenceIdeal.RefRun.after_unwritten _ u13),
      (h c Cert.ReferenceIdeal.main_arg14).trans (Cert.ReferenceIdeal.RefRun.after_unwritten _ u14),
      (h c Cert.ReferenceIdeal.main_arg15).trans (Cert.ReferenceIdeal.RefRun.after_unwritten _ u15),
      (h c Cert.ReferenceIdeal.main_arg16).trans (Cert.ReferenceIdeal.RefRun.after_unwritten _ u16),
      (h c Cert.ReferenceIdeal.main_arg17).trans (Cert.ReferenceIdeal.RefRun.after_unwritten _ u17),
      (h c Cert.ReferenceIdeal.main_arg18).trans (Cert.ReferenceIdeal.RefRun.after_unwritten _ u18),
      (h c Cert.ReferenceIdeal.main_arg19).trans (Cert.ReferenceIdeal.RefRun.after_unwritten _ u19),
      (h c Cert.ReferenceIdeal.main_arg20).trans (Cert.ReferenceIdeal.RefRun.after_unwritten _ u20)⟩
    refine (h c Cert.ReferenceIdeal.main_v303).trans ?_
    rw [Cert.ReferenceIdeal.RefRun.after_result]
    have h0 : launchContents m' c (Proc.devRef .tc Cert.ReferenceIdeal.main_arg0) = m ((c.tc : Thread Cert.KernelIdeal.nD Cert.KernelIdeal.τ).loc Cert.KernelIdeal.main_arg0) := g0
    have h1 : launchContents m' c (Proc.devRef .tc Cert.ReferenceIdeal.main_arg1) = m ((c.tc : Thread Cert.KernelIdeal.nD Cert.KernelIdeal.τ).loc Cert.KernelIdeal.main_arg1) := g1
    have h2 : launchContents m' c (Proc.devRef .tc Cert.ReferenceIdeal.main_arg2) = m ((c.tc : Thread Cert.KernelIdeal.nD Cert.KernelIdeal.τ).loc Cert.KernelIdeal.main_arg2) := g2
    have h3 : launchContents m' c (Proc.devRef .tc Cert.ReferenceIdeal.main_arg3) = m ((c.tc : Thread Cert.KernelIdeal.nD Cert.KernelIdeal.τ).loc Cert.KernelIdeal.main_arg3) := g3
    have h4 : launchContents m' c (Proc.devRef .tc Cert.ReferenceIdeal.main_arg4) = m ((c.tc : Thread Cert.KernelIdeal.nD Cert.KernelIdeal.τ).loc Cert.KernelIdeal.main_arg4) := g4
    have h5 : launchContents m' c (Proc.devRef .tc Cert.ReferenceIdeal.main_arg5) = m ((c.tc : Thread Cert.KernelIdeal.nD Cert.KernelIdeal.τ).loc Cert.KernelIdeal.main_arg5) := g5
    have h6 : launchContents m' c (Proc.devRef .tc Cert.ReferenceIdeal.main_arg6) = m ((c.tc : Thread Cert.KernelIdeal.nD Cert.KernelIdeal.τ).loc Cert.KernelIdeal.main_arg6) := g6
    have h7 : launchContents m' c (Proc.devRef .tc Cert.ReferenceIdeal.main_arg7) = m ((c.tc : Thread Cert.KernelIdeal.nD Cert.KernelIdeal.τ).loc Cert.KernelIdeal.main_arg7) := g7
    have h8 : launchContents m' c (Proc.devRef .tc Cert.ReferenceIdeal.main_arg8) = m ((c.tc : Thread Cert.KernelIdeal.nD Cert.KernelIdeal.τ).loc Cert.KernelIdeal.main_arg8) := g8
    have h9 : launchContents m' c (Proc.devRef .tc Cert.ReferenceIdeal.main_arg9) = m ((c.tc : Thread Cert.KernelIdeal.nD Cert.KernelIdeal.τ).loc Cert.KernelIdeal.main_arg9) := g9
    have h10 : launchContents m' c (Proc.devRef .tc Cert.ReferenceIdeal.main_arg10) = m ((c.tc : Thread Cert.KernelIdeal.nD Cert.KernelIdeal.τ).loc Cert.KernelIdeal.main_arg10) := g10
    have h11 : launchContents m' c (Proc.devRef .tc Cert.ReferenceIdeal.main_arg11) = m ((c.tc : Thread Cert.KernelIdeal.nD Cert.KernelIdeal.τ).loc Cert.KernelIdeal.main_arg11) := g11
    have h12 : launchContents m' c (Proc.devRef .tc Cert.ReferenceIdeal.main_arg12) = m ((c.tc : Thread Cert.KernelIdeal.nD Cert.KernelIdeal.τ).loc Cert.KernelIdeal.main_arg12) := g12
    have h13 : launchContents m' c (Proc.devRef .tc Cert.ReferenceIdeal.main_arg13) = m ((c.tc : Thread Cert.KernelIdeal.nD Cert.KernelIdeal.τ).loc Cert.KernelIdeal.main_arg13) := g13
    have h14 : launchContents m' c (Proc.devRef .tc Cert.ReferenceIdeal.main_arg14) = m ((c.tc : Thread Cert.KernelIdeal.nD Cert.KernelIdeal.τ).loc Cert.KernelIdeal.main_arg14) := g14
    have h15 : launchContents m' c (Proc.devRef .tc Cert.ReferenceIdeal.main_arg15) = m ((c.tc : Thread Cert.KernelIdeal.nD Cert.KernelIdeal.τ).loc Cert.KernelIdeal.main_arg15) := g15
    have h16 : launchContents m' c (Proc.devRef .tc Cert.ReferenceIdeal.main_arg16) = m ((c.tc : Thread Cert.KernelIdeal.nD Cert.KernelIdeal.τ).loc Cert.KernelIdeal.main_arg16) := g16
    have h17 : launchContents m' c (Proc.devRef .tc Cert.ReferenceIdeal.main_arg17) = m ((c.tc : Thread Cert.KernelIdeal.nD Cert.KernelIdeal.τ).loc Cert.KernelIdeal.main_arg17) := g17
    have h18 : launchContents m' c (Proc.devRef .tc Cert.ReferenceIdeal.main_arg18) = m ((c.tc : Thread Cert.KernelIdeal.nD Cert.KernelIdeal.τ).loc Cert.KernelIdeal.main_arg18) := g18
    have h19 : launchContents m' c (Proc.devRef .tc Cert.ReferenceIdeal.main_arg19) = m ((c.tc : Thread Cert.KernelIdeal.nD Cert.KernelIdeal.τ).loc Cert.KernelIdeal.main_arg19) := g19
    have h20 : launchContents m' c (Proc.devRef .tc Cert.ReferenceIdeal.main_arg20) = m ((c.tc : Thread Cert.KernelIdeal.nD Cert.KernelIdeal.τ).loc Cert.KernelIdeal.main_arg20) := g20
    rw [h0, h1, h2, h3, h4, h5, h6, h7, h8, h9, h10, h11, h12, h13, h14, h15, h16, h17, h18, h19, h20]
    have e := result_eq (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg0))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))
      r0 r3 r4 r5 r6 r7 r10 r11
    exact e.symm.trans (Wd_v215 m ρ c).symm

end Cert.Proof.Algebraic

end
-- ==== Proof.lean ====
/-
  The certificate's five claims. The three frames: each program runs to the end, faults nowhere and leaves its argument
  arrays unchanged — the kernel programs through nine stretches of host operations and three Pallas regions whose bodies
  load whole blocks, compute, and store one whole block; the reference as one line of host operations. The idealization
  rewrote nothing. The two idealized programs agree: three graph-convolution layers, each the sum over four propagation
  depths of the propagated features times that depth's weights plus a bias, the first two followed by a per-node batch
  normalisation and a leaky rectifier, the last by a rescaling, a mask and a per-node clamp; the kernel concatenates the four
  depths and multiplies once where the reference multiplies four times and adds, and takes the variance in one pass where
  the reference takes it in two, which on real inputs is the same number.
-/
import proofs.«159603_j71347996721325_2_alg».proof.Defs
import proofs.«159603_j71347996721325_2_alg».proof.Proof.Gen.Kernel
import proofs.«159603_j71347996721325_2_alg».proof.Proof.Gen.KernelIdeal
import proofs.«159603_j71347996721325_2_alg».proof.Proof.Gen.ReferenceIdeal
import proofs.«159603_j71347996721325_2_alg».proof.Proof.Gen.Pre_finite_inputs
import proofs.«159603_j71347996721325_2_alg».proof.Proof.Frames
import proofs.«159603_j71347996721325_2_alg».proof.Proof.Algebraic

noncomputable section

namespace Cert.Proof

theorem claim : Cert.Claim := ⟨Cert.Kernel.Gen.facts, Cert.KernelIdeal.Gen.facts, Cert.ReferenceIdeal.Gen.facts, Cert.Pre_finite_inputs.Gen.facts,
  Cert.Proof.Frames.frame_k, Cert.Proof.Frames.frame_ki, Cert.Proof.Frames.frame_ri, Cert.Proof.Frames.preserves,
  Cert.Proof.Algebraic.algebraic⟩

end Cert.Proof

end
